-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x256x16 : Shape := ⟨3, ![256, 256, 16]⟩
abbrev S256x256x256 : Shape := ⟨3, ![256, 256, 256]⟩
abbrev S368x64 : Shape := ⟨2, ![368, 64]⟩
abbrev S256x256x32 : Shape := ⟨3, ![256, 256, 32]⟩
abbrev S_ : Shape := ⟨0, ![]⟩

class Facts : Prop where
  bcast_S_S256x256x16 : S_.BroadcastsInDim S256x256x16 (![] : Fin 0 → Fin S256x256x16.rank)
  reducesTo_S256x256x16_S_d0_1_2 : S256x256x16.ReducesTo [0, 1, 2] S_
  h_S_ : 0 < S_.numel
  bcast_S_S256x256x256 : S_.BroadcastsInDim S256x256x256 (![] : Fin 0 → Fin S256x256x256.rank)
  reducesTo_S256x256x256_S_d0_1_2 : S256x256x256.ReducesTo [0, 1, 2] S_
  bcast_S_S368x64 : S_.BroadcastsInDim S368x64 (![] : Fin 0 → Fin S368x64.rank)
  reducesTo_S368x64_S_d0_1 : S368x64.ReducesTo [0, 1] S_
  bcast_S_S256x256x32 : S_.BroadcastsInDim S256x256x32 (![] : Fin 0 → Fin S256x256x32.rank)
  reducesTo_S256x256x32_S_d0_1_2 : S256x256x32.ReducesTo [0, 1, 2] S_

variable [Facts]

def fn_part1 {F : FTy → Type} [FloatOps F] (main_v13 : IVec S_ 1) (main_v16 : IVec S256x256x32 1) : IVec S_ 1 :=
  let main_c_5 : IVec S_ 1 := constantI S_ 1 1#1
  let main_v17 : IVec S_ 1 := (fun x v => Host.reduce IntOp.andi x v reducesTo_S256x256x32_S_d0_1_2 h_S_) main_v16 main_c_5
  let main_v18 : IVec S_ 1 := andi main_v13 main_v17
  main_v18

def fn {F : FTy → Type} [FloatOps F] (main_arg0 : FVec F S256x256x16 .f32) (main_arg1 : FVec F S256x256x256 .f32) (main_arg2 : FVec F S368x64 .f32) (main_arg3 : FVec F S256x256x32 .f32) : IVec S_ 1 :=
  let main_v0 : FVec F S256x256x16 .f32 := Host.absf main_arg0
  let main_cst : FVec F S_ .f32 := constant S_ .f32 0x7F800000#32
  let main_v1 : FVec F S256x256x16 .f32 := broadcastInDim S256x256x16 ![] bcast_S_S256x256x16 main_cst
  let main_v2 : IVec S256x256x16 1 := cmpf .olt main_v0 main_v1
  let main_c : IVec S_ 1 := constantI S_ 1 1#1
  let main_v3 : IVec S_ 1 := (fun x v => Host.reduce IntOp.andi x v reducesTo_S256x256x16_S_d0_1_2 h_S_) main_v2 main_c
  let main_v4 : FVec F S256x256x256 .f32 := Host.absf main_arg1
  let main_cst_0 : FVec F S_ .f32 := constant S_ .f32 0x7F800000#32
  let main_v5 : FVec F S256x256x256 .f32 := broadcastInDim S256x256x256 ![] bcast_S_S256x256x256 main_cst_0
  let main_v6 : IVec S256x256x256 1 := cmpf .olt main_v4 main_v5
  let main_c_1 : IVec S_ 1 := constantI S_ 1 1#1
  let main_v7 : IVec S_ 1 := (fun x v => Host.reduce IntOp.andi x v reducesTo_S256x256x256_S_d0_1_2 h_S_) main_v6 main_c_1
  let main_v8 : IVec S_ 1 := andi main_v3 main_v7
  let main_v9 : FVec F S368x64 .f32 := Host.absf main_arg2
  let main_cst_2 : FVec F S_ .f32 := constant S_ .f32 0x7F800000#32
  let main_v10 : FVec F S368x64 .f32 := broadcastInDim S368x64 ![] bcast_S_S368x64 main_cst_2
  let main_v11 : IVec S368x64 1 := cmpf .olt main_v9 main_v10
  let main_c_3 : IVec S_ 1 := constantI S_ 1 1#1
  let main_v12 : IVec S_ 1 := (fun x v => Host.reduce IntOp.andi x v reducesTo_S368x64_S_d0_1 h_S_) main_v11 main_c_3
  let main_v13 : IVec S_ 1 := andi main_v8 main_v12
  let main_v14 : FVec F S256x256x32 .f32 := Host.absf main_arg3
  let main_cst_4 : FVec F S_ .f32 := constant S_ .f32 0x7F800000#32
  let main_v15 : FVec F S256x256x32 .f32 := broadcastInDim S256x256x32 ![] bcast_S_S256x256x32 main_cst_4
  let main_v16 : IVec S256x256x32 1 := cmpf .olt main_v14 main_v15
  fn_part1 (F := F) main_v13 main_v16
-- ==== Kernel.lean ====
abbrev S256x256x16 : Shape := ⟨3, ![256, 256, 16]⟩
abbrev S256x256x256 : Shape := ⟨3, ![256, 256, 256]⟩
abbrev S368x64 : Shape := ⟨2, ![368, 64]⟩
abbrev S256x256x32 : Shape := ⟨3, ![256, 256, 32]⟩
abbrev S16x64 : Shape := ⟨2, ![16, 64]⟩
abbrev S16x128 : Shape := ⟨2, ![16, 128]⟩
abbrev S32x64 : Shape := ⟨2, ![32, 64]⟩
abbrev S32x128 : Shape := ⟨2, ![32, 128]⟩
abbrev S64x32 : Shape := ⟨2, ![64, 32]⟩
abbrev S32x32 : Shape := ⟨2, ![32, 32]⟩
abbrev S1x64 : Shape := ⟨2, ![1, 64]⟩
abbrev S64 : Shape := ⟨1, ![64]⟩
abbrev S_ : Shape := ⟨0, ![]⟩
abbrev S1x32 : Shape := ⟨2, ![1, 32]⟩
abbrev S32 : Shape := ⟨1, ![32]⟩
abbrev S1x1 : Shape := ⟨2, ![1, 1]⟩
abbrev S1 : Shape := ⟨1, ![1]⟩
abbrev S64x1 : Shape := ⟨2, ![64, 1]⟩
abbrev S64x10 : Shape := ⟨2, ![64, 10]⟩
abbrev S64x16 : Shape := ⟨2, ![64, 16]⟩
abbrev S32x256x16 : Shape := ⟨3, ![32, 256, 16]⟩
abbrev S32x256x256 : Shape := ⟨3, ![32, 256, 256]⟩
abbrev S32x256x32 : Shape := ⟨3, ![32, 256, 32]⟩
abbrev S32x1 : Shape := ⟨2, ![32, 1]⟩
abbrev S1x256x256 : Shape := ⟨3, ![1, 256, 256]⟩
abbrev S256x256 : Shape := ⟨2, ![256, 256]⟩
abbrev S8192x16 : Shape := ⟨2, ![8192, 16]⟩
abbrev S128x8192 : Shape := ⟨2, ![128, 8192]⟩
abbrev S64x8192 : Shape := ⟨2, ![64, 8192]⟩
abbrev S32x8192 : Shape := ⟨2, ![32, 8192]⟩
abbrev S32x256 : Shape := ⟨2, ![32, 256]⟩
abbrev S8192 : Shape := ⟨1, ![8192]⟩
abbrev S1x8192 : Shape := ⟨2, ![1, 8192]⟩
abbrev S1x256x32 : Shape := ⟨3, ![1, 256, 32]⟩
abbrev S256x32 : Shape := ⟨2, ![256, 32]⟩

abbrev nBuf : Space → Nat
  | .hbm => 79
  | .vmem => 15
  | .smem => 0
  | _ => 0

abbrev bufTy : (tb : Table) → Fin (tcTables nBuf tb) → BufTy
  | .hbm, ⟨0, _⟩ => ⟨S256x256x16, .f32⟩
  | .hbm, ⟨1, _⟩ => ⟨S256x256x256, .f32⟩
  | .hbm, ⟨2, _⟩ => ⟨S368x64, .f32⟩
  | .hbm, ⟨3, _⟩ => ⟨S256x256x32, .f32⟩
  | .hbm, ⟨4, _⟩ => ⟨S16x64, .f32⟩
  | .hbm, ⟨5, _⟩ => ⟨S16x64, .f32⟩
  | .hbm, ⟨6, _⟩ => ⟨S16x128, .f32⟩
  | .hbm, ⟨7, _⟩ => ⟨S32x64, .f32⟩
  | .hbm, ⟨8, _⟩ => ⟨S32x64, .f32⟩
  | .hbm, ⟨9, _⟩ => ⟨S32x128, .f32⟩
  | .hbm, ⟨10, _⟩ => ⟨S64x32, .f32⟩
  | .hbm, ⟨11, _⟩ => ⟨S64x32, .f32⟩
  | .hbm, ⟨12, _⟩ => ⟨S32x32, .f32⟩
  | .hbm, ⟨13, _⟩ => ⟨S32x32, .f32⟩
  | .hbm, ⟨14, _⟩ => ⟨S1x64, .f32⟩
  | .hbm, ⟨15, _⟩ => ⟨S64, .f32⟩
  | .hbm, ⟨16, _⟩ => ⟨S_, .i32⟩
  | .hbm, ⟨17, _⟩ => ⟨S_, .f32⟩
  | .hbm, ⟨18, _⟩ => ⟨S64, .f32⟩
  | .hbm, ⟨19, _⟩ => ⟨S1x32, .f32⟩
  | .hbm, ⟨20, _⟩ => ⟨S32, .f32⟩
  | .hbm, ⟨21, _⟩ => ⟨S_, .i32⟩
  | .hbm, ⟨22, _⟩ => ⟨S_, .f32⟩
  | .hbm, ⟨23, _⟩ => ⟨S64, .f32⟩
  | .hbm, ⟨24, _⟩ => ⟨S1x32, .f32⟩
  | .hbm, ⟨25, _⟩ => ⟨S32, .f32⟩
  | .hbm, ⟨26, _⟩ => ⟨S_, .i32⟩
  | .hbm, ⟨27, _⟩ => ⟨S_, .f32⟩
  | .hbm, ⟨28, _⟩ => ⟨S64, .f32⟩
  | .hbm, ⟨29, _⟩ => ⟨S1x1, .f32⟩
  | .hbm, ⟨30, _⟩ => ⟨S1, .f32⟩
  | .hbm, ⟨31, _⟩ => ⟨S_, .i32⟩
  | .hbm, ⟨32, _⟩ => ⟨S_, .f32⟩
  | .hbm, ⟨33, _⟩ => ⟨S64, .f32⟩
  | .hbm, ⟨34, _⟩ => ⟨S1x64, .f32⟩
  | .hbm, ⟨35, _⟩ => ⟨S64, .f32⟩
  | .hbm, ⟨36, _⟩ => ⟨S_, .i32⟩
  | .hbm, ⟨37, _⟩ => ⟨S_, .f32⟩
  | .hbm, ⟨38, _⟩ => ⟨S64, .f32⟩
  | .hbm, ⟨39, _⟩ => ⟨S1x32, .f32⟩
  | .hbm, ⟨40, _⟩ => ⟨S32, .f32⟩
  | .hbm, ⟨41, _⟩ => ⟨S_, .i32⟩
  | .hbm, ⟨42, _⟩ => ⟨S_, .f32⟩
  | .hbm, ⟨43, _⟩ => ⟨S64, .f32⟩
  | .hbm, ⟨44, _⟩ => ⟨S1x32, .f32⟩
  | .hbm, ⟨45, _⟩ => ⟨S32, .f32⟩
  | .hbm, ⟨46, _⟩ => ⟨S_, .i32⟩
  | .hbm, ⟨47, _⟩ => ⟨S_, .f32⟩
  | .hbm, ⟨48, _⟩ => ⟨S64, .f32⟩
  | .hbm, ⟨49, _⟩ => ⟨S1x1, .f32⟩
  | .hbm, ⟨50, _⟩ => ⟨S1, .f32⟩
  | .hbm, ⟨51, _⟩ => ⟨S_, .i32⟩
  | .hbm, ⟨52, _⟩ => ⟨S_, .f32⟩
  | .hbm, ⟨53, _⟩ => ⟨S64, .f32⟩
  | .hbm, ⟨54, _⟩ => ⟨S1x32, .f32⟩
  | .hbm, ⟨55, _⟩ => ⟨S32, .f32⟩
  | .hbm, ⟨56, _⟩ => ⟨S_, .i32⟩
  | .hbm, ⟨57, _⟩ => ⟨S_, .f32⟩
  | .hbm, ⟨58, _⟩ => ⟨S64, .f32⟩
  | .hbm, ⟨59, _⟩ => ⟨S1x32, .f32⟩
  | .hbm, ⟨60, _⟩ => ⟨S32, .f32⟩
  | .hbm, ⟨61, _⟩ => ⟨S_, .i32⟩
  | .hbm, ⟨62, _⟩ => ⟨S_, .f32⟩
  | .hbm, ⟨63, _⟩ => ⟨S64, .f32⟩
  | .hbm, ⟨64, _⟩ => ⟨S64x1, .f32⟩
  | .hbm, ⟨65, _⟩ => ⟨S64x1, .f32⟩
  | .hbm, ⟨66, _⟩ => ⟨S64x1, .f32⟩
  | .hbm, ⟨67, _⟩ => ⟨S64x1, .f32⟩
  | .hbm, ⟨68, _⟩ => ⟨S64x1, .f32⟩
  | .hbm, ⟨69, _⟩ => ⟨S64x1, .f32⟩
  | .hbm, ⟨70, _⟩ => ⟨S64x1, .f32⟩
  | .hbm, ⟨71, _⟩ => ⟨S64x1, .f32⟩
  | .hbm, ⟨72, _⟩ => ⟨S64x1, .f32⟩
  | .hbm, ⟨73, _⟩ => ⟨S64x1, .f32⟩
  | .hbm, ⟨74, _⟩ => ⟨S64x10, .f32⟩
  | .hbm, ⟨75, _⟩ => ⟨S_, .i32⟩
  | .hbm, ⟨76, _⟩ => ⟨S_, .f32⟩
  | .hbm, ⟨77, _⟩ => ⟨S64x16, .f32⟩
  | .hbm, ⟨78, _⟩ => ⟨S256x256x32, .f32⟩
  | .local _ .vmem, ⟨0, _⟩ => ⟨S32x256x16, .f32⟩
  | .local _ .vmem, ⟨1, _⟩ => ⟨S32x256x16, .f32⟩
  | .local _ .vmem, ⟨2, _⟩ => ⟨S32x256x256, .f32⟩
  | .local _ .vmem, ⟨3, _⟩ => ⟨S32x256x256, .f32⟩
  | .local _ .vmem, ⟨4, _⟩ => ⟨S32x256x32, .f32⟩
  | .local _ .vmem, ⟨5, _⟩ => ⟨S32x256x32, .f32⟩
  | .local _ .vmem, ⟨6, _⟩ => ⟨S16x128, .f32⟩
  | .local _ .vmem, ⟨7, _⟩ => ⟨S32x128, .f32⟩
  | .local _ .vmem, ⟨8, _⟩ => ⟨S64x32, .f32⟩
  | .local _ .vmem, ⟨9, _⟩ => ⟨S64x32, .f32⟩
  | .local _ .vmem, ⟨10, _⟩ => ⟨S32x32, .f32⟩
  | .local _ .vmem, ⟨11, _⟩ => ⟨S32x32, .f32⟩
  | .local _ .vmem, ⟨12, _⟩ => ⟨S64x16, .f32⟩
  | .local _ .vmem, ⟨13, _⟩ => ⟨S32x256x32, .f32⟩
  | .local _ .vmem, ⟨14, _⟩ => ⟨S32x256x32, .f32⟩
  | _, _ => ⟨S256x256x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_call0_v0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_call1_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_1 : Ref sig .tc := ⟨.hbm, 26, rfl⟩
abbrev main_call2_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_call3_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_3 : Ref sig .tc := ⟨.hbm, 36, rfl⟩
abbrev main_call4_v0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_call5_v0 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_call6_v0 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_call7_v0 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_call8_v0 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_8 : Ref sig .tc := ⟨.hbm, 61, rfl⟩
abbrev main_call9_v0 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_9 : Ref sig .tc := ⟨.hbm, 75, rfl⟩
abbrev main_call10_v0 : Ref sig .tc := ⟨.hbm, 76, rfl⟩
abbrev main_v51 : Ref sig .tc := ⟨.hbm, 77, rfl⟩
abbrev main_v52 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x256x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S32x256x32 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S368x64_S16x64_0_0 : S368x64.Slices ![0, 0] S16x64
  slices_S368x64_S16x64_80_0 : S368x64.Slices ![80, 0] S16x64
  concatenates_S16x64_S16x64_S16x128_d1 : Shape.Concatenates [S16x64, S16x64] S16x128 1
  slices_S368x64_S32x64_96_0 : S368x64.Slices ![96, 0] S32x64
  slices_S368x64_S32x64_192_0 : S368x64.Slices ![192, 0] S32x64
  concatenates_S32x64_S32x64_S32x128_d1 : Shape.Concatenates [S32x64, S32x64] S32x128 1
  slices_S368x64_S64x32_16_0 : S368x64.Slices ![16, 0] S64x32
  slices_S368x64_S64x32_128_0 : S368x64.Slices ![128, 0] S64x32
  slices_S368x64_S32x32_224_0 : S368x64.Slices ![224, 0] S32x32
  slices_S368x64_S32x32_256_0 : S368x64.Slices ![256, 0] S32x32
  slices_S368x64_S1x64_288_0 : S368x64.Slices ![288, 0] S1x64
  shapeCasts_S1x64_S64 : S1x64.ShapeCasts S64
  pads_S64_S64_000 : S64.Pads (![0] : Fin 1 → Nat) ![0] ![0] S64
  h_S_ : 0 < S_.numel
  slices_S368x64_S1x32_296_0 : S368x64.Slices ![296, 0] S1x32
  shapeCasts_S1x32_S32 : S1x32.ShapeCasts S32
  pads_S32_S64_0320 : S32.Pads (![0] : Fin 1 → Nat) ![32] ![0] S64
  slices_S368x64_S1x32_304_0 : S368x64.Slices ![304, 0] S1x32
  slices_S368x64_S1x1_312_0 : S368x64.Slices ![312, 0] S1x1
  shapeCasts_S1x1_S1 : S1x1.ShapeCasts S1
  pads_S1_S64_0630 : S1.Pads (![0] : Fin 1 → Nat) ![63] ![0] S64
  slices_S368x64_S1x64_320_0 : S368x64.Slices ![320, 0] S1x64
  slices_S368x64_S1x32_328_0 : S368x64.Slices ![328, 0] S1x32
  slices_S368x64_S1x32_336_0 : S368x64.Slices ![336, 0] S1x32
  slices_S368x64_S1x1_344_0 : S368x64.Slices ![344, 0] S1x1
  slices_S368x64_S1x32_352_0 : S368x64.Slices ![352, 0] S1x32
  slices_S368x64_S1x32_360_0 : S368x64.Slices ![360, 0] S1x32
  bcast_S64_S64x1_0 : S64.BroadcastsInDim S64x1 (![0] : Fin 1 → Fin S64x1.rank)
  concatenates_S64x1_S64x1_S64x1_S64x1_S64x1_S64x1_S64x1_S64x1_S64x1_S64x1_S64x10_d1 : Shape.Concatenates [S64x1, S64x1, S64x1, S64x1, S64x1, S64x1, S64x1, S64x1, S64x1, S64x1] S64x10 1
  pads_S64x10_S64x16_000_060 : S64x10.Pads (![0, 0] : Fin 2 → Nat) ![0, 6] ![0, 0] S64x16
  inb_S64x16_S64x16_0_0 : ∀ a, (![0, 0] : Fin 2 → Nat) a + S64x16.size a ≤ S64x16.size a
  h_S64x16 : 0 < S64x16.numel
  shapeCasts_S64x16_S64x16 : S64x16.ShapeCasts S64x16
  slices_S64x16_o0_0_S64x1 : S64x16.Slices ![0, 0] S64x1
  slices_S64x16_o0_1_S32x1 : S64x16.Slices ![0, 1] S32x1
  slices_S64x16_o0_2_S32x1 : S64x16.Slices ![0, 2] S32x1
  slices_S64x16_o0_3_S1x1 : S64x16.Slices ![0, 3] S1x1
  slices_S64x16_o0_4_S64x1 : S64x16.Slices ![0, 4] S64x1
  slices_S64x16_o0_5_S32x1 : S64x16.Slices ![0, 5] S32x1
  slices_S64x16_o0_6_S32x1 : S64x16.Slices ![0, 6] S32x1
  slices_S64x16_o0_7_S1x1 : S64x16.Slices ![0, 7] S1x1
  slices_S64x16_o0_8_S32x1 : S64x16.Slices ![0, 8] S32x1
  slices_S64x16_o0_9_S32x1 : S64x16.Slices ![0, 9] S32x1
  inb_S32x256x256_S1x256x256_0_0_0 : ∀ a, (![0, 0, 0] : Fin 3 → Nat) a + S1x256x256.size a ≤ S32x256x256.size a
  h_S1x256x256 : 0 < S1x256x256.numel
  shapeCasts_S1x256x256_S256x256 : S1x256x256.ShapeCasts S256x256
  bitsLt_bf16_f32 : FTy.bits .bf16 < FTy.bits .f32
  inb_S32x256x256_S1x256x256_1_0_0 : ∀ a, (![1, 0, 0] : Fin 3 → Nat) a + S1x256x256.size a ≤ S32x256x256.size a
  inb_S32x256x256_S1x256x256_2_0_0 : ∀ a, (![2, 0, 0] : Fin 3 → Nat) a + S1x256x256.size a ≤ S32x256x256.size a
  inb_S32x256x256_S1x256x256_3_0_0 : ∀ a, (![3, 0, 0] : Fin 3 → Nat) a + S1x256x256.size a ≤ S32x256x256.size a
  inb_S32x256x256_S1x256x256_4_0_0 : ∀ a, (![4, 0, 0] : Fin 3 → Nat) a + S1x256x256.size a ≤ S32x256x256.size a
  inb_S32x256x256_S1x256x256_5_0_0 : ∀ a, (![5, 0, 0] : Fin 3 → Nat) a + S1x256x256.size a ≤ S32x256x256.size a
  inb_S32x256x256_S1x256x256_6_0_0 : ∀ a, (![6, 0, 0] : Fin 3 → Nat) a + S1x256x256.size a ≤ S32x256x256.size a
  inb_S32x256x256_S1x256x256_7_0_0 : ∀ a, (![7, 0, 0] : Fin 3 → Nat) a + S1x256x256.size a ≤ S32x256x256.size a
  inb_S32x256x256_S1x256x256_8_0_0 : ∀ a, (![8, 0, 0] : Fin 3 → Nat) a + S1x256x256.size a ≤ S32x256x256.size a
  inb_S32x256x256_S1x256x256_9_0_0 : ∀ a, (![9, 0, 0] : Fin 3 → Nat) a + S1x256x256.size a ≤ S32x256x256.size a
  inb_S32x256x256_S1x256x256_10_0_0 : ∀ a, (![10, 0, 0] : Fin 3 → Nat) a + S1x256x256.size a ≤ S32x256x256.size a
  inb_S32x256x256_S1x256x256_11_0_0 : ∀ a, (![11, 0, 0] : Fin 3 → Nat) a + S1x256x256.size a ≤ S32x256x256.size a
  inb_S32x256x256_S1x256x256_12_0_0 : ∀ a, (![12, 0, 0] : Fin 3 → Nat) a + S1x256x256.size a ≤ S32x256x256.size a
  inb_S32x256x256_S1x256x256_13_0_0 : ∀ a, (![13, 0, 0] : Fin 3 → Nat) a + S1x256x256.size a ≤ S32x256x256.size a
  inb_S32x256x256_S1x256x256_14_0_0 : ∀ a, (![14, 0, 0] : Fin 3 → Nat) a + S1x256x256.size a ≤ S32x256x256.size a
  inb_S32x256x256_S1x256x256_15_0_0 : ∀ a, (![15, 0, 0] : Fin 3 → Nat) a + S1x256x256.size a ≤ S32x256x256.size a
  inb_S32x256x256_S1x256x256_16_0_0 : ∀ a, (![16, 0, 0] : Fin 3 → Nat) a + S1x256x256.size a ≤ S32x256x256.size a
  inb_S32x256x256_S1x256x256_17_0_0 : ∀ a, (![17, 0, 0] : Fin 3 → Nat) a + S1x256x256.size a ≤ S32x256x256.size a
  inb_S32x256x256_S1x256x256_18_0_0 : ∀ a, (![18, 0, 0] : Fin 3 → Nat) a + S1x256x256.size a ≤ S32x256x256.size a
  inb_S32x256x256_S1x256x256_19_0_0 : ∀ a, (![19, 0, 0] : Fin 3 → Nat) a + S1x256x256.size a ≤ S32x256x256.size a
  inb_S32x256x256_S1x256x256_20_0_0 : ∀ a, (![20, 0, 0] : Fin 3 → Nat) a + S1x256x256.size a ≤ S32x256x256.size a
  inb_S32x256x256_S1x256x256_21_0_0 : ∀ a, (![21, 0, 0] : Fin 3 → Nat) a + S1x256x256.size a ≤ S32x256x256.size a
  inb_S32x256x256_S1x256x256_22_0_0 : ∀ a, (![22, 0, 0] : Fin 3 → Nat) a + S1x256x256.size a ≤ S32x256x256.size a
  inb_S32x256x256_S1x256x256_23_0_0 : ∀ a, (![23, 0, 0] : Fin 3 → Nat) a + S1x256x256.size a ≤ S32x256x256.size a
  inb_S32x256x256_S1x256x256_24_0_0 : ∀ a, (![24, 0, 0] : Fin 3 → Nat) a + S1x256x256.size a ≤ S32x256x256.size a
  inb_S32x256x256_S1x256x256_25_0_0 : ∀ a, (![25, 0, 0] : Fin 3 → Nat) a + S1x256x256.size a ≤ S32x256x256.size a
  inb_S32x256x256_S1x256x256_26_0_0 : ∀ a, (![26, 0, 0] : Fin 3 → Nat) a + S1x256x256.size a ≤ S32x256x256.size a
  inb_S32x256x256_S1x256x256_27_0_0 : ∀ a, (![27, 0, 0] : Fin 3 → Nat) a + S1x256x256.size a ≤ S32x256x256.size a
  inb_S32x256x256_S1x256x256_28_0_0 : ∀ a, (![28, 0, 0] : Fin 3 → Nat) a + S1x256x256.size a ≤ S32x256x256.size a
  inb_S32x256x256_S1x256x256_29_0_0 : ∀ a, (![29, 0, 0] : Fin 3 → Nat) a + S1x256x256.size a ≤ S32x256x256.size a
  inb_S32x256x256_S1x256x256_30_0_0 : ∀ a, (![30, 0, 0] : Fin 3 → Nat) a + S1x256x256.size a ≤ S32x256x256.size a
  inb_S32x256x256_S1x256x256_31_0_0 : ∀ a, (![31, 0, 0] : Fin 3 → Nat) a + S1x256x256.size a ≤ S32x256x256.size a
  inb_S32x256x16_S32x256x16_0_0_0 : ∀ a, (![0, 0, 0] : Fin 3 → Nat) a + S32x256x16.size a ≤ S32x256x16.size a
  h_S32x256x16 : 0 < S32x256x16.numel
  shapeCasts_S32x256x16_S8192x16 : S32x256x16.ShapeCasts S8192x16
  inb_S16x128_S16x128_0_0 : ∀ a, (![0, 0] : Fin 2 → Nat) a + S16x128.size a ≤ S16x128.size a
  h_S16x128 : 0 < S16x128.numel
  shapeCasts_S16x128_S16x128 : S16x128.ShapeCasts S16x128
  slices_S128x8192_o0_0_S64x8192 : S128x8192.Slices ![0, 0] S64x8192
  broadcasts_S64x1_S64x8192 : S64x1.Broadcasts S64x8192
  slices_S64x8192_o0_0_S32x8192 : S64x8192.Slices ![0, 0] S32x8192
  slices_S32x8192_o0_0_S32x256 : S32x8192.Slices ![0, 0] S32x256
  slices_S32x8192_o0_256_S32x256 : S32x8192.Slices ![0, 256] S32x256
  slices_S32x8192_o0_512_S32x256 : S32x8192.Slices ![0, 512] S32x256
  slices_S32x8192_o0_768_S32x256 : S32x8192.Slices ![0, 768] S32x256
  slices_S32x8192_o0_1024_S32x256 : S32x8192.Slices ![0, 1024] S32x256
  slices_S32x8192_o0_1280_S32x256 : S32x8192.Slices ![0, 1280] S32x256
  slices_S32x8192_o0_1536_S32x256 : S32x8192.Slices ![0, 1536] S32x256
  slices_S32x8192_o0_1792_S32x256 : S32x8192.Slices ![0, 1792] S32x256
  slices_S32x8192_o0_2048_S32x256 : S32x8192.Slices ![0, 2048] S32x256
  slices_S32x8192_o0_2304_S32x256 : S32x8192.Slices ![0, 2304] S32x256
  slices_S32x8192_o0_2560_S32x256 : S32x8192.Slices ![0, 2560] S32x256
  slices_S32x8192_o0_2816_S32x256 : S32x8192.Slices ![0, 2816] S32x256
  slices_S32x8192_o0_3072_S32x256 : S32x8192.Slices ![0, 3072] S32x256
  slices_S32x8192_o0_3328_S32x256 : S32x8192.Slices ![0, 3328] S32x256
  slices_S32x8192_o0_3584_S32x256 : S32x8192.Slices ![0, 3584] S32x256
  slices_S32x8192_o0_3840_S32x256 : S32x8192.Slices ![0, 3840] S32x256
  slices_S32x8192_o0_4096_S32x256 : S32x8192.Slices ![0, 4096] S32x256
  slices_S32x8192_o0_4352_S32x256 : S32x8192.Slices ![0, 4352] S32x256
  slices_S32x8192_o0_4608_S32x256 : S32x8192.Slices ![0, 4608] S32x256
  slices_S32x8192_o0_4864_S32x256 : S32x8192.Slices ![0, 4864] S32x256
  slices_S32x8192_o0_5120_S32x256 : S32x8192.Slices ![0, 5120] S32x256
  slices_S32x8192_o0_5376_S32x256 : S32x8192.Slices ![0, 5376] S32x256
  slices_S32x8192_o0_5632_S32x256 : S32x8192.Slices ![0, 5632] S32x256
  slices_S32x8192_o0_5888_S32x256 : S32x8192.Slices ![0, 5888] S32x256
  slices_S32x8192_o0_6144_S32x256 : S32x8192.Slices ![0, 6144] S32x256
  slices_S32x8192_o0_6400_S32x256 : S32x8192.Slices ![0, 6400] S32x256
  slices_S32x8192_o0_6656_S32x256 : S32x8192.Slices ![0, 6656] S32x256
  slices_S32x8192_o0_6912_S32x256 : S32x8192.Slices ![0, 6912] S32x256
  slices_S32x8192_o0_7168_S32x256 : S32x8192.Slices ![0, 7168] S32x256
  slices_S32x8192_o0_7424_S32x256 : S32x8192.Slices ![0, 7424] S32x256
  slices_S32x8192_o0_7680_S32x256 : S32x8192.Slices ![0, 7680] S32x256
  slices_S32x8192_o0_7936_S32x256 : S32x8192.Slices ![0, 7936] S32x256
  concatenates_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x8192_d1 : Shape.Concatenates [S32x256, S32x256, S32x256, S32x256, S32x256, S32x256, S32x256, S32x256, S32x256, S32x256, S32x256, S32x256, S32x256, S32x256, S32x256, S32x256, S32x256, S32x256, S32x256, S32x256, S32x256, S32x256, S32x256, S32x256, S32x256, S32x256, S32x256, S32x256, S32x256, S32x256, S32x256, S32x256] S32x8192 1
  slices_S64x8192_o32_0_S32x8192 : S64x8192.Slices ![32, 0] S32x8192
  concatenates_S32x8192_S32x8192_S64x8192_d0 : Shape.Concatenates [S32x8192, S32x8192] S64x8192 0
  inb_S64x32_S64x32_0_0 : ∀ a, (![0, 0] : Fin 2 → Nat) a + S64x32.size a ≤ S64x32.size a
  h_S64x32 : 0 < S64x32.numel
  shapeCasts_S64x32_S64x32 : S64x32.ShapeCasts S64x32
  broadcasts_S32x1_S32x8192 : S32x1.Broadcasts S32x8192
  reduces_S32x8192_S8192 : S32x8192.Reduces [0] S8192
  shapeCasts_S8192_S1x8192 : S8192.ShapeCasts S1x8192
  broadcasts_S1x1_S1x8192 : S1x1.Broadcasts S1x8192
  slices_S128x8192_o64_0_S32x8192 : S128x8192.Slices ![64, 0] S32x8192
  broadcasts_S1x8192_S32x8192 : S1x8192.Broadcasts S32x8192
  slices_S128x8192_o96_0_S32x8192 : S128x8192.Slices ![96, 0] S32x8192
  inb_S32x128_S32x128_0_0 : ∀ a, (![0, 0] : Fin 2 → Nat) a + S32x128.size a ≤ S32x128.size a
  h_S32x128 : 0 < S32x128.numel
  shapeCasts_S32x128_S32x128 : S32x128.ShapeCasts S32x128
  broadcasts_S1x8192_S64x8192 : S1x8192.Broadcasts S64x8192
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S32x256x32_S1x256x32_0_0_0 : ∀ a, (![0, 0, 0] : Fin 3 → Nat) a + S1x256x32.size a ≤ S32x256x32.size a
  h_S1x256x32 : 0 < S1x256x32.numel
  shapeCasts_S1x256x32_S256x32 : S1x256x32.ShapeCasts S256x32
  transposes_S256x32_p1_0_S32x256 : S256x32.Transposes [1, 0] S32x256
  inb_S32x256x32_S1x256x32_1_0_0 : ∀ a, (![1, 0, 0] : Fin 3 → Nat) a + S1x256x32.size a ≤ S32x256x32.size a
  inb_S32x256x32_S1x256x32_2_0_0 : ∀ a, (![2, 0, 0] : Fin 3 → Nat) a + S1x256x32.size a ≤ S32x256x32.size a
  inb_S32x256x32_S1x256x32_3_0_0 : ∀ a, (![3, 0, 0] : Fin 3 → Nat) a + S1x256x32.size a ≤ S32x256x32.size a
  inb_S32x256x32_S1x256x32_4_0_0 : ∀ a, (![4, 0, 0] : Fin 3 → Nat) a + S1x256x32.size a ≤ S32x256x32.size a
  inb_S32x256x32_S1x256x32_5_0_0 : ∀ a, (![5, 0, 0] : Fin 3 → Nat) a + S1x256x32.size a ≤ S32x256x32.size a
  inb_S32x256x32_S1x256x32_6_0_0 : ∀ a, (![6, 0, 0] : Fin 3 → Nat) a + S1x256x32.size a ≤ S32x256x32.size a
  inb_S32x256x32_S1x256x32_7_0_0 : ∀ a, (![7, 0, 0] : Fin 3 → Nat) a + S1x256x32.size a ≤ S32x256x32.size a
  inb_S32x256x32_S1x256x32_8_0_0 : ∀ a, (![8, 0, 0] : Fin 3 → Nat) a + S1x256x32.size a ≤ S32x256x32.size a
  inb_S32x256x32_S1x256x32_9_0_0 : ∀ a, (![9, 0, 0] : Fin 3 → Nat) a + S1x256x32.size a ≤ S32x256x32.size a
  inb_S32x256x32_S1x256x32_10_0_0 : ∀ a, (![10, 0, 0] : Fin 3 → Nat) a + S1x256x32.size a ≤ S32x256x32.size a
  inb_S32x256x32_S1x256x32_11_0_0 : ∀ a, (![11, 0, 0] : Fin 3 → Nat) a + S1x256x32.size a ≤ S32x256x32.size a
  inb_S32x256x32_S1x256x32_12_0_0 : ∀ a, (![12, 0, 0] : Fin 3 → Nat) a + S1x256x32.size a ≤ S32x256x32.size a
  inb_S32x256x32_S1x256x32_13_0_0 : ∀ a, (![13, 0, 0] : Fin 3 → Nat) a + S1x256x32.size a ≤ S32x256x32.size a
  inb_S32x256x32_S1x256x32_14_0_0 : ∀ a, (![14, 0, 0] : Fin 3 → Nat) a + S1x256x32.size a ≤ S32x256x32.size a
  inb_S32x256x32_S1x256x32_15_0_0 : ∀ a, (![15, 0, 0] : Fin 3 → Nat) a + S1x256x32.size a ≤ S32x256x32.size a
  inb_S32x256x32_S1x256x32_16_0_0 : ∀ a, (![16, 0, 0] : Fin 3 → Nat) a + S1x256x32.size a ≤ S32x256x32.size a
  inb_S32x256x32_S1x256x32_17_0_0 : ∀ a, (![17, 0, 0] : Fin 3 → Nat) a + S1x256x32.size a ≤ S32x256x32.size a
  inb_S32x256x32_S1x256x32_18_0_0 : ∀ a, (![18, 0, 0] : Fin 3 → Nat) a + S1x256x32.size a ≤ S32x256x32.size a
  inb_S32x256x32_S1x256x32_19_0_0 : ∀ a, (![19, 0, 0] : Fin 3 → Nat) a + S1x256x32.size a ≤ S32x256x32.size a
  inb_S32x256x32_S1x256x32_20_0_0 : ∀ a, (![20, 0, 0] : Fin 3 → Nat) a + S1x256x32.size a ≤ S32x256x32.size a
  inb_S32x256x32_S1x256x32_21_0_0 : ∀ a, (![21, 0, 0] : Fin 3 → Nat) a + S1x256x32.size a ≤ S32x256x32.size a
  inb_S32x256x32_S1x256x32_22_0_0 : ∀ a, (![22, 0, 0] : Fin 3 → Nat) a + S1x256x32.size a ≤ S32x256x32.size a
  inb_S32x256x32_S1x256x32_23_0_0 : ∀ a, (![23, 0, 0] : Fin 3 → Nat) a + S1x256x32.size a ≤ S32x256x32.size a
  inb_S32x256x32_S1x256x32_24_0_0 : ∀ a, (![24, 0, 0] : Fin 3 → Nat) a + S1x256x32.size a ≤ S32x256x32.size a
  inb_S32x256x32_S1x256x32_25_0_0 : ∀ a, (![25, 0, 0] : Fin 3 → Nat) a + S1x256x32.size a ≤ S32x256x32.size a
  inb_S32x256x32_S1x256x32_26_0_0 : ∀ a, (![26, 0, 0] : Fin 3 → Nat) a + S1x256x32.size a ≤ S32x256x32.size a
  inb_S32x256x32_S1x256x32_27_0_0 : ∀ a, (![27, 0, 0] : Fin 3 → Nat) a + S1x256x32.size a ≤ S32x256x32.size a
  inb_S32x256x32_S1x256x32_28_0_0 : ∀ a, (![28, 0, 0] : Fin 3 → Nat) a + S1x256x32.size a ≤ S32x256x32.size a
  inb_S32x256x32_S1x256x32_29_0_0 : ∀ a, (![29, 0, 0] : Fin 3 → Nat) a + S1x256x32.size a ≤ S32x256x32.size a
  inb_S32x256x32_S1x256x32_30_0_0 : ∀ a, (![30, 0, 0] : Fin 3 → Nat) a + S1x256x32.size a ≤ S32x256x32.size a
  inb_S32x256x32_S1x256x32_31_0_0 : ∀ a, (![31, 0, 0] : Fin 3 → Nat) a + S1x256x32.size a ≤ S32x256x32.size a
  transposes_S32x256_p1_0_S256x32 : S32x256.Transposes [1, 0] S256x32
  shapeCasts_S256x32_S1x256x32 : S256x32.ShapeCasts S1x256x32
  dot_S16x128_S8192x16_S128x8192_0_1_1_0_n_n_wf : DotDims.WF S16x128 S8192x16 S128x8192 [0] [1] [1] [0] [] []
  dot_S32x256_S256x256_S32x256_1_1_0_0_n_n_wf : DotDims.WF S32x256 S256x256 S32x256 [1] [1] [0] [0] [] []
  dot_S64x32_S64x8192_S32x8192_0_0_1_1_n_n_wf : DotDims.WF S64x32 S64x8192 S32x8192 [0] [0] [1] [1] [] []
  dot_S32x128_S32x8192_S128x8192_0_0_1_1_n_n_wf : DotDims.WF S32x128 S32x8192 S128x8192 [0] [0] [1] [1] [] []
  dot_S32x32_S32x8192_S32x8192_0_0_1_1_n_n_wf : DotDims.WF S32x32 S32x8192 S32x8192 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256x16.size a ≤ S256x256x16.size a
  hwx0_0 : ∀ i : grid0.Coords, EltTy.bits .f32 = 32 ∨ (Rect.block (s := S256x256x16) S32x256x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x256x256.size a ≤ S256x256x256.size a
  hwx0_1 : ∀ i : grid0.Coords, EltTy.bits .f32 = 32 ∨ (Rect.block (s := S256x256x256) S32x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x256x32.size a ≤ S256x256x32.size a
  hwx0_2 : ∀ i : grid0.Coords, EltTy.bits .f32 = 32 ∨ (Rect.block (s := S256x256x32) S32x256x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x128.size a ≤ S16x128.size a
  hwx0_3 : ∀ i : grid0.Coords, EltTy.bits .f32 = 32 ∨ (Rect.block (s := S16x128) S16x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x128.size a ≤ S32x128.size a
  hwx0_4 : ∀ i : grid0.Coords, EltTy.bits .f32 = 32 ∨ (Rect.block (s := S32x128) S32x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x32.size a ≤ S64x32.size a
  hwx0_5 : ∀ i : grid0.Coords, EltTy.bits .f32 = 32 ∨ (Rect.block (s := S64x32) S64x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x32.size a ≤ S64x32.size a
  hwx0_6 : ∀ i : grid0.Coords, EltTy.bits .f32 = 32 ∨ (Rect.block (s := S64x32) S64x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x32.size a ≤ S32x32.size a
  hwx0_7 : ∀ i : grid0.Coords, EltTy.bits .f32 = 32 ∨ (Rect.block (s := S32x32) S32x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x32.size a ≤ S32x32.size a
  hwx0_8 : ∀ i : grid0.Coords, EltTy.bits .f32 = 32 ∨ (Rect.block (s := S32x32) S32x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x16.size a ≤ S64x16.size a
  hwx0_9 : ∀ i : grid0.Coords, EltTy.bits .f32 = 32 ∨ (Rect.block (s := S64x16) S64x16.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S32x256x32.size a ≤ S256x256x32.size a
  hwx0_10 : ∀ i : grid0.Coords, EltTy.bits .f32 = 32 ∨ (Rect.block (s := S256x256x32) S32x256x32.size (cc0_transform_10 i) (hinb0_10 i)).WholeWords (EltTy.packing .f32)

variable [Facts₀]

def dot_S16x128_S8192x16_S128x8192_0_1_1_0_n_n : DotDims S16x128 S8192x16 S128x8192 where
  lhsContracting := [0]
  rhsContracting := [1]
  lhsNonContracting := [1]
  rhsNonContracting := [0]
  lhsBatch := []
  rhsBatch := []
  wf := dot_S16x128_S8192x16_S128x8192_0_1_1_0_n_n_wf
def dot_S32x256_S256x256_S32x256_1_1_0_0_n_n : DotDims S32x256 S256x256 S32x256 where
  lhsContracting := [1]
  rhsContracting := [1]
  lhsNonContracting := [0]
  rhsNonContracting := [0]
  lhsBatch := []
  rhsBatch := []
  wf := dot_S32x256_S256x256_S32x256_1_1_0_0_n_n_wf
def dot_S64x32_S64x8192_S32x8192_0_0_1_1_n_n : DotDims S64x32 S64x8192 S32x8192 where
  lhsContracting := [0]
  rhsContracting := [0]
  lhsNonContracting := [1]
  rhsNonContracting := [1]
  lhsBatch := []
  rhsBatch := []
  wf := dot_S64x32_S64x8192_S32x8192_0_0_1_1_n_n_wf
def dot_S32x128_S32x8192_S128x8192_0_0_1_1_n_n : DotDims S32x128 S32x8192 S128x8192 where
  lhsContracting := [0]
  rhsContracting := [0]
  lhsNonContracting := [1]
  rhsNonContracting := [1]
  lhsBatch := []
  rhsBatch := []
  wf := dot_S32x128_S32x8192_S128x8192_0_0_1_1_n_n_wf
def dot_S32x32_S32x8192_S32x8192_0_0_1_1_n_n : DotDims S32x32 S32x8192 S32x8192 where
  lhsContracting := [0]
  rhsContracting := [0]
  lhsNonContracting := [1]
  rhsNonContracting := [1]
  lhsBatch := []
  rhsBatch := []
  wf := dot_S32x32_S32x8192_S32x8192_0_0_1_1_n_n_wf

abbrev win0_0 : Pipeline.Window sig grid0 :=
  Pipeline.Window.ofSpec (Memref.whole main_arg0) S32x256x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S32x256x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S16x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S32x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S64x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S64x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S32x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S32x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v51) S64x16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v52) S32x256x32.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S256x256x16 : Shape := ⟨3, ![256, 256, 16]⟩
abbrev S256x256x256 : Shape := ⟨3, ![256, 256, 256]⟩
abbrev S368x64 : Shape := ⟨2, ![368, 64]⟩
abbrev S256x256x32 : Shape := ⟨3, ![256, 256, 32]⟩
abbrev S1x256x16 : Shape := ⟨3, ![1, 256, 16]⟩
abbrev S1x256x256 : Shape := ⟨3, ![1, 256, 256]⟩
abbrev S1x256x32 : Shape := ⟨3, ![1, 256, 32]⟩
abbrev S256x16 : Shape := ⟨2, ![256, 16]⟩
abbrev S256x256 : Shape := ⟨2, ![256, 256]⟩
abbrev S256x64 : Shape := ⟨2, ![256, 64]⟩
abbrev S16x64 : Shape := ⟨2, ![16, 64]⟩
abbrev S1x64 : Shape := ⟨2, ![1, 64]⟩
abbrev S64x32 : Shape := ⟨2, ![64, 32]⟩
abbrev S1x32 : Shape := ⟨2, ![1, 32]⟩
abbrev S1x1 : Shape := ⟨2, ![1, 1]⟩
abbrev S256x32 : Shape := ⟨2, ![256, 32]⟩
abbrev S256 : Shape := ⟨1, ![256]⟩
abbrev S256x1 : Shape := ⟨2, ![256, 1]⟩
abbrev S32x64 : Shape := ⟨2, ![32, 64]⟩
abbrev S32x32 : Shape := ⟨2, ![32, 32]⟩

abbrev nBuf : Space → Nat
  | .hbm => 5
  | .vmem => 9
  | .smem => 0
  | _ => 0

abbrev bufTy : (tb : Table) → Fin (tcTables nBuf tb) → BufTy
  | .hbm, ⟨0, _⟩ => ⟨S256x256x16, .f32⟩
  | .hbm, ⟨1, _⟩ => ⟨S256x256x256, .f32⟩
  | .hbm, ⟨2, _⟩ => ⟨S368x64, .f32⟩
  | .hbm, ⟨3, _⟩ => ⟨S256x256x32, .f32⟩
  | .hbm, ⟨4, _⟩ => ⟨S256x256x32, .f32⟩
  | .local _ .vmem, ⟨0, _⟩ => ⟨S1x256x16, .f32⟩
  | .local _ .vmem, ⟨1, _⟩ => ⟨S1x256x16, .f32⟩
  | .local _ .vmem, ⟨2, _⟩ => ⟨S1x256x256, .f32⟩
  | .local _ .vmem, ⟨3, _⟩ => ⟨S1x256x256, .f32⟩
  | .local _ .vmem, ⟨4, _⟩ => ⟨S368x64, .f32⟩
  | .local _ .vmem, ⟨5, _⟩ => ⟨S1x256x32, .f32⟩
  | .local _ .vmem, ⟨6, _⟩ => ⟨S1x256x32, .f32⟩
  | .local _ .vmem, ⟨7, _⟩ => ⟨S1x256x32, .f32⟩
  | .local _ .vmem, ⟨8, _⟩ => ⟨S1x256x32, .f32⟩
  | _, _ => ⟨S256x256x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S368x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1x256x16_S1x256x16_0_0_0 : ∀ a, (![0, 0, 0] : Fin 3 → Nat) a + S1x256x16.size a ≤ S1x256x16.size a
  h_S1x256x16 : 0 < S1x256x16.numel
  shapeCasts_S1x256x16_S256x16 : S1x256x16.ShapeCasts S256x16
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  iota_S256x64_d1_w32 : S256x64.Iotas .tc 32 [1]
  inb_S368x64_S16x64_0_0 : ∀ a, (![0, 0] : Fin 2 → Nat) a + S16x64.size a ≤ S368x64.size a
  h_S16x64 : 0 < S16x64.numel
  inb_S368x64_S1x64_288_0 : ∀ a, (![288, 0] : Fin 2 → Nat) a + S1x64.size a ≤ S368x64.size a
  h_S1x64 : 0 < S1x64.numel
  inb_S368x64_S64x32_16_0 : ∀ a, (![16, 0] : Fin 2 → Nat) a + S64x32.size a ≤ S368x64.size a
  h_S64x32 : 0 < S64x32.numel
  inb_S368x64_S1x32_296_0 : ∀ a, (![296, 0] : Fin 2 → Nat) a + S1x32.size a ≤ S368x64.size a
  h_S1x32 : 0 < S1x32.numel
  inb_S368x64_S1x32_304_0 : ∀ a, (![304, 0] : Fin 2 → Nat) a + S1x32.size a ≤ S368x64.size a
  inb_S368x64_S1x1_312_0 : ∀ a, (![312, 0] : Fin 2 → Nat) a + S1x1.size a ≤ S368x64.size a
  h_S1x1 : 0 < S1x1.numel
  broadcasts_S1x64_S256x64 : S1x64.Broadcasts S256x64
  broadcasts_S1x32_S256x32 : S1x32.Broadcasts S256x32
  reduces_S256x32_S256 : S256x32.Reduces [1] S256
  shapeCasts_S256_S256x1 : S256.ShapeCasts S256x1
  broadcasts_S1x1_S256x1 : S1x1.Broadcasts S256x1
  inb_S368x64_S16x64_80_0 : ∀ a, (![80, 0] : Fin 2 → Nat) a + S16x64.size a ≤ S368x64.size a
  slices_S256x64_o0_0_S256x32 : S256x64.Slices ![0, 0] S256x32
  broadcasts_S256x1_S256x32 : S256x1.Broadcasts S256x32
  slices_S256x64_o0_32_S256x32 : S256x64.Slices ![0, 32] S256x32
  inb_S368x64_S32x64_96_0 : ∀ a, (![96, 0] : Fin 2 → Nat) a + S32x64.size a ≤ S368x64.size a
  h_S32x64 : 0 < S32x64.numel
  inb_S368x64_S1x64_320_0 : ∀ a, (![320, 0] : Fin 2 → Nat) a + S1x64.size a ≤ S368x64.size a
  inb_S368x64_S64x32_128_0 : ∀ a, (![128, 0] : Fin 2 → Nat) a + S64x32.size a ≤ S368x64.size a
  inb_S368x64_S1x32_328_0 : ∀ a, (![328, 0] : Fin 2 → Nat) a + S1x32.size a ≤ S368x64.size a
  inb_S368x64_S1x32_336_0 : ∀ a, (![336, 0] : Fin 2 → Nat) a + S1x32.size a ≤ S368x64.size a
  inb_S368x64_S1x1_344_0 : ∀ a, (![344, 0] : Fin 2 → Nat) a + S1x1.size a ≤ S368x64.size a
  inb_S368x64_S32x64_192_0 : ∀ a, (![192, 0] : Fin 2 → Nat) a + S32x64.size a ≤ S368x64.size a
  inb_S368x64_S32x32_224_0 : ∀ a, (![224, 0] : Fin 2 → Nat) a + S32x32.size a ≤ S368x64.size a
  h_S32x32 : 0 < S32x32.numel
  inb_S368x64_S1x32_352_0 : ∀ a, (![352, 0] : Fin 2 → Nat) a + S1x32.size a ≤ S368x64.size a
  inb_S1x256x32_S1x256x32_0_0_0 : ∀ a, (![0, 0, 0] : Fin 3 → Nat) a + S1x256x32.size a ≤ S1x256x32.size a
  h_S1x256x32 : 0 < S1x256x32.numel
  shapeCasts_S1x256x32_S256x32 : S1x256x32.ShapeCasts S256x32
  inb_S368x64_S32x32_256_0 : ∀ a, (![256, 0] : Fin 2 → Nat) a + S32x32.size a ≤ S368x64.size a
  inb_S368x64_S1x32_360_0 : ∀ a, (![360, 0] : Fin 2 → Nat) a + S1x32.size a ≤ S368x64.size a
  shapeCasts_S256x32_S1x256x32 : S256x32.ShapeCasts S1x256x32
  dot_S256x16_S16x64_S256x64_1_0_0_1_n_n_wf : DotDims.WF S256x16 S16x64 S256x64 [1] [0] [0] [1] [] []
  dot_S256x256_S256x64_S256x64_1_0_0_1_n_n_wf : DotDims.WF S256x256 S256x64 S256x64 [1] [0] [0] [1] [] []
  dot_S256x64_S64x32_S256x32_1_0_0_1_n_n_wf : DotDims.WF S256x64 S64x32 S256x32 [1] [0] [0] [1] [] []
  dot_S256x256_S256x32_S256x32_1_0_0_1_n_n_wf : DotDims.WF S256x256 S256x32 S256x32 [1] [0] [0] [1] [] []
  dot_S256x32_S32x64_S256x64_1_0_0_1_n_n_wf : DotDims.WF S256x32 S32x64 S256x64 [1] [0] [0] [1] [] []
  dot_S256x32_S32x32_S256x32_1_0_0_1_n_n_wf : DotDims.WF S256x32 S32x32 S256x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x16.size a ≤ S256x256x16.size a
  hwx0_0 : ∀ i : grid0.Coords, EltTy.bits .f32 = 32 ∨ (Rect.block (s := S256x256x16) S1x256x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S256x256x256.size a
  hwx0_1 : ∀ i : grid0.Coords, EltTy.bits .f32 = 32 ∨ (Rect.block (s := S256x256x256) S1x256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S368x64.size a ≤ S368x64.size a
  hwx0_2 : ∀ i : grid0.Coords, EltTy.bits .f32 = 32 ∨ (Rect.block (s := S368x64) S368x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x32.size a ≤ S256x256x32.size a
  hwx0_3 : ∀ i : grid0.Coords, EltTy.bits .f32 = 32 ∨ (Rect.block (s := S256x256x32) S1x256x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x32.size a ≤ S256x256x32.size a
  hwx0_4 : ∀ i : grid0.Coords, EltTy.bits .f32 = 32 ∨ (Rect.block (s := S256x256x32) S1x256x32.size (cc0_transform_4 i) (hinb0_4 i)).WholeWords (EltTy.packing .f32)

variable [Facts₀]

def dot_S256x16_S16x64_S256x64_1_0_0_1_n_n : DotDims S256x16 S16x64 S256x64 where
  lhsContracting := [1]
  rhsContracting := [0]
  lhsNonContracting := [0]
  rhsNonContracting := [1]
  lhsBatch := []
  rhsBatch := []
  wf := dot_S256x16_S16x64_S256x64_1_0_0_1_n_n_wf
def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf
def dot_S256x64_S64x32_S256x32_1_0_0_1_n_n : DotDims S256x64 S64x32 S256x32 where
  lhsContracting := [1]
  rhsContracting := [0]
  lhsNonContracting := [0]
  rhsNonContracting := [1]
  lhsBatch := []
  rhsBatch := []
  wf := dot_S256x64_S64x32_S256x32_1_0_0_1_n_n_wf
def dot_S256x256_S256x32_S256x32_1_0_0_1_n_n : DotDims S256x256 S256x32 S256x32 where
  lhsContracting := [1]
  rhsContracting := [0]
  lhsNonContracting := [0]
  rhsNonContracting := [1]
  lhsBatch := []
  rhsBatch := []
  wf := dot_S256x256_S256x32_S256x32_1_0_0_1_n_n_wf
def dot_S256x32_S32x64_S256x64_1_0_0_1_n_n : DotDims S256x32 S32x64 S256x64 where
  lhsContracting := [1]
  rhsContracting := [0]
  lhsNonContracting := [0]
  rhsNonContracting := [1]
  lhsBatch := []
  rhsBatch := []
  wf := dot_S256x32_S32x64_S256x64_1_0_0_1_n_n_wf
def dot_S256x32_S32x32_S256x32_1_0_0_1_n_n : DotDims S256x32 S32x32 S256x32 where
  lhsContracting := [1]
  rhsContracting := [0]
  lhsNonContracting := [0]
  rhsNonContracting := [1]
  lhsBatch := []
  rhsBatch := []
  wf := dot_S256x32_S32x32_S256x32_1_0_0_1_n_n_wf

abbrev win0_0 : Pipeline.Window sig grid0 :=
  Pipeline.Window.ofSpec (Memref.whole main_arg0) S1x256x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S368x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x256x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== Proof.KernelBody.lean ====
/-
  The kernel body's run, on arbitrary whole staging buffers.

  One grid point of the kernel handles 32 graphs at once. The body reads its ten input blocks whole, computes, and
  writes the output block in 32 slabs of shape [1, 256, 32], one per graph: slab g holds graph g's result, nodes on
  the rows and the 32 output features on the columns. It keeps nothing between points, so what it leaves in the
  output buffer is a function of the ten input blocks alone: the list of the 32 stored slabs, each a pure term over
  the loaded blocks. That list is the witness of the statement below, and the statement says that from buffers
  holding the input blocks the body terminates without fault, returns the inputs as they were, and leaves the output
  buffer at those slabs written over whatever it held before.
-/
import proofs.«122836_g2000103277586728_pallasbulk_447_7_alg».proof.Proof.Gen.Kernel.Launch
import proofs.«122836_g2000103277586728_pallasbulk_447_7_alg».proof.Proof.Gen.Kernel.Skeleton
import proofs.«122836_g2000103277586728_pallasbulk_447_7_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The 32 slabs the body stores into the output block (last stored first), as terms over the ten input blocks
    `x0 … x9` — node features, adjacency, dropout scale, the two stacked projection matrices, the two hidden-layer
    matrices, the two post-layer matrices and the bias columns —, together with the body's run: holding the inputs'
    buffers at `x0 … x9` and the output's at anything, the body reaches its continuation holding the inputs' as they
    were and the output's at those slabs written over its earlier contents. -/
noncomputable def kernelRun (c : Dev nD) (i : grid0.Coords) (arg1 : Memref sig .tc .vmem S32x256x16 .f32) (harg1 : arg1.IsWhole) (arg2 : Memref sig .tc .vmem S32x256x256 .f32) (harg2 : arg2.IsWhole) (arg3 : Memref sig .tc .vmem S32x256x32 .f32) (harg3 : arg3.IsWhole) (arg4 : Memref sig .tc .vmem S16x128 .f32) (harg4 : arg4.IsWhole) (arg5 : Memref sig .tc .vmem S32x128 .f32) (harg5 : arg5.IsWhole) (arg6 : Memref sig .tc .vmem S64x32 .f32) (harg6 : arg6.IsWhole) (arg7 : Memref sig .tc .vmem S64x32 .f32) (harg7 : arg7.IsWhole) (arg8 : Memref sig .tc .vmem S32x32 .f32) (harg8 : arg8.IsWhole) (arg9 : Memref sig .tc .vmem S32x32 .f32) (harg9 : arg9.IsWhole) (arg10 : Memref sig .tc .vmem S64x16 .f32) (harg10 : arg10.IsWhole) (arg11 : Memref sig .tc .vmem S32x256x32 .f32) (harg11 : arg11.IsWhole)
    (x0 : Vec F S32x256x16 .f32) (x1 : Vec F S32x256x256 .f32) (x2 : Vec F S32x256x32 .f32) (x3 : Vec F S16x128 .f32) (x4 : Vec F S32x128 .f32) (x5 : Vec F S64x32 .f32) (x6 : Vec F S64x32 .f32) (x7 : Vec F S32x32 .f32) (x8 : Vec F S32x32 .f32) (x9 : Vec F S64x16 .f32) :
    { L : List (View.Piece (Elt F) S32x256x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L)) -∗ K ⟨⟩))
          ⊢ wp frame (wpE (defs₀ (F := F)) Variants.none c none) E (cc0__smg_body i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__smg_body_eq_skeleton]; unfold cc0__smg_body_skel
    simp only [k0_part20_eq_skeleton]; unfold k0_part20_skel
    simp only [k0_part1_eq_skeleton]; unfold k0_part1_skel
    simp only [k0_part2_eq_skeleton]; unfold k0_part2_skel
    simp only [k0_part3_eq_skeleton]; unfold k0_part3_skel
    simp only [k0_part4_eq_skeleton]; unfold k0_part4_skel
    simp only [k0_part5_eq_skeleton]; unfold k0_part5_skel
    simp only [k0_part6_eq_skeleton]; unfold k0_part6_skel
    simp only [k0_part7_eq_skeleton]; unfold k0_part7_skel
    simp only [k0_part8_eq_skeleton]; unfold k0_part8_skel
    simp only [k0_part9_eq_skeleton]; unfold k0_part9_skel
    simp only [k0_part10_eq_skeleton]; unfold k0_part10_skel
    simp only [k0_part11_eq_skeleton]; unfold k0_part11_skel
    simp only [k0_part12_eq_skeleton]; unfold k0_part12_skel
    simp only [k0_part13_eq_skeleton]; unfold k0_part13_skel
    simp only [k0_part14_eq_skeleton]; unfold k0_part14_skel
    simp only [k0_part15_eq_skeleton]; unfold k0_part15_skel
    simp only [k0_part16_eq_skeleton]; unfold k0_part16_skel
    simp only [k0_part17_eq_skeleton]; unfold k0_part17_skel
    simp only [k0_part18_eq_skeleton]; unfold k0_part18_skel
    simp only [k0_part19_eq_skeleton]; unfold k0_part19_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    iexists _; iexact H10

end Cert.Kernel.Body

end
-- ==== Proof.KernelFrame.lean ====
/-
  The kernel's run on its grid, and its frame.

  Before the grid starts, the program repacks the parameter slab on the host: it slices the weight matrices out of
  it, sets the layer-0 and layer-1 projection matrices side by side, and gathers the ten bias rows into the columns
  of one [64, 16] array (each row padded with zeros to 64 entries, the ten columns concatenated, six zero columns
  appended). None of these operations writes an argument array. The grid has 8 points; point t stages graphs
  32 t … 32 t + 31 of the node features, the adjacency and the dropout scale, the repacked parameters whole, and
  writes back rows 32 t … 32 t + 31 of the result.

  Here: the arrays as the grid finds them (the launch contents carried through the host prefix), each window's
  block at a point, what the body leaves in the output buffer at a point (its 32 stored slabs, which tile the
  block), the body's obligation at every point, the run of the whole program to a state where every staged array
  is what the grid's write-backs make of it, and from it the frame: the program terminates without fault and its
  four argument arrays end as they were launched.
-/
import proofs.«122836_g2000103277586728_pallasbulk_447_7_alg».proof.Proof.KernelBody

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the grid -/

/-- Core `c`'s arrays when the grid starts: the launch contents carried through the host prefix. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor

/-- The program is its host prefix followed by the grid, so the grid starts from `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh⟩) main_chain

/-- Nothing before the grid writes argument 0: the grid finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- Nothing before the grid writes argument 1: the grid finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- Nothing before the grid writes argument 2: the grid finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- Nothing before the grid writes argument 3: the grid finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-! ## The windows' blocks -/

/-- Window `w`'s block at point `t`, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether the point fetched it or the
    block index has not moved since it was fetched, for any proof data over `V` whose body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame from a run -/

/-- From a run that ends with every staged array at what the write-backs make of it and every other array as the
    grid found it, the four argument arrays end as launched: the node features, the adjacency and the dropout scale
    are staged inputs, never written back; the parameter slab is staged by no window; and the host prefix writes none. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).1 2).trans (((dats 0 c).arrAt_in 2 rfl _).trans ((hA c 2).trans (V_main_arg3 m c)))⟩) h

/-! ## What the body leaves in the output buffer -/

/-- A whole buffer of the output block's shape, to read the stored slabs back through. -/
abbrev VO : View sig .tc .vmem S32x256x32 .f32 := (Memref.whole cc0_stg10_0 : Memref sig .tc .vmem S32x256x32 .f32).view

abbrev ms_0 (t : Fin cfg0.N) : Memref sig .tc .vmem S32x256x16 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S32x256x256 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S32x256x32 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S16x128 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S32x128 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S64x32 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S64x32 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S32x32 .f32 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S32x32 .f32 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S64x16 .f32 := win0_9.stage (cfg0.slots t 9)
abbrev hs_9 (t : Fin cfg0.N) : (ms_9 t).IsWhole := hstage0_9 ((cfg0.slots t 9).cast nbuf0_9)
abbrev ms_10 (t : Fin cfg0.N) : Memref sig .tc .vmem S32x256x32 .f32 := win0_10.stage (cfg0.slots t 10)
abbrev hs_10 (t : Fin cfg0.N) : (ms_10 t).IsWhole := hstage0_10 ((cfg0.slots t 10).cast nbuf0_10)

/-- The 32 stored slabs tile the output block: slab g is rows g of the leading axis, whole. -/
theorem cover (c : Dev nD) (i : grid0.Coords) (arg1 : Memref sig .tc .vmem S32x256x16 .f32) (harg1 : arg1.IsWhole) (arg2 : Memref sig .tc .vmem S32x256x256 .f32) (harg2 : arg2.IsWhole) (arg3 : Memref sig .tc .vmem S32x256x32 .f32) (harg3 : arg3.IsWhole) (arg4 : Memref sig .tc .vmem S16x128 .f32) (harg4 : arg4.IsWhole) (arg5 : Memref sig .tc .vmem S32x128 .f32) (harg5 : arg5.IsWhole) (arg6 : Memref sig .tc .vmem S64x32 .f32) (harg6 : arg6.IsWhole) (arg7 : Memref sig .tc .vmem S64x32 .f32) (harg7 : arg7.IsWhole) (arg8 : Memref sig .tc .vmem S32x32 .f32) (harg8 : arg8.IsWhole) (arg9 : Memref sig .tc .vmem S32x32 .f32) (harg9 : arg9.IsWhole) (arg10 : Memref sig .tc .vmem S64x16 .f32) (harg10 : arg10.IsWhole) (arg11 : Memref sig .tc .vmem S32x256x32 .f32) (harg11 : arg11.IsWhole)
    (x0 : Vec F S32x256x16 .f32) (x1 : Vec F S32x256x256 .f32) (x2 : Vec F S32x256x32 .f32) (x3 : Vec F S16x128 .f32) (x4 : Vec F S32x128 .f32) (x5 : Vec F S64x32 .f32) (x6 : Vec F S64x32 .f32) (x7 : Vec F S32x32 .f32) (x8 : Vec F S32x32 .f32) (x9 : Vec F S64x16 .f32) (y : S32x256x32.Idx) :
    ∃ pc ∈ (kernelRun c i arg1 harg1 arg2 harg2 arg3 harg3 arg4 harg4 arg5 harg5 arg6 harg6 arg7 harg7 arg8 harg8 arg9 harg9 arg10 harg10 arg11 harg11 x0 x1 x2 x3 x4 x5 x6 x7 x8 x9).1, y ∈ pc.1.set :=
  View.cover_of_tiledL (kernelRun c i arg1 harg1 arg2 harg2 arg3 harg3 arg4 harg4 arg5 harg5 arg6 harg6 arg7 harg7 arg8 harg8 arg9 harg9 arg10 harg10 arg11 harg11 x0 x1 x2 x3 x4 x5 x6 x7 x8 x9).1 S1x256x32.size (by sl_kernel_rfl) y

/-- What the body leaves in the output buffer: its slabs read back (they cover the block, so nothing else shows). -/
def out (c : Dev nD) (i : grid0.Coords) (arg1 : Memref sig .tc .vmem S32x256x16 .f32) (harg1 : arg1.IsWhole) (arg2 : Memref sig .tc .vmem S32x256x256 .f32) (harg2 : arg2.IsWhole) (arg3 : Memref sig .tc .vmem S32x256x32 .f32) (harg3 : arg3.IsWhole) (arg4 : Memref sig .tc .vmem S16x128 .f32) (harg4 : arg4.IsWhole) (arg5 : Memref sig .tc .vmem S32x128 .f32) (harg5 : arg5.IsWhole) (arg6 : Memref sig .tc .vmem S64x32 .f32) (harg6 : arg6.IsWhole) (arg7 : Memref sig .tc .vmem S64x32 .f32) (harg7 : arg7.IsWhole) (arg8 : Memref sig .tc .vmem S32x32 .f32) (harg8 : arg8.IsWhole) (arg9 : Memref sig .tc .vmem S32x32 .f32) (harg9 : arg9.IsWhole) (arg10 : Memref sig .tc .vmem S64x16 .f32) (harg10 : arg10.IsWhole) (arg11 : Memref sig .tc .vmem S32x256x32 .f32) (harg11 : arg11.IsWhole)
    (x0 : Vec F S32x256x16 .f32) (x1 : Vec F S32x256x256 .f32) (x2 : Vec F S32x256x32 .f32) (x3 : Vec F S16x128 .f32) (x4 : Vec F S32x128 .f32) (x5 : Vec F S64x32 .f32) (x6 : Vec F S64x32 .f32) (x7 : Vec F S32x32 .f32) (x8 : Vec F S32x32 .f32) (x9 : Vec F S64x16 .f32) : Vec F S32x256x32 .f32 :=
  VO.read (Elt F) (VO.writes (Elt F) VO.junk (kernelRun c i arg1 harg1 arg2 harg2 arg3 harg3 arg4 harg4 arg5 harg5 arg6 harg6 arg7 harg7 arg8 harg8 arg9 harg9 arg10 harg10 arg11 harg11 x0 x1 x2 x3 x4 x5 x6 x7 x8 x9).1)

/-- The output buffer after the body at point `t`: `out` of the point's input blocks. -/
def outAt (c : Dev nD) (t : Fin cfg0.N) : Vec F S32x256x32 .f32 :=
  out c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (iblk m c 0 t) (iblk m c 1 t) (iblk m c 2 t) (iblk m c 3 t) (iblk m c 4 t) (iblk m c 5 t) (iblk m c 6 t) (iblk m c 7 t) (iblk m c 8 t) (iblk m c 9 t)

/-! ## The proof data -/

/-- On core `c`: the arrays as the grid finds them; after the body at point `t` each input buffer at its block and
    the output buffer at `outAt`; the rest of the core untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = outAt m c t := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d

/-! ## The body's obligation at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t)
    ∗ owns (c : Thread nD τ) (ms_6 t) fullShare ((dats m 0 c).after 6 t)
    ∗ owns (c : Thread nD τ) (ms_7 t) fullShare ((dats m 0 c).after 7 t)
    ∗ owns (c : Thread nD τ) (ms_8 t) fullShare ((dats m 0 c).after 8 t)
    ∗ owns (c : Thread nD τ) (ms_9 t) fullShare ((dats m 0 c).after 9 t)
    ∗ owns (c : Thread nD τ) (ms_10 t) fullShare ((dats m 0 c).after 10 t))

/-- At any point the input buffers hold their blocks, so the body's run applies; the rest of the core passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10]
  unfold outAt
  unfold out
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, ⟨%e10, H10⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  unfold owns; iexists _; isplitr
  swap; · iexact H10
  ipureintro; exact View.read_writes_of_cover _ _ _ _ _ (cover c _ _ _ _ _ _ _ _ _ _ _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any launch memory with zero counters, every weakly fair execution of the program terminates without fault,
    and in every final state each staged array is what the grid's write-backs make of it over the proof data, every
    other array as the grid found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any float instance: the program terminates without fault and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.KernelIdealBody.lean ====
/-
  The kernel body's run, on arbitrary whole staging buffers.

  One grid point of the kernel handles 32 graphs at once. The body reads its ten input blocks whole, computes, and
  writes the output block in 32 slabs of shape [1, 256, 32], one per graph: slab g holds graph g's result, nodes on
  the rows and the 32 output features on the columns. It keeps nothing between points, so what it leaves in the
  output buffer is a function of the ten input blocks alone: the list of the 32 stored slabs, each a pure term over
  the loaded blocks. That list is the witness of the statement below, and the statement says that from buffers
  holding the input blocks the body terminates without fault, returns the inputs as they were, and leaves the output
  buffer at those slabs written over whatever it held before.
-/
import proofs.«122836_g2000103277586728_pallasbulk_447_7_alg».proof.Proof.Gen.KernelIdeal.Launch
import proofs.«122836_g2000103277586728_pallasbulk_447_7_alg».proof.Proof.Gen.KernelIdeal.Skeleton
import proofs.«122836_g2000103277586728_pallasbulk_447_7_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The 32 slabs the body stores into the output block (last stored first), as terms over the ten input blocks
    `x0 … x9` — node features, adjacency, dropout scale, the two stacked projection matrices, the two hidden-layer
    matrices, the two post-layer matrices and the bias columns —, together with the body's run: holding the inputs'
    buffers at `x0 … x9` and the output's at anything, the body reaches its continuation holding the inputs' as they
    were and the output's at those slabs written over its earlier contents. -/
noncomputable def kernelRun (c : Dev nD) (i : grid0.Coords) (arg1 : Memref sig .tc .vmem S32x256x16 .f32) (harg1 : arg1.IsWhole) (arg2 : Memref sig .tc .vmem S32x256x256 .f32) (harg2 : arg2.IsWhole) (arg3 : Memref sig .tc .vmem S32x256x32 .f32) (harg3 : arg3.IsWhole) (arg4 : Memref sig .tc .vmem S16x128 .f32) (harg4 : arg4.IsWhole) (arg5 : Memref sig .tc .vmem S32x128 .f32) (harg5 : arg5.IsWhole) (arg6 : Memref sig .tc .vmem S64x32 .f32) (harg6 : arg6.IsWhole) (arg7 : Memref sig .tc .vmem S64x32 .f32) (harg7 : arg7.IsWhole) (arg8 : Memref sig .tc .vmem S32x32 .f32) (harg8 : arg8.IsWhole) (arg9 : Memref sig .tc .vmem S32x32 .f32) (harg9 : arg9.IsWhole) (arg10 : Memref sig .tc .vmem S64x16 .f32) (harg10 : arg10.IsWhole) (arg11 : Memref sig .tc .vmem S32x256x32 .f32) (harg11 : arg11.IsWhole)
    (x0 : Vec F S32x256x16 .f32) (x1 : Vec F S32x256x256 .f32) (x2 : Vec F S32x256x32 .f32) (x3 : Vec F S16x128 .f32) (x4 : Vec F S32x128 .f32) (x5 : Vec F S64x32 .f32) (x6 : Vec F S64x32 .f32) (x7 : Vec F S32x32 .f32) (x8 : Vec F S32x32 .f32) (x9 : Vec F S64x16 .f32) :
    { L : List (View.Piece (Elt F) S32x256x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L)) -∗ K ⟨⟩))
          ⊢ wp frame (wpE (defs₀ (F := F)) Variants.none c none) E (cc0__smg_body i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__smg_body_eq_skeleton]; unfold cc0__smg_body_skel
    simp only [k0_part20_eq_skeleton]; unfold k0_part20_skel
    simp only [k0_part1_eq_skeleton]; unfold k0_part1_skel
    simp only [k0_part2_eq_skeleton]; unfold k0_part2_skel
    simp only [k0_part3_eq_skeleton]; unfold k0_part3_skel
    simp only [k0_part4_eq_skeleton]; unfold k0_part4_skel
    simp only [k0_part5_eq_skeleton]; unfold k0_part5_skel
    simp only [k0_part6_eq_skeleton]; unfold k0_part6_skel
    simp only [k0_part7_eq_skeleton]; unfold k0_part7_skel
    simp only [k0_part8_eq_skeleton]; unfold k0_part8_skel
    simp only [k0_part9_eq_skeleton]; unfold k0_part9_skel
    simp only [k0_part10_eq_skeleton]; unfold k0_part10_skel
    simp only [k0_part11_eq_skeleton]; unfold k0_part11_skel
    simp only [k0_part12_eq_skeleton]; unfold k0_part12_skel
    simp only [k0_part13_eq_skeleton]; unfold k0_part13_skel
    simp only [k0_part14_eq_skeleton]; unfold k0_part14_skel
    simp only [k0_part15_eq_skeleton]; unfold k0_part15_skel
    simp only [k0_part16_eq_skeleton]; unfold k0_part16_skel
    simp only [k0_part17_eq_skeleton]; unfold k0_part17_skel
    simp only [k0_part18_eq_skeleton]; unfold k0_part18_skel
    simp only [k0_part19_eq_skeleton]; unfold k0_part19_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    iexists _; iexact H10

end Cert.KernelIdeal.Body

end
-- ==== Proof.KernelIdealFrame.lean ====
/-
  The kernel's run on its grid, and its frame.

  Before the grid starts, the program repacks the parameter slab on the host: it slices the weight matrices out of
  it, sets the layer-0 and layer-1 projection matrices side by side, and gathers the ten bias rows into the columns
  of one [64, 16] array (each row padded with zeros to 64 entries, the ten columns concatenated, six zero columns
  appended). None of these operations writes an argument array. The grid has 8 points; point t stages graphs
  32 t … 32 t + 31 of the node features, the adjacency and the dropout scale, the repacked parameters whole, and
  writes back rows 32 t … 32 t + 31 of the result.

  Here: the arrays as the grid finds them (the launch contents carried through the host prefix), each window's
  block at a point, what the body leaves in the output buffer at a point (its 32 stored slabs, which tile the
  block), the body's obligation at every point, the run of the whole program to a state where every staged array
  is what the grid's write-backs make of it, and from it the frame: the program terminates without fault and its
  four argument arrays end as they were launched.
-/
import proofs.«122836_g2000103277586728_pallasbulk_447_7_alg».proof.Proof.KernelIdealBody

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the grid -/

/-- Core `c`'s arrays when the grid starts: the launch contents carried through the host prefix. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor

/-- The program is its host prefix followed by the grid, so the grid starts from `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh⟩) main_chain

/-- Nothing before the grid writes argument 0: the grid finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- Nothing before the grid writes argument 1: the grid finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- Nothing before the grid writes argument 2: the grid finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))
/-- Nothing before the grid writes argument 3: the grid finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-! ## The windows' blocks -/

/-- Window `w`'s block at point `t`, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether the point fetched it or the
    block index has not moved since it was fetched, for any proof data over `V` whose body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame from a run -/

/-- From a run that ends with every staged array at what the write-backs make of it and every other array as the
    grid found it, the four argument arrays end as launched: the node features, the adjacency and the dropout scale
    are staged inputs, never written back; the parameter slab is staged by no window; and the host prefix writes none. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).1 2).trans (((dats 0 c).arrAt_in 2 rfl _).trans ((hA c 2).trans (V_main_arg3 m c)))⟩) h

/-! ## What the body leaves in the output buffer -/

/-- A whole buffer of the output block's shape, to read the stored slabs back through. -/
abbrev VO : View sig .tc .vmem S32x256x32 .f32 := (Memref.whole cc0_stg10_0 : Memref sig .tc .vmem S32x256x32 .f32).view

abbrev ms_0 (t : Fin cfg0.N) : Memref sig .tc .vmem S32x256x16 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S32x256x256 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S32x256x32 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S16x128 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S32x128 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S64x32 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S64x32 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S32x32 .f32 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S32x32 .f32 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S64x16 .f32 := win0_9.stage (cfg0.slots t 9)
abbrev hs_9 (t : Fin cfg0.N) : (ms_9 t).IsWhole := hstage0_9 ((cfg0.slots t 9).cast nbuf0_9)
abbrev ms_10 (t : Fin cfg0.N) : Memref sig .tc .vmem S32x256x32 .f32 := win0_10.stage (cfg0.slots t 10)
abbrev hs_10 (t : Fin cfg0.N) : (ms_10 t).IsWhole := hstage0_10 ((cfg0.slots t 10).cast nbuf0_10)

/-- The 32 stored slabs tile the output block: slab g is rows g of the leading axis, whole. -/
theorem cover (c : Dev nD) (i : grid0.Coords) (arg1 : Memref sig .tc .vmem S32x256x16 .f32) (harg1 : arg1.IsWhole) (arg2 : Memref sig .tc .vmem S32x256x256 .f32) (harg2 : arg2.IsWhole) (arg3 : Memref sig .tc .vmem S32x256x32 .f32) (harg3 : arg3.IsWhole) (arg4 : Memref sig .tc .vmem S16x128 .f32) (harg4 : arg4.IsWhole) (arg5 : Memref sig .tc .vmem S32x128 .f32) (harg5 : arg5.IsWhole) (arg6 : Memref sig .tc .vmem S64x32 .f32) (harg6 : arg6.IsWhole) (arg7 : Memref sig .tc .vmem S64x32 .f32) (harg7 : arg7.IsWhole) (arg8 : Memref sig .tc .vmem S32x32 .f32) (harg8 : arg8.IsWhole) (arg9 : Memref sig .tc .vmem S32x32 .f32) (harg9 : arg9.IsWhole) (arg10 : Memref sig .tc .vmem S64x16 .f32) (harg10 : arg10.IsWhole) (arg11 : Memref sig .tc .vmem S32x256x32 .f32) (harg11 : arg11.IsWhole)
    (x0 : Vec F S32x256x16 .f32) (x1 : Vec F S32x256x256 .f32) (x2 : Vec F S32x256x32 .f32) (x3 : Vec F S16x128 .f32) (x4 : Vec F S32x128 .f32) (x5 : Vec F S64x32 .f32) (x6 : Vec F S64x32 .f32) (x7 : Vec F S32x32 .f32) (x8 : Vec F S32x32 .f32) (x9 : Vec F S64x16 .f32) (y : S32x256x32.Idx) :
    ∃ pc ∈ (kernelRun c i arg1 harg1 arg2 harg2 arg3 harg3 arg4 harg4 arg5 harg5 arg6 harg6 arg7 harg7 arg8 harg8 arg9 harg9 arg10 harg10 arg11 harg11 x0 x1 x2 x3 x4 x5 x6 x7 x8 x9).1, y ∈ pc.1.set :=
  View.cover_of_tiledL (kernelRun c i arg1 harg1 arg2 harg2 arg3 harg3 arg4 harg4 arg5 harg5 arg6 harg6 arg7 harg7 arg8 harg8 arg9 harg9 arg10 harg10 arg11 harg11 x0 x1 x2 x3 x4 x5 x6 x7 x8 x9).1 S1x256x32.size (by sl_kernel_rfl) y

/-- What the body leaves in the output buffer: its slabs read back (they cover the block, so nothing else shows). -/
def out (c : Dev nD) (i : grid0.Coords) (arg1 : Memref sig .tc .vmem S32x256x16 .f32) (harg1 : arg1.IsWhole) (arg2 : Memref sig .tc .vmem S32x256x256 .f32) (harg2 : arg2.IsWhole) (arg3 : Memref sig .tc .vmem S32x256x32 .f32) (harg3 : arg3.IsWhole) (arg4 : Memref sig .tc .vmem S16x128 .f32) (harg4 : arg4.IsWhole) (arg5 : Memref sig .tc .vmem S32x128 .f32) (harg5 : arg5.IsWhole) (arg6 : Memref sig .tc .vmem S64x32 .f32) (harg6 : arg6.IsWhole) (arg7 : Memref sig .tc .vmem S64x32 .f32) (harg7 : arg7.IsWhole) (arg8 : Memref sig .tc .vmem S32x32 .f32) (harg8 : arg8.IsWhole) (arg9 : Memref sig .tc .vmem S32x32 .f32) (harg9 : arg9.IsWhole) (arg10 : Memref sig .tc .vmem S64x16 .f32) (harg10 : arg10.IsWhole) (arg11 : Memref sig .tc .vmem S32x256x32 .f32) (harg11 : arg11.IsWhole)
    (x0 : Vec F S32x256x16 .f32) (x1 : Vec F S32x256x256 .f32) (x2 : Vec F S32x256x32 .f32) (x3 : Vec F S16x128 .f32) (x4 : Vec F S32x128 .f32) (x5 : Vec F S64x32 .f32) (x6 : Vec F S64x32 .f32) (x7 : Vec F S32x32 .f32) (x8 : Vec F S32x32 .f32) (x9 : Vec F S64x16 .f32) : Vec F S32x256x32 .f32 :=
  VO.read (Elt F) (VO.writes (Elt F) VO.junk (kernelRun c i arg1 harg1 arg2 harg2 arg3 harg3 arg4 harg4 arg5 harg5 arg6 harg6 arg7 harg7 arg8 harg8 arg9 harg9 arg10 harg10 arg11 harg11 x0 x1 x2 x3 x4 x5 x6 x7 x8 x9).1)

/-- The output buffer after the body at point `t`: `out` of the point's input blocks. -/
def outAt (c : Dev nD) (t : Fin cfg0.N) : Vec F S32x256x32 .f32 :=
  out c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (iblk m c 0 t) (iblk m c 1 t) (iblk m c 2 t) (iblk m c 3 t) (iblk m c 4 t) (iblk m c 5 t) (iblk m c 6 t) (iblk m c 7 t) (iblk m c 8 t) (iblk m c 9 t)

/-! ## The proof data -/

/-- On core `c`: the arrays as the grid finds them; after the body at point `t` each input buffer at its block and
    the output buffer at `outAt`; the rest of the core untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = outAt m c t := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d

/-! ## The body's obligation at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t)
    ∗ owns (c : Thread nD τ) (ms_6 t) fullShare ((dats m 0 c).after 6 t)
    ∗ owns (c : Thread nD τ) (ms_7 t) fullShare ((dats m 0 c).after 7 t)
    ∗ owns (c : Thread nD τ) (ms_8 t) fullShare ((dats m 0 c).after 8 t)
    ∗ owns (c : Thread nD τ) (ms_9 t) fullShare ((dats m 0 c).after 9 t)
    ∗ owns (c : Thread nD τ) (ms_10 t) fullShare ((dats m 0 c).after 10 t))

/-- At any point the input buffers hold their blocks, so the body's run applies; the rest of the core passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10]
  unfold outAt
  unfold out
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, ⟨%e10, H10⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  unfold owns; iexists _; isplitr
  swap; · iexact H10
  ipureintro; exact View.read_writes_of_cover _ _ _ _ _ (cover c _ _ _ _ _ _ _ _ _ _ _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any launch memory with zero counters, every weakly fair execution of the program terminates without fault,
    and in every final state each staged array is what the grid's write-backs make of it over the proof data, every
    other array as the grid found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any float instance: the program terminates without fault and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.Mirror.lean ====
/-
  The kernel body's arithmetic, stage by stage, over the blocks it loads.

  Arrays are transposed: features on the rows, the 32 graphs' 8192 nodes on the columns, column 256 g + v being node v
  of graph g. Every stage but one acts column by column. The one that does not is the adjacency pass `adots`: it cuts
  its [32, 8192] operand into 32 column blocks, multiplies block g by graph g's adjacency (contracting the node axis of
  both), and sets the 32 products side by side again. The dropout scale is brought to the same layout by transposing
  each graph's [256, 32] block and setting the 32 transposes side by side. The body's last step cuts the result into
  column blocks again and transposes each back: slab g.
-/
import proofs.«122836_g2000103277586728_pallasbulk_447_7_alg».proof.Proof.Gen.KernelIdeal
import Idealize.ShloMosaic.Lib.Pipeline.Value

noncomputable section

namespace Cert.KernelIdeal.Mirror

open Cert.KernelIdeal Cert.KernelIdeal.Gen
open Idealize.ShloMosaic Idealize.SL.Sem

variable {F : FTy → Type} [FloatOps F]

/-- The adjacency pass: column block g of `lhs` times graph g's adjacency, contracting the node axes, the 32 products
    side by side. -/
def adots (lhs : FVec F S32x8192 .bf16) (xA : Vec F S32x256x256 .f32) : FVec F S32x8192 .f32 :=
  concatenate S32x8192 1 [
    ⟨S32x256, matmul dot_S32x256_S256x256_S32x256_1_1_0_0_n_n none (extractStridedSlice S32x256 ![0, 0] lhs slices_S32x8192_o0_0_S32x256) (truncf .bf16 (shapeCast S256x256 (View.ld xA (Rect.unit (s := S32x256x256) ![0, 0, 0] S1x256x256.size inb_S32x256x256_S1x256x256_0_0_0)) shapeCasts_S1x256x256_S256x256) bitsLt_bf16_f32) (constant S32x256 .f32 0x00000000#32)⟩,
    ⟨S32x256, matmul dot_S32x256_S256x256_S32x256_1_1_0_0_n_n none (extractStridedSlice S32x256 ![0, 256] lhs slices_S32x8192_o0_256_S32x256) (truncf .bf16 (shapeCast S256x256 (View.ld xA (Rect.unit (s := S32x256x256) ![1, 0, 0] S1x256x256.size inb_S32x256x256_S1x256x256_1_0_0)) shapeCasts_S1x256x256_S256x256) bitsLt_bf16_f32) (constant S32x256 .f32 0x00000000#32)⟩,
    ⟨S32x256, matmul dot_S32x256_S256x256_S32x256_1_1_0_0_n_n none (extractStridedSlice S32x256 ![0, 512] lhs slices_S32x8192_o0_512_S32x256) (truncf .bf16 (shapeCast S256x256 (View.ld xA (Rect.unit (s := S32x256x256) ![2, 0, 0] S1x256x256.size inb_S32x256x256_S1x256x256_2_0_0)) shapeCasts_S1x256x256_S256x256) bitsLt_bf16_f32) (constant S32x256 .f32 0x00000000#32)⟩,
    ⟨S32x256, matmul dot_S32x256_S256x256_S32x256_1_1_0_0_n_n none (extractStridedSlice S32x256 ![0, 768] lhs slices_S32x8192_o0_768_S32x256) (truncf .bf16 (shapeCast S256x256 (View.ld xA (Rect.unit (s := S32x256x256) ![3, 0, 0] S1x256x256.size inb_S32x256x256_S1x256x256_3_0_0)) shapeCasts_S1x256x256_S256x256) bitsLt_bf16_f32) (constant S32x256 .f32 0x00000000#32)⟩,
    ⟨S32x256, matmul dot_S32x256_S256x256_S32x256_1_1_0_0_n_n none (extractStridedSlice S32x256 ![0, 1024] lhs slices_S32x8192_o0_1024_S32x256) (truncf .bf16 (shapeCast S256x256 (View.ld xA (Rect.unit (s := S32x256x256) ![4, 0, 0] S1x256x256.size inb_S32x256x256_S1x256x256_4_0_0)) shapeCasts_S1x256x256_S256x256) bitsLt_bf16_f32) (constant S32x256 .f32 0x00000000#32)⟩,
    ⟨S32x256, matmul dot_S32x256_S256x256_S32x256_1_1_0_0_n_n none (extractStridedSlice S32x256 ![0, 1280] lhs slices_S32x8192_o0_1280_S32x256) (truncf .bf16 (shapeCast S256x256 (View.ld xA (Rect.unit (s := S32x256x256) ![5, 0, 0] S1x256x256.size inb_S32x256x256_S1x256x256_5_0_0)) shapeCasts_S1x256x256_S256x256) bitsLt_bf16_f32) (constant S32x256 .f32 0x00000000#32)⟩,
    ⟨S32x256, matmul dot_S32x256_S256x256_S32x256_1_1_0_0_n_n none (extractStridedSlice S32x256 ![0, 1536] lhs slices_S32x8192_o0_1536_S32x256) (truncf .bf16 (shapeCast S256x256 (View.ld xA (Rect.unit (s := S32x256x256) ![6, 0, 0] S1x256x256.size inb_S32x256x256_S1x256x256_6_0_0)) shapeCasts_S1x256x256_S256x256) bitsLt_bf16_f32) (constant S32x256 .f32 0x00000000#32)⟩,
    ⟨S32x256, matmul dot_S32x256_S256x256_S32x256_1_1_0_0_n_n none (extractStridedSlice S32x256 ![0, 1792] lhs slices_S32x8192_o0_1792_S32x256) (truncf .bf16 (shapeCast S256x256 (View.ld xA (Rect.unit (s := S32x256x256) ![7, 0, 0] S1x256x256.size inb_S32x256x256_S1x256x256_7_0_0)) shapeCasts_S1x256x256_S256x256) bitsLt_bf16_f32) (constant S32x256 .f32 0x00000000#32)⟩,
    ⟨S32x256, matmul dot_S32x256_S256x256_S32x256_1_1_0_0_n_n none (extractStridedSlice S32x256 ![0, 2048] lhs slices_S32x8192_o0_2048_S32x256) (truncf .bf16 (shapeCast S256x256 (View.ld xA (Rect.unit (s := S32x256x256) ![8, 0, 0] S1x256x256.size inb_S32x256x256_S1x256x256_8_0_0)) shapeCasts_S1x256x256_S256x256) bitsLt_bf16_f32) (constant S32x256 .f32 0x00000000#32)⟩,
    ⟨S32x256, matmul dot_S32x256_S256x256_S32x256_1_1_0_0_n_n none (extractStridedSlice S32x256 ![0, 2304] lhs slices_S32x8192_o0_2304_S32x256) (truncf .bf16 (shapeCast S256x256 (View.ld xA (Rect.unit (s := S32x256x256) ![9, 0, 0] S1x256x256.size inb_S32x256x256_S1x256x256_9_0_0)) shapeCasts_S1x256x256_S256x256) bitsLt_bf16_f32) (constant S32x256 .f32 0x00000000#32)⟩,
    ⟨S32x256, matmul dot_S32x256_S256x256_S32x256_1_1_0_0_n_n none (extractStridedSlice S32x256 ![0, 2560] lhs slices_S32x8192_o0_2560_S32x256) (truncf .bf16 (shapeCast S256x256 (View.ld xA (Rect.unit (s := S32x256x256) ![10, 0, 0] S1x256x256.size inb_S32x256x256_S1x256x256_10_0_0)) shapeCasts_S1x256x256_S256x256) bitsLt_bf16_f32) (constant S32x256 .f32 0x00000000#32)⟩,
    ⟨S32x256, matmul dot_S32x256_S256x256_S32x256_1_1_0_0_n_n none (extractStridedSlice S32x256 ![0, 2816] lhs slices_S32x8192_o0_2816_S32x256) (truncf .bf16 (shapeCast S256x256 (View.ld xA (Rect.unit (s := S32x256x256) ![11, 0, 0] S1x256x256.size inb_S32x256x256_S1x256x256_11_0_0)) shapeCasts_S1x256x256_S256x256) bitsLt_bf16_f32) (constant S32x256 .f32 0x00000000#32)⟩,
    ⟨S32x256, matmul dot_S32x256_S256x256_S32x256_1_1_0_0_n_n none (extractStridedSlice S32x256 ![0, 3072] lhs slices_S32x8192_o0_3072_S32x256) (truncf .bf16 (shapeCast S256x256 (View.ld xA (Rect.unit (s := S32x256x256) ![12, 0, 0] S1x256x256.size inb_S32x256x256_S1x256x256_12_0_0)) shapeCasts_S1x256x256_S256x256) bitsLt_bf16_f32) (constant S32x256 .f32 0x00000000#32)⟩,
    ⟨S32x256, matmul dot_S32x256_S256x256_S32x256_1_1_0_0_n_n none (extractStridedSlice S32x256 ![0, 3328] lhs slices_S32x8192_o0_3328_S32x256) (truncf .bf16 (shapeCast S256x256 (View.ld xA (Rect.unit (s := S32x256x256) ![13, 0, 0] S1x256x256.size inb_S32x256x256_S1x256x256_13_0_0)) shapeCasts_S1x256x256_S256x256) bitsLt_bf16_f32) (constant S32x256 .f32 0x00000000#32)⟩,
    ⟨S32x256, matmul dot_S32x256_S256x256_S32x256_1_1_0_0_n_n none (extractStridedSlice S32x256 ![0, 3584] lhs slices_S32x8192_o0_3584_S32x256) (truncf .bf16 (shapeCast S256x256 (View.ld xA (Rect.unit (s := S32x256x256) ![14, 0, 0] S1x256x256.size inb_S32x256x256_S1x256x256_14_0_0)) shapeCasts_S1x256x256_S256x256) bitsLt_bf16_f32) (constant S32x256 .f32 0x00000000#32)⟩,
    ⟨S32x256, matmul dot_S32x256_S256x256_S32x256_1_1_0_0_n_n none (extractStridedSlice S32x256 ![0, 3840] lhs slices_S32x8192_o0_3840_S32x256) (truncf .bf16 (shapeCast S256x256 (View.ld xA (Rect.unit (s := S32x256x256) ![15, 0, 0] S1x256x256.size inb_S32x256x256_S1x256x256_15_0_0)) shapeCasts_S1x256x256_S256x256) bitsLt_bf16_f32) (constant S32x256 .f32 0x00000000#32)⟩,
    ⟨S32x256, matmul dot_S32x256_S256x256_S32x256_1_1_0_0_n_n none (extractStridedSlice S32x256 ![0, 4096] lhs slices_S32x8192_o0_4096_S32x256) (truncf .bf16 (shapeCast S256x256 (View.ld xA (Rect.unit (s := S32x256x256) ![16, 0, 0] S1x256x256.size inb_S32x256x256_S1x256x256_16_0_0)) shapeCasts_S1x256x256_S256x256) bitsLt_bf16_f32) (constant S32x256 .f32 0x00000000#32)⟩,
    ⟨S32x256, matmul dot_S32x256_S256x256_S32x256_1_1_0_0_n_n none (extractStridedSlice S32x256 ![0, 4352] lhs slices_S32x8192_o0_4352_S32x256) (truncf .bf16 (shapeCast S256x256 (View.ld xA (Rect.unit (s := S32x256x256) ![17, 0, 0] S1x256x256.size inb_S32x256x256_S1x256x256_17_0_0)) shapeCasts_S1x256x256_S256x256) bitsLt_bf16_f32) (constant S32x256 .f32 0x00000000#32)⟩,
    ⟨S32x256, matmul dot_S32x256_S256x256_S32x256_1_1_0_0_n_n none (extractStridedSlice S32x256 ![0, 4608] lhs slices_S32x8192_o0_4608_S32x256) (truncf .bf16 (shapeCast S256x256 (View.ld xA (Rect.unit (s := S32x256x256) ![18, 0, 0] S1x256x256.size inb_S32x256x256_S1x256x256_18_0_0)) shapeCasts_S1x256x256_S256x256) bitsLt_bf16_f32) (constant S32x256 .f32 0x00000000#32)⟩,
    ⟨S32x256, matmul dot_S32x256_S256x256_S32x256_1_1_0_0_n_n none (extractStridedSlice S32x256 ![0, 4864] lhs slices_S32x8192_o0_4864_S32x256) (truncf .bf16 (shapeCast S256x256 (View.ld xA (Rect.unit (s := S32x256x256) ![19, 0, 0] S1x256x256.size inb_S32x256x256_S1x256x256_19_0_0)) shapeCasts_S1x256x256_S256x256) bitsLt_bf16_f32) (constant S32x256 .f32 0x00000000#32)⟩,
    ⟨S32x256, matmul dot_S32x256_S256x256_S32x256_1_1_0_0_n_n none (extractStridedSlice S32x256 ![0, 5120] lhs slices_S32x8192_o0_5120_S32x256) (truncf .bf16 (shapeCast S256x256 (View.ld xA (Rect.unit (s := S32x256x256) ![20, 0, 0] S1x256x256.size inb_S32x256x256_S1x256x256_20_0_0)) shapeCasts_S1x256x256_S256x256) bitsLt_bf16_f32) (constant S32x256 .f32 0x00000000#32)⟩,
    ⟨S32x256, matmul dot_S32x256_S256x256_S32x256_1_1_0_0_n_n none (extractStridedSlice S32x256 ![0, 5376] lhs slices_S32x8192_o0_5376_S32x256) (truncf .bf16 (shapeCast S256x256 (View.ld xA (Rect.unit (s := S32x256x256) ![21, 0, 0] S1x256x256.size inb_S32x256x256_S1x256x256_21_0_0)) shapeCasts_S1x256x256_S256x256) bitsLt_bf16_f32) (constant S32x256 .f32 0x00000000#32)⟩,
    ⟨S32x256, matmul dot_S32x256_S256x256_S32x256_1_1_0_0_n_n none (extractStridedSlice S32x256 ![0, 5632] lhs slices_S32x8192_o0_5632_S32x256) (truncf .bf16 (shapeCast S256x256 (View.ld xA (Rect.unit (s := S32x256x256) ![22, 0, 0] S1x256x256.size inb_S32x256x256_S1x256x256_22_0_0)) shapeCasts_S1x256x256_S256x256) bitsLt_bf16_f32) (constant S32x256 .f32 0x00000000#32)⟩,
    ⟨S32x256, matmul dot_S32x256_S256x256_S32x256_1_1_0_0_n_n none (extractStridedSlice S32x256 ![0, 5888] lhs slices_S32x8192_o0_5888_S32x256) (truncf .bf16 (shapeCast S256x256 (View.ld xA (Rect.unit (s := S32x256x256) ![23, 0, 0] S1x256x256.size inb_S32x256x256_S1x256x256_23_0_0)) shapeCasts_S1x256x256_S256x256) bitsLt_bf16_f32) (constant S32x256 .f32 0x00000000#32)⟩,
    ⟨S32x256, matmul dot_S32x256_S256x256_S32x256_1_1_0_0_n_n none (extractStridedSlice S32x256 ![0, 6144] lhs slices_S32x8192_o0_6144_S32x256) (truncf .bf16 (shapeCast S256x256 (View.ld xA (Rect.unit (s := S32x256x256) ![24, 0, 0] S1x256x256.size inb_S32x256x256_S1x256x256_24_0_0)) shapeCasts_S1x256x256_S256x256) bitsLt_bf16_f32) (constant S32x256 .f32 0x00000000#32)⟩,
    ⟨S32x256, matmul dot_S32x256_S256x256_S32x256_1_1_0_0_n_n none (extractStridedSlice S32x256 ![0, 6400] lhs slices_S32x8192_o0_6400_S32x256) (truncf .bf16 (shapeCast S256x256 (View.ld xA (Rect.unit (s := S32x256x256) ![25, 0, 0] S1x256x256.size inb_S32x256x256_S1x256x256_25_0_0)) shapeCasts_S1x256x256_S256x256) bitsLt_bf16_f32) (constant S32x256 .f32 0x00000000#32)⟩,
    ⟨S32x256, matmul dot_S32x256_S256x256_S32x256_1_1_0_0_n_n none (extractStridedSlice S32x256 ![0, 6656] lhs slices_S32x8192_o0_6656_S32x256) (truncf .bf16 (shapeCast S256x256 (View.ld xA (Rect.unit (s := S32x256x256) ![26, 0, 0] S1x256x256.size inb_S32x256x256_S1x256x256_26_0_0)) shapeCasts_S1x256x256_S256x256) bitsLt_bf16_f32) (constant S32x256 .f32 0x00000000#32)⟩,
    ⟨S32x256, matmul dot_S32x256_S256x256_S32x256_1_1_0_0_n_n none (extractStridedSlice S32x256 ![0, 6912] lhs slices_S32x8192_o0_6912_S32x256) (truncf .bf16 (shapeCast S256x256 (View.ld xA (Rect.unit (s := S32x256x256) ![27, 0, 0] S1x256x256.size inb_S32x256x256_S1x256x256_27_0_0)) shapeCasts_S1x256x256_S256x256) bitsLt_bf16_f32) (constant S32x256 .f32 0x00000000#32)⟩,
    ⟨S32x256, matmul dot_S32x256_S256x256_S32x256_1_1_0_0_n_n none (extractStridedSlice S32x256 ![0, 7168] lhs slices_S32x8192_o0_7168_S32x256) (truncf .bf16 (shapeCast S256x256 (View.ld xA (Rect.unit (s := S32x256x256) ![28, 0, 0] S1x256x256.size inb_S32x256x256_S1x256x256_28_0_0)) shapeCasts_S1x256x256_S256x256) bitsLt_bf16_f32) (constant S32x256 .f32 0x00000000#32)⟩,
    ⟨S32x256, matmul dot_S32x256_S256x256_S32x256_1_1_0_0_n_n none (extractStridedSlice S32x256 ![0, 7424] lhs slices_S32x8192_o0_7424_S32x256) (truncf .bf16 (shapeCast S256x256 (View.ld xA (Rect.unit (s := S32x256x256) ![29, 0, 0] S1x256x256.size inb_S32x256x256_S1x256x256_29_0_0)) shapeCasts_S1x256x256_S256x256) bitsLt_bf16_f32) (constant S32x256 .f32 0x00000000#32)⟩,
    ⟨S32x256, matmul dot_S32x256_S256x256_S32x256_1_1_0_0_n_n none (extractStridedSlice S32x256 ![0, 7680] lhs slices_S32x8192_o0_7680_S32x256) (truncf .bf16 (shapeCast S256x256 (View.ld xA (Rect.unit (s := S32x256x256) ![30, 0, 0] S1x256x256.size inb_S32x256x256_S1x256x256_30_0_0)) shapeCasts_S1x256x256_S256x256) bitsLt_bf16_f32) (constant S32x256 .f32 0x00000000#32)⟩,
    ⟨S32x256, matmul dot_S32x256_S256x256_S32x256_1_1_0_0_n_n none (extractStridedSlice S32x256 ![0, 7936] lhs slices_S32x8192_o0_7936_S32x256) (truncf .bf16 (shapeCast S256x256 (View.ld xA (Rect.unit (s := S32x256x256) ![31, 0, 0] S1x256x256.size inb_S32x256x256_S1x256x256_31_0_0)) shapeCasts_S1x256x256_S256x256) bitsLt_bf16_f32) (constant S32x256 .f32 0x00000000#32)⟩]
    concatenates_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x8192_d1

/-- The dropout scale in the transposed layout: graph g's block transposed, the 32 transposes side by side. -/
def dT (xD : Vec F S32x256x32 .f32) : FVec F S32x8192 .f32 :=
  concatenate S32x8192 1 [
    ⟨S32x256, transpose S32x256 [1, 0] (shapeCast S256x32 (View.ld xD (Rect.unit (s := S32x256x32) ![0, 0, 0] S1x256x32.size inb_S32x256x32_S1x256x32_0_0_0)) shapeCasts_S1x256x32_S256x32) transposes_S256x32_p1_0_S32x256⟩,
    ⟨S32x256, transpose S32x256 [1, 0] (shapeCast S256x32 (View.ld xD (Rect.unit (s := S32x256x32) ![1, 0, 0] S1x256x32.size inb_S32x256x32_S1x256x32_1_0_0)) shapeCasts_S1x256x32_S256x32) transposes_S256x32_p1_0_S32x256⟩,
    ⟨S32x256, transpose S32x256 [1, 0] (shapeCast S256x32 (View.ld xD (Rect.unit (s := S32x256x32) ![2, 0, 0] S1x256x32.size inb_S32x256x32_S1x256x32_2_0_0)) shapeCasts_S1x256x32_S256x32) transposes_S256x32_p1_0_S32x256⟩,
    ⟨S32x256, transpose S32x256 [1, 0] (shapeCast S256x32 (View.ld xD (Rect.unit (s := S32x256x32) ![3, 0, 0] S1x256x32.size inb_S32x256x32_S1x256x32_3_0_0)) shapeCasts_S1x256x32_S256x32) transposes_S256x32_p1_0_S32x256⟩,
    ⟨S32x256, transpose S32x256 [1, 0] (shapeCast S256x32 (View.ld xD (Rect.unit (s := S32x256x32) ![4, 0, 0] S1x256x32.size inb_S32x256x32_S1x256x32_4_0_0)) shapeCasts_S1x256x32_S256x32) transposes_S256x32_p1_0_S32x256⟩,
    ⟨S32x256, transpose S32x256 [1, 0] (shapeCast S256x32 (View.ld xD (Rect.unit (s := S32x256x32) ![5, 0, 0] S1x256x32.size inb_S32x256x32_S1x256x32_5_0_0)) shapeCasts_S1x256x32_S256x32) transposes_S256x32_p1_0_S32x256⟩,
    ⟨S32x256, transpose S32x256 [1, 0] (shapeCast S256x32 (View.ld xD (Rect.unit (s := S32x256x32) ![6, 0, 0] S1x256x32.size inb_S32x256x32_S1x256x32_6_0_0)) shapeCasts_S1x256x32_S256x32) transposes_S256x32_p1_0_S32x256⟩,
    ⟨S32x256, transpose S32x256 [1, 0] (shapeCast S256x32 (View.ld xD (Rect.unit (s := S32x256x32) ![7, 0, 0] S1x256x32.size inb_S32x256x32_S1x256x32_7_0_0)) shapeCasts_S1x256x32_S256x32) transposes_S256x32_p1_0_S32x256⟩,
    ⟨S32x256, transpose S32x256 [1, 0] (shapeCast S256x32 (View.ld xD (Rect.unit (s := S32x256x32) ![8, 0, 0] S1x256x32.size inb_S32x256x32_S1x256x32_8_0_0)) shapeCasts_S1x256x32_S256x32) transposes_S256x32_p1_0_S32x256⟩,
    ⟨S32x256, transpose S32x256 [1, 0] (shapeCast S256x32 (View.ld xD (Rect.unit (s := S32x256x32) ![9, 0, 0] S1x256x32.size inb_S32x256x32_S1x256x32_9_0_0)) shapeCasts_S1x256x32_S256x32) transposes_S256x32_p1_0_S32x256⟩,
    ⟨S32x256, transpose S32x256 [1, 0] (shapeCast S256x32 (View.ld xD (Rect.unit (s := S32x256x32) ![10, 0, 0] S1x256x32.size inb_S32x256x32_S1x256x32_10_0_0)) shapeCasts_S1x256x32_S256x32) transposes_S256x32_p1_0_S32x256⟩,
    ⟨S32x256, transpose S32x256 [1, 0] (shapeCast S256x32 (View.ld xD (Rect.unit (s := S32x256x32) ![11, 0, 0] S1x256x32.size inb_S32x256x32_S1x256x32_11_0_0)) shapeCasts_S1x256x32_S256x32) transposes_S256x32_p1_0_S32x256⟩,
    ⟨S32x256, transpose S32x256 [1, 0] (shapeCast S256x32 (View.ld xD (Rect.unit (s := S32x256x32) ![12, 0, 0] S1x256x32.size inb_S32x256x32_S1x256x32_12_0_0)) shapeCasts_S1x256x32_S256x32) transposes_S256x32_p1_0_S32x256⟩,
    ⟨S32x256, transpose S32x256 [1, 0] (shapeCast S256x32 (View.ld xD (Rect.unit (s := S32x256x32) ![13, 0, 0] S1x256x32.size inb_S32x256x32_S1x256x32_13_0_0)) shapeCasts_S1x256x32_S256x32) transposes_S256x32_p1_0_S32x256⟩,
    ⟨S32x256, transpose S32x256 [1, 0] (shapeCast S256x32 (View.ld xD (Rect.unit (s := S32x256x32) ![14, 0, 0] S1x256x32.size inb_S32x256x32_S1x256x32_14_0_0)) shapeCasts_S1x256x32_S256x32) transposes_S256x32_p1_0_S32x256⟩,
    ⟨S32x256, transpose S32x256 [1, 0] (shapeCast S256x32 (View.ld xD (Rect.unit (s := S32x256x32) ![15, 0, 0] S1x256x32.size inb_S32x256x32_S1x256x32_15_0_0)) shapeCasts_S1x256x32_S256x32) transposes_S256x32_p1_0_S32x256⟩,
    ⟨S32x256, transpose S32x256 [1, 0] (shapeCast S256x32 (View.ld xD (Rect.unit (s := S32x256x32) ![16, 0, 0] S1x256x32.size inb_S32x256x32_S1x256x32_16_0_0)) shapeCasts_S1x256x32_S256x32) transposes_S256x32_p1_0_S32x256⟩,
    ⟨S32x256, transpose S32x256 [1, 0] (shapeCast S256x32 (View.ld xD (Rect.unit (s := S32x256x32) ![17, 0, 0] S1x256x32.size inb_S32x256x32_S1x256x32_17_0_0)) shapeCasts_S1x256x32_S256x32) transposes_S256x32_p1_0_S32x256⟩,
    ⟨S32x256, transpose S32x256 [1, 0] (shapeCast S256x32 (View.ld xD (Rect.unit (s := S32x256x32) ![18, 0, 0] S1x256x32.size inb_S32x256x32_S1x256x32_18_0_0)) shapeCasts_S1x256x32_S256x32) transposes_S256x32_p1_0_S32x256⟩,
    ⟨S32x256, transpose S32x256 [1, 0] (shapeCast S256x32 (View.ld xD (Rect.unit (s := S32x256x32) ![19, 0, 0] S1x256x32.size inb_S32x256x32_S1x256x32_19_0_0)) shapeCasts_S1x256x32_S256x32) transposes_S256x32_p1_0_S32x256⟩,
    ⟨S32x256, transpose S32x256 [1, 0] (shapeCast S256x32 (View.ld xD (Rect.unit (s := S32x256x32) ![20, 0, 0] S1x256x32.size inb_S32x256x32_S1x256x32_20_0_0)) shapeCasts_S1x256x32_S256x32) transposes_S256x32_p1_0_S32x256⟩,
    ⟨S32x256, transpose S32x256 [1, 0] (shapeCast S256x32 (View.ld xD (Rect.unit (s := S32x256x32) ![21, 0, 0] S1x256x32.size inb_S32x256x32_S1x256x32_21_0_0)) shapeCasts_S1x256x32_S256x32) transposes_S256x32_p1_0_S32x256⟩,
    ⟨S32x256, transpose S32x256 [1, 0] (shapeCast S256x32 (View.ld xD (Rect.unit (s := S32x256x32) ![22, 0, 0] S1x256x32.size inb_S32x256x32_S1x256x32_22_0_0)) shapeCasts_S1x256x32_S256x32) transposes_S256x32_p1_0_S32x256⟩,
    ⟨S32x256, transpose S32x256 [1, 0] (shapeCast S256x32 (View.ld xD (Rect.unit (s := S32x256x32) ![23, 0, 0] S1x256x32.size inb_S32x256x32_S1x256x32_23_0_0)) shapeCasts_S1x256x32_S256x32) transposes_S256x32_p1_0_S32x256⟩,
    ⟨S32x256, transpose S32x256 [1, 0] (shapeCast S256x32 (View.ld xD (Rect.unit (s := S32x256x32) ![24, 0, 0] S1x256x32.size inb_S32x256x32_S1x256x32_24_0_0)) shapeCasts_S1x256x32_S256x32) transposes_S256x32_p1_0_S32x256⟩,
    ⟨S32x256, transpose S32x256 [1, 0] (shapeCast S256x32 (View.ld xD (Rect.unit (s := S32x256x32) ![25, 0, 0] S1x256x32.size inb_S32x256x32_S1x256x32_25_0_0)) shapeCasts_S1x256x32_S256x32) transposes_S256x32_p1_0_S32x256⟩,
    ⟨S32x256, transpose S32x256 [1, 0] (shapeCast S256x32 (View.ld xD (Rect.unit (s := S32x256x32) ![26, 0, 0] S1x256x32.size inb_S32x256x32_S1x256x32_26_0_0)) shapeCasts_S1x256x32_S256x32) transposes_S256x32_p1_0_S32x256⟩,
    ⟨S32x256, transpose S32x256 [1, 0] (shapeCast S256x32 (View.ld xD (Rect.unit (s := S32x256x32) ![27, 0, 0] S1x256x32.size inb_S32x256x32_S1x256x32_27_0_0)) shapeCasts_S1x256x32_S256x32) transposes_S256x32_p1_0_S32x256⟩,
    ⟨S32x256, transpose S32x256 [1, 0] (shapeCast S256x32 (View.ld xD (Rect.unit (s := S32x256x32) ![28, 0, 0] S1x256x32.size inb_S32x256x32_S1x256x32_28_0_0)) shapeCasts_S1x256x32_S256x32) transposes_S256x32_p1_0_S32x256⟩,
    ⟨S32x256, transpose S32x256 [1, 0] (shapeCast S256x32 (View.ld xD (Rect.unit (s := S32x256x32) ![29, 0, 0] S1x256x32.size inb_S32x256x32_S1x256x32_29_0_0)) shapeCasts_S1x256x32_S256x32) transposes_S256x32_p1_0_S32x256⟩,
    ⟨S32x256, transpose S32x256 [1, 0] (shapeCast S256x32 (View.ld xD (Rect.unit (s := S32x256x32) ![30, 0, 0] S1x256x32.size inb_S32x256x32_S1x256x32_30_0_0)) shapeCasts_S1x256x32_S256x32) transposes_S256x32_p1_0_S32x256⟩,
    ⟨S32x256, transpose S32x256 [1, 0] (shapeCast S256x32 (View.ld xD (Rect.unit (s := S32x256x32) ![31, 0, 0] S1x256x32.size inb_S32x256x32_S1x256x32_31_0_0)) shapeCasts_S1x256x32_S256x32) transposes_S256x32_p1_0_S32x256⟩]
    concatenates_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x8192_d1

section Stages
variable (l0 : Vec F S32x256x16 .f32) (xA : Vec F S32x256x256 .f32) (xD : Vec F S32x256x32 .f32)
  (l3 : Vec F S16x128 .f32) (l4 : Vec F S32x128 .f32) (l5 l6 : Vec F S64x32 .f32) (l7 l8 : Vec F S32x32 .f32) (l9 : Vec F S64x16 .f32)

/-! The ten bias columns. -/
def aux (l9 : Vec F S64x16 .f32) : FVec F S64x16 .f32 := shapeCast S64x16 l9 shapeCasts_S64x16_S64x16
def b0 : FVec F S64x1 .f32 := extractStridedSlice S64x1 ![0, 0] (aux l9) slices_S64x16_o0_0_S64x1
def m1b0 : FVec F S32x1 .f32 := extractStridedSlice S32x1 ![0, 1] (aux l9) slices_S64x16_o0_1_S32x1
def m2w0 : FVec F S32x1 .f32 := extractStridedSlice S32x1 ![0, 2] (aux l9) slices_S64x16_o0_2_S32x1
def m2b0 : FVec F S1x1 .f32 := extractStridedSlice S1x1 ![0, 3] (aux l9) slices_S64x16_o0_3_S1x1
def b1 : FVec F S64x1 .f32 := extractStridedSlice S64x1 ![0, 4] (aux l9) slices_S64x16_o0_4_S64x1
def m1b1 : FVec F S32x1 .f32 := extractStridedSlice S32x1 ![0, 5] (aux l9) slices_S64x16_o0_5_S32x1
def m2w1 : FVec F S32x1 .f32 := extractStridedSlice S32x1 ![0, 6] (aux l9) slices_S64x16_o0_6_S32x1
def m2b1 : FVec F S1x1 .f32 := extractStridedSlice S1x1 ![0, 7] (aux l9) slices_S64x16_o0_7_S1x1
def p1b : FVec F S32x1 .f32 := extractStridedSlice S32x1 ![0, 8] (aux l9) slices_S64x16_o0_8_S32x1
def p2b : FVec F S32x1 .f32 := extractStridedSlice S32x1 ![0, 9] (aux l9) slices_S64x16_o0_9_S32x1

/-! Round 0. -/
/-- The stacked input projection of all 8192 nodes: rows 0–63 the weight-conv's two maps, 64–95 and 96–127 the convolution's. -/
def full0 : FVec F S128x8192 .f32 :=
  matmul dot_S16x128_S8192x16_S128x8192_0_1_1_0_n_n none (shapeCast S16x128 l3 shapeCasts_S16x128_S16x128)
    (shapeCast S8192x16 l0 shapeCasts_S32x256x16_S8192x16) (constant S128x8192 .f32 0x00000000#32)
def hl0 : FVec F S64x8192 .f32 :=
  addf (extractStridedSlice S64x8192 ![0, 0] (full0 l0 l3) slices_S128x8192_o0_0_S64x8192) (broadcastTo S64x8192 (b0 l9) broadcasts_S64x1_S64x8192)
def lhs0 : FVec F S32x8192 .bf16 :=
  truncf .bf16 (extractStridedSlice S32x8192 ![0, 0] (hl0 l0 l3 l9) slices_S64x8192_o0_0_S32x8192) bitsLt_bf16_f32
def cat0 : FVec F S64x8192 .f32 :=
  maximumf (concatenate S64x8192 0 [⟨S32x8192, adots (lhs0 l0 l3 l9) xA⟩, ⟨S32x8192, extractStridedSlice S32x8192 ![32, 0] (hl0 l0 l3 l9) slices_S64x8192_o32_0_S32x8192⟩] concatenates_S32x8192_S32x8192_S64x8192_d0)
    (broadcast S64x8192 (Scalar.ofBits .f32 0x00000000#32))
def hid0 : FVec F S32x8192 .f32 :=
  maximumf (addf (matmul dot_S64x32_S64x8192_S32x8192_0_0_1_1_n_n none (shapeCast S64x32 l5 shapeCasts_S64x32_S64x32) (cat0 l0 xA l3 l9) (constant S32x8192 .f32 0x00000000#32))
      (broadcastTo S32x8192 (m1b0 l9) broadcasts_S32x1_S32x8192))
    (broadcast S32x8192 (Scalar.ofBits .f32 0x00000000#32))
def mask0 : FVec F S1x8192 .f32 :=
  logistic (addf (shapeCast S1x8192 (multiReduction .add [0] S8192 (mulf (hid0 l0 xA l3 l5 l9) (broadcastTo S32x8192 (m2w0 l9) broadcasts_S32x1_S32x8192)) 0x00000000#32 reduces_S32x8192_S8192 (.inl rfl) rfl) shapeCasts_S8192_S1x8192)
    (broadcastTo S1x8192 (m2b0 l9) broadcasts_S1x1_S1x8192))
def h0 : FVec F S32x8192 .bf16 :=
  truncf .bf16 (mulf (broadcastTo S32x8192 (mask0 l0 xA l3 l5 l9) broadcasts_S1x8192_S32x8192) (extractStridedSlice S32x8192 ![64, 0] (full0 l0 l3) slices_S128x8192_o64_0_S32x8192)) bitsLt_bf16_f32
def x1 : FVec F S32x8192 .f32 :=
  maximumf (mulf (addf (adots (h0 l0 xA l3 l5 l9) xA) (extractStridedSlice S32x8192 ![96, 0] (full0 l0 l3) slices_S128x8192_o96_0_S32x8192))
      (broadcastTo S32x8192 (mask0 l0 xA l3 l5 l9) broadcasts_S1x8192_S32x8192))
    (broadcast S32x8192 (Scalar.ofBits .f32 0x00000000#32))

/-! Round 1. -/
def full1 : FVec F S128x8192 .f32 :=
  matmul dot_S32x128_S32x8192_S128x8192_0_0_1_1_n_n none (shapeCast S32x128 l4 shapeCasts_S32x128_S32x128) (x1 l0 xA l3 l5 l9) (constant S128x8192 .f32 0x00000000#32)
def hl1 : FVec F S64x8192 .f32 :=
  addf (mulf (extractStridedSlice S64x8192 ![0, 0] (full1 l0 xA l3 l4 l5 l9) slices_S128x8192_o0_0_S64x8192) (broadcastTo S64x8192 (mask0 l0 xA l3 l5 l9) broadcasts_S1x8192_S64x8192))
    (broadcastTo S64x8192 (b1 l9) broadcasts_S64x1_S64x8192)
def lhs1 : FVec F S32x8192 .bf16 :=
  truncf .bf16 (extractStridedSlice S32x8192 ![0, 0] (hl1 l0 xA l3 l4 l5 l9) slices_S64x8192_o0_0_S32x8192) bitsLt_bf16_f32
def cat1 : FVec F S64x8192 .f32 :=
  maximumf (concatenate S64x8192 0 [⟨S32x8192, adots (lhs1 l0 xA l3 l4 l5 l9) xA⟩, ⟨S32x8192, extractStridedSlice S32x8192 ![32, 0] (hl1 l0 xA l3 l4 l5 l9) slices_S64x8192_o32_0_S32x8192⟩] concatenates_S32x8192_S32x8192_S64x8192_d0)
    (broadcast S64x8192 (Scalar.ofBits .f32 0x00000000#32))
def hid1 : FVec F S32x8192 .f32 :=
  maximumf (addf (matmul dot_S64x32_S64x8192_S32x8192_0_0_1_1_n_n none (shapeCast S64x32 l6 shapeCasts_S64x32_S64x32) (cat1 l0 xA l3 l4 l5 l9) (constant S32x8192 .f32 0x00000000#32))
      (broadcastTo S32x8192 (m1b1 l9) broadcasts_S32x1_S32x8192))
    (broadcast S32x8192 (Scalar.ofBits .f32 0x00000000#32))
def mask1 : FVec F S1x8192 .f32 :=
  logistic (addf (shapeCast S1x8192 (multiReduction .add [0] S8192 (mulf (hid1 l0 xA l3 l4 l5 l6 l9) (broadcastTo S32x8192 (m2w1 l9) broadcasts_S32x1_S32x8192)) 0x00000000#32 reduces_S32x8192_S8192 (.inl rfl) rfl) shapeCasts_S8192_S1x8192)
    (broadcastTo S1x8192 (m2b1 l9) broadcasts_S1x1_S1x8192))
def h1 : FVec F S32x8192 .bf16 :=
  truncf .bf16 (mulf (broadcastTo S32x8192 (mask1 l0 xA l3 l4 l5 l6 l9) broadcasts_S1x8192_S32x8192) (extractStridedSlice S32x8192 ![64, 0] (full1 l0 xA l3 l4 l5 l9) slices_S128x8192_o64_0_S32x8192)) bitsLt_bf16_f32
def x2 : FVec F S32x8192 .f32 :=
  maximumf (mulf (addf (adots (h1 l0 xA l3 l4 l5 l6 l9) xA) (extractStridedSlice S32x8192 ![96, 0] (full1 l0 xA l3 l4 l5 l9) slices_S128x8192_o96_0_S32x8192))
      (broadcastTo S32x8192 (mask1 l0 xA l3 l4 l5 l6 l9) broadcasts_S1x8192_S32x8192))
    (broadcast S32x8192 (Scalar.ofBits .f32 0x00000000#32))

/-! The dense layers. -/
def y0 : FVec F S32x8192 .f32 :=
  maximumf (addf (matmul dot_S32x32_S32x8192_S32x8192_0_0_1_1_n_n none (shapeCast S32x32 l7 shapeCasts_S32x32_S32x32) (x2 l0 xA l3 l4 l5 l6 l9) (constant S32x8192 .f32 0x00000000#32))
      (broadcastTo S32x8192 (p1b l9) broadcasts_S32x1_S32x8192))
    (broadcast S32x8192 (Scalar.ofBits .f32 0x00000000#32))
def y : FVec F S32x8192 .f32 := mulf (y0 l0 xA l3 l4 l5 l6 l7 l9) (dT xD)
/-- The result, transposed: row c, column 256 g + v. -/
def res : FVec F S32x8192 .f32 :=
  addf (matmul dot_S32x32_S32x8192_S32x8192_0_0_1_1_n_n none (shapeCast S32x32 l8 shapeCasts_S32x32_S32x32) (y l0 xA xD l3 l4 l5 l6 l7 l9) (constant S32x8192 .f32 0x00000000#32))
    (broadcastTo S32x8192 (p2b l9) broadcasts_S32x1_S32x8192)

end Stages

end Cert.KernelIdeal.Mirror

end
-- ==== Proof.LinkEqs.lean ====
/-
  Each step of the body's arithmetic, as the body's run names it, is the mirror's stage of the same inputs: one equation
  per named step, each by unfolding one level on both sides.
-/
import proofs.«122836_g2000103277586728_pallasbulk_447_7_alg».proof.Proof.Gen.KernelIdeal.Skeleton
import proofs.«122836_g2000103277586728_pallasbulk_447_7_alg».proof.Proof.Mirror

set_option maxRecDepth 65536
set_option maxHeartbeats 1000000

noncomputable section

namespace Cert.KernelIdeal.Mirror

open Cert.KernelIdeal Cert.KernelIdeal.Gen
open Idealize.ShloMosaic Idealize.SL.Sem

variable {F : FTy → Type} [FloatOps F]
variable (l0 : Vec F S32x256x16 .f32) (xA : Vec F S32x256x256 .f32) (xD : Vec F S32x256x32 .f32)
  (l3 : Vec F S16x128 .f32) (l4 : Vec F S32x128 .f32) (l5 l6 : Vec F S64x32 .f32) (l7 l8 : Vec F S32x32 .f32) (l9 : Vec F S64x16 .f32)

theorem e1 : k0_pay1 (transpose S256x32 [1, 0] (extractStridedSlice S32x256 ![0, 7680] (res l0 xA xD l3 l4 l5 l6 l7 l8 l9) slices_S32x8192_o0_7680_S32x256) transposes_S32x256_p1_0_S256x32) = (shapeCast S1x256x32 (transpose S256x32 [1, 0] (extractStridedSlice S32x256 ![0, 7680] (res l0 xA xD l3 l4 l5 l6 l7 l8 l9) slices_S32x8192_o0_7680_S32x256) transposes_S32x256_p1_0_S256x32) shapeCasts_S256x32_S1x256x32) := rfl
theorem e2 : k0_pay2 (res l0 xA xD l3 l4 l5 l6 l7 l8 l9) = (shapeCast S1x256x32 (transpose S256x32 [1, 0] (extractStridedSlice S32x256 ![0, 7936] (res l0 xA xD l3 l4 l5 l6 l7 l8 l9) slices_S32x8192_o0_7936_S32x256) transposes_S32x256_p1_0_S256x32) shapeCasts_S256x32_S1x256x32) := rfl
theorem e3 : k0_pay3 l9 = (aux l9) := rfl
theorem e4 : k0_pay4 l9 = (b0 l9) := rfl
theorem e5 : k0_pay5 l9 = (m1b0 l9) := rfl
theorem e6 : k0_pay6 l9 = (m2w0 l9) := rfl
theorem e7 : k0_pay7 l9 = (m2b0 l9) := rfl
theorem e8 : k0_pay8 l9 = (b1 l9) := rfl
theorem e9 : k0_pay9 l9 = (m1b1 l9) := rfl
theorem e10 : k0_pay10 l9 = (m2w1 l9) := rfl
theorem e11 : k0_pay11 l9 = (m2b1 l9) := rfl
theorem e12 : k0_pay12 l9 = (p1b l9) := rfl
theorem e13 : k0_pay13 l9 = (p2b l9) := rfl
theorem e14 : k0_pay14 (View.ld xA (Rect.unit (s := S32x256x256) ![0, 0, 0] S1x256x256.size inb_S32x256x256_S1x256x256_0_0_0)) = (truncf .bf16 (shapeCast S256x256 (View.ld xA (Rect.unit (s := S32x256x256) ![0, 0, 0] S1x256x256.size inb_S32x256x256_S1x256x256_0_0_0)) shapeCasts_S1x256x256_S256x256) bitsLt_bf16_f32) := rfl
theorem e15 : k0_pay15 (View.ld xA (Rect.unit (s := S32x256x256) ![1, 0, 0] S1x256x256.size inb_S32x256x256_S1x256x256_1_0_0)) = (truncf .bf16 (shapeCast S256x256 (View.ld xA (Rect.unit (s := S32x256x256) ![1, 0, 0] S1x256x256.size inb_S32x256x256_S1x256x256_1_0_0)) shapeCasts_S1x256x256_S256x256) bitsLt_bf16_f32) := rfl
theorem e16 : k0_pay16 (View.ld xA (Rect.unit (s := S32x256x256) ![2, 0, 0] S1x256x256.size inb_S32x256x256_S1x256x256_2_0_0)) = (truncf .bf16 (shapeCast S256x256 (View.ld xA (Rect.unit (s := S32x256x256) ![2, 0, 0] S1x256x256.size inb_S32x256x256_S1x256x256_2_0_0)) shapeCasts_S1x256x256_S256x256) bitsLt_bf16_f32) := rfl
theorem e17 : k0_pay17 (View.ld xA (Rect.unit (s := S32x256x256) ![3, 0, 0] S1x256x256.size inb_S32x256x256_S1x256x256_3_0_0)) = (truncf .bf16 (shapeCast S256x256 (View.ld xA (Rect.unit (s := S32x256x256) ![3, 0, 0] S1x256x256.size inb_S32x256x256_S1x256x256_3_0_0)) shapeCasts_S1x256x256_S256x256) bitsLt_bf16_f32) := rfl
theorem e18 : k0_pay18 (View.ld xA (Rect.unit (s := S32x256x256) ![4, 0, 0] S1x256x256.size inb_S32x256x256_S1x256x256_4_0_0)) = (truncf .bf16 (shapeCast S256x256 (View.ld xA (Rect.unit (s := S32x256x256) ![4, 0, 0] S1x256x256.size inb_S32x256x256_S1x256x256_4_0_0)) shapeCasts_S1x256x256_S256x256) bitsLt_bf16_f32) := rfl
theorem e19 : k0_pay19 (View.ld xA (Rect.unit (s := S32x256x256) ![5, 0, 0] S1x256x256.size inb_S32x256x256_S1x256x256_5_0_0)) = (truncf .bf16 (shapeCast S256x256 (View.ld xA (Rect.unit (s := S32x256x256) ![5, 0, 0] S1x256x256.size inb_S32x256x256_S1x256x256_5_0_0)) shapeCasts_S1x256x256_S256x256) bitsLt_bf16_f32) := rfl
theorem e20 : k0_pay20 (View.ld xA (Rect.unit (s := S32x256x256) ![6, 0, 0] S1x256x256.size inb_S32x256x256_S1x256x256_6_0_0)) = (truncf .bf16 (shapeCast S256x256 (View.ld xA (Rect.unit (s := S32x256x256) ![6, 0, 0] S1x256x256.size inb_S32x256x256_S1x256x256_6_0_0)) shapeCasts_S1x256x256_S256x256) bitsLt_bf16_f32) := rfl
theorem e21 : k0_pay21 (View.ld xA (Rect.unit (s := S32x256x256) ![7, 0, 0] S1x256x256.size inb_S32x256x256_S1x256x256_7_0_0)) = (truncf .bf16 (shapeCast S256x256 (View.ld xA (Rect.unit (s := S32x256x256) ![7, 0, 0] S1x256x256.size inb_S32x256x256_S1x256x256_7_0_0)) shapeCasts_S1x256x256_S256x256) bitsLt_bf16_f32) := rfl
theorem e22 : k0_pay22 (View.ld xA (Rect.unit (s := S32x256x256) ![8, 0, 0] S1x256x256.size inb_S32x256x256_S1x256x256_8_0_0)) = (truncf .bf16 (shapeCast S256x256 (View.ld xA (Rect.unit (s := S32x256x256) ![8, 0, 0] S1x256x256.size inb_S32x256x256_S1x256x256_8_0_0)) shapeCasts_S1x256x256_S256x256) bitsLt_bf16_f32) := rfl
theorem e23 : k0_pay23 (View.ld xA (Rect.unit (s := S32x256x256) ![9, 0, 0] S1x256x256.size inb_S32x256x256_S1x256x256_9_0_0)) = (truncf .bf16 (shapeCast S256x256 (View.ld xA (Rect.unit (s := S32x256x256) ![9, 0, 0] S1x256x256.size inb_S32x256x256_S1x256x256_9_0_0)) shapeCasts_S1x256x256_S256x256) bitsLt_bf16_f32) := rfl
theorem e24 : k0_pay24 (View.ld xA (Rect.unit (s := S32x256x256) ![10, 0, 0] S1x256x256.size inb_S32x256x256_S1x256x256_10_0_0)) = (truncf .bf16 (shapeCast S256x256 (View.ld xA (Rect.unit (s := S32x256x256) ![10, 0, 0] S1x256x256.size inb_S32x256x256_S1x256x256_10_0_0)) shapeCasts_S1x256x256_S256x256) bitsLt_bf16_f32) := rfl
theorem e25 : k0_pay25 (View.ld xA (Rect.unit (s := S32x256x256) ![11, 0, 0] S1x256x256.size inb_S32x256x256_S1x256x256_11_0_0)) = (truncf .bf16 (shapeCast S256x256 (View.ld xA (Rect.unit (s := S32x256x256) ![11, 0, 0] S1x256x256.size inb_S32x256x256_S1x256x256_11_0_0)) shapeCasts_S1x256x256_S256x256) bitsLt_bf16_f32) := rfl
theorem e26 : k0_pay26 (View.ld xA (Rect.unit (s := S32x256x256) ![12, 0, 0] S1x256x256.size inb_S32x256x256_S1x256x256_12_0_0)) = (truncf .bf16 (shapeCast S256x256 (View.ld xA (Rect.unit (s := S32x256x256) ![12, 0, 0] S1x256x256.size inb_S32x256x256_S1x256x256_12_0_0)) shapeCasts_S1x256x256_S256x256) bitsLt_bf16_f32) := rfl
theorem e27 : k0_pay27 (View.ld xA (Rect.unit (s := S32x256x256) ![13, 0, 0] S1x256x256.size inb_S32x256x256_S1x256x256_13_0_0)) = (truncf .bf16 (shapeCast S256x256 (View.ld xA (Rect.unit (s := S32x256x256) ![13, 0, 0] S1x256x256.size inb_S32x256x256_S1x256x256_13_0_0)) shapeCasts_S1x256x256_S256x256) bitsLt_bf16_f32) := rfl
theorem e28 : k0_pay28 (View.ld xA (Rect.unit (s := S32x256x256) ![14, 0, 0] S1x256x256.size inb_S32x256x256_S1x256x256_14_0_0)) = (truncf .bf16 (shapeCast S256x256 (View.ld xA (Rect.unit (s := S32x256x256) ![14, 0, 0] S1x256x256.size inb_S32x256x256_S1x256x256_14_0_0)) shapeCasts_S1x256x256_S256x256) bitsLt_bf16_f32) := rfl
theorem e29 : k0_pay29 (View.ld xA (Rect.unit (s := S32x256x256) ![15, 0, 0] S1x256x256.size inb_S32x256x256_S1x256x256_15_0_0)) = (truncf .bf16 (shapeCast S256x256 (View.ld xA (Rect.unit (s := S32x256x256) ![15, 0, 0] S1x256x256.size inb_S32x256x256_S1x256x256_15_0_0)) shapeCasts_S1x256x256_S256x256) bitsLt_bf16_f32) := rfl
theorem e30 : k0_pay30 (View.ld xA (Rect.unit (s := S32x256x256) ![16, 0, 0] S1x256x256.size inb_S32x256x256_S1x256x256_16_0_0)) = (truncf .bf16 (shapeCast S256x256 (View.ld xA (Rect.unit (s := S32x256x256) ![16, 0, 0] S1x256x256.size inb_S32x256x256_S1x256x256_16_0_0)) shapeCasts_S1x256x256_S256x256) bitsLt_bf16_f32) := rfl
theorem e31 : k0_pay31 (View.ld xA (Rect.unit (s := S32x256x256) ![17, 0, 0] S1x256x256.size inb_S32x256x256_S1x256x256_17_0_0)) = (truncf .bf16 (shapeCast S256x256 (View.ld xA (Rect.unit (s := S32x256x256) ![17, 0, 0] S1x256x256.size inb_S32x256x256_S1x256x256_17_0_0)) shapeCasts_S1x256x256_S256x256) bitsLt_bf16_f32) := rfl
theorem e32 : k0_pay32 (View.ld xA (Rect.unit (s := S32x256x256) ![18, 0, 0] S1x256x256.size inb_S32x256x256_S1x256x256_18_0_0)) = (truncf .bf16 (shapeCast S256x256 (View.ld xA (Rect.unit (s := S32x256x256) ![18, 0, 0] S1x256x256.size inb_S32x256x256_S1x256x256_18_0_0)) shapeCasts_S1x256x256_S256x256) bitsLt_bf16_f32) := rfl
theorem e33 : k0_pay33 (View.ld xA (Rect.unit (s := S32x256x256) ![19, 0, 0] S1x256x256.size inb_S32x256x256_S1x256x256_19_0_0)) = (truncf .bf16 (shapeCast S256x256 (View.ld xA (Rect.unit (s := S32x256x256) ![19, 0, 0] S1x256x256.size inb_S32x256x256_S1x256x256_19_0_0)) shapeCasts_S1x256x256_S256x256) bitsLt_bf16_f32) := rfl
theorem e34 : k0_pay34 (View.ld xA (Rect.unit (s := S32x256x256) ![20, 0, 0] S1x256x256.size inb_S32x256x256_S1x256x256_20_0_0)) = (truncf .bf16 (shapeCast S256x256 (View.ld xA (Rect.unit (s := S32x256x256) ![20, 0, 0] S1x256x256.size inb_S32x256x256_S1x256x256_20_0_0)) shapeCasts_S1x256x256_S256x256) bitsLt_bf16_f32) := rfl
theorem e35 : k0_pay35 (View.ld xA (Rect.unit (s := S32x256x256) ![21, 0, 0] S1x256x256.size inb_S32x256x256_S1x256x256_21_0_0)) = (truncf .bf16 (shapeCast S256x256 (View.ld xA (Rect.unit (s := S32x256x256) ![21, 0, 0] S1x256x256.size inb_S32x256x256_S1x256x256_21_0_0)) shapeCasts_S1x256x256_S256x256) bitsLt_bf16_f32) := rfl
theorem e36 : k0_pay36 (View.ld xA (Rect.unit (s := S32x256x256) ![22, 0, 0] S1x256x256.size inb_S32x256x256_S1x256x256_22_0_0)) = (truncf .bf16 (shapeCast S256x256 (View.ld xA (Rect.unit (s := S32x256x256) ![22, 0, 0] S1x256x256.size inb_S32x256x256_S1x256x256_22_0_0)) shapeCasts_S1x256x256_S256x256) bitsLt_bf16_f32) := rfl
theorem e37 : k0_pay37 (View.ld xA (Rect.unit (s := S32x256x256) ![23, 0, 0] S1x256x256.size inb_S32x256x256_S1x256x256_23_0_0)) = (truncf .bf16 (shapeCast S256x256 (View.ld xA (Rect.unit (s := S32x256x256) ![23, 0, 0] S1x256x256.size inb_S32x256x256_S1x256x256_23_0_0)) shapeCasts_S1x256x256_S256x256) bitsLt_bf16_f32) := rfl
theorem e38 : k0_pay38 (View.ld xA (Rect.unit (s := S32x256x256) ![24, 0, 0] S1x256x256.size inb_S32x256x256_S1x256x256_24_0_0)) = (truncf .bf16 (shapeCast S256x256 (View.ld xA (Rect.unit (s := S32x256x256) ![24, 0, 0] S1x256x256.size inb_S32x256x256_S1x256x256_24_0_0)) shapeCasts_S1x256x256_S256x256) bitsLt_bf16_f32) := rfl
theorem e39 : k0_pay39 (View.ld xA (Rect.unit (s := S32x256x256) ![25, 0, 0] S1x256x256.size inb_S32x256x256_S1x256x256_25_0_0)) = (truncf .bf16 (shapeCast S256x256 (View.ld xA (Rect.unit (s := S32x256x256) ![25, 0, 0] S1x256x256.size inb_S32x256x256_S1x256x256_25_0_0)) shapeCasts_S1x256x256_S256x256) bitsLt_bf16_f32) := rfl
theorem e40 : k0_pay40 (View.ld xA (Rect.unit (s := S32x256x256) ![26, 0, 0] S1x256x256.size inb_S32x256x256_S1x256x256_26_0_0)) = (truncf .bf16 (shapeCast S256x256 (View.ld xA (Rect.unit (s := S32x256x256) ![26, 0, 0] S1x256x256.size inb_S32x256x256_S1x256x256_26_0_0)) shapeCasts_S1x256x256_S256x256) bitsLt_bf16_f32) := rfl
theorem e41 : k0_pay41 (View.ld xA (Rect.unit (s := S32x256x256) ![27, 0, 0] S1x256x256.size inb_S32x256x256_S1x256x256_27_0_0)) = (truncf .bf16 (shapeCast S256x256 (View.ld xA (Rect.unit (s := S32x256x256) ![27, 0, 0] S1x256x256.size inb_S32x256x256_S1x256x256_27_0_0)) shapeCasts_S1x256x256_S256x256) bitsLt_bf16_f32) := rfl
theorem e42 : k0_pay42 (View.ld xA (Rect.unit (s := S32x256x256) ![28, 0, 0] S1x256x256.size inb_S32x256x256_S1x256x256_28_0_0)) = (truncf .bf16 (shapeCast S256x256 (View.ld xA (Rect.unit (s := S32x256x256) ![28, 0, 0] S1x256x256.size inb_S32x256x256_S1x256x256_28_0_0)) shapeCasts_S1x256x256_S256x256) bitsLt_bf16_f32) := rfl
theorem e43 : k0_pay43 (View.ld xA (Rect.unit (s := S32x256x256) ![29, 0, 0] S1x256x256.size inb_S32x256x256_S1x256x256_29_0_0)) = (truncf .bf16 (shapeCast S256x256 (View.ld xA (Rect.unit (s := S32x256x256) ![29, 0, 0] S1x256x256.size inb_S32x256x256_S1x256x256_29_0_0)) shapeCasts_S1x256x256_S256x256) bitsLt_bf16_f32) := rfl
theorem e44 : k0_pay44 (View.ld xA (Rect.unit (s := S32x256x256) ![30, 0, 0] S1x256x256.size inb_S32x256x256_S1x256x256_30_0_0)) = (truncf .bf16 (shapeCast S256x256 (View.ld xA (Rect.unit (s := S32x256x256) ![30, 0, 0] S1x256x256.size inb_S32x256x256_S1x256x256_30_0_0)) shapeCasts_S1x256x256_S256x256) bitsLt_bf16_f32) := rfl
theorem e45 : k0_pay45 (View.ld xA (Rect.unit (s := S32x256x256) ![31, 0, 0] S1x256x256.size inb_S32x256x256_S1x256x256_31_0_0)) = (truncf .bf16 (shapeCast S256x256 (View.ld xA (Rect.unit (s := S32x256x256) ![31, 0, 0] S1x256x256.size inb_S32x256x256_S1x256x256_31_0_0)) shapeCasts_S1x256x256_S256x256) bitsLt_bf16_f32) := rfl
theorem e46 : k0_pay46 l0 l3 = (full0 l0 l3) := rfl
theorem e47 : k0_pay47 (b0 l9) l0 l3 = (hl0 l0 l3 l9) := rfl
theorem e48 : k0_pay48 (b0 l9) l0 l3 = (lhs0 l0 l3 l9) := rfl
theorem e49 : k0_pay49 (b0 l9) (truncf .bf16 (shapeCast S256x256 (View.ld xA (Rect.unit (s := S32x256x256) ![0, 0, 0] S1x256x256.size inb_S32x256x256_S1x256x256_0_0_0)) shapeCasts_S1x256x256_S256x256) bitsLt_bf16_f32) l0 l3 = (matmul dot_S32x256_S256x256_S32x256_1_1_0_0_n_n none (extractStridedSlice S32x256 ![0, 0] (lhs0 l0 l3 l9) slices_S32x8192_o0_0_S32x256) (truncf .bf16 (shapeCast S256x256 (View.ld xA (Rect.unit (s := S32x256x256) ![0, 0, 0] S1x256x256.size inb_S32x256x256_S1x256x256_0_0_0)) shapeCasts_S1x256x256_S256x256) bitsLt_bf16_f32) (constant S32x256 .f32 0x00000000#32)) := rfl
theorem e50 : k0_pay50 (b0 l9) (truncf .bf16 (shapeCast S256x256 (View.ld xA (Rect.unit (s := S32x256x256) ![1, 0, 0] S1x256x256.size inb_S32x256x256_S1x256x256_1_0_0)) shapeCasts_S1x256x256_S256x256) bitsLt_bf16_f32) l0 l3 = (matmul dot_S32x256_S256x256_S32x256_1_1_0_0_n_n none (extractStridedSlice S32x256 ![0, 256] (lhs0 l0 l3 l9) slices_S32x8192_o0_256_S32x256) (truncf .bf16 (shapeCast S256x256 (View.ld xA (Rect.unit (s := S32x256x256) ![1, 0, 0] S1x256x256.size inb_S32x256x256_S1x256x256_1_0_0)) shapeCasts_S1x256x256_S256x256) bitsLt_bf16_f32) (constant S32x256 .f32 0x00000000#32)) := rfl
theorem e51 : k0_pay51 (b0 l9) (truncf .bf16 (shapeCast S256x256 (View.ld xA (Rect.unit (s := S32x256x256) ![2, 0, 0] S1x256x256.size inb_S32x256x256_S1x256x256_2_0_0)) shapeCasts_S1x256x256_S256x256) bitsLt_bf16_f32) l0 l3 = (matmul dot_S32x256_S256x256_S32x256_1_1_0_0_n_n none (extractStridedSlice S32x256 ![0, 512] (lhs0 l0 l3 l9) slices_S32x8192_o0_512_S32x256) (truncf .bf16 (shapeCast S256x256 (View.ld xA (Rect.unit (s := S32x256x256) ![2, 0, 0] S1x256x256.size inb_S32x256x256_S1x256x256_2_0_0)) shapeCasts_S1x256x256_S256x256) bitsLt_bf16_f32) (constant S32x256 .f32 0x00000000#32)) := rfl
theorem e52 : k0_pay52 (b0 l9) (truncf .bf16 (shapeCast S256x256 (View.ld xA (Rect.unit (s := S32x256x256) ![3, 0, 0] S1x256x256.size inb_S32x256x256_S1x256x256_3_0_0)) shapeCasts_S1x256x256_S256x256) bitsLt_bf16_f32) l0 l3 = (matmul dot_S32x256_S256x256_S32x256_1_1_0_0_n_n none (extractStridedSlice S32x256 ![0, 768] (lhs0 l0 l3 l9) slices_S32x8192_o0_768_S32x256) (truncf .bf16 (shapeCast S256x256 (View.ld xA (Rect.unit (s := S32x256x256) ![3, 0, 0] S1x256x256.size inb_S32x256x256_S1x256x256_3_0_0)) shapeCasts_S1x256x256_S256x256) bitsLt_bf16_f32) (constant S32x256 .f32 0x00000000#32)) := rfl
theorem e53 : k0_pay53 (b0 l9) (truncf .bf16 (shapeCast S256x256 (View.ld xA (Rect.unit (s := S32x256x256) ![4, 0, 0] S1x256x256.size inb_S32x256x256_S1x256x256_4_0_0)) shapeCasts_S1x256x256_S256x256) bitsLt_bf16_f32) l0 l3 = (matmul dot_S32x256_S256x256_S32x256_1_1_0_0_n_n none (extractStridedSlice S32x256 ![0, 1024] (lhs0 l0 l3 l9) slices_S32x8192_o0_1024_S32x256) (truncf .bf16 (shapeCast S256x256 (View.ld xA (Rect.unit (s := S32x256x256) ![4, 0, 0] S1x256x256.size inb_S32x256x256_S1x256x256_4_0_0)) shapeCasts_S1x256x256_S256x256) bitsLt_bf16_f32) (constant S32x256 .f32 0x00000000#32)) := rfl
theorem e54 : k0_pay54 (b0 l9) l0 l3 = (extractStridedSlice S32x256 ![0, 1280] (lhs0 l0 l3 l9) slices_S32x8192_o0_1280_S32x256) := rfl
theorem e55 : k0_pay55 (truncf .bf16 (shapeCast S256x256 (View.ld xA (Rect.unit (s := S32x256x256) ![5, 0, 0] S1x256x256.size inb_S32x256x256_S1x256x256_5_0_0)) shapeCasts_S1x256x256_S256x256) bitsLt_bf16_f32) (extractStridedSlice S32x256 ![0, 1280] (lhs0 l0 l3 l9) slices_S32x8192_o0_1280_S32x256) (constant S32x256 .f32 0x00000000#32) = (matmul dot_S32x256_S256x256_S32x256_1_1_0_0_n_n none (extractStridedSlice S32x256 ![0, 1280] (lhs0 l0 l3 l9) slices_S32x8192_o0_1280_S32x256) (truncf .bf16 (shapeCast S256x256 (View.ld xA (Rect.unit (s := S32x256x256) ![5, 0, 0] S1x256x256.size inb_S32x256x256_S1x256x256_5_0_0)) shapeCasts_S1x256x256_S256x256) bitsLt_bf16_f32) (constant S32x256 .f32 0x00000000#32)) := rfl
theorem e56 : k0_pay56 (truncf .bf16 (shapeCast S256x256 (View.ld xA (Rect.unit (s := S32x256x256) ![6, 0, 0] S1x256x256.size inb_S32x256x256_S1x256x256_6_0_0)) shapeCasts_S1x256x256_S256x256) bitsLt_bf16_f32) (lhs0 l0 l3 l9) = (matmul dot_S32x256_S256x256_S32x256_1_1_0_0_n_n none (extractStridedSlice S32x256 ![0, 1536] (lhs0 l0 l3 l9) slices_S32x8192_o0_1536_S32x256) (truncf .bf16 (shapeCast S256x256 (View.ld xA (Rect.unit (s := S32x256x256) ![6, 0, 0] S1x256x256.size inb_S32x256x256_S1x256x256_6_0_0)) shapeCasts_S1x256x256_S256x256) bitsLt_bf16_f32) (constant S32x256 .f32 0x00000000#32)) := rfl
theorem e57 : k0_pay57 (truncf .bf16 (shapeCast S256x256 (View.ld xA (Rect.unit (s := S32x256x256) ![7, 0, 0] S1x256x256.size inb_S32x256x256_S1x256x256_7_0_0)) shapeCasts_S1x256x256_S256x256) bitsLt_bf16_f32) (lhs0 l0 l3 l9) = (matmul dot_S32x256_S256x256_S32x256_1_1_0_0_n_n none (extractStridedSlice S32x256 ![0, 1792] (lhs0 l0 l3 l9) slices_S32x8192_o0_1792_S32x256) (truncf .bf16 (shapeCast S256x256 (View.ld xA (Rect.unit (s := S32x256x256) ![7, 0, 0] S1x256x256.size inb_S32x256x256_S1x256x256_7_0_0)) shapeCasts_S1x256x256_S256x256) bitsLt_bf16_f32) (constant S32x256 .f32 0x00000000#32)) := rfl
theorem e58 : k0_pay58 (truncf .bf16 (shapeCast S256x256 (View.ld xA (Rect.unit (s := S32x256x256) ![8, 0, 0] S1x256x256.size inb_S32x256x256_S1x256x256_8_0_0)) shapeCasts_S1x256x256_S256x256) bitsLt_bf16_f32) (lhs0 l0 l3 l9) = (matmul dot_S32x256_S256x256_S32x256_1_1_0_0_n_n none (extractStridedSlice S32x256 ![0, 2048] (lhs0 l0 l3 l9) slices_S32x8192_o0_2048_S32x256) (truncf .bf16 (shapeCast S256x256 (View.ld xA (Rect.unit (s := S32x256x256) ![8, 0, 0] S1x256x256.size inb_S32x256x256_S1x256x256_8_0_0)) shapeCasts_S1x256x256_S256x256) bitsLt_bf16_f32) (constant S32x256 .f32 0x00000000#32)) := rfl
theorem e59 : k0_pay59 (truncf .bf16 (shapeCast S256x256 (View.ld xA (Rect.unit (s := S32x256x256) ![9, 0, 0] S1x256x256.size inb_S32x256x256_S1x256x256_9_0_0)) shapeCasts_S1x256x256_S256x256) bitsLt_bf16_f32) (lhs0 l0 l3 l9) = (matmul dot_S32x256_S256x256_S32x256_1_1_0_0_n_n none (extractStridedSlice S32x256 ![0, 2304] (lhs0 l0 l3 l9) slices_S32x8192_o0_2304_S32x256) (truncf .bf16 (shapeCast S256x256 (View.ld xA (Rect.unit (s := S32x256x256) ![9, 0, 0] S1x256x256.size inb_S32x256x256_S1x256x256_9_0_0)) shapeCasts_S1x256x256_S256x256) bitsLt_bf16_f32) (constant S32x256 .f32 0x00000000#32)) := rfl
theorem e60 : k0_pay60 (truncf .bf16 (shapeCast S256x256 (View.ld xA (Rect.unit (s := S32x256x256) ![10, 0, 0] S1x256x256.size inb_S32x256x256_S1x256x256_10_0_0)) shapeCasts_S1x256x256_S256x256) bitsLt_bf16_f32) (lhs0 l0 l3 l9) = (matmul dot_S32x256_S256x256_S32x256_1_1_0_0_n_n none (extractStridedSlice S32x256 ![0, 2560] (lhs0 l0 l3 l9) slices_S32x8192_o0_2560_S32x256) (truncf .bf16 (shapeCast S256x256 (View.ld xA (Rect.unit (s := S32x256x256) ![10, 0, 0] S1x256x256.size inb_S32x256x256_S1x256x256_10_0_0)) shapeCasts_S1x256x256_S256x256) bitsLt_bf16_f32) (constant S32x256 .f32 0x00000000#32)) := rfl
theorem e61 : k0_pay61 (truncf .bf16 (shapeCast S256x256 (View.ld xA (Rect.unit (s := S32x256x256) ![11, 0, 0] S1x256x256.size inb_S32x256x256_S1x256x256_11_0_0)) shapeCasts_S1x256x256_S256x256) bitsLt_bf16_f32) (lhs0 l0 l3 l9) = (matmul dot_S32x256_S256x256_S32x256_1_1_0_0_n_n none (extractStridedSlice S32x256 ![0, 2816] (lhs0 l0 l3 l9) slices_S32x8192_o0_2816_S32x256) (truncf .bf16 (shapeCast S256x256 (View.ld xA (Rect.unit (s := S32x256x256) ![11, 0, 0] S1x256x256.size inb_S32x256x256_S1x256x256_11_0_0)) shapeCasts_S1x256x256_S256x256) bitsLt_bf16_f32) (constant S32x256 .f32 0x00000000#32)) := rfl
theorem e62 : k0_pay62 (truncf .bf16 (shapeCast S256x256 (View.ld xA (Rect.unit (s := S32x256x256) ![12, 0, 0] S1x256x256.size inb_S32x256x256_S1x256x256_12_0_0)) shapeCasts_S1x256x256_S256x256) bitsLt_bf16_f32) (lhs0 l0 l3 l9) = (matmul dot_S32x256_S256x256_S32x256_1_1_0_0_n_n none (extractStridedSlice S32x256 ![0, 3072] (lhs0 l0 l3 l9) slices_S32x8192_o0_3072_S32x256) (truncf .bf16 (shapeCast S256x256 (View.ld xA (Rect.unit (s := S32x256x256) ![12, 0, 0] S1x256x256.size inb_S32x256x256_S1x256x256_12_0_0)) shapeCasts_S1x256x256_S256x256) bitsLt_bf16_f32) (constant S32x256 .f32 0x00000000#32)) := rfl
theorem e63 : k0_pay63 (truncf .bf16 (shapeCast S256x256 (View.ld xA (Rect.unit (s := S32x256x256) ![13, 0, 0] S1x256x256.size inb_S32x256x256_S1x256x256_13_0_0)) shapeCasts_S1x256x256_S256x256) bitsLt_bf16_f32) (lhs0 l0 l3 l9) = (matmul dot_S32x256_S256x256_S32x256_1_1_0_0_n_n none (extractStridedSlice S32x256 ![0, 3328] (lhs0 l0 l3 l9) slices_S32x8192_o0_3328_S32x256) (truncf .bf16 (shapeCast S256x256 (View.ld xA (Rect.unit (s := S32x256x256) ![13, 0, 0] S1x256x256.size inb_S32x256x256_S1x256x256_13_0_0)) shapeCasts_S1x256x256_S256x256) bitsLt_bf16_f32) (constant S32x256 .f32 0x00000000#32)) := rfl
theorem e64 : k0_pay64 (truncf .bf16 (shapeCast S256x256 (View.ld xA (Rect.unit (s := S32x256x256) ![14, 0, 0] S1x256x256.size inb_S32x256x256_S1x256x256_14_0_0)) shapeCasts_S1x256x256_S256x256) bitsLt_bf16_f32) (lhs0 l0 l3 l9) = (matmul dot_S32x256_S256x256_S32x256_1_1_0_0_n_n none (extractStridedSlice S32x256 ![0, 3584] (lhs0 l0 l3 l9) slices_S32x8192_o0_3584_S32x256) (truncf .bf16 (shapeCast S256x256 (View.ld xA (Rect.unit (s := S32x256x256) ![14, 0, 0] S1x256x256.size inb_S32x256x256_S1x256x256_14_0_0)) shapeCasts_S1x256x256_S256x256) bitsLt_bf16_f32) (constant S32x256 .f32 0x00000000#32)) := rfl
theorem e65 : k0_pay65 (truncf .bf16 (shapeCast S256x256 (View.ld xA (Rect.unit (s := S32x256x256) ![15, 0, 0] S1x256x256.size inb_S32x256x256_S1x256x256_15_0_0)) shapeCasts_S1x256x256_S256x256) bitsLt_bf16_f32) (lhs0 l0 l3 l9) = (matmul dot_S32x256_S256x256_S32x256_1_1_0_0_n_n none (extractStridedSlice S32x256 ![0, 3840] (lhs0 l0 l3 l9) slices_S32x8192_o0_3840_S32x256) (truncf .bf16 (shapeCast S256x256 (View.ld xA (Rect.unit (s := S32x256x256) ![15, 0, 0] S1x256x256.size inb_S32x256x256_S1x256x256_15_0_0)) shapeCasts_S1x256x256_S256x256) bitsLt_bf16_f32) (constant S32x256 .f32 0x00000000#32)) := rfl
theorem e66 : k0_pay66 (truncf .bf16 (shapeCast S256x256 (View.ld xA (Rect.unit (s := S32x256x256) ![16, 0, 0] S1x256x256.size inb_S32x256x256_S1x256x256_16_0_0)) shapeCasts_S1x256x256_S256x256) bitsLt_bf16_f32) (lhs0 l0 l3 l9) = (matmul dot_S32x256_S256x256_S32x256_1_1_0_0_n_n none (extractStridedSlice S32x256 ![0, 4096] (lhs0 l0 l3 l9) slices_S32x8192_o0_4096_S32x256) (truncf .bf16 (shapeCast S256x256 (View.ld xA (Rect.unit (s := S32x256x256) ![16, 0, 0] S1x256x256.size inb_S32x256x256_S1x256x256_16_0_0)) shapeCasts_S1x256x256_S256x256) bitsLt_bf16_f32) (constant S32x256 .f32 0x00000000#32)) := rfl
theorem e67 : k0_pay67 (truncf .bf16 (shapeCast S256x256 (View.ld xA (Rect.unit (s := S32x256x256) ![17, 0, 0] S1x256x256.size inb_S32x256x256_S1x256x256_17_0_0)) shapeCasts_S1x256x256_S256x256) bitsLt_bf16_f32) (lhs0 l0 l3 l9) = (matmul dot_S32x256_S256x256_S32x256_1_1_0_0_n_n none (extractStridedSlice S32x256 ![0, 4352] (lhs0 l0 l3 l9) slices_S32x8192_o0_4352_S32x256) (truncf .bf16 (shapeCast S256x256 (View.ld xA (Rect.unit (s := S32x256x256) ![17, 0, 0] S1x256x256.size inb_S32x256x256_S1x256x256_17_0_0)) shapeCasts_S1x256x256_S256x256) bitsLt_bf16_f32) (constant S32x256 .f32 0x00000000#32)) := rfl
theorem e68 : k0_pay68 (truncf .bf16 (shapeCast S256x256 (View.ld xA (Rect.unit (s := S32x256x256) ![18, 0, 0] S1x256x256.size inb_S32x256x256_S1x256x256_18_0_0)) shapeCasts_S1x256x256_S256x256) bitsLt_bf16_f32) (lhs0 l0 l3 l9) = (matmul dot_S32x256_S256x256_S32x256_1_1_0_0_n_n none (extractStridedSlice S32x256 ![0, 4608] (lhs0 l0 l3 l9) slices_S32x8192_o0_4608_S32x256) (truncf .bf16 (shapeCast S256x256 (View.ld xA (Rect.unit (s := S32x256x256) ![18, 0, 0] S1x256x256.size inb_S32x256x256_S1x256x256_18_0_0)) shapeCasts_S1x256x256_S256x256) bitsLt_bf16_f32) (constant S32x256 .f32 0x00000000#32)) := rfl
theorem e69 : k0_pay69 (truncf .bf16 (shapeCast S256x256 (View.ld xA (Rect.unit (s := S32x256x256) ![19, 0, 0] S1x256x256.size inb_S32x256x256_S1x256x256_19_0_0)) shapeCasts_S1x256x256_S256x256) bitsLt_bf16_f32) (lhs0 l0 l3 l9) = (matmul dot_S32x256_S256x256_S32x256_1_1_0_0_n_n none (extractStridedSlice S32x256 ![0, 4864] (lhs0 l0 l3 l9) slices_S32x8192_o0_4864_S32x256) (truncf .bf16 (shapeCast S256x256 (View.ld xA (Rect.unit (s := S32x256x256) ![19, 0, 0] S1x256x256.size inb_S32x256x256_S1x256x256_19_0_0)) shapeCasts_S1x256x256_S256x256) bitsLt_bf16_f32) (constant S32x256 .f32 0x00000000#32)) := rfl
theorem e70 : k0_pay70 (truncf .bf16 (shapeCast S256x256 (View.ld xA (Rect.unit (s := S32x256x256) ![20, 0, 0] S1x256x256.size inb_S32x256x256_S1x256x256_20_0_0)) shapeCasts_S1x256x256_S256x256) bitsLt_bf16_f32) (lhs0 l0 l3 l9) = (matmul dot_S32x256_S256x256_S32x256_1_1_0_0_n_n none (extractStridedSlice S32x256 ![0, 5120] (lhs0 l0 l3 l9) slices_S32x8192_o0_5120_S32x256) (truncf .bf16 (shapeCast S256x256 (View.ld xA (Rect.unit (s := S32x256x256) ![20, 0, 0] S1x256x256.size inb_S32x256x256_S1x256x256_20_0_0)) shapeCasts_S1x256x256_S256x256) bitsLt_bf16_f32) (constant S32x256 .f32 0x00000000#32)) := rfl
theorem e71 : k0_pay71 (truncf .bf16 (shapeCast S256x256 (View.ld xA (Rect.unit (s := S32x256x256) ![21, 0, 0] S1x256x256.size inb_S32x256x256_S1x256x256_21_0_0)) shapeCasts_S1x256x256_S256x256) bitsLt_bf16_f32) (lhs0 l0 l3 l9) = (matmul dot_S32x256_S256x256_S32x256_1_1_0_0_n_n none (extractStridedSlice S32x256 ![0, 5376] (lhs0 l0 l3 l9) slices_S32x8192_o0_5376_S32x256) (truncf .bf16 (shapeCast S256x256 (View.ld xA (Rect.unit (s := S32x256x256) ![21, 0, 0] S1x256x256.size inb_S32x256x256_S1x256x256_21_0_0)) shapeCasts_S1x256x256_S256x256) bitsLt_bf16_f32) (constant S32x256 .f32 0x00000000#32)) := rfl
theorem e72 : k0_pay72 (truncf .bf16 (shapeCast S256x256 (View.ld xA (Rect.unit (s := S32x256x256) ![22, 0, 0] S1x256x256.size inb_S32x256x256_S1x256x256_22_0_0)) shapeCasts_S1x256x256_S256x256) bitsLt_bf16_f32) (lhs0 l0 l3 l9) = (matmul dot_S32x256_S256x256_S32x256_1_1_0_0_n_n none (extractStridedSlice S32x256 ![0, 5632] (lhs0 l0 l3 l9) slices_S32x8192_o0_5632_S32x256) (truncf .bf16 (shapeCast S256x256 (View.ld xA (Rect.unit (s := S32x256x256) ![22, 0, 0] S1x256x256.size inb_S32x256x256_S1x256x256_22_0_0)) shapeCasts_S1x256x256_S256x256) bitsLt_bf16_f32) (constant S32x256 .f32 0x00000000#32)) := rfl
theorem e73 : k0_pay73 (truncf .bf16 (shapeCast S256x256 (View.ld xA (Rect.unit (s := S32x256x256) ![23, 0, 0] S1x256x256.size inb_S32x256x256_S1x256x256_23_0_0)) shapeCasts_S1x256x256_S256x256) bitsLt_bf16_f32) (lhs0 l0 l3 l9) = (matmul dot_S32x256_S256x256_S32x256_1_1_0_0_n_n none (extractStridedSlice S32x256 ![0, 5888] (lhs0 l0 l3 l9) slices_S32x8192_o0_5888_S32x256) (truncf .bf16 (shapeCast S256x256 (View.ld xA (Rect.unit (s := S32x256x256) ![23, 0, 0] S1x256x256.size inb_S32x256x256_S1x256x256_23_0_0)) shapeCasts_S1x256x256_S256x256) bitsLt_bf16_f32) (constant S32x256 .f32 0x00000000#32)) := rfl
theorem e74 : k0_pay74 (truncf .bf16 (shapeCast S256x256 (View.ld xA (Rect.unit (s := S32x256x256) ![24, 0, 0] S1x256x256.size inb_S32x256x256_S1x256x256_24_0_0)) shapeCasts_S1x256x256_S256x256) bitsLt_bf16_f32) (lhs0 l0 l3 l9) = (matmul dot_S32x256_S256x256_S32x256_1_1_0_0_n_n none (extractStridedSlice S32x256 ![0, 6144] (lhs0 l0 l3 l9) slices_S32x8192_o0_6144_S32x256) (truncf .bf16 (shapeCast S256x256 (View.ld xA (Rect.unit (s := S32x256x256) ![24, 0, 0] S1x256x256.size inb_S32x256x256_S1x256x256_24_0_0)) shapeCasts_S1x256x256_S256x256) bitsLt_bf16_f32) (constant S32x256 .f32 0x00000000#32)) := rfl
theorem e75 : k0_pay75 (lhs0 l0 l3 l9) = (extractStridedSlice S32x256 ![0, 6400] (lhs0 l0 l3 l9) slices_S32x8192_o0_6400_S32x256) := rfl
theorem e76 : k0_pay76 (m1b0 l9) (m2w0 l9) (m2b0 l9) (truncf .bf16 (shapeCast S256x256 (View.ld xA (Rect.unit (s := S32x256x256) ![25, 0, 0] S1x256x256.size inb_S32x256x256_S1x256x256_25_0_0)) shapeCasts_S1x256x256_S256x256) bitsLt_bf16_f32) (truncf .bf16 (shapeCast S256x256 (View.ld xA (Rect.unit (s := S32x256x256) ![26, 0, 0] S1x256x256.size inb_S32x256x256_S1x256x256_26_0_0)) shapeCasts_S1x256x256_S256x256) bitsLt_bf16_f32) (truncf .bf16 (shapeCast S256x256 (View.ld xA (Rect.unit (s := S32x256x256) ![27, 0, 0] S1x256x256.size inb_S32x256x256_S1x256x256_27_0_0)) shapeCasts_S1x256x256_S256x256) bitsLt_bf16_f32) (truncf .bf16 (shapeCast S256x256 (View.ld xA (Rect.unit (s := S32x256x256) ![28, 0, 0] S1x256x256.size inb_S32x256x256_S1x256x256_28_0_0)) shapeCasts_S1x256x256_S256x256) bitsLt_bf16_f32) (truncf .bf16 (shapeCast S256x256 (View.ld xA (Rect.unit (s := S32x256x256) ![29, 0, 0] S1x256x256.size inb_S32x256x256_S1x256x256_29_0_0)) shapeCasts_S1x256x256_S256x256) bitsLt_bf16_f32) (truncf .bf16 (shapeCast S256x256 (View.ld xA (Rect.unit (s := S32x256x256) ![30, 0, 0] S1x256x256.size inb_S32x256x256_S1x256x256_30_0_0)) shapeCasts_S1x256x256_S256x256) bitsLt_bf16_f32) (truncf .bf16 (shapeCast S256x256 (View.ld xA (Rect.unit (s := S32x256x256) ![31, 0, 0] S1x256x256.size inb_S32x256x256_S1x256x256_31_0_0)) shapeCasts_S1x256x256_S256x256) bitsLt_bf16_f32) (hl0 l0 l3 l9) (lhs0 l0 l3 l9) (matmul dot_S32x256_S256x256_S32x256_1_1_0_0_n_n none (extractStridedSlice S32x256 ![0, 0] (lhs0 l0 l3 l9) slices_S32x8192_o0_0_S32x256) (truncf .bf16 (shapeCast S256x256 (View.ld xA (Rect.unit (s := S32x256x256) ![0, 0, 0] S1x256x256.size inb_S32x256x256_S1x256x256_0_0_0)) shapeCasts_S1x256x256_S256x256) bitsLt_bf16_f32) (constant S32x256 .f32 0x00000000#32)) (matmul dot_S32x256_S256x256_S32x256_1_1_0_0_n_n none (extractStridedSlice S32x256 ![0, 256] (lhs0 l0 l3 l9) slices_S32x8192_o0_256_S32x256) (truncf .bf16 (shapeCast S256x256 (View.ld xA (Rect.unit (s := S32x256x256) ![1, 0, 0] S1x256x256.size inb_S32x256x256_S1x256x256_1_0_0)) shapeCasts_S1x256x256_S256x256) bitsLt_bf16_f32) (constant S32x256 .f32 0x00000000#32)) (matmul dot_S32x256_S256x256_S32x256_1_1_0_0_n_n none (extractStridedSlice S32x256 ![0, 512] (lhs0 l0 l3 l9) slices_S32x8192_o0_512_S32x256) (truncf .bf16 (shapeCast S256x256 (View.ld xA (Rect.unit (s := S32x256x256) ![2, 0, 0] S1x256x256.size inb_S32x256x256_S1x256x256_2_0_0)) shapeCasts_S1x256x256_S256x256) bitsLt_bf16_f32) (constant S32x256 .f32 0x00000000#32)) (matmul dot_S32x256_S256x256_S32x256_1_1_0_0_n_n none (extractStridedSlice S32x256 ![0, 768] (lhs0 l0 l3 l9) slices_S32x8192_o0_768_S32x256) (truncf .bf16 (shapeCast S256x256 (View.ld xA (Rect.unit (s := S32x256x256) ![3, 0, 0] S1x256x256.size inb_S32x256x256_S1x256x256_3_0_0)) shapeCasts_S1x256x256_S256x256) bitsLt_bf16_f32) (constant S32x256 .f32 0x00000000#32)) (matmul dot_S32x256_S256x256_S32x256_1_1_0_0_n_n none (extractStridedSlice S32x256 ![0, 1024] (lhs0 l0 l3 l9) slices_S32x8192_o0_1024_S32x256) (truncf .bf16 (shapeCast S256x256 (View.ld xA (Rect.unit (s := S32x256x256) ![4, 0, 0] S1x256x256.size inb_S32x256x256_S1x256x256_4_0_0)) shapeCasts_S1x256x256_S256x256) bitsLt_bf16_f32) (constant S32x256 .f32 0x00000000#32)) (matmul dot_S32x256_S256x256_S32x256_1_1_0_0_n_n none (extractStridedSlice S32x256 ![0, 1280] (lhs0 l0 l3 l9) slices_S32x8192_o0_1280_S32x256) (truncf .bf16 (shapeCast S256x256 (View.ld xA (Rect.unit (s := S32x256x256) ![5, 0, 0] S1x256x256.size inb_S32x256x256_S1x256x256_5_0_0)) shapeCasts_S1x256x256_S256x256) bitsLt_bf16_f32) (constant S32x256 .f32 0x00000000#32)) (matmul dot_S32x256_S256x256_S32x256_1_1_0_0_n_n none (extractStridedSlice S32x256 ![0, 1536] (lhs0 l0 l3 l9) slices_S32x8192_o0_1536_S32x256) (truncf .bf16 (shapeCast S256x256 (View.ld xA (Rect.unit (s := S32x256x256) ![6, 0, 0] S1x256x256.size inb_S32x256x256_S1x256x256_6_0_0)) shapeCasts_S1x256x256_S256x256) bitsLt_bf16_f32) (constant S32x256 .f32 0x00000000#32)) (matmul dot_S32x256_S256x256_S32x256_1_1_0_0_n_n none (extractStridedSlice S32x256 ![0, 1792] (lhs0 l0 l3 l9) slices_S32x8192_o0_1792_S32x256) (truncf .bf16 (shapeCast S256x256 (View.ld xA (Rect.unit (s := S32x256x256) ![7, 0, 0] S1x256x256.size inb_S32x256x256_S1x256x256_7_0_0)) shapeCasts_S1x256x256_S256x256) bitsLt_bf16_f32) (constant S32x256 .f32 0x00000000#32)) (matmul dot_S32x256_S256x256_S32x256_1_1_0_0_n_n none (extractStridedSlice S32x256 ![0, 2048] (lhs0 l0 l3 l9) slices_S32x8192_o0_2048_S32x256) (truncf .bf16 (shapeCast S256x256 (View.ld xA (Rect.unit (s := S32x256x256) ![8, 0, 0] S1x256x256.size inb_S32x256x256_S1x256x256_8_0_0)) shapeCasts_S1x256x256_S256x256) bitsLt_bf16_f32) (constant S32x256 .f32 0x00000000#32)) (matmul dot_S32x256_S256x256_S32x256_1_1_0_0_n_n none (extractStridedSlice S32x256 ![0, 2304] (lhs0 l0 l3 l9) slices_S32x8192_o0_2304_S32x256) (truncf .bf16 (shapeCast S256x256 (View.ld xA (Rect.unit (s := S32x256x256) ![9, 0, 0] S1x256x256.size inb_S32x256x256_S1x256x256_9_0_0)) shapeCasts_S1x256x256_S256x256) bitsLt_bf16_f32) (constant S32x256 .f32 0x00000000#32)) (matmul dot_S32x256_S256x256_S32x256_1_1_0_0_n_n none (extractStridedSlice S32x256 ![0, 2560] (lhs0 l0 l3 l9) slices_S32x8192_o0_2560_S32x256) (truncf .bf16 (shapeCast S256x256 (View.ld xA (Rect.unit (s := S32x256x256) ![10, 0, 0] S1x256x256.size inb_S32x256x256_S1x256x256_10_0_0)) shapeCasts_S1x256x256_S256x256) bitsLt_bf16_f32) (constant S32x256 .f32 0x00000000#32)) (matmul dot_S32x256_S256x256_S32x256_1_1_0_0_n_n none (extractStridedSlice S32x256 ![0, 2816] (lhs0 l0 l3 l9) slices_S32x8192_o0_2816_S32x256) (truncf .bf16 (shapeCast S256x256 (View.ld xA (Rect.unit (s := S32x256x256) ![11, 0, 0] S1x256x256.size inb_S32x256x256_S1x256x256_11_0_0)) shapeCasts_S1x256x256_S256x256) bitsLt_bf16_f32) (constant S32x256 .f32 0x00000000#32)) (matmul dot_S32x256_S256x256_S32x256_1_1_0_0_n_n none (extractStridedSlice S32x256 ![0, 3072] (lhs0 l0 l3 l9) slices_S32x8192_o0_3072_S32x256) (truncf .bf16 (shapeCast S256x256 (View.ld xA (Rect.unit (s := S32x256x256) ![12, 0, 0] S1x256x256.size inb_S32x256x256_S1x256x256_12_0_0)) shapeCasts_S1x256x256_S256x256) bitsLt_bf16_f32) (constant S32x256 .f32 0x00000000#32)) (matmul dot_S32x256_S256x256_S32x256_1_1_0_0_n_n none (extractStridedSlice S32x256 ![0, 3328] (lhs0 l0 l3 l9) slices_S32x8192_o0_3328_S32x256) (truncf .bf16 (shapeCast S256x256 (View.ld xA (Rect.unit (s := S32x256x256) ![13, 0, 0] S1x256x256.size inb_S32x256x256_S1x256x256_13_0_0)) shapeCasts_S1x256x256_S256x256) bitsLt_bf16_f32) (constant S32x256 .f32 0x00000000#32)) (matmul dot_S32x256_S256x256_S32x256_1_1_0_0_n_n none (extractStridedSlice S32x256 ![0, 3584] (lhs0 l0 l3 l9) slices_S32x8192_o0_3584_S32x256) (truncf .bf16 (shapeCast S256x256 (View.ld xA (Rect.unit (s := S32x256x256) ![14, 0, 0] S1x256x256.size inb_S32x256x256_S1x256x256_14_0_0)) shapeCasts_S1x256x256_S256x256) bitsLt_bf16_f32) (constant S32x256 .f32 0x00000000#32)) (matmul dot_S32x256_S256x256_S32x256_1_1_0_0_n_n none (extractStridedSlice S32x256 ![0, 3840] (lhs0 l0 l3 l9) slices_S32x8192_o0_3840_S32x256) (truncf .bf16 (shapeCast S256x256 (View.ld xA (Rect.unit (s := S32x256x256) ![15, 0, 0] S1x256x256.size inb_S32x256x256_S1x256x256_15_0_0)) shapeCasts_S1x256x256_S256x256) bitsLt_bf16_f32) (constant S32x256 .f32 0x00000000#32)) (matmul dot_S32x256_S256x256_S32x256_1_1_0_0_n_n none (extractStridedSlice S32x256 ![0, 4096] (lhs0 l0 l3 l9) slices_S32x8192_o0_4096_S32x256) (truncf .bf16 (shapeCast S256x256 (View.ld xA (Rect.unit (s := S32x256x256) ![16, 0, 0] S1x256x256.size inb_S32x256x256_S1x256x256_16_0_0)) shapeCasts_S1x256x256_S256x256) bitsLt_bf16_f32) (constant S32x256 .f32 0x00000000#32)) (matmul dot_S32x256_S256x256_S32x256_1_1_0_0_n_n none (extractStridedSlice S32x256 ![0, 4352] (lhs0 l0 l3 l9) slices_S32x8192_o0_4352_S32x256) (truncf .bf16 (shapeCast S256x256 (View.ld xA (Rect.unit (s := S32x256x256) ![17, 0, 0] S1x256x256.size inb_S32x256x256_S1x256x256_17_0_0)) shapeCasts_S1x256x256_S256x256) bitsLt_bf16_f32) (constant S32x256 .f32 0x00000000#32)) (matmul dot_S32x256_S256x256_S32x256_1_1_0_0_n_n none (extractStridedSlice S32x256 ![0, 4608] (lhs0 l0 l3 l9) slices_S32x8192_o0_4608_S32x256) (truncf .bf16 (shapeCast S256x256 (View.ld xA (Rect.unit (s := S32x256x256) ![18, 0, 0] S1x256x256.size inb_S32x256x256_S1x256x256_18_0_0)) shapeCasts_S1x256x256_S256x256) bitsLt_bf16_f32) (constant S32x256 .f32 0x00000000#32)) (matmul dot_S32x256_S256x256_S32x256_1_1_0_0_n_n none (extractStridedSlice S32x256 ![0, 4864] (lhs0 l0 l3 l9) slices_S32x8192_o0_4864_S32x256) (truncf .bf16 (shapeCast S256x256 (View.ld xA (Rect.unit (s := S32x256x256) ![19, 0, 0] S1x256x256.size inb_S32x256x256_S1x256x256_19_0_0)) shapeCasts_S1x256x256_S256x256) bitsLt_bf16_f32) (constant S32x256 .f32 0x00000000#32)) (matmul dot_S32x256_S256x256_S32x256_1_1_0_0_n_n none (extractStridedSlice S32x256 ![0, 5120] (lhs0 l0 l3 l9) slices_S32x8192_o0_5120_S32x256) (truncf .bf16 (shapeCast S256x256 (View.ld xA (Rect.unit (s := S32x256x256) ![20, 0, 0] S1x256x256.size inb_S32x256x256_S1x256x256_20_0_0)) shapeCasts_S1x256x256_S256x256) bitsLt_bf16_f32) (constant S32x256 .f32 0x00000000#32)) (matmul dot_S32x256_S256x256_S32x256_1_1_0_0_n_n none (extractStridedSlice S32x256 ![0, 5376] (lhs0 l0 l3 l9) slices_S32x8192_o0_5376_S32x256) (truncf .bf16 (shapeCast S256x256 (View.ld xA (Rect.unit (s := S32x256x256) ![21, 0, 0] S1x256x256.size inb_S32x256x256_S1x256x256_21_0_0)) shapeCasts_S1x256x256_S256x256) bitsLt_bf16_f32) (constant S32x256 .f32 0x00000000#32)) (matmul dot_S32x256_S256x256_S32x256_1_1_0_0_n_n none (extractStridedSlice S32x256 ![0, 5632] (lhs0 l0 l3 l9) slices_S32x8192_o0_5632_S32x256) (truncf .bf16 (shapeCast S256x256 (View.ld xA (Rect.unit (s := S32x256x256) ![22, 0, 0] S1x256x256.size inb_S32x256x256_S1x256x256_22_0_0)) shapeCasts_S1x256x256_S256x256) bitsLt_bf16_f32) (constant S32x256 .f32 0x00000000#32)) (matmul dot_S32x256_S256x256_S32x256_1_1_0_0_n_n none (extractStridedSlice S32x256 ![0, 5888] (lhs0 l0 l3 l9) slices_S32x8192_o0_5888_S32x256) (truncf .bf16 (shapeCast S256x256 (View.ld xA (Rect.unit (s := S32x256x256) ![23, 0, 0] S1x256x256.size inb_S32x256x256_S1x256x256_23_0_0)) shapeCasts_S1x256x256_S256x256) bitsLt_bf16_f32) (constant S32x256 .f32 0x00000000#32)) (matmul dot_S32x256_S256x256_S32x256_1_1_0_0_n_n none (extractStridedSlice S32x256 ![0, 6144] (lhs0 l0 l3 l9) slices_S32x8192_o0_6144_S32x256) (truncf .bf16 (shapeCast S256x256 (View.ld xA (Rect.unit (s := S32x256x256) ![24, 0, 0] S1x256x256.size inb_S32x256x256_S1x256x256_24_0_0)) shapeCasts_S1x256x256_S256x256) bitsLt_bf16_f32) (constant S32x256 .f32 0x00000000#32)) (extractStridedSlice S32x256 ![0, 6400] (lhs0 l0 l3 l9) slices_S32x8192_o0_6400_S32x256) (constant S32x256 .f32 0x00000000#32) l5 = (mask0 l0 xA l3 l5 l9) := rfl
theorem e77 : k0_pay77 (m1b0 l9) (m2w0 l9) (m2b0 l9) (truncf .bf16 (shapeCast S256x256 (View.ld xA (Rect.unit (s := S32x256x256) ![25, 0, 0] S1x256x256.size inb_S32x256x256_S1x256x256_25_0_0)) shapeCasts_S1x256x256_S256x256) bitsLt_bf16_f32) (truncf .bf16 (shapeCast S256x256 (View.ld xA (Rect.unit (s := S32x256x256) ![26, 0, 0] S1x256x256.size inb_S32x256x256_S1x256x256_26_0_0)) shapeCasts_S1x256x256_S256x256) bitsLt_bf16_f32) (truncf .bf16 (shapeCast S256x256 (View.ld xA (Rect.unit (s := S32x256x256) ![27, 0, 0] S1x256x256.size inb_S32x256x256_S1x256x256_27_0_0)) shapeCasts_S1x256x256_S256x256) bitsLt_bf16_f32) (truncf .bf16 (shapeCast S256x256 (View.ld xA (Rect.unit (s := S32x256x256) ![28, 0, 0] S1x256x256.size inb_S32x256x256_S1x256x256_28_0_0)) shapeCasts_S1x256x256_S256x256) bitsLt_bf16_f32) (truncf .bf16 (shapeCast S256x256 (View.ld xA (Rect.unit (s := S32x256x256) ![29, 0, 0] S1x256x256.size inb_S32x256x256_S1x256x256_29_0_0)) shapeCasts_S1x256x256_S256x256) bitsLt_bf16_f32) (truncf .bf16 (shapeCast S256x256 (View.ld xA (Rect.unit (s := S32x256x256) ![30, 0, 0] S1x256x256.size inb_S32x256x256_S1x256x256_30_0_0)) shapeCasts_S1x256x256_S256x256) bitsLt_bf16_f32) (truncf .bf16 (shapeCast S256x256 (View.ld xA (Rect.unit (s := S32x256x256) ![31, 0, 0] S1x256x256.size inb_S32x256x256_S1x256x256_31_0_0)) shapeCasts_S1x256x256_S256x256) bitsLt_bf16_f32) (full0 l0 l3) (hl0 l0 l3 l9) (lhs0 l0 l3 l9) (matmul dot_S32x256_S256x256_S32x256_1_1_0_0_n_n none (extractStridedSlice S32x256 ![0, 0] (lhs0 l0 l3 l9) slices_S32x8192_o0_0_S32x256) (truncf .bf16 (shapeCast S256x256 (View.ld xA (Rect.unit (s := S32x256x256) ![0, 0, 0] S1x256x256.size inb_S32x256x256_S1x256x256_0_0_0)) shapeCasts_S1x256x256_S256x256) bitsLt_bf16_f32) (constant S32x256 .f32 0x00000000#32)) (matmul dot_S32x256_S256x256_S32x256_1_1_0_0_n_n none (extractStridedSlice S32x256 ![0, 256] (lhs0 l0 l3 l9) slices_S32x8192_o0_256_S32x256) (truncf .bf16 (shapeCast S256x256 (View.ld xA (Rect.unit (s := S32x256x256) ![1, 0, 0] S1x256x256.size inb_S32x256x256_S1x256x256_1_0_0)) shapeCasts_S1x256x256_S256x256) bitsLt_bf16_f32) (constant S32x256 .f32 0x00000000#32)) (matmul dot_S32x256_S256x256_S32x256_1_1_0_0_n_n none (extractStridedSlice S32x256 ![0, 512] (lhs0 l0 l3 l9) slices_S32x8192_o0_512_S32x256) (truncf .bf16 (shapeCast S256x256 (View.ld xA (Rect.unit (s := S32x256x256) ![2, 0, 0] S1x256x256.size inb_S32x256x256_S1x256x256_2_0_0)) shapeCasts_S1x256x256_S256x256) bitsLt_bf16_f32) (constant S32x256 .f32 0x00000000#32)) (matmul dot_S32x256_S256x256_S32x256_1_1_0_0_n_n none (extractStridedSlice S32x256 ![0, 768] (lhs0 l0 l3 l9) slices_S32x8192_o0_768_S32x256) (truncf .bf16 (shapeCast S256x256 (View.ld xA (Rect.unit (s := S32x256x256) ![3, 0, 0] S1x256x256.size inb_S32x256x256_S1x256x256_3_0_0)) shapeCasts_S1x256x256_S256x256) bitsLt_bf16_f32) (constant S32x256 .f32 0x00000000#32)) (matmul dot_S32x256_S256x256_S32x256_1_1_0_0_n_n none (extractStridedSlice S32x256 ![0, 1024] (lhs0 l0 l3 l9) slices_S32x8192_o0_1024_S32x256) (truncf .bf16 (shapeCast S256x256 (View.ld xA (Rect.unit (s := S32x256x256) ![4, 0, 0] S1x256x256.size inb_S32x256x256_S1x256x256_4_0_0)) shapeCasts_S1x256x256_S256x256) bitsLt_bf16_f32) (constant S32x256 .f32 0x00000000#32)) (matmul dot_S32x256_S256x256_S32x256_1_1_0_0_n_n none (extractStridedSlice S32x256 ![0, 1280] (lhs0 l0 l3 l9) slices_S32x8192_o0_1280_S32x256) (truncf .bf16 (shapeCast S256x256 (View.ld xA (Rect.unit (s := S32x256x256) ![5, 0, 0] S1x256x256.size inb_S32x256x256_S1x256x256_5_0_0)) shapeCasts_S1x256x256_S256x256) bitsLt_bf16_f32) (constant S32x256 .f32 0x00000000#32)) (matmul dot_S32x256_S256x256_S32x256_1_1_0_0_n_n none (extractStridedSlice S32x256 ![0, 1536] (lhs0 l0 l3 l9) slices_S32x8192_o0_1536_S32x256) (truncf .bf16 (shapeCast S256x256 (View.ld xA (Rect.unit (s := S32x256x256) ![6, 0, 0] S1x256x256.size inb_S32x256x256_S1x256x256_6_0_0)) shapeCasts_S1x256x256_S256x256) bitsLt_bf16_f32) (constant S32x256 .f32 0x00000000#32)) (matmul dot_S32x256_S256x256_S32x256_1_1_0_0_n_n none (extractStridedSlice S32x256 ![0, 1792] (lhs0 l0 l3 l9) slices_S32x8192_o0_1792_S32x256) (truncf .bf16 (shapeCast S256x256 (View.ld xA (Rect.unit (s := S32x256x256) ![7, 0, 0] S1x256x256.size inb_S32x256x256_S1x256x256_7_0_0)) shapeCasts_S1x256x256_S256x256) bitsLt_bf16_f32) (constant S32x256 .f32 0x00000000#32)) (matmul dot_S32x256_S256x256_S32x256_1_1_0_0_n_n none (extractStridedSlice S32x256 ![0, 2048] (lhs0 l0 l3 l9) slices_S32x8192_o0_2048_S32x256) (truncf .bf16 (shapeCast S256x256 (View.ld xA (Rect.unit (s := S32x256x256) ![8, 0, 0] S1x256x256.size inb_S32x256x256_S1x256x256_8_0_0)) shapeCasts_S1x256x256_S256x256) bitsLt_bf16_f32) (constant S32x256 .f32 0x00000000#32)) (matmul dot_S32x256_S256x256_S32x256_1_1_0_0_n_n none (extractStridedSlice S32x256 ![0, 2304] (lhs0 l0 l3 l9) slices_S32x8192_o0_2304_S32x256) (truncf .bf16 (shapeCast S256x256 (View.ld xA (Rect.unit (s := S32x256x256) ![9, 0, 0] S1x256x256.size inb_S32x256x256_S1x256x256_9_0_0)) shapeCasts_S1x256x256_S256x256) bitsLt_bf16_f32) (constant S32x256 .f32 0x00000000#32)) (matmul dot_S32x256_S256x256_S32x256_1_1_0_0_n_n none (extractStridedSlice S32x256 ![0, 2560] (lhs0 l0 l3 l9) slices_S32x8192_o0_2560_S32x256) (truncf .bf16 (shapeCast S256x256 (View.ld xA (Rect.unit (s := S32x256x256) ![10, 0, 0] S1x256x256.size inb_S32x256x256_S1x256x256_10_0_0)) shapeCasts_S1x256x256_S256x256) bitsLt_bf16_f32) (constant S32x256 .f32 0x00000000#32)) (matmul dot_S32x256_S256x256_S32x256_1_1_0_0_n_n none (extractStridedSlice S32x256 ![0, 2816] (lhs0 l0 l3 l9) slices_S32x8192_o0_2816_S32x256) (truncf .bf16 (shapeCast S256x256 (View.ld xA (Rect.unit (s := S32x256x256) ![11, 0, 0] S1x256x256.size inb_S32x256x256_S1x256x256_11_0_0)) shapeCasts_S1x256x256_S256x256) bitsLt_bf16_f32) (constant S32x256 .f32 0x00000000#32)) (matmul dot_S32x256_S256x256_S32x256_1_1_0_0_n_n none (extractStridedSlice S32x256 ![0, 3072] (lhs0 l0 l3 l9) slices_S32x8192_o0_3072_S32x256) (truncf .bf16 (shapeCast S256x256 (View.ld xA (Rect.unit (s := S32x256x256) ![12, 0, 0] S1x256x256.size inb_S32x256x256_S1x256x256_12_0_0)) shapeCasts_S1x256x256_S256x256) bitsLt_bf16_f32) (constant S32x256 .f32 0x00000000#32)) (matmul dot_S32x256_S256x256_S32x256_1_1_0_0_n_n none (extractStridedSlice S32x256 ![0, 3328] (lhs0 l0 l3 l9) slices_S32x8192_o0_3328_S32x256) (truncf .bf16 (shapeCast S256x256 (View.ld xA (Rect.unit (s := S32x256x256) ![13, 0, 0] S1x256x256.size inb_S32x256x256_S1x256x256_13_0_0)) shapeCasts_S1x256x256_S256x256) bitsLt_bf16_f32) (constant S32x256 .f32 0x00000000#32)) (matmul dot_S32x256_S256x256_S32x256_1_1_0_0_n_n none (extractStridedSlice S32x256 ![0, 3584] (lhs0 l0 l3 l9) slices_S32x8192_o0_3584_S32x256) (truncf .bf16 (shapeCast S256x256 (View.ld xA (Rect.unit (s := S32x256x256) ![14, 0, 0] S1x256x256.size inb_S32x256x256_S1x256x256_14_0_0)) shapeCasts_S1x256x256_S256x256) bitsLt_bf16_f32) (constant S32x256 .f32 0x00000000#32)) (matmul dot_S32x256_S256x256_S32x256_1_1_0_0_n_n none (extractStridedSlice S32x256 ![0, 3840] (lhs0 l0 l3 l9) slices_S32x8192_o0_3840_S32x256) (truncf .bf16 (shapeCast S256x256 (View.ld xA (Rect.unit (s := S32x256x256) ![15, 0, 0] S1x256x256.size inb_S32x256x256_S1x256x256_15_0_0)) shapeCasts_S1x256x256_S256x256) bitsLt_bf16_f32) (constant S32x256 .f32 0x00000000#32)) (matmul dot_S32x256_S256x256_S32x256_1_1_0_0_n_n none (extractStridedSlice S32x256 ![0, 4096] (lhs0 l0 l3 l9) slices_S32x8192_o0_4096_S32x256) (truncf .bf16 (shapeCast S256x256 (View.ld xA (Rect.unit (s := S32x256x256) ![16, 0, 0] S1x256x256.size inb_S32x256x256_S1x256x256_16_0_0)) shapeCasts_S1x256x256_S256x256) bitsLt_bf16_f32) (constant S32x256 .f32 0x00000000#32)) (matmul dot_S32x256_S256x256_S32x256_1_1_0_0_n_n none (extractStridedSlice S32x256 ![0, 4352] (lhs0 l0 l3 l9) slices_S32x8192_o0_4352_S32x256) (truncf .bf16 (shapeCast S256x256 (View.ld xA (Rect.unit (s := S32x256x256) ![17, 0, 0] S1x256x256.size inb_S32x256x256_S1x256x256_17_0_0)) shapeCasts_S1x256x256_S256x256) bitsLt_bf16_f32) (constant S32x256 .f32 0x00000000#32)) (matmul dot_S32x256_S256x256_S32x256_1_1_0_0_n_n none (extractStridedSlice S32x256 ![0, 4608] (lhs0 l0 l3 l9) slices_S32x8192_o0_4608_S32x256) (truncf .bf16 (shapeCast S256x256 (View.ld xA (Rect.unit (s := S32x256x256) ![18, 0, 0] S1x256x256.size inb_S32x256x256_S1x256x256_18_0_0)) shapeCasts_S1x256x256_S256x256) bitsLt_bf16_f32) (constant S32x256 .f32 0x00000000#32)) (matmul dot_S32x256_S256x256_S32x256_1_1_0_0_n_n none (extractStridedSlice S32x256 ![0, 4864] (lhs0 l0 l3 l9) slices_S32x8192_o0_4864_S32x256) (truncf .bf16 (shapeCast S256x256 (View.ld xA (Rect.unit (s := S32x256x256) ![19, 0, 0] S1x256x256.size inb_S32x256x256_S1x256x256_19_0_0)) shapeCasts_S1x256x256_S256x256) bitsLt_bf16_f32) (constant S32x256 .f32 0x00000000#32)) (matmul dot_S32x256_S256x256_S32x256_1_1_0_0_n_n none (extractStridedSlice S32x256 ![0, 5120] (lhs0 l0 l3 l9) slices_S32x8192_o0_5120_S32x256) (truncf .bf16 (shapeCast S256x256 (View.ld xA (Rect.unit (s := S32x256x256) ![20, 0, 0] S1x256x256.size inb_S32x256x256_S1x256x256_20_0_0)) shapeCasts_S1x256x256_S256x256) bitsLt_bf16_f32) (constant S32x256 .f32 0x00000000#32)) (matmul dot_S32x256_S256x256_S32x256_1_1_0_0_n_n none (extractStridedSlice S32x256 ![0, 5376] (lhs0 l0 l3 l9) slices_S32x8192_o0_5376_S32x256) (truncf .bf16 (shapeCast S256x256 (View.ld xA (Rect.unit (s := S32x256x256) ![21, 0, 0] S1x256x256.size inb_S32x256x256_S1x256x256_21_0_0)) shapeCasts_S1x256x256_S256x256) bitsLt_bf16_f32) (constant S32x256 .f32 0x00000000#32)) (matmul dot_S32x256_S256x256_S32x256_1_1_0_0_n_n none (extractStridedSlice S32x256 ![0, 5632] (lhs0 l0 l3 l9) slices_S32x8192_o0_5632_S32x256) (truncf .bf16 (shapeCast S256x256 (View.ld xA (Rect.unit (s := S32x256x256) ![22, 0, 0] S1x256x256.size inb_S32x256x256_S1x256x256_22_0_0)) shapeCasts_S1x256x256_S256x256) bitsLt_bf16_f32) (constant S32x256 .f32 0x00000000#32)) (matmul dot_S32x256_S256x256_S32x256_1_1_0_0_n_n none (extractStridedSlice S32x256 ![0, 5888] (lhs0 l0 l3 l9) slices_S32x8192_o0_5888_S32x256) (truncf .bf16 (shapeCast S256x256 (View.ld xA (Rect.unit (s := S32x256x256) ![23, 0, 0] S1x256x256.size inb_S32x256x256_S1x256x256_23_0_0)) shapeCasts_S1x256x256_S256x256) bitsLt_bf16_f32) (constant S32x256 .f32 0x00000000#32)) (matmul dot_S32x256_S256x256_S32x256_1_1_0_0_n_n none (extractStridedSlice S32x256 ![0, 6144] (lhs0 l0 l3 l9) slices_S32x8192_o0_6144_S32x256) (truncf .bf16 (shapeCast S256x256 (View.ld xA (Rect.unit (s := S32x256x256) ![24, 0, 0] S1x256x256.size inb_S32x256x256_S1x256x256_24_0_0)) shapeCasts_S1x256x256_S256x256) bitsLt_bf16_f32) (constant S32x256 .f32 0x00000000#32)) (extractStridedSlice S32x256 ![0, 6400] (lhs0 l0 l3 l9) slices_S32x8192_o0_6400_S32x256) (constant S32x256 .f32 0x00000000#32) l5 = (h0 l0 xA l3 l5 l9) := rfl
theorem e78 : k0_pay78 (m1b0 l9) (m2w0 l9) (m2b0 l9) (truncf .bf16 (shapeCast S256x256 (View.ld xA (Rect.unit (s := S32x256x256) ![0, 0, 0] S1x256x256.size inb_S32x256x256_S1x256x256_0_0_0)) shapeCasts_S1x256x256_S256x256) bitsLt_bf16_f32) (truncf .bf16 (shapeCast S256x256 (View.ld xA (Rect.unit (s := S32x256x256) ![25, 0, 0] S1x256x256.size inb_S32x256x256_S1x256x256_25_0_0)) shapeCasts_S1x256x256_S256x256) bitsLt_bf16_f32) (truncf .bf16 (shapeCast S256x256 (View.ld xA (Rect.unit (s := S32x256x256) ![26, 0, 0] S1x256x256.size inb_S32x256x256_S1x256x256_26_0_0)) shapeCasts_S1x256x256_S256x256) bitsLt_bf16_f32) (truncf .bf16 (shapeCast S256x256 (View.ld xA (Rect.unit (s := S32x256x256) ![27, 0, 0] S1x256x256.size inb_S32x256x256_S1x256x256_27_0_0)) shapeCasts_S1x256x256_S256x256) bitsLt_bf16_f32) (truncf .bf16 (shapeCast S256x256 (View.ld xA (Rect.unit (s := S32x256x256) ![28, 0, 0] S1x256x256.size inb_S32x256x256_S1x256x256_28_0_0)) shapeCasts_S1x256x256_S256x256) bitsLt_bf16_f32) (truncf .bf16 (shapeCast S256x256 (View.ld xA (Rect.unit (s := S32x256x256) ![29, 0, 0] S1x256x256.size inb_S32x256x256_S1x256x256_29_0_0)) shapeCasts_S1x256x256_S256x256) bitsLt_bf16_f32) (truncf .bf16 (shapeCast S256x256 (View.ld xA (Rect.unit (s := S32x256x256) ![30, 0, 0] S1x256x256.size inb_S32x256x256_S1x256x256_30_0_0)) shapeCasts_S1x256x256_S256x256) bitsLt_bf16_f32) (truncf .bf16 (shapeCast S256x256 (View.ld xA (Rect.unit (s := S32x256x256) ![31, 0, 0] S1x256x256.size inb_S32x256x256_S1x256x256_31_0_0)) shapeCasts_S1x256x256_S256x256) bitsLt_bf16_f32) (full0 l0 l3) (hl0 l0 l3 l9) (lhs0 l0 l3 l9) (matmul dot_S32x256_S256x256_S32x256_1_1_0_0_n_n none (extractStridedSlice S32x256 ![0, 0] (lhs0 l0 l3 l9) slices_S32x8192_o0_0_S32x256) (truncf .bf16 (shapeCast S256x256 (View.ld xA (Rect.unit (s := S32x256x256) ![0, 0, 0] S1x256x256.size inb_S32x256x256_S1x256x256_0_0_0)) shapeCasts_S1x256x256_S256x256) bitsLt_bf16_f32) (constant S32x256 .f32 0x00000000#32)) (matmul dot_S32x256_S256x256_S32x256_1_1_0_0_n_n none (extractStridedSlice S32x256 ![0, 256] (lhs0 l0 l3 l9) slices_S32x8192_o0_256_S32x256) (truncf .bf16 (shapeCast S256x256 (View.ld xA (Rect.unit (s := S32x256x256) ![1, 0, 0] S1x256x256.size inb_S32x256x256_S1x256x256_1_0_0)) shapeCasts_S1x256x256_S256x256) bitsLt_bf16_f32) (constant S32x256 .f32 0x00000000#32)) (matmul dot_S32x256_S256x256_S32x256_1_1_0_0_n_n none (extractStridedSlice S32x256 ![0, 512] (lhs0 l0 l3 l9) slices_S32x8192_o0_512_S32x256) (truncf .bf16 (shapeCast S256x256 (View.ld xA (Rect.unit (s := S32x256x256) ![2, 0, 0] S1x256x256.size inb_S32x256x256_S1x256x256_2_0_0)) shapeCasts_S1x256x256_S256x256) bitsLt_bf16_f32) (constant S32x256 .f32 0x00000000#32)) (matmul dot_S32x256_S256x256_S32x256_1_1_0_0_n_n none (extractStridedSlice S32x256 ![0, 768] (lhs0 l0 l3 l9) slices_S32x8192_o0_768_S32x256) (truncf .bf16 (shapeCast S256x256 (View.ld xA (Rect.unit (s := S32x256x256) ![3, 0, 0] S1x256x256.size inb_S32x256x256_S1x256x256_3_0_0)) shapeCasts_S1x256x256_S256x256) bitsLt_bf16_f32) (constant S32x256 .f32 0x00000000#32)) (matmul dot_S32x256_S256x256_S32x256_1_1_0_0_n_n none (extractStridedSlice S32x256 ![0, 1024] (lhs0 l0 l3 l9) slices_S32x8192_o0_1024_S32x256) (truncf .bf16 (shapeCast S256x256 (View.ld xA (Rect.unit (s := S32x256x256) ![4, 0, 0] S1x256x256.size inb_S32x256x256_S1x256x256_4_0_0)) shapeCasts_S1x256x256_S256x256) bitsLt_bf16_f32) (constant S32x256 .f32 0x00000000#32)) (matmul dot_S32x256_S256x256_S32x256_1_1_0_0_n_n none (extractStridedSlice S32x256 ![0, 1280] (lhs0 l0 l3 l9) slices_S32x8192_o0_1280_S32x256) (truncf .bf16 (shapeCast S256x256 (View.ld xA (Rect.unit (s := S32x256x256) ![5, 0, 0] S1x256x256.size inb_S32x256x256_S1x256x256_5_0_0)) shapeCasts_S1x256x256_S256x256) bitsLt_bf16_f32) (constant S32x256 .f32 0x00000000#32)) (matmul dot_S32x256_S256x256_S32x256_1_1_0_0_n_n none (extractStridedSlice S32x256 ![0, 1536] (lhs0 l0 l3 l9) slices_S32x8192_o0_1536_S32x256) (truncf .bf16 (shapeCast S256x256 (View.ld xA (Rect.unit (s := S32x256x256) ![6, 0, 0] S1x256x256.size inb_S32x256x256_S1x256x256_6_0_0)) shapeCasts_S1x256x256_S256x256) bitsLt_bf16_f32) (constant S32x256 .f32 0x00000000#32)) (matmul dot_S32x256_S256x256_S32x256_1_1_0_0_n_n none (extractStridedSlice S32x256 ![0, 1792] (lhs0 l0 l3 l9) slices_S32x8192_o0_1792_S32x256) (truncf .bf16 (shapeCast S256x256 (View.ld xA (Rect.unit (s := S32x256x256) ![7, 0, 0] S1x256x256.size inb_S32x256x256_S1x256x256_7_0_0)) shapeCasts_S1x256x256_S256x256) bitsLt_bf16_f32) (constant S32x256 .f32 0x00000000#32)) (matmul dot_S32x256_S256x256_S32x256_1_1_0_0_n_n none (extractStridedSlice S32x256 ![0, 2048] (lhs0 l0 l3 l9) slices_S32x8192_o0_2048_S32x256) (truncf .bf16 (shapeCast S256x256 (View.ld xA (Rect.unit (s := S32x256x256) ![8, 0, 0] S1x256x256.size inb_S32x256x256_S1x256x256_8_0_0)) shapeCasts_S1x256x256_S256x256) bitsLt_bf16_f32) (constant S32x256 .f32 0x00000000#32)) (matmul dot_S32x256_S256x256_S32x256_1_1_0_0_n_n none (extractStridedSlice S32x256 ![0, 2304] (lhs0 l0 l3 l9) slices_S32x8192_o0_2304_S32x256) (truncf .bf16 (shapeCast S256x256 (View.ld xA (Rect.unit (s := S32x256x256) ![9, 0, 0] S1x256x256.size inb_S32x256x256_S1x256x256_9_0_0)) shapeCasts_S1x256x256_S256x256) bitsLt_bf16_f32) (constant S32x256 .f32 0x00000000#32)) (matmul dot_S32x256_S256x256_S32x256_1_1_0_0_n_n none (extractStridedSlice S32x256 ![0, 2560] (lhs0 l0 l3 l9) slices_S32x8192_o0_2560_S32x256) (truncf .bf16 (shapeCast S256x256 (View.ld xA (Rect.unit (s := S32x256x256) ![10, 0, 0] S1x256x256.size inb_S32x256x256_S1x256x256_10_0_0)) shapeCasts_S1x256x256_S256x256) bitsLt_bf16_f32) (constant S32x256 .f32 0x00000000#32)) (matmul dot_S32x256_S256x256_S32x256_1_1_0_0_n_n none (extractStridedSlice S32x256 ![0, 2816] (lhs0 l0 l3 l9) slices_S32x8192_o0_2816_S32x256) (truncf .bf16 (shapeCast S256x256 (View.ld xA (Rect.unit (s := S32x256x256) ![11, 0, 0] S1x256x256.size inb_S32x256x256_S1x256x256_11_0_0)) shapeCasts_S1x256x256_S256x256) bitsLt_bf16_f32) (constant S32x256 .f32 0x00000000#32)) (matmul dot_S32x256_S256x256_S32x256_1_1_0_0_n_n none (extractStridedSlice S32x256 ![0, 3072] (lhs0 l0 l3 l9) slices_S32x8192_o0_3072_S32x256) (truncf .bf16 (shapeCast S256x256 (View.ld xA (Rect.unit (s := S32x256x256) ![12, 0, 0] S1x256x256.size inb_S32x256x256_S1x256x256_12_0_0)) shapeCasts_S1x256x256_S256x256) bitsLt_bf16_f32) (constant S32x256 .f32 0x00000000#32)) (matmul dot_S32x256_S256x256_S32x256_1_1_0_0_n_n none (extractStridedSlice S32x256 ![0, 3328] (lhs0 l0 l3 l9) slices_S32x8192_o0_3328_S32x256) (truncf .bf16 (shapeCast S256x256 (View.ld xA (Rect.unit (s := S32x256x256) ![13, 0, 0] S1x256x256.size inb_S32x256x256_S1x256x256_13_0_0)) shapeCasts_S1x256x256_S256x256) bitsLt_bf16_f32) (constant S32x256 .f32 0x00000000#32)) (matmul dot_S32x256_S256x256_S32x256_1_1_0_0_n_n none (extractStridedSlice S32x256 ![0, 3584] (lhs0 l0 l3 l9) slices_S32x8192_o0_3584_S32x256) (truncf .bf16 (shapeCast S256x256 (View.ld xA (Rect.unit (s := S32x256x256) ![14, 0, 0] S1x256x256.size inb_S32x256x256_S1x256x256_14_0_0)) shapeCasts_S1x256x256_S256x256) bitsLt_bf16_f32) (constant S32x256 .f32 0x00000000#32)) (matmul dot_S32x256_S256x256_S32x256_1_1_0_0_n_n none (extractStridedSlice S32x256 ![0, 3840] (lhs0 l0 l3 l9) slices_S32x8192_o0_3840_S32x256) (truncf .bf16 (shapeCast S256x256 (View.ld xA (Rect.unit (s := S32x256x256) ![15, 0, 0] S1x256x256.size inb_S32x256x256_S1x256x256_15_0_0)) shapeCasts_S1x256x256_S256x256) bitsLt_bf16_f32) (constant S32x256 .f32 0x00000000#32)) (matmul dot_S32x256_S256x256_S32x256_1_1_0_0_n_n none (extractStridedSlice S32x256 ![0, 4096] (lhs0 l0 l3 l9) slices_S32x8192_o0_4096_S32x256) (truncf .bf16 (shapeCast S256x256 (View.ld xA (Rect.unit (s := S32x256x256) ![16, 0, 0] S1x256x256.size inb_S32x256x256_S1x256x256_16_0_0)) shapeCasts_S1x256x256_S256x256) bitsLt_bf16_f32) (constant S32x256 .f32 0x00000000#32)) (matmul dot_S32x256_S256x256_S32x256_1_1_0_0_n_n none (extractStridedSlice S32x256 ![0, 4352] (lhs0 l0 l3 l9) slices_S32x8192_o0_4352_S32x256) (truncf .bf16 (shapeCast S256x256 (View.ld xA (Rect.unit (s := S32x256x256) ![17, 0, 0] S1x256x256.size inb_S32x256x256_S1x256x256_17_0_0)) shapeCasts_S1x256x256_S256x256) bitsLt_bf16_f32) (constant S32x256 .f32 0x00000000#32)) (matmul dot_S32x256_S256x256_S32x256_1_1_0_0_n_n none (extractStridedSlice S32x256 ![0, 4608] (lhs0 l0 l3 l9) slices_S32x8192_o0_4608_S32x256) (truncf .bf16 (shapeCast S256x256 (View.ld xA (Rect.unit (s := S32x256x256) ![18, 0, 0] S1x256x256.size inb_S32x256x256_S1x256x256_18_0_0)) shapeCasts_S1x256x256_S256x256) bitsLt_bf16_f32) (constant S32x256 .f32 0x00000000#32)) (matmul dot_S32x256_S256x256_S32x256_1_1_0_0_n_n none (extractStridedSlice S32x256 ![0, 4864] (lhs0 l0 l3 l9) slices_S32x8192_o0_4864_S32x256) (truncf .bf16 (shapeCast S256x256 (View.ld xA (Rect.unit (s := S32x256x256) ![19, 0, 0] S1x256x256.size inb_S32x256x256_S1x256x256_19_0_0)) shapeCasts_S1x256x256_S256x256) bitsLt_bf16_f32) (constant S32x256 .f32 0x00000000#32)) (matmul dot_S32x256_S256x256_S32x256_1_1_0_0_n_n none (extractStridedSlice S32x256 ![0, 5120] (lhs0 l0 l3 l9) slices_S32x8192_o0_5120_S32x256) (truncf .bf16 (shapeCast S256x256 (View.ld xA (Rect.unit (s := S32x256x256) ![20, 0, 0] S1x256x256.size inb_S32x256x256_S1x256x256_20_0_0)) shapeCasts_S1x256x256_S256x256) bitsLt_bf16_f32) (constant S32x256 .f32 0x00000000#32)) (matmul dot_S32x256_S256x256_S32x256_1_1_0_0_n_n none (extractStridedSlice S32x256 ![0, 5376] (lhs0 l0 l3 l9) slices_S32x8192_o0_5376_S32x256) (truncf .bf16 (shapeCast S256x256 (View.ld xA (Rect.unit (s := S32x256x256) ![21, 0, 0] S1x256x256.size inb_S32x256x256_S1x256x256_21_0_0)) shapeCasts_S1x256x256_S256x256) bitsLt_bf16_f32) (constant S32x256 .f32 0x00000000#32)) (matmul dot_S32x256_S256x256_S32x256_1_1_0_0_n_n none (extractStridedSlice S32x256 ![0, 5632] (lhs0 l0 l3 l9) slices_S32x8192_o0_5632_S32x256) (truncf .bf16 (shapeCast S256x256 (View.ld xA (Rect.unit (s := S32x256x256) ![22, 0, 0] S1x256x256.size inb_S32x256x256_S1x256x256_22_0_0)) shapeCasts_S1x256x256_S256x256) bitsLt_bf16_f32) (constant S32x256 .f32 0x00000000#32)) (matmul dot_S32x256_S256x256_S32x256_1_1_0_0_n_n none (extractStridedSlice S32x256 ![0, 5888] (lhs0 l0 l3 l9) slices_S32x8192_o0_5888_S32x256) (truncf .bf16 (shapeCast S256x256 (View.ld xA (Rect.unit (s := S32x256x256) ![23, 0, 0] S1x256x256.size inb_S32x256x256_S1x256x256_23_0_0)) shapeCasts_S1x256x256_S256x256) bitsLt_bf16_f32) (constant S32x256 .f32 0x00000000#32)) (matmul dot_S32x256_S256x256_S32x256_1_1_0_0_n_n none (extractStridedSlice S32x256 ![0, 6144] (lhs0 l0 l3 l9) slices_S32x8192_o0_6144_S32x256) (truncf .bf16 (shapeCast S256x256 (View.ld xA (Rect.unit (s := S32x256x256) ![24, 0, 0] S1x256x256.size inb_S32x256x256_S1x256x256_24_0_0)) shapeCasts_S1x256x256_S256x256) bitsLt_bf16_f32) (constant S32x256 .f32 0x00000000#32)) (extractStridedSlice S32x256 ![0, 6400] (lhs0 l0 l3 l9) slices_S32x8192_o0_6400_S32x256) (constant S32x256 .f32 0x00000000#32) l5 = (matmul dot_S32x256_S256x256_S32x256_1_1_0_0_n_n none (extractStridedSlice S32x256 ![0, 0] (h0 l0 xA l3 l5 l9) slices_S32x8192_o0_0_S32x256) (truncf .bf16 (shapeCast S256x256 (View.ld xA (Rect.unit (s := S32x256x256) ![0, 0, 0] S1x256x256.size inb_S32x256x256_S1x256x256_0_0_0)) shapeCasts_S1x256x256_S256x256) bitsLt_bf16_f32) (constant S32x256 .f32 0x00000000#32)) := rfl
theorem e79 : k0_pay79 (m1b0 l9) (m2w0 l9) (m2b0 l9) (truncf .bf16 (shapeCast S256x256 (View.ld xA (Rect.unit (s := S32x256x256) ![1, 0, 0] S1x256x256.size inb_S32x256x256_S1x256x256_1_0_0)) shapeCasts_S1x256x256_S256x256) bitsLt_bf16_f32) (truncf .bf16 (shapeCast S256x256 (View.ld xA (Rect.unit (s := S32x256x256) ![25, 0, 0] S1x256x256.size inb_S32x256x256_S1x256x256_25_0_0)) shapeCasts_S1x256x256_S256x256) bitsLt_bf16_f32) (truncf .bf16 (shapeCast S256x256 (View.ld xA (Rect.unit (s := S32x256x256) ![26, 0, 0] S1x256x256.size inb_S32x256x256_S1x256x256_26_0_0)) shapeCasts_S1x256x256_S256x256) bitsLt_bf16_f32) (truncf .bf16 (shapeCast S256x256 (View.ld xA (Rect.unit (s := S32x256x256) ![27, 0, 0] S1x256x256.size inb_S32x256x256_S1x256x256_27_0_0)) shapeCasts_S1x256x256_S256x256) bitsLt_bf16_f32) (truncf .bf16 (shapeCast S256x256 (View.ld xA (Rect.unit (s := S32x256x256) ![28, 0, 0] S1x256x256.size inb_S32x256x256_S1x256x256_28_0_0)) shapeCasts_S1x256x256_S256x256) bitsLt_bf16_f32) (truncf .bf16 (shapeCast S256x256 (View.ld xA (Rect.unit (s := S32x256x256) ![29, 0, 0] S1x256x256.size inb_S32x256x256_S1x256x256_29_0_0)) shapeCasts_S1x256x256_S256x256) bitsLt_bf16_f32) (truncf .bf16 (shapeCast S256x256 (View.ld xA (Rect.unit (s := S32x256x256) ![30, 0, 0] S1x256x256.size inb_S32x256x256_S1x256x256_30_0_0)) shapeCasts_S1x256x256_S256x256) bitsLt_bf16_f32) (truncf .bf16 (shapeCast S256x256 (View.ld xA (Rect.unit (s := S32x256x256) ![31, 0, 0] S1x256x256.size inb_S32x256x256_S1x256x256_31_0_0)) shapeCasts_S1x256x256_S256x256) bitsLt_bf16_f32) (full0 l0 l3) (hl0 l0 l3 l9) (lhs0 l0 l3 l9) (matmul dot_S32x256_S256x256_S32x256_1_1_0_0_n_n none (extractStridedSlice S32x256 ![0, 0] (lhs0 l0 l3 l9) slices_S32x8192_o0_0_S32x256) (truncf .bf16 (shapeCast S256x256 (View.ld xA (Rect.unit (s := S32x256x256) ![0, 0, 0] S1x256x256.size inb_S32x256x256_S1x256x256_0_0_0)) shapeCasts_S1x256x256_S256x256) bitsLt_bf16_f32) (constant S32x256 .f32 0x00000000#32)) (matmul dot_S32x256_S256x256_S32x256_1_1_0_0_n_n none (extractStridedSlice S32x256 ![0, 256] (lhs0 l0 l3 l9) slices_S32x8192_o0_256_S32x256) (truncf .bf16 (shapeCast S256x256 (View.ld xA (Rect.unit (s := S32x256x256) ![1, 0, 0] S1x256x256.size inb_S32x256x256_S1x256x256_1_0_0)) shapeCasts_S1x256x256_S256x256) bitsLt_bf16_f32) (constant S32x256 .f32 0x00000000#32)) (matmul dot_S32x256_S256x256_S32x256_1_1_0_0_n_n none (extractStridedSlice S32x256 ![0, 512] (lhs0 l0 l3 l9) slices_S32x8192_o0_512_S32x256) (truncf .bf16 (shapeCast S256x256 (View.ld xA (Rect.unit (s := S32x256x256) ![2, 0, 0] S1x256x256.size inb_S32x256x256_S1x256x256_2_0_0)) shapeCasts_S1x256x256_S256x256) bitsLt_bf16_f32) (constant S32x256 .f32 0x00000000#32)) (matmul dot_S32x256_S256x256_S32x256_1_1_0_0_n_n none (extractStridedSlice S32x256 ![0, 768] (lhs0 l0 l3 l9) slices_S32x8192_o0_768_S32x256) (truncf .bf16 (shapeCast S256x256 (View.ld xA (Rect.unit (s := S32x256x256) ![3, 0, 0] S1x256x256.size inb_S32x256x256_S1x256x256_3_0_0)) shapeCasts_S1x256x256_S256x256) bitsLt_bf16_f32) (constant S32x256 .f32 0x00000000#32)) (matmul dot_S32x256_S256x256_S32x256_1_1_0_0_n_n none (extractStridedSlice S32x256 ![0, 1024] (lhs0 l0 l3 l9) slices_S32x8192_o0_1024_S32x256) (truncf .bf16 (shapeCast S256x256 (View.ld xA (Rect.unit (s := S32x256x256) ![4, 0, 0] S1x256x256.size inb_S32x256x256_S1x256x256_4_0_0)) shapeCasts_S1x256x256_S256x256) bitsLt_bf16_f32) (constant S32x256 .f32 0x00000000#32)) (matmul dot_S32x256_S256x256_S32x256_1_1_0_0_n_n none (extractStridedSlice S32x256 ![0, 1280] (lhs0 l0 l3 l9) slices_S32x8192_o0_1280_S32x256) (truncf .bf16 (shapeCast S256x256 (View.ld xA (Rect.unit (s := S32x256x256) ![5, 0, 0] S1x256x256.size inb_S32x256x256_S1x256x256_5_0_0)) shapeCasts_S1x256x256_S256x256) bitsLt_bf16_f32) (constant S32x256 .f32 0x00000000#32)) (matmul dot_S32x256_S256x256_S32x256_1_1_0_0_n_n none (extractStridedSlice S32x256 ![0, 1536] (lhs0 l0 l3 l9) slices_S32x8192_o0_1536_S32x256) (truncf .bf16 (shapeCast S256x256 (View.ld xA (Rect.unit (s := S32x256x256) ![6, 0, 0] S1x256x256.size inb_S32x256x256_S1x256x256_6_0_0)) shapeCasts_S1x256x256_S256x256) bitsLt_bf16_f32) (constant S32x256 .f32 0x00000000#32)) (matmul dot_S32x256_S256x256_S32x256_1_1_0_0_n_n none (extractStridedSlice S32x256 ![0, 1792] (lhs0 l0 l3 l9) slices_S32x8192_o0_1792_S32x256) (truncf .bf16 (shapeCast S256x256 (View.ld xA (Rect.unit (s := S32x256x256) ![7, 0, 0] S1x256x256.size inb_S32x256x256_S1x256x256_7_0_0)) shapeCasts_S1x256x256_S256x256) bitsLt_bf16_f32) (constant S32x256 .f32 0x00000000#32)) (matmul dot_S32x256_S256x256_S32x256_1_1_0_0_n_n none (extractStridedSlice S32x256 ![0, 2048] (lhs0 l0 l3 l9) slices_S32x8192_o0_2048_S32x256) (truncf .bf16 (shapeCast S256x256 (View.ld xA (Rect.unit (s := S32x256x256) ![8, 0, 0] S1x256x256.size inb_S32x256x256_S1x256x256_8_0_0)) shapeCasts_S1x256x256_S256x256) bitsLt_bf16_f32) (constant S32x256 .f32 0x00000000#32)) (matmul dot_S32x256_S256x256_S32x256_1_1_0_0_n_n none (extractStridedSlice S32x256 ![0, 2304] (lhs0 l0 l3 l9) slices_S32x8192_o0_2304_S32x256) (truncf .bf16 (shapeCast S256x256 (View.ld xA (Rect.unit (s := S32x256x256) ![9, 0, 0] S1x256x256.size inb_S32x256x256_S1x256x256_9_0_0)) shapeCasts_S1x256x256_S256x256) bitsLt_bf16_f32) (constant S32x256 .f32 0x00000000#32)) (matmul dot_S32x256_S256x256_S32x256_1_1_0_0_n_n none (extractStridedSlice S32x256 ![0, 2560] (lhs0 l0 l3 l9) slices_S32x8192_o0_2560_S32x256) (truncf .bf16 (shapeCast S256x256 (View.ld xA (Rect.unit (s := S32x256x256) ![10, 0, 0] S1x256x256.size inb_S32x256x256_S1x256x256_10_0_0)) shapeCasts_S1x256x256_S256x256) bitsLt_bf16_f32) (constant S32x256 .f32 0x00000000#32)) (matmul dot_S32x256_S256x256_S32x256_1_1_0_0_n_n none (extractStridedSlice S32x256 ![0, 2816] (lhs0 l0 l3 l9) slices_S32x8192_o0_2816_S32x256) (truncf .bf16 (shapeCast S256x256 (View.ld xA (Rect.unit (s := S32x256x256) ![11, 0, 0] S1x256x256.size inb_S32x256x256_S1x256x256_11_0_0)) shapeCasts_S1x256x256_S256x256) bitsLt_bf16_f32) (constant S32x256 .f32 0x00000000#32)) (matmul dot_S32x256_S256x256_S32x256_1_1_0_0_n_n none (extractStridedSlice S32x256 ![0, 3072] (lhs0 l0 l3 l9) slices_S32x8192_o0_3072_S32x256) (truncf .bf16 (shapeCast S256x256 (View.ld xA (Rect.unit (s := S32x256x256) ![12, 0, 0] S1x256x256.size inb_S32x256x256_S1x256x256_12_0_0)) shapeCasts_S1x256x256_S256x256) bitsLt_bf16_f32) (constant S32x256 .f32 0x00000000#32)) (matmul dot_S32x256_S256x256_S32x256_1_1_0_0_n_n none (extractStridedSlice S32x256 ![0, 3328] (lhs0 l0 l3 l9) slices_S32x8192_o0_3328_S32x256) (truncf .bf16 (shapeCast S256x256 (View.ld xA (Rect.unit (s := S32x256x256) ![13, 0, 0] S1x256x256.size inb_S32x256x256_S1x256x256_13_0_0)) shapeCasts_S1x256x256_S256x256) bitsLt_bf16_f32) (constant S32x256 .f32 0x00000000#32)) (matmul dot_S32x256_S256x256_S32x256_1_1_0_0_n_n none (extractStridedSlice S32x256 ![0, 3584] (lhs0 l0 l3 l9) slices_S32x8192_o0_3584_S32x256) (truncf .bf16 (shapeCast S256x256 (View.ld xA (Rect.unit (s := S32x256x256) ![14, 0, 0] S1x256x256.size inb_S32x256x256_S1x256x256_14_0_0)) shapeCasts_S1x256x256_S256x256) bitsLt_bf16_f32) (constant S32x256 .f32 0x00000000#32)) (matmul dot_S32x256_S256x256_S32x256_1_1_0_0_n_n none (extractStridedSlice S32x256 ![0, 3840] (lhs0 l0 l3 l9) slices_S32x8192_o0_3840_S32x256) (truncf .bf16 (shapeCast S256x256 (View.ld xA (Rect.unit (s := S32x256x256) ![15, 0, 0] S1x256x256.size inb_S32x256x256_S1x256x256_15_0_0)) shapeCasts_S1x256x256_S256x256) bitsLt_bf16_f32) (constant S32x256 .f32 0x00000000#32)) (matmul dot_S32x256_S256x256_S32x256_1_1_0_0_n_n none (extractStridedSlice S32x256 ![0, 4096] (lhs0 l0 l3 l9) slices_S32x8192_o0_4096_S32x256) (truncf .bf16 (shapeCast S256x256 (View.ld xA (Rect.unit (s := S32x256x256) ![16, 0, 0] S1x256x256.size inb_S32x256x256_S1x256x256_16_0_0)) shapeCasts_S1x256x256_S256x256) bitsLt_bf16_f32) (constant S32x256 .f32 0x00000000#32)) (matmul dot_S32x256_S256x256_S32x256_1_1_0_0_n_n none (extractStridedSlice S32x256 ![0, 4352] (lhs0 l0 l3 l9) slices_S32x8192_o0_4352_S32x256) (truncf .bf16 (shapeCast S256x256 (View.ld xA (Rect.unit (s := S32x256x256) ![17, 0, 0] S1x256x256.size inb_S32x256x256_S1x256x256_17_0_0)) shapeCasts_S1x256x256_S256x256) bitsLt_bf16_f32) (constant S32x256 .f32 0x00000000#32)) (matmul dot_S32x256_S256x256_S32x256_1_1_0_0_n_n none (extractStridedSlice S32x256 ![0, 4608] (lhs0 l0 l3 l9) slices_S32x8192_o0_4608_S32x256) (truncf .bf16 (shapeCast S256x256 (View.ld xA (Rect.unit (s := S32x256x256) ![18, 0, 0] S1x256x256.size inb_S32x256x256_S1x256x256_18_0_0)) shapeCasts_S1x256x256_S256x256) bitsLt_bf16_f32) (constant S32x256 .f32 0x00000000#32)) (matmul dot_S32x256_S256x256_S32x256_1_1_0_0_n_n none (extractStridedSlice S32x256 ![0, 4864] (lhs0 l0 l3 l9) slices_S32x8192_o0_4864_S32x256) (truncf .bf16 (shapeCast S256x256 (View.ld xA (Rect.unit (s := S32x256x256) ![19, 0, 0] S1x256x256.size inb_S32x256x256_S1x256x256_19_0_0)) shapeCasts_S1x256x256_S256x256) bitsLt_bf16_f32) (constant S32x256 .f32 0x00000000#32)) (matmul dot_S32x256_S256x256_S32x256_1_1_0_0_n_n none (extractStridedSlice S32x256 ![0, 5120] (lhs0 l0 l3 l9) slices_S32x8192_o0_5120_S32x256) (truncf .bf16 (shapeCast S256x256 (View.ld xA (Rect.unit (s := S32x256x256) ![20, 0, 0] S1x256x256.size inb_S32x256x256_S1x256x256_20_0_0)) shapeCasts_S1x256x256_S256x256) bitsLt_bf16_f32) (constant S32x256 .f32 0x00000000#32)) (matmul dot_S32x256_S256x256_S32x256_1_1_0_0_n_n none (extractStridedSlice S32x256 ![0, 5376] (lhs0 l0 l3 l9) slices_S32x8192_o0_5376_S32x256) (truncf .bf16 (shapeCast S256x256 (View.ld xA (Rect.unit (s := S32x256x256) ![21, 0, 0] S1x256x256.size inb_S32x256x256_S1x256x256_21_0_0)) shapeCasts_S1x256x256_S256x256) bitsLt_bf16_f32) (constant S32x256 .f32 0x00000000#32)) (matmul dot_S32x256_S256x256_S32x256_1_1_0_0_n_n none (extractStridedSlice S32x256 ![0, 5632] (lhs0 l0 l3 l9) slices_S32x8192_o0_5632_S32x256) (truncf .bf16 (shapeCast S256x256 (View.ld xA (Rect.unit (s := S32x256x256) ![22, 0, 0] S1x256x256.size inb_S32x256x256_S1x256x256_22_0_0)) shapeCasts_S1x256x256_S256x256) bitsLt_bf16_f32) (constant S32x256 .f32 0x00000000#32)) (matmul dot_S32x256_S256x256_S32x256_1_1_0_0_n_n none (extractStridedSlice S32x256 ![0, 5888] (lhs0 l0 l3 l9) slices_S32x8192_o0_5888_S32x256) (truncf .bf16 (shapeCast S256x256 (View.ld xA (Rect.unit (s := S32x256x256) ![23, 0, 0] S1x256x256.size inb_S32x256x256_S1x256x256_23_0_0)) shapeCasts_S1x256x256_S256x256) bitsLt_bf16_f32) (constant S32x256 .f32 0x00000000#32)) (matmul dot_S32x256_S256x256_S32x256_1_1_0_0_n_n none (extractStridedSlice S32x256 ![0, 6144] (lhs0 l0 l3 l9) slices_S32x8192_o0_6144_S32x256) (truncf .bf16 (shapeCast S256x256 (View.ld xA (Rect.unit (s := S32x256x256) ![24, 0, 0] S1x256x256.size inb_S32x256x256_S1x256x256_24_0_0)) shapeCasts_S1x256x256_S256x256) bitsLt_bf16_f32) (constant S32x256 .f32 0x00000000#32)) (extractStridedSlice S32x256 ![0, 6400] (lhs0 l0 l3 l9) slices_S32x8192_o0_6400_S32x256) (constant S32x256 .f32 0x00000000#32) l5 = (matmul dot_S32x256_S256x256_S32x256_1_1_0_0_n_n none (extractStridedSlice S32x256 ![0, 256] (h0 l0 xA l3 l5 l9) slices_S32x8192_o0_256_S32x256) (truncf .bf16 (shapeCast S256x256 (View.ld xA (Rect.unit (s := S32x256x256) ![1, 0, 0] S1x256x256.size inb_S32x256x256_S1x256x256_1_0_0)) shapeCasts_S1x256x256_S256x256) bitsLt_bf16_f32) (constant S32x256 .f32 0x00000000#32)) := rfl
theorem e80 : k0_pay80 (m1b0 l9) (m2w0 l9) (m2b0 l9) (truncf .bf16 (shapeCast S256x256 (View.ld xA (Rect.unit (s := S32x256x256) ![2, 0, 0] S1x256x256.size inb_S32x256x256_S1x256x256_2_0_0)) shapeCasts_S1x256x256_S256x256) bitsLt_bf16_f32) (truncf .bf16 (shapeCast S256x256 (View.ld xA (Rect.unit (s := S32x256x256) ![25, 0, 0] S1x256x256.size inb_S32x256x256_S1x256x256_25_0_0)) shapeCasts_S1x256x256_S256x256) bitsLt_bf16_f32) (truncf .bf16 (shapeCast S256x256 (View.ld xA (Rect.unit (s := S32x256x256) ![26, 0, 0] S1x256x256.size inb_S32x256x256_S1x256x256_26_0_0)) shapeCasts_S1x256x256_S256x256) bitsLt_bf16_f32) (truncf .bf16 (shapeCast S256x256 (View.ld xA (Rect.unit (s := S32x256x256) ![27, 0, 0] S1x256x256.size inb_S32x256x256_S1x256x256_27_0_0)) shapeCasts_S1x256x256_S256x256) bitsLt_bf16_f32) (truncf .bf16 (shapeCast S256x256 (View.ld xA (Rect.unit (s := S32x256x256) ![28, 0, 0] S1x256x256.size inb_S32x256x256_S1x256x256_28_0_0)) shapeCasts_S1x256x256_S256x256) bitsLt_bf16_f32) (truncf .bf16 (shapeCast S256x256 (View.ld xA (Rect.unit (s := S32x256x256) ![29, 0, 0] S1x256x256.size inb_S32x256x256_S1x256x256_29_0_0)) shapeCasts_S1x256x256_S256x256) bitsLt_bf16_f32) (truncf .bf16 (shapeCast S256x256 (View.ld xA (Rect.unit (s := S32x256x256) ![30, 0, 0] S1x256x256.size inb_S32x256x256_S1x256x256_30_0_0)) shapeCasts_S1x256x256_S256x256) bitsLt_bf16_f32) (truncf .bf16 (shapeCast S256x256 (View.ld xA (Rect.unit (s := S32x256x256) ![31, 0, 0] S1x256x256.size inb_S32x256x256_S1x256x256_31_0_0)) shapeCasts_S1x256x256_S256x256) bitsLt_bf16_f32) (full0 l0 l3) (hl0 l0 l3 l9) (lhs0 l0 l3 l9) (matmul dot_S32x256_S256x256_S32x256_1_1_0_0_n_n none (extractStridedSlice S32x256 ![0, 0] (lhs0 l0 l3 l9) slices_S32x8192_o0_0_S32x256) (truncf .bf16 (shapeCast S256x256 (View.ld xA (Rect.unit (s := S32x256x256) ![0, 0, 0] S1x256x256.size inb_S32x256x256_S1x256x256_0_0_0)) shapeCasts_S1x256x256_S256x256) bitsLt_bf16_f32) (constant S32x256 .f32 0x00000000#32)) (matmul dot_S32x256_S256x256_S32x256_1_1_0_0_n_n none (extractStridedSlice S32x256 ![0, 256] (lhs0 l0 l3 l9) slices_S32x8192_o0_256_S32x256) (truncf .bf16 (shapeCast S256x256 (View.ld xA (Rect.unit (s := S32x256x256) ![1, 0, 0] S1x256x256.size inb_S32x256x256_S1x256x256_1_0_0)) shapeCasts_S1x256x256_S256x256) bitsLt_bf16_f32) (constant S32x256 .f32 0x00000000#32)) (matmul dot_S32x256_S256x256_S32x256_1_1_0_0_n_n none (extractStridedSlice S32x256 ![0, 512] (lhs0 l0 l3 l9) slices_S32x8192_o0_512_S32x256) (truncf .bf16 (shapeCast S256x256 (View.ld xA (Rect.unit (s := S32x256x256) ![2, 0, 0] S1x256x256.size inb_S32x256x256_S1x256x256_2_0_0)) shapeCasts_S1x256x256_S256x256) bitsLt_bf16_f32) (constant S32x256 .f32 0x00000000#32)) (matmul dot_S32x256_S256x256_S32x256_1_1_0_0_n_n none (extractStridedSlice S32x256 ![0, 768] (lhs0 l0 l3 l9) slices_S32x8192_o0_768_S32x256) (truncf .bf16 (shapeCast S256x256 (View.ld xA (Rect.unit (s := S32x256x256) ![3, 0, 0] S1x256x256.size inb_S32x256x256_S1x256x256_3_0_0)) shapeCasts_S1x256x256_S256x256) bitsLt_bf16_f32) (constant S32x256 .f32 0x00000000#32)) (matmul dot_S32x256_S256x256_S32x256_1_1_0_0_n_n none (extractStridedSlice S32x256 ![0, 1024] (lhs0 l0 l3 l9) slices_S32x8192_o0_1024_S32x256) (truncf .bf16 (shapeCast S256x256 (View.ld xA (Rect.unit (s := S32x256x256) ![4, 0, 0] S1x256x256.size inb_S32x256x256_S1x256x256_4_0_0)) shapeCasts_S1x256x256_S256x256) bitsLt_bf16_f32) (constant S32x256 .f32 0x00000000#32)) (matmul dot_S32x256_S256x256_S32x256_1_1_0_0_n_n none (extractStridedSlice S32x256 ![0, 1280] (lhs0 l0 l3 l9) slices_S32x8192_o0_1280_S32x256) (truncf .bf16 (shapeCast S256x256 (View.ld xA (Rect.unit (s := S32x256x256) ![5, 0, 0] S1x256x256.size inb_S32x256x256_S1x256x256_5_0_0)) shapeCasts_S1x256x256_S256x256) bitsLt_bf16_f32) (constant S32x256 .f32 0x00000000#32)) (matmul dot_S32x256_S256x256_S32x256_1_1_0_0_n_n none (extractStridedSlice S32x256 ![0, 1536] (lhs0 l0 l3 l9) slices_S32x8192_o0_1536_S32x256) (truncf .bf16 (shapeCast S256x256 (View.ld xA (Rect.unit (s := S32x256x256) ![6, 0, 0] S1x256x256.size inb_S32x256x256_S1x256x256_6_0_0)) shapeCasts_S1x256x256_S256x256) bitsLt_bf16_f32) (constant S32x256 .f32 0x00000000#32)) (matmul dot_S32x256_S256x256_S32x256_1_1_0_0_n_n none (extractStridedSlice S32x256 ![0, 1792] (lhs0 l0 l3 l9) slices_S32x8192_o0_1792_S32x256) (truncf .bf16 (shapeCast S256x256 (View.ld xA (Rect.unit (s := S32x256x256) ![7, 0, 0] S1x256x256.size inb_S32x256x256_S1x256x256_7_0_0)) shapeCasts_S1x256x256_S256x256) bitsLt_bf16_f32) (constant S32x256 .f32 0x00000000#32)) (matmul dot_S32x256_S256x256_S32x256_1_1_0_0_n_n none (extractStridedSlice S32x256 ![0, 2048] (lhs0 l0 l3 l9) slices_S32x8192_o0_2048_S32x256) (truncf .bf16 (shapeCast S256x256 (View.ld xA (Rect.unit (s := S32x256x256) ![8, 0, 0] S1x256x256.size inb_S32x256x256_S1x256x256_8_0_0)) shapeCasts_S1x256x256_S256x256) bitsLt_bf16_f32) (constant S32x256 .f32 0x00000000#32)) (matmul dot_S32x256_S256x256_S32x256_1_1_0_0_n_n none (extractStridedSlice S32x256 ![0, 2304] (lhs0 l0 l3 l9) slices_S32x8192_o0_2304_S32x256) (truncf .bf16 (shapeCast S256x256 (View.ld xA (Rect.unit (s := S32x256x256) ![9, 0, 0] S1x256x256.size inb_S32x256x256_S1x256x256_9_0_0)) shapeCasts_S1x256x256_S256x256) bitsLt_bf16_f32) (constant S32x256 .f32 0x00000000#32)) (matmul dot_S32x256_S256x256_S32x256_1_1_0_0_n_n none (extractStridedSlice S32x256 ![0, 2560] (lhs0 l0 l3 l9) slices_S32x8192_o0_2560_S32x256) (truncf .bf16 (shapeCast S256x256 (View.ld xA (Rect.unit (s := S32x256x256) ![10, 0, 0] S1x256x256.size inb_S32x256x256_S1x256x256_10_0_0)) shapeCasts_S1x256x256_S256x256) bitsLt_bf16_f32) (constant S32x256 .f32 0x00000000#32)) (matmul dot_S32x256_S256x256_S32x256_1_1_0_0_n_n none (extractStridedSlice S32x256 ![0, 2816] (lhs0 l0 l3 l9) slices_S32x8192_o0_2816_S32x256) (truncf .bf16 (shapeCast S256x256 (View.ld xA (Rect.unit (s := S32x256x256) ![11, 0, 0] S1x256x256.size inb_S32x256x256_S1x256x256_11_0_0)) shapeCasts_S1x256x256_S256x256) bitsLt_bf16_f32) (constant S32x256 .f32 0x00000000#32)) (matmul dot_S32x256_S256x256_S32x256_1_1_0_0_n_n none (extractStridedSlice S32x256 ![0, 3072] (lhs0 l0 l3 l9) slices_S32x8192_o0_3072_S32x256) (truncf .bf16 (shapeCast S256x256 (View.ld xA (Rect.unit (s := S32x256x256) ![12, 0, 0] S1x256x256.size inb_S32x256x256_S1x256x256_12_0_0)) shapeCasts_S1x256x256_S256x256) bitsLt_bf16_f32) (constant S32x256 .f32 0x00000000#32)) (matmul dot_S32x256_S256x256_S32x256_1_1_0_0_n_n none (extractStridedSlice S32x256 ![0, 3328] (lhs0 l0 l3 l9) slices_S32x8192_o0_3328_S32x256) (truncf .bf16 (shapeCast S256x256 (View.ld xA (Rect.unit (s := S32x256x256) ![13, 0, 0] S1x256x256.size inb_S32x256x256_S1x256x256_13_0_0)) shapeCasts_S1x256x256_S256x256) bitsLt_bf16_f32) (constant S32x256 .f32 0x00000000#32)) (matmul dot_S32x256_S256x256_S32x256_1_1_0_0_n_n none (extractStridedSlice S32x256 ![0, 3584] (lhs0 l0 l3 l9) slices_S32x8192_o0_3584_S32x256) (truncf .bf16 (shapeCast S256x256 (View.ld xA (Rect.unit (s := S32x256x256) ![14, 0, 0] S1x256x256.size inb_S32x256x256_S1x256x256_14_0_0)) shapeCasts_S1x256x256_S256x256) bitsLt_bf16_f32) (constant S32x256 .f32 0x00000000#32)) (matmul dot_S32x256_S256x256_S32x256_1_1_0_0_n_n none (extractStridedSlice S32x256 ![0, 3840] (lhs0 l0 l3 l9) slices_S32x8192_o0_3840_S32x256) (truncf .bf16 (shapeCast S256x256 (View.ld xA (Rect.unit (s := S32x256x256) ![15, 0, 0] S1x256x256.size inb_S32x256x256_S1x256x256_15_0_0)) shapeCasts_S1x256x256_S256x256) bitsLt_bf16_f32) (constant S32x256 .f32 0x00000000#32)) (matmul dot_S32x256_S256x256_S32x256_1_1_0_0_n_n none (extractStridedSlice S32x256 ![0, 4096] (lhs0 l0 l3 l9) slices_S32x8192_o0_4096_S32x256) (truncf .bf16 (shapeCast S256x256 (View.ld xA (Rect.unit (s := S32x256x256) ![16, 0, 0] S1x256x256.size inb_S32x256x256_S1x256x256_16_0_0)) shapeCasts_S1x256x256_S256x256) bitsLt_bf16_f32) (constant S32x256 .f32 0x00000000#32)) (matmul dot_S32x256_S256x256_S32x256_1_1_0_0_n_n none (extractStridedSlice S32x256 ![0, 4352] (lhs0 l0 l3 l9) slices_S32x8192_o0_4352_S32x256) (truncf .bf16 (shapeCast S256x256 (View.ld xA (Rect.unit (s := S32x256x256) ![17, 0, 0] S1x256x256.size inb_S32x256x256_S1x256x256_17_0_0)) shapeCasts_S1x256x256_S256x256) bitsLt_bf16_f32) (constant S32x256 .f32 0x00000000#32)) (matmul dot_S32x256_S256x256_S32x256_1_1_0_0_n_n none (extractStridedSlice S32x256 ![0, 4608] (lhs0 l0 l3 l9) slices_S32x8192_o0_4608_S32x256) (truncf .bf16 (shapeCast S256x256 (View.ld xA (Rect.unit (s := S32x256x256) ![18, 0, 0] S1x256x256.size inb_S32x256x256_S1x256x256_18_0_0)) shapeCasts_S1x256x256_S256x256) bitsLt_bf16_f32) (constant S32x256 .f32 0x00000000#32)) (matmul dot_S32x256_S256x256_S32x256_1_1_0_0_n_n none (extractStridedSlice S32x256 ![0, 4864] (lhs0 l0 l3 l9) slices_S32x8192_o0_4864_S32x256) (truncf .bf16 (shapeCast S256x256 (View.ld xA (Rect.unit (s := S32x256x256) ![19, 0, 0] S1x256x256.size inb_S32x256x256_S1x256x256_19_0_0)) shapeCasts_S1x256x256_S256x256) bitsLt_bf16_f32) (constant S32x256 .f32 0x00000000#32)) (matmul dot_S32x256_S256x256_S32x256_1_1_0_0_n_n none (extractStridedSlice S32x256 ![0, 5120] (lhs0 l0 l3 l9) slices_S32x8192_o0_5120_S32x256) (truncf .bf16 (shapeCast S256x256 (View.ld xA (Rect.unit (s := S32x256x256) ![20, 0, 0] S1x256x256.size inb_S32x256x256_S1x256x256_20_0_0)) shapeCasts_S1x256x256_S256x256) bitsLt_bf16_f32) (constant S32x256 .f32 0x00000000#32)) (matmul dot_S32x256_S256x256_S32x256_1_1_0_0_n_n none (extractStridedSlice S32x256 ![0, 5376] (lhs0 l0 l3 l9) slices_S32x8192_o0_5376_S32x256) (truncf .bf16 (shapeCast S256x256 (View.ld xA (Rect.unit (s := S32x256x256) ![21, 0, 0] S1x256x256.size inb_S32x256x256_S1x256x256_21_0_0)) shapeCasts_S1x256x256_S256x256) bitsLt_bf16_f32) (constant S32x256 .f32 0x00000000#32)) (matmul dot_S32x256_S256x256_S32x256_1_1_0_0_n_n none (extractStridedSlice S32x256 ![0, 5632] (lhs0 l0 l3 l9) slices_S32x8192_o0_5632_S32x256) (truncf .bf16 (shapeCast S256x256 (View.ld xA (Rect.unit (s := S32x256x256) ![22, 0, 0] S1x256x256.size inb_S32x256x256_S1x256x256_22_0_0)) shapeCasts_S1x256x256_S256x256) bitsLt_bf16_f32) (constant S32x256 .f32 0x00000000#32)) (matmul dot_S32x256_S256x256_S32x256_1_1_0_0_n_n none (extractStridedSlice S32x256 ![0, 5888] (lhs0 l0 l3 l9) slices_S32x8192_o0_5888_S32x256) (truncf .bf16 (shapeCast S256x256 (View.ld xA (Rect.unit (s := S32x256x256) ![23, 0, 0] S1x256x256.size inb_S32x256x256_S1x256x256_23_0_0)) shapeCasts_S1x256x256_S256x256) bitsLt_bf16_f32) (constant S32x256 .f32 0x00000000#32)) (matmul dot_S32x256_S256x256_S32x256_1_1_0_0_n_n none (extractStridedSlice S32x256 ![0, 6144] (lhs0 l0 l3 l9) slices_S32x8192_o0_6144_S32x256) (truncf .bf16 (shapeCast S256x256 (View.ld xA (Rect.unit (s := S32x256x256) ![24, 0, 0] S1x256x256.size inb_S32x256x256_S1x256x256_24_0_0)) shapeCasts_S1x256x256_S256x256) bitsLt_bf16_f32) (constant S32x256 .f32 0x00000000#32)) (extractStridedSlice S32x256 ![0, 6400] (lhs0 l0 l3 l9) slices_S32x8192_o0_6400_S32x256) (constant S32x256 .f32 0x00000000#32) l5 = (matmul dot_S32x256_S256x256_S32x256_1_1_0_0_n_n none (extractStridedSlice S32x256 ![0, 512] (h0 l0 xA l3 l5 l9) slices_S32x8192_o0_512_S32x256) (truncf .bf16 (shapeCast S256x256 (View.ld xA (Rect.unit (s := S32x256x256) ![2, 0, 0] S1x256x256.size inb_S32x256x256_S1x256x256_2_0_0)) shapeCasts_S1x256x256_S256x256) bitsLt_bf16_f32) (constant S32x256 .f32 0x00000000#32)) := rfl
theorem e81 : k0_pay81 (m1b0 l9) (m2w0 l9) (m2b0 l9) (truncf .bf16 (shapeCast S256x256 (View.ld xA (Rect.unit (s := S32x256x256) ![3, 0, 0] S1x256x256.size inb_S32x256x256_S1x256x256_3_0_0)) shapeCasts_S1x256x256_S256x256) bitsLt_bf16_f32) (truncf .bf16 (shapeCast S256x256 (View.ld xA (Rect.unit (s := S32x256x256) ![25, 0, 0] S1x256x256.size inb_S32x256x256_S1x256x256_25_0_0)) shapeCasts_S1x256x256_S256x256) bitsLt_bf16_f32) (truncf .bf16 (shapeCast S256x256 (View.ld xA (Rect.unit (s := S32x256x256) ![26, 0, 0] S1x256x256.size inb_S32x256x256_S1x256x256_26_0_0)) shapeCasts_S1x256x256_S256x256) bitsLt_bf16_f32) (truncf .bf16 (shapeCast S256x256 (View.ld xA (Rect.unit (s := S32x256x256) ![27, 0, 0] S1x256x256.size inb_S32x256x256_S1x256x256_27_0_0)) shapeCasts_S1x256x256_S256x256) bitsLt_bf16_f32) (truncf .bf16 (shapeCast S256x256 (View.ld xA (Rect.unit (s := S32x256x256) ![28, 0, 0] S1x256x256.size inb_S32x256x256_S1x256x256_28_0_0)) shapeCasts_S1x256x256_S256x256) bitsLt_bf16_f32) (truncf .bf16 (shapeCast S256x256 (View.ld xA (Rect.unit (s := S32x256x256) ![29, 0, 0] S1x256x256.size inb_S32x256x256_S1x256x256_29_0_0)) shapeCasts_S1x256x256_S256x256) bitsLt_bf16_f32) (truncf .bf16 (shapeCast S256x256 (View.ld xA (Rect.unit (s := S32x256x256) ![30, 0, 0] S1x256x256.size inb_S32x256x256_S1x256x256_30_0_0)) shapeCasts_S1x256x256_S256x256) bitsLt_bf16_f32) (truncf .bf16 (shapeCast S256x256 (View.ld xA (Rect.unit (s := S32x256x256) ![31, 0, 0] S1x256x256.size inb_S32x256x256_S1x256x256_31_0_0)) shapeCasts_S1x256x256_S256x256) bitsLt_bf16_f32) (full0 l0 l3) (hl0 l0 l3 l9) (lhs0 l0 l3 l9) (matmul dot_S32x256_S256x256_S32x256_1_1_0_0_n_n none (extractStridedSlice S32x256 ![0, 0] (lhs0 l0 l3 l9) slices_S32x8192_o0_0_S32x256) (truncf .bf16 (shapeCast S256x256 (View.ld xA (Rect.unit (s := S32x256x256) ![0, 0, 0] S1x256x256.size inb_S32x256x256_S1x256x256_0_0_0)) shapeCasts_S1x256x256_S256x256) bitsLt_bf16_f32) (constant S32x256 .f32 0x00000000#32)) (matmul dot_S32x256_S256x256_S32x256_1_1_0_0_n_n none (extractStridedSlice S32x256 ![0, 256] (lhs0 l0 l3 l9) slices_S32x8192_o0_256_S32x256) (truncf .bf16 (shapeCast S256x256 (View.ld xA (Rect.unit (s := S32x256x256) ![1, 0, 0] S1x256x256.size inb_S32x256x256_S1x256x256_1_0_0)) shapeCasts_S1x256x256_S256x256) bitsLt_bf16_f32) (constant S32x256 .f32 0x00000000#32)) (matmul dot_S32x256_S256x256_S32x256_1_1_0_0_n_n none (extractStridedSlice S32x256 ![0, 512] (lhs0 l0 l3 l9) slices_S32x8192_o0_512_S32x256) (truncf .bf16 (shapeCast S256x256 (View.ld xA (Rect.unit (s := S32x256x256) ![2, 0, 0] S1x256x256.size inb_S32x256x256_S1x256x256_2_0_0)) shapeCasts_S1x256x256_S256x256) bitsLt_bf16_f32) (constant S32x256 .f32 0x00000000#32)) (matmul dot_S32x256_S256x256_S32x256_1_1_0_0_n_n none (extractStridedSlice S32x256 ![0, 768] (lhs0 l0 l3 l9) slices_S32x8192_o0_768_S32x256) (truncf .bf16 (shapeCast S256x256 (View.ld xA (Rect.unit (s := S32x256x256) ![3, 0, 0] S1x256x256.size inb_S32x256x256_S1x256x256_3_0_0)) shapeCasts_S1x256x256_S256x256) bitsLt_bf16_f32) (constant S32x256 .f32 0x00000000#32)) (matmul dot_S32x256_S256x256_S32x256_1_1_0_0_n_n none (extractStridedSlice S32x256 ![0, 1024] (lhs0 l0 l3 l9) slices_S32x8192_o0_1024_S32x256) (truncf .bf16 (shapeCast S256x256 (View.ld xA (Rect.unit (s := S32x256x256) ![4, 0, 0] S1x256x256.size inb_S32x256x256_S1x256x256_4_0_0)) shapeCasts_S1x256x256_S256x256) bitsLt_bf16_f32) (constant S32x256 .f32 0x00000000#32)) (matmul dot_S32x256_S256x256_S32x256_1_1_0_0_n_n none (extractStridedSlice S32x256 ![0, 1280] (lhs0 l0 l3 l9) slices_S32x8192_o0_1280_S32x256) (truncf .bf16 (shapeCast S256x256 (View.ld xA (Rect.unit (s := S32x256x256) ![5, 0, 0] S1x256x256.size inb_S32x256x256_S1x256x256_5_0_0)) shapeCasts_S1x256x256_S256x256) bitsLt_bf16_f32) (constant S32x256 .f32 0x00000000#32)) (matmul dot_S32x256_S256x256_S32x256_1_1_0_0_n_n none (extractStridedSlice S32x256 ![0, 1536] (lhs0 l0 l3 l9) slices_S32x8192_o0_1536_S32x256) (truncf .bf16 (shapeCast S256x256 (View.ld xA (Rect.unit (s := S32x256x256) ![6, 0, 0] S1x256x256.size inb_S32x256x256_S1x256x256_6_0_0)) shapeCasts_S1x256x256_S256x256) bitsLt_bf16_f32) (constant S32x256 .f32 0x00000000#32)) (matmul dot_S32x256_S256x256_S32x256_1_1_0_0_n_n none (extractStridedSlice S32x256 ![0, 1792] (lhs0 l0 l3 l9) slices_S32x8192_o0_1792_S32x256) (truncf .bf16 (shapeCast S256x256 (View.ld xA (Rect.unit (s := S32x256x256) ![7, 0, 0] S1x256x256.size inb_S32x256x256_S1x256x256_7_0_0)) shapeCasts_S1x256x256_S256x256) bitsLt_bf16_f32) (constant S32x256 .f32 0x00000000#32)) (matmul dot_S32x256_S256x256_S32x256_1_1_0_0_n_n none (extractStridedSlice S32x256 ![0, 2048] (lhs0 l0 l3 l9) slices_S32x8192_o0_2048_S32x256) (truncf .bf16 (shapeCast S256x256 (View.ld xA (Rect.unit (s := S32x256x256) ![8, 0, 0] S1x256x256.size inb_S32x256x256_S1x256x256_8_0_0)) shapeCasts_S1x256x256_S256x256) bitsLt_bf16_f32) (constant S32x256 .f32 0x00000000#32)) (matmul dot_S32x256_S256x256_S32x256_1_1_0_0_n_n none (extractStridedSlice S32x256 ![0, 2304] (lhs0 l0 l3 l9) slices_S32x8192_o0_2304_S32x256) (truncf .bf16 (shapeCast S256x256 (View.ld xA (Rect.unit (s := S32x256x256) ![9, 0, 0] S1x256x256.size inb_S32x256x256_S1x256x256_9_0_0)) shapeCasts_S1x256x256_S256x256) bitsLt_bf16_f32) (constant S32x256 .f32 0x00000000#32)) (matmul dot_S32x256_S256x256_S32x256_1_1_0_0_n_n none (extractStridedSlice S32x256 ![0, 2560] (lhs0 l0 l3 l9) slices_S32x8192_o0_2560_S32x256) (truncf .bf16 (shapeCast S256x256 (View.ld xA (Rect.unit (s := S32x256x256) ![10, 0, 0] S1x256x256.size inb_S32x256x256_S1x256x256_10_0_0)) shapeCasts_S1x256x256_S256x256) bitsLt_bf16_f32) (constant S32x256 .f32 0x00000000#32)) (matmul dot_S32x256_S256x256_S32x256_1_1_0_0_n_n none (extractStridedSlice S32x256 ![0, 2816] (lhs0 l0 l3 l9) slices_S32x8192_o0_2816_S32x256) (truncf .bf16 (shapeCast S256x256 (View.ld xA (Rect.unit (s := S32x256x256) ![11, 0, 0] S1x256x256.size inb_S32x256x256_S1x256x256_11_0_0)) shapeCasts_S1x256x256_S256x256) bitsLt_bf16_f32) (constant S32x256 .f32 0x00000000#32)) (matmul dot_S32x256_S256x256_S32x256_1_1_0_0_n_n none (extractStridedSlice S32x256 ![0, 3072] (lhs0 l0 l3 l9) slices_S32x8192_o0_3072_S32x256) (truncf .bf16 (shapeCast S256x256 (View.ld xA (Rect.unit (s := S32x256x256) ![12, 0, 0] S1x256x256.size inb_S32x256x256_S1x256x256_12_0_0)) shapeCasts_S1x256x256_S256x256) bitsLt_bf16_f32) (constant S32x256 .f32 0x00000000#32)) (matmul dot_S32x256_S256x256_S32x256_1_1_0_0_n_n none (extractStridedSlice S32x256 ![0, 3328] (lhs0 l0 l3 l9) slices_S32x8192_o0_3328_S32x256) (truncf .bf16 (shapeCast S256x256 (View.ld xA (Rect.unit (s := S32x256x256) ![13, 0, 0] S1x256x256.size inb_S32x256x256_S1x256x256_13_0_0)) shapeCasts_S1x256x256_S256x256) bitsLt_bf16_f32) (constant S32x256 .f32 0x00000000#32)) (matmul dot_S32x256_S256x256_S32x256_1_1_0_0_n_n none (extractStridedSlice S32x256 ![0, 3584] (lhs0 l0 l3 l9) slices_S32x8192_o0_3584_S32x256) (truncf .bf16 (shapeCast S256x256 (View.ld xA (Rect.unit (s := S32x256x256) ![14, 0, 0] S1x256x256.size inb_S32x256x256_S1x256x256_14_0_0)) shapeCasts_S1x256x256_S256x256) bitsLt_bf16_f32) (constant S32x256 .f32 0x00000000#32)) (matmul dot_S32x256_S256x256_S32x256_1_1_0_0_n_n none (extractStridedSlice S32x256 ![0, 3840] (lhs0 l0 l3 l9) slices_S32x8192_o0_3840_S32x256) (truncf .bf16 (shapeCast S256x256 (View.ld xA (Rect.unit (s := S32x256x256) ![15, 0, 0] S1x256x256.size inb_S32x256x256_S1x256x256_15_0_0)) shapeCasts_S1x256x256_S256x256) bitsLt_bf16_f32) (constant S32x256 .f32 0x00000000#32)) (matmul dot_S32x256_S256x256_S32x256_1_1_0_0_n_n none (extractStridedSlice S32x256 ![0, 4096] (lhs0 l0 l3 l9) slices_S32x8192_o0_4096_S32x256) (truncf .bf16 (shapeCast S256x256 (View.ld xA (Rect.unit (s := S32x256x256) ![16, 0, 0] S1x256x256.size inb_S32x256x256_S1x256x256_16_0_0)) shapeCasts_S1x256x256_S256x256) bitsLt_bf16_f32) (constant S32x256 .f32 0x00000000#32)) (matmul dot_S32x256_S256x256_S32x256_1_1_0_0_n_n none (extractStridedSlice S32x256 ![0, 4352] (lhs0 l0 l3 l9) slices_S32x8192_o0_4352_S32x256) (truncf .bf16 (shapeCast S256x256 (View.ld xA (Rect.unit (s := S32x256x256) ![17, 0, 0] S1x256x256.size inb_S32x256x256_S1x256x256_17_0_0)) shapeCasts_S1x256x256_S256x256) bitsLt_bf16_f32) (constant S32x256 .f32 0x00000000#32)) (matmul dot_S32x256_S256x256_S32x256_1_1_0_0_n_n none (extractStridedSlice S32x256 ![0, 4608] (lhs0 l0 l3 l9) slices_S32x8192_o0_4608_S32x256) (truncf .bf16 (shapeCast S256x256 (View.ld xA (Rect.unit (s := S32x256x256) ![18, 0, 0] S1x256x256.size inb_S32x256x256_S1x256x256_18_0_0)) shapeCasts_S1x256x256_S256x256) bitsLt_bf16_f32) (constant S32x256 .f32 0x00000000#32)) (matmul dot_S32x256_S256x256_S32x256_1_1_0_0_n_n none (extractStridedSlice S32x256 ![0, 4864] (lhs0 l0 l3 l9) slices_S32x8192_o0_4864_S32x256) (truncf .bf16 (shapeCast S256x256 (View.ld xA (Rect.unit (s := S32x256x256) ![19, 0, 0] S1x256x256.size inb_S32x256x256_S1x256x256_19_0_0)) shapeCasts_S1x256x256_S256x256) bitsLt_bf16_f32) (constant S32x256 .f32 0x00000000#32)) (matmul dot_S32x256_S256x256_S32x256_1_1_0_0_n_n none (extractStridedSlice S32x256 ![0, 5120] (lhs0 l0 l3 l9) slices_S32x8192_o0_5120_S32x256) (truncf .bf16 (shapeCast S256x256 (View.ld xA (Rect.unit (s := S32x256x256) ![20, 0, 0] S1x256x256.size inb_S32x256x256_S1x256x256_20_0_0)) shapeCasts_S1x256x256_S256x256) bitsLt_bf16_f32) (constant S32x256 .f32 0x00000000#32)) (matmul dot_S32x256_S256x256_S32x256_1_1_0_0_n_n none (extractStridedSlice S32x256 ![0, 5376] (lhs0 l0 l3 l9) slices_S32x8192_o0_5376_S32x256) (truncf .bf16 (shapeCast S256x256 (View.ld xA (Rect.unit (s := S32x256x256) ![21, 0, 0] S1x256x256.size inb_S32x256x256_S1x256x256_21_0_0)) shapeCasts_S1x256x256_S256x256) bitsLt_bf16_f32) (constant S32x256 .f32 0x00000000#32)) (matmul dot_S32x256_S256x256_S32x256_1_1_0_0_n_n none (extractStridedSlice S32x256 ![0, 5632] (lhs0 l0 l3 l9) slices_S32x8192_o0_5632_S32x256) (truncf .bf16 (shapeCast S256x256 (View.ld xA (Rect.unit (s := S32x256x256) ![22, 0, 0] S1x256x256.size inb_S32x256x256_S1x256x256_22_0_0)) shapeCasts_S1x256x256_S256x256) bitsLt_bf16_f32) (constant S32x256 .f32 0x00000000#32)) (matmul dot_S32x256_S256x256_S32x256_1_1_0_0_n_n none (extractStridedSlice S32x256 ![0, 5888] (lhs0 l0 l3 l9) slices_S32x8192_o0_5888_S32x256) (truncf .bf16 (shapeCast S256x256 (View.ld xA (Rect.unit (s := S32x256x256) ![23, 0, 0] S1x256x256.size inb_S32x256x256_S1x256x256_23_0_0)) shapeCasts_S1x256x256_S256x256) bitsLt_bf16_f32) (constant S32x256 .f32 0x00000000#32)) (matmul dot_S32x256_S256x256_S32x256_1_1_0_0_n_n none (extractStridedSlice S32x256 ![0, 6144] (lhs0 l0 l3 l9) slices_S32x8192_o0_6144_S32x256) (truncf .bf16 (shapeCast S256x256 (View.ld xA (Rect.unit (s := S32x256x256) ![24, 0, 0] S1x256x256.size inb_S32x256x256_S1x256x256_24_0_0)) shapeCasts_S1x256x256_S256x256) bitsLt_bf16_f32) (constant S32x256 .f32 0x00000000#32)) (extractStridedSlice S32x256 ![0, 6400] (lhs0 l0 l3 l9) slices_S32x8192_o0_6400_S32x256) (constant S32x256 .f32 0x00000000#32) l5 = (matmul dot_S32x256_S256x256_S32x256_1_1_0_0_n_n none (extractStridedSlice S32x256 ![0, 768] (h0 l0 xA l3 l5 l9) slices_S32x8192_o0_768_S32x256) (truncf .bf16 (shapeCast S256x256 (View.ld xA (Rect.unit (s := S32x256x256) ![3, 0, 0] S1x256x256.size inb_S32x256x256_S1x256x256_3_0_0)) shapeCasts_S1x256x256_S256x256) bitsLt_bf16_f32) (constant S32x256 .f32 0x00000000#32)) := rfl
theorem e82 : k0_pay82 (truncf .bf16 (shapeCast S256x256 (View.ld xA (Rect.unit (s := S32x256x256) ![4, 0, 0] S1x256x256.size inb_S32x256x256_S1x256x256_4_0_0)) shapeCasts_S1x256x256_S256x256) bitsLt_bf16_f32) (h0 l0 xA l3 l5 l9) = (matmul dot_S32x256_S256x256_S32x256_1_1_0_0_n_n none (extractStridedSlice S32x256 ![0, 1024] (h0 l0 xA l3 l5 l9) slices_S32x8192_o0_1024_S32x256) (truncf .bf16 (shapeCast S256x256 (View.ld xA (Rect.unit (s := S32x256x256) ![4, 0, 0] S1x256x256.size inb_S32x256x256_S1x256x256_4_0_0)) shapeCasts_S1x256x256_S256x256) bitsLt_bf16_f32) (constant S32x256 .f32 0x00000000#32)) := rfl
theorem e83 : k0_pay83 (truncf .bf16 (shapeCast S256x256 (View.ld xA (Rect.unit (s := S32x256x256) ![5, 0, 0] S1x256x256.size inb_S32x256x256_S1x256x256_5_0_0)) shapeCasts_S1x256x256_S256x256) bitsLt_bf16_f32) (h0 l0 xA l3 l5 l9) = (matmul dot_S32x256_S256x256_S32x256_1_1_0_0_n_n none (extractStridedSlice S32x256 ![0, 1280] (h0 l0 xA l3 l5 l9) slices_S32x8192_o0_1280_S32x256) (truncf .bf16 (shapeCast S256x256 (View.ld xA (Rect.unit (s := S32x256x256) ![5, 0, 0] S1x256x256.size inb_S32x256x256_S1x256x256_5_0_0)) shapeCasts_S1x256x256_S256x256) bitsLt_bf16_f32) (constant S32x256 .f32 0x00000000#32)) := rfl
theorem e84 : k0_pay84 (truncf .bf16 (shapeCast S256x256 (View.ld xA (Rect.unit (s := S32x256x256) ![6, 0, 0] S1x256x256.size inb_S32x256x256_S1x256x256_6_0_0)) shapeCasts_S1x256x256_S256x256) bitsLt_bf16_f32) (h0 l0 xA l3 l5 l9) = (matmul dot_S32x256_S256x256_S32x256_1_1_0_0_n_n none (extractStridedSlice S32x256 ![0, 1536] (h0 l0 xA l3 l5 l9) slices_S32x8192_o0_1536_S32x256) (truncf .bf16 (shapeCast S256x256 (View.ld xA (Rect.unit (s := S32x256x256) ![6, 0, 0] S1x256x256.size inb_S32x256x256_S1x256x256_6_0_0)) shapeCasts_S1x256x256_S256x256) bitsLt_bf16_f32) (constant S32x256 .f32 0x00000000#32)) := rfl
theorem e85 : k0_pay85 (truncf .bf16 (shapeCast S256x256 (View.ld xA (Rect.unit (s := S32x256x256) ![7, 0, 0] S1x256x256.size inb_S32x256x256_S1x256x256_7_0_0)) shapeCasts_S1x256x256_S256x256) bitsLt_bf16_f32) (h0 l0 xA l3 l5 l9) = (matmul dot_S32x256_S256x256_S32x256_1_1_0_0_n_n none (extractStridedSlice S32x256 ![0, 1792] (h0 l0 xA l3 l5 l9) slices_S32x8192_o0_1792_S32x256) (truncf .bf16 (shapeCast S256x256 (View.ld xA (Rect.unit (s := S32x256x256) ![7, 0, 0] S1x256x256.size inb_S32x256x256_S1x256x256_7_0_0)) shapeCasts_S1x256x256_S256x256) bitsLt_bf16_f32) (constant S32x256 .f32 0x00000000#32)) := rfl
theorem e86 : k0_pay86 (truncf .bf16 (shapeCast S256x256 (View.ld xA (Rect.unit (s := S32x256x256) ![8, 0, 0] S1x256x256.size inb_S32x256x256_S1x256x256_8_0_0)) shapeCasts_S1x256x256_S256x256) bitsLt_bf16_f32) (h0 l0 xA l3 l5 l9) = (matmul dot_S32x256_S256x256_S32x256_1_1_0_0_n_n none (extractStridedSlice S32x256 ![0, 2048] (h0 l0 xA l3 l5 l9) slices_S32x8192_o0_2048_S32x256) (truncf .bf16 (shapeCast S256x256 (View.ld xA (Rect.unit (s := S32x256x256) ![8, 0, 0] S1x256x256.size inb_S32x256x256_S1x256x256_8_0_0)) shapeCasts_S1x256x256_S256x256) bitsLt_bf16_f32) (constant S32x256 .f32 0x00000000#32)) := rfl
theorem e87 : k0_pay87 (truncf .bf16 (shapeCast S256x256 (View.ld xA (Rect.unit (s := S32x256x256) ![9, 0, 0] S1x256x256.size inb_S32x256x256_S1x256x256_9_0_0)) shapeCasts_S1x256x256_S256x256) bitsLt_bf16_f32) (h0 l0 xA l3 l5 l9) = (matmul dot_S32x256_S256x256_S32x256_1_1_0_0_n_n none (extractStridedSlice S32x256 ![0, 2304] (h0 l0 xA l3 l5 l9) slices_S32x8192_o0_2304_S32x256) (truncf .bf16 (shapeCast S256x256 (View.ld xA (Rect.unit (s := S32x256x256) ![9, 0, 0] S1x256x256.size inb_S32x256x256_S1x256x256_9_0_0)) shapeCasts_S1x256x256_S256x256) bitsLt_bf16_f32) (constant S32x256 .f32 0x00000000#32)) := rfl
theorem e88 : k0_pay88 (truncf .bf16 (shapeCast S256x256 (View.ld xA (Rect.unit (s := S32x256x256) ![10, 0, 0] S1x256x256.size inb_S32x256x256_S1x256x256_10_0_0)) shapeCasts_S1x256x256_S256x256) bitsLt_bf16_f32) (h0 l0 xA l3 l5 l9) = (matmul dot_S32x256_S256x256_S32x256_1_1_0_0_n_n none (extractStridedSlice S32x256 ![0, 2560] (h0 l0 xA l3 l5 l9) slices_S32x8192_o0_2560_S32x256) (truncf .bf16 (shapeCast S256x256 (View.ld xA (Rect.unit (s := S32x256x256) ![10, 0, 0] S1x256x256.size inb_S32x256x256_S1x256x256_10_0_0)) shapeCasts_S1x256x256_S256x256) bitsLt_bf16_f32) (constant S32x256 .f32 0x00000000#32)) := rfl
theorem e89 : k0_pay89 (truncf .bf16 (shapeCast S256x256 (View.ld xA (Rect.unit (s := S32x256x256) ![11, 0, 0] S1x256x256.size inb_S32x256x256_S1x256x256_11_0_0)) shapeCasts_S1x256x256_S256x256) bitsLt_bf16_f32) (h0 l0 xA l3 l5 l9) = (matmul dot_S32x256_S256x256_S32x256_1_1_0_0_n_n none (extractStridedSlice S32x256 ![0, 2816] (h0 l0 xA l3 l5 l9) slices_S32x8192_o0_2816_S32x256) (truncf .bf16 (shapeCast S256x256 (View.ld xA (Rect.unit (s := S32x256x256) ![11, 0, 0] S1x256x256.size inb_S32x256x256_S1x256x256_11_0_0)) shapeCasts_S1x256x256_S256x256) bitsLt_bf16_f32) (constant S32x256 .f32 0x00000000#32)) := rfl
theorem e90 : k0_pay90 (truncf .bf16 (shapeCast S256x256 (View.ld xA (Rect.unit (s := S32x256x256) ![12, 0, 0] S1x256x256.size inb_S32x256x256_S1x256x256_12_0_0)) shapeCasts_S1x256x256_S256x256) bitsLt_bf16_f32) (h0 l0 xA l3 l5 l9) = (matmul dot_S32x256_S256x256_S32x256_1_1_0_0_n_n none (extractStridedSlice S32x256 ![0, 3072] (h0 l0 xA l3 l5 l9) slices_S32x8192_o0_3072_S32x256) (truncf .bf16 (shapeCast S256x256 (View.ld xA (Rect.unit (s := S32x256x256) ![12, 0, 0] S1x256x256.size inb_S32x256x256_S1x256x256_12_0_0)) shapeCasts_S1x256x256_S256x256) bitsLt_bf16_f32) (constant S32x256 .f32 0x00000000#32)) := rfl
theorem e91 : k0_pay91 (truncf .bf16 (shapeCast S256x256 (View.ld xA (Rect.unit (s := S32x256x256) ![13, 0, 0] S1x256x256.size inb_S32x256x256_S1x256x256_13_0_0)) shapeCasts_S1x256x256_S256x256) bitsLt_bf16_f32) (h0 l0 xA l3 l5 l9) = (matmul dot_S32x256_S256x256_S32x256_1_1_0_0_n_n none (extractStridedSlice S32x256 ![0, 3328] (h0 l0 xA l3 l5 l9) slices_S32x8192_o0_3328_S32x256) (truncf .bf16 (shapeCast S256x256 (View.ld xA (Rect.unit (s := S32x256x256) ![13, 0, 0] S1x256x256.size inb_S32x256x256_S1x256x256_13_0_0)) shapeCasts_S1x256x256_S256x256) bitsLt_bf16_f32) (constant S32x256 .f32 0x00000000#32)) := rfl
theorem e92 : k0_pay92 (truncf .bf16 (shapeCast S256x256 (View.ld xA (Rect.unit (s := S32x256x256) ![14, 0, 0] S1x256x256.size inb_S32x256x256_S1x256x256_14_0_0)) shapeCasts_S1x256x256_S256x256) bitsLt_bf16_f32) (h0 l0 xA l3 l5 l9) = (matmul dot_S32x256_S256x256_S32x256_1_1_0_0_n_n none (extractStridedSlice S32x256 ![0, 3584] (h0 l0 xA l3 l5 l9) slices_S32x8192_o0_3584_S32x256) (truncf .bf16 (shapeCast S256x256 (View.ld xA (Rect.unit (s := S32x256x256) ![14, 0, 0] S1x256x256.size inb_S32x256x256_S1x256x256_14_0_0)) shapeCasts_S1x256x256_S256x256) bitsLt_bf16_f32) (constant S32x256 .f32 0x00000000#32)) := rfl
theorem e93 : k0_pay93 (truncf .bf16 (shapeCast S256x256 (View.ld xA (Rect.unit (s := S32x256x256) ![15, 0, 0] S1x256x256.size inb_S32x256x256_S1x256x256_15_0_0)) shapeCasts_S1x256x256_S256x256) bitsLt_bf16_f32) (h0 l0 xA l3 l5 l9) = (matmul dot_S32x256_S256x256_S32x256_1_1_0_0_n_n none (extractStridedSlice S32x256 ![0, 3840] (h0 l0 xA l3 l5 l9) slices_S32x8192_o0_3840_S32x256) (truncf .bf16 (shapeCast S256x256 (View.ld xA (Rect.unit (s := S32x256x256) ![15, 0, 0] S1x256x256.size inb_S32x256x256_S1x256x256_15_0_0)) shapeCasts_S1x256x256_S256x256) bitsLt_bf16_f32) (constant S32x256 .f32 0x00000000#32)) := rfl
theorem e94 : k0_pay94 (truncf .bf16 (shapeCast S256x256 (View.ld xA (Rect.unit (s := S32x256x256) ![16, 0, 0] S1x256x256.size inb_S32x256x256_S1x256x256_16_0_0)) shapeCasts_S1x256x256_S256x256) bitsLt_bf16_f32) (h0 l0 xA l3 l5 l9) = (matmul dot_S32x256_S256x256_S32x256_1_1_0_0_n_n none (extractStridedSlice S32x256 ![0, 4096] (h0 l0 xA l3 l5 l9) slices_S32x8192_o0_4096_S32x256) (truncf .bf16 (shapeCast S256x256 (View.ld xA (Rect.unit (s := S32x256x256) ![16, 0, 0] S1x256x256.size inb_S32x256x256_S1x256x256_16_0_0)) shapeCasts_S1x256x256_S256x256) bitsLt_bf16_f32) (constant S32x256 .f32 0x00000000#32)) := rfl
theorem e95 : k0_pay95 (truncf .bf16 (shapeCast S256x256 (View.ld xA (Rect.unit (s := S32x256x256) ![17, 0, 0] S1x256x256.size inb_S32x256x256_S1x256x256_17_0_0)) shapeCasts_S1x256x256_S256x256) bitsLt_bf16_f32) (h0 l0 xA l3 l5 l9) = (matmul dot_S32x256_S256x256_S32x256_1_1_0_0_n_n none (extractStridedSlice S32x256 ![0, 4352] (h0 l0 xA l3 l5 l9) slices_S32x8192_o0_4352_S32x256) (truncf .bf16 (shapeCast S256x256 (View.ld xA (Rect.unit (s := S32x256x256) ![17, 0, 0] S1x256x256.size inb_S32x256x256_S1x256x256_17_0_0)) shapeCasts_S1x256x256_S256x256) bitsLt_bf16_f32) (constant S32x256 .f32 0x00000000#32)) := rfl
theorem e96 : k0_pay96 (truncf .bf16 (shapeCast S256x256 (View.ld xA (Rect.unit (s := S32x256x256) ![18, 0, 0] S1x256x256.size inb_S32x256x256_S1x256x256_18_0_0)) shapeCasts_S1x256x256_S256x256) bitsLt_bf16_f32) (h0 l0 xA l3 l5 l9) = (matmul dot_S32x256_S256x256_S32x256_1_1_0_0_n_n none (extractStridedSlice S32x256 ![0, 4608] (h0 l0 xA l3 l5 l9) slices_S32x8192_o0_4608_S32x256) (truncf .bf16 (shapeCast S256x256 (View.ld xA (Rect.unit (s := S32x256x256) ![18, 0, 0] S1x256x256.size inb_S32x256x256_S1x256x256_18_0_0)) shapeCasts_S1x256x256_S256x256) bitsLt_bf16_f32) (constant S32x256 .f32 0x00000000#32)) := rfl
theorem e97 : k0_pay97 (truncf .bf16 (shapeCast S256x256 (View.ld xA (Rect.unit (s := S32x256x256) ![19, 0, 0] S1x256x256.size inb_S32x256x256_S1x256x256_19_0_0)) shapeCasts_S1x256x256_S256x256) bitsLt_bf16_f32) (h0 l0 xA l3 l5 l9) = (matmul dot_S32x256_S256x256_S32x256_1_1_0_0_n_n none (extractStridedSlice S32x256 ![0, 4864] (h0 l0 xA l3 l5 l9) slices_S32x8192_o0_4864_S32x256) (truncf .bf16 (shapeCast S256x256 (View.ld xA (Rect.unit (s := S32x256x256) ![19, 0, 0] S1x256x256.size inb_S32x256x256_S1x256x256_19_0_0)) shapeCasts_S1x256x256_S256x256) bitsLt_bf16_f32) (constant S32x256 .f32 0x00000000#32)) := rfl
theorem e98 : k0_pay98 (truncf .bf16 (shapeCast S256x256 (View.ld xA (Rect.unit (s := S32x256x256) ![20, 0, 0] S1x256x256.size inb_S32x256x256_S1x256x256_20_0_0)) shapeCasts_S1x256x256_S256x256) bitsLt_bf16_f32) (h0 l0 xA l3 l5 l9) = (matmul dot_S32x256_S256x256_S32x256_1_1_0_0_n_n none (extractStridedSlice S32x256 ![0, 5120] (h0 l0 xA l3 l5 l9) slices_S32x8192_o0_5120_S32x256) (truncf .bf16 (shapeCast S256x256 (View.ld xA (Rect.unit (s := S32x256x256) ![20, 0, 0] S1x256x256.size inb_S32x256x256_S1x256x256_20_0_0)) shapeCasts_S1x256x256_S256x256) bitsLt_bf16_f32) (constant S32x256 .f32 0x00000000#32)) := rfl
theorem e99 : k0_pay99 (truncf .bf16 (shapeCast S256x256 (View.ld xA (Rect.unit (s := S32x256x256) ![21, 0, 0] S1x256x256.size inb_S32x256x256_S1x256x256_21_0_0)) shapeCasts_S1x256x256_S256x256) bitsLt_bf16_f32) (h0 l0 xA l3 l5 l9) = (matmul dot_S32x256_S256x256_S32x256_1_1_0_0_n_n none (extractStridedSlice S32x256 ![0, 5376] (h0 l0 xA l3 l5 l9) slices_S32x8192_o0_5376_S32x256) (truncf .bf16 (shapeCast S256x256 (View.ld xA (Rect.unit (s := S32x256x256) ![21, 0, 0] S1x256x256.size inb_S32x256x256_S1x256x256_21_0_0)) shapeCasts_S1x256x256_S256x256) bitsLt_bf16_f32) (constant S32x256 .f32 0x00000000#32)) := rfl
theorem e100 : k0_pay100 (truncf .bf16 (shapeCast S256x256 (View.ld xA (Rect.unit (s := S32x256x256) ![22, 0, 0] S1x256x256.size inb_S32x256x256_S1x256x256_22_0_0)) shapeCasts_S1x256x256_S256x256) bitsLt_bf16_f32) (h0 l0 xA l3 l5 l9) = (matmul dot_S32x256_S256x256_S32x256_1_1_0_0_n_n none (extractStridedSlice S32x256 ![0, 5632] (h0 l0 xA l3 l5 l9) slices_S32x8192_o0_5632_S32x256) (truncf .bf16 (shapeCast S256x256 (View.ld xA (Rect.unit (s := S32x256x256) ![22, 0, 0] S1x256x256.size inb_S32x256x256_S1x256x256_22_0_0)) shapeCasts_S1x256x256_S256x256) bitsLt_bf16_f32) (constant S32x256 .f32 0x00000000#32)) := rfl
theorem e101 : k0_pay101 (truncf .bf16 (shapeCast S256x256 (View.ld xA (Rect.unit (s := S32x256x256) ![23, 0, 0] S1x256x256.size inb_S32x256x256_S1x256x256_23_0_0)) shapeCasts_S1x256x256_S256x256) bitsLt_bf16_f32) (h0 l0 xA l3 l5 l9) = (matmul dot_S32x256_S256x256_S32x256_1_1_0_0_n_n none (extractStridedSlice S32x256 ![0, 5888] (h0 l0 xA l3 l5 l9) slices_S32x8192_o0_5888_S32x256) (truncf .bf16 (shapeCast S256x256 (View.ld xA (Rect.unit (s := S32x256x256) ![23, 0, 0] S1x256x256.size inb_S32x256x256_S1x256x256_23_0_0)) shapeCasts_S1x256x256_S256x256) bitsLt_bf16_f32) (constant S32x256 .f32 0x00000000#32)) := rfl
theorem e102 : k0_pay102 (truncf .bf16 (shapeCast S256x256 (View.ld xA (Rect.unit (s := S32x256x256) ![24, 0, 0] S1x256x256.size inb_S32x256x256_S1x256x256_24_0_0)) shapeCasts_S1x256x256_S256x256) bitsLt_bf16_f32) (truncf .bf16 (shapeCast S256x256 (View.ld xA (Rect.unit (s := S32x256x256) ![25, 0, 0] S1x256x256.size inb_S32x256x256_S1x256x256_25_0_0)) shapeCasts_S1x256x256_S256x256) bitsLt_bf16_f32) (truncf .bf16 (shapeCast S256x256 (View.ld xA (Rect.unit (s := S32x256x256) ![26, 0, 0] S1x256x256.size inb_S32x256x256_S1x256x256_26_0_0)) shapeCasts_S1x256x256_S256x256) bitsLt_bf16_f32) (truncf .bf16 (shapeCast S256x256 (View.ld xA (Rect.unit (s := S32x256x256) ![27, 0, 0] S1x256x256.size inb_S32x256x256_S1x256x256_27_0_0)) shapeCasts_S1x256x256_S256x256) bitsLt_bf16_f32) (truncf .bf16 (shapeCast S256x256 (View.ld xA (Rect.unit (s := S32x256x256) ![28, 0, 0] S1x256x256.size inb_S32x256x256_S1x256x256_28_0_0)) shapeCasts_S1x256x256_S256x256) bitsLt_bf16_f32) (truncf .bf16 (shapeCast S256x256 (View.ld xA (Rect.unit (s := S32x256x256) ![29, 0, 0] S1x256x256.size inb_S32x256x256_S1x256x256_29_0_0)) shapeCasts_S1x256x256_S256x256) bitsLt_bf16_f32) (truncf .bf16 (shapeCast S256x256 (View.ld xA (Rect.unit (s := S32x256x256) ![30, 0, 0] S1x256x256.size inb_S32x256x256_S1x256x256_30_0_0)) shapeCasts_S1x256x256_S256x256) bitsLt_bf16_f32) (truncf .bf16 (shapeCast S256x256 (View.ld xA (Rect.unit (s := S32x256x256) ![31, 0, 0] S1x256x256.size inb_S32x256x256_S1x256x256_31_0_0)) shapeCasts_S1x256x256_S256x256) bitsLt_bf16_f32) (full0 l0 l3) (mask0 l0 xA l3 l5 l9) (h0 l0 xA l3 l5 l9) (matmul dot_S32x256_S256x256_S32x256_1_1_0_0_n_n none (extractStridedSlice S32x256 ![0, 0] (h0 l0 xA l3 l5 l9) slices_S32x8192_o0_0_S32x256) (truncf .bf16 (shapeCast S256x256 (View.ld xA (Rect.unit (s := S32x256x256) ![0, 0, 0] S1x256x256.size inb_S32x256x256_S1x256x256_0_0_0)) shapeCasts_S1x256x256_S256x256) bitsLt_bf16_f32) (constant S32x256 .f32 0x00000000#32)) (matmul dot_S32x256_S256x256_S32x256_1_1_0_0_n_n none (extractStridedSlice S32x256 ![0, 256] (h0 l0 xA l3 l5 l9) slices_S32x8192_o0_256_S32x256) (truncf .bf16 (shapeCast S256x256 (View.ld xA (Rect.unit (s := S32x256x256) ![1, 0, 0] S1x256x256.size inb_S32x256x256_S1x256x256_1_0_0)) shapeCasts_S1x256x256_S256x256) bitsLt_bf16_f32) (constant S32x256 .f32 0x00000000#32)) (matmul dot_S32x256_S256x256_S32x256_1_1_0_0_n_n none (extractStridedSlice S32x256 ![0, 512] (h0 l0 xA l3 l5 l9) slices_S32x8192_o0_512_S32x256) (truncf .bf16 (shapeCast S256x256 (View.ld xA (Rect.unit (s := S32x256x256) ![2, 0, 0] S1x256x256.size inb_S32x256x256_S1x256x256_2_0_0)) shapeCasts_S1x256x256_S256x256) bitsLt_bf16_f32) (constant S32x256 .f32 0x00000000#32)) (matmul dot_S32x256_S256x256_S32x256_1_1_0_0_n_n none (extractStridedSlice S32x256 ![0, 768] (h0 l0 xA l3 l5 l9) slices_S32x8192_o0_768_S32x256) (truncf .bf16 (shapeCast S256x256 (View.ld xA (Rect.unit (s := S32x256x256) ![3, 0, 0] S1x256x256.size inb_S32x256x256_S1x256x256_3_0_0)) shapeCasts_S1x256x256_S256x256) bitsLt_bf16_f32) (constant S32x256 .f32 0x00000000#32)) (matmul dot_S32x256_S256x256_S32x256_1_1_0_0_n_n none (extractStridedSlice S32x256 ![0, 1024] (h0 l0 xA l3 l5 l9) slices_S32x8192_o0_1024_S32x256) (truncf .bf16 (shapeCast S256x256 (View.ld xA (Rect.unit (s := S32x256x256) ![4, 0, 0] S1x256x256.size inb_S32x256x256_S1x256x256_4_0_0)) shapeCasts_S1x256x256_S256x256) bitsLt_bf16_f32) (constant S32x256 .f32 0x00000000#32)) (matmul dot_S32x256_S256x256_S32x256_1_1_0_0_n_n none (extractStridedSlice S32x256 ![0, 1280] (h0 l0 xA l3 l5 l9) slices_S32x8192_o0_1280_S32x256) (truncf .bf16 (shapeCast S256x256 (View.ld xA (Rect.unit (s := S32x256x256) ![5, 0, 0] S1x256x256.size inb_S32x256x256_S1x256x256_5_0_0)) shapeCasts_S1x256x256_S256x256) bitsLt_bf16_f32) (constant S32x256 .f32 0x00000000#32)) (matmul dot_S32x256_S256x256_S32x256_1_1_0_0_n_n none (extractStridedSlice S32x256 ![0, 1536] (h0 l0 xA l3 l5 l9) slices_S32x8192_o0_1536_S32x256) (truncf .bf16 (shapeCast S256x256 (View.ld xA (Rect.unit (s := S32x256x256) ![6, 0, 0] S1x256x256.size inb_S32x256x256_S1x256x256_6_0_0)) shapeCasts_S1x256x256_S256x256) bitsLt_bf16_f32) (constant S32x256 .f32 0x00000000#32)) (matmul dot_S32x256_S256x256_S32x256_1_1_0_0_n_n none (extractStridedSlice S32x256 ![0, 1792] (h0 l0 xA l3 l5 l9) slices_S32x8192_o0_1792_S32x256) (truncf .bf16 (shapeCast S256x256 (View.ld xA (Rect.unit (s := S32x256x256) ![7, 0, 0] S1x256x256.size inb_S32x256x256_S1x256x256_7_0_0)) shapeCasts_S1x256x256_S256x256) bitsLt_bf16_f32) (constant S32x256 .f32 0x00000000#32)) (matmul dot_S32x256_S256x256_S32x256_1_1_0_0_n_n none (extractStridedSlice S32x256 ![0, 2048] (h0 l0 xA l3 l5 l9) slices_S32x8192_o0_2048_S32x256) (truncf .bf16 (shapeCast S256x256 (View.ld xA (Rect.unit (s := S32x256x256) ![8, 0, 0] S1x256x256.size inb_S32x256x256_S1x256x256_8_0_0)) shapeCasts_S1x256x256_S256x256) bitsLt_bf16_f32) (constant S32x256 .f32 0x00000000#32)) (matmul dot_S32x256_S256x256_S32x256_1_1_0_0_n_n none (extractStridedSlice S32x256 ![0, 2304] (h0 l0 xA l3 l5 l9) slices_S32x8192_o0_2304_S32x256) (truncf .bf16 (shapeCast S256x256 (View.ld xA (Rect.unit (s := S32x256x256) ![9, 0, 0] S1x256x256.size inb_S32x256x256_S1x256x256_9_0_0)) shapeCasts_S1x256x256_S256x256) bitsLt_bf16_f32) (constant S32x256 .f32 0x00000000#32)) (matmul dot_S32x256_S256x256_S32x256_1_1_0_0_n_n none (extractStridedSlice S32x256 ![0, 2560] (h0 l0 xA l3 l5 l9) slices_S32x8192_o0_2560_S32x256) (truncf .bf16 (shapeCast S256x256 (View.ld xA (Rect.unit (s := S32x256x256) ![10, 0, 0] S1x256x256.size inb_S32x256x256_S1x256x256_10_0_0)) shapeCasts_S1x256x256_S256x256) bitsLt_bf16_f32) (constant S32x256 .f32 0x00000000#32)) (matmul dot_S32x256_S256x256_S32x256_1_1_0_0_n_n none (extractStridedSlice S32x256 ![0, 2816] (h0 l0 xA l3 l5 l9) slices_S32x8192_o0_2816_S32x256) (truncf .bf16 (shapeCast S256x256 (View.ld xA (Rect.unit (s := S32x256x256) ![11, 0, 0] S1x256x256.size inb_S32x256x256_S1x256x256_11_0_0)) shapeCasts_S1x256x256_S256x256) bitsLt_bf16_f32) (constant S32x256 .f32 0x00000000#32)) (matmul dot_S32x256_S256x256_S32x256_1_1_0_0_n_n none (extractStridedSlice S32x256 ![0, 3072] (h0 l0 xA l3 l5 l9) slices_S32x8192_o0_3072_S32x256) (truncf .bf16 (shapeCast S256x256 (View.ld xA (Rect.unit (s := S32x256x256) ![12, 0, 0] S1x256x256.size inb_S32x256x256_S1x256x256_12_0_0)) shapeCasts_S1x256x256_S256x256) bitsLt_bf16_f32) (constant S32x256 .f32 0x00000000#32)) (matmul dot_S32x256_S256x256_S32x256_1_1_0_0_n_n none (extractStridedSlice S32x256 ![0, 3328] (h0 l0 xA l3 l5 l9) slices_S32x8192_o0_3328_S32x256) (truncf .bf16 (shapeCast S256x256 (View.ld xA (Rect.unit (s := S32x256x256) ![13, 0, 0] S1x256x256.size inb_S32x256x256_S1x256x256_13_0_0)) shapeCasts_S1x256x256_S256x256) bitsLt_bf16_f32) (constant S32x256 .f32 0x00000000#32)) (matmul dot_S32x256_S256x256_S32x256_1_1_0_0_n_n none (extractStridedSlice S32x256 ![0, 3584] (h0 l0 xA l3 l5 l9) slices_S32x8192_o0_3584_S32x256) (truncf .bf16 (shapeCast S256x256 (View.ld xA (Rect.unit (s := S32x256x256) ![14, 0, 0] S1x256x256.size inb_S32x256x256_S1x256x256_14_0_0)) shapeCasts_S1x256x256_S256x256) bitsLt_bf16_f32) (constant S32x256 .f32 0x00000000#32)) (matmul dot_S32x256_S256x256_S32x256_1_1_0_0_n_n none (extractStridedSlice S32x256 ![0, 3840] (h0 l0 xA l3 l5 l9) slices_S32x8192_o0_3840_S32x256) (truncf .bf16 (shapeCast S256x256 (View.ld xA (Rect.unit (s := S32x256x256) ![15, 0, 0] S1x256x256.size inb_S32x256x256_S1x256x256_15_0_0)) shapeCasts_S1x256x256_S256x256) bitsLt_bf16_f32) (constant S32x256 .f32 0x00000000#32)) (matmul dot_S32x256_S256x256_S32x256_1_1_0_0_n_n none (extractStridedSlice S32x256 ![0, 4096] (h0 l0 xA l3 l5 l9) slices_S32x8192_o0_4096_S32x256) (truncf .bf16 (shapeCast S256x256 (View.ld xA (Rect.unit (s := S32x256x256) ![16, 0, 0] S1x256x256.size inb_S32x256x256_S1x256x256_16_0_0)) shapeCasts_S1x256x256_S256x256) bitsLt_bf16_f32) (constant S32x256 .f32 0x00000000#32)) (matmul dot_S32x256_S256x256_S32x256_1_1_0_0_n_n none (extractStridedSlice S32x256 ![0, 4352] (h0 l0 xA l3 l5 l9) slices_S32x8192_o0_4352_S32x256) (truncf .bf16 (shapeCast S256x256 (View.ld xA (Rect.unit (s := S32x256x256) ![17, 0, 0] S1x256x256.size inb_S32x256x256_S1x256x256_17_0_0)) shapeCasts_S1x256x256_S256x256) bitsLt_bf16_f32) (constant S32x256 .f32 0x00000000#32)) (matmul dot_S32x256_S256x256_S32x256_1_1_0_0_n_n none (extractStridedSlice S32x256 ![0, 4608] (h0 l0 xA l3 l5 l9) slices_S32x8192_o0_4608_S32x256) (truncf .bf16 (shapeCast S256x256 (View.ld xA (Rect.unit (s := S32x256x256) ![18, 0, 0] S1x256x256.size inb_S32x256x256_S1x256x256_18_0_0)) shapeCasts_S1x256x256_S256x256) bitsLt_bf16_f32) (constant S32x256 .f32 0x00000000#32)) (matmul dot_S32x256_S256x256_S32x256_1_1_0_0_n_n none (extractStridedSlice S32x256 ![0, 4864] (h0 l0 xA l3 l5 l9) slices_S32x8192_o0_4864_S32x256) (truncf .bf16 (shapeCast S256x256 (View.ld xA (Rect.unit (s := S32x256x256) ![19, 0, 0] S1x256x256.size inb_S32x256x256_S1x256x256_19_0_0)) shapeCasts_S1x256x256_S256x256) bitsLt_bf16_f32) (constant S32x256 .f32 0x00000000#32)) (matmul dot_S32x256_S256x256_S32x256_1_1_0_0_n_n none (extractStridedSlice S32x256 ![0, 5120] (h0 l0 xA l3 l5 l9) slices_S32x8192_o0_5120_S32x256) (truncf .bf16 (shapeCast S256x256 (View.ld xA (Rect.unit (s := S32x256x256) ![20, 0, 0] S1x256x256.size inb_S32x256x256_S1x256x256_20_0_0)) shapeCasts_S1x256x256_S256x256) bitsLt_bf16_f32) (constant S32x256 .f32 0x00000000#32)) (matmul dot_S32x256_S256x256_S32x256_1_1_0_0_n_n none (extractStridedSlice S32x256 ![0, 5376] (h0 l0 xA l3 l5 l9) slices_S32x8192_o0_5376_S32x256) (truncf .bf16 (shapeCast S256x256 (View.ld xA (Rect.unit (s := S32x256x256) ![21, 0, 0] S1x256x256.size inb_S32x256x256_S1x256x256_21_0_0)) shapeCasts_S1x256x256_S256x256) bitsLt_bf16_f32) (constant S32x256 .f32 0x00000000#32)) (matmul dot_S32x256_S256x256_S32x256_1_1_0_0_n_n none (extractStridedSlice S32x256 ![0, 5632] (h0 l0 xA l3 l5 l9) slices_S32x8192_o0_5632_S32x256) (truncf .bf16 (shapeCast S256x256 (View.ld xA (Rect.unit (s := S32x256x256) ![22, 0, 0] S1x256x256.size inb_S32x256x256_S1x256x256_22_0_0)) shapeCasts_S1x256x256_S256x256) bitsLt_bf16_f32) (constant S32x256 .f32 0x00000000#32)) (matmul dot_S32x256_S256x256_S32x256_1_1_0_0_n_n none (extractStridedSlice S32x256 ![0, 5888] (h0 l0 xA l3 l5 l9) slices_S32x8192_o0_5888_S32x256) (truncf .bf16 (shapeCast S256x256 (View.ld xA (Rect.unit (s := S32x256x256) ![23, 0, 0] S1x256x256.size inb_S32x256x256_S1x256x256_23_0_0)) shapeCasts_S1x256x256_S256x256) bitsLt_bf16_f32) (constant S32x256 .f32 0x00000000#32)) l4 = (full1 l0 xA l3 l4 l5 l9) := rfl
theorem e103 : k0_pay103 (b1 l9) (truncf .bf16 (shapeCast S256x256 (View.ld xA (Rect.unit (s := S32x256x256) ![24, 0, 0] S1x256x256.size inb_S32x256x256_S1x256x256_24_0_0)) shapeCasts_S1x256x256_S256x256) bitsLt_bf16_f32) (truncf .bf16 (shapeCast S256x256 (View.ld xA (Rect.unit (s := S32x256x256) ![25, 0, 0] S1x256x256.size inb_S32x256x256_S1x256x256_25_0_0)) shapeCasts_S1x256x256_S256x256) bitsLt_bf16_f32) (truncf .bf16 (shapeCast S256x256 (View.ld xA (Rect.unit (s := S32x256x256) ![26, 0, 0] S1x256x256.size inb_S32x256x256_S1x256x256_26_0_0)) shapeCasts_S1x256x256_S256x256) bitsLt_bf16_f32) (truncf .bf16 (shapeCast S256x256 (View.ld xA (Rect.unit (s := S32x256x256) ![27, 0, 0] S1x256x256.size inb_S32x256x256_S1x256x256_27_0_0)) shapeCasts_S1x256x256_S256x256) bitsLt_bf16_f32) (truncf .bf16 (shapeCast S256x256 (View.ld xA (Rect.unit (s := S32x256x256) ![28, 0, 0] S1x256x256.size inb_S32x256x256_S1x256x256_28_0_0)) shapeCasts_S1x256x256_S256x256) bitsLt_bf16_f32) (truncf .bf16 (shapeCast S256x256 (View.ld xA (Rect.unit (s := S32x256x256) ![29, 0, 0] S1x256x256.size inb_S32x256x256_S1x256x256_29_0_0)) shapeCasts_S1x256x256_S256x256) bitsLt_bf16_f32) (truncf .bf16 (shapeCast S256x256 (View.ld xA (Rect.unit (s := S32x256x256) ![30, 0, 0] S1x256x256.size inb_S32x256x256_S1x256x256_30_0_0)) shapeCasts_S1x256x256_S256x256) bitsLt_bf16_f32) (truncf .bf16 (shapeCast S256x256 (View.ld xA (Rect.unit (s := S32x256x256) ![31, 0, 0] S1x256x256.size inb_S32x256x256_S1x256x256_31_0_0)) shapeCasts_S1x256x256_S256x256) bitsLt_bf16_f32) (full0 l0 l3) (mask0 l0 xA l3 l5 l9) (h0 l0 xA l3 l5 l9) (matmul dot_S32x256_S256x256_S32x256_1_1_0_0_n_n none (extractStridedSlice S32x256 ![0, 0] (h0 l0 xA l3 l5 l9) slices_S32x8192_o0_0_S32x256) (truncf .bf16 (shapeCast S256x256 (View.ld xA (Rect.unit (s := S32x256x256) ![0, 0, 0] S1x256x256.size inb_S32x256x256_S1x256x256_0_0_0)) shapeCasts_S1x256x256_S256x256) bitsLt_bf16_f32) (constant S32x256 .f32 0x00000000#32)) (matmul dot_S32x256_S256x256_S32x256_1_1_0_0_n_n none (extractStridedSlice S32x256 ![0, 256] (h0 l0 xA l3 l5 l9) slices_S32x8192_o0_256_S32x256) (truncf .bf16 (shapeCast S256x256 (View.ld xA (Rect.unit (s := S32x256x256) ![1, 0, 0] S1x256x256.size inb_S32x256x256_S1x256x256_1_0_0)) shapeCasts_S1x256x256_S256x256) bitsLt_bf16_f32) (constant S32x256 .f32 0x00000000#32)) (matmul dot_S32x256_S256x256_S32x256_1_1_0_0_n_n none (extractStridedSlice S32x256 ![0, 512] (h0 l0 xA l3 l5 l9) slices_S32x8192_o0_512_S32x256) (truncf .bf16 (shapeCast S256x256 (View.ld xA (Rect.unit (s := S32x256x256) ![2, 0, 0] S1x256x256.size inb_S32x256x256_S1x256x256_2_0_0)) shapeCasts_S1x256x256_S256x256) bitsLt_bf16_f32) (constant S32x256 .f32 0x00000000#32)) (matmul dot_S32x256_S256x256_S32x256_1_1_0_0_n_n none (extractStridedSlice S32x256 ![0, 768] (h0 l0 xA l3 l5 l9) slices_S32x8192_o0_768_S32x256) (truncf .bf16 (shapeCast S256x256 (View.ld xA (Rect.unit (s := S32x256x256) ![3, 0, 0] S1x256x256.size inb_S32x256x256_S1x256x256_3_0_0)) shapeCasts_S1x256x256_S256x256) bitsLt_bf16_f32) (constant S32x256 .f32 0x00000000#32)) (matmul dot_S32x256_S256x256_S32x256_1_1_0_0_n_n none (extractStridedSlice S32x256 ![0, 1024] (h0 l0 xA l3 l5 l9) slices_S32x8192_o0_1024_S32x256) (truncf .bf16 (shapeCast S256x256 (View.ld xA (Rect.unit (s := S32x256x256) ![4, 0, 0] S1x256x256.size inb_S32x256x256_S1x256x256_4_0_0)) shapeCasts_S1x256x256_S256x256) bitsLt_bf16_f32) (constant S32x256 .f32 0x00000000#32)) (matmul dot_S32x256_S256x256_S32x256_1_1_0_0_n_n none (extractStridedSlice S32x256 ![0, 1280] (h0 l0 xA l3 l5 l9) slices_S32x8192_o0_1280_S32x256) (truncf .bf16 (shapeCast S256x256 (View.ld xA (Rect.unit (s := S32x256x256) ![5, 0, 0] S1x256x256.size inb_S32x256x256_S1x256x256_5_0_0)) shapeCasts_S1x256x256_S256x256) bitsLt_bf16_f32) (constant S32x256 .f32 0x00000000#32)) (matmul dot_S32x256_S256x256_S32x256_1_1_0_0_n_n none (extractStridedSlice S32x256 ![0, 1536] (h0 l0 xA l3 l5 l9) slices_S32x8192_o0_1536_S32x256) (truncf .bf16 (shapeCast S256x256 (View.ld xA (Rect.unit (s := S32x256x256) ![6, 0, 0] S1x256x256.size inb_S32x256x256_S1x256x256_6_0_0)) shapeCasts_S1x256x256_S256x256) bitsLt_bf16_f32) (constant S32x256 .f32 0x00000000#32)) (matmul dot_S32x256_S256x256_S32x256_1_1_0_0_n_n none (extractStridedSlice S32x256 ![0, 1792] (h0 l0 xA l3 l5 l9) slices_S32x8192_o0_1792_S32x256) (truncf .bf16 (shapeCast S256x256 (View.ld xA (Rect.unit (s := S32x256x256) ![7, 0, 0] S1x256x256.size inb_S32x256x256_S1x256x256_7_0_0)) shapeCasts_S1x256x256_S256x256) bitsLt_bf16_f32) (constant S32x256 .f32 0x00000000#32)) (matmul dot_S32x256_S256x256_S32x256_1_1_0_0_n_n none (extractStridedSlice S32x256 ![0, 2048] (h0 l0 xA l3 l5 l9) slices_S32x8192_o0_2048_S32x256) (truncf .bf16 (shapeCast S256x256 (View.ld xA (Rect.unit (s := S32x256x256) ![8, 0, 0] S1x256x256.size inb_S32x256x256_S1x256x256_8_0_0)) shapeCasts_S1x256x256_S256x256) bitsLt_bf16_f32) (constant S32x256 .f32 0x00000000#32)) (matmul dot_S32x256_S256x256_S32x256_1_1_0_0_n_n none (extractStridedSlice S32x256 ![0, 2304] (h0 l0 xA l3 l5 l9) slices_S32x8192_o0_2304_S32x256) (truncf .bf16 (shapeCast S256x256 (View.ld xA (Rect.unit (s := S32x256x256) ![9, 0, 0] S1x256x256.size inb_S32x256x256_S1x256x256_9_0_0)) shapeCasts_S1x256x256_S256x256) bitsLt_bf16_f32) (constant S32x256 .f32 0x00000000#32)) (matmul dot_S32x256_S256x256_S32x256_1_1_0_0_n_n none (extractStridedSlice S32x256 ![0, 2560] (h0 l0 xA l3 l5 l9) slices_S32x8192_o0_2560_S32x256) (truncf .bf16 (shapeCast S256x256 (View.ld xA (Rect.unit (s := S32x256x256) ![10, 0, 0] S1x256x256.size inb_S32x256x256_S1x256x256_10_0_0)) shapeCasts_S1x256x256_S256x256) bitsLt_bf16_f32) (constant S32x256 .f32 0x00000000#32)) (matmul dot_S32x256_S256x256_S32x256_1_1_0_0_n_n none (extractStridedSlice S32x256 ![0, 2816] (h0 l0 xA l3 l5 l9) slices_S32x8192_o0_2816_S32x256) (truncf .bf16 (shapeCast S256x256 (View.ld xA (Rect.unit (s := S32x256x256) ![11, 0, 0] S1x256x256.size inb_S32x256x256_S1x256x256_11_0_0)) shapeCasts_S1x256x256_S256x256) bitsLt_bf16_f32) (constant S32x256 .f32 0x00000000#32)) (matmul dot_S32x256_S256x256_S32x256_1_1_0_0_n_n none (extractStridedSlice S32x256 ![0, 3072] (h0 l0 xA l3 l5 l9) slices_S32x8192_o0_3072_S32x256) (truncf .bf16 (shapeCast S256x256 (View.ld xA (Rect.unit (s := S32x256x256) ![12, 0, 0] S1x256x256.size inb_S32x256x256_S1x256x256_12_0_0)) shapeCasts_S1x256x256_S256x256) bitsLt_bf16_f32) (constant S32x256 .f32 0x00000000#32)) (matmul dot_S32x256_S256x256_S32x256_1_1_0_0_n_n none (extractStridedSlice S32x256 ![0, 3328] (h0 l0 xA l3 l5 l9) slices_S32x8192_o0_3328_S32x256) (truncf .bf16 (shapeCast S256x256 (View.ld xA (Rect.unit (s := S32x256x256) ![13, 0, 0] S1x256x256.size inb_S32x256x256_S1x256x256_13_0_0)) shapeCasts_S1x256x256_S256x256) bitsLt_bf16_f32) (constant S32x256 .f32 0x00000000#32)) (matmul dot_S32x256_S256x256_S32x256_1_1_0_0_n_n none (extractStridedSlice S32x256 ![0, 3584] (h0 l0 xA l3 l5 l9) slices_S32x8192_o0_3584_S32x256) (truncf .bf16 (shapeCast S256x256 (View.ld xA (Rect.unit (s := S32x256x256) ![14, 0, 0] S1x256x256.size inb_S32x256x256_S1x256x256_14_0_0)) shapeCasts_S1x256x256_S256x256) bitsLt_bf16_f32) (constant S32x256 .f32 0x00000000#32)) (matmul dot_S32x256_S256x256_S32x256_1_1_0_0_n_n none (extractStridedSlice S32x256 ![0, 3840] (h0 l0 xA l3 l5 l9) slices_S32x8192_o0_3840_S32x256) (truncf .bf16 (shapeCast S256x256 (View.ld xA (Rect.unit (s := S32x256x256) ![15, 0, 0] S1x256x256.size inb_S32x256x256_S1x256x256_15_0_0)) shapeCasts_S1x256x256_S256x256) bitsLt_bf16_f32) (constant S32x256 .f32 0x00000000#32)) (matmul dot_S32x256_S256x256_S32x256_1_1_0_0_n_n none (extractStridedSlice S32x256 ![0, 4096] (h0 l0 xA l3 l5 l9) slices_S32x8192_o0_4096_S32x256) (truncf .bf16 (shapeCast S256x256 (View.ld xA (Rect.unit (s := S32x256x256) ![16, 0, 0] S1x256x256.size inb_S32x256x256_S1x256x256_16_0_0)) shapeCasts_S1x256x256_S256x256) bitsLt_bf16_f32) (constant S32x256 .f32 0x00000000#32)) (matmul dot_S32x256_S256x256_S32x256_1_1_0_0_n_n none (extractStridedSlice S32x256 ![0, 4352] (h0 l0 xA l3 l5 l9) slices_S32x8192_o0_4352_S32x256) (truncf .bf16 (shapeCast S256x256 (View.ld xA (Rect.unit (s := S32x256x256) ![17, 0, 0] S1x256x256.size inb_S32x256x256_S1x256x256_17_0_0)) shapeCasts_S1x256x256_S256x256) bitsLt_bf16_f32) (constant S32x256 .f32 0x00000000#32)) (matmul dot_S32x256_S256x256_S32x256_1_1_0_0_n_n none (extractStridedSlice S32x256 ![0, 4608] (h0 l0 xA l3 l5 l9) slices_S32x8192_o0_4608_S32x256) (truncf .bf16 (shapeCast S256x256 (View.ld xA (Rect.unit (s := S32x256x256) ![18, 0, 0] S1x256x256.size inb_S32x256x256_S1x256x256_18_0_0)) shapeCasts_S1x256x256_S256x256) bitsLt_bf16_f32) (constant S32x256 .f32 0x00000000#32)) (matmul dot_S32x256_S256x256_S32x256_1_1_0_0_n_n none (extractStridedSlice S32x256 ![0, 4864] (h0 l0 xA l3 l5 l9) slices_S32x8192_o0_4864_S32x256) (truncf .bf16 (shapeCast S256x256 (View.ld xA (Rect.unit (s := S32x256x256) ![19, 0, 0] S1x256x256.size inb_S32x256x256_S1x256x256_19_0_0)) shapeCasts_S1x256x256_S256x256) bitsLt_bf16_f32) (constant S32x256 .f32 0x00000000#32)) (matmul dot_S32x256_S256x256_S32x256_1_1_0_0_n_n none (extractStridedSlice S32x256 ![0, 5120] (h0 l0 xA l3 l5 l9) slices_S32x8192_o0_5120_S32x256) (truncf .bf16 (shapeCast S256x256 (View.ld xA (Rect.unit (s := S32x256x256) ![20, 0, 0] S1x256x256.size inb_S32x256x256_S1x256x256_20_0_0)) shapeCasts_S1x256x256_S256x256) bitsLt_bf16_f32) (constant S32x256 .f32 0x00000000#32)) (matmul dot_S32x256_S256x256_S32x256_1_1_0_0_n_n none (extractStridedSlice S32x256 ![0, 5376] (h0 l0 xA l3 l5 l9) slices_S32x8192_o0_5376_S32x256) (truncf .bf16 (shapeCast S256x256 (View.ld xA (Rect.unit (s := S32x256x256) ![21, 0, 0] S1x256x256.size inb_S32x256x256_S1x256x256_21_0_0)) shapeCasts_S1x256x256_S256x256) bitsLt_bf16_f32) (constant S32x256 .f32 0x00000000#32)) (matmul dot_S32x256_S256x256_S32x256_1_1_0_0_n_n none (extractStridedSlice S32x256 ![0, 5632] (h0 l0 xA l3 l5 l9) slices_S32x8192_o0_5632_S32x256) (truncf .bf16 (shapeCast S256x256 (View.ld xA (Rect.unit (s := S32x256x256) ![22, 0, 0] S1x256x256.size inb_S32x256x256_S1x256x256_22_0_0)) shapeCasts_S1x256x256_S256x256) bitsLt_bf16_f32) (constant S32x256 .f32 0x00000000#32)) (matmul dot_S32x256_S256x256_S32x256_1_1_0_0_n_n none (extractStridedSlice S32x256 ![0, 5888] (h0 l0 xA l3 l5 l9) slices_S32x8192_o0_5888_S32x256) (truncf .bf16 (shapeCast S256x256 (View.ld xA (Rect.unit (s := S32x256x256) ![23, 0, 0] S1x256x256.size inb_S32x256x256_S1x256x256_23_0_0)) shapeCasts_S1x256x256_S256x256) bitsLt_bf16_f32) (constant S32x256 .f32 0x00000000#32)) l4 = (hl1 l0 xA l3 l4 l5 l9) := rfl
theorem e104 : k0_pay104 (b1 l9) (truncf .bf16 (shapeCast S256x256 (View.ld xA (Rect.unit (s := S32x256x256) ![24, 0, 0] S1x256x256.size inb_S32x256x256_S1x256x256_24_0_0)) shapeCasts_S1x256x256_S256x256) bitsLt_bf16_f32) (truncf .bf16 (shapeCast S256x256 (View.ld xA (Rect.unit (s := S32x256x256) ![25, 0, 0] S1x256x256.size inb_S32x256x256_S1x256x256_25_0_0)) shapeCasts_S1x256x256_S256x256) bitsLt_bf16_f32) (truncf .bf16 (shapeCast S256x256 (View.ld xA (Rect.unit (s := S32x256x256) ![26, 0, 0] S1x256x256.size inb_S32x256x256_S1x256x256_26_0_0)) shapeCasts_S1x256x256_S256x256) bitsLt_bf16_f32) (truncf .bf16 (shapeCast S256x256 (View.ld xA (Rect.unit (s := S32x256x256) ![27, 0, 0] S1x256x256.size inb_S32x256x256_S1x256x256_27_0_0)) shapeCasts_S1x256x256_S256x256) bitsLt_bf16_f32) (truncf .bf16 (shapeCast S256x256 (View.ld xA (Rect.unit (s := S32x256x256) ![28, 0, 0] S1x256x256.size inb_S32x256x256_S1x256x256_28_0_0)) shapeCasts_S1x256x256_S256x256) bitsLt_bf16_f32) (truncf .bf16 (shapeCast S256x256 (View.ld xA (Rect.unit (s := S32x256x256) ![29, 0, 0] S1x256x256.size inb_S32x256x256_S1x256x256_29_0_0)) shapeCasts_S1x256x256_S256x256) bitsLt_bf16_f32) (truncf .bf16 (shapeCast S256x256 (View.ld xA (Rect.unit (s := S32x256x256) ![30, 0, 0] S1x256x256.size inb_S32x256x256_S1x256x256_30_0_0)) shapeCasts_S1x256x256_S256x256) bitsLt_bf16_f32) (truncf .bf16 (shapeCast S256x256 (View.ld xA (Rect.unit (s := S32x256x256) ![31, 0, 0] S1x256x256.size inb_S32x256x256_S1x256x256_31_0_0)) shapeCasts_S1x256x256_S256x256) bitsLt_bf16_f32) (full0 l0 l3) (mask0 l0 xA l3 l5 l9) (h0 l0 xA l3 l5 l9) (matmul dot_S32x256_S256x256_S32x256_1_1_0_0_n_n none (extractStridedSlice S32x256 ![0, 0] (h0 l0 xA l3 l5 l9) slices_S32x8192_o0_0_S32x256) (truncf .bf16 (shapeCast S256x256 (View.ld xA (Rect.unit (s := S32x256x256) ![0, 0, 0] S1x256x256.size inb_S32x256x256_S1x256x256_0_0_0)) shapeCasts_S1x256x256_S256x256) bitsLt_bf16_f32) (constant S32x256 .f32 0x00000000#32)) (matmul dot_S32x256_S256x256_S32x256_1_1_0_0_n_n none (extractStridedSlice S32x256 ![0, 256] (h0 l0 xA l3 l5 l9) slices_S32x8192_o0_256_S32x256) (truncf .bf16 (shapeCast S256x256 (View.ld xA (Rect.unit (s := S32x256x256) ![1, 0, 0] S1x256x256.size inb_S32x256x256_S1x256x256_1_0_0)) shapeCasts_S1x256x256_S256x256) bitsLt_bf16_f32) (constant S32x256 .f32 0x00000000#32)) (matmul dot_S32x256_S256x256_S32x256_1_1_0_0_n_n none (extractStridedSlice S32x256 ![0, 512] (h0 l0 xA l3 l5 l9) slices_S32x8192_o0_512_S32x256) (truncf .bf16 (shapeCast S256x256 (View.ld xA (Rect.unit (s := S32x256x256) ![2, 0, 0] S1x256x256.size inb_S32x256x256_S1x256x256_2_0_0)) shapeCasts_S1x256x256_S256x256) bitsLt_bf16_f32) (constant S32x256 .f32 0x00000000#32)) (matmul dot_S32x256_S256x256_S32x256_1_1_0_0_n_n none (extractStridedSlice S32x256 ![0, 768] (h0 l0 xA l3 l5 l9) slices_S32x8192_o0_768_S32x256) (truncf .bf16 (shapeCast S256x256 (View.ld xA (Rect.unit (s := S32x256x256) ![3, 0, 0] S1x256x256.size inb_S32x256x256_S1x256x256_3_0_0)) shapeCasts_S1x256x256_S256x256) bitsLt_bf16_f32) (constant S32x256 .f32 0x00000000#32)) (matmul dot_S32x256_S256x256_S32x256_1_1_0_0_n_n none (extractStridedSlice S32x256 ![0, 1024] (h0 l0 xA l3 l5 l9) slices_S32x8192_o0_1024_S32x256) (truncf .bf16 (shapeCast S256x256 (View.ld xA (Rect.unit (s := S32x256x256) ![4, 0, 0] S1x256x256.size inb_S32x256x256_S1x256x256_4_0_0)) shapeCasts_S1x256x256_S256x256) bitsLt_bf16_f32) (constant S32x256 .f32 0x00000000#32)) (matmul dot_S32x256_S256x256_S32x256_1_1_0_0_n_n none (extractStridedSlice S32x256 ![0, 1280] (h0 l0 xA l3 l5 l9) slices_S32x8192_o0_1280_S32x256) (truncf .bf16 (shapeCast S256x256 (View.ld xA (Rect.unit (s := S32x256x256) ![5, 0, 0] S1x256x256.size inb_S32x256x256_S1x256x256_5_0_0)) shapeCasts_S1x256x256_S256x256) bitsLt_bf16_f32) (constant S32x256 .f32 0x00000000#32)) (matmul dot_S32x256_S256x256_S32x256_1_1_0_0_n_n none (extractStridedSlice S32x256 ![0, 1536] (h0 l0 xA l3 l5 l9) slices_S32x8192_o0_1536_S32x256) (truncf .bf16 (shapeCast S256x256 (View.ld xA (Rect.unit (s := S32x256x256) ![6, 0, 0] S1x256x256.size inb_S32x256x256_S1x256x256_6_0_0)) shapeCasts_S1x256x256_S256x256) bitsLt_bf16_f32) (constant S32x256 .f32 0x00000000#32)) (matmul dot_S32x256_S256x256_S32x256_1_1_0_0_n_n none (extractStridedSlice S32x256 ![0, 1792] (h0 l0 xA l3 l5 l9) slices_S32x8192_o0_1792_S32x256) (truncf .bf16 (shapeCast S256x256 (View.ld xA (Rect.unit (s := S32x256x256) ![7, 0, 0] S1x256x256.size inb_S32x256x256_S1x256x256_7_0_0)) shapeCasts_S1x256x256_S256x256) bitsLt_bf16_f32) (constant S32x256 .f32 0x00000000#32)) (matmul dot_S32x256_S256x256_S32x256_1_1_0_0_n_n none (extractStridedSlice S32x256 ![0, 2048] (h0 l0 xA l3 l5 l9) slices_S32x8192_o0_2048_S32x256) (truncf .bf16 (shapeCast S256x256 (View.ld xA (Rect.unit (s := S32x256x256) ![8, 0, 0] S1x256x256.size inb_S32x256x256_S1x256x256_8_0_0)) shapeCasts_S1x256x256_S256x256) bitsLt_bf16_f32) (constant S32x256 .f32 0x00000000#32)) (matmul dot_S32x256_S256x256_S32x256_1_1_0_0_n_n none (extractStridedSlice S32x256 ![0, 2304] (h0 l0 xA l3 l5 l9) slices_S32x8192_o0_2304_S32x256) (truncf .bf16 (shapeCast S256x256 (View.ld xA (Rect.unit (s := S32x256x256) ![9, 0, 0] S1x256x256.size inb_S32x256x256_S1x256x256_9_0_0)) shapeCasts_S1x256x256_S256x256) bitsLt_bf16_f32) (constant S32x256 .f32 0x00000000#32)) (matmul dot_S32x256_S256x256_S32x256_1_1_0_0_n_n none (extractStridedSlice S32x256 ![0, 2560] (h0 l0 xA l3 l5 l9) slices_S32x8192_o0_2560_S32x256) (truncf .bf16 (shapeCast S256x256 (View.ld xA (Rect.unit (s := S32x256x256) ![10, 0, 0] S1x256x256.size inb_S32x256x256_S1x256x256_10_0_0)) shapeCasts_S1x256x256_S256x256) bitsLt_bf16_f32) (constant S32x256 .f32 0x00000000#32)) (matmul dot_S32x256_S256x256_S32x256_1_1_0_0_n_n none (extractStridedSlice S32x256 ![0, 2816] (h0 l0 xA l3 l5 l9) slices_S32x8192_o0_2816_S32x256) (truncf .bf16 (shapeCast S256x256 (View.ld xA (Rect.unit (s := S32x256x256) ![11, 0, 0] S1x256x256.size inb_S32x256x256_S1x256x256_11_0_0)) shapeCasts_S1x256x256_S256x256) bitsLt_bf16_f32) (constant S32x256 .f32 0x00000000#32)) (matmul dot_S32x256_S256x256_S32x256_1_1_0_0_n_n none (extractStridedSlice S32x256 ![0, 3072] (h0 l0 xA l3 l5 l9) slices_S32x8192_o0_3072_S32x256) (truncf .bf16 (shapeCast S256x256 (View.ld xA (Rect.unit (s := S32x256x256) ![12, 0, 0] S1x256x256.size inb_S32x256x256_S1x256x256_12_0_0)) shapeCasts_S1x256x256_S256x256) bitsLt_bf16_f32) (constant S32x256 .f32 0x00000000#32)) (matmul dot_S32x256_S256x256_S32x256_1_1_0_0_n_n none (extractStridedSlice S32x256 ![0, 3328] (h0 l0 xA l3 l5 l9) slices_S32x8192_o0_3328_S32x256) (truncf .bf16 (shapeCast S256x256 (View.ld xA (Rect.unit (s := S32x256x256) ![13, 0, 0] S1x256x256.size inb_S32x256x256_S1x256x256_13_0_0)) shapeCasts_S1x256x256_S256x256) bitsLt_bf16_f32) (constant S32x256 .f32 0x00000000#32)) (matmul dot_S32x256_S256x256_S32x256_1_1_0_0_n_n none (extractStridedSlice S32x256 ![0, 3584] (h0 l0 xA l3 l5 l9) slices_S32x8192_o0_3584_S32x256) (truncf .bf16 (shapeCast S256x256 (View.ld xA (Rect.unit (s := S32x256x256) ![14, 0, 0] S1x256x256.size inb_S32x256x256_S1x256x256_14_0_0)) shapeCasts_S1x256x256_S256x256) bitsLt_bf16_f32) (constant S32x256 .f32 0x00000000#32)) (matmul dot_S32x256_S256x256_S32x256_1_1_0_0_n_n none (extractStridedSlice S32x256 ![0, 3840] (h0 l0 xA l3 l5 l9) slices_S32x8192_o0_3840_S32x256) (truncf .bf16 (shapeCast S256x256 (View.ld xA (Rect.unit (s := S32x256x256) ![15, 0, 0] S1x256x256.size inb_S32x256x256_S1x256x256_15_0_0)) shapeCasts_S1x256x256_S256x256) bitsLt_bf16_f32) (constant S32x256 .f32 0x00000000#32)) (matmul dot_S32x256_S256x256_S32x256_1_1_0_0_n_n none (extractStridedSlice S32x256 ![0, 4096] (h0 l0 xA l3 l5 l9) slices_S32x8192_o0_4096_S32x256) (truncf .bf16 (shapeCast S256x256 (View.ld xA (Rect.unit (s := S32x256x256) ![16, 0, 0] S1x256x256.size inb_S32x256x256_S1x256x256_16_0_0)) shapeCasts_S1x256x256_S256x256) bitsLt_bf16_f32) (constant S32x256 .f32 0x00000000#32)) (matmul dot_S32x256_S256x256_S32x256_1_1_0_0_n_n none (extractStridedSlice S32x256 ![0, 4352] (h0 l0 xA l3 l5 l9) slices_S32x8192_o0_4352_S32x256) (truncf .bf16 (shapeCast S256x256 (View.ld xA (Rect.unit (s := S32x256x256) ![17, 0, 0] S1x256x256.size inb_S32x256x256_S1x256x256_17_0_0)) shapeCasts_S1x256x256_S256x256) bitsLt_bf16_f32) (constant S32x256 .f32 0x00000000#32)) (matmul dot_S32x256_S256x256_S32x256_1_1_0_0_n_n none (extractStridedSlice S32x256 ![0, 4608] (h0 l0 xA l3 l5 l9) slices_S32x8192_o0_4608_S32x256) (truncf .bf16 (shapeCast S256x256 (View.ld xA (Rect.unit (s := S32x256x256) ![18, 0, 0] S1x256x256.size inb_S32x256x256_S1x256x256_18_0_0)) shapeCasts_S1x256x256_S256x256) bitsLt_bf16_f32) (constant S32x256 .f32 0x00000000#32)) (matmul dot_S32x256_S256x256_S32x256_1_1_0_0_n_n none (extractStridedSlice S32x256 ![0, 4864] (h0 l0 xA l3 l5 l9) slices_S32x8192_o0_4864_S32x256) (truncf .bf16 (shapeCast S256x256 (View.ld xA (Rect.unit (s := S32x256x256) ![19, 0, 0] S1x256x256.size inb_S32x256x256_S1x256x256_19_0_0)) shapeCasts_S1x256x256_S256x256) bitsLt_bf16_f32) (constant S32x256 .f32 0x00000000#32)) (matmul dot_S32x256_S256x256_S32x256_1_1_0_0_n_n none (extractStridedSlice S32x256 ![0, 5120] (h0 l0 xA l3 l5 l9) slices_S32x8192_o0_5120_S32x256) (truncf .bf16 (shapeCast S256x256 (View.ld xA (Rect.unit (s := S32x256x256) ![20, 0, 0] S1x256x256.size inb_S32x256x256_S1x256x256_20_0_0)) shapeCasts_S1x256x256_S256x256) bitsLt_bf16_f32) (constant S32x256 .f32 0x00000000#32)) (matmul dot_S32x256_S256x256_S32x256_1_1_0_0_n_n none (extractStridedSlice S32x256 ![0, 5376] (h0 l0 xA l3 l5 l9) slices_S32x8192_o0_5376_S32x256) (truncf .bf16 (shapeCast S256x256 (View.ld xA (Rect.unit (s := S32x256x256) ![21, 0, 0] S1x256x256.size inb_S32x256x256_S1x256x256_21_0_0)) shapeCasts_S1x256x256_S256x256) bitsLt_bf16_f32) (constant S32x256 .f32 0x00000000#32)) (matmul dot_S32x256_S256x256_S32x256_1_1_0_0_n_n none (extractStridedSlice S32x256 ![0, 5632] (h0 l0 xA l3 l5 l9) slices_S32x8192_o0_5632_S32x256) (truncf .bf16 (shapeCast S256x256 (View.ld xA (Rect.unit (s := S32x256x256) ![22, 0, 0] S1x256x256.size inb_S32x256x256_S1x256x256_22_0_0)) shapeCasts_S1x256x256_S256x256) bitsLt_bf16_f32) (constant S32x256 .f32 0x00000000#32)) (matmul dot_S32x256_S256x256_S32x256_1_1_0_0_n_n none (extractStridedSlice S32x256 ![0, 5888] (h0 l0 xA l3 l5 l9) slices_S32x8192_o0_5888_S32x256) (truncf .bf16 (shapeCast S256x256 (View.ld xA (Rect.unit (s := S32x256x256) ![23, 0, 0] S1x256x256.size inb_S32x256x256_S1x256x256_23_0_0)) shapeCasts_S1x256x256_S256x256) bitsLt_bf16_f32) (constant S32x256 .f32 0x00000000#32)) l4 = (lhs1 l0 xA l3 l4 l5 l9) := rfl
theorem e105 : k0_pay105 (b1 l9) (truncf .bf16 (shapeCast S256x256 (View.ld xA (Rect.unit (s := S32x256x256) ![0, 0, 0] S1x256x256.size inb_S32x256x256_S1x256x256_0_0_0)) shapeCasts_S1x256x256_S256x256) bitsLt_bf16_f32) (truncf .bf16 (shapeCast S256x256 (View.ld xA (Rect.unit (s := S32x256x256) ![24, 0, 0] S1x256x256.size inb_S32x256x256_S1x256x256_24_0_0)) shapeCasts_S1x256x256_S256x256) bitsLt_bf16_f32) (truncf .bf16 (shapeCast S256x256 (View.ld xA (Rect.unit (s := S32x256x256) ![25, 0, 0] S1x256x256.size inb_S32x256x256_S1x256x256_25_0_0)) shapeCasts_S1x256x256_S256x256) bitsLt_bf16_f32) (truncf .bf16 (shapeCast S256x256 (View.ld xA (Rect.unit (s := S32x256x256) ![26, 0, 0] S1x256x256.size inb_S32x256x256_S1x256x256_26_0_0)) shapeCasts_S1x256x256_S256x256) bitsLt_bf16_f32) (truncf .bf16 (shapeCast S256x256 (View.ld xA (Rect.unit (s := S32x256x256) ![27, 0, 0] S1x256x256.size inb_S32x256x256_S1x256x256_27_0_0)) shapeCasts_S1x256x256_S256x256) bitsLt_bf16_f32) (truncf .bf16 (shapeCast S256x256 (View.ld xA (Rect.unit (s := S32x256x256) ![28, 0, 0] S1x256x256.size inb_S32x256x256_S1x256x256_28_0_0)) shapeCasts_S1x256x256_S256x256) bitsLt_bf16_f32) (truncf .bf16 (shapeCast S256x256 (View.ld xA (Rect.unit (s := S32x256x256) ![29, 0, 0] S1x256x256.size inb_S32x256x256_S1x256x256_29_0_0)) shapeCasts_S1x256x256_S256x256) bitsLt_bf16_f32) (truncf .bf16 (shapeCast S256x256 (View.ld xA (Rect.unit (s := S32x256x256) ![30, 0, 0] S1x256x256.size inb_S32x256x256_S1x256x256_30_0_0)) shapeCasts_S1x256x256_S256x256) bitsLt_bf16_f32) (truncf .bf16 (shapeCast S256x256 (View.ld xA (Rect.unit (s := S32x256x256) ![31, 0, 0] S1x256x256.size inb_S32x256x256_S1x256x256_31_0_0)) shapeCasts_S1x256x256_S256x256) bitsLt_bf16_f32) (full0 l0 l3) (mask0 l0 xA l3 l5 l9) (h0 l0 xA l3 l5 l9) (matmul dot_S32x256_S256x256_S32x256_1_1_0_0_n_n none (extractStridedSlice S32x256 ![0, 0] (h0 l0 xA l3 l5 l9) slices_S32x8192_o0_0_S32x256) (truncf .bf16 (shapeCast S256x256 (View.ld xA (Rect.unit (s := S32x256x256) ![0, 0, 0] S1x256x256.size inb_S32x256x256_S1x256x256_0_0_0)) shapeCasts_S1x256x256_S256x256) bitsLt_bf16_f32) (constant S32x256 .f32 0x00000000#32)) (matmul dot_S32x256_S256x256_S32x256_1_1_0_0_n_n none (extractStridedSlice S32x256 ![0, 256] (h0 l0 xA l3 l5 l9) slices_S32x8192_o0_256_S32x256) (truncf .bf16 (shapeCast S256x256 (View.ld xA (Rect.unit (s := S32x256x256) ![1, 0, 0] S1x256x256.size inb_S32x256x256_S1x256x256_1_0_0)) shapeCasts_S1x256x256_S256x256) bitsLt_bf16_f32) (constant S32x256 .f32 0x00000000#32)) (matmul dot_S32x256_S256x256_S32x256_1_1_0_0_n_n none (extractStridedSlice S32x256 ![0, 512] (h0 l0 xA l3 l5 l9) slices_S32x8192_o0_512_S32x256) (truncf .bf16 (shapeCast S256x256 (View.ld xA (Rect.unit (s := S32x256x256) ![2, 0, 0] S1x256x256.size inb_S32x256x256_S1x256x256_2_0_0)) shapeCasts_S1x256x256_S256x256) bitsLt_bf16_f32) (constant S32x256 .f32 0x00000000#32)) (matmul dot_S32x256_S256x256_S32x256_1_1_0_0_n_n none (extractStridedSlice S32x256 ![0, 768] (h0 l0 xA l3 l5 l9) slices_S32x8192_o0_768_S32x256) (truncf .bf16 (shapeCast S256x256 (View.ld xA (Rect.unit (s := S32x256x256) ![3, 0, 0] S1x256x256.size inb_S32x256x256_S1x256x256_3_0_0)) shapeCasts_S1x256x256_S256x256) bitsLt_bf16_f32) (constant S32x256 .f32 0x00000000#32)) (matmul dot_S32x256_S256x256_S32x256_1_1_0_0_n_n none (extractStridedSlice S32x256 ![0, 1024] (h0 l0 xA l3 l5 l9) slices_S32x8192_o0_1024_S32x256) (truncf .bf16 (shapeCast S256x256 (View.ld xA (Rect.unit (s := S32x256x256) ![4, 0, 0] S1x256x256.size inb_S32x256x256_S1x256x256_4_0_0)) shapeCasts_S1x256x256_S256x256) bitsLt_bf16_f32) (constant S32x256 .f32 0x00000000#32)) (matmul dot_S32x256_S256x256_S32x256_1_1_0_0_n_n none (extractStridedSlice S32x256 ![0, 1280] (h0 l0 xA l3 l5 l9) slices_S32x8192_o0_1280_S32x256) (truncf .bf16 (shapeCast S256x256 (View.ld xA (Rect.unit (s := S32x256x256) ![5, 0, 0] S1x256x256.size inb_S32x256x256_S1x256x256_5_0_0)) shapeCasts_S1x256x256_S256x256) bitsLt_bf16_f32) (constant S32x256 .f32 0x00000000#32)) (matmul dot_S32x256_S256x256_S32x256_1_1_0_0_n_n none (extractStridedSlice S32x256 ![0, 1536] (h0 l0 xA l3 l5 l9) slices_S32x8192_o0_1536_S32x256) (truncf .bf16 (shapeCast S256x256 (View.ld xA (Rect.unit (s := S32x256x256) ![6, 0, 0] S1x256x256.size inb_S32x256x256_S1x256x256_6_0_0)) shapeCasts_S1x256x256_S256x256) bitsLt_bf16_f32) (constant S32x256 .f32 0x00000000#32)) (matmul dot_S32x256_S256x256_S32x256_1_1_0_0_n_n none (extractStridedSlice S32x256 ![0, 1792] (h0 l0 xA l3 l5 l9) slices_S32x8192_o0_1792_S32x256) (truncf .bf16 (shapeCast S256x256 (View.ld xA (Rect.unit (s := S32x256x256) ![7, 0, 0] S1x256x256.size inb_S32x256x256_S1x256x256_7_0_0)) shapeCasts_S1x256x256_S256x256) bitsLt_bf16_f32) (constant S32x256 .f32 0x00000000#32)) (matmul dot_S32x256_S256x256_S32x256_1_1_0_0_n_n none (extractStridedSlice S32x256 ![0, 2048] (h0 l0 xA l3 l5 l9) slices_S32x8192_o0_2048_S32x256) (truncf .bf16 (shapeCast S256x256 (View.ld xA (Rect.unit (s := S32x256x256) ![8, 0, 0] S1x256x256.size inb_S32x256x256_S1x256x256_8_0_0)) shapeCasts_S1x256x256_S256x256) bitsLt_bf16_f32) (constant S32x256 .f32 0x00000000#32)) (matmul dot_S32x256_S256x256_S32x256_1_1_0_0_n_n none (extractStridedSlice S32x256 ![0, 2304] (h0 l0 xA l3 l5 l9) slices_S32x8192_o0_2304_S32x256) (truncf .bf16 (shapeCast S256x256 (View.ld xA (Rect.unit (s := S32x256x256) ![9, 0, 0] S1x256x256.size inb_S32x256x256_S1x256x256_9_0_0)) shapeCasts_S1x256x256_S256x256) bitsLt_bf16_f32) (constant S32x256 .f32 0x00000000#32)) (matmul dot_S32x256_S256x256_S32x256_1_1_0_0_n_n none (extractStridedSlice S32x256 ![0, 2560] (h0 l0 xA l3 l5 l9) slices_S32x8192_o0_2560_S32x256) (truncf .bf16 (shapeCast S256x256 (View.ld xA (Rect.unit (s := S32x256x256) ![10, 0, 0] S1x256x256.size inb_S32x256x256_S1x256x256_10_0_0)) shapeCasts_S1x256x256_S256x256) bitsLt_bf16_f32) (constant S32x256 .f32 0x00000000#32)) (matmul dot_S32x256_S256x256_S32x256_1_1_0_0_n_n none (extractStridedSlice S32x256 ![0, 2816] (h0 l0 xA l3 l5 l9) slices_S32x8192_o0_2816_S32x256) (truncf .bf16 (shapeCast S256x256 (View.ld xA (Rect.unit (s := S32x256x256) ![11, 0, 0] S1x256x256.size inb_S32x256x256_S1x256x256_11_0_0)) shapeCasts_S1x256x256_S256x256) bitsLt_bf16_f32) (constant S32x256 .f32 0x00000000#32)) (matmul dot_S32x256_S256x256_S32x256_1_1_0_0_n_n none (extractStridedSlice S32x256 ![0, 3072] (h0 l0 xA l3 l5 l9) slices_S32x8192_o0_3072_S32x256) (truncf .bf16 (shapeCast S256x256 (View.ld xA (Rect.unit (s := S32x256x256) ![12, 0, 0] S1x256x256.size inb_S32x256x256_S1x256x256_12_0_0)) shapeCasts_S1x256x256_S256x256) bitsLt_bf16_f32) (constant S32x256 .f32 0x00000000#32)) (matmul dot_S32x256_S256x256_S32x256_1_1_0_0_n_n none (extractStridedSlice S32x256 ![0, 3328] (h0 l0 xA l3 l5 l9) slices_S32x8192_o0_3328_S32x256) (truncf .bf16 (shapeCast S256x256 (View.ld xA (Rect.unit (s := S32x256x256) ![13, 0, 0] S1x256x256.size inb_S32x256x256_S1x256x256_13_0_0)) shapeCasts_S1x256x256_S256x256) bitsLt_bf16_f32) (constant S32x256 .f32 0x00000000#32)) (matmul dot_S32x256_S256x256_S32x256_1_1_0_0_n_n none (extractStridedSlice S32x256 ![0, 3584] (h0 l0 xA l3 l5 l9) slices_S32x8192_o0_3584_S32x256) (truncf .bf16 (shapeCast S256x256 (View.ld xA (Rect.unit (s := S32x256x256) ![14, 0, 0] S1x256x256.size inb_S32x256x256_S1x256x256_14_0_0)) shapeCasts_S1x256x256_S256x256) bitsLt_bf16_f32) (constant S32x256 .f32 0x00000000#32)) (matmul dot_S32x256_S256x256_S32x256_1_1_0_0_n_n none (extractStridedSlice S32x256 ![0, 3840] (h0 l0 xA l3 l5 l9) slices_S32x8192_o0_3840_S32x256) (truncf .bf16 (shapeCast S256x256 (View.ld xA (Rect.unit (s := S32x256x256) ![15, 0, 0] S1x256x256.size inb_S32x256x256_S1x256x256_15_0_0)) shapeCasts_S1x256x256_S256x256) bitsLt_bf16_f32) (constant S32x256 .f32 0x00000000#32)) (matmul dot_S32x256_S256x256_S32x256_1_1_0_0_n_n none (extractStridedSlice S32x256 ![0, 4096] (h0 l0 xA l3 l5 l9) slices_S32x8192_o0_4096_S32x256) (truncf .bf16 (shapeCast S256x256 (View.ld xA (Rect.unit (s := S32x256x256) ![16, 0, 0] S1x256x256.size inb_S32x256x256_S1x256x256_16_0_0)) shapeCasts_S1x256x256_S256x256) bitsLt_bf16_f32) (constant S32x256 .f32 0x00000000#32)) (matmul dot_S32x256_S256x256_S32x256_1_1_0_0_n_n none (extractStridedSlice S32x256 ![0, 4352] (h0 l0 xA l3 l5 l9) slices_S32x8192_o0_4352_S32x256) (truncf .bf16 (shapeCast S256x256 (View.ld xA (Rect.unit (s := S32x256x256) ![17, 0, 0] S1x256x256.size inb_S32x256x256_S1x256x256_17_0_0)) shapeCasts_S1x256x256_S256x256) bitsLt_bf16_f32) (constant S32x256 .f32 0x00000000#32)) (matmul dot_S32x256_S256x256_S32x256_1_1_0_0_n_n none (extractStridedSlice S32x256 ![0, 4608] (h0 l0 xA l3 l5 l9) slices_S32x8192_o0_4608_S32x256) (truncf .bf16 (shapeCast S256x256 (View.ld xA (Rect.unit (s := S32x256x256) ![18, 0, 0] S1x256x256.size inb_S32x256x256_S1x256x256_18_0_0)) shapeCasts_S1x256x256_S256x256) bitsLt_bf16_f32) (constant S32x256 .f32 0x00000000#32)) (matmul dot_S32x256_S256x256_S32x256_1_1_0_0_n_n none (extractStridedSlice S32x256 ![0, 4864] (h0 l0 xA l3 l5 l9) slices_S32x8192_o0_4864_S32x256) (truncf .bf16 (shapeCast S256x256 (View.ld xA (Rect.unit (s := S32x256x256) ![19, 0, 0] S1x256x256.size inb_S32x256x256_S1x256x256_19_0_0)) shapeCasts_S1x256x256_S256x256) bitsLt_bf16_f32) (constant S32x256 .f32 0x00000000#32)) (matmul dot_S32x256_S256x256_S32x256_1_1_0_0_n_n none (extractStridedSlice S32x256 ![0, 5120] (h0 l0 xA l3 l5 l9) slices_S32x8192_o0_5120_S32x256) (truncf .bf16 (shapeCast S256x256 (View.ld xA (Rect.unit (s := S32x256x256) ![20, 0, 0] S1x256x256.size inb_S32x256x256_S1x256x256_20_0_0)) shapeCasts_S1x256x256_S256x256) bitsLt_bf16_f32) (constant S32x256 .f32 0x00000000#32)) (matmul dot_S32x256_S256x256_S32x256_1_1_0_0_n_n none (extractStridedSlice S32x256 ![0, 5376] (h0 l0 xA l3 l5 l9) slices_S32x8192_o0_5376_S32x256) (truncf .bf16 (shapeCast S256x256 (View.ld xA (Rect.unit (s := S32x256x256) ![21, 0, 0] S1x256x256.size inb_S32x256x256_S1x256x256_21_0_0)) shapeCasts_S1x256x256_S256x256) bitsLt_bf16_f32) (constant S32x256 .f32 0x00000000#32)) (matmul dot_S32x256_S256x256_S32x256_1_1_0_0_n_n none (extractStridedSlice S32x256 ![0, 5632] (h0 l0 xA l3 l5 l9) slices_S32x8192_o0_5632_S32x256) (truncf .bf16 (shapeCast S256x256 (View.ld xA (Rect.unit (s := S32x256x256) ![22, 0, 0] S1x256x256.size inb_S32x256x256_S1x256x256_22_0_0)) shapeCasts_S1x256x256_S256x256) bitsLt_bf16_f32) (constant S32x256 .f32 0x00000000#32)) (matmul dot_S32x256_S256x256_S32x256_1_1_0_0_n_n none (extractStridedSlice S32x256 ![0, 5888] (h0 l0 xA l3 l5 l9) slices_S32x8192_o0_5888_S32x256) (truncf .bf16 (shapeCast S256x256 (View.ld xA (Rect.unit (s := S32x256x256) ![23, 0, 0] S1x256x256.size inb_S32x256x256_S1x256x256_23_0_0)) shapeCasts_S1x256x256_S256x256) bitsLt_bf16_f32) (constant S32x256 .f32 0x00000000#32)) l4 = (matmul dot_S32x256_S256x256_S32x256_1_1_0_0_n_n none (extractStridedSlice S32x256 ![0, 0] (lhs1 l0 xA l3 l4 l5 l9) slices_S32x8192_o0_0_S32x256) (truncf .bf16 (shapeCast S256x256 (View.ld xA (Rect.unit (s := S32x256x256) ![0, 0, 0] S1x256x256.size inb_S32x256x256_S1x256x256_0_0_0)) shapeCasts_S1x256x256_S256x256) bitsLt_bf16_f32) (constant S32x256 .f32 0x00000000#32)) := rfl
theorem e106 : k0_pay106 (b1 l9) (truncf .bf16 (shapeCast S256x256 (View.ld xA (Rect.unit (s := S32x256x256) ![1, 0, 0] S1x256x256.size inb_S32x256x256_S1x256x256_1_0_0)) shapeCasts_S1x256x256_S256x256) bitsLt_bf16_f32) (truncf .bf16 (shapeCast S256x256 (View.ld xA (Rect.unit (s := S32x256x256) ![24, 0, 0] S1x256x256.size inb_S32x256x256_S1x256x256_24_0_0)) shapeCasts_S1x256x256_S256x256) bitsLt_bf16_f32) (truncf .bf16 (shapeCast S256x256 (View.ld xA (Rect.unit (s := S32x256x256) ![25, 0, 0] S1x256x256.size inb_S32x256x256_S1x256x256_25_0_0)) shapeCasts_S1x256x256_S256x256) bitsLt_bf16_f32) (truncf .bf16 (shapeCast S256x256 (View.ld xA (Rect.unit (s := S32x256x256) ![26, 0, 0] S1x256x256.size inb_S32x256x256_S1x256x256_26_0_0)) shapeCasts_S1x256x256_S256x256) bitsLt_bf16_f32) (truncf .bf16 (shapeCast S256x256 (View.ld xA (Rect.unit (s := S32x256x256) ![27, 0, 0] S1x256x256.size inb_S32x256x256_S1x256x256_27_0_0)) shapeCasts_S1x256x256_S256x256) bitsLt_bf16_f32) (truncf .bf16 (shapeCast S256x256 (View.ld xA (Rect.unit (s := S32x256x256) ![28, 0, 0] S1x256x256.size inb_S32x256x256_S1x256x256_28_0_0)) shapeCasts_S1x256x256_S256x256) bitsLt_bf16_f32) (truncf .bf16 (shapeCast S256x256 (View.ld xA (Rect.unit (s := S32x256x256) ![29, 0, 0] S1x256x256.size inb_S32x256x256_S1x256x256_29_0_0)) shapeCasts_S1x256x256_S256x256) bitsLt_bf16_f32) (truncf .bf16 (shapeCast S256x256 (View.ld xA (Rect.unit (s := S32x256x256) ![30, 0, 0] S1x256x256.size inb_S32x256x256_S1x256x256_30_0_0)) shapeCasts_S1x256x256_S256x256) bitsLt_bf16_f32) (truncf .bf16 (shapeCast S256x256 (View.ld xA (Rect.unit (s := S32x256x256) ![31, 0, 0] S1x256x256.size inb_S32x256x256_S1x256x256_31_0_0)) shapeCasts_S1x256x256_S256x256) bitsLt_bf16_f32) (full0 l0 l3) (mask0 l0 xA l3 l5 l9) (h0 l0 xA l3 l5 l9) (matmul dot_S32x256_S256x256_S32x256_1_1_0_0_n_n none (extractStridedSlice S32x256 ![0, 0] (h0 l0 xA l3 l5 l9) slices_S32x8192_o0_0_S32x256) (truncf .bf16 (shapeCast S256x256 (View.ld xA (Rect.unit (s := S32x256x256) ![0, 0, 0] S1x256x256.size inb_S32x256x256_S1x256x256_0_0_0)) shapeCasts_S1x256x256_S256x256) bitsLt_bf16_f32) (constant S32x256 .f32 0x00000000#32)) (matmul dot_S32x256_S256x256_S32x256_1_1_0_0_n_n none (extractStridedSlice S32x256 ![0, 256] (h0 l0 xA l3 l5 l9) slices_S32x8192_o0_256_S32x256) (truncf .bf16 (shapeCast S256x256 (View.ld xA (Rect.unit (s := S32x256x256) ![1, 0, 0] S1x256x256.size inb_S32x256x256_S1x256x256_1_0_0)) shapeCasts_S1x256x256_S256x256) bitsLt_bf16_f32) (constant S32x256 .f32 0x00000000#32)) (matmul dot_S32x256_S256x256_S32x256_1_1_0_0_n_n none (extractStridedSlice S32x256 ![0, 512] (h0 l0 xA l3 l5 l9) slices_S32x8192_o0_512_S32x256) (truncf .bf16 (shapeCast S256x256 (View.ld xA (Rect.unit (s := S32x256x256) ![2, 0, 0] S1x256x256.size inb_S32x256x256_S1x256x256_2_0_0)) shapeCasts_S1x256x256_S256x256) bitsLt_bf16_f32) (constant S32x256 .f32 0x00000000#32)) (matmul dot_S32x256_S256x256_S32x256_1_1_0_0_n_n none (extractStridedSlice S32x256 ![0, 768] (h0 l0 xA l3 l5 l9) slices_S32x8192_o0_768_S32x256) (truncf .bf16 (shapeCast S256x256 (View.ld xA (Rect.unit (s := S32x256x256) ![3, 0, 0] S1x256x256.size inb_S32x256x256_S1x256x256_3_0_0)) shapeCasts_S1x256x256_S256x256) bitsLt_bf16_f32) (constant S32x256 .f32 0x00000000#32)) (matmul dot_S32x256_S256x256_S32x256_1_1_0_0_n_n none (extractStridedSlice S32x256 ![0, 1024] (h0 l0 xA l3 l5 l9) slices_S32x8192_o0_1024_S32x256) (truncf .bf16 (shapeCast S256x256 (View.ld xA (Rect.unit (s := S32x256x256) ![4, 0, 0] S1x256x256.size inb_S32x256x256_S1x256x256_4_0_0)) shapeCasts_S1x256x256_S256x256) bitsLt_bf16_f32) (constant S32x256 .f32 0x00000000#32)) (matmul dot_S32x256_S256x256_S32x256_1_1_0_0_n_n none (extractStridedSlice S32x256 ![0, 1280] (h0 l0 xA l3 l5 l9) slices_S32x8192_o0_1280_S32x256) (truncf .bf16 (shapeCast S256x256 (View.ld xA (Rect.unit (s := S32x256x256) ![5, 0, 0] S1x256x256.size inb_S32x256x256_S1x256x256_5_0_0)) shapeCasts_S1x256x256_S256x256) bitsLt_bf16_f32) (constant S32x256 .f32 0x00000000#32)) (matmul dot_S32x256_S256x256_S32x256_1_1_0_0_n_n none (extractStridedSlice S32x256 ![0, 1536] (h0 l0 xA l3 l5 l9) slices_S32x8192_o0_1536_S32x256) (truncf .bf16 (shapeCast S256x256 (View.ld xA (Rect.unit (s := S32x256x256) ![6, 0, 0] S1x256x256.size inb_S32x256x256_S1x256x256_6_0_0)) shapeCasts_S1x256x256_S256x256) bitsLt_bf16_f32) (constant S32x256 .f32 0x00000000#32)) (matmul dot_S32x256_S256x256_S32x256_1_1_0_0_n_n none (extractStridedSlice S32x256 ![0, 1792] (h0 l0 xA l3 l5 l9) slices_S32x8192_o0_1792_S32x256) (truncf .bf16 (shapeCast S256x256 (View.ld xA (Rect.unit (s := S32x256x256) ![7, 0, 0] S1x256x256.size inb_S32x256x256_S1x256x256_7_0_0)) shapeCasts_S1x256x256_S256x256) bitsLt_bf16_f32) (constant S32x256 .f32 0x00000000#32)) (matmul dot_S32x256_S256x256_S32x256_1_1_0_0_n_n none (extractStridedSlice S32x256 ![0, 2048] (h0 l0 xA l3 l5 l9) slices_S32x8192_o0_2048_S32x256) (truncf .bf16 (shapeCast S256x256 (View.ld xA (Rect.unit (s := S32x256x256) ![8, 0, 0] S1x256x256.size inb_S32x256x256_S1x256x256_8_0_0)) shapeCasts_S1x256x256_S256x256) bitsLt_bf16_f32) (constant S32x256 .f32 0x00000000#32)) (matmul dot_S32x256_S256x256_S32x256_1_1_0_0_n_n none (extractStridedSlice S32x256 ![0, 2304] (h0 l0 xA l3 l5 l9) slices_S32x8192_o0_2304_S32x256) (truncf .bf16 (shapeCast S256x256 (View.ld xA (Rect.unit (s := S32x256x256) ![9, 0, 0] S1x256x256.size inb_S32x256x256_S1x256x256_9_0_0)) shapeCasts_S1x256x256_S256x256) bitsLt_bf16_f32) (constant S32x256 .f32 0x00000000#32)) (matmul dot_S32x256_S256x256_S32x256_1_1_0_0_n_n none (extractStridedSlice S32x256 ![0, 2560] (h0 l0 xA l3 l5 l9) slices_S32x8192_o0_2560_S32x256) (truncf .bf16 (shapeCast S256x256 (View.ld xA (Rect.unit (s := S32x256x256) ![10, 0, 0] S1x256x256.size inb_S32x256x256_S1x256x256_10_0_0)) shapeCasts_S1x256x256_S256x256) bitsLt_bf16_f32) (constant S32x256 .f32 0x00000000#32)) (matmul dot_S32x256_S256x256_S32x256_1_1_0_0_n_n none (extractStridedSlice S32x256 ![0, 2816] (h0 l0 xA l3 l5 l9) slices_S32x8192_o0_2816_S32x256) (truncf .bf16 (shapeCast S256x256 (View.ld xA (Rect.unit (s := S32x256x256) ![11, 0, 0] S1x256x256.size inb_S32x256x256_S1x256x256_11_0_0)) shapeCasts_S1x256x256_S256x256) bitsLt_bf16_f32) (constant S32x256 .f32 0x00000000#32)) (matmul dot_S32x256_S256x256_S32x256_1_1_0_0_n_n none (extractStridedSlice S32x256 ![0, 3072] (h0 l0 xA l3 l5 l9) slices_S32x8192_o0_3072_S32x256) (truncf .bf16 (shapeCast S256x256 (View.ld xA (Rect.unit (s := S32x256x256) ![12, 0, 0] S1x256x256.size inb_S32x256x256_S1x256x256_12_0_0)) shapeCasts_S1x256x256_S256x256) bitsLt_bf16_f32) (constant S32x256 .f32 0x00000000#32)) (matmul dot_S32x256_S256x256_S32x256_1_1_0_0_n_n none (extractStridedSlice S32x256 ![0, 3328] (h0 l0 xA l3 l5 l9) slices_S32x8192_o0_3328_S32x256) (truncf .bf16 (shapeCast S256x256 (View.ld xA (Rect.unit (s := S32x256x256) ![13, 0, 0] S1x256x256.size inb_S32x256x256_S1x256x256_13_0_0)) shapeCasts_S1x256x256_S256x256) bitsLt_bf16_f32) (constant S32x256 .f32 0x00000000#32)) (matmul dot_S32x256_S256x256_S32x256_1_1_0_0_n_n none (extractStridedSlice S32x256 ![0, 3584] (h0 l0 xA l3 l5 l9) slices_S32x8192_o0_3584_S32x256) (truncf .bf16 (shapeCast S256x256 (View.ld xA (Rect.unit (s := S32x256x256) ![14, 0, 0] S1x256x256.size inb_S32x256x256_S1x256x256_14_0_0)) shapeCasts_S1x256x256_S256x256) bitsLt_bf16_f32) (constant S32x256 .f32 0x00000000#32)) (matmul dot_S32x256_S256x256_S32x256_1_1_0_0_n_n none (extractStridedSlice S32x256 ![0, 3840] (h0 l0 xA l3 l5 l9) slices_S32x8192_o0_3840_S32x256) (truncf .bf16 (shapeCast S256x256 (View.ld xA (Rect.unit (s := S32x256x256) ![15, 0, 0] S1x256x256.size inb_S32x256x256_S1x256x256_15_0_0)) shapeCasts_S1x256x256_S256x256) bitsLt_bf16_f32) (constant S32x256 .f32 0x00000000#32)) (matmul dot_S32x256_S256x256_S32x256_1_1_0_0_n_n none (extractStridedSlice S32x256 ![0, 4096] (h0 l0 xA l3 l5 l9) slices_S32x8192_o0_4096_S32x256) (truncf .bf16 (shapeCast S256x256 (View.ld xA (Rect.unit (s := S32x256x256) ![16, 0, 0] S1x256x256.size inb_S32x256x256_S1x256x256_16_0_0)) shapeCasts_S1x256x256_S256x256) bitsLt_bf16_f32) (constant S32x256 .f32 0x00000000#32)) (matmul dot_S32x256_S256x256_S32x256_1_1_0_0_n_n none (extractStridedSlice S32x256 ![0, 4352] (h0 l0 xA l3 l5 l9) slices_S32x8192_o0_4352_S32x256) (truncf .bf16 (shapeCast S256x256 (View.ld xA (Rect.unit (s := S32x256x256) ![17, 0, 0] S1x256x256.size inb_S32x256x256_S1x256x256_17_0_0)) shapeCasts_S1x256x256_S256x256) bitsLt_bf16_f32) (constant S32x256 .f32 0x00000000#32)) (matmul dot_S32x256_S256x256_S32x256_1_1_0_0_n_n none (extractStridedSlice S32x256 ![0, 4608] (h0 l0 xA l3 l5 l9) slices_S32x8192_o0_4608_S32x256) (truncf .bf16 (shapeCast S256x256 (View.ld xA (Rect.unit (s := S32x256x256) ![18, 0, 0] S1x256x256.size inb_S32x256x256_S1x256x256_18_0_0)) shapeCasts_S1x256x256_S256x256) bitsLt_bf16_f32) (constant S32x256 .f32 0x00000000#32)) (matmul dot_S32x256_S256x256_S32x256_1_1_0_0_n_n none (extractStridedSlice S32x256 ![0, 4864] (h0 l0 xA l3 l5 l9) slices_S32x8192_o0_4864_S32x256) (truncf .bf16 (shapeCast S256x256 (View.ld xA (Rect.unit (s := S32x256x256) ![19, 0, 0] S1x256x256.size inb_S32x256x256_S1x256x256_19_0_0)) shapeCasts_S1x256x256_S256x256) bitsLt_bf16_f32) (constant S32x256 .f32 0x00000000#32)) (matmul dot_S32x256_S256x256_S32x256_1_1_0_0_n_n none (extractStridedSlice S32x256 ![0, 5120] (h0 l0 xA l3 l5 l9) slices_S32x8192_o0_5120_S32x256) (truncf .bf16 (shapeCast S256x256 (View.ld xA (Rect.unit (s := S32x256x256) ![20, 0, 0] S1x256x256.size inb_S32x256x256_S1x256x256_20_0_0)) shapeCasts_S1x256x256_S256x256) bitsLt_bf16_f32) (constant S32x256 .f32 0x00000000#32)) (matmul dot_S32x256_S256x256_S32x256_1_1_0_0_n_n none (extractStridedSlice S32x256 ![0, 5376] (h0 l0 xA l3 l5 l9) slices_S32x8192_o0_5376_S32x256) (truncf .bf16 (shapeCast S256x256 (View.ld xA (Rect.unit (s := S32x256x256) ![21, 0, 0] S1x256x256.size inb_S32x256x256_S1x256x256_21_0_0)) shapeCasts_S1x256x256_S256x256) bitsLt_bf16_f32) (constant S32x256 .f32 0x00000000#32)) (matmul dot_S32x256_S256x256_S32x256_1_1_0_0_n_n none (extractStridedSlice S32x256 ![0, 5632] (h0 l0 xA l3 l5 l9) slices_S32x8192_o0_5632_S32x256) (truncf .bf16 (shapeCast S256x256 (View.ld xA (Rect.unit (s := S32x256x256) ![22, 0, 0] S1x256x256.size inb_S32x256x256_S1x256x256_22_0_0)) shapeCasts_S1x256x256_S256x256) bitsLt_bf16_f32) (constant S32x256 .f32 0x00000000#32)) (matmul dot_S32x256_S256x256_S32x256_1_1_0_0_n_n none (extractStridedSlice S32x256 ![0, 5888] (h0 l0 xA l3 l5 l9) slices_S32x8192_o0_5888_S32x256) (truncf .bf16 (shapeCast S256x256 (View.ld xA (Rect.unit (s := S32x256x256) ![23, 0, 0] S1x256x256.size inb_S32x256x256_S1x256x256_23_0_0)) shapeCasts_S1x256x256_S256x256) bitsLt_bf16_f32) (constant S32x256 .f32 0x00000000#32)) l4 = (matmul dot_S32x256_S256x256_S32x256_1_1_0_0_n_n none (extractStridedSlice S32x256 ![0, 256] (lhs1 l0 xA l3 l4 l5 l9) slices_S32x8192_o0_256_S32x256) (truncf .bf16 (shapeCast S256x256 (View.ld xA (Rect.unit (s := S32x256x256) ![1, 0, 0] S1x256x256.size inb_S32x256x256_S1x256x256_1_0_0)) shapeCasts_S1x256x256_S256x256) bitsLt_bf16_f32) (constant S32x256 .f32 0x00000000#32)) := rfl
theorem e107 : k0_pay107 (b1 l9) (truncf .bf16 (shapeCast S256x256 (View.ld xA (Rect.unit (s := S32x256x256) ![2, 0, 0] S1x256x256.size inb_S32x256x256_S1x256x256_2_0_0)) shapeCasts_S1x256x256_S256x256) bitsLt_bf16_f32) (truncf .bf16 (shapeCast S256x256 (View.ld xA (Rect.unit (s := S32x256x256) ![24, 0, 0] S1x256x256.size inb_S32x256x256_S1x256x256_24_0_0)) shapeCasts_S1x256x256_S256x256) bitsLt_bf16_f32) (truncf .bf16 (shapeCast S256x256 (View.ld xA (Rect.unit (s := S32x256x256) ![25, 0, 0] S1x256x256.size inb_S32x256x256_S1x256x256_25_0_0)) shapeCasts_S1x256x256_S256x256) bitsLt_bf16_f32) (truncf .bf16 (shapeCast S256x256 (View.ld xA (Rect.unit (s := S32x256x256) ![26, 0, 0] S1x256x256.size inb_S32x256x256_S1x256x256_26_0_0)) shapeCasts_S1x256x256_S256x256) bitsLt_bf16_f32) (truncf .bf16 (shapeCast S256x256 (View.ld xA (Rect.unit (s := S32x256x256) ![27, 0, 0] S1x256x256.size inb_S32x256x256_S1x256x256_27_0_0)) shapeCasts_S1x256x256_S256x256) bitsLt_bf16_f32) (truncf .bf16 (shapeCast S256x256 (View.ld xA (Rect.unit (s := S32x256x256) ![28, 0, 0] S1x256x256.size inb_S32x256x256_S1x256x256_28_0_0)) shapeCasts_S1x256x256_S256x256) bitsLt_bf16_f32) (truncf .bf16 (shapeCast S256x256 (View.ld xA (Rect.unit (s := S32x256x256) ![29, 0, 0] S1x256x256.size inb_S32x256x256_S1x256x256_29_0_0)) shapeCasts_S1x256x256_S256x256) bitsLt_bf16_f32) (truncf .bf16 (shapeCast S256x256 (View.ld xA (Rect.unit (s := S32x256x256) ![30, 0, 0] S1x256x256.size inb_S32x256x256_S1x256x256_30_0_0)) shapeCasts_S1x256x256_S256x256) bitsLt_bf16_f32) (truncf .bf16 (shapeCast S256x256 (View.ld xA (Rect.unit (s := S32x256x256) ![31, 0, 0] S1x256x256.size inb_S32x256x256_S1x256x256_31_0_0)) shapeCasts_S1x256x256_S256x256) bitsLt_bf16_f32) (full0 l0 l3) (mask0 l0 xA l3 l5 l9) (h0 l0 xA l3 l5 l9) (matmul dot_S32x256_S256x256_S32x256_1_1_0_0_n_n none (extractStridedSlice S32x256 ![0, 0] (h0 l0 xA l3 l5 l9) slices_S32x8192_o0_0_S32x256) (truncf .bf16 (shapeCast S256x256 (View.ld xA (Rect.unit (s := S32x256x256) ![0, 0, 0] S1x256x256.size inb_S32x256x256_S1x256x256_0_0_0)) shapeCasts_S1x256x256_S256x256) bitsLt_bf16_f32) (constant S32x256 .f32 0x00000000#32)) (matmul dot_S32x256_S256x256_S32x256_1_1_0_0_n_n none (extractStridedSlice S32x256 ![0, 256] (h0 l0 xA l3 l5 l9) slices_S32x8192_o0_256_S32x256) (truncf .bf16 (shapeCast S256x256 (View.ld xA (Rect.unit (s := S32x256x256) ![1, 0, 0] S1x256x256.size inb_S32x256x256_S1x256x256_1_0_0)) shapeCasts_S1x256x256_S256x256) bitsLt_bf16_f32) (constant S32x256 .f32 0x00000000#32)) (matmul dot_S32x256_S256x256_S32x256_1_1_0_0_n_n none (extractStridedSlice S32x256 ![0, 512] (h0 l0 xA l3 l5 l9) slices_S32x8192_o0_512_S32x256) (truncf .bf16 (shapeCast S256x256 (View.ld xA (Rect.unit (s := S32x256x256) ![2, 0, 0] S1x256x256.size inb_S32x256x256_S1x256x256_2_0_0)) shapeCasts_S1x256x256_S256x256) bitsLt_bf16_f32) (constant S32x256 .f32 0x00000000#32)) (matmul dot_S32x256_S256x256_S32x256_1_1_0_0_n_n none (extractStridedSlice S32x256 ![0, 768] (h0 l0 xA l3 l5 l9) slices_S32x8192_o0_768_S32x256) (truncf .bf16 (shapeCast S256x256 (View.ld xA (Rect.unit (s := S32x256x256) ![3, 0, 0] S1x256x256.size inb_S32x256x256_S1x256x256_3_0_0)) shapeCasts_S1x256x256_S256x256) bitsLt_bf16_f32) (constant S32x256 .f32 0x00000000#32)) (matmul dot_S32x256_S256x256_S32x256_1_1_0_0_n_n none (extractStridedSlice S32x256 ![0, 1024] (h0 l0 xA l3 l5 l9) slices_S32x8192_o0_1024_S32x256) (truncf .bf16 (shapeCast S256x256 (View.ld xA (Rect.unit (s := S32x256x256) ![4, 0, 0] S1x256x256.size inb_S32x256x256_S1x256x256_4_0_0)) shapeCasts_S1x256x256_S256x256) bitsLt_bf16_f32) (constant S32x256 .f32 0x00000000#32)) (matmul dot_S32x256_S256x256_S32x256_1_1_0_0_n_n none (extractStridedSlice S32x256 ![0, 1280] (h0 l0 xA l3 l5 l9) slices_S32x8192_o0_1280_S32x256) (truncf .bf16 (shapeCast S256x256 (View.ld xA (Rect.unit (s := S32x256x256) ![5, 0, 0] S1x256x256.size inb_S32x256x256_S1x256x256_5_0_0)) shapeCasts_S1x256x256_S256x256) bitsLt_bf16_f32) (constant S32x256 .f32 0x00000000#32)) (matmul dot_S32x256_S256x256_S32x256_1_1_0_0_n_n none (extractStridedSlice S32x256 ![0, 1536] (h0 l0 xA l3 l5 l9) slices_S32x8192_o0_1536_S32x256) (truncf .bf16 (shapeCast S256x256 (View.ld xA (Rect.unit (s := S32x256x256) ![6, 0, 0] S1x256x256.size inb_S32x256x256_S1x256x256_6_0_0)) shapeCasts_S1x256x256_S256x256) bitsLt_bf16_f32) (constant S32x256 .f32 0x00000000#32)) (matmul dot_S32x256_S256x256_S32x256_1_1_0_0_n_n none (extractStridedSlice S32x256 ![0, 1792] (h0 l0 xA l3 l5 l9) slices_S32x8192_o0_1792_S32x256) (truncf .bf16 (shapeCast S256x256 (View.ld xA (Rect.unit (s := S32x256x256) ![7, 0, 0] S1x256x256.size inb_S32x256x256_S1x256x256_7_0_0)) shapeCasts_S1x256x256_S256x256) bitsLt_bf16_f32) (constant S32x256 .f32 0x00000000#32)) (matmul dot_S32x256_S256x256_S32x256_1_1_0_0_n_n none (extractStridedSlice S32x256 ![0, 2048] (h0 l0 xA l3 l5 l9) slices_S32x8192_o0_2048_S32x256) (truncf .bf16 (shapeCast S256x256 (View.ld xA (Rect.unit (s := S32x256x256) ![8, 0, 0] S1x256x256.size inb_S32x256x256_S1x256x256_8_0_0)) shapeCasts_S1x256x256_S256x256) bitsLt_bf16_f32) (constant S32x256 .f32 0x00000000#32)) (matmul dot_S32x256_S256x256_S32x256_1_1_0_0_n_n none (extractStridedSlice S32x256 ![0, 2304] (h0 l0 xA l3 l5 l9) slices_S32x8192_o0_2304_S32x256) (truncf .bf16 (shapeCast S256x256 (View.ld xA (Rect.unit (s := S32x256x256) ![9, 0, 0] S1x256x256.size inb_S32x256x256_S1x256x256_9_0_0)) shapeCasts_S1x256x256_S256x256) bitsLt_bf16_f32) (constant S32x256 .f32 0x00000000#32)) (matmul dot_S32x256_S256x256_S32x256_1_1_0_0_n_n none (extractStridedSlice S32x256 ![0, 2560] (h0 l0 xA l3 l5 l9) slices_S32x8192_o0_2560_S32x256) (truncf .bf16 (shapeCast S256x256 (View.ld xA (Rect.unit (s := S32x256x256) ![10, 0, 0] S1x256x256.size inb_S32x256x256_S1x256x256_10_0_0)) shapeCasts_S1x256x256_S256x256) bitsLt_bf16_f32) (constant S32x256 .f32 0x00000000#32)) (matmul dot_S32x256_S256x256_S32x256_1_1_0_0_n_n none (extractStridedSlice S32x256 ![0, 2816] (h0 l0 xA l3 l5 l9) slices_S32x8192_o0_2816_S32x256) (truncf .bf16 (shapeCast S256x256 (View.ld xA (Rect.unit (s := S32x256x256) ![11, 0, 0] S1x256x256.size inb_S32x256x256_S1x256x256_11_0_0)) shapeCasts_S1x256x256_S256x256) bitsLt_bf16_f32) (constant S32x256 .f32 0x00000000#32)) (matmul dot_S32x256_S256x256_S32x256_1_1_0_0_n_n none (extractStridedSlice S32x256 ![0, 3072] (h0 l0 xA l3 l5 l9) slices_S32x8192_o0_3072_S32x256) (truncf .bf16 (shapeCast S256x256 (View.ld xA (Rect.unit (s := S32x256x256) ![12, 0, 0] S1x256x256.size inb_S32x256x256_S1x256x256_12_0_0)) shapeCasts_S1x256x256_S256x256) bitsLt_bf16_f32) (constant S32x256 .f32 0x00000000#32)) (matmul dot_S32x256_S256x256_S32x256_1_1_0_0_n_n none (extractStridedSlice S32x256 ![0, 3328] (h0 l0 xA l3 l5 l9) slices_S32x8192_o0_3328_S32x256) (truncf .bf16 (shapeCast S256x256 (View.ld xA (Rect.unit (s := S32x256x256) ![13, 0, 0] S1x256x256.size inb_S32x256x256_S1x256x256_13_0_0)) shapeCasts_S1x256x256_S256x256) bitsLt_bf16_f32) (constant S32x256 .f32 0x00000000#32)) (matmul dot_S32x256_S256x256_S32x256_1_1_0_0_n_n none (extractStridedSlice S32x256 ![0, 3584] (h0 l0 xA l3 l5 l9) slices_S32x8192_o0_3584_S32x256) (truncf .bf16 (shapeCast S256x256 (View.ld xA (Rect.unit (s := S32x256x256) ![14, 0, 0] S1x256x256.size inb_S32x256x256_S1x256x256_14_0_0)) shapeCasts_S1x256x256_S256x256) bitsLt_bf16_f32) (constant S32x256 .f32 0x00000000#32)) (matmul dot_S32x256_S256x256_S32x256_1_1_0_0_n_n none (extractStridedSlice S32x256 ![0, 3840] (h0 l0 xA l3 l5 l9) slices_S32x8192_o0_3840_S32x256) (truncf .bf16 (shapeCast S256x256 (View.ld xA (Rect.unit (s := S32x256x256) ![15, 0, 0] S1x256x256.size inb_S32x256x256_S1x256x256_15_0_0)) shapeCasts_S1x256x256_S256x256) bitsLt_bf16_f32) (constant S32x256 .f32 0x00000000#32)) (matmul dot_S32x256_S256x256_S32x256_1_1_0_0_n_n none (extractStridedSlice S32x256 ![0, 4096] (h0 l0 xA l3 l5 l9) slices_S32x8192_o0_4096_S32x256) (truncf .bf16 (shapeCast S256x256 (View.ld xA (Rect.unit (s := S32x256x256) ![16, 0, 0] S1x256x256.size inb_S32x256x256_S1x256x256_16_0_0)) shapeCasts_S1x256x256_S256x256) bitsLt_bf16_f32) (constant S32x256 .f32 0x00000000#32)) (matmul dot_S32x256_S256x256_S32x256_1_1_0_0_n_n none (extractStridedSlice S32x256 ![0, 4352] (h0 l0 xA l3 l5 l9) slices_S32x8192_o0_4352_S32x256) (truncf .bf16 (shapeCast S256x256 (View.ld xA (Rect.unit (s := S32x256x256) ![17, 0, 0] S1x256x256.size inb_S32x256x256_S1x256x256_17_0_0)) shapeCasts_S1x256x256_S256x256) bitsLt_bf16_f32) (constant S32x256 .f32 0x00000000#32)) (matmul dot_S32x256_S256x256_S32x256_1_1_0_0_n_n none (extractStridedSlice S32x256 ![0, 4608] (h0 l0 xA l3 l5 l9) slices_S32x8192_o0_4608_S32x256) (truncf .bf16 (shapeCast S256x256 (View.ld xA (Rect.unit (s := S32x256x256) ![18, 0, 0] S1x256x256.size inb_S32x256x256_S1x256x256_18_0_0)) shapeCasts_S1x256x256_S256x256) bitsLt_bf16_f32) (constant S32x256 .f32 0x00000000#32)) (matmul dot_S32x256_S256x256_S32x256_1_1_0_0_n_n none (extractStridedSlice S32x256 ![0, 4864] (h0 l0 xA l3 l5 l9) slices_S32x8192_o0_4864_S32x256) (truncf .bf16 (shapeCast S256x256 (View.ld xA (Rect.unit (s := S32x256x256) ![19, 0, 0] S1x256x256.size inb_S32x256x256_S1x256x256_19_0_0)) shapeCasts_S1x256x256_S256x256) bitsLt_bf16_f32) (constant S32x256 .f32 0x00000000#32)) (matmul dot_S32x256_S256x256_S32x256_1_1_0_0_n_n none (extractStridedSlice S32x256 ![0, 5120] (h0 l0 xA l3 l5 l9) slices_S32x8192_o0_5120_S32x256) (truncf .bf16 (shapeCast S256x256 (View.ld xA (Rect.unit (s := S32x256x256) ![20, 0, 0] S1x256x256.size inb_S32x256x256_S1x256x256_20_0_0)) shapeCasts_S1x256x256_S256x256) bitsLt_bf16_f32) (constant S32x256 .f32 0x00000000#32)) (matmul dot_S32x256_S256x256_S32x256_1_1_0_0_n_n none (extractStridedSlice S32x256 ![0, 5376] (h0 l0 xA l3 l5 l9) slices_S32x8192_o0_5376_S32x256) (truncf .bf16 (shapeCast S256x256 (View.ld xA (Rect.unit (s := S32x256x256) ![21, 0, 0] S1x256x256.size inb_S32x256x256_S1x256x256_21_0_0)) shapeCasts_S1x256x256_S256x256) bitsLt_bf16_f32) (constant S32x256 .f32 0x00000000#32)) (matmul dot_S32x256_S256x256_S32x256_1_1_0_0_n_n none (extractStridedSlice S32x256 ![0, 5632] (h0 l0 xA l3 l5 l9) slices_S32x8192_o0_5632_S32x256) (truncf .bf16 (shapeCast S256x256 (View.ld xA (Rect.unit (s := S32x256x256) ![22, 0, 0] S1x256x256.size inb_S32x256x256_S1x256x256_22_0_0)) shapeCasts_S1x256x256_S256x256) bitsLt_bf16_f32) (constant S32x256 .f32 0x00000000#32)) (matmul dot_S32x256_S256x256_S32x256_1_1_0_0_n_n none (extractStridedSlice S32x256 ![0, 5888] (h0 l0 xA l3 l5 l9) slices_S32x8192_o0_5888_S32x256) (truncf .bf16 (shapeCast S256x256 (View.ld xA (Rect.unit (s := S32x256x256) ![23, 0, 0] S1x256x256.size inb_S32x256x256_S1x256x256_23_0_0)) shapeCasts_S1x256x256_S256x256) bitsLt_bf16_f32) (constant S32x256 .f32 0x00000000#32)) l4 = (matmul dot_S32x256_S256x256_S32x256_1_1_0_0_n_n none (extractStridedSlice S32x256 ![0, 512] (lhs1 l0 xA l3 l4 l5 l9) slices_S32x8192_o0_512_S32x256) (truncf .bf16 (shapeCast S256x256 (View.ld xA (Rect.unit (s := S32x256x256) ![2, 0, 0] S1x256x256.size inb_S32x256x256_S1x256x256_2_0_0)) shapeCasts_S1x256x256_S256x256) bitsLt_bf16_f32) (constant S32x256 .f32 0x00000000#32)) := rfl
theorem e108 : k0_pay108 (b1 l9) (truncf .bf16 (shapeCast S256x256 (View.ld xA (Rect.unit (s := S32x256x256) ![3, 0, 0] S1x256x256.size inb_S32x256x256_S1x256x256_3_0_0)) shapeCasts_S1x256x256_S256x256) bitsLt_bf16_f32) (truncf .bf16 (shapeCast S256x256 (View.ld xA (Rect.unit (s := S32x256x256) ![24, 0, 0] S1x256x256.size inb_S32x256x256_S1x256x256_24_0_0)) shapeCasts_S1x256x256_S256x256) bitsLt_bf16_f32) (truncf .bf16 (shapeCast S256x256 (View.ld xA (Rect.unit (s := S32x256x256) ![25, 0, 0] S1x256x256.size inb_S32x256x256_S1x256x256_25_0_0)) shapeCasts_S1x256x256_S256x256) bitsLt_bf16_f32) (truncf .bf16 (shapeCast S256x256 (View.ld xA (Rect.unit (s := S32x256x256) ![26, 0, 0] S1x256x256.size inb_S32x256x256_S1x256x256_26_0_0)) shapeCasts_S1x256x256_S256x256) bitsLt_bf16_f32) (truncf .bf16 (shapeCast S256x256 (View.ld xA (Rect.unit (s := S32x256x256) ![27, 0, 0] S1x256x256.size inb_S32x256x256_S1x256x256_27_0_0)) shapeCasts_S1x256x256_S256x256) bitsLt_bf16_f32) (truncf .bf16 (shapeCast S256x256 (View.ld xA (Rect.unit (s := S32x256x256) ![28, 0, 0] S1x256x256.size inb_S32x256x256_S1x256x256_28_0_0)) shapeCasts_S1x256x256_S256x256) bitsLt_bf16_f32) (truncf .bf16 (shapeCast S256x256 (View.ld xA (Rect.unit (s := S32x256x256) ![29, 0, 0] S1x256x256.size inb_S32x256x256_S1x256x256_29_0_0)) shapeCasts_S1x256x256_S256x256) bitsLt_bf16_f32) (truncf .bf16 (shapeCast S256x256 (View.ld xA (Rect.unit (s := S32x256x256) ![30, 0, 0] S1x256x256.size inb_S32x256x256_S1x256x256_30_0_0)) shapeCasts_S1x256x256_S256x256) bitsLt_bf16_f32) (truncf .bf16 (shapeCast S256x256 (View.ld xA (Rect.unit (s := S32x256x256) ![31, 0, 0] S1x256x256.size inb_S32x256x256_S1x256x256_31_0_0)) shapeCasts_S1x256x256_S256x256) bitsLt_bf16_f32) (full0 l0 l3) (mask0 l0 xA l3 l5 l9) (h0 l0 xA l3 l5 l9) (matmul dot_S32x256_S256x256_S32x256_1_1_0_0_n_n none (extractStridedSlice S32x256 ![0, 0] (h0 l0 xA l3 l5 l9) slices_S32x8192_o0_0_S32x256) (truncf .bf16 (shapeCast S256x256 (View.ld xA (Rect.unit (s := S32x256x256) ![0, 0, 0] S1x256x256.size inb_S32x256x256_S1x256x256_0_0_0)) shapeCasts_S1x256x256_S256x256) bitsLt_bf16_f32) (constant S32x256 .f32 0x00000000#32)) (matmul dot_S32x256_S256x256_S32x256_1_1_0_0_n_n none (extractStridedSlice S32x256 ![0, 256] (h0 l0 xA l3 l5 l9) slices_S32x8192_o0_256_S32x256) (truncf .bf16 (shapeCast S256x256 (View.ld xA (Rect.unit (s := S32x256x256) ![1, 0, 0] S1x256x256.size inb_S32x256x256_S1x256x256_1_0_0)) shapeCasts_S1x256x256_S256x256) bitsLt_bf16_f32) (constant S32x256 .f32 0x00000000#32)) (matmul dot_S32x256_S256x256_S32x256_1_1_0_0_n_n none (extractStridedSlice S32x256 ![0, 512] (h0 l0 xA l3 l5 l9) slices_S32x8192_o0_512_S32x256) (truncf .bf16 (shapeCast S256x256 (View.ld xA (Rect.unit (s := S32x256x256) ![2, 0, 0] S1x256x256.size inb_S32x256x256_S1x256x256_2_0_0)) shapeCasts_S1x256x256_S256x256) bitsLt_bf16_f32) (constant S32x256 .f32 0x00000000#32)) (matmul dot_S32x256_S256x256_S32x256_1_1_0_0_n_n none (extractStridedSlice S32x256 ![0, 768] (h0 l0 xA l3 l5 l9) slices_S32x8192_o0_768_S32x256) (truncf .bf16 (shapeCast S256x256 (View.ld xA (Rect.unit (s := S32x256x256) ![3, 0, 0] S1x256x256.size inb_S32x256x256_S1x256x256_3_0_0)) shapeCasts_S1x256x256_S256x256) bitsLt_bf16_f32) (constant S32x256 .f32 0x00000000#32)) (matmul dot_S32x256_S256x256_S32x256_1_1_0_0_n_n none (extractStridedSlice S32x256 ![0, 1024] (h0 l0 xA l3 l5 l9) slices_S32x8192_o0_1024_S32x256) (truncf .bf16 (shapeCast S256x256 (View.ld xA (Rect.unit (s := S32x256x256) ![4, 0, 0] S1x256x256.size inb_S32x256x256_S1x256x256_4_0_0)) shapeCasts_S1x256x256_S256x256) bitsLt_bf16_f32) (constant S32x256 .f32 0x00000000#32)) (matmul dot_S32x256_S256x256_S32x256_1_1_0_0_n_n none (extractStridedSlice S32x256 ![0, 1280] (h0 l0 xA l3 l5 l9) slices_S32x8192_o0_1280_S32x256) (truncf .bf16 (shapeCast S256x256 (View.ld xA (Rect.unit (s := S32x256x256) ![5, 0, 0] S1x256x256.size inb_S32x256x256_S1x256x256_5_0_0)) shapeCasts_S1x256x256_S256x256) bitsLt_bf16_f32) (constant S32x256 .f32 0x00000000#32)) (matmul dot_S32x256_S256x256_S32x256_1_1_0_0_n_n none (extractStridedSlice S32x256 ![0, 1536] (h0 l0 xA l3 l5 l9) slices_S32x8192_o0_1536_S32x256) (truncf .bf16 (shapeCast S256x256 (View.ld xA (Rect.unit (s := S32x256x256) ![6, 0, 0] S1x256x256.size inb_S32x256x256_S1x256x256_6_0_0)) shapeCasts_S1x256x256_S256x256) bitsLt_bf16_f32) (constant S32x256 .f32 0x00000000#32)) (matmul dot_S32x256_S256x256_S32x256_1_1_0_0_n_n none (extractStridedSlice S32x256 ![0, 1792] (h0 l0 xA l3 l5 l9) slices_S32x8192_o0_1792_S32x256) (truncf .bf16 (shapeCast S256x256 (View.ld xA (Rect.unit (s := S32x256x256) ![7, 0, 0] S1x256x256.size inb_S32x256x256_S1x256x256_7_0_0)) shapeCasts_S1x256x256_S256x256) bitsLt_bf16_f32) (constant S32x256 .f32 0x00000000#32)) (matmul dot_S32x256_S256x256_S32x256_1_1_0_0_n_n none (extractStridedSlice S32x256 ![0, 2048] (h0 l0 xA l3 l5 l9) slices_S32x8192_o0_2048_S32x256) (truncf .bf16 (shapeCast S256x256 (View.ld xA (Rect.unit (s := S32x256x256) ![8, 0, 0] S1x256x256.size inb_S32x256x256_S1x256x256_8_0_0)) shapeCasts_S1x256x256_S256x256) bitsLt_bf16_f32) (constant S32x256 .f32 0x00000000#32)) (matmul dot_S32x256_S256x256_S32x256_1_1_0_0_n_n none (extractStridedSlice S32x256 ![0, 2304] (h0 l0 xA l3 l5 l9) slices_S32x8192_o0_2304_S32x256) (truncf .bf16 (shapeCast S256x256 (View.ld xA (Rect.unit (s := S32x256x256) ![9, 0, 0] S1x256x256.size inb_S32x256x256_S1x256x256_9_0_0)) shapeCasts_S1x256x256_S256x256) bitsLt_bf16_f32) (constant S32x256 .f32 0x00000000#32)) (matmul dot_S32x256_S256x256_S32x256_1_1_0_0_n_n none (extractStridedSlice S32x256 ![0, 2560] (h0 l0 xA l3 l5 l9) slices_S32x8192_o0_2560_S32x256) (truncf .bf16 (shapeCast S256x256 (View.ld xA (Rect.unit (s := S32x256x256) ![10, 0, 0] S1x256x256.size inb_S32x256x256_S1x256x256_10_0_0)) shapeCasts_S1x256x256_S256x256) bitsLt_bf16_f32) (constant S32x256 .f32 0x00000000#32)) (matmul dot_S32x256_S256x256_S32x256_1_1_0_0_n_n none (extractStridedSlice S32x256 ![0, 2816] (h0 l0 xA l3 l5 l9) slices_S32x8192_o0_2816_S32x256) (truncf .bf16 (shapeCast S256x256 (View.ld xA (Rect.unit (s := S32x256x256) ![11, 0, 0] S1x256x256.size inb_S32x256x256_S1x256x256_11_0_0)) shapeCasts_S1x256x256_S256x256) bitsLt_bf16_f32) (constant S32x256 .f32 0x00000000#32)) (matmul dot_S32x256_S256x256_S32x256_1_1_0_0_n_n none (extractStridedSlice S32x256 ![0, 3072] (h0 l0 xA l3 l5 l9) slices_S32x8192_o0_3072_S32x256) (truncf .bf16 (shapeCast S256x256 (View.ld xA (Rect.unit (s := S32x256x256) ![12, 0, 0] S1x256x256.size inb_S32x256x256_S1x256x256_12_0_0)) shapeCasts_S1x256x256_S256x256) bitsLt_bf16_f32) (constant S32x256 .f32 0x00000000#32)) (matmul dot_S32x256_S256x256_S32x256_1_1_0_0_n_n none (extractStridedSlice S32x256 ![0, 3328] (h0 l0 xA l3 l5 l9) slices_S32x8192_o0_3328_S32x256) (truncf .bf16 (shapeCast S256x256 (View.ld xA (Rect.unit (s := S32x256x256) ![13, 0, 0] S1x256x256.size inb_S32x256x256_S1x256x256_13_0_0)) shapeCasts_S1x256x256_S256x256) bitsLt_bf16_f32) (constant S32x256 .f32 0x00000000#32)) (matmul dot_S32x256_S256x256_S32x256_1_1_0_0_n_n none (extractStridedSlice S32x256 ![0, 3584] (h0 l0 xA l3 l5 l9) slices_S32x8192_o0_3584_S32x256) (truncf .bf16 (shapeCast S256x256 (View.ld xA (Rect.unit (s := S32x256x256) ![14, 0, 0] S1x256x256.size inb_S32x256x256_S1x256x256_14_0_0)) shapeCasts_S1x256x256_S256x256) bitsLt_bf16_f32) (constant S32x256 .f32 0x00000000#32)) (matmul dot_S32x256_S256x256_S32x256_1_1_0_0_n_n none (extractStridedSlice S32x256 ![0, 3840] (h0 l0 xA l3 l5 l9) slices_S32x8192_o0_3840_S32x256) (truncf .bf16 (shapeCast S256x256 (View.ld xA (Rect.unit (s := S32x256x256) ![15, 0, 0] S1x256x256.size inb_S32x256x256_S1x256x256_15_0_0)) shapeCasts_S1x256x256_S256x256) bitsLt_bf16_f32) (constant S32x256 .f32 0x00000000#32)) (matmul dot_S32x256_S256x256_S32x256_1_1_0_0_n_n none (extractStridedSlice S32x256 ![0, 4096] (h0 l0 xA l3 l5 l9) slices_S32x8192_o0_4096_S32x256) (truncf .bf16 (shapeCast S256x256 (View.ld xA (Rect.unit (s := S32x256x256) ![16, 0, 0] S1x256x256.size inb_S32x256x256_S1x256x256_16_0_0)) shapeCasts_S1x256x256_S256x256) bitsLt_bf16_f32) (constant S32x256 .f32 0x00000000#32)) (matmul dot_S32x256_S256x256_S32x256_1_1_0_0_n_n none (extractStridedSlice S32x256 ![0, 4352] (h0 l0 xA l3 l5 l9) slices_S32x8192_o0_4352_S32x256) (truncf .bf16 (shapeCast S256x256 (View.ld xA (Rect.unit (s := S32x256x256) ![17, 0, 0] S1x256x256.size inb_S32x256x256_S1x256x256_17_0_0)) shapeCasts_S1x256x256_S256x256) bitsLt_bf16_f32) (constant S32x256 .f32 0x00000000#32)) (matmul dot_S32x256_S256x256_S32x256_1_1_0_0_n_n none (extractStridedSlice S32x256 ![0, 4608] (h0 l0 xA l3 l5 l9) slices_S32x8192_o0_4608_S32x256) (truncf .bf16 (shapeCast S256x256 (View.ld xA (Rect.unit (s := S32x256x256) ![18, 0, 0] S1x256x256.size inb_S32x256x256_S1x256x256_18_0_0)) shapeCasts_S1x256x256_S256x256) bitsLt_bf16_f32) (constant S32x256 .f32 0x00000000#32)) (matmul dot_S32x256_S256x256_S32x256_1_1_0_0_n_n none (extractStridedSlice S32x256 ![0, 4864] (h0 l0 xA l3 l5 l9) slices_S32x8192_o0_4864_S32x256) (truncf .bf16 (shapeCast S256x256 (View.ld xA (Rect.unit (s := S32x256x256) ![19, 0, 0] S1x256x256.size inb_S32x256x256_S1x256x256_19_0_0)) shapeCasts_S1x256x256_S256x256) bitsLt_bf16_f32) (constant S32x256 .f32 0x00000000#32)) (matmul dot_S32x256_S256x256_S32x256_1_1_0_0_n_n none (extractStridedSlice S32x256 ![0, 5120] (h0 l0 xA l3 l5 l9) slices_S32x8192_o0_5120_S32x256) (truncf .bf16 (shapeCast S256x256 (View.ld xA (Rect.unit (s := S32x256x256) ![20, 0, 0] S1x256x256.size inb_S32x256x256_S1x256x256_20_0_0)) shapeCasts_S1x256x256_S256x256) bitsLt_bf16_f32) (constant S32x256 .f32 0x00000000#32)) (matmul dot_S32x256_S256x256_S32x256_1_1_0_0_n_n none (extractStridedSlice S32x256 ![0, 5376] (h0 l0 xA l3 l5 l9) slices_S32x8192_o0_5376_S32x256) (truncf .bf16 (shapeCast S256x256 (View.ld xA (Rect.unit (s := S32x256x256) ![21, 0, 0] S1x256x256.size inb_S32x256x256_S1x256x256_21_0_0)) shapeCasts_S1x256x256_S256x256) bitsLt_bf16_f32) (constant S32x256 .f32 0x00000000#32)) (matmul dot_S32x256_S256x256_S32x256_1_1_0_0_n_n none (extractStridedSlice S32x256 ![0, 5632] (h0 l0 xA l3 l5 l9) slices_S32x8192_o0_5632_S32x256) (truncf .bf16 (shapeCast S256x256 (View.ld xA (Rect.unit (s := S32x256x256) ![22, 0, 0] S1x256x256.size inb_S32x256x256_S1x256x256_22_0_0)) shapeCasts_S1x256x256_S256x256) bitsLt_bf16_f32) (constant S32x256 .f32 0x00000000#32)) (matmul dot_S32x256_S256x256_S32x256_1_1_0_0_n_n none (extractStridedSlice S32x256 ![0, 5888] (h0 l0 xA l3 l5 l9) slices_S32x8192_o0_5888_S32x256) (truncf .bf16 (shapeCast S256x256 (View.ld xA (Rect.unit (s := S32x256x256) ![23, 0, 0] S1x256x256.size inb_S32x256x256_S1x256x256_23_0_0)) shapeCasts_S1x256x256_S256x256) bitsLt_bf16_f32) (constant S32x256 .f32 0x00000000#32)) l4 = (matmul dot_S32x256_S256x256_S32x256_1_1_0_0_n_n none (extractStridedSlice S32x256 ![0, 768] (lhs1 l0 xA l3 l4 l5 l9) slices_S32x8192_o0_768_S32x256) (truncf .bf16 (shapeCast S256x256 (View.ld xA (Rect.unit (s := S32x256x256) ![3, 0, 0] S1x256x256.size inb_S32x256x256_S1x256x256_3_0_0)) shapeCasts_S1x256x256_S256x256) bitsLt_bf16_f32) (constant S32x256 .f32 0x00000000#32)) := rfl
theorem e109 : k0_pay109 (b1 l9) (truncf .bf16 (shapeCast S256x256 (View.ld xA (Rect.unit (s := S32x256x256) ![4, 0, 0] S1x256x256.size inb_S32x256x256_S1x256x256_4_0_0)) shapeCasts_S1x256x256_S256x256) bitsLt_bf16_f32) (truncf .bf16 (shapeCast S256x256 (View.ld xA (Rect.unit (s := S32x256x256) ![24, 0, 0] S1x256x256.size inb_S32x256x256_S1x256x256_24_0_0)) shapeCasts_S1x256x256_S256x256) bitsLt_bf16_f32) (truncf .bf16 (shapeCast S256x256 (View.ld xA (Rect.unit (s := S32x256x256) ![25, 0, 0] S1x256x256.size inb_S32x256x256_S1x256x256_25_0_0)) shapeCasts_S1x256x256_S256x256) bitsLt_bf16_f32) (truncf .bf16 (shapeCast S256x256 (View.ld xA (Rect.unit (s := S32x256x256) ![26, 0, 0] S1x256x256.size inb_S32x256x256_S1x256x256_26_0_0)) shapeCasts_S1x256x256_S256x256) bitsLt_bf16_f32) (truncf .bf16 (shapeCast S256x256 (View.ld xA (Rect.unit (s := S32x256x256) ![27, 0, 0] S1x256x256.size inb_S32x256x256_S1x256x256_27_0_0)) shapeCasts_S1x256x256_S256x256) bitsLt_bf16_f32) (truncf .bf16 (shapeCast S256x256 (View.ld xA (Rect.unit (s := S32x256x256) ![28, 0, 0] S1x256x256.size inb_S32x256x256_S1x256x256_28_0_0)) shapeCasts_S1x256x256_S256x256) bitsLt_bf16_f32) (truncf .bf16 (shapeCast S256x256 (View.ld xA (Rect.unit (s := S32x256x256) ![29, 0, 0] S1x256x256.size inb_S32x256x256_S1x256x256_29_0_0)) shapeCasts_S1x256x256_S256x256) bitsLt_bf16_f32) (truncf .bf16 (shapeCast S256x256 (View.ld xA (Rect.unit (s := S32x256x256) ![30, 0, 0] S1x256x256.size inb_S32x256x256_S1x256x256_30_0_0)) shapeCasts_S1x256x256_S256x256) bitsLt_bf16_f32) (truncf .bf16 (shapeCast S256x256 (View.ld xA (Rect.unit (s := S32x256x256) ![31, 0, 0] S1x256x256.size inb_S32x256x256_S1x256x256_31_0_0)) shapeCasts_S1x256x256_S256x256) bitsLt_bf16_f32) (full0 l0 l3) (mask0 l0 xA l3 l5 l9) (h0 l0 xA l3 l5 l9) (matmul dot_S32x256_S256x256_S32x256_1_1_0_0_n_n none (extractStridedSlice S32x256 ![0, 0] (h0 l0 xA l3 l5 l9) slices_S32x8192_o0_0_S32x256) (truncf .bf16 (shapeCast S256x256 (View.ld xA (Rect.unit (s := S32x256x256) ![0, 0, 0] S1x256x256.size inb_S32x256x256_S1x256x256_0_0_0)) shapeCasts_S1x256x256_S256x256) bitsLt_bf16_f32) (constant S32x256 .f32 0x00000000#32)) (matmul dot_S32x256_S256x256_S32x256_1_1_0_0_n_n none (extractStridedSlice S32x256 ![0, 256] (h0 l0 xA l3 l5 l9) slices_S32x8192_o0_256_S32x256) (truncf .bf16 (shapeCast S256x256 (View.ld xA (Rect.unit (s := S32x256x256) ![1, 0, 0] S1x256x256.size inb_S32x256x256_S1x256x256_1_0_0)) shapeCasts_S1x256x256_S256x256) bitsLt_bf16_f32) (constant S32x256 .f32 0x00000000#32)) (matmul dot_S32x256_S256x256_S32x256_1_1_0_0_n_n none (extractStridedSlice S32x256 ![0, 512] (h0 l0 xA l3 l5 l9) slices_S32x8192_o0_512_S32x256) (truncf .bf16 (shapeCast S256x256 (View.ld xA (Rect.unit (s := S32x256x256) ![2, 0, 0] S1x256x256.size inb_S32x256x256_S1x256x256_2_0_0)) shapeCasts_S1x256x256_S256x256) bitsLt_bf16_f32) (constant S32x256 .f32 0x00000000#32)) (matmul dot_S32x256_S256x256_S32x256_1_1_0_0_n_n none (extractStridedSlice S32x256 ![0, 768] (h0 l0 xA l3 l5 l9) slices_S32x8192_o0_768_S32x256) (truncf .bf16 (shapeCast S256x256 (View.ld xA (Rect.unit (s := S32x256x256) ![3, 0, 0] S1x256x256.size inb_S32x256x256_S1x256x256_3_0_0)) shapeCasts_S1x256x256_S256x256) bitsLt_bf16_f32) (constant S32x256 .f32 0x00000000#32)) (matmul dot_S32x256_S256x256_S32x256_1_1_0_0_n_n none (extractStridedSlice S32x256 ![0, 1024] (h0 l0 xA l3 l5 l9) slices_S32x8192_o0_1024_S32x256) (truncf .bf16 (shapeCast S256x256 (View.ld xA (Rect.unit (s := S32x256x256) ![4, 0, 0] S1x256x256.size inb_S32x256x256_S1x256x256_4_0_0)) shapeCasts_S1x256x256_S256x256) bitsLt_bf16_f32) (constant S32x256 .f32 0x00000000#32)) (matmul dot_S32x256_S256x256_S32x256_1_1_0_0_n_n none (extractStridedSlice S32x256 ![0, 1280] (h0 l0 xA l3 l5 l9) slices_S32x8192_o0_1280_S32x256) (truncf .bf16 (shapeCast S256x256 (View.ld xA (Rect.unit (s := S32x256x256) ![5, 0, 0] S1x256x256.size inb_S32x256x256_S1x256x256_5_0_0)) shapeCasts_S1x256x256_S256x256) bitsLt_bf16_f32) (constant S32x256 .f32 0x00000000#32)) (matmul dot_S32x256_S256x256_S32x256_1_1_0_0_n_n none (extractStridedSlice S32x256 ![0, 1536] (h0 l0 xA l3 l5 l9) slices_S32x8192_o0_1536_S32x256) (truncf .bf16 (shapeCast S256x256 (View.ld xA (Rect.unit (s := S32x256x256) ![6, 0, 0] S1x256x256.size inb_S32x256x256_S1x256x256_6_0_0)) shapeCasts_S1x256x256_S256x256) bitsLt_bf16_f32) (constant S32x256 .f32 0x00000000#32)) (matmul dot_S32x256_S256x256_S32x256_1_1_0_0_n_n none (extractStridedSlice S32x256 ![0, 1792] (h0 l0 xA l3 l5 l9) slices_S32x8192_o0_1792_S32x256) (truncf .bf16 (shapeCast S256x256 (View.ld xA (Rect.unit (s := S32x256x256) ![7, 0, 0] S1x256x256.size inb_S32x256x256_S1x256x256_7_0_0)) shapeCasts_S1x256x256_S256x256) bitsLt_bf16_f32) (constant S32x256 .f32 0x00000000#32)) (matmul dot_S32x256_S256x256_S32x256_1_1_0_0_n_n none (extractStridedSlice S32x256 ![0, 2048] (h0 l0 xA l3 l5 l9) slices_S32x8192_o0_2048_S32x256) (truncf .bf16 (shapeCast S256x256 (View.ld xA (Rect.unit (s := S32x256x256) ![8, 0, 0] S1x256x256.size inb_S32x256x256_S1x256x256_8_0_0)) shapeCasts_S1x256x256_S256x256) bitsLt_bf16_f32) (constant S32x256 .f32 0x00000000#32)) (matmul dot_S32x256_S256x256_S32x256_1_1_0_0_n_n none (extractStridedSlice S32x256 ![0, 2304] (h0 l0 xA l3 l5 l9) slices_S32x8192_o0_2304_S32x256) (truncf .bf16 (shapeCast S256x256 (View.ld xA (Rect.unit (s := S32x256x256) ![9, 0, 0] S1x256x256.size inb_S32x256x256_S1x256x256_9_0_0)) shapeCasts_S1x256x256_S256x256) bitsLt_bf16_f32) (constant S32x256 .f32 0x00000000#32)) (matmul dot_S32x256_S256x256_S32x256_1_1_0_0_n_n none (extractStridedSlice S32x256 ![0, 2560] (h0 l0 xA l3 l5 l9) slices_S32x8192_o0_2560_S32x256) (truncf .bf16 (shapeCast S256x256 (View.ld xA (Rect.unit (s := S32x256x256) ![10, 0, 0] S1x256x256.size inb_S32x256x256_S1x256x256_10_0_0)) shapeCasts_S1x256x256_S256x256) bitsLt_bf16_f32) (constant S32x256 .f32 0x00000000#32)) (matmul dot_S32x256_S256x256_S32x256_1_1_0_0_n_n none (extractStridedSlice S32x256 ![0, 2816] (h0 l0 xA l3 l5 l9) slices_S32x8192_o0_2816_S32x256) (truncf .bf16 (shapeCast S256x256 (View.ld xA (Rect.unit (s := S32x256x256) ![11, 0, 0] S1x256x256.size inb_S32x256x256_S1x256x256_11_0_0)) shapeCasts_S1x256x256_S256x256) bitsLt_bf16_f32) (constant S32x256 .f32 0x00000000#32)) (matmul dot_S32x256_S256x256_S32x256_1_1_0_0_n_n none (extractStridedSlice S32x256 ![0, 3072] (h0 l0 xA l3 l5 l9) slices_S32x8192_o0_3072_S32x256) (truncf .bf16 (shapeCast S256x256 (View.ld xA (Rect.unit (s := S32x256x256) ![12, 0, 0] S1x256x256.size inb_S32x256x256_S1x256x256_12_0_0)) shapeCasts_S1x256x256_S256x256) bitsLt_bf16_f32) (constant S32x256 .f32 0x00000000#32)) (matmul dot_S32x256_S256x256_S32x256_1_1_0_0_n_n none (extractStridedSlice S32x256 ![0, 3328] (h0 l0 xA l3 l5 l9) slices_S32x8192_o0_3328_S32x256) (truncf .bf16 (shapeCast S256x256 (View.ld xA (Rect.unit (s := S32x256x256) ![13, 0, 0] S1x256x256.size inb_S32x256x256_S1x256x256_13_0_0)) shapeCasts_S1x256x256_S256x256) bitsLt_bf16_f32) (constant S32x256 .f32 0x00000000#32)) (matmul dot_S32x256_S256x256_S32x256_1_1_0_0_n_n none (extractStridedSlice S32x256 ![0, 3584] (h0 l0 xA l3 l5 l9) slices_S32x8192_o0_3584_S32x256) (truncf .bf16 (shapeCast S256x256 (View.ld xA (Rect.unit (s := S32x256x256) ![14, 0, 0] S1x256x256.size inb_S32x256x256_S1x256x256_14_0_0)) shapeCasts_S1x256x256_S256x256) bitsLt_bf16_f32) (constant S32x256 .f32 0x00000000#32)) (matmul dot_S32x256_S256x256_S32x256_1_1_0_0_n_n none (extractStridedSlice S32x256 ![0, 3840] (h0 l0 xA l3 l5 l9) slices_S32x8192_o0_3840_S32x256) (truncf .bf16 (shapeCast S256x256 (View.ld xA (Rect.unit (s := S32x256x256) ![15, 0, 0] S1x256x256.size inb_S32x256x256_S1x256x256_15_0_0)) shapeCasts_S1x256x256_S256x256) bitsLt_bf16_f32) (constant S32x256 .f32 0x00000000#32)) (matmul dot_S32x256_S256x256_S32x256_1_1_0_0_n_n none (extractStridedSlice S32x256 ![0, 4096] (h0 l0 xA l3 l5 l9) slices_S32x8192_o0_4096_S32x256) (truncf .bf16 (shapeCast S256x256 (View.ld xA (Rect.unit (s := S32x256x256) ![16, 0, 0] S1x256x256.size inb_S32x256x256_S1x256x256_16_0_0)) shapeCasts_S1x256x256_S256x256) bitsLt_bf16_f32) (constant S32x256 .f32 0x00000000#32)) (matmul dot_S32x256_S256x256_S32x256_1_1_0_0_n_n none (extractStridedSlice S32x256 ![0, 4352] (h0 l0 xA l3 l5 l9) slices_S32x8192_o0_4352_S32x256) (truncf .bf16 (shapeCast S256x256 (View.ld xA (Rect.unit (s := S32x256x256) ![17, 0, 0] S1x256x256.size inb_S32x256x256_S1x256x256_17_0_0)) shapeCasts_S1x256x256_S256x256) bitsLt_bf16_f32) (constant S32x256 .f32 0x00000000#32)) (matmul dot_S32x256_S256x256_S32x256_1_1_0_0_n_n none (extractStridedSlice S32x256 ![0, 4608] (h0 l0 xA l3 l5 l9) slices_S32x8192_o0_4608_S32x256) (truncf .bf16 (shapeCast S256x256 (View.ld xA (Rect.unit (s := S32x256x256) ![18, 0, 0] S1x256x256.size inb_S32x256x256_S1x256x256_18_0_0)) shapeCasts_S1x256x256_S256x256) bitsLt_bf16_f32) (constant S32x256 .f32 0x00000000#32)) (matmul dot_S32x256_S256x256_S32x256_1_1_0_0_n_n none (extractStridedSlice S32x256 ![0, 4864] (h0 l0 xA l3 l5 l9) slices_S32x8192_o0_4864_S32x256) (truncf .bf16 (shapeCast S256x256 (View.ld xA (Rect.unit (s := S32x256x256) ![19, 0, 0] S1x256x256.size inb_S32x256x256_S1x256x256_19_0_0)) shapeCasts_S1x256x256_S256x256) bitsLt_bf16_f32) (constant S32x256 .f32 0x00000000#32)) (matmul dot_S32x256_S256x256_S32x256_1_1_0_0_n_n none (extractStridedSlice S32x256 ![0, 5120] (h0 l0 xA l3 l5 l9) slices_S32x8192_o0_5120_S32x256) (truncf .bf16 (shapeCast S256x256 (View.ld xA (Rect.unit (s := S32x256x256) ![20, 0, 0] S1x256x256.size inb_S32x256x256_S1x256x256_20_0_0)) shapeCasts_S1x256x256_S256x256) bitsLt_bf16_f32) (constant S32x256 .f32 0x00000000#32)) (matmul dot_S32x256_S256x256_S32x256_1_1_0_0_n_n none (extractStridedSlice S32x256 ![0, 5376] (h0 l0 xA l3 l5 l9) slices_S32x8192_o0_5376_S32x256) (truncf .bf16 (shapeCast S256x256 (View.ld xA (Rect.unit (s := S32x256x256) ![21, 0, 0] S1x256x256.size inb_S32x256x256_S1x256x256_21_0_0)) shapeCasts_S1x256x256_S256x256) bitsLt_bf16_f32) (constant S32x256 .f32 0x00000000#32)) (matmul dot_S32x256_S256x256_S32x256_1_1_0_0_n_n none (extractStridedSlice S32x256 ![0, 5632] (h0 l0 xA l3 l5 l9) slices_S32x8192_o0_5632_S32x256) (truncf .bf16 (shapeCast S256x256 (View.ld xA (Rect.unit (s := S32x256x256) ![22, 0, 0] S1x256x256.size inb_S32x256x256_S1x256x256_22_0_0)) shapeCasts_S1x256x256_S256x256) bitsLt_bf16_f32) (constant S32x256 .f32 0x00000000#32)) (matmul dot_S32x256_S256x256_S32x256_1_1_0_0_n_n none (extractStridedSlice S32x256 ![0, 5888] (h0 l0 xA l3 l5 l9) slices_S32x8192_o0_5888_S32x256) (truncf .bf16 (shapeCast S256x256 (View.ld xA (Rect.unit (s := S32x256x256) ![23, 0, 0] S1x256x256.size inb_S32x256x256_S1x256x256_23_0_0)) shapeCasts_S1x256x256_S256x256) bitsLt_bf16_f32) (constant S32x256 .f32 0x00000000#32)) l4 = (matmul dot_S32x256_S256x256_S32x256_1_1_0_0_n_n none (extractStridedSlice S32x256 ![0, 1024] (lhs1 l0 xA l3 l4 l5 l9) slices_S32x8192_o0_1024_S32x256) (truncf .bf16 (shapeCast S256x256 (View.ld xA (Rect.unit (s := S32x256x256) ![4, 0, 0] S1x256x256.size inb_S32x256x256_S1x256x256_4_0_0)) shapeCasts_S1x256x256_S256x256) bitsLt_bf16_f32) (constant S32x256 .f32 0x00000000#32)) := rfl
theorem e110 : k0_pay110 (truncf .bf16 (shapeCast S256x256 (View.ld xA (Rect.unit (s := S32x256x256) ![5, 0, 0] S1x256x256.size inb_S32x256x256_S1x256x256_5_0_0)) shapeCasts_S1x256x256_S256x256) bitsLt_bf16_f32) (lhs1 l0 xA l3 l4 l5 l9) = (matmul dot_S32x256_S256x256_S32x256_1_1_0_0_n_n none (extractStridedSlice S32x256 ![0, 1280] (lhs1 l0 xA l3 l4 l5 l9) slices_S32x8192_o0_1280_S32x256) (truncf .bf16 (shapeCast S256x256 (View.ld xA (Rect.unit (s := S32x256x256) ![5, 0, 0] S1x256x256.size inb_S32x256x256_S1x256x256_5_0_0)) shapeCasts_S1x256x256_S256x256) bitsLt_bf16_f32) (constant S32x256 .f32 0x00000000#32)) := rfl
theorem e111 : k0_pay111 (truncf .bf16 (shapeCast S256x256 (View.ld xA (Rect.unit (s := S32x256x256) ![6, 0, 0] S1x256x256.size inb_S32x256x256_S1x256x256_6_0_0)) shapeCasts_S1x256x256_S256x256) bitsLt_bf16_f32) (lhs1 l0 xA l3 l4 l5 l9) = (matmul dot_S32x256_S256x256_S32x256_1_1_0_0_n_n none (extractStridedSlice S32x256 ![0, 1536] (lhs1 l0 xA l3 l4 l5 l9) slices_S32x8192_o0_1536_S32x256) (truncf .bf16 (shapeCast S256x256 (View.ld xA (Rect.unit (s := S32x256x256) ![6, 0, 0] S1x256x256.size inb_S32x256x256_S1x256x256_6_0_0)) shapeCasts_S1x256x256_S256x256) bitsLt_bf16_f32) (constant S32x256 .f32 0x00000000#32)) := rfl
theorem e112 : k0_pay112 (truncf .bf16 (shapeCast S256x256 (View.ld xA (Rect.unit (s := S32x256x256) ![7, 0, 0] S1x256x256.size inb_S32x256x256_S1x256x256_7_0_0)) shapeCasts_S1x256x256_S256x256) bitsLt_bf16_f32) (lhs1 l0 xA l3 l4 l5 l9) = (matmul dot_S32x256_S256x256_S32x256_1_1_0_0_n_n none (extractStridedSlice S32x256 ![0, 1792] (lhs1 l0 xA l3 l4 l5 l9) slices_S32x8192_o0_1792_S32x256) (truncf .bf16 (shapeCast S256x256 (View.ld xA (Rect.unit (s := S32x256x256) ![7, 0, 0] S1x256x256.size inb_S32x256x256_S1x256x256_7_0_0)) shapeCasts_S1x256x256_S256x256) bitsLt_bf16_f32) (constant S32x256 .f32 0x00000000#32)) := rfl
theorem e113 : k0_pay113 (truncf .bf16 (shapeCast S256x256 (View.ld xA (Rect.unit (s := S32x256x256) ![8, 0, 0] S1x256x256.size inb_S32x256x256_S1x256x256_8_0_0)) shapeCasts_S1x256x256_S256x256) bitsLt_bf16_f32) (lhs1 l0 xA l3 l4 l5 l9) = (matmul dot_S32x256_S256x256_S32x256_1_1_0_0_n_n none (extractStridedSlice S32x256 ![0, 2048] (lhs1 l0 xA l3 l4 l5 l9) slices_S32x8192_o0_2048_S32x256) (truncf .bf16 (shapeCast S256x256 (View.ld xA (Rect.unit (s := S32x256x256) ![8, 0, 0] S1x256x256.size inb_S32x256x256_S1x256x256_8_0_0)) shapeCasts_S1x256x256_S256x256) bitsLt_bf16_f32) (constant S32x256 .f32 0x00000000#32)) := rfl
theorem e114 : k0_pay114 (truncf .bf16 (shapeCast S256x256 (View.ld xA (Rect.unit (s := S32x256x256) ![9, 0, 0] S1x256x256.size inb_S32x256x256_S1x256x256_9_0_0)) shapeCasts_S1x256x256_S256x256) bitsLt_bf16_f32) (lhs1 l0 xA l3 l4 l5 l9) = (matmul dot_S32x256_S256x256_S32x256_1_1_0_0_n_n none (extractStridedSlice S32x256 ![0, 2304] (lhs1 l0 xA l3 l4 l5 l9) slices_S32x8192_o0_2304_S32x256) (truncf .bf16 (shapeCast S256x256 (View.ld xA (Rect.unit (s := S32x256x256) ![9, 0, 0] S1x256x256.size inb_S32x256x256_S1x256x256_9_0_0)) shapeCasts_S1x256x256_S256x256) bitsLt_bf16_f32) (constant S32x256 .f32 0x00000000#32)) := rfl
theorem e115 : k0_pay115 (truncf .bf16 (shapeCast S256x256 (View.ld xA (Rect.unit (s := S32x256x256) ![10, 0, 0] S1x256x256.size inb_S32x256x256_S1x256x256_10_0_0)) shapeCasts_S1x256x256_S256x256) bitsLt_bf16_f32) (lhs1 l0 xA l3 l4 l5 l9) = (matmul dot_S32x256_S256x256_S32x256_1_1_0_0_n_n none (extractStridedSlice S32x256 ![0, 2560] (lhs1 l0 xA l3 l4 l5 l9) slices_S32x8192_o0_2560_S32x256) (truncf .bf16 (shapeCast S256x256 (View.ld xA (Rect.unit (s := S32x256x256) ![10, 0, 0] S1x256x256.size inb_S32x256x256_S1x256x256_10_0_0)) shapeCasts_S1x256x256_S256x256) bitsLt_bf16_f32) (constant S32x256 .f32 0x00000000#32)) := rfl
theorem e116 : k0_pay116 (truncf .bf16 (shapeCast S256x256 (View.ld xA (Rect.unit (s := S32x256x256) ![11, 0, 0] S1x256x256.size inb_S32x256x256_S1x256x256_11_0_0)) shapeCasts_S1x256x256_S256x256) bitsLt_bf16_f32) (lhs1 l0 xA l3 l4 l5 l9) = (matmul dot_S32x256_S256x256_S32x256_1_1_0_0_n_n none (extractStridedSlice S32x256 ![0, 2816] (lhs1 l0 xA l3 l4 l5 l9) slices_S32x8192_o0_2816_S32x256) (truncf .bf16 (shapeCast S256x256 (View.ld xA (Rect.unit (s := S32x256x256) ![11, 0, 0] S1x256x256.size inb_S32x256x256_S1x256x256_11_0_0)) shapeCasts_S1x256x256_S256x256) bitsLt_bf16_f32) (constant S32x256 .f32 0x00000000#32)) := rfl
theorem e117 : k0_pay117 (truncf .bf16 (shapeCast S256x256 (View.ld xA (Rect.unit (s := S32x256x256) ![12, 0, 0] S1x256x256.size inb_S32x256x256_S1x256x256_12_0_0)) shapeCasts_S1x256x256_S256x256) bitsLt_bf16_f32) (lhs1 l0 xA l3 l4 l5 l9) = (matmul dot_S32x256_S256x256_S32x256_1_1_0_0_n_n none (extractStridedSlice S32x256 ![0, 3072] (lhs1 l0 xA l3 l4 l5 l9) slices_S32x8192_o0_3072_S32x256) (truncf .bf16 (shapeCast S256x256 (View.ld xA (Rect.unit (s := S32x256x256) ![12, 0, 0] S1x256x256.size inb_S32x256x256_S1x256x256_12_0_0)) shapeCasts_S1x256x256_S256x256) bitsLt_bf16_f32) (constant S32x256 .f32 0x00000000#32)) := rfl
theorem e118 : k0_pay118 (truncf .bf16 (shapeCast S256x256 (View.ld xA (Rect.unit (s := S32x256x256) ![13, 0, 0] S1x256x256.size inb_S32x256x256_S1x256x256_13_0_0)) shapeCasts_S1x256x256_S256x256) bitsLt_bf16_f32) (lhs1 l0 xA l3 l4 l5 l9) = (matmul dot_S32x256_S256x256_S32x256_1_1_0_0_n_n none (extractStridedSlice S32x256 ![0, 3328] (lhs1 l0 xA l3 l4 l5 l9) slices_S32x8192_o0_3328_S32x256) (truncf .bf16 (shapeCast S256x256 (View.ld xA (Rect.unit (s := S32x256x256) ![13, 0, 0] S1x256x256.size inb_S32x256x256_S1x256x256_13_0_0)) shapeCasts_S1x256x256_S256x256) bitsLt_bf16_f32) (constant S32x256 .f32 0x00000000#32)) := rfl
theorem e119 : k0_pay119 (truncf .bf16 (shapeCast S256x256 (View.ld xA (Rect.unit (s := S32x256x256) ![14, 0, 0] S1x256x256.size inb_S32x256x256_S1x256x256_14_0_0)) shapeCasts_S1x256x256_S256x256) bitsLt_bf16_f32) (lhs1 l0 xA l3 l4 l5 l9) = (matmul dot_S32x256_S256x256_S32x256_1_1_0_0_n_n none (extractStridedSlice S32x256 ![0, 3584] (lhs1 l0 xA l3 l4 l5 l9) slices_S32x8192_o0_3584_S32x256) (truncf .bf16 (shapeCast S256x256 (View.ld xA (Rect.unit (s := S32x256x256) ![14, 0, 0] S1x256x256.size inb_S32x256x256_S1x256x256_14_0_0)) shapeCasts_S1x256x256_S256x256) bitsLt_bf16_f32) (constant S32x256 .f32 0x00000000#32)) := rfl
theorem e120 : k0_pay120 (truncf .bf16 (shapeCast S256x256 (View.ld xA (Rect.unit (s := S32x256x256) ![15, 0, 0] S1x256x256.size inb_S32x256x256_S1x256x256_15_0_0)) shapeCasts_S1x256x256_S256x256) bitsLt_bf16_f32) (lhs1 l0 xA l3 l4 l5 l9) = (matmul dot_S32x256_S256x256_S32x256_1_1_0_0_n_n none (extractStridedSlice S32x256 ![0, 3840] (lhs1 l0 xA l3 l4 l5 l9) slices_S32x8192_o0_3840_S32x256) (truncf .bf16 (shapeCast S256x256 (View.ld xA (Rect.unit (s := S32x256x256) ![15, 0, 0] S1x256x256.size inb_S32x256x256_S1x256x256_15_0_0)) shapeCasts_S1x256x256_S256x256) bitsLt_bf16_f32) (constant S32x256 .f32 0x00000000#32)) := rfl
theorem e121 : k0_pay121 (truncf .bf16 (shapeCast S256x256 (View.ld xA (Rect.unit (s := S32x256x256) ![16, 0, 0] S1x256x256.size inb_S32x256x256_S1x256x256_16_0_0)) shapeCasts_S1x256x256_S256x256) bitsLt_bf16_f32) (lhs1 l0 xA l3 l4 l5 l9) = (matmul dot_S32x256_S256x256_S32x256_1_1_0_0_n_n none (extractStridedSlice S32x256 ![0, 4096] (lhs1 l0 xA l3 l4 l5 l9) slices_S32x8192_o0_4096_S32x256) (truncf .bf16 (shapeCast S256x256 (View.ld xA (Rect.unit (s := S32x256x256) ![16, 0, 0] S1x256x256.size inb_S32x256x256_S1x256x256_16_0_0)) shapeCasts_S1x256x256_S256x256) bitsLt_bf16_f32) (constant S32x256 .f32 0x00000000#32)) := rfl
theorem e122 : k0_pay122 (truncf .bf16 (shapeCast S256x256 (View.ld xA (Rect.unit (s := S32x256x256) ![17, 0, 0] S1x256x256.size inb_S32x256x256_S1x256x256_17_0_0)) shapeCasts_S1x256x256_S256x256) bitsLt_bf16_f32) (lhs1 l0 xA l3 l4 l5 l9) = (matmul dot_S32x256_S256x256_S32x256_1_1_0_0_n_n none (extractStridedSlice S32x256 ![0, 4352] (lhs1 l0 xA l3 l4 l5 l9) slices_S32x8192_o0_4352_S32x256) (truncf .bf16 (shapeCast S256x256 (View.ld xA (Rect.unit (s := S32x256x256) ![17, 0, 0] S1x256x256.size inb_S32x256x256_S1x256x256_17_0_0)) shapeCasts_S1x256x256_S256x256) bitsLt_bf16_f32) (constant S32x256 .f32 0x00000000#32)) := rfl
theorem e123 : k0_pay123 (truncf .bf16 (shapeCast S256x256 (View.ld xA (Rect.unit (s := S32x256x256) ![18, 0, 0] S1x256x256.size inb_S32x256x256_S1x256x256_18_0_0)) shapeCasts_S1x256x256_S256x256) bitsLt_bf16_f32) (lhs1 l0 xA l3 l4 l5 l9) = (matmul dot_S32x256_S256x256_S32x256_1_1_0_0_n_n none (extractStridedSlice S32x256 ![0, 4608] (lhs1 l0 xA l3 l4 l5 l9) slices_S32x8192_o0_4608_S32x256) (truncf .bf16 (shapeCast S256x256 (View.ld xA (Rect.unit (s := S32x256x256) ![18, 0, 0] S1x256x256.size inb_S32x256x256_S1x256x256_18_0_0)) shapeCasts_S1x256x256_S256x256) bitsLt_bf16_f32) (constant S32x256 .f32 0x00000000#32)) := rfl
theorem e124 : k0_pay124 (truncf .bf16 (shapeCast S256x256 (View.ld xA (Rect.unit (s := S32x256x256) ![19, 0, 0] S1x256x256.size inb_S32x256x256_S1x256x256_19_0_0)) shapeCasts_S1x256x256_S256x256) bitsLt_bf16_f32) (lhs1 l0 xA l3 l4 l5 l9) = (matmul dot_S32x256_S256x256_S32x256_1_1_0_0_n_n none (extractStridedSlice S32x256 ![0, 4864] (lhs1 l0 xA l3 l4 l5 l9) slices_S32x8192_o0_4864_S32x256) (truncf .bf16 (shapeCast S256x256 (View.ld xA (Rect.unit (s := S32x256x256) ![19, 0, 0] S1x256x256.size inb_S32x256x256_S1x256x256_19_0_0)) shapeCasts_S1x256x256_S256x256) bitsLt_bf16_f32) (constant S32x256 .f32 0x00000000#32)) := rfl
theorem e125 : k0_pay125 (truncf .bf16 (shapeCast S256x256 (View.ld xA (Rect.unit (s := S32x256x256) ![20, 0, 0] S1x256x256.size inb_S32x256x256_S1x256x256_20_0_0)) shapeCasts_S1x256x256_S256x256) bitsLt_bf16_f32) (lhs1 l0 xA l3 l4 l5 l9) = (matmul dot_S32x256_S256x256_S32x256_1_1_0_0_n_n none (extractStridedSlice S32x256 ![0, 5120] (lhs1 l0 xA l3 l4 l5 l9) slices_S32x8192_o0_5120_S32x256) (truncf .bf16 (shapeCast S256x256 (View.ld xA (Rect.unit (s := S32x256x256) ![20, 0, 0] S1x256x256.size inb_S32x256x256_S1x256x256_20_0_0)) shapeCasts_S1x256x256_S256x256) bitsLt_bf16_f32) (constant S32x256 .f32 0x00000000#32)) := rfl
theorem e126 : k0_pay126 (truncf .bf16 (shapeCast S256x256 (View.ld xA (Rect.unit (s := S32x256x256) ![21, 0, 0] S1x256x256.size inb_S32x256x256_S1x256x256_21_0_0)) shapeCasts_S1x256x256_S256x256) bitsLt_bf16_f32) (lhs1 l0 xA l3 l4 l5 l9) = (matmul dot_S32x256_S256x256_S32x256_1_1_0_0_n_n none (extractStridedSlice S32x256 ![0, 5376] (lhs1 l0 xA l3 l4 l5 l9) slices_S32x8192_o0_5376_S32x256) (truncf .bf16 (shapeCast S256x256 (View.ld xA (Rect.unit (s := S32x256x256) ![21, 0, 0] S1x256x256.size inb_S32x256x256_S1x256x256_21_0_0)) shapeCasts_S1x256x256_S256x256) bitsLt_bf16_f32) (constant S32x256 .f32 0x00000000#32)) := rfl
theorem e127 : k0_pay127 (truncf .bf16 (shapeCast S256x256 (View.ld xA (Rect.unit (s := S32x256x256) ![22, 0, 0] S1x256x256.size inb_S32x256x256_S1x256x256_22_0_0)) shapeCasts_S1x256x256_S256x256) bitsLt_bf16_f32) (lhs1 l0 xA l3 l4 l5 l9) = (matmul dot_S32x256_S256x256_S32x256_1_1_0_0_n_n none (extractStridedSlice S32x256 ![0, 5632] (lhs1 l0 xA l3 l4 l5 l9) slices_S32x8192_o0_5632_S32x256) (truncf .bf16 (shapeCast S256x256 (View.ld xA (Rect.unit (s := S32x256x256) ![22, 0, 0] S1x256x256.size inb_S32x256x256_S1x256x256_22_0_0)) shapeCasts_S1x256x256_S256x256) bitsLt_bf16_f32) (constant S32x256 .f32 0x00000000#32)) := rfl
theorem e128 : k0_pay128 (truncf .bf16 (shapeCast S256x256 (View.ld xA (Rect.unit (s := S32x256x256) ![23, 0, 0] S1x256x256.size inb_S32x256x256_S1x256x256_23_0_0)) shapeCasts_S1x256x256_S256x256) bitsLt_bf16_f32) (lhs1 l0 xA l3 l4 l5 l9) = (matmul dot_S32x256_S256x256_S32x256_1_1_0_0_n_n none (extractStridedSlice S32x256 ![0, 5888] (lhs1 l0 xA l3 l4 l5 l9) slices_S32x8192_o0_5888_S32x256) (truncf .bf16 (shapeCast S256x256 (View.ld xA (Rect.unit (s := S32x256x256) ![23, 0, 0] S1x256x256.size inb_S32x256x256_S1x256x256_23_0_0)) shapeCasts_S1x256x256_S256x256) bitsLt_bf16_f32) (constant S32x256 .f32 0x00000000#32)) := rfl
theorem e129 : k0_pay129 (truncf .bf16 (shapeCast S256x256 (View.ld xA (Rect.unit (s := S32x256x256) ![24, 0, 0] S1x256x256.size inb_S32x256x256_S1x256x256_24_0_0)) shapeCasts_S1x256x256_S256x256) bitsLt_bf16_f32) (lhs1 l0 xA l3 l4 l5 l9) = (matmul dot_S32x256_S256x256_S32x256_1_1_0_0_n_n none (extractStridedSlice S32x256 ![0, 6144] (lhs1 l0 xA l3 l4 l5 l9) slices_S32x8192_o0_6144_S32x256) (truncf .bf16 (shapeCast S256x256 (View.ld xA (Rect.unit (s := S32x256x256) ![24, 0, 0] S1x256x256.size inb_S32x256x256_S1x256x256_24_0_0)) shapeCasts_S1x256x256_S256x256) bitsLt_bf16_f32) (constant S32x256 .f32 0x00000000#32)) := rfl
theorem e130 : k0_pay130 (m1b1 l9) (m2w1 l9) (m2b1 l9) (truncf .bf16 (shapeCast S256x256 (View.ld xA (Rect.unit (s := S32x256x256) ![25, 0, 0] S1x256x256.size inb_S32x256x256_S1x256x256_25_0_0)) shapeCasts_S1x256x256_S256x256) bitsLt_bf16_f32) (truncf .bf16 (shapeCast S256x256 (View.ld xA (Rect.unit (s := S32x256x256) ![26, 0, 0] S1x256x256.size inb_S32x256x256_S1x256x256_26_0_0)) shapeCasts_S1x256x256_S256x256) bitsLt_bf16_f32) (truncf .bf16 (shapeCast S256x256 (View.ld xA (Rect.unit (s := S32x256x256) ![27, 0, 0] S1x256x256.size inb_S32x256x256_S1x256x256_27_0_0)) shapeCasts_S1x256x256_S256x256) bitsLt_bf16_f32) (truncf .bf16 (shapeCast S256x256 (View.ld xA (Rect.unit (s := S32x256x256) ![28, 0, 0] S1x256x256.size inb_S32x256x256_S1x256x256_28_0_0)) shapeCasts_S1x256x256_S256x256) bitsLt_bf16_f32) (truncf .bf16 (shapeCast S256x256 (View.ld xA (Rect.unit (s := S32x256x256) ![29, 0, 0] S1x256x256.size inb_S32x256x256_S1x256x256_29_0_0)) shapeCasts_S1x256x256_S256x256) bitsLt_bf16_f32) (truncf .bf16 (shapeCast S256x256 (View.ld xA (Rect.unit (s := S32x256x256) ![30, 0, 0] S1x256x256.size inb_S32x256x256_S1x256x256_30_0_0)) shapeCasts_S1x256x256_S256x256) bitsLt_bf16_f32) (truncf .bf16 (shapeCast S256x256 (View.ld xA (Rect.unit (s := S32x256x256) ![31, 0, 0] S1x256x256.size inb_S32x256x256_S1x256x256_31_0_0)) shapeCasts_S1x256x256_S256x256) bitsLt_bf16_f32) (hl1 l0 xA l3 l4 l5 l9) (lhs1 l0 xA l3 l4 l5 l9) (matmul dot_S32x256_S256x256_S32x256_1_1_0_0_n_n none (extractStridedSlice S32x256 ![0, 0] (lhs1 l0 xA l3 l4 l5 l9) slices_S32x8192_o0_0_S32x256) (truncf .bf16 (shapeCast S256x256 (View.ld xA (Rect.unit (s := S32x256x256) ![0, 0, 0] S1x256x256.size inb_S32x256x256_S1x256x256_0_0_0)) shapeCasts_S1x256x256_S256x256) bitsLt_bf16_f32) (constant S32x256 .f32 0x00000000#32)) (matmul dot_S32x256_S256x256_S32x256_1_1_0_0_n_n none (extractStridedSlice S32x256 ![0, 256] (lhs1 l0 xA l3 l4 l5 l9) slices_S32x8192_o0_256_S32x256) (truncf .bf16 (shapeCast S256x256 (View.ld xA (Rect.unit (s := S32x256x256) ![1, 0, 0] S1x256x256.size inb_S32x256x256_S1x256x256_1_0_0)) shapeCasts_S1x256x256_S256x256) bitsLt_bf16_f32) (constant S32x256 .f32 0x00000000#32)) (matmul dot_S32x256_S256x256_S32x256_1_1_0_0_n_n none (extractStridedSlice S32x256 ![0, 512] (lhs1 l0 xA l3 l4 l5 l9) slices_S32x8192_o0_512_S32x256) (truncf .bf16 (shapeCast S256x256 (View.ld xA (Rect.unit (s := S32x256x256) ![2, 0, 0] S1x256x256.size inb_S32x256x256_S1x256x256_2_0_0)) shapeCasts_S1x256x256_S256x256) bitsLt_bf16_f32) (constant S32x256 .f32 0x00000000#32)) (matmul dot_S32x256_S256x256_S32x256_1_1_0_0_n_n none (extractStridedSlice S32x256 ![0, 768] (lhs1 l0 xA l3 l4 l5 l9) slices_S32x8192_o0_768_S32x256) (truncf .bf16 (shapeCast S256x256 (View.ld xA (Rect.unit (s := S32x256x256) ![3, 0, 0] S1x256x256.size inb_S32x256x256_S1x256x256_3_0_0)) shapeCasts_S1x256x256_S256x256) bitsLt_bf16_f32) (constant S32x256 .f32 0x00000000#32)) (matmul dot_S32x256_S256x256_S32x256_1_1_0_0_n_n none (extractStridedSlice S32x256 ![0, 1024] (lhs1 l0 xA l3 l4 l5 l9) slices_S32x8192_o0_1024_S32x256) (truncf .bf16 (shapeCast S256x256 (View.ld xA (Rect.unit (s := S32x256x256) ![4, 0, 0] S1x256x256.size inb_S32x256x256_S1x256x256_4_0_0)) shapeCasts_S1x256x256_S256x256) bitsLt_bf16_f32) (constant S32x256 .f32 0x00000000#32)) (matmul dot_S32x256_S256x256_S32x256_1_1_0_0_n_n none (extractStridedSlice S32x256 ![0, 1280] (lhs1 l0 xA l3 l4 l5 l9) slices_S32x8192_o0_1280_S32x256) (truncf .bf16 (shapeCast S256x256 (View.ld xA (Rect.unit (s := S32x256x256) ![5, 0, 0] S1x256x256.size inb_S32x256x256_S1x256x256_5_0_0)) shapeCasts_S1x256x256_S256x256) bitsLt_bf16_f32) (constant S32x256 .f32 0x00000000#32)) (matmul dot_S32x256_S256x256_S32x256_1_1_0_0_n_n none (extractStridedSlice S32x256 ![0, 1536] (lhs1 l0 xA l3 l4 l5 l9) slices_S32x8192_o0_1536_S32x256) (truncf .bf16 (shapeCast S256x256 (View.ld xA (Rect.unit (s := S32x256x256) ![6, 0, 0] S1x256x256.size inb_S32x256x256_S1x256x256_6_0_0)) shapeCasts_S1x256x256_S256x256) bitsLt_bf16_f32) (constant S32x256 .f32 0x00000000#32)) (matmul dot_S32x256_S256x256_S32x256_1_1_0_0_n_n none (extractStridedSlice S32x256 ![0, 1792] (lhs1 l0 xA l3 l4 l5 l9) slices_S32x8192_o0_1792_S32x256) (truncf .bf16 (shapeCast S256x256 (View.ld xA (Rect.unit (s := S32x256x256) ![7, 0, 0] S1x256x256.size inb_S32x256x256_S1x256x256_7_0_0)) shapeCasts_S1x256x256_S256x256) bitsLt_bf16_f32) (constant S32x256 .f32 0x00000000#32)) (matmul dot_S32x256_S256x256_S32x256_1_1_0_0_n_n none (extractStridedSlice S32x256 ![0, 2048] (lhs1 l0 xA l3 l4 l5 l9) slices_S32x8192_o0_2048_S32x256) (truncf .bf16 (shapeCast S256x256 (View.ld xA (Rect.unit (s := S32x256x256) ![8, 0, 0] S1x256x256.size inb_S32x256x256_S1x256x256_8_0_0)) shapeCasts_S1x256x256_S256x256) bitsLt_bf16_f32) (constant S32x256 .f32 0x00000000#32)) (matmul dot_S32x256_S256x256_S32x256_1_1_0_0_n_n none (extractStridedSlice S32x256 ![0, 2304] (lhs1 l0 xA l3 l4 l5 l9) slices_S32x8192_o0_2304_S32x256) (truncf .bf16 (shapeCast S256x256 (View.ld xA (Rect.unit (s := S32x256x256) ![9, 0, 0] S1x256x256.size inb_S32x256x256_S1x256x256_9_0_0)) shapeCasts_S1x256x256_S256x256) bitsLt_bf16_f32) (constant S32x256 .f32 0x00000000#32)) (matmul dot_S32x256_S256x256_S32x256_1_1_0_0_n_n none (extractStridedSlice S32x256 ![0, 2560] (lhs1 l0 xA l3 l4 l5 l9) slices_S32x8192_o0_2560_S32x256) (truncf .bf16 (shapeCast S256x256 (View.ld xA (Rect.unit (s := S32x256x256) ![10, 0, 0] S1x256x256.size inb_S32x256x256_S1x256x256_10_0_0)) shapeCasts_S1x256x256_S256x256) bitsLt_bf16_f32) (constant S32x256 .f32 0x00000000#32)) (matmul dot_S32x256_S256x256_S32x256_1_1_0_0_n_n none (extractStridedSlice S32x256 ![0, 2816] (lhs1 l0 xA l3 l4 l5 l9) slices_S32x8192_o0_2816_S32x256) (truncf .bf16 (shapeCast S256x256 (View.ld xA (Rect.unit (s := S32x256x256) ![11, 0, 0] S1x256x256.size inb_S32x256x256_S1x256x256_11_0_0)) shapeCasts_S1x256x256_S256x256) bitsLt_bf16_f32) (constant S32x256 .f32 0x00000000#32)) (matmul dot_S32x256_S256x256_S32x256_1_1_0_0_n_n none (extractStridedSlice S32x256 ![0, 3072] (lhs1 l0 xA l3 l4 l5 l9) slices_S32x8192_o0_3072_S32x256) (truncf .bf16 (shapeCast S256x256 (View.ld xA (Rect.unit (s := S32x256x256) ![12, 0, 0] S1x256x256.size inb_S32x256x256_S1x256x256_12_0_0)) shapeCasts_S1x256x256_S256x256) bitsLt_bf16_f32) (constant S32x256 .f32 0x00000000#32)) (matmul dot_S32x256_S256x256_S32x256_1_1_0_0_n_n none (extractStridedSlice S32x256 ![0, 3328] (lhs1 l0 xA l3 l4 l5 l9) slices_S32x8192_o0_3328_S32x256) (truncf .bf16 (shapeCast S256x256 (View.ld xA (Rect.unit (s := S32x256x256) ![13, 0, 0] S1x256x256.size inb_S32x256x256_S1x256x256_13_0_0)) shapeCasts_S1x256x256_S256x256) bitsLt_bf16_f32) (constant S32x256 .f32 0x00000000#32)) (matmul dot_S32x256_S256x256_S32x256_1_1_0_0_n_n none (extractStridedSlice S32x256 ![0, 3584] (lhs1 l0 xA l3 l4 l5 l9) slices_S32x8192_o0_3584_S32x256) (truncf .bf16 (shapeCast S256x256 (View.ld xA (Rect.unit (s := S32x256x256) ![14, 0, 0] S1x256x256.size inb_S32x256x256_S1x256x256_14_0_0)) shapeCasts_S1x256x256_S256x256) bitsLt_bf16_f32) (constant S32x256 .f32 0x00000000#32)) (matmul dot_S32x256_S256x256_S32x256_1_1_0_0_n_n none (extractStridedSlice S32x256 ![0, 3840] (lhs1 l0 xA l3 l4 l5 l9) slices_S32x8192_o0_3840_S32x256) (truncf .bf16 (shapeCast S256x256 (View.ld xA (Rect.unit (s := S32x256x256) ![15, 0, 0] S1x256x256.size inb_S32x256x256_S1x256x256_15_0_0)) shapeCasts_S1x256x256_S256x256) bitsLt_bf16_f32) (constant S32x256 .f32 0x00000000#32)) (matmul dot_S32x256_S256x256_S32x256_1_1_0_0_n_n none (extractStridedSlice S32x256 ![0, 4096] (lhs1 l0 xA l3 l4 l5 l9) slices_S32x8192_o0_4096_S32x256) (truncf .bf16 (shapeCast S256x256 (View.ld xA (Rect.unit (s := S32x256x256) ![16, 0, 0] S1x256x256.size inb_S32x256x256_S1x256x256_16_0_0)) shapeCasts_S1x256x256_S256x256) bitsLt_bf16_f32) (constant S32x256 .f32 0x00000000#32)) (matmul dot_S32x256_S256x256_S32x256_1_1_0_0_n_n none (extractStridedSlice S32x256 ![0, 4352] (lhs1 l0 xA l3 l4 l5 l9) slices_S32x8192_o0_4352_S32x256) (truncf .bf16 (shapeCast S256x256 (View.ld xA (Rect.unit (s := S32x256x256) ![17, 0, 0] S1x256x256.size inb_S32x256x256_S1x256x256_17_0_0)) shapeCasts_S1x256x256_S256x256) bitsLt_bf16_f32) (constant S32x256 .f32 0x00000000#32)) (matmul dot_S32x256_S256x256_S32x256_1_1_0_0_n_n none (extractStridedSlice S32x256 ![0, 4608] (lhs1 l0 xA l3 l4 l5 l9) slices_S32x8192_o0_4608_S32x256) (truncf .bf16 (shapeCast S256x256 (View.ld xA (Rect.unit (s := S32x256x256) ![18, 0, 0] S1x256x256.size inb_S32x256x256_S1x256x256_18_0_0)) shapeCasts_S1x256x256_S256x256) bitsLt_bf16_f32) (constant S32x256 .f32 0x00000000#32)) (matmul dot_S32x256_S256x256_S32x256_1_1_0_0_n_n none (extractStridedSlice S32x256 ![0, 4864] (lhs1 l0 xA l3 l4 l5 l9) slices_S32x8192_o0_4864_S32x256) (truncf .bf16 (shapeCast S256x256 (View.ld xA (Rect.unit (s := S32x256x256) ![19, 0, 0] S1x256x256.size inb_S32x256x256_S1x256x256_19_0_0)) shapeCasts_S1x256x256_S256x256) bitsLt_bf16_f32) (constant S32x256 .f32 0x00000000#32)) (matmul dot_S32x256_S256x256_S32x256_1_1_0_0_n_n none (extractStridedSlice S32x256 ![0, 5120] (lhs1 l0 xA l3 l4 l5 l9) slices_S32x8192_o0_5120_S32x256) (truncf .bf16 (shapeCast S256x256 (View.ld xA (Rect.unit (s := S32x256x256) ![20, 0, 0] S1x256x256.size inb_S32x256x256_S1x256x256_20_0_0)) shapeCasts_S1x256x256_S256x256) bitsLt_bf16_f32) (constant S32x256 .f32 0x00000000#32)) (matmul dot_S32x256_S256x256_S32x256_1_1_0_0_n_n none (extractStridedSlice S32x256 ![0, 5376] (lhs1 l0 xA l3 l4 l5 l9) slices_S32x8192_o0_5376_S32x256) (truncf .bf16 (shapeCast S256x256 (View.ld xA (Rect.unit (s := S32x256x256) ![21, 0, 0] S1x256x256.size inb_S32x256x256_S1x256x256_21_0_0)) shapeCasts_S1x256x256_S256x256) bitsLt_bf16_f32) (constant S32x256 .f32 0x00000000#32)) (matmul dot_S32x256_S256x256_S32x256_1_1_0_0_n_n none (extractStridedSlice S32x256 ![0, 5632] (lhs1 l0 xA l3 l4 l5 l9) slices_S32x8192_o0_5632_S32x256) (truncf .bf16 (shapeCast S256x256 (View.ld xA (Rect.unit (s := S32x256x256) ![22, 0, 0] S1x256x256.size inb_S32x256x256_S1x256x256_22_0_0)) shapeCasts_S1x256x256_S256x256) bitsLt_bf16_f32) (constant S32x256 .f32 0x00000000#32)) (matmul dot_S32x256_S256x256_S32x256_1_1_0_0_n_n none (extractStridedSlice S32x256 ![0, 5888] (lhs1 l0 xA l3 l4 l5 l9) slices_S32x8192_o0_5888_S32x256) (truncf .bf16 (shapeCast S256x256 (View.ld xA (Rect.unit (s := S32x256x256) ![23, 0, 0] S1x256x256.size inb_S32x256x256_S1x256x256_23_0_0)) shapeCasts_S1x256x256_S256x256) bitsLt_bf16_f32) (constant S32x256 .f32 0x00000000#32)) (matmul dot_S32x256_S256x256_S32x256_1_1_0_0_n_n none (extractStridedSlice S32x256 ![0, 6144] (lhs1 l0 xA l3 l4 l5 l9) slices_S32x8192_o0_6144_S32x256) (truncf .bf16 (shapeCast S256x256 (View.ld xA (Rect.unit (s := S32x256x256) ![24, 0, 0] S1x256x256.size inb_S32x256x256_S1x256x256_24_0_0)) shapeCasts_S1x256x256_S256x256) bitsLt_bf16_f32) (constant S32x256 .f32 0x00000000#32)) l6 = (mask1 l0 xA l3 l4 l5 l6 l9) := rfl
theorem e131 : k0_pay131 (m1b1 l9) (m2w1 l9) (m2b1 l9) (truncf .bf16 (shapeCast S256x256 (View.ld xA (Rect.unit (s := S32x256x256) ![25, 0, 0] S1x256x256.size inb_S32x256x256_S1x256x256_25_0_0)) shapeCasts_S1x256x256_S256x256) bitsLt_bf16_f32) (truncf .bf16 (shapeCast S256x256 (View.ld xA (Rect.unit (s := S32x256x256) ![26, 0, 0] S1x256x256.size inb_S32x256x256_S1x256x256_26_0_0)) shapeCasts_S1x256x256_S256x256) bitsLt_bf16_f32) (truncf .bf16 (shapeCast S256x256 (View.ld xA (Rect.unit (s := S32x256x256) ![27, 0, 0] S1x256x256.size inb_S32x256x256_S1x256x256_27_0_0)) shapeCasts_S1x256x256_S256x256) bitsLt_bf16_f32) (truncf .bf16 (shapeCast S256x256 (View.ld xA (Rect.unit (s := S32x256x256) ![28, 0, 0] S1x256x256.size inb_S32x256x256_S1x256x256_28_0_0)) shapeCasts_S1x256x256_S256x256) bitsLt_bf16_f32) (truncf .bf16 (shapeCast S256x256 (View.ld xA (Rect.unit (s := S32x256x256) ![29, 0, 0] S1x256x256.size inb_S32x256x256_S1x256x256_29_0_0)) shapeCasts_S1x256x256_S256x256) bitsLt_bf16_f32) (truncf .bf16 (shapeCast S256x256 (View.ld xA (Rect.unit (s := S32x256x256) ![30, 0, 0] S1x256x256.size inb_S32x256x256_S1x256x256_30_0_0)) shapeCasts_S1x256x256_S256x256) bitsLt_bf16_f32) (truncf .bf16 (shapeCast S256x256 (View.ld xA (Rect.unit (s := S32x256x256) ![31, 0, 0] S1x256x256.size inb_S32x256x256_S1x256x256_31_0_0)) shapeCasts_S1x256x256_S256x256) bitsLt_bf16_f32) (full1 l0 xA l3 l4 l5 l9) (hl1 l0 xA l3 l4 l5 l9) (lhs1 l0 xA l3 l4 l5 l9) (matmul dot_S32x256_S256x256_S32x256_1_1_0_0_n_n none (extractStridedSlice S32x256 ![0, 0] (lhs1 l0 xA l3 l4 l5 l9) slices_S32x8192_o0_0_S32x256) (truncf .bf16 (shapeCast S256x256 (View.ld xA (Rect.unit (s := S32x256x256) ![0, 0, 0] S1x256x256.size inb_S32x256x256_S1x256x256_0_0_0)) shapeCasts_S1x256x256_S256x256) bitsLt_bf16_f32) (constant S32x256 .f32 0x00000000#32)) (matmul dot_S32x256_S256x256_S32x256_1_1_0_0_n_n none (extractStridedSlice S32x256 ![0, 256] (lhs1 l0 xA l3 l4 l5 l9) slices_S32x8192_o0_256_S32x256) (truncf .bf16 (shapeCast S256x256 (View.ld xA (Rect.unit (s := S32x256x256) ![1, 0, 0] S1x256x256.size inb_S32x256x256_S1x256x256_1_0_0)) shapeCasts_S1x256x256_S256x256) bitsLt_bf16_f32) (constant S32x256 .f32 0x00000000#32)) (matmul dot_S32x256_S256x256_S32x256_1_1_0_0_n_n none (extractStridedSlice S32x256 ![0, 512] (lhs1 l0 xA l3 l4 l5 l9) slices_S32x8192_o0_512_S32x256) (truncf .bf16 (shapeCast S256x256 (View.ld xA (Rect.unit (s := S32x256x256) ![2, 0, 0] S1x256x256.size inb_S32x256x256_S1x256x256_2_0_0)) shapeCasts_S1x256x256_S256x256) bitsLt_bf16_f32) (constant S32x256 .f32 0x00000000#32)) (matmul dot_S32x256_S256x256_S32x256_1_1_0_0_n_n none (extractStridedSlice S32x256 ![0, 768] (lhs1 l0 xA l3 l4 l5 l9) slices_S32x8192_o0_768_S32x256) (truncf .bf16 (shapeCast S256x256 (View.ld xA (Rect.unit (s := S32x256x256) ![3, 0, 0] S1x256x256.size inb_S32x256x256_S1x256x256_3_0_0)) shapeCasts_S1x256x256_S256x256) bitsLt_bf16_f32) (constant S32x256 .f32 0x00000000#32)) (matmul dot_S32x256_S256x256_S32x256_1_1_0_0_n_n none (extractStridedSlice S32x256 ![0, 1024] (lhs1 l0 xA l3 l4 l5 l9) slices_S32x8192_o0_1024_S32x256) (truncf .bf16 (shapeCast S256x256 (View.ld xA (Rect.unit (s := S32x256x256) ![4, 0, 0] S1x256x256.size inb_S32x256x256_S1x256x256_4_0_0)) shapeCasts_S1x256x256_S256x256) bitsLt_bf16_f32) (constant S32x256 .f32 0x00000000#32)) (matmul dot_S32x256_S256x256_S32x256_1_1_0_0_n_n none (extractStridedSlice S32x256 ![0, 1280] (lhs1 l0 xA l3 l4 l5 l9) slices_S32x8192_o0_1280_S32x256) (truncf .bf16 (shapeCast S256x256 (View.ld xA (Rect.unit (s := S32x256x256) ![5, 0, 0] S1x256x256.size inb_S32x256x256_S1x256x256_5_0_0)) shapeCasts_S1x256x256_S256x256) bitsLt_bf16_f32) (constant S32x256 .f32 0x00000000#32)) (matmul dot_S32x256_S256x256_S32x256_1_1_0_0_n_n none (extractStridedSlice S32x256 ![0, 1536] (lhs1 l0 xA l3 l4 l5 l9) slices_S32x8192_o0_1536_S32x256) (truncf .bf16 (shapeCast S256x256 (View.ld xA (Rect.unit (s := S32x256x256) ![6, 0, 0] S1x256x256.size inb_S32x256x256_S1x256x256_6_0_0)) shapeCasts_S1x256x256_S256x256) bitsLt_bf16_f32) (constant S32x256 .f32 0x00000000#32)) (matmul dot_S32x256_S256x256_S32x256_1_1_0_0_n_n none (extractStridedSlice S32x256 ![0, 1792] (lhs1 l0 xA l3 l4 l5 l9) slices_S32x8192_o0_1792_S32x256) (truncf .bf16 (shapeCast S256x256 (View.ld xA (Rect.unit (s := S32x256x256) ![7, 0, 0] S1x256x256.size inb_S32x256x256_S1x256x256_7_0_0)) shapeCasts_S1x256x256_S256x256) bitsLt_bf16_f32) (constant S32x256 .f32 0x00000000#32)) (matmul dot_S32x256_S256x256_S32x256_1_1_0_0_n_n none (extractStridedSlice S32x256 ![0, 2048] (lhs1 l0 xA l3 l4 l5 l9) slices_S32x8192_o0_2048_S32x256) (truncf .bf16 (shapeCast S256x256 (View.ld xA (Rect.unit (s := S32x256x256) ![8, 0, 0] S1x256x256.size inb_S32x256x256_S1x256x256_8_0_0)) shapeCasts_S1x256x256_S256x256) bitsLt_bf16_f32) (constant S32x256 .f32 0x00000000#32)) (matmul dot_S32x256_S256x256_S32x256_1_1_0_0_n_n none (extractStridedSlice S32x256 ![0, 2304] (lhs1 l0 xA l3 l4 l5 l9) slices_S32x8192_o0_2304_S32x256) (truncf .bf16 (shapeCast S256x256 (View.ld xA (Rect.unit (s := S32x256x256) ![9, 0, 0] S1x256x256.size inb_S32x256x256_S1x256x256_9_0_0)) shapeCasts_S1x256x256_S256x256) bitsLt_bf16_f32) (constant S32x256 .f32 0x00000000#32)) (matmul dot_S32x256_S256x256_S32x256_1_1_0_0_n_n none (extractStridedSlice S32x256 ![0, 2560] (lhs1 l0 xA l3 l4 l5 l9) slices_S32x8192_o0_2560_S32x256) (truncf .bf16 (shapeCast S256x256 (View.ld xA (Rect.unit (s := S32x256x256) ![10, 0, 0] S1x256x256.size inb_S32x256x256_S1x256x256_10_0_0)) shapeCasts_S1x256x256_S256x256) bitsLt_bf16_f32) (constant S32x256 .f32 0x00000000#32)) (matmul dot_S32x256_S256x256_S32x256_1_1_0_0_n_n none (extractStridedSlice S32x256 ![0, 2816] (lhs1 l0 xA l3 l4 l5 l9) slices_S32x8192_o0_2816_S32x256) (truncf .bf16 (shapeCast S256x256 (View.ld xA (Rect.unit (s := S32x256x256) ![11, 0, 0] S1x256x256.size inb_S32x256x256_S1x256x256_11_0_0)) shapeCasts_S1x256x256_S256x256) bitsLt_bf16_f32) (constant S32x256 .f32 0x00000000#32)) (matmul dot_S32x256_S256x256_S32x256_1_1_0_0_n_n none (extractStridedSlice S32x256 ![0, 3072] (lhs1 l0 xA l3 l4 l5 l9) slices_S32x8192_o0_3072_S32x256) (truncf .bf16 (shapeCast S256x256 (View.ld xA (Rect.unit (s := S32x256x256) ![12, 0, 0] S1x256x256.size inb_S32x256x256_S1x256x256_12_0_0)) shapeCasts_S1x256x256_S256x256) bitsLt_bf16_f32) (constant S32x256 .f32 0x00000000#32)) (matmul dot_S32x256_S256x256_S32x256_1_1_0_0_n_n none (extractStridedSlice S32x256 ![0, 3328] (lhs1 l0 xA l3 l4 l5 l9) slices_S32x8192_o0_3328_S32x256) (truncf .bf16 (shapeCast S256x256 (View.ld xA (Rect.unit (s := S32x256x256) ![13, 0, 0] S1x256x256.size inb_S32x256x256_S1x256x256_13_0_0)) shapeCasts_S1x256x256_S256x256) bitsLt_bf16_f32) (constant S32x256 .f32 0x00000000#32)) (matmul dot_S32x256_S256x256_S32x256_1_1_0_0_n_n none (extractStridedSlice S32x256 ![0, 3584] (lhs1 l0 xA l3 l4 l5 l9) slices_S32x8192_o0_3584_S32x256) (truncf .bf16 (shapeCast S256x256 (View.ld xA (Rect.unit (s := S32x256x256) ![14, 0, 0] S1x256x256.size inb_S32x256x256_S1x256x256_14_0_0)) shapeCasts_S1x256x256_S256x256) bitsLt_bf16_f32) (constant S32x256 .f32 0x00000000#32)) (matmul dot_S32x256_S256x256_S32x256_1_1_0_0_n_n none (extractStridedSlice S32x256 ![0, 3840] (lhs1 l0 xA l3 l4 l5 l9) slices_S32x8192_o0_3840_S32x256) (truncf .bf16 (shapeCast S256x256 (View.ld xA (Rect.unit (s := S32x256x256) ![15, 0, 0] S1x256x256.size inb_S32x256x256_S1x256x256_15_0_0)) shapeCasts_S1x256x256_S256x256) bitsLt_bf16_f32) (constant S32x256 .f32 0x00000000#32)) (matmul dot_S32x256_S256x256_S32x256_1_1_0_0_n_n none (extractStridedSlice S32x256 ![0, 4096] (lhs1 l0 xA l3 l4 l5 l9) slices_S32x8192_o0_4096_S32x256) (truncf .bf16 (shapeCast S256x256 (View.ld xA (Rect.unit (s := S32x256x256) ![16, 0, 0] S1x256x256.size inb_S32x256x256_S1x256x256_16_0_0)) shapeCasts_S1x256x256_S256x256) bitsLt_bf16_f32) (constant S32x256 .f32 0x00000000#32)) (matmul dot_S32x256_S256x256_S32x256_1_1_0_0_n_n none (extractStridedSlice S32x256 ![0, 4352] (lhs1 l0 xA l3 l4 l5 l9) slices_S32x8192_o0_4352_S32x256) (truncf .bf16 (shapeCast S256x256 (View.ld xA (Rect.unit (s := S32x256x256) ![17, 0, 0] S1x256x256.size inb_S32x256x256_S1x256x256_17_0_0)) shapeCasts_S1x256x256_S256x256) bitsLt_bf16_f32) (constant S32x256 .f32 0x00000000#32)) (matmul dot_S32x256_S256x256_S32x256_1_1_0_0_n_n none (extractStridedSlice S32x256 ![0, 4608] (lhs1 l0 xA l3 l4 l5 l9) slices_S32x8192_o0_4608_S32x256) (truncf .bf16 (shapeCast S256x256 (View.ld xA (Rect.unit (s := S32x256x256) ![18, 0, 0] S1x256x256.size inb_S32x256x256_S1x256x256_18_0_0)) shapeCasts_S1x256x256_S256x256) bitsLt_bf16_f32) (constant S32x256 .f32 0x00000000#32)) (matmul dot_S32x256_S256x256_S32x256_1_1_0_0_n_n none (extractStridedSlice S32x256 ![0, 4864] (lhs1 l0 xA l3 l4 l5 l9) slices_S32x8192_o0_4864_S32x256) (truncf .bf16 (shapeCast S256x256 (View.ld xA (Rect.unit (s := S32x256x256) ![19, 0, 0] S1x256x256.size inb_S32x256x256_S1x256x256_19_0_0)) shapeCasts_S1x256x256_S256x256) bitsLt_bf16_f32) (constant S32x256 .f32 0x00000000#32)) (matmul dot_S32x256_S256x256_S32x256_1_1_0_0_n_n none (extractStridedSlice S32x256 ![0, 5120] (lhs1 l0 xA l3 l4 l5 l9) slices_S32x8192_o0_5120_S32x256) (truncf .bf16 (shapeCast S256x256 (View.ld xA (Rect.unit (s := S32x256x256) ![20, 0, 0] S1x256x256.size inb_S32x256x256_S1x256x256_20_0_0)) shapeCasts_S1x256x256_S256x256) bitsLt_bf16_f32) (constant S32x256 .f32 0x00000000#32)) (matmul dot_S32x256_S256x256_S32x256_1_1_0_0_n_n none (extractStridedSlice S32x256 ![0, 5376] (lhs1 l0 xA l3 l4 l5 l9) slices_S32x8192_o0_5376_S32x256) (truncf .bf16 (shapeCast S256x256 (View.ld xA (Rect.unit (s := S32x256x256) ![21, 0, 0] S1x256x256.size inb_S32x256x256_S1x256x256_21_0_0)) shapeCasts_S1x256x256_S256x256) bitsLt_bf16_f32) (constant S32x256 .f32 0x00000000#32)) (matmul dot_S32x256_S256x256_S32x256_1_1_0_0_n_n none (extractStridedSlice S32x256 ![0, 5632] (lhs1 l0 xA l3 l4 l5 l9) slices_S32x8192_o0_5632_S32x256) (truncf .bf16 (shapeCast S256x256 (View.ld xA (Rect.unit (s := S32x256x256) ![22, 0, 0] S1x256x256.size inb_S32x256x256_S1x256x256_22_0_0)) shapeCasts_S1x256x256_S256x256) bitsLt_bf16_f32) (constant S32x256 .f32 0x00000000#32)) (matmul dot_S32x256_S256x256_S32x256_1_1_0_0_n_n none (extractStridedSlice S32x256 ![0, 5888] (lhs1 l0 xA l3 l4 l5 l9) slices_S32x8192_o0_5888_S32x256) (truncf .bf16 (shapeCast S256x256 (View.ld xA (Rect.unit (s := S32x256x256) ![23, 0, 0] S1x256x256.size inb_S32x256x256_S1x256x256_23_0_0)) shapeCasts_S1x256x256_S256x256) bitsLt_bf16_f32) (constant S32x256 .f32 0x00000000#32)) (matmul dot_S32x256_S256x256_S32x256_1_1_0_0_n_n none (extractStridedSlice S32x256 ![0, 6144] (lhs1 l0 xA l3 l4 l5 l9) slices_S32x8192_o0_6144_S32x256) (truncf .bf16 (shapeCast S256x256 (View.ld xA (Rect.unit (s := S32x256x256) ![24, 0, 0] S1x256x256.size inb_S32x256x256_S1x256x256_24_0_0)) shapeCasts_S1x256x256_S256x256) bitsLt_bf16_f32) (constant S32x256 .f32 0x00000000#32)) l6 = (h1 l0 xA l3 l4 l5 l6 l9) := rfl
theorem e132 : k0_pay132 (m1b1 l9) (m2w1 l9) (m2b1 l9) (truncf .bf16 (shapeCast S256x256 (View.ld xA (Rect.unit (s := S32x256x256) ![0, 0, 0] S1x256x256.size inb_S32x256x256_S1x256x256_0_0_0)) shapeCasts_S1x256x256_S256x256) bitsLt_bf16_f32) (truncf .bf16 (shapeCast S256x256 (View.ld xA (Rect.unit (s := S32x256x256) ![25, 0, 0] S1x256x256.size inb_S32x256x256_S1x256x256_25_0_0)) shapeCasts_S1x256x256_S256x256) bitsLt_bf16_f32) (truncf .bf16 (shapeCast S256x256 (View.ld xA (Rect.unit (s := S32x256x256) ![26, 0, 0] S1x256x256.size inb_S32x256x256_S1x256x256_26_0_0)) shapeCasts_S1x256x256_S256x256) bitsLt_bf16_f32) (truncf .bf16 (shapeCast S256x256 (View.ld xA (Rect.unit (s := S32x256x256) ![27, 0, 0] S1x256x256.size inb_S32x256x256_S1x256x256_27_0_0)) shapeCasts_S1x256x256_S256x256) bitsLt_bf16_f32) (truncf .bf16 (shapeCast S256x256 (View.ld xA (Rect.unit (s := S32x256x256) ![28, 0, 0] S1x256x256.size inb_S32x256x256_S1x256x256_28_0_0)) shapeCasts_S1x256x256_S256x256) bitsLt_bf16_f32) (truncf .bf16 (shapeCast S256x256 (View.ld xA (Rect.unit (s := S32x256x256) ![29, 0, 0] S1x256x256.size inb_S32x256x256_S1x256x256_29_0_0)) shapeCasts_S1x256x256_S256x256) bitsLt_bf16_f32) (truncf .bf16 (shapeCast S256x256 (View.ld xA (Rect.unit (s := S32x256x256) ![30, 0, 0] S1x256x256.size inb_S32x256x256_S1x256x256_30_0_0)) shapeCasts_S1x256x256_S256x256) bitsLt_bf16_f32) (truncf .bf16 (shapeCast S256x256 (View.ld xA (Rect.unit (s := S32x256x256) ![31, 0, 0] S1x256x256.size inb_S32x256x256_S1x256x256_31_0_0)) shapeCasts_S1x256x256_S256x256) bitsLt_bf16_f32) (full1 l0 xA l3 l4 l5 l9) (hl1 l0 xA l3 l4 l5 l9) (lhs1 l0 xA l3 l4 l5 l9) (matmul dot_S32x256_S256x256_S32x256_1_1_0_0_n_n none (extractStridedSlice S32x256 ![0, 0] (lhs1 l0 xA l3 l4 l5 l9) slices_S32x8192_o0_0_S32x256) (truncf .bf16 (shapeCast S256x256 (View.ld xA (Rect.unit (s := S32x256x256) ![0, 0, 0] S1x256x256.size inb_S32x256x256_S1x256x256_0_0_0)) shapeCasts_S1x256x256_S256x256) bitsLt_bf16_f32) (constant S32x256 .f32 0x00000000#32)) (matmul dot_S32x256_S256x256_S32x256_1_1_0_0_n_n none (extractStridedSlice S32x256 ![0, 256] (lhs1 l0 xA l3 l4 l5 l9) slices_S32x8192_o0_256_S32x256) (truncf .bf16 (shapeCast S256x256 (View.ld xA (Rect.unit (s := S32x256x256) ![1, 0, 0] S1x256x256.size inb_S32x256x256_S1x256x256_1_0_0)) shapeCasts_S1x256x256_S256x256) bitsLt_bf16_f32) (constant S32x256 .f32 0x00000000#32)) (matmul dot_S32x256_S256x256_S32x256_1_1_0_0_n_n none (extractStridedSlice S32x256 ![0, 512] (lhs1 l0 xA l3 l4 l5 l9) slices_S32x8192_o0_512_S32x256) (truncf .bf16 (shapeCast S256x256 (View.ld xA (Rect.unit (s := S32x256x256) ![2, 0, 0] S1x256x256.size inb_S32x256x256_S1x256x256_2_0_0)) shapeCasts_S1x256x256_S256x256) bitsLt_bf16_f32) (constant S32x256 .f32 0x00000000#32)) (matmul dot_S32x256_S256x256_S32x256_1_1_0_0_n_n none (extractStridedSlice S32x256 ![0, 768] (lhs1 l0 xA l3 l4 l5 l9) slices_S32x8192_o0_768_S32x256) (truncf .bf16 (shapeCast S256x256 (View.ld xA (Rect.unit (s := S32x256x256) ![3, 0, 0] S1x256x256.size inb_S32x256x256_S1x256x256_3_0_0)) shapeCasts_S1x256x256_S256x256) bitsLt_bf16_f32) (constant S32x256 .f32 0x00000000#32)) (matmul dot_S32x256_S256x256_S32x256_1_1_0_0_n_n none (extractStridedSlice S32x256 ![0, 1024] (lhs1 l0 xA l3 l4 l5 l9) slices_S32x8192_o0_1024_S32x256) (truncf .bf16 (shapeCast S256x256 (View.ld xA (Rect.unit (s := S32x256x256) ![4, 0, 0] S1x256x256.size inb_S32x256x256_S1x256x256_4_0_0)) shapeCasts_S1x256x256_S256x256) bitsLt_bf16_f32) (constant S32x256 .f32 0x00000000#32)) (matmul dot_S32x256_S256x256_S32x256_1_1_0_0_n_n none (extractStridedSlice S32x256 ![0, 1280] (lhs1 l0 xA l3 l4 l5 l9) slices_S32x8192_o0_1280_S32x256) (truncf .bf16 (shapeCast S256x256 (View.ld xA (Rect.unit (s := S32x256x256) ![5, 0, 0] S1x256x256.size inb_S32x256x256_S1x256x256_5_0_0)) shapeCasts_S1x256x256_S256x256) bitsLt_bf16_f32) (constant S32x256 .f32 0x00000000#32)) (matmul dot_S32x256_S256x256_S32x256_1_1_0_0_n_n none (extractStridedSlice S32x256 ![0, 1536] (lhs1 l0 xA l3 l4 l5 l9) slices_S32x8192_o0_1536_S32x256) (truncf .bf16 (shapeCast S256x256 (View.ld xA (Rect.unit (s := S32x256x256) ![6, 0, 0] S1x256x256.size inb_S32x256x256_S1x256x256_6_0_0)) shapeCasts_S1x256x256_S256x256) bitsLt_bf16_f32) (constant S32x256 .f32 0x00000000#32)) (matmul dot_S32x256_S256x256_S32x256_1_1_0_0_n_n none (extractStridedSlice S32x256 ![0, 1792] (lhs1 l0 xA l3 l4 l5 l9) slices_S32x8192_o0_1792_S32x256) (truncf .bf16 (shapeCast S256x256 (View.ld xA (Rect.unit (s := S32x256x256) ![7, 0, 0] S1x256x256.size inb_S32x256x256_S1x256x256_7_0_0)) shapeCasts_S1x256x256_S256x256) bitsLt_bf16_f32) (constant S32x256 .f32 0x00000000#32)) (matmul dot_S32x256_S256x256_S32x256_1_1_0_0_n_n none (extractStridedSlice S32x256 ![0, 2048] (lhs1 l0 xA l3 l4 l5 l9) slices_S32x8192_o0_2048_S32x256) (truncf .bf16 (shapeCast S256x256 (View.ld xA (Rect.unit (s := S32x256x256) ![8, 0, 0] S1x256x256.size inb_S32x256x256_S1x256x256_8_0_0)) shapeCasts_S1x256x256_S256x256) bitsLt_bf16_f32) (constant S32x256 .f32 0x00000000#32)) (matmul dot_S32x256_S256x256_S32x256_1_1_0_0_n_n none (extractStridedSlice S32x256 ![0, 2304] (lhs1 l0 xA l3 l4 l5 l9) slices_S32x8192_o0_2304_S32x256) (truncf .bf16 (shapeCast S256x256 (View.ld xA (Rect.unit (s := S32x256x256) ![9, 0, 0] S1x256x256.size inb_S32x256x256_S1x256x256_9_0_0)) shapeCasts_S1x256x256_S256x256) bitsLt_bf16_f32) (constant S32x256 .f32 0x00000000#32)) (matmul dot_S32x256_S256x256_S32x256_1_1_0_0_n_n none (extractStridedSlice S32x256 ![0, 2560] (lhs1 l0 xA l3 l4 l5 l9) slices_S32x8192_o0_2560_S32x256) (truncf .bf16 (shapeCast S256x256 (View.ld xA (Rect.unit (s := S32x256x256) ![10, 0, 0] S1x256x256.size inb_S32x256x256_S1x256x256_10_0_0)) shapeCasts_S1x256x256_S256x256) bitsLt_bf16_f32) (constant S32x256 .f32 0x00000000#32)) (matmul dot_S32x256_S256x256_S32x256_1_1_0_0_n_n none (extractStridedSlice S32x256 ![0, 2816] (lhs1 l0 xA l3 l4 l5 l9) slices_S32x8192_o0_2816_S32x256) (truncf .bf16 (shapeCast S256x256 (View.ld xA (Rect.unit (s := S32x256x256) ![11, 0, 0] S1x256x256.size inb_S32x256x256_S1x256x256_11_0_0)) shapeCasts_S1x256x256_S256x256) bitsLt_bf16_f32) (constant S32x256 .f32 0x00000000#32)) (matmul dot_S32x256_S256x256_S32x256_1_1_0_0_n_n none (extractStridedSlice S32x256 ![0, 3072] (lhs1 l0 xA l3 l4 l5 l9) slices_S32x8192_o0_3072_S32x256) (truncf .bf16 (shapeCast S256x256 (View.ld xA (Rect.unit (s := S32x256x256) ![12, 0, 0] S1x256x256.size inb_S32x256x256_S1x256x256_12_0_0)) shapeCasts_S1x256x256_S256x256) bitsLt_bf16_f32) (constant S32x256 .f32 0x00000000#32)) (matmul dot_S32x256_S256x256_S32x256_1_1_0_0_n_n none (extractStridedSlice S32x256 ![0, 3328] (lhs1 l0 xA l3 l4 l5 l9) slices_S32x8192_o0_3328_S32x256) (truncf .bf16 (shapeCast S256x256 (View.ld xA (Rect.unit (s := S32x256x256) ![13, 0, 0] S1x256x256.size inb_S32x256x256_S1x256x256_13_0_0)) shapeCasts_S1x256x256_S256x256) bitsLt_bf16_f32) (constant S32x256 .f32 0x00000000#32)) (matmul dot_S32x256_S256x256_S32x256_1_1_0_0_n_n none (extractStridedSlice S32x256 ![0, 3584] (lhs1 l0 xA l3 l4 l5 l9) slices_S32x8192_o0_3584_S32x256) (truncf .bf16 (shapeCast S256x256 (View.ld xA (Rect.unit (s := S32x256x256) ![14, 0, 0] S1x256x256.size inb_S32x256x256_S1x256x256_14_0_0)) shapeCasts_S1x256x256_S256x256) bitsLt_bf16_f32) (constant S32x256 .f32 0x00000000#32)) (matmul dot_S32x256_S256x256_S32x256_1_1_0_0_n_n none (extractStridedSlice S32x256 ![0, 3840] (lhs1 l0 xA l3 l4 l5 l9) slices_S32x8192_o0_3840_S32x256) (truncf .bf16 (shapeCast S256x256 (View.ld xA (Rect.unit (s := S32x256x256) ![15, 0, 0] S1x256x256.size inb_S32x256x256_S1x256x256_15_0_0)) shapeCasts_S1x256x256_S256x256) bitsLt_bf16_f32) (constant S32x256 .f32 0x00000000#32)) (matmul dot_S32x256_S256x256_S32x256_1_1_0_0_n_n none (extractStridedSlice S32x256 ![0, 4096] (lhs1 l0 xA l3 l4 l5 l9) slices_S32x8192_o0_4096_S32x256) (truncf .bf16 (shapeCast S256x256 (View.ld xA (Rect.unit (s := S32x256x256) ![16, 0, 0] S1x256x256.size inb_S32x256x256_S1x256x256_16_0_0)) shapeCasts_S1x256x256_S256x256) bitsLt_bf16_f32) (constant S32x256 .f32 0x00000000#32)) (matmul dot_S32x256_S256x256_S32x256_1_1_0_0_n_n none (extractStridedSlice S32x256 ![0, 4352] (lhs1 l0 xA l3 l4 l5 l9) slices_S32x8192_o0_4352_S32x256) (truncf .bf16 (shapeCast S256x256 (View.ld xA (Rect.unit (s := S32x256x256) ![17, 0, 0] S1x256x256.size inb_S32x256x256_S1x256x256_17_0_0)) shapeCasts_S1x256x256_S256x256) bitsLt_bf16_f32) (constant S32x256 .f32 0x00000000#32)) (matmul dot_S32x256_S256x256_S32x256_1_1_0_0_n_n none (extractStridedSlice S32x256 ![0, 4608] (lhs1 l0 xA l3 l4 l5 l9) slices_S32x8192_o0_4608_S32x256) (truncf .bf16 (shapeCast S256x256 (View.ld xA (Rect.unit (s := S32x256x256) ![18, 0, 0] S1x256x256.size inb_S32x256x256_S1x256x256_18_0_0)) shapeCasts_S1x256x256_S256x256) bitsLt_bf16_f32) (constant S32x256 .f32 0x00000000#32)) (matmul dot_S32x256_S256x256_S32x256_1_1_0_0_n_n none (extractStridedSlice S32x256 ![0, 4864] (lhs1 l0 xA l3 l4 l5 l9) slices_S32x8192_o0_4864_S32x256) (truncf .bf16 (shapeCast S256x256 (View.ld xA (Rect.unit (s := S32x256x256) ![19, 0, 0] S1x256x256.size inb_S32x256x256_S1x256x256_19_0_0)) shapeCasts_S1x256x256_S256x256) bitsLt_bf16_f32) (constant S32x256 .f32 0x00000000#32)) (matmul dot_S32x256_S256x256_S32x256_1_1_0_0_n_n none (extractStridedSlice S32x256 ![0, 5120] (lhs1 l0 xA l3 l4 l5 l9) slices_S32x8192_o0_5120_S32x256) (truncf .bf16 (shapeCast S256x256 (View.ld xA (Rect.unit (s := S32x256x256) ![20, 0, 0] S1x256x256.size inb_S32x256x256_S1x256x256_20_0_0)) shapeCasts_S1x256x256_S256x256) bitsLt_bf16_f32) (constant S32x256 .f32 0x00000000#32)) (matmul dot_S32x256_S256x256_S32x256_1_1_0_0_n_n none (extractStridedSlice S32x256 ![0, 5376] (lhs1 l0 xA l3 l4 l5 l9) slices_S32x8192_o0_5376_S32x256) (truncf .bf16 (shapeCast S256x256 (View.ld xA (Rect.unit (s := S32x256x256) ![21, 0, 0] S1x256x256.size inb_S32x256x256_S1x256x256_21_0_0)) shapeCasts_S1x256x256_S256x256) bitsLt_bf16_f32) (constant S32x256 .f32 0x00000000#32)) (matmul dot_S32x256_S256x256_S32x256_1_1_0_0_n_n none (extractStridedSlice S32x256 ![0, 5632] (lhs1 l0 xA l3 l4 l5 l9) slices_S32x8192_o0_5632_S32x256) (truncf .bf16 (shapeCast S256x256 (View.ld xA (Rect.unit (s := S32x256x256) ![22, 0, 0] S1x256x256.size inb_S32x256x256_S1x256x256_22_0_0)) shapeCasts_S1x256x256_S256x256) bitsLt_bf16_f32) (constant S32x256 .f32 0x00000000#32)) (matmul dot_S32x256_S256x256_S32x256_1_1_0_0_n_n none (extractStridedSlice S32x256 ![0, 5888] (lhs1 l0 xA l3 l4 l5 l9) slices_S32x8192_o0_5888_S32x256) (truncf .bf16 (shapeCast S256x256 (View.ld xA (Rect.unit (s := S32x256x256) ![23, 0, 0] S1x256x256.size inb_S32x256x256_S1x256x256_23_0_0)) shapeCasts_S1x256x256_S256x256) bitsLt_bf16_f32) (constant S32x256 .f32 0x00000000#32)) (matmul dot_S32x256_S256x256_S32x256_1_1_0_0_n_n none (extractStridedSlice S32x256 ![0, 6144] (lhs1 l0 xA l3 l4 l5 l9) slices_S32x8192_o0_6144_S32x256) (truncf .bf16 (shapeCast S256x256 (View.ld xA (Rect.unit (s := S32x256x256) ![24, 0, 0] S1x256x256.size inb_S32x256x256_S1x256x256_24_0_0)) shapeCasts_S1x256x256_S256x256) bitsLt_bf16_f32) (constant S32x256 .f32 0x00000000#32)) l6 = (matmul dot_S32x256_S256x256_S32x256_1_1_0_0_n_n none (extractStridedSlice S32x256 ![0, 0] (h1 l0 xA l3 l4 l5 l6 l9) slices_S32x8192_o0_0_S32x256) (truncf .bf16 (shapeCast S256x256 (View.ld xA (Rect.unit (s := S32x256x256) ![0, 0, 0] S1x256x256.size inb_S32x256x256_S1x256x256_0_0_0)) shapeCasts_S1x256x256_S256x256) bitsLt_bf16_f32) (constant S32x256 .f32 0x00000000#32)) := rfl
theorem e133 : k0_pay133 (m1b1 l9) (m2w1 l9) (m2b1 l9) (truncf .bf16 (shapeCast S256x256 (View.ld xA (Rect.unit (s := S32x256x256) ![1, 0, 0] S1x256x256.size inb_S32x256x256_S1x256x256_1_0_0)) shapeCasts_S1x256x256_S256x256) bitsLt_bf16_f32) (truncf .bf16 (shapeCast S256x256 (View.ld xA (Rect.unit (s := S32x256x256) ![25, 0, 0] S1x256x256.size inb_S32x256x256_S1x256x256_25_0_0)) shapeCasts_S1x256x256_S256x256) bitsLt_bf16_f32) (truncf .bf16 (shapeCast S256x256 (View.ld xA (Rect.unit (s := S32x256x256) ![26, 0, 0] S1x256x256.size inb_S32x256x256_S1x256x256_26_0_0)) shapeCasts_S1x256x256_S256x256) bitsLt_bf16_f32) (truncf .bf16 (shapeCast S256x256 (View.ld xA (Rect.unit (s := S32x256x256) ![27, 0, 0] S1x256x256.size inb_S32x256x256_S1x256x256_27_0_0)) shapeCasts_S1x256x256_S256x256) bitsLt_bf16_f32) (truncf .bf16 (shapeCast S256x256 (View.ld xA (Rect.unit (s := S32x256x256) ![28, 0, 0] S1x256x256.size inb_S32x256x256_S1x256x256_28_0_0)) shapeCasts_S1x256x256_S256x256) bitsLt_bf16_f32) (truncf .bf16 (shapeCast S256x256 (View.ld xA (Rect.unit (s := S32x256x256) ![29, 0, 0] S1x256x256.size inb_S32x256x256_S1x256x256_29_0_0)) shapeCasts_S1x256x256_S256x256) bitsLt_bf16_f32) (truncf .bf16 (shapeCast S256x256 (View.ld xA (Rect.unit (s := S32x256x256) ![30, 0, 0] S1x256x256.size inb_S32x256x256_S1x256x256_30_0_0)) shapeCasts_S1x256x256_S256x256) bitsLt_bf16_f32) (truncf .bf16 (shapeCast S256x256 (View.ld xA (Rect.unit (s := S32x256x256) ![31, 0, 0] S1x256x256.size inb_S32x256x256_S1x256x256_31_0_0)) shapeCasts_S1x256x256_S256x256) bitsLt_bf16_f32) (full1 l0 xA l3 l4 l5 l9) (hl1 l0 xA l3 l4 l5 l9) (lhs1 l0 xA l3 l4 l5 l9) (matmul dot_S32x256_S256x256_S32x256_1_1_0_0_n_n none (extractStridedSlice S32x256 ![0, 0] (lhs1 l0 xA l3 l4 l5 l9) slices_S32x8192_o0_0_S32x256) (truncf .bf16 (shapeCast S256x256 (View.ld xA (Rect.unit (s := S32x256x256) ![0, 0, 0] S1x256x256.size inb_S32x256x256_S1x256x256_0_0_0)) shapeCasts_S1x256x256_S256x256) bitsLt_bf16_f32) (constant S32x256 .f32 0x00000000#32)) (matmul dot_S32x256_S256x256_S32x256_1_1_0_0_n_n none (extractStridedSlice S32x256 ![0, 256] (lhs1 l0 xA l3 l4 l5 l9) slices_S32x8192_o0_256_S32x256) (truncf .bf16 (shapeCast S256x256 (View.ld xA (Rect.unit (s := S32x256x256) ![1, 0, 0] S1x256x256.size inb_S32x256x256_S1x256x256_1_0_0)) shapeCasts_S1x256x256_S256x256) bitsLt_bf16_f32) (constant S32x256 .f32 0x00000000#32)) (matmul dot_S32x256_S256x256_S32x256_1_1_0_0_n_n none (extractStridedSlice S32x256 ![0, 512] (lhs1 l0 xA l3 l4 l5 l9) slices_S32x8192_o0_512_S32x256) (truncf .bf16 (shapeCast S256x256 (View.ld xA (Rect.unit (s := S32x256x256) ![2, 0, 0] S1x256x256.size inb_S32x256x256_S1x256x256_2_0_0)) shapeCasts_S1x256x256_S256x256) bitsLt_bf16_f32) (constant S32x256 .f32 0x00000000#32)) (matmul dot_S32x256_S256x256_S32x256_1_1_0_0_n_n none (extractStridedSlice S32x256 ![0, 768] (lhs1 l0 xA l3 l4 l5 l9) slices_S32x8192_o0_768_S32x256) (truncf .bf16 (shapeCast S256x256 (View.ld xA (Rect.unit (s := S32x256x256) ![3, 0, 0] S1x256x256.size inb_S32x256x256_S1x256x256_3_0_0)) shapeCasts_S1x256x256_S256x256) bitsLt_bf16_f32) (constant S32x256 .f32 0x00000000#32)) (matmul dot_S32x256_S256x256_S32x256_1_1_0_0_n_n none (extractStridedSlice S32x256 ![0, 1024] (lhs1 l0 xA l3 l4 l5 l9) slices_S32x8192_o0_1024_S32x256) (truncf .bf16 (shapeCast S256x256 (View.ld xA (Rect.unit (s := S32x256x256) ![4, 0, 0] S1x256x256.size inb_S32x256x256_S1x256x256_4_0_0)) shapeCasts_S1x256x256_S256x256) bitsLt_bf16_f32) (constant S32x256 .f32 0x00000000#32)) (matmul dot_S32x256_S256x256_S32x256_1_1_0_0_n_n none (extractStridedSlice S32x256 ![0, 1280] (lhs1 l0 xA l3 l4 l5 l9) slices_S32x8192_o0_1280_S32x256) (truncf .bf16 (shapeCast S256x256 (View.ld xA (Rect.unit (s := S32x256x256) ![5, 0, 0] S1x256x256.size inb_S32x256x256_S1x256x256_5_0_0)) shapeCasts_S1x256x256_S256x256) bitsLt_bf16_f32) (constant S32x256 .f32 0x00000000#32)) (matmul dot_S32x256_S256x256_S32x256_1_1_0_0_n_n none (extractStridedSlice S32x256 ![0, 1536] (lhs1 l0 xA l3 l4 l5 l9) slices_S32x8192_o0_1536_S32x256) (truncf .bf16 (shapeCast S256x256 (View.ld xA (Rect.unit (s := S32x256x256) ![6, 0, 0] S1x256x256.size inb_S32x256x256_S1x256x256_6_0_0)) shapeCasts_S1x256x256_S256x256) bitsLt_bf16_f32) (constant S32x256 .f32 0x00000000#32)) (matmul dot_S32x256_S256x256_S32x256_1_1_0_0_n_n none (extractStridedSlice S32x256 ![0, 1792] (lhs1 l0 xA l3 l4 l5 l9) slices_S32x8192_o0_1792_S32x256) (truncf .bf16 (shapeCast S256x256 (View.ld xA (Rect.unit (s := S32x256x256) ![7, 0, 0] S1x256x256.size inb_S32x256x256_S1x256x256_7_0_0)) shapeCasts_S1x256x256_S256x256) bitsLt_bf16_f32) (constant S32x256 .f32 0x00000000#32)) (matmul dot_S32x256_S256x256_S32x256_1_1_0_0_n_n none (extractStridedSlice S32x256 ![0, 2048] (lhs1 l0 xA l3 l4 l5 l9) slices_S32x8192_o0_2048_S32x256) (truncf .bf16 (shapeCast S256x256 (View.ld xA (Rect.unit (s := S32x256x256) ![8, 0, 0] S1x256x256.size inb_S32x256x256_S1x256x256_8_0_0)) shapeCasts_S1x256x256_S256x256) bitsLt_bf16_f32) (constant S32x256 .f32 0x00000000#32)) (matmul dot_S32x256_S256x256_S32x256_1_1_0_0_n_n none (extractStridedSlice S32x256 ![0, 2304] (lhs1 l0 xA l3 l4 l5 l9) slices_S32x8192_o0_2304_S32x256) (truncf .bf16 (shapeCast S256x256 (View.ld xA (Rect.unit (s := S32x256x256) ![9, 0, 0] S1x256x256.size inb_S32x256x256_S1x256x256_9_0_0)) shapeCasts_S1x256x256_S256x256) bitsLt_bf16_f32) (constant S32x256 .f32 0x00000000#32)) (matmul dot_S32x256_S256x256_S32x256_1_1_0_0_n_n none (extractStridedSlice S32x256 ![0, 2560] (lhs1 l0 xA l3 l4 l5 l9) slices_S32x8192_o0_2560_S32x256) (truncf .bf16 (shapeCast S256x256 (View.ld xA (Rect.unit (s := S32x256x256) ![10, 0, 0] S1x256x256.size inb_S32x256x256_S1x256x256_10_0_0)) shapeCasts_S1x256x256_S256x256) bitsLt_bf16_f32) (constant S32x256 .f32 0x00000000#32)) (matmul dot_S32x256_S256x256_S32x256_1_1_0_0_n_n none (extractStridedSlice S32x256 ![0, 2816] (lhs1 l0 xA l3 l4 l5 l9) slices_S32x8192_o0_2816_S32x256) (truncf .bf16 (shapeCast S256x256 (View.ld xA (Rect.unit (s := S32x256x256) ![11, 0, 0] S1x256x256.size inb_S32x256x256_S1x256x256_11_0_0)) shapeCasts_S1x256x256_S256x256) bitsLt_bf16_f32) (constant S32x256 .f32 0x00000000#32)) (matmul dot_S32x256_S256x256_S32x256_1_1_0_0_n_n none (extractStridedSlice S32x256 ![0, 3072] (lhs1 l0 xA l3 l4 l5 l9) slices_S32x8192_o0_3072_S32x256) (truncf .bf16 (shapeCast S256x256 (View.ld xA (Rect.unit (s := S32x256x256) ![12, 0, 0] S1x256x256.size inb_S32x256x256_S1x256x256_12_0_0)) shapeCasts_S1x256x256_S256x256) bitsLt_bf16_f32) (constant S32x256 .f32 0x00000000#32)) (matmul dot_S32x256_S256x256_S32x256_1_1_0_0_n_n none (extractStridedSlice S32x256 ![0, 3328] (lhs1 l0 xA l3 l4 l5 l9) slices_S32x8192_o0_3328_S32x256) (truncf .bf16 (shapeCast S256x256 (View.ld xA (Rect.unit (s := S32x256x256) ![13, 0, 0] S1x256x256.size inb_S32x256x256_S1x256x256_13_0_0)) shapeCasts_S1x256x256_S256x256) bitsLt_bf16_f32) (constant S32x256 .f32 0x00000000#32)) (matmul dot_S32x256_S256x256_S32x256_1_1_0_0_n_n none (extractStridedSlice S32x256 ![0, 3584] (lhs1 l0 xA l3 l4 l5 l9) slices_S32x8192_o0_3584_S32x256) (truncf .bf16 (shapeCast S256x256 (View.ld xA (Rect.unit (s := S32x256x256) ![14, 0, 0] S1x256x256.size inb_S32x256x256_S1x256x256_14_0_0)) shapeCasts_S1x256x256_S256x256) bitsLt_bf16_f32) (constant S32x256 .f32 0x00000000#32)) (matmul dot_S32x256_S256x256_S32x256_1_1_0_0_n_n none (extractStridedSlice S32x256 ![0, 3840] (lhs1 l0 xA l3 l4 l5 l9) slices_S32x8192_o0_3840_S32x256) (truncf .bf16 (shapeCast S256x256 (View.ld xA (Rect.unit (s := S32x256x256) ![15, 0, 0] S1x256x256.size inb_S32x256x256_S1x256x256_15_0_0)) shapeCasts_S1x256x256_S256x256) bitsLt_bf16_f32) (constant S32x256 .f32 0x00000000#32)) (matmul dot_S32x256_S256x256_S32x256_1_1_0_0_n_n none (extractStridedSlice S32x256 ![0, 4096] (lhs1 l0 xA l3 l4 l5 l9) slices_S32x8192_o0_4096_S32x256) (truncf .bf16 (shapeCast S256x256 (View.ld xA (Rect.unit (s := S32x256x256) ![16, 0, 0] S1x256x256.size inb_S32x256x256_S1x256x256_16_0_0)) shapeCasts_S1x256x256_S256x256) bitsLt_bf16_f32) (constant S32x256 .f32 0x00000000#32)) (matmul dot_S32x256_S256x256_S32x256_1_1_0_0_n_n none (extractStridedSlice S32x256 ![0, 4352] (lhs1 l0 xA l3 l4 l5 l9) slices_S32x8192_o0_4352_S32x256) (truncf .bf16 (shapeCast S256x256 (View.ld xA (Rect.unit (s := S32x256x256) ![17, 0, 0] S1x256x256.size inb_S32x256x256_S1x256x256_17_0_0)) shapeCasts_S1x256x256_S256x256) bitsLt_bf16_f32) (constant S32x256 .f32 0x00000000#32)) (matmul dot_S32x256_S256x256_S32x256_1_1_0_0_n_n none (extractStridedSlice S32x256 ![0, 4608] (lhs1 l0 xA l3 l4 l5 l9) slices_S32x8192_o0_4608_S32x256) (truncf .bf16 (shapeCast S256x256 (View.ld xA (Rect.unit (s := S32x256x256) ![18, 0, 0] S1x256x256.size inb_S32x256x256_S1x256x256_18_0_0)) shapeCasts_S1x256x256_S256x256) bitsLt_bf16_f32) (constant S32x256 .f32 0x00000000#32)) (matmul dot_S32x256_S256x256_S32x256_1_1_0_0_n_n none (extractStridedSlice S32x256 ![0, 4864] (lhs1 l0 xA l3 l4 l5 l9) slices_S32x8192_o0_4864_S32x256) (truncf .bf16 (shapeCast S256x256 (View.ld xA (Rect.unit (s := S32x256x256) ![19, 0, 0] S1x256x256.size inb_S32x256x256_S1x256x256_19_0_0)) shapeCasts_S1x256x256_S256x256) bitsLt_bf16_f32) (constant S32x256 .f32 0x00000000#32)) (matmul dot_S32x256_S256x256_S32x256_1_1_0_0_n_n none (extractStridedSlice S32x256 ![0, 5120] (lhs1 l0 xA l3 l4 l5 l9) slices_S32x8192_o0_5120_S32x256) (truncf .bf16 (shapeCast S256x256 (View.ld xA (Rect.unit (s := S32x256x256) ![20, 0, 0] S1x256x256.size inb_S32x256x256_S1x256x256_20_0_0)) shapeCasts_S1x256x256_S256x256) bitsLt_bf16_f32) (constant S32x256 .f32 0x00000000#32)) (matmul dot_S32x256_S256x256_S32x256_1_1_0_0_n_n none (extractStridedSlice S32x256 ![0, 5376] (lhs1 l0 xA l3 l4 l5 l9) slices_S32x8192_o0_5376_S32x256) (truncf .bf16 (shapeCast S256x256 (View.ld xA (Rect.unit (s := S32x256x256) ![21, 0, 0] S1x256x256.size inb_S32x256x256_S1x256x256_21_0_0)) shapeCasts_S1x256x256_S256x256) bitsLt_bf16_f32) (constant S32x256 .f32 0x00000000#32)) (matmul dot_S32x256_S256x256_S32x256_1_1_0_0_n_n none (extractStridedSlice S32x256 ![0, 5632] (lhs1 l0 xA l3 l4 l5 l9) slices_S32x8192_o0_5632_S32x256) (truncf .bf16 (shapeCast S256x256 (View.ld xA (Rect.unit (s := S32x256x256) ![22, 0, 0] S1x256x256.size inb_S32x256x256_S1x256x256_22_0_0)) shapeCasts_S1x256x256_S256x256) bitsLt_bf16_f32) (constant S32x256 .f32 0x00000000#32)) (matmul dot_S32x256_S256x256_S32x256_1_1_0_0_n_n none (extractStridedSlice S32x256 ![0, 5888] (lhs1 l0 xA l3 l4 l5 l9) slices_S32x8192_o0_5888_S32x256) (truncf .bf16 (shapeCast S256x256 (View.ld xA (Rect.unit (s := S32x256x256) ![23, 0, 0] S1x256x256.size inb_S32x256x256_S1x256x256_23_0_0)) shapeCasts_S1x256x256_S256x256) bitsLt_bf16_f32) (constant S32x256 .f32 0x00000000#32)) (matmul dot_S32x256_S256x256_S32x256_1_1_0_0_n_n none (extractStridedSlice S32x256 ![0, 6144] (lhs1 l0 xA l3 l4 l5 l9) slices_S32x8192_o0_6144_S32x256) (truncf .bf16 (shapeCast S256x256 (View.ld xA (Rect.unit (s := S32x256x256) ![24, 0, 0] S1x256x256.size inb_S32x256x256_S1x256x256_24_0_0)) shapeCasts_S1x256x256_S256x256) bitsLt_bf16_f32) (constant S32x256 .f32 0x00000000#32)) l6 = (matmul dot_S32x256_S256x256_S32x256_1_1_0_0_n_n none (extractStridedSlice S32x256 ![0, 256] (h1 l0 xA l3 l4 l5 l6 l9) slices_S32x8192_o0_256_S32x256) (truncf .bf16 (shapeCast S256x256 (View.ld xA (Rect.unit (s := S32x256x256) ![1, 0, 0] S1x256x256.size inb_S32x256x256_S1x256x256_1_0_0)) shapeCasts_S1x256x256_S256x256) bitsLt_bf16_f32) (constant S32x256 .f32 0x00000000#32)) := rfl
theorem e134 : k0_pay134 (m1b1 l9) (m2w1 l9) (m2b1 l9) (truncf .bf16 (shapeCast S256x256 (View.ld xA (Rect.unit (s := S32x256x256) ![2, 0, 0] S1x256x256.size inb_S32x256x256_S1x256x256_2_0_0)) shapeCasts_S1x256x256_S256x256) bitsLt_bf16_f32) (truncf .bf16 (shapeCast S256x256 (View.ld xA (Rect.unit (s := S32x256x256) ![25, 0, 0] S1x256x256.size inb_S32x256x256_S1x256x256_25_0_0)) shapeCasts_S1x256x256_S256x256) bitsLt_bf16_f32) (truncf .bf16 (shapeCast S256x256 (View.ld xA (Rect.unit (s := S32x256x256) ![26, 0, 0] S1x256x256.size inb_S32x256x256_S1x256x256_26_0_0)) shapeCasts_S1x256x256_S256x256) bitsLt_bf16_f32) (truncf .bf16 (shapeCast S256x256 (View.ld xA (Rect.unit (s := S32x256x256) ![27, 0, 0] S1x256x256.size inb_S32x256x256_S1x256x256_27_0_0)) shapeCasts_S1x256x256_S256x256) bitsLt_bf16_f32) (truncf .bf16 (shapeCast S256x256 (View.ld xA (Rect.unit (s := S32x256x256) ![28, 0, 0] S1x256x256.size inb_S32x256x256_S1x256x256_28_0_0)) shapeCasts_S1x256x256_S256x256) bitsLt_bf16_f32) (truncf .bf16 (shapeCast S256x256 (View.ld xA (Rect.unit (s := S32x256x256) ![29, 0, 0] S1x256x256.size inb_S32x256x256_S1x256x256_29_0_0)) shapeCasts_S1x256x256_S256x256) bitsLt_bf16_f32) (truncf .bf16 (shapeCast S256x256 (View.ld xA (Rect.unit (s := S32x256x256) ![30, 0, 0] S1x256x256.size inb_S32x256x256_S1x256x256_30_0_0)) shapeCasts_S1x256x256_S256x256) bitsLt_bf16_f32) (truncf .bf16 (shapeCast S256x256 (View.ld xA (Rect.unit (s := S32x256x256) ![31, 0, 0] S1x256x256.size inb_S32x256x256_S1x256x256_31_0_0)) shapeCasts_S1x256x256_S256x256) bitsLt_bf16_f32) (full1 l0 xA l3 l4 l5 l9) (hl1 l0 xA l3 l4 l5 l9) (lhs1 l0 xA l3 l4 l5 l9) (matmul dot_S32x256_S256x256_S32x256_1_1_0_0_n_n none (extractStridedSlice S32x256 ![0, 0] (lhs1 l0 xA l3 l4 l5 l9) slices_S32x8192_o0_0_S32x256) (truncf .bf16 (shapeCast S256x256 (View.ld xA (Rect.unit (s := S32x256x256) ![0, 0, 0] S1x256x256.size inb_S32x256x256_S1x256x256_0_0_0)) shapeCasts_S1x256x256_S256x256) bitsLt_bf16_f32) (constant S32x256 .f32 0x00000000#32)) (matmul dot_S32x256_S256x256_S32x256_1_1_0_0_n_n none (extractStridedSlice S32x256 ![0, 256] (lhs1 l0 xA l3 l4 l5 l9) slices_S32x8192_o0_256_S32x256) (truncf .bf16 (shapeCast S256x256 (View.ld xA (Rect.unit (s := S32x256x256) ![1, 0, 0] S1x256x256.size inb_S32x256x256_S1x256x256_1_0_0)) shapeCasts_S1x256x256_S256x256) bitsLt_bf16_f32) (constant S32x256 .f32 0x00000000#32)) (matmul dot_S32x256_S256x256_S32x256_1_1_0_0_n_n none (extractStridedSlice S32x256 ![0, 512] (lhs1 l0 xA l3 l4 l5 l9) slices_S32x8192_o0_512_S32x256) (truncf .bf16 (shapeCast S256x256 (View.ld xA (Rect.unit (s := S32x256x256) ![2, 0, 0] S1x256x256.size inb_S32x256x256_S1x256x256_2_0_0)) shapeCasts_S1x256x256_S256x256) bitsLt_bf16_f32) (constant S32x256 .f32 0x00000000#32)) (matmul dot_S32x256_S256x256_S32x256_1_1_0_0_n_n none (extractStridedSlice S32x256 ![0, 768] (lhs1 l0 xA l3 l4 l5 l9) slices_S32x8192_o0_768_S32x256) (truncf .bf16 (shapeCast S256x256 (View.ld xA (Rect.unit (s := S32x256x256) ![3, 0, 0] S1x256x256.size inb_S32x256x256_S1x256x256_3_0_0)) shapeCasts_S1x256x256_S256x256) bitsLt_bf16_f32) (constant S32x256 .f32 0x00000000#32)) (matmul dot_S32x256_S256x256_S32x256_1_1_0_0_n_n none (extractStridedSlice S32x256 ![0, 1024] (lhs1 l0 xA l3 l4 l5 l9) slices_S32x8192_o0_1024_S32x256) (truncf .bf16 (shapeCast S256x256 (View.ld xA (Rect.unit (s := S32x256x256) ![4, 0, 0] S1x256x256.size inb_S32x256x256_S1x256x256_4_0_0)) shapeCasts_S1x256x256_S256x256) bitsLt_bf16_f32) (constant S32x256 .f32 0x00000000#32)) (matmul dot_S32x256_S256x256_S32x256_1_1_0_0_n_n none (extractStridedSlice S32x256 ![0, 1280] (lhs1 l0 xA l3 l4 l5 l9) slices_S32x8192_o0_1280_S32x256) (truncf .bf16 (shapeCast S256x256 (View.ld xA (Rect.unit (s := S32x256x256) ![5, 0, 0] S1x256x256.size inb_S32x256x256_S1x256x256_5_0_0)) shapeCasts_S1x256x256_S256x256) bitsLt_bf16_f32) (constant S32x256 .f32 0x00000000#32)) (matmul dot_S32x256_S256x256_S32x256_1_1_0_0_n_n none (extractStridedSlice S32x256 ![0, 1536] (lhs1 l0 xA l3 l4 l5 l9) slices_S32x8192_o0_1536_S32x256) (truncf .bf16 (shapeCast S256x256 (View.ld xA (Rect.unit (s := S32x256x256) ![6, 0, 0] S1x256x256.size inb_S32x256x256_S1x256x256_6_0_0)) shapeCasts_S1x256x256_S256x256) bitsLt_bf16_f32) (constant S32x256 .f32 0x00000000#32)) (matmul dot_S32x256_S256x256_S32x256_1_1_0_0_n_n none (extractStridedSlice S32x256 ![0, 1792] (lhs1 l0 xA l3 l4 l5 l9) slices_S32x8192_o0_1792_S32x256) (truncf .bf16 (shapeCast S256x256 (View.ld xA (Rect.unit (s := S32x256x256) ![7, 0, 0] S1x256x256.size inb_S32x256x256_S1x256x256_7_0_0)) shapeCasts_S1x256x256_S256x256) bitsLt_bf16_f32) (constant S32x256 .f32 0x00000000#32)) (matmul dot_S32x256_S256x256_S32x256_1_1_0_0_n_n none (extractStridedSlice S32x256 ![0, 2048] (lhs1 l0 xA l3 l4 l5 l9) slices_S32x8192_o0_2048_S32x256) (truncf .bf16 (shapeCast S256x256 (View.ld xA (Rect.unit (s := S32x256x256) ![8, 0, 0] S1x256x256.size inb_S32x256x256_S1x256x256_8_0_0)) shapeCasts_S1x256x256_S256x256) bitsLt_bf16_f32) (constant S32x256 .f32 0x00000000#32)) (matmul dot_S32x256_S256x256_S32x256_1_1_0_0_n_n none (extractStridedSlice S32x256 ![0, 2304] (lhs1 l0 xA l3 l4 l5 l9) slices_S32x8192_o0_2304_S32x256) (truncf .bf16 (shapeCast S256x256 (View.ld xA (Rect.unit (s := S32x256x256) ![9, 0, 0] S1x256x256.size inb_S32x256x256_S1x256x256_9_0_0)) shapeCasts_S1x256x256_S256x256) bitsLt_bf16_f32) (constant S32x256 .f32 0x00000000#32)) (matmul dot_S32x256_S256x256_S32x256_1_1_0_0_n_n none (extractStridedSlice S32x256 ![0, 2560] (lhs1 l0 xA l3 l4 l5 l9) slices_S32x8192_o0_2560_S32x256) (truncf .bf16 (shapeCast S256x256 (View.ld xA (Rect.unit (s := S32x256x256) ![10, 0, 0] S1x256x256.size inb_S32x256x256_S1x256x256_10_0_0)) shapeCasts_S1x256x256_S256x256) bitsLt_bf16_f32) (constant S32x256 .f32 0x00000000#32)) (matmul dot_S32x256_S256x256_S32x256_1_1_0_0_n_n none (extractStridedSlice S32x256 ![0, 2816] (lhs1 l0 xA l3 l4 l5 l9) slices_S32x8192_o0_2816_S32x256) (truncf .bf16 (shapeCast S256x256 (View.ld xA (Rect.unit (s := S32x256x256) ![11, 0, 0] S1x256x256.size inb_S32x256x256_S1x256x256_11_0_0)) shapeCasts_S1x256x256_S256x256) bitsLt_bf16_f32) (constant S32x256 .f32 0x00000000#32)) (matmul dot_S32x256_S256x256_S32x256_1_1_0_0_n_n none (extractStridedSlice S32x256 ![0, 3072] (lhs1 l0 xA l3 l4 l5 l9) slices_S32x8192_o0_3072_S32x256) (truncf .bf16 (shapeCast S256x256 (View.ld xA (Rect.unit (s := S32x256x256) ![12, 0, 0] S1x256x256.size inb_S32x256x256_S1x256x256_12_0_0)) shapeCasts_S1x256x256_S256x256) bitsLt_bf16_f32) (constant S32x256 .f32 0x00000000#32)) (matmul dot_S32x256_S256x256_S32x256_1_1_0_0_n_n none (extractStridedSlice S32x256 ![0, 3328] (lhs1 l0 xA l3 l4 l5 l9) slices_S32x8192_o0_3328_S32x256) (truncf .bf16 (shapeCast S256x256 (View.ld xA (Rect.unit (s := S32x256x256) ![13, 0, 0] S1x256x256.size inb_S32x256x256_S1x256x256_13_0_0)) shapeCasts_S1x256x256_S256x256) bitsLt_bf16_f32) (constant S32x256 .f32 0x00000000#32)) (matmul dot_S32x256_S256x256_S32x256_1_1_0_0_n_n none (extractStridedSlice S32x256 ![0, 3584] (lhs1 l0 xA l3 l4 l5 l9) slices_S32x8192_o0_3584_S32x256) (truncf .bf16 (shapeCast S256x256 (View.ld xA (Rect.unit (s := S32x256x256) ![14, 0, 0] S1x256x256.size inb_S32x256x256_S1x256x256_14_0_0)) shapeCasts_S1x256x256_S256x256) bitsLt_bf16_f32) (constant S32x256 .f32 0x00000000#32)) (matmul dot_S32x256_S256x256_S32x256_1_1_0_0_n_n none (extractStridedSlice S32x256 ![0, 3840] (lhs1 l0 xA l3 l4 l5 l9) slices_S32x8192_o0_3840_S32x256) (truncf .bf16 (shapeCast S256x256 (View.ld xA (Rect.unit (s := S32x256x256) ![15, 0, 0] S1x256x256.size inb_S32x256x256_S1x256x256_15_0_0)) shapeCasts_S1x256x256_S256x256) bitsLt_bf16_f32) (constant S32x256 .f32 0x00000000#32)) (matmul dot_S32x256_S256x256_S32x256_1_1_0_0_n_n none (extractStridedSlice S32x256 ![0, 4096] (lhs1 l0 xA l3 l4 l5 l9) slices_S32x8192_o0_4096_S32x256) (truncf .bf16 (shapeCast S256x256 (View.ld xA (Rect.unit (s := S32x256x256) ![16, 0, 0] S1x256x256.size inb_S32x256x256_S1x256x256_16_0_0)) shapeCasts_S1x256x256_S256x256) bitsLt_bf16_f32) (constant S32x256 .f32 0x00000000#32)) (matmul dot_S32x256_S256x256_S32x256_1_1_0_0_n_n none (extractStridedSlice S32x256 ![0, 4352] (lhs1 l0 xA l3 l4 l5 l9) slices_S32x8192_o0_4352_S32x256) (truncf .bf16 (shapeCast S256x256 (View.ld xA (Rect.unit (s := S32x256x256) ![17, 0, 0] S1x256x256.size inb_S32x256x256_S1x256x256_17_0_0)) shapeCasts_S1x256x256_S256x256) bitsLt_bf16_f32) (constant S32x256 .f32 0x00000000#32)) (matmul dot_S32x256_S256x256_S32x256_1_1_0_0_n_n none (extractStridedSlice S32x256 ![0, 4608] (lhs1 l0 xA l3 l4 l5 l9) slices_S32x8192_o0_4608_S32x256) (truncf .bf16 (shapeCast S256x256 (View.ld xA (Rect.unit (s := S32x256x256) ![18, 0, 0] S1x256x256.size inb_S32x256x256_S1x256x256_18_0_0)) shapeCasts_S1x256x256_S256x256) bitsLt_bf16_f32) (constant S32x256 .f32 0x00000000#32)) (matmul dot_S32x256_S256x256_S32x256_1_1_0_0_n_n none (extractStridedSlice S32x256 ![0, 4864] (lhs1 l0 xA l3 l4 l5 l9) slices_S32x8192_o0_4864_S32x256) (truncf .bf16 (shapeCast S256x256 (View.ld xA (Rect.unit (s := S32x256x256) ![19, 0, 0] S1x256x256.size inb_S32x256x256_S1x256x256_19_0_0)) shapeCasts_S1x256x256_S256x256) bitsLt_bf16_f32) (constant S32x256 .f32 0x00000000#32)) (matmul dot_S32x256_S256x256_S32x256_1_1_0_0_n_n none (extractStridedSlice S32x256 ![0, 5120] (lhs1 l0 xA l3 l4 l5 l9) slices_S32x8192_o0_5120_S32x256) (truncf .bf16 (shapeCast S256x256 (View.ld xA (Rect.unit (s := S32x256x256) ![20, 0, 0] S1x256x256.size inb_S32x256x256_S1x256x256_20_0_0)) shapeCasts_S1x256x256_S256x256) bitsLt_bf16_f32) (constant S32x256 .f32 0x00000000#32)) (matmul dot_S32x256_S256x256_S32x256_1_1_0_0_n_n none (extractStridedSlice S32x256 ![0, 5376] (lhs1 l0 xA l3 l4 l5 l9) slices_S32x8192_o0_5376_S32x256) (truncf .bf16 (shapeCast S256x256 (View.ld xA (Rect.unit (s := S32x256x256) ![21, 0, 0] S1x256x256.size inb_S32x256x256_S1x256x256_21_0_0)) shapeCasts_S1x256x256_S256x256) bitsLt_bf16_f32) (constant S32x256 .f32 0x00000000#32)) (matmul dot_S32x256_S256x256_S32x256_1_1_0_0_n_n none (extractStridedSlice S32x256 ![0, 5632] (lhs1 l0 xA l3 l4 l5 l9) slices_S32x8192_o0_5632_S32x256) (truncf .bf16 (shapeCast S256x256 (View.ld xA (Rect.unit (s := S32x256x256) ![22, 0, 0] S1x256x256.size inb_S32x256x256_S1x256x256_22_0_0)) shapeCasts_S1x256x256_S256x256) bitsLt_bf16_f32) (constant S32x256 .f32 0x00000000#32)) (matmul dot_S32x256_S256x256_S32x256_1_1_0_0_n_n none (extractStridedSlice S32x256 ![0, 5888] (lhs1 l0 xA l3 l4 l5 l9) slices_S32x8192_o0_5888_S32x256) (truncf .bf16 (shapeCast S256x256 (View.ld xA (Rect.unit (s := S32x256x256) ![23, 0, 0] S1x256x256.size inb_S32x256x256_S1x256x256_23_0_0)) shapeCasts_S1x256x256_S256x256) bitsLt_bf16_f32) (constant S32x256 .f32 0x00000000#32)) (matmul dot_S32x256_S256x256_S32x256_1_1_0_0_n_n none (extractStridedSlice S32x256 ![0, 6144] (lhs1 l0 xA l3 l4 l5 l9) slices_S32x8192_o0_6144_S32x256) (truncf .bf16 (shapeCast S256x256 (View.ld xA (Rect.unit (s := S32x256x256) ![24, 0, 0] S1x256x256.size inb_S32x256x256_S1x256x256_24_0_0)) shapeCasts_S1x256x256_S256x256) bitsLt_bf16_f32) (constant S32x256 .f32 0x00000000#32)) l6 = (matmul dot_S32x256_S256x256_S32x256_1_1_0_0_n_n none (extractStridedSlice S32x256 ![0, 512] (h1 l0 xA l3 l4 l5 l6 l9) slices_S32x8192_o0_512_S32x256) (truncf .bf16 (shapeCast S256x256 (View.ld xA (Rect.unit (s := S32x256x256) ![2, 0, 0] S1x256x256.size inb_S32x256x256_S1x256x256_2_0_0)) shapeCasts_S1x256x256_S256x256) bitsLt_bf16_f32) (constant S32x256 .f32 0x00000000#32)) := rfl
theorem e135 : k0_pay135 (m1b1 l9) (m2w1 l9) (m2b1 l9) (truncf .bf16 (shapeCast S256x256 (View.ld xA (Rect.unit (s := S32x256x256) ![25, 0, 0] S1x256x256.size inb_S32x256x256_S1x256x256_25_0_0)) shapeCasts_S1x256x256_S256x256) bitsLt_bf16_f32) (truncf .bf16 (shapeCast S256x256 (View.ld xA (Rect.unit (s := S32x256x256) ![26, 0, 0] S1x256x256.size inb_S32x256x256_S1x256x256_26_0_0)) shapeCasts_S1x256x256_S256x256) bitsLt_bf16_f32) (truncf .bf16 (shapeCast S256x256 (View.ld xA (Rect.unit (s := S32x256x256) ![27, 0, 0] S1x256x256.size inb_S32x256x256_S1x256x256_27_0_0)) shapeCasts_S1x256x256_S256x256) bitsLt_bf16_f32) (truncf .bf16 (shapeCast S256x256 (View.ld xA (Rect.unit (s := S32x256x256) ![28, 0, 0] S1x256x256.size inb_S32x256x256_S1x256x256_28_0_0)) shapeCasts_S1x256x256_S256x256) bitsLt_bf16_f32) (truncf .bf16 (shapeCast S256x256 (View.ld xA (Rect.unit (s := S32x256x256) ![29, 0, 0] S1x256x256.size inb_S32x256x256_S1x256x256_29_0_0)) shapeCasts_S1x256x256_S256x256) bitsLt_bf16_f32) (truncf .bf16 (shapeCast S256x256 (View.ld xA (Rect.unit (s := S32x256x256) ![30, 0, 0] S1x256x256.size inb_S32x256x256_S1x256x256_30_0_0)) shapeCasts_S1x256x256_S256x256) bitsLt_bf16_f32) (truncf .bf16 (shapeCast S256x256 (View.ld xA (Rect.unit (s := S32x256x256) ![31, 0, 0] S1x256x256.size inb_S32x256x256_S1x256x256_31_0_0)) shapeCasts_S1x256x256_S256x256) bitsLt_bf16_f32) (full1 l0 xA l3 l4 l5 l9) (hl1 l0 xA l3 l4 l5 l9) (lhs1 l0 xA l3 l4 l5 l9) (matmul dot_S32x256_S256x256_S32x256_1_1_0_0_n_n none (extractStridedSlice S32x256 ![0, 0] (lhs1 l0 xA l3 l4 l5 l9) slices_S32x8192_o0_0_S32x256) (truncf .bf16 (shapeCast S256x256 (View.ld xA (Rect.unit (s := S32x256x256) ![0, 0, 0] S1x256x256.size inb_S32x256x256_S1x256x256_0_0_0)) shapeCasts_S1x256x256_S256x256) bitsLt_bf16_f32) (constant S32x256 .f32 0x00000000#32)) (matmul dot_S32x256_S256x256_S32x256_1_1_0_0_n_n none (extractStridedSlice S32x256 ![0, 256] (lhs1 l0 xA l3 l4 l5 l9) slices_S32x8192_o0_256_S32x256) (truncf .bf16 (shapeCast S256x256 (View.ld xA (Rect.unit (s := S32x256x256) ![1, 0, 0] S1x256x256.size inb_S32x256x256_S1x256x256_1_0_0)) shapeCasts_S1x256x256_S256x256) bitsLt_bf16_f32) (constant S32x256 .f32 0x00000000#32)) (matmul dot_S32x256_S256x256_S32x256_1_1_0_0_n_n none (extractStridedSlice S32x256 ![0, 512] (lhs1 l0 xA l3 l4 l5 l9) slices_S32x8192_o0_512_S32x256) (truncf .bf16 (shapeCast S256x256 (View.ld xA (Rect.unit (s := S32x256x256) ![2, 0, 0] S1x256x256.size inb_S32x256x256_S1x256x256_2_0_0)) shapeCasts_S1x256x256_S256x256) bitsLt_bf16_f32) (constant S32x256 .f32 0x00000000#32)) (matmul dot_S32x256_S256x256_S32x256_1_1_0_0_n_n none (extractStridedSlice S32x256 ![0, 768] (lhs1 l0 xA l3 l4 l5 l9) slices_S32x8192_o0_768_S32x256) (truncf .bf16 (shapeCast S256x256 (View.ld xA (Rect.unit (s := S32x256x256) ![3, 0, 0] S1x256x256.size inb_S32x256x256_S1x256x256_3_0_0)) shapeCasts_S1x256x256_S256x256) bitsLt_bf16_f32) (constant S32x256 .f32 0x00000000#32)) (matmul dot_S32x256_S256x256_S32x256_1_1_0_0_n_n none (extractStridedSlice S32x256 ![0, 1024] (lhs1 l0 xA l3 l4 l5 l9) slices_S32x8192_o0_1024_S32x256) (truncf .bf16 (shapeCast S256x256 (View.ld xA (Rect.unit (s := S32x256x256) ![4, 0, 0] S1x256x256.size inb_S32x256x256_S1x256x256_4_0_0)) shapeCasts_S1x256x256_S256x256) bitsLt_bf16_f32) (constant S32x256 .f32 0x00000000#32)) (matmul dot_S32x256_S256x256_S32x256_1_1_0_0_n_n none (extractStridedSlice S32x256 ![0, 1280] (lhs1 l0 xA l3 l4 l5 l9) slices_S32x8192_o0_1280_S32x256) (truncf .bf16 (shapeCast S256x256 (View.ld xA (Rect.unit (s := S32x256x256) ![5, 0, 0] S1x256x256.size inb_S32x256x256_S1x256x256_5_0_0)) shapeCasts_S1x256x256_S256x256) bitsLt_bf16_f32) (constant S32x256 .f32 0x00000000#32)) (matmul dot_S32x256_S256x256_S32x256_1_1_0_0_n_n none (extractStridedSlice S32x256 ![0, 1536] (lhs1 l0 xA l3 l4 l5 l9) slices_S32x8192_o0_1536_S32x256) (truncf .bf16 (shapeCast S256x256 (View.ld xA (Rect.unit (s := S32x256x256) ![6, 0, 0] S1x256x256.size inb_S32x256x256_S1x256x256_6_0_0)) shapeCasts_S1x256x256_S256x256) bitsLt_bf16_f32) (constant S32x256 .f32 0x00000000#32)) (matmul dot_S32x256_S256x256_S32x256_1_1_0_0_n_n none (extractStridedSlice S32x256 ![0, 1792] (lhs1 l0 xA l3 l4 l5 l9) slices_S32x8192_o0_1792_S32x256) (truncf .bf16 (shapeCast S256x256 (View.ld xA (Rect.unit (s := S32x256x256) ![7, 0, 0] S1x256x256.size inb_S32x256x256_S1x256x256_7_0_0)) shapeCasts_S1x256x256_S256x256) bitsLt_bf16_f32) (constant S32x256 .f32 0x00000000#32)) (matmul dot_S32x256_S256x256_S32x256_1_1_0_0_n_n none (extractStridedSlice S32x256 ![0, 2048] (lhs1 l0 xA l3 l4 l5 l9) slices_S32x8192_o0_2048_S32x256) (truncf .bf16 (shapeCast S256x256 (View.ld xA (Rect.unit (s := S32x256x256) ![8, 0, 0] S1x256x256.size inb_S32x256x256_S1x256x256_8_0_0)) shapeCasts_S1x256x256_S256x256) bitsLt_bf16_f32) (constant S32x256 .f32 0x00000000#32)) (matmul dot_S32x256_S256x256_S32x256_1_1_0_0_n_n none (extractStridedSlice S32x256 ![0, 2304] (lhs1 l0 xA l3 l4 l5 l9) slices_S32x8192_o0_2304_S32x256) (truncf .bf16 (shapeCast S256x256 (View.ld xA (Rect.unit (s := S32x256x256) ![9, 0, 0] S1x256x256.size inb_S32x256x256_S1x256x256_9_0_0)) shapeCasts_S1x256x256_S256x256) bitsLt_bf16_f32) (constant S32x256 .f32 0x00000000#32)) (matmul dot_S32x256_S256x256_S32x256_1_1_0_0_n_n none (extractStridedSlice S32x256 ![0, 2560] (lhs1 l0 xA l3 l4 l5 l9) slices_S32x8192_o0_2560_S32x256) (truncf .bf16 (shapeCast S256x256 (View.ld xA (Rect.unit (s := S32x256x256) ![10, 0, 0] S1x256x256.size inb_S32x256x256_S1x256x256_10_0_0)) shapeCasts_S1x256x256_S256x256) bitsLt_bf16_f32) (constant S32x256 .f32 0x00000000#32)) (matmul dot_S32x256_S256x256_S32x256_1_1_0_0_n_n none (extractStridedSlice S32x256 ![0, 2816] (lhs1 l0 xA l3 l4 l5 l9) slices_S32x8192_o0_2816_S32x256) (truncf .bf16 (shapeCast S256x256 (View.ld xA (Rect.unit (s := S32x256x256) ![11, 0, 0] S1x256x256.size inb_S32x256x256_S1x256x256_11_0_0)) shapeCasts_S1x256x256_S256x256) bitsLt_bf16_f32) (constant S32x256 .f32 0x00000000#32)) (matmul dot_S32x256_S256x256_S32x256_1_1_0_0_n_n none (extractStridedSlice S32x256 ![0, 3072] (lhs1 l0 xA l3 l4 l5 l9) slices_S32x8192_o0_3072_S32x256) (truncf .bf16 (shapeCast S256x256 (View.ld xA (Rect.unit (s := S32x256x256) ![12, 0, 0] S1x256x256.size inb_S32x256x256_S1x256x256_12_0_0)) shapeCasts_S1x256x256_S256x256) bitsLt_bf16_f32) (constant S32x256 .f32 0x00000000#32)) (matmul dot_S32x256_S256x256_S32x256_1_1_0_0_n_n none (extractStridedSlice S32x256 ![0, 3328] (lhs1 l0 xA l3 l4 l5 l9) slices_S32x8192_o0_3328_S32x256) (truncf .bf16 (shapeCast S256x256 (View.ld xA (Rect.unit (s := S32x256x256) ![13, 0, 0] S1x256x256.size inb_S32x256x256_S1x256x256_13_0_0)) shapeCasts_S1x256x256_S256x256) bitsLt_bf16_f32) (constant S32x256 .f32 0x00000000#32)) (matmul dot_S32x256_S256x256_S32x256_1_1_0_0_n_n none (extractStridedSlice S32x256 ![0, 3584] (lhs1 l0 xA l3 l4 l5 l9) slices_S32x8192_o0_3584_S32x256) (truncf .bf16 (shapeCast S256x256 (View.ld xA (Rect.unit (s := S32x256x256) ![14, 0, 0] S1x256x256.size inb_S32x256x256_S1x256x256_14_0_0)) shapeCasts_S1x256x256_S256x256) bitsLt_bf16_f32) (constant S32x256 .f32 0x00000000#32)) (matmul dot_S32x256_S256x256_S32x256_1_1_0_0_n_n none (extractStridedSlice S32x256 ![0, 3840] (lhs1 l0 xA l3 l4 l5 l9) slices_S32x8192_o0_3840_S32x256) (truncf .bf16 (shapeCast S256x256 (View.ld xA (Rect.unit (s := S32x256x256) ![15, 0, 0] S1x256x256.size inb_S32x256x256_S1x256x256_15_0_0)) shapeCasts_S1x256x256_S256x256) bitsLt_bf16_f32) (constant S32x256 .f32 0x00000000#32)) (matmul dot_S32x256_S256x256_S32x256_1_1_0_0_n_n none (extractStridedSlice S32x256 ![0, 4096] (lhs1 l0 xA l3 l4 l5 l9) slices_S32x8192_o0_4096_S32x256) (truncf .bf16 (shapeCast S256x256 (View.ld xA (Rect.unit (s := S32x256x256) ![16, 0, 0] S1x256x256.size inb_S32x256x256_S1x256x256_16_0_0)) shapeCasts_S1x256x256_S256x256) bitsLt_bf16_f32) (constant S32x256 .f32 0x00000000#32)) (matmul dot_S32x256_S256x256_S32x256_1_1_0_0_n_n none (extractStridedSlice S32x256 ![0, 4352] (lhs1 l0 xA l3 l4 l5 l9) slices_S32x8192_o0_4352_S32x256) (truncf .bf16 (shapeCast S256x256 (View.ld xA (Rect.unit (s := S32x256x256) ![17, 0, 0] S1x256x256.size inb_S32x256x256_S1x256x256_17_0_0)) shapeCasts_S1x256x256_S256x256) bitsLt_bf16_f32) (constant S32x256 .f32 0x00000000#32)) (matmul dot_S32x256_S256x256_S32x256_1_1_0_0_n_n none (extractStridedSlice S32x256 ![0, 4608] (lhs1 l0 xA l3 l4 l5 l9) slices_S32x8192_o0_4608_S32x256) (truncf .bf16 (shapeCast S256x256 (View.ld xA (Rect.unit (s := S32x256x256) ![18, 0, 0] S1x256x256.size inb_S32x256x256_S1x256x256_18_0_0)) shapeCasts_S1x256x256_S256x256) bitsLt_bf16_f32) (constant S32x256 .f32 0x00000000#32)) (matmul dot_S32x256_S256x256_S32x256_1_1_0_0_n_n none (extractStridedSlice S32x256 ![0, 4864] (lhs1 l0 xA l3 l4 l5 l9) slices_S32x8192_o0_4864_S32x256) (truncf .bf16 (shapeCast S256x256 (View.ld xA (Rect.unit (s := S32x256x256) ![19, 0, 0] S1x256x256.size inb_S32x256x256_S1x256x256_19_0_0)) shapeCasts_S1x256x256_S256x256) bitsLt_bf16_f32) (constant S32x256 .f32 0x00000000#32)) (matmul dot_S32x256_S256x256_S32x256_1_1_0_0_n_n none (extractStridedSlice S32x256 ![0, 5120] (lhs1 l0 xA l3 l4 l5 l9) slices_S32x8192_o0_5120_S32x256) (truncf .bf16 (shapeCast S256x256 (View.ld xA (Rect.unit (s := S32x256x256) ![20, 0, 0] S1x256x256.size inb_S32x256x256_S1x256x256_20_0_0)) shapeCasts_S1x256x256_S256x256) bitsLt_bf16_f32) (constant S32x256 .f32 0x00000000#32)) (matmul dot_S32x256_S256x256_S32x256_1_1_0_0_n_n none (extractStridedSlice S32x256 ![0, 5376] (lhs1 l0 xA l3 l4 l5 l9) slices_S32x8192_o0_5376_S32x256) (truncf .bf16 (shapeCast S256x256 (View.ld xA (Rect.unit (s := S32x256x256) ![21, 0, 0] S1x256x256.size inb_S32x256x256_S1x256x256_21_0_0)) shapeCasts_S1x256x256_S256x256) bitsLt_bf16_f32) (constant S32x256 .f32 0x00000000#32)) (matmul dot_S32x256_S256x256_S32x256_1_1_0_0_n_n none (extractStridedSlice S32x256 ![0, 5632] (lhs1 l0 xA l3 l4 l5 l9) slices_S32x8192_o0_5632_S32x256) (truncf .bf16 (shapeCast S256x256 (View.ld xA (Rect.unit (s := S32x256x256) ![22, 0, 0] S1x256x256.size inb_S32x256x256_S1x256x256_22_0_0)) shapeCasts_S1x256x256_S256x256) bitsLt_bf16_f32) (constant S32x256 .f32 0x00000000#32)) (matmul dot_S32x256_S256x256_S32x256_1_1_0_0_n_n none (extractStridedSlice S32x256 ![0, 5888] (lhs1 l0 xA l3 l4 l5 l9) slices_S32x8192_o0_5888_S32x256) (truncf .bf16 (shapeCast S256x256 (View.ld xA (Rect.unit (s := S32x256x256) ![23, 0, 0] S1x256x256.size inb_S32x256x256_S1x256x256_23_0_0)) shapeCasts_S1x256x256_S256x256) bitsLt_bf16_f32) (constant S32x256 .f32 0x00000000#32)) (matmul dot_S32x256_S256x256_S32x256_1_1_0_0_n_n none (extractStridedSlice S32x256 ![0, 6144] (lhs1 l0 xA l3 l4 l5 l9) slices_S32x8192_o0_6144_S32x256) (truncf .bf16 (shapeCast S256x256 (View.ld xA (Rect.unit (s := S32x256x256) ![24, 0, 0] S1x256x256.size inb_S32x256x256_S1x256x256_24_0_0)) shapeCasts_S1x256x256_S256x256) bitsLt_bf16_f32) (constant S32x256 .f32 0x00000000#32)) l6 = (extractStridedSlice S32x256 ![0, 768] (h1 l0 xA l3 l4 l5 l6 l9) slices_S32x8192_o0_768_S32x256) := rfl
theorem e136 : k0_pay136 (truncf .bf16 (shapeCast S256x256 (View.ld xA (Rect.unit (s := S32x256x256) ![3, 0, 0] S1x256x256.size inb_S32x256x256_S1x256x256_3_0_0)) shapeCasts_S1x256x256_S256x256) bitsLt_bf16_f32) (extractStridedSlice S32x256 ![0, 768] (h1 l0 xA l3 l4 l5 l6 l9) slices_S32x8192_o0_768_S32x256) = (matmul dot_S32x256_S256x256_S32x256_1_1_0_0_n_n none (extractStridedSlice S32x256 ![0, 768] (h1 l0 xA l3 l4 l5 l6 l9) slices_S32x8192_o0_768_S32x256) (truncf .bf16 (shapeCast S256x256 (View.ld xA (Rect.unit (s := S32x256x256) ![3, 0, 0] S1x256x256.size inb_S32x256x256_S1x256x256_3_0_0)) shapeCasts_S1x256x256_S256x256) bitsLt_bf16_f32) (constant S32x256 .f32 0x00000000#32)) := rfl
theorem e137 : k0_pay137 (truncf .bf16 (shapeCast S256x256 (View.ld xA (Rect.unit (s := S32x256x256) ![4, 0, 0] S1x256x256.size inb_S32x256x256_S1x256x256_4_0_0)) shapeCasts_S1x256x256_S256x256) bitsLt_bf16_f32) (h1 l0 xA l3 l4 l5 l6 l9) = (matmul dot_S32x256_S256x256_S32x256_1_1_0_0_n_n none (extractStridedSlice S32x256 ![0, 1024] (h1 l0 xA l3 l4 l5 l6 l9) slices_S32x8192_o0_1024_S32x256) (truncf .bf16 (shapeCast S256x256 (View.ld xA (Rect.unit (s := S32x256x256) ![4, 0, 0] S1x256x256.size inb_S32x256x256_S1x256x256_4_0_0)) shapeCasts_S1x256x256_S256x256) bitsLt_bf16_f32) (constant S32x256 .f32 0x00000000#32)) := rfl
theorem e138 : k0_pay138 (truncf .bf16 (shapeCast S256x256 (View.ld xA (Rect.unit (s := S32x256x256) ![5, 0, 0] S1x256x256.size inb_S32x256x256_S1x256x256_5_0_0)) shapeCasts_S1x256x256_S256x256) bitsLt_bf16_f32) (h1 l0 xA l3 l4 l5 l6 l9) = (matmul dot_S32x256_S256x256_S32x256_1_1_0_0_n_n none (extractStridedSlice S32x256 ![0, 1280] (h1 l0 xA l3 l4 l5 l6 l9) slices_S32x8192_o0_1280_S32x256) (truncf .bf16 (shapeCast S256x256 (View.ld xA (Rect.unit (s := S32x256x256) ![5, 0, 0] S1x256x256.size inb_S32x256x256_S1x256x256_5_0_0)) shapeCasts_S1x256x256_S256x256) bitsLt_bf16_f32) (constant S32x256 .f32 0x00000000#32)) := rfl
theorem e139 : k0_pay139 (truncf .bf16 (shapeCast S256x256 (View.ld xA (Rect.unit (s := S32x256x256) ![6, 0, 0] S1x256x256.size inb_S32x256x256_S1x256x256_6_0_0)) shapeCasts_S1x256x256_S256x256) bitsLt_bf16_f32) (h1 l0 xA l3 l4 l5 l6 l9) = (matmul dot_S32x256_S256x256_S32x256_1_1_0_0_n_n none (extractStridedSlice S32x256 ![0, 1536] (h1 l0 xA l3 l4 l5 l6 l9) slices_S32x8192_o0_1536_S32x256) (truncf .bf16 (shapeCast S256x256 (View.ld xA (Rect.unit (s := S32x256x256) ![6, 0, 0] S1x256x256.size inb_S32x256x256_S1x256x256_6_0_0)) shapeCasts_S1x256x256_S256x256) bitsLt_bf16_f32) (constant S32x256 .f32 0x00000000#32)) := rfl
theorem e140 : k0_pay140 (truncf .bf16 (shapeCast S256x256 (View.ld xA (Rect.unit (s := S32x256x256) ![7, 0, 0] S1x256x256.size inb_S32x256x256_S1x256x256_7_0_0)) shapeCasts_S1x256x256_S256x256) bitsLt_bf16_f32) (h1 l0 xA l3 l4 l5 l6 l9) = (matmul dot_S32x256_S256x256_S32x256_1_1_0_0_n_n none (extractStridedSlice S32x256 ![0, 1792] (h1 l0 xA l3 l4 l5 l6 l9) slices_S32x8192_o0_1792_S32x256) (truncf .bf16 (shapeCast S256x256 (View.ld xA (Rect.unit (s := S32x256x256) ![7, 0, 0] S1x256x256.size inb_S32x256x256_S1x256x256_7_0_0)) shapeCasts_S1x256x256_S256x256) bitsLt_bf16_f32) (constant S32x256 .f32 0x00000000#32)) := rfl
theorem e141 : k0_pay141 (truncf .bf16 (shapeCast S256x256 (View.ld xA (Rect.unit (s := S32x256x256) ![8, 0, 0] S1x256x256.size inb_S32x256x256_S1x256x256_8_0_0)) shapeCasts_S1x256x256_S256x256) bitsLt_bf16_f32) (h1 l0 xA l3 l4 l5 l6 l9) = (matmul dot_S32x256_S256x256_S32x256_1_1_0_0_n_n none (extractStridedSlice S32x256 ![0, 2048] (h1 l0 xA l3 l4 l5 l6 l9) slices_S32x8192_o0_2048_S32x256) (truncf .bf16 (shapeCast S256x256 (View.ld xA (Rect.unit (s := S32x256x256) ![8, 0, 0] S1x256x256.size inb_S32x256x256_S1x256x256_8_0_0)) shapeCasts_S1x256x256_S256x256) bitsLt_bf16_f32) (constant S32x256 .f32 0x00000000#32)) := rfl
theorem e142 : k0_pay142 (truncf .bf16 (shapeCast S256x256 (View.ld xA (Rect.unit (s := S32x256x256) ![9, 0, 0] S1x256x256.size inb_S32x256x256_S1x256x256_9_0_0)) shapeCasts_S1x256x256_S256x256) bitsLt_bf16_f32) (h1 l0 xA l3 l4 l5 l6 l9) = (matmul dot_S32x256_S256x256_S32x256_1_1_0_0_n_n none (extractStridedSlice S32x256 ![0, 2304] (h1 l0 xA l3 l4 l5 l6 l9) slices_S32x8192_o0_2304_S32x256) (truncf .bf16 (shapeCast S256x256 (View.ld xA (Rect.unit (s := S32x256x256) ![9, 0, 0] S1x256x256.size inb_S32x256x256_S1x256x256_9_0_0)) shapeCasts_S1x256x256_S256x256) bitsLt_bf16_f32) (constant S32x256 .f32 0x00000000#32)) := rfl
theorem e143 : k0_pay143 (truncf .bf16 (shapeCast S256x256 (View.ld xA (Rect.unit (s := S32x256x256) ![10, 0, 0] S1x256x256.size inb_S32x256x256_S1x256x256_10_0_0)) shapeCasts_S1x256x256_S256x256) bitsLt_bf16_f32) (h1 l0 xA l3 l4 l5 l6 l9) = (matmul dot_S32x256_S256x256_S32x256_1_1_0_0_n_n none (extractStridedSlice S32x256 ![0, 2560] (h1 l0 xA l3 l4 l5 l6 l9) slices_S32x8192_o0_2560_S32x256) (truncf .bf16 (shapeCast S256x256 (View.ld xA (Rect.unit (s := S32x256x256) ![10, 0, 0] S1x256x256.size inb_S32x256x256_S1x256x256_10_0_0)) shapeCasts_S1x256x256_S256x256) bitsLt_bf16_f32) (constant S32x256 .f32 0x00000000#32)) := rfl
theorem e144 : k0_pay144 (truncf .bf16 (shapeCast S256x256 (View.ld xA (Rect.unit (s := S32x256x256) ![11, 0, 0] S1x256x256.size inb_S32x256x256_S1x256x256_11_0_0)) shapeCasts_S1x256x256_S256x256) bitsLt_bf16_f32) (h1 l0 xA l3 l4 l5 l6 l9) = (matmul dot_S32x256_S256x256_S32x256_1_1_0_0_n_n none (extractStridedSlice S32x256 ![0, 2816] (h1 l0 xA l3 l4 l5 l6 l9) slices_S32x8192_o0_2816_S32x256) (truncf .bf16 (shapeCast S256x256 (View.ld xA (Rect.unit (s := S32x256x256) ![11, 0, 0] S1x256x256.size inb_S32x256x256_S1x256x256_11_0_0)) shapeCasts_S1x256x256_S256x256) bitsLt_bf16_f32) (constant S32x256 .f32 0x00000000#32)) := rfl
theorem e145 : k0_pay145 (truncf .bf16 (shapeCast S256x256 (View.ld xA (Rect.unit (s := S32x256x256) ![12, 0, 0] S1x256x256.size inb_S32x256x256_S1x256x256_12_0_0)) shapeCasts_S1x256x256_S256x256) bitsLt_bf16_f32) (h1 l0 xA l3 l4 l5 l6 l9) = (matmul dot_S32x256_S256x256_S32x256_1_1_0_0_n_n none (extractStridedSlice S32x256 ![0, 3072] (h1 l0 xA l3 l4 l5 l6 l9) slices_S32x8192_o0_3072_S32x256) (truncf .bf16 (shapeCast S256x256 (View.ld xA (Rect.unit (s := S32x256x256) ![12, 0, 0] S1x256x256.size inb_S32x256x256_S1x256x256_12_0_0)) shapeCasts_S1x256x256_S256x256) bitsLt_bf16_f32) (constant S32x256 .f32 0x00000000#32)) := rfl
theorem e146 : k0_pay146 (truncf .bf16 (shapeCast S256x256 (View.ld xA (Rect.unit (s := S32x256x256) ![13, 0, 0] S1x256x256.size inb_S32x256x256_S1x256x256_13_0_0)) shapeCasts_S1x256x256_S256x256) bitsLt_bf16_f32) (h1 l0 xA l3 l4 l5 l6 l9) = (matmul dot_S32x256_S256x256_S32x256_1_1_0_0_n_n none (extractStridedSlice S32x256 ![0, 3328] (h1 l0 xA l3 l4 l5 l6 l9) slices_S32x8192_o0_3328_S32x256) (truncf .bf16 (shapeCast S256x256 (View.ld xA (Rect.unit (s := S32x256x256) ![13, 0, 0] S1x256x256.size inb_S32x256x256_S1x256x256_13_0_0)) shapeCasts_S1x256x256_S256x256) bitsLt_bf16_f32) (constant S32x256 .f32 0x00000000#32)) := rfl
theorem e147 : k0_pay147 (truncf .bf16 (shapeCast S256x256 (View.ld xA (Rect.unit (s := S32x256x256) ![14, 0, 0] S1x256x256.size inb_S32x256x256_S1x256x256_14_0_0)) shapeCasts_S1x256x256_S256x256) bitsLt_bf16_f32) (h1 l0 xA l3 l4 l5 l6 l9) = (matmul dot_S32x256_S256x256_S32x256_1_1_0_0_n_n none (extractStridedSlice S32x256 ![0, 3584] (h1 l0 xA l3 l4 l5 l6 l9) slices_S32x8192_o0_3584_S32x256) (truncf .bf16 (shapeCast S256x256 (View.ld xA (Rect.unit (s := S32x256x256) ![14, 0, 0] S1x256x256.size inb_S32x256x256_S1x256x256_14_0_0)) shapeCasts_S1x256x256_S256x256) bitsLt_bf16_f32) (constant S32x256 .f32 0x00000000#32)) := rfl
theorem e148 : k0_pay148 (truncf .bf16 (shapeCast S256x256 (View.ld xA (Rect.unit (s := S32x256x256) ![15, 0, 0] S1x256x256.size inb_S32x256x256_S1x256x256_15_0_0)) shapeCasts_S1x256x256_S256x256) bitsLt_bf16_f32) (h1 l0 xA l3 l4 l5 l6 l9) = (matmul dot_S32x256_S256x256_S32x256_1_1_0_0_n_n none (extractStridedSlice S32x256 ![0, 3840] (h1 l0 xA l3 l4 l5 l6 l9) slices_S32x8192_o0_3840_S32x256) (truncf .bf16 (shapeCast S256x256 (View.ld xA (Rect.unit (s := S32x256x256) ![15, 0, 0] S1x256x256.size inb_S32x256x256_S1x256x256_15_0_0)) shapeCasts_S1x256x256_S256x256) bitsLt_bf16_f32) (constant S32x256 .f32 0x00000000#32)) := rfl
theorem e149 : k0_pay149 (truncf .bf16 (shapeCast S256x256 (View.ld xA (Rect.unit (s := S32x256x256) ![16, 0, 0] S1x256x256.size inb_S32x256x256_S1x256x256_16_0_0)) shapeCasts_S1x256x256_S256x256) bitsLt_bf16_f32) (h1 l0 xA l3 l4 l5 l6 l9) = (matmul dot_S32x256_S256x256_S32x256_1_1_0_0_n_n none (extractStridedSlice S32x256 ![0, 4096] (h1 l0 xA l3 l4 l5 l6 l9) slices_S32x8192_o0_4096_S32x256) (truncf .bf16 (shapeCast S256x256 (View.ld xA (Rect.unit (s := S32x256x256) ![16, 0, 0] S1x256x256.size inb_S32x256x256_S1x256x256_16_0_0)) shapeCasts_S1x256x256_S256x256) bitsLt_bf16_f32) (constant S32x256 .f32 0x00000000#32)) := rfl
theorem e150 : k0_pay150 (truncf .bf16 (shapeCast S256x256 (View.ld xA (Rect.unit (s := S32x256x256) ![17, 0, 0] S1x256x256.size inb_S32x256x256_S1x256x256_17_0_0)) shapeCasts_S1x256x256_S256x256) bitsLt_bf16_f32) (h1 l0 xA l3 l4 l5 l6 l9) = (matmul dot_S32x256_S256x256_S32x256_1_1_0_0_n_n none (extractStridedSlice S32x256 ![0, 4352] (h1 l0 xA l3 l4 l5 l6 l9) slices_S32x8192_o0_4352_S32x256) (truncf .bf16 (shapeCast S256x256 (View.ld xA (Rect.unit (s := S32x256x256) ![17, 0, 0] S1x256x256.size inb_S32x256x256_S1x256x256_17_0_0)) shapeCasts_S1x256x256_S256x256) bitsLt_bf16_f32) (constant S32x256 .f32 0x00000000#32)) := rfl
theorem e151 : k0_pay151 (truncf .bf16 (shapeCast S256x256 (View.ld xA (Rect.unit (s := S32x256x256) ![18, 0, 0] S1x256x256.size inb_S32x256x256_S1x256x256_18_0_0)) shapeCasts_S1x256x256_S256x256) bitsLt_bf16_f32) (h1 l0 xA l3 l4 l5 l6 l9) = (matmul dot_S32x256_S256x256_S32x256_1_1_0_0_n_n none (extractStridedSlice S32x256 ![0, 4608] (h1 l0 xA l3 l4 l5 l6 l9) slices_S32x8192_o0_4608_S32x256) (truncf .bf16 (shapeCast S256x256 (View.ld xA (Rect.unit (s := S32x256x256) ![18, 0, 0] S1x256x256.size inb_S32x256x256_S1x256x256_18_0_0)) shapeCasts_S1x256x256_S256x256) bitsLt_bf16_f32) (constant S32x256 .f32 0x00000000#32)) := rfl
theorem e152 : k0_pay152 (truncf .bf16 (shapeCast S256x256 (View.ld xA (Rect.unit (s := S32x256x256) ![19, 0, 0] S1x256x256.size inb_S32x256x256_S1x256x256_19_0_0)) shapeCasts_S1x256x256_S256x256) bitsLt_bf16_f32) (h1 l0 xA l3 l4 l5 l6 l9) = (matmul dot_S32x256_S256x256_S32x256_1_1_0_0_n_n none (extractStridedSlice S32x256 ![0, 4864] (h1 l0 xA l3 l4 l5 l6 l9) slices_S32x8192_o0_4864_S32x256) (truncf .bf16 (shapeCast S256x256 (View.ld xA (Rect.unit (s := S32x256x256) ![19, 0, 0] S1x256x256.size inb_S32x256x256_S1x256x256_19_0_0)) shapeCasts_S1x256x256_S256x256) bitsLt_bf16_f32) (constant S32x256 .f32 0x00000000#32)) := rfl
theorem e153 : k0_pay153 (truncf .bf16 (shapeCast S256x256 (View.ld xA (Rect.unit (s := S32x256x256) ![20, 0, 0] S1x256x256.size inb_S32x256x256_S1x256x256_20_0_0)) shapeCasts_S1x256x256_S256x256) bitsLt_bf16_f32) (h1 l0 xA l3 l4 l5 l6 l9) = (matmul dot_S32x256_S256x256_S32x256_1_1_0_0_n_n none (extractStridedSlice S32x256 ![0, 5120] (h1 l0 xA l3 l4 l5 l6 l9) slices_S32x8192_o0_5120_S32x256) (truncf .bf16 (shapeCast S256x256 (View.ld xA (Rect.unit (s := S32x256x256) ![20, 0, 0] S1x256x256.size inb_S32x256x256_S1x256x256_20_0_0)) shapeCasts_S1x256x256_S256x256) bitsLt_bf16_f32) (constant S32x256 .f32 0x00000000#32)) := rfl
theorem e154 : k0_pay154 (truncf .bf16 (shapeCast S256x256 (View.ld xA (Rect.unit (s := S32x256x256) ![21, 0, 0] S1x256x256.size inb_S32x256x256_S1x256x256_21_0_0)) shapeCasts_S1x256x256_S256x256) bitsLt_bf16_f32) (h1 l0 xA l3 l4 l5 l6 l9) = (matmul dot_S32x256_S256x256_S32x256_1_1_0_0_n_n none (extractStridedSlice S32x256 ![0, 5376] (h1 l0 xA l3 l4 l5 l6 l9) slices_S32x8192_o0_5376_S32x256) (truncf .bf16 (shapeCast S256x256 (View.ld xA (Rect.unit (s := S32x256x256) ![21, 0, 0] S1x256x256.size inb_S32x256x256_S1x256x256_21_0_0)) shapeCasts_S1x256x256_S256x256) bitsLt_bf16_f32) (constant S32x256 .f32 0x00000000#32)) := rfl
theorem e155 : k0_pay155 (truncf .bf16 (shapeCast S256x256 (View.ld xA (Rect.unit (s := S32x256x256) ![22, 0, 0] S1x256x256.size inb_S32x256x256_S1x256x256_22_0_0)) shapeCasts_S1x256x256_S256x256) bitsLt_bf16_f32) (h1 l0 xA l3 l4 l5 l6 l9) = (matmul dot_S32x256_S256x256_S32x256_1_1_0_0_n_n none (extractStridedSlice S32x256 ![0, 5632] (h1 l0 xA l3 l4 l5 l6 l9) slices_S32x8192_o0_5632_S32x256) (truncf .bf16 (shapeCast S256x256 (View.ld xA (Rect.unit (s := S32x256x256) ![22, 0, 0] S1x256x256.size inb_S32x256x256_S1x256x256_22_0_0)) shapeCasts_S1x256x256_S256x256) bitsLt_bf16_f32) (constant S32x256 .f32 0x00000000#32)) := rfl
theorem e156 : k0_pay156 (h1 l0 xA l3 l4 l5 l6 l9) = (extractStridedSlice S32x256 ![0, 5888] (h1 l0 xA l3 l4 l5 l6 l9) slices_S32x8192_o0_5888_S32x256) := rfl
theorem e157 : k0_pay157 (p1b l9) (truncf .bf16 (shapeCast S256x256 (View.ld xA (Rect.unit (s := S32x256x256) ![23, 0, 0] S1x256x256.size inb_S32x256x256_S1x256x256_23_0_0)) shapeCasts_S1x256x256_S256x256) bitsLt_bf16_f32) (truncf .bf16 (shapeCast S256x256 (View.ld xA (Rect.unit (s := S32x256x256) ![24, 0, 0] S1x256x256.size inb_S32x256x256_S1x256x256_24_0_0)) shapeCasts_S1x256x256_S256x256) bitsLt_bf16_f32) (truncf .bf16 (shapeCast S256x256 (View.ld xA (Rect.unit (s := S32x256x256) ![25, 0, 0] S1x256x256.size inb_S32x256x256_S1x256x256_25_0_0)) shapeCasts_S1x256x256_S256x256) bitsLt_bf16_f32) (truncf .bf16 (shapeCast S256x256 (View.ld xA (Rect.unit (s := S32x256x256) ![26, 0, 0] S1x256x256.size inb_S32x256x256_S1x256x256_26_0_0)) shapeCasts_S1x256x256_S256x256) bitsLt_bf16_f32) (truncf .bf16 (shapeCast S256x256 (View.ld xA (Rect.unit (s := S32x256x256) ![27, 0, 0] S1x256x256.size inb_S32x256x256_S1x256x256_27_0_0)) shapeCasts_S1x256x256_S256x256) bitsLt_bf16_f32) (truncf .bf16 (shapeCast S256x256 (View.ld xA (Rect.unit (s := S32x256x256) ![28, 0, 0] S1x256x256.size inb_S32x256x256_S1x256x256_28_0_0)) shapeCasts_S1x256x256_S256x256) bitsLt_bf16_f32) (truncf .bf16 (shapeCast S256x256 (View.ld xA (Rect.unit (s := S32x256x256) ![29, 0, 0] S1x256x256.size inb_S32x256x256_S1x256x256_29_0_0)) shapeCasts_S1x256x256_S256x256) bitsLt_bf16_f32) (truncf .bf16 (shapeCast S256x256 (View.ld xA (Rect.unit (s := S32x256x256) ![30, 0, 0] S1x256x256.size inb_S32x256x256_S1x256x256_30_0_0)) shapeCasts_S1x256x256_S256x256) bitsLt_bf16_f32) (truncf .bf16 (shapeCast S256x256 (View.ld xA (Rect.unit (s := S32x256x256) ![31, 0, 0] S1x256x256.size inb_S32x256x256_S1x256x256_31_0_0)) shapeCasts_S1x256x256_S256x256) bitsLt_bf16_f32) (full1 l0 xA l3 l4 l5 l9) (mask1 l0 xA l3 l4 l5 l6 l9) (h1 l0 xA l3 l4 l5 l6 l9) (matmul dot_S32x256_S256x256_S32x256_1_1_0_0_n_n none (extractStridedSlice S32x256 ![0, 0] (h1 l0 xA l3 l4 l5 l6 l9) slices_S32x8192_o0_0_S32x256) (truncf .bf16 (shapeCast S256x256 (View.ld xA (Rect.unit (s := S32x256x256) ![0, 0, 0] S1x256x256.size inb_S32x256x256_S1x256x256_0_0_0)) shapeCasts_S1x256x256_S256x256) bitsLt_bf16_f32) (constant S32x256 .f32 0x00000000#32)) (matmul dot_S32x256_S256x256_S32x256_1_1_0_0_n_n none (extractStridedSlice S32x256 ![0, 256] (h1 l0 xA l3 l4 l5 l6 l9) slices_S32x8192_o0_256_S32x256) (truncf .bf16 (shapeCast S256x256 (View.ld xA (Rect.unit (s := S32x256x256) ![1, 0, 0] S1x256x256.size inb_S32x256x256_S1x256x256_1_0_0)) shapeCasts_S1x256x256_S256x256) bitsLt_bf16_f32) (constant S32x256 .f32 0x00000000#32)) (matmul dot_S32x256_S256x256_S32x256_1_1_0_0_n_n none (extractStridedSlice S32x256 ![0, 512] (h1 l0 xA l3 l4 l5 l6 l9) slices_S32x8192_o0_512_S32x256) (truncf .bf16 (shapeCast S256x256 (View.ld xA (Rect.unit (s := S32x256x256) ![2, 0, 0] S1x256x256.size inb_S32x256x256_S1x256x256_2_0_0)) shapeCasts_S1x256x256_S256x256) bitsLt_bf16_f32) (constant S32x256 .f32 0x00000000#32)) (matmul dot_S32x256_S256x256_S32x256_1_1_0_0_n_n none (extractStridedSlice S32x256 ![0, 768] (h1 l0 xA l3 l4 l5 l6 l9) slices_S32x8192_o0_768_S32x256) (truncf .bf16 (shapeCast S256x256 (View.ld xA (Rect.unit (s := S32x256x256) ![3, 0, 0] S1x256x256.size inb_S32x256x256_S1x256x256_3_0_0)) shapeCasts_S1x256x256_S256x256) bitsLt_bf16_f32) (constant S32x256 .f32 0x00000000#32)) (matmul dot_S32x256_S256x256_S32x256_1_1_0_0_n_n none (extractStridedSlice S32x256 ![0, 1024] (h1 l0 xA l3 l4 l5 l6 l9) slices_S32x8192_o0_1024_S32x256) (truncf .bf16 (shapeCast S256x256 (View.ld xA (Rect.unit (s := S32x256x256) ![4, 0, 0] S1x256x256.size inb_S32x256x256_S1x256x256_4_0_0)) shapeCasts_S1x256x256_S256x256) bitsLt_bf16_f32) (constant S32x256 .f32 0x00000000#32)) (matmul dot_S32x256_S256x256_S32x256_1_1_0_0_n_n none (extractStridedSlice S32x256 ![0, 1280] (h1 l0 xA l3 l4 l5 l6 l9) slices_S32x8192_o0_1280_S32x256) (truncf .bf16 (shapeCast S256x256 (View.ld xA (Rect.unit (s := S32x256x256) ![5, 0, 0] S1x256x256.size inb_S32x256x256_S1x256x256_5_0_0)) shapeCasts_S1x256x256_S256x256) bitsLt_bf16_f32) (constant S32x256 .f32 0x00000000#32)) (matmul dot_S32x256_S256x256_S32x256_1_1_0_0_n_n none (extractStridedSlice S32x256 ![0, 1536] (h1 l0 xA l3 l4 l5 l6 l9) slices_S32x8192_o0_1536_S32x256) (truncf .bf16 (shapeCast S256x256 (View.ld xA (Rect.unit (s := S32x256x256) ![6, 0, 0] S1x256x256.size inb_S32x256x256_S1x256x256_6_0_0)) shapeCasts_S1x256x256_S256x256) bitsLt_bf16_f32) (constant S32x256 .f32 0x00000000#32)) (matmul dot_S32x256_S256x256_S32x256_1_1_0_0_n_n none (extractStridedSlice S32x256 ![0, 1792] (h1 l0 xA l3 l4 l5 l6 l9) slices_S32x8192_o0_1792_S32x256) (truncf .bf16 (shapeCast S256x256 (View.ld xA (Rect.unit (s := S32x256x256) ![7, 0, 0] S1x256x256.size inb_S32x256x256_S1x256x256_7_0_0)) shapeCasts_S1x256x256_S256x256) bitsLt_bf16_f32) (constant S32x256 .f32 0x00000000#32)) (matmul dot_S32x256_S256x256_S32x256_1_1_0_0_n_n none (extractStridedSlice S32x256 ![0, 2048] (h1 l0 xA l3 l4 l5 l6 l9) slices_S32x8192_o0_2048_S32x256) (truncf .bf16 (shapeCast S256x256 (View.ld xA (Rect.unit (s := S32x256x256) ![8, 0, 0] S1x256x256.size inb_S32x256x256_S1x256x256_8_0_0)) shapeCasts_S1x256x256_S256x256) bitsLt_bf16_f32) (constant S32x256 .f32 0x00000000#32)) (matmul dot_S32x256_S256x256_S32x256_1_1_0_0_n_n none (extractStridedSlice S32x256 ![0, 2304] (h1 l0 xA l3 l4 l5 l6 l9) slices_S32x8192_o0_2304_S32x256) (truncf .bf16 (shapeCast S256x256 (View.ld xA (Rect.unit (s := S32x256x256) ![9, 0, 0] S1x256x256.size inb_S32x256x256_S1x256x256_9_0_0)) shapeCasts_S1x256x256_S256x256) bitsLt_bf16_f32) (constant S32x256 .f32 0x00000000#32)) (matmul dot_S32x256_S256x256_S32x256_1_1_0_0_n_n none (extractStridedSlice S32x256 ![0, 2560] (h1 l0 xA l3 l4 l5 l6 l9) slices_S32x8192_o0_2560_S32x256) (truncf .bf16 (shapeCast S256x256 (View.ld xA (Rect.unit (s := S32x256x256) ![10, 0, 0] S1x256x256.size inb_S32x256x256_S1x256x256_10_0_0)) shapeCasts_S1x256x256_S256x256) bitsLt_bf16_f32) (constant S32x256 .f32 0x00000000#32)) (matmul dot_S32x256_S256x256_S32x256_1_1_0_0_n_n none (extractStridedSlice S32x256 ![0, 2816] (h1 l0 xA l3 l4 l5 l6 l9) slices_S32x8192_o0_2816_S32x256) (truncf .bf16 (shapeCast S256x256 (View.ld xA (Rect.unit (s := S32x256x256) ![11, 0, 0] S1x256x256.size inb_S32x256x256_S1x256x256_11_0_0)) shapeCasts_S1x256x256_S256x256) bitsLt_bf16_f32) (constant S32x256 .f32 0x00000000#32)) (matmul dot_S32x256_S256x256_S32x256_1_1_0_0_n_n none (extractStridedSlice S32x256 ![0, 3072] (h1 l0 xA l3 l4 l5 l6 l9) slices_S32x8192_o0_3072_S32x256) (truncf .bf16 (shapeCast S256x256 (View.ld xA (Rect.unit (s := S32x256x256) ![12, 0, 0] S1x256x256.size inb_S32x256x256_S1x256x256_12_0_0)) shapeCasts_S1x256x256_S256x256) bitsLt_bf16_f32) (constant S32x256 .f32 0x00000000#32)) (matmul dot_S32x256_S256x256_S32x256_1_1_0_0_n_n none (extractStridedSlice S32x256 ![0, 3328] (h1 l0 xA l3 l4 l5 l6 l9) slices_S32x8192_o0_3328_S32x256) (truncf .bf16 (shapeCast S256x256 (View.ld xA (Rect.unit (s := S32x256x256) ![13, 0, 0] S1x256x256.size inb_S32x256x256_S1x256x256_13_0_0)) shapeCasts_S1x256x256_S256x256) bitsLt_bf16_f32) (constant S32x256 .f32 0x00000000#32)) (matmul dot_S32x256_S256x256_S32x256_1_1_0_0_n_n none (extractStridedSlice S32x256 ![0, 3584] (h1 l0 xA l3 l4 l5 l6 l9) slices_S32x8192_o0_3584_S32x256) (truncf .bf16 (shapeCast S256x256 (View.ld xA (Rect.unit (s := S32x256x256) ![14, 0, 0] S1x256x256.size inb_S32x256x256_S1x256x256_14_0_0)) shapeCasts_S1x256x256_S256x256) bitsLt_bf16_f32) (constant S32x256 .f32 0x00000000#32)) (matmul dot_S32x256_S256x256_S32x256_1_1_0_0_n_n none (extractStridedSlice S32x256 ![0, 3840] (h1 l0 xA l3 l4 l5 l6 l9) slices_S32x8192_o0_3840_S32x256) (truncf .bf16 (shapeCast S256x256 (View.ld xA (Rect.unit (s := S32x256x256) ![15, 0, 0] S1x256x256.size inb_S32x256x256_S1x256x256_15_0_0)) shapeCasts_S1x256x256_S256x256) bitsLt_bf16_f32) (constant S32x256 .f32 0x00000000#32)) (matmul dot_S32x256_S256x256_S32x256_1_1_0_0_n_n none (extractStridedSlice S32x256 ![0, 4096] (h1 l0 xA l3 l4 l5 l6 l9) slices_S32x8192_o0_4096_S32x256) (truncf .bf16 (shapeCast S256x256 (View.ld xA (Rect.unit (s := S32x256x256) ![16, 0, 0] S1x256x256.size inb_S32x256x256_S1x256x256_16_0_0)) shapeCasts_S1x256x256_S256x256) bitsLt_bf16_f32) (constant S32x256 .f32 0x00000000#32)) (matmul dot_S32x256_S256x256_S32x256_1_1_0_0_n_n none (extractStridedSlice S32x256 ![0, 4352] (h1 l0 xA l3 l4 l5 l6 l9) slices_S32x8192_o0_4352_S32x256) (truncf .bf16 (shapeCast S256x256 (View.ld xA (Rect.unit (s := S32x256x256) ![17, 0, 0] S1x256x256.size inb_S32x256x256_S1x256x256_17_0_0)) shapeCasts_S1x256x256_S256x256) bitsLt_bf16_f32) (constant S32x256 .f32 0x00000000#32)) (matmul dot_S32x256_S256x256_S32x256_1_1_0_0_n_n none (extractStridedSlice S32x256 ![0, 4608] (h1 l0 xA l3 l4 l5 l6 l9) slices_S32x8192_o0_4608_S32x256) (truncf .bf16 (shapeCast S256x256 (View.ld xA (Rect.unit (s := S32x256x256) ![18, 0, 0] S1x256x256.size inb_S32x256x256_S1x256x256_18_0_0)) shapeCasts_S1x256x256_S256x256) bitsLt_bf16_f32) (constant S32x256 .f32 0x00000000#32)) (matmul dot_S32x256_S256x256_S32x256_1_1_0_0_n_n none (extractStridedSlice S32x256 ![0, 4864] (h1 l0 xA l3 l4 l5 l6 l9) slices_S32x8192_o0_4864_S32x256) (truncf .bf16 (shapeCast S256x256 (View.ld xA (Rect.unit (s := S32x256x256) ![19, 0, 0] S1x256x256.size inb_S32x256x256_S1x256x256_19_0_0)) shapeCasts_S1x256x256_S256x256) bitsLt_bf16_f32) (constant S32x256 .f32 0x00000000#32)) (matmul dot_S32x256_S256x256_S32x256_1_1_0_0_n_n none (extractStridedSlice S32x256 ![0, 5120] (h1 l0 xA l3 l4 l5 l6 l9) slices_S32x8192_o0_5120_S32x256) (truncf .bf16 (shapeCast S256x256 (View.ld xA (Rect.unit (s := S32x256x256) ![20, 0, 0] S1x256x256.size inb_S32x256x256_S1x256x256_20_0_0)) shapeCasts_S1x256x256_S256x256) bitsLt_bf16_f32) (constant S32x256 .f32 0x00000000#32)) (matmul dot_S32x256_S256x256_S32x256_1_1_0_0_n_n none (extractStridedSlice S32x256 ![0, 5376] (h1 l0 xA l3 l4 l5 l6 l9) slices_S32x8192_o0_5376_S32x256) (truncf .bf16 (shapeCast S256x256 (View.ld xA (Rect.unit (s := S32x256x256) ![21, 0, 0] S1x256x256.size inb_S32x256x256_S1x256x256_21_0_0)) shapeCasts_S1x256x256_S256x256) bitsLt_bf16_f32) (constant S32x256 .f32 0x00000000#32)) (matmul dot_S32x256_S256x256_S32x256_1_1_0_0_n_n none (extractStridedSlice S32x256 ![0, 5632] (h1 l0 xA l3 l4 l5 l6 l9) slices_S32x8192_o0_5632_S32x256) (truncf .bf16 (shapeCast S256x256 (View.ld xA (Rect.unit (s := S32x256x256) ![22, 0, 0] S1x256x256.size inb_S32x256x256_S1x256x256_22_0_0)) shapeCasts_S1x256x256_S256x256) bitsLt_bf16_f32) (constant S32x256 .f32 0x00000000#32)) (extractStridedSlice S32x256 ![0, 5888] (h1 l0 xA l3 l4 l5 l6 l9) slices_S32x8192_o0_5888_S32x256) l7 = (y0 l0 xA l3 l4 l5 l6 l7 l9) := rfl
theorem e158 : k0_pay158 (View.ld xD (Rect.unit (s := S32x256x32) ![0, 0, 0] S1x256x32.size inb_S32x256x32_S1x256x32_0_0_0)) = (transpose S32x256 [1, 0] (shapeCast S256x32 (View.ld xD (Rect.unit (s := S32x256x32) ![0, 0, 0] S1x256x32.size inb_S32x256x32_S1x256x32_0_0_0)) shapeCasts_S1x256x32_S256x32) transposes_S256x32_p1_0_S32x256) := rfl
theorem e159 : k0_pay159 (View.ld xD (Rect.unit (s := S32x256x32) ![1, 0, 0] S1x256x32.size inb_S32x256x32_S1x256x32_1_0_0)) = (transpose S32x256 [1, 0] (shapeCast S256x32 (View.ld xD (Rect.unit (s := S32x256x32) ![1, 0, 0] S1x256x32.size inb_S32x256x32_S1x256x32_1_0_0)) shapeCasts_S1x256x32_S256x32) transposes_S256x32_p1_0_S32x256) := rfl
theorem e160 : k0_pay160 (View.ld xD (Rect.unit (s := S32x256x32) ![2, 0, 0] S1x256x32.size inb_S32x256x32_S1x256x32_2_0_0)) = (transpose S32x256 [1, 0] (shapeCast S256x32 (View.ld xD (Rect.unit (s := S32x256x32) ![2, 0, 0] S1x256x32.size inb_S32x256x32_S1x256x32_2_0_0)) shapeCasts_S1x256x32_S256x32) transposes_S256x32_p1_0_S32x256) := rfl
theorem e161 : k0_pay161 (View.ld xD (Rect.unit (s := S32x256x32) ![3, 0, 0] S1x256x32.size inb_S32x256x32_S1x256x32_3_0_0)) = (transpose S32x256 [1, 0] (shapeCast S256x32 (View.ld xD (Rect.unit (s := S32x256x32) ![3, 0, 0] S1x256x32.size inb_S32x256x32_S1x256x32_3_0_0)) shapeCasts_S1x256x32_S256x32) transposes_S256x32_p1_0_S32x256) := rfl
theorem e162 : k0_pay162 (View.ld xD (Rect.unit (s := S32x256x32) ![4, 0, 0] S1x256x32.size inb_S32x256x32_S1x256x32_4_0_0)) = (transpose S32x256 [1, 0] (shapeCast S256x32 (View.ld xD (Rect.unit (s := S32x256x32) ![4, 0, 0] S1x256x32.size inb_S32x256x32_S1x256x32_4_0_0)) shapeCasts_S1x256x32_S256x32) transposes_S256x32_p1_0_S32x256) := rfl
theorem e163 : k0_pay163 (View.ld xD (Rect.unit (s := S32x256x32) ![5, 0, 0] S1x256x32.size inb_S32x256x32_S1x256x32_5_0_0)) = (transpose S32x256 [1, 0] (shapeCast S256x32 (View.ld xD (Rect.unit (s := S32x256x32) ![5, 0, 0] S1x256x32.size inb_S32x256x32_S1x256x32_5_0_0)) shapeCasts_S1x256x32_S256x32) transposes_S256x32_p1_0_S32x256) := rfl
theorem e164 : k0_pay164 (View.ld xD (Rect.unit (s := S32x256x32) ![6, 0, 0] S1x256x32.size inb_S32x256x32_S1x256x32_6_0_0)) = (transpose S32x256 [1, 0] (shapeCast S256x32 (View.ld xD (Rect.unit (s := S32x256x32) ![6, 0, 0] S1x256x32.size inb_S32x256x32_S1x256x32_6_0_0)) shapeCasts_S1x256x32_S256x32) transposes_S256x32_p1_0_S32x256) := rfl
theorem e165 : k0_pay165 (View.ld xD (Rect.unit (s := S32x256x32) ![7, 0, 0] S1x256x32.size inb_S32x256x32_S1x256x32_7_0_0)) = (transpose S32x256 [1, 0] (shapeCast S256x32 (View.ld xD (Rect.unit (s := S32x256x32) ![7, 0, 0] S1x256x32.size inb_S32x256x32_S1x256x32_7_0_0)) shapeCasts_S1x256x32_S256x32) transposes_S256x32_p1_0_S32x256) := rfl
theorem e166 : k0_pay166 (View.ld xD (Rect.unit (s := S32x256x32) ![8, 0, 0] S1x256x32.size inb_S32x256x32_S1x256x32_8_0_0)) = (transpose S32x256 [1, 0] (shapeCast S256x32 (View.ld xD (Rect.unit (s := S32x256x32) ![8, 0, 0] S1x256x32.size inb_S32x256x32_S1x256x32_8_0_0)) shapeCasts_S1x256x32_S256x32) transposes_S256x32_p1_0_S32x256) := rfl
theorem e167 : k0_pay167 (View.ld xD (Rect.unit (s := S32x256x32) ![9, 0, 0] S1x256x32.size inb_S32x256x32_S1x256x32_9_0_0)) = (transpose S32x256 [1, 0] (shapeCast S256x32 (View.ld xD (Rect.unit (s := S32x256x32) ![9, 0, 0] S1x256x32.size inb_S32x256x32_S1x256x32_9_0_0)) shapeCasts_S1x256x32_S256x32) transposes_S256x32_p1_0_S32x256) := rfl
theorem e168 : k0_pay168 (View.ld xD (Rect.unit (s := S32x256x32) ![10, 0, 0] S1x256x32.size inb_S32x256x32_S1x256x32_10_0_0)) = (transpose S32x256 [1, 0] (shapeCast S256x32 (View.ld xD (Rect.unit (s := S32x256x32) ![10, 0, 0] S1x256x32.size inb_S32x256x32_S1x256x32_10_0_0)) shapeCasts_S1x256x32_S256x32) transposes_S256x32_p1_0_S32x256) := rfl
theorem e169 : k0_pay169 (View.ld xD (Rect.unit (s := S32x256x32) ![11, 0, 0] S1x256x32.size inb_S32x256x32_S1x256x32_11_0_0)) = (transpose S32x256 [1, 0] (shapeCast S256x32 (View.ld xD (Rect.unit (s := S32x256x32) ![11, 0, 0] S1x256x32.size inb_S32x256x32_S1x256x32_11_0_0)) shapeCasts_S1x256x32_S256x32) transposes_S256x32_p1_0_S32x256) := rfl
theorem e170 : k0_pay170 (View.ld xD (Rect.unit (s := S32x256x32) ![12, 0, 0] S1x256x32.size inb_S32x256x32_S1x256x32_12_0_0)) = (transpose S32x256 [1, 0] (shapeCast S256x32 (View.ld xD (Rect.unit (s := S32x256x32) ![12, 0, 0] S1x256x32.size inb_S32x256x32_S1x256x32_12_0_0)) shapeCasts_S1x256x32_S256x32) transposes_S256x32_p1_0_S32x256) := rfl
theorem e171 : k0_pay171 (View.ld xD (Rect.unit (s := S32x256x32) ![13, 0, 0] S1x256x32.size inb_S32x256x32_S1x256x32_13_0_0)) = (transpose S32x256 [1, 0] (shapeCast S256x32 (View.ld xD (Rect.unit (s := S32x256x32) ![13, 0, 0] S1x256x32.size inb_S32x256x32_S1x256x32_13_0_0)) shapeCasts_S1x256x32_S256x32) transposes_S256x32_p1_0_S32x256) := rfl
theorem e172 : k0_pay172 (View.ld xD (Rect.unit (s := S32x256x32) ![14, 0, 0] S1x256x32.size inb_S32x256x32_S1x256x32_14_0_0)) = (transpose S32x256 [1, 0] (shapeCast S256x32 (View.ld xD (Rect.unit (s := S32x256x32) ![14, 0, 0] S1x256x32.size inb_S32x256x32_S1x256x32_14_0_0)) shapeCasts_S1x256x32_S256x32) transposes_S256x32_p1_0_S32x256) := rfl
theorem e173 : k0_pay173 (View.ld xD (Rect.unit (s := S32x256x32) ![15, 0, 0] S1x256x32.size inb_S32x256x32_S1x256x32_15_0_0)) = (transpose S32x256 [1, 0] (shapeCast S256x32 (View.ld xD (Rect.unit (s := S32x256x32) ![15, 0, 0] S1x256x32.size inb_S32x256x32_S1x256x32_15_0_0)) shapeCasts_S1x256x32_S256x32) transposes_S256x32_p1_0_S32x256) := rfl
theorem e174 : k0_pay174 (View.ld xD (Rect.unit (s := S32x256x32) ![16, 0, 0] S1x256x32.size inb_S32x256x32_S1x256x32_16_0_0)) = (transpose S32x256 [1, 0] (shapeCast S256x32 (View.ld xD (Rect.unit (s := S32x256x32) ![16, 0, 0] S1x256x32.size inb_S32x256x32_S1x256x32_16_0_0)) shapeCasts_S1x256x32_S256x32) transposes_S256x32_p1_0_S32x256) := rfl
theorem e175 : k0_pay175 (View.ld xD (Rect.unit (s := S32x256x32) ![17, 0, 0] S1x256x32.size inb_S32x256x32_S1x256x32_17_0_0)) = (transpose S32x256 [1, 0] (shapeCast S256x32 (View.ld xD (Rect.unit (s := S32x256x32) ![17, 0, 0] S1x256x32.size inb_S32x256x32_S1x256x32_17_0_0)) shapeCasts_S1x256x32_S256x32) transposes_S256x32_p1_0_S32x256) := rfl
theorem e176 : k0_pay176 (View.ld xD (Rect.unit (s := S32x256x32) ![18, 0, 0] S1x256x32.size inb_S32x256x32_S1x256x32_18_0_0)) = (transpose S32x256 [1, 0] (shapeCast S256x32 (View.ld xD (Rect.unit (s := S32x256x32) ![18, 0, 0] S1x256x32.size inb_S32x256x32_S1x256x32_18_0_0)) shapeCasts_S1x256x32_S256x32) transposes_S256x32_p1_0_S32x256) := rfl
theorem e177 : k0_pay177 (View.ld xD (Rect.unit (s := S32x256x32) ![19, 0, 0] S1x256x32.size inb_S32x256x32_S1x256x32_19_0_0)) = (transpose S32x256 [1, 0] (shapeCast S256x32 (View.ld xD (Rect.unit (s := S32x256x32) ![19, 0, 0] S1x256x32.size inb_S32x256x32_S1x256x32_19_0_0)) shapeCasts_S1x256x32_S256x32) transposes_S256x32_p1_0_S32x256) := rfl
theorem e178 : k0_pay178 (View.ld xD (Rect.unit (s := S32x256x32) ![20, 0, 0] S1x256x32.size inb_S32x256x32_S1x256x32_20_0_0)) = (transpose S32x256 [1, 0] (shapeCast S256x32 (View.ld xD (Rect.unit (s := S32x256x32) ![20, 0, 0] S1x256x32.size inb_S32x256x32_S1x256x32_20_0_0)) shapeCasts_S1x256x32_S256x32) transposes_S256x32_p1_0_S32x256) := rfl
theorem e179 : k0_pay179 (View.ld xD (Rect.unit (s := S32x256x32) ![21, 0, 0] S1x256x32.size inb_S32x256x32_S1x256x32_21_0_0)) = (transpose S32x256 [1, 0] (shapeCast S256x32 (View.ld xD (Rect.unit (s := S32x256x32) ![21, 0, 0] S1x256x32.size inb_S32x256x32_S1x256x32_21_0_0)) shapeCasts_S1x256x32_S256x32) transposes_S256x32_p1_0_S32x256) := rfl
theorem e180 : k0_pay180 (y0 l0 xA l3 l4 l5 l6 l7 l9) (transpose S32x256 [1, 0] (shapeCast S256x32 (View.ld xD (Rect.unit (s := S32x256x32) ![0, 0, 0] S1x256x32.size inb_S32x256x32_S1x256x32_0_0_0)) shapeCasts_S1x256x32_S256x32) transposes_S256x32_p1_0_S32x256) (transpose S32x256 [1, 0] (shapeCast S256x32 (View.ld xD (Rect.unit (s := S32x256x32) ![1, 0, 0] S1x256x32.size inb_S32x256x32_S1x256x32_1_0_0)) shapeCasts_S1x256x32_S256x32) transposes_S256x32_p1_0_S32x256) (transpose S32x256 [1, 0] (shapeCast S256x32 (View.ld xD (Rect.unit (s := S32x256x32) ![2, 0, 0] S1x256x32.size inb_S32x256x32_S1x256x32_2_0_0)) shapeCasts_S1x256x32_S256x32) transposes_S256x32_p1_0_S32x256) (transpose S32x256 [1, 0] (shapeCast S256x32 (View.ld xD (Rect.unit (s := S32x256x32) ![3, 0, 0] S1x256x32.size inb_S32x256x32_S1x256x32_3_0_0)) shapeCasts_S1x256x32_S256x32) transposes_S256x32_p1_0_S32x256) (transpose S32x256 [1, 0] (shapeCast S256x32 (View.ld xD (Rect.unit (s := S32x256x32) ![4, 0, 0] S1x256x32.size inb_S32x256x32_S1x256x32_4_0_0)) shapeCasts_S1x256x32_S256x32) transposes_S256x32_p1_0_S32x256) (transpose S32x256 [1, 0] (shapeCast S256x32 (View.ld xD (Rect.unit (s := S32x256x32) ![5, 0, 0] S1x256x32.size inb_S32x256x32_S1x256x32_5_0_0)) shapeCasts_S1x256x32_S256x32) transposes_S256x32_p1_0_S32x256) (transpose S32x256 [1, 0] (shapeCast S256x32 (View.ld xD (Rect.unit (s := S32x256x32) ![6, 0, 0] S1x256x32.size inb_S32x256x32_S1x256x32_6_0_0)) shapeCasts_S1x256x32_S256x32) transposes_S256x32_p1_0_S32x256) (transpose S32x256 [1, 0] (shapeCast S256x32 (View.ld xD (Rect.unit (s := S32x256x32) ![7, 0, 0] S1x256x32.size inb_S32x256x32_S1x256x32_7_0_0)) shapeCasts_S1x256x32_S256x32) transposes_S256x32_p1_0_S32x256) (transpose S32x256 [1, 0] (shapeCast S256x32 (View.ld xD (Rect.unit (s := S32x256x32) ![8, 0, 0] S1x256x32.size inb_S32x256x32_S1x256x32_8_0_0)) shapeCasts_S1x256x32_S256x32) transposes_S256x32_p1_0_S32x256) (transpose S32x256 [1, 0] (shapeCast S256x32 (View.ld xD (Rect.unit (s := S32x256x32) ![9, 0, 0] S1x256x32.size inb_S32x256x32_S1x256x32_9_0_0)) shapeCasts_S1x256x32_S256x32) transposes_S256x32_p1_0_S32x256) (transpose S32x256 [1, 0] (shapeCast S256x32 (View.ld xD (Rect.unit (s := S32x256x32) ![10, 0, 0] S1x256x32.size inb_S32x256x32_S1x256x32_10_0_0)) shapeCasts_S1x256x32_S256x32) transposes_S256x32_p1_0_S32x256) (transpose S32x256 [1, 0] (shapeCast S256x32 (View.ld xD (Rect.unit (s := S32x256x32) ![11, 0, 0] S1x256x32.size inb_S32x256x32_S1x256x32_11_0_0)) shapeCasts_S1x256x32_S256x32) transposes_S256x32_p1_0_S32x256) (transpose S32x256 [1, 0] (shapeCast S256x32 (View.ld xD (Rect.unit (s := S32x256x32) ![12, 0, 0] S1x256x32.size inb_S32x256x32_S1x256x32_12_0_0)) shapeCasts_S1x256x32_S256x32) transposes_S256x32_p1_0_S32x256) (transpose S32x256 [1, 0] (shapeCast S256x32 (View.ld xD (Rect.unit (s := S32x256x32) ![13, 0, 0] S1x256x32.size inb_S32x256x32_S1x256x32_13_0_0)) shapeCasts_S1x256x32_S256x32) transposes_S256x32_p1_0_S32x256) (transpose S32x256 [1, 0] (shapeCast S256x32 (View.ld xD (Rect.unit (s := S32x256x32) ![14, 0, 0] S1x256x32.size inb_S32x256x32_S1x256x32_14_0_0)) shapeCasts_S1x256x32_S256x32) transposes_S256x32_p1_0_S32x256) (transpose S32x256 [1, 0] (shapeCast S256x32 (View.ld xD (Rect.unit (s := S32x256x32) ![15, 0, 0] S1x256x32.size inb_S32x256x32_S1x256x32_15_0_0)) shapeCasts_S1x256x32_S256x32) transposes_S256x32_p1_0_S32x256) (transpose S32x256 [1, 0] (shapeCast S256x32 (View.ld xD (Rect.unit (s := S32x256x32) ![16, 0, 0] S1x256x32.size inb_S32x256x32_S1x256x32_16_0_0)) shapeCasts_S1x256x32_S256x32) transposes_S256x32_p1_0_S32x256) (transpose S32x256 [1, 0] (shapeCast S256x32 (View.ld xD (Rect.unit (s := S32x256x32) ![17, 0, 0] S1x256x32.size inb_S32x256x32_S1x256x32_17_0_0)) shapeCasts_S1x256x32_S256x32) transposes_S256x32_p1_0_S32x256) (transpose S32x256 [1, 0] (shapeCast S256x32 (View.ld xD (Rect.unit (s := S32x256x32) ![18, 0, 0] S1x256x32.size inb_S32x256x32_S1x256x32_18_0_0)) shapeCasts_S1x256x32_S256x32) transposes_S256x32_p1_0_S32x256) (transpose S32x256 [1, 0] (shapeCast S256x32 (View.ld xD (Rect.unit (s := S32x256x32) ![19, 0, 0] S1x256x32.size inb_S32x256x32_S1x256x32_19_0_0)) shapeCasts_S1x256x32_S256x32) transposes_S256x32_p1_0_S32x256) (transpose S32x256 [1, 0] (shapeCast S256x32 (View.ld xD (Rect.unit (s := S32x256x32) ![20, 0, 0] S1x256x32.size inb_S32x256x32_S1x256x32_20_0_0)) shapeCasts_S1x256x32_S256x32) transposes_S256x32_p1_0_S32x256) (transpose S32x256 [1, 0] (shapeCast S256x32 (View.ld xD (Rect.unit (s := S32x256x32) ![21, 0, 0] S1x256x32.size inb_S32x256x32_S1x256x32_21_0_0)) shapeCasts_S1x256x32_S256x32) transposes_S256x32_p1_0_S32x256) (View.ld xD (Rect.unit (s := S32x256x32) ![22, 0, 0] S1x256x32.size inb_S32x256x32_S1x256x32_22_0_0)) (View.ld xD (Rect.unit (s := S32x256x32) ![23, 0, 0] S1x256x32.size inb_S32x256x32_S1x256x32_23_0_0)) (View.ld xD (Rect.unit (s := S32x256x32) ![24, 0, 0] S1x256x32.size inb_S32x256x32_S1x256x32_24_0_0)) (View.ld xD (Rect.unit (s := S32x256x32) ![25, 0, 0] S1x256x32.size inb_S32x256x32_S1x256x32_25_0_0)) (View.ld xD (Rect.unit (s := S32x256x32) ![26, 0, 0] S1x256x32.size inb_S32x256x32_S1x256x32_26_0_0)) (View.ld xD (Rect.unit (s := S32x256x32) ![27, 0, 0] S1x256x32.size inb_S32x256x32_S1x256x32_27_0_0)) (View.ld xD (Rect.unit (s := S32x256x32) ![28, 0, 0] S1x256x32.size inb_S32x256x32_S1x256x32_28_0_0)) (View.ld xD (Rect.unit (s := S32x256x32) ![29, 0, 0] S1x256x32.size inb_S32x256x32_S1x256x32_29_0_0)) (View.ld xD (Rect.unit (s := S32x256x32) ![30, 0, 0] S1x256x32.size inb_S32x256x32_S1x256x32_30_0_0)) (View.ld xD (Rect.unit (s := S32x256x32) ![31, 0, 0] S1x256x32.size inb_S32x256x32_S1x256x32_31_0_0)) = (y l0 xA xD l3 l4 l5 l6 l7 l9) := rfl
theorem e181 : k0_pay181 (p2b l9) (y l0 xA xD l3 l4 l5 l6 l7 l9) l8 = (res l0 xA xD l3 l4 l5 l6 l7 l8 l9) := rfl
theorem e182 : k0_pay182 (p2b l9) (y l0 xA xD l3 l4 l5 l6 l7 l9) l8 = (shapeCast S1x256x32 (transpose S256x32 [1, 0] (extractStridedSlice S32x256 ![0, 0] (res l0 xA xD l3 l4 l5 l6 l7 l8 l9) slices_S32x8192_o0_0_S32x256) transposes_S32x256_p1_0_S256x32) shapeCasts_S256x32_S1x256x32) := rfl
theorem e183 : k0_pay183 (p2b l9) (y l0 xA xD l3 l4 l5 l6 l7 l9) l8 = (shapeCast S1x256x32 (transpose S256x32 [1, 0] (extractStridedSlice S32x256 ![0, 256] (res l0 xA xD l3 l4 l5 l6 l7 l8 l9) slices_S32x8192_o0_256_S32x256) transposes_S32x256_p1_0_S256x32) shapeCasts_S256x32_S1x256x32) := rfl
theorem e184 : k0_pay184 (p2b l9) (y l0 xA xD l3 l4 l5 l6 l7 l9) l8 = (shapeCast S1x256x32 (transpose S256x32 [1, 0] (extractStridedSlice S32x256 ![0, 512] (res l0 xA xD l3 l4 l5 l6 l7 l8 l9) slices_S32x8192_o0_512_S32x256) transposes_S32x256_p1_0_S256x32) shapeCasts_S256x32_S1x256x32) := rfl
theorem e185 : k0_pay185 (p2b l9) (y l0 xA xD l3 l4 l5 l6 l7 l9) l8 = (shapeCast S1x256x32 (transpose S256x32 [1, 0] (extractStridedSlice S32x256 ![0, 768] (res l0 xA xD l3 l4 l5 l6 l7 l8 l9) slices_S32x8192_o0_768_S32x256) transposes_S32x256_p1_0_S256x32) shapeCasts_S256x32_S1x256x32) := rfl
theorem e186 : k0_pay186 (p2b l9) (y l0 xA xD l3 l4 l5 l6 l7 l9) l8 = (shapeCast S1x256x32 (transpose S256x32 [1, 0] (extractStridedSlice S32x256 ![0, 1024] (res l0 xA xD l3 l4 l5 l6 l7 l8 l9) slices_S32x8192_o0_1024_S32x256) transposes_S32x256_p1_0_S256x32) shapeCasts_S256x32_S1x256x32) := rfl
theorem e187 : k0_pay187 (p2b l9) (y l0 xA xD l3 l4 l5 l6 l7 l9) l8 = (shapeCast S1x256x32 (transpose S256x32 [1, 0] (extractStridedSlice S32x256 ![0, 1280] (res l0 xA xD l3 l4 l5 l6 l7 l8 l9) slices_S32x8192_o0_1280_S32x256) transposes_S32x256_p1_0_S256x32) shapeCasts_S256x32_S1x256x32) := rfl
theorem e188 : k0_pay188 (res l0 xA xD l3 l4 l5 l6 l7 l8 l9) = (shapeCast S1x256x32 (transpose S256x32 [1, 0] (extractStridedSlice S32x256 ![0, 1536] (res l0 xA xD l3 l4 l5 l6 l7 l8 l9) slices_S32x8192_o0_1536_S32x256) transposes_S32x256_p1_0_S256x32) shapeCasts_S256x32_S1x256x32) := rfl
theorem e189 : k0_pay189 (res l0 xA xD l3 l4 l5 l6 l7 l8 l9) = (shapeCast S1x256x32 (transpose S256x32 [1, 0] (extractStridedSlice S32x256 ![0, 1792] (res l0 xA xD l3 l4 l5 l6 l7 l8 l9) slices_S32x8192_o0_1792_S32x256) transposes_S32x256_p1_0_S256x32) shapeCasts_S256x32_S1x256x32) := rfl
theorem e190 : k0_pay190 (res l0 xA xD l3 l4 l5 l6 l7 l8 l9) = (shapeCast S1x256x32 (transpose S256x32 [1, 0] (extractStridedSlice S32x256 ![0, 2048] (res l0 xA xD l3 l4 l5 l6 l7 l8 l9) slices_S32x8192_o0_2048_S32x256) transposes_S32x256_p1_0_S256x32) shapeCasts_S256x32_S1x256x32) := rfl
theorem e191 : k0_pay191 (res l0 xA xD l3 l4 l5 l6 l7 l8 l9) = (shapeCast S1x256x32 (transpose S256x32 [1, 0] (extractStridedSlice S32x256 ![0, 2304] (res l0 xA xD l3 l4 l5 l6 l7 l8 l9) slices_S32x8192_o0_2304_S32x256) transposes_S32x256_p1_0_S256x32) shapeCasts_S256x32_S1x256x32) := rfl
theorem e192 : k0_pay192 (res l0 xA xD l3 l4 l5 l6 l7 l8 l9) = (shapeCast S1x256x32 (transpose S256x32 [1, 0] (extractStridedSlice S32x256 ![0, 2560] (res l0 xA xD l3 l4 l5 l6 l7 l8 l9) slices_S32x8192_o0_2560_S32x256) transposes_S32x256_p1_0_S256x32) shapeCasts_S256x32_S1x256x32) := rfl
theorem e193 : k0_pay193 (res l0 xA xD l3 l4 l5 l6 l7 l8 l9) = (shapeCast S1x256x32 (transpose S256x32 [1, 0] (extractStridedSlice S32x256 ![0, 2816] (res l0 xA xD l3 l4 l5 l6 l7 l8 l9) slices_S32x8192_o0_2816_S32x256) transposes_S32x256_p1_0_S256x32) shapeCasts_S256x32_S1x256x32) := rfl
theorem e194 : k0_pay194 (res l0 xA xD l3 l4 l5 l6 l7 l8 l9) = (transpose S256x32 [1, 0] (extractStridedSlice S32x256 ![0, 3072] (res l0 xA xD l3 l4 l5 l6 l7 l8 l9) slices_S32x8192_o0_3072_S32x256) transposes_S32x256_p1_0_S256x32) := rfl
theorem e195 : k0_pay195 (transpose S256x32 [1, 0] (extractStridedSlice S32x256 ![0, 3072] (res l0 xA xD l3 l4 l5 l6 l7 l8 l9) slices_S32x8192_o0_3072_S32x256) transposes_S32x256_p1_0_S256x32) = (shapeCast S1x256x32 (transpose S256x32 [1, 0] (extractStridedSlice S32x256 ![0, 3072] (res l0 xA xD l3 l4 l5 l6 l7 l8 l9) slices_S32x8192_o0_3072_S32x256) transposes_S32x256_p1_0_S256x32) shapeCasts_S256x32_S1x256x32) := rfl
theorem e196 : k0_pay196 (res l0 xA xD l3 l4 l5 l6 l7 l8 l9) = (shapeCast S1x256x32 (transpose S256x32 [1, 0] (extractStridedSlice S32x256 ![0, 3328] (res l0 xA xD l3 l4 l5 l6 l7 l8 l9) slices_S32x8192_o0_3328_S32x256) transposes_S32x256_p1_0_S256x32) shapeCasts_S256x32_S1x256x32) := rfl
theorem e197 : k0_pay197 (res l0 xA xD l3 l4 l5 l6 l7 l8 l9) = (shapeCast S1x256x32 (transpose S256x32 [1, 0] (extractStridedSlice S32x256 ![0, 3584] (res l0 xA xD l3 l4 l5 l6 l7 l8 l9) slices_S32x8192_o0_3584_S32x256) transposes_S32x256_p1_0_S256x32) shapeCasts_S256x32_S1x256x32) := rfl
theorem e198 : k0_pay198 (res l0 xA xD l3 l4 l5 l6 l7 l8 l9) = (shapeCast S1x256x32 (transpose S256x32 [1, 0] (extractStridedSlice S32x256 ![0, 3840] (res l0 xA xD l3 l4 l5 l6 l7 l8 l9) slices_S32x8192_o0_3840_S32x256) transposes_S32x256_p1_0_S256x32) shapeCasts_S256x32_S1x256x32) := rfl
theorem e199 : k0_pay199 (res l0 xA xD l3 l4 l5 l6 l7 l8 l9) = (shapeCast S1x256x32 (transpose S256x32 [1, 0] (extractStridedSlice S32x256 ![0, 4096] (res l0 xA xD l3 l4 l5 l6 l7 l8 l9) slices_S32x8192_o0_4096_S32x256) transposes_S32x256_p1_0_S256x32) shapeCasts_S256x32_S1x256x32) := rfl
theorem e200 : k0_pay200 (res l0 xA xD l3 l4 l5 l6 l7 l8 l9) = (shapeCast S1x256x32 (transpose S256x32 [1, 0] (extractStridedSlice S32x256 ![0, 4352] (res l0 xA xD l3 l4 l5 l6 l7 l8 l9) slices_S32x8192_o0_4352_S32x256) transposes_S32x256_p1_0_S256x32) shapeCasts_S256x32_S1x256x32) := rfl
theorem e201 : k0_pay201 (res l0 xA xD l3 l4 l5 l6 l7 l8 l9) = (shapeCast S1x256x32 (transpose S256x32 [1, 0] (extractStridedSlice S32x256 ![0, 4608] (res l0 xA xD l3 l4 l5 l6 l7 l8 l9) slices_S32x8192_o0_4608_S32x256) transposes_S32x256_p1_0_S256x32) shapeCasts_S256x32_S1x256x32) := rfl
theorem e202 : k0_pay202 (res l0 xA xD l3 l4 l5 l6 l7 l8 l9) = (transpose S256x32 [1, 0] (extractStridedSlice S32x256 ![0, 4864] (res l0 xA xD l3 l4 l5 l6 l7 l8 l9) slices_S32x8192_o0_4864_S32x256) transposes_S32x256_p1_0_S256x32) := rfl
theorem e203 : k0_pay203 (transpose S256x32 [1, 0] (extractStridedSlice S32x256 ![0, 4864] (res l0 xA xD l3 l4 l5 l6 l7 l8 l9) slices_S32x8192_o0_4864_S32x256) transposes_S32x256_p1_0_S256x32) = (shapeCast S1x256x32 (transpose S256x32 [1, 0] (extractStridedSlice S32x256 ![0, 4864] (res l0 xA xD l3 l4 l5 l6 l7 l8 l9) slices_S32x8192_o0_4864_S32x256) transposes_S32x256_p1_0_S256x32) shapeCasts_S256x32_S1x256x32) := rfl
theorem e204 : k0_pay204 (res l0 xA xD l3 l4 l5 l6 l7 l8 l9) = (shapeCast S1x256x32 (transpose S256x32 [1, 0] (extractStridedSlice S32x256 ![0, 5120] (res l0 xA xD l3 l4 l5 l6 l7 l8 l9) slices_S32x8192_o0_5120_S32x256) transposes_S32x256_p1_0_S256x32) shapeCasts_S256x32_S1x256x32) := rfl
theorem e205 : k0_pay205 (res l0 xA xD l3 l4 l5 l6 l7 l8 l9) = (shapeCast S1x256x32 (transpose S256x32 [1, 0] (extractStridedSlice S32x256 ![0, 5376] (res l0 xA xD l3 l4 l5 l6 l7 l8 l9) slices_S32x8192_o0_5376_S32x256) transposes_S32x256_p1_0_S256x32) shapeCasts_S256x32_S1x256x32) := rfl
theorem e206 : k0_pay206 (res l0 xA xD l3 l4 l5 l6 l7 l8 l9) = (shapeCast S1x256x32 (transpose S256x32 [1, 0] (extractStridedSlice S32x256 ![0, 5632] (res l0 xA xD l3 l4 l5 l6 l7 l8 l9) slices_S32x8192_o0_5632_S32x256) transposes_S32x256_p1_0_S256x32) shapeCasts_S256x32_S1x256x32) := rfl
theorem e207 : k0_pay207 (res l0 xA xD l3 l4 l5 l6 l7 l8 l9) = (shapeCast S1x256x32 (transpose S256x32 [1, 0] (extractStridedSlice S32x256 ![0, 5888] (res l0 xA xD l3 l4 l5 l6 l7 l8 l9) slices_S32x8192_o0_5888_S32x256) transposes_S32x256_p1_0_S256x32) shapeCasts_S256x32_S1x256x32) := rfl
theorem e208 : k0_pay208 (res l0 xA xD l3 l4 l5 l6 l7 l8 l9) = (shapeCast S1x256x32 (transpose S256x32 [1, 0] (extractStridedSlice S32x256 ![0, 6144] (res l0 xA xD l3 l4 l5 l6 l7 l8 l9) slices_S32x8192_o0_6144_S32x256) transposes_S32x256_p1_0_S256x32) shapeCasts_S256x32_S1x256x32) := rfl
theorem e209 : k0_pay209 (res l0 xA xD l3 l4 l5 l6 l7 l8 l9) = (shapeCast S1x256x32 (transpose S256x32 [1, 0] (extractStridedSlice S32x256 ![0, 6400] (res l0 xA xD l3 l4 l5 l6 l7 l8 l9) slices_S32x8192_o0_6400_S32x256) transposes_S32x256_p1_0_S256x32) shapeCasts_S256x32_S1x256x32) := rfl
theorem e210 : k0_pay210 (res l0 xA xD l3 l4 l5 l6 l7 l8 l9) = (shapeCast S1x256x32 (transpose S256x32 [1, 0] (extractStridedSlice S32x256 ![0, 6656] (res l0 xA xD l3 l4 l5 l6 l7 l8 l9) slices_S32x8192_o0_6656_S32x256) transposes_S32x256_p1_0_S256x32) shapeCasts_S256x32_S1x256x32) := rfl
theorem e211 : k0_pay211 (res l0 xA xD l3 l4 l5 l6 l7 l8 l9) = (shapeCast S1x256x32 (transpose S256x32 [1, 0] (extractStridedSlice S32x256 ![0, 6912] (res l0 xA xD l3 l4 l5 l6 l7 l8 l9) slices_S32x8192_o0_6912_S32x256) transposes_S32x256_p1_0_S256x32) shapeCasts_S256x32_S1x256x32) := rfl
theorem e212 : k0_pay212 (res l0 xA xD l3 l4 l5 l6 l7 l8 l9) = (shapeCast S1x256x32 (transpose S256x32 [1, 0] (extractStridedSlice S32x256 ![0, 7168] (res l0 xA xD l3 l4 l5 l6 l7 l8 l9) slices_S32x8192_o0_7168_S32x256) transposes_S32x256_p1_0_S256x32) shapeCasts_S256x32_S1x256x32) := rfl
theorem e213 : k0_pay213 (res l0 xA xD l3 l4 l5 l6 l7 l8 l9) = (shapeCast S1x256x32 (transpose S256x32 [1, 0] (extractStridedSlice S32x256 ![0, 7424] (res l0 xA xD l3 l4 l5 l6 l7 l8 l9) slices_S32x8192_o0_7424_S32x256) transposes_S32x256_p1_0_S256x32) shapeCasts_S256x32_S1x256x32) := rfl
theorem e214 : k0_pay214 (res l0 xA xD l3 l4 l5 l6 l7 l8 l9) = (transpose S256x32 [1, 0] (extractStridedSlice S32x256 ![0, 7680] (res l0 xA xD l3 l4 l5 l6 l7 l8 l9) slices_S32x8192_o0_7680_S32x256) transposes_S32x256_p1_0_S256x32) := rfl

end Cert.KernelIdeal.Mirror

end
-- ==== Proof.Link.lean ====
/-
  The slabs the body stores are the mirror's: slab g is column block g of the transposed result, transposed back.
-/
import proofs.«122836_g2000103277586728_pallasbulk_447_7_alg».proof.Proof.KernelIdealBody
import proofs.«122836_g2000103277586728_pallasbulk_447_7_alg».proof.Proof.LinkEqs

set_option maxRecDepth 65536

noncomputable section

namespace Cert.KernelIdeal.Mirror

open Cert.KernelIdeal Cert.KernelIdeal.Gen
open Idealize.ShloMosaic Idealize.ShloMosaic.TcCoe Idealize.SL.Sem

variable {F : FTy → Type} [FloatOps F]

/-- The 32 slabs, last stored first: slab g is rows g of the output block's leading axis, and holds column block g of
    `res` transposed back to nodes × features. -/
def pieces (l0 : Vec F S32x256x16 .f32) (xA : Vec F S32x256x256 .f32) (xD : Vec F S32x256x32 .f32)
    (l3 : Vec F S16x128 .f32) (l4 : Vec F S32x128 .f32) (l5 l6 : Vec F S64x32 .f32) (l7 l8 : Vec F S32x32 .f32) (l9 : Vec F S64x16 .f32) :
    List (View.Piece (Elt F) S32x256x32 .f32) :=
  [ ⟨Rect.unit (s := S32x256x32) ![31, 0, 0] S1x256x32.size inb_S32x256x32_S1x256x32_31_0_0, shapeCast S1x256x32 (transpose S256x32 [1, 0] (extractStridedSlice S32x256 ![0, 7936] (res l0 xA xD l3 l4 l5 l6 l7 l8 l9) slices_S32x8192_o0_7936_S32x256) transposes_S32x256_p1_0_S256x32) shapeCasts_S256x32_S1x256x32⟩,
    ⟨Rect.unit (s := S32x256x32) ![30, 0, 0] S1x256x32.size inb_S32x256x32_S1x256x32_30_0_0, shapeCast S1x256x32 (transpose S256x32 [1, 0] (extractStridedSlice S32x256 ![0, 7680] (res l0 xA xD l3 l4 l5 l6 l7 l8 l9) slices_S32x8192_o0_7680_S32x256) transposes_S32x256_p1_0_S256x32) shapeCasts_S256x32_S1x256x32⟩,
    ⟨Rect.unit (s := S32x256x32) ![29, 0, 0] S1x256x32.size inb_S32x256x32_S1x256x32_29_0_0, shapeCast S1x256x32 (transpose S256x32 [1, 0] (extractStridedSlice S32x256 ![0, 7424] (res l0 xA xD l3 l4 l5 l6 l7 l8 l9) slices_S32x8192_o0_7424_S32x256) transposes_S32x256_p1_0_S256x32) shapeCasts_S256x32_S1x256x32⟩,
    ⟨Rect.unit (s := S32x256x32) ![28, 0, 0] S1x256x32.size inb_S32x256x32_S1x256x32_28_0_0, shapeCast S1x256x32 (transpose S256x32 [1, 0] (extractStridedSlice S32x256 ![0, 7168] (res l0 xA xD l3 l4 l5 l6 l7 l8 l9) slices_S32x8192_o0_7168_S32x256) transposes_S32x256_p1_0_S256x32) shapeCasts_S256x32_S1x256x32⟩,
    ⟨Rect.unit (s := S32x256x32) ![27, 0, 0] S1x256x32.size inb_S32x256x32_S1x256x32_27_0_0, shapeCast S1x256x32 (transpose S256x32 [1, 0] (extractStridedSlice S32x256 ![0, 6912] (res l0 xA xD l3 l4 l5 l6 l7 l8 l9) slices_S32x8192_o0_6912_S32x256) transposes_S32x256_p1_0_S256x32) shapeCasts_S256x32_S1x256x32⟩,
    ⟨Rect.unit (s := S32x256x32) ![26, 0, 0] S1x256x32.size inb_S32x256x32_S1x256x32_26_0_0, shapeCast S1x256x32 (transpose S256x32 [1, 0] (extractStridedSlice S32x256 ![0, 6656] (res l0 xA xD l3 l4 l5 l6 l7 l8 l9) slices_S32x8192_o0_6656_S32x256) transposes_S32x256_p1_0_S256x32) shapeCasts_S256x32_S1x256x32⟩,
    ⟨Rect.unit (s := S32x256x32) ![25, 0, 0] S1x256x32.size inb_S32x256x32_S1x256x32_25_0_0, shapeCast S1x256x32 (transpose S256x32 [1, 0] (extractStridedSlice S32x256 ![0, 6400] (res l0 xA xD l3 l4 l5 l6 l7 l8 l9) slices_S32x8192_o0_6400_S32x256) transposes_S32x256_p1_0_S256x32) shapeCasts_S256x32_S1x256x32⟩,
    ⟨Rect.unit (s := S32x256x32) ![24, 0, 0] S1x256x32.size inb_S32x256x32_S1x256x32_24_0_0, shapeCast S1x256x32 (transpose S256x32 [1, 0] (extractStridedSlice S32x256 ![0, 6144] (res l0 xA xD l3 l4 l5 l6 l7 l8 l9) slices_S32x8192_o0_6144_S32x256) transposes_S32x256_p1_0_S256x32) shapeCasts_S256x32_S1x256x32⟩,
    ⟨Rect.unit (s := S32x256x32) ![23, 0, 0] S1x256x32.size inb_S32x256x32_S1x256x32_23_0_0, shapeCast S1x256x32 (transpose S256x32 [1, 0] (extractStridedSlice S32x256 ![0, 5888] (res l0 xA xD l3 l4 l5 l6 l7 l8 l9) slices_S32x8192_o0_5888_S32x256) transposes_S32x256_p1_0_S256x32) shapeCasts_S256x32_S1x256x32⟩,
    ⟨Rect.unit (s := S32x256x32) ![22, 0, 0] S1x256x32.size inb_S32x256x32_S1x256x32_22_0_0, shapeCast S1x256x32 (transpose S256x32 [1, 0] (extractStridedSlice S32x256 ![0, 5632] (res l0 xA xD l3 l4 l5 l6 l7 l8 l9) slices_S32x8192_o0_5632_S32x256) transposes_S32x256_p1_0_S256x32) shapeCasts_S256x32_S1x256x32⟩,
    ⟨Rect.unit (s := S32x256x32) ![21, 0, 0] S1x256x32.size inb_S32x256x32_S1x256x32_21_0_0, shapeCast S1x256x32 (transpose S256x32 [1, 0] (extractStridedSlice S32x256 ![0, 5376] (res l0 xA xD l3 l4 l5 l6 l7 l8 l9) slices_S32x8192_o0_5376_S32x256) transposes_S32x256_p1_0_S256x32) shapeCasts_S256x32_S1x256x32⟩,
    ⟨Rect.unit (s := S32x256x32) ![20, 0, 0] S1x256x32.size inb_S32x256x32_S1x256x32_20_0_0, shapeCast S1x256x32 (transpose S256x32 [1, 0] (extractStridedSlice S32x256 ![0, 5120] (res l0 xA xD l3 l4 l5 l6 l7 l8 l9) slices_S32x8192_o0_5120_S32x256) transposes_S32x256_p1_0_S256x32) shapeCasts_S256x32_S1x256x32⟩,
    ⟨Rect.unit (s := S32x256x32) ![19, 0, 0] S1x256x32.size inb_S32x256x32_S1x256x32_19_0_0, shapeCast S1x256x32 (transpose S256x32 [1, 0] (extractStridedSlice S32x256 ![0, 4864] (res l0 xA xD l3 l4 l5 l6 l7 l8 l9) slices_S32x8192_o0_4864_S32x256) transposes_S32x256_p1_0_S256x32) shapeCasts_S256x32_S1x256x32⟩,
    ⟨Rect.unit (s := S32x256x32) ![18, 0, 0] S1x256x32.size inb_S32x256x32_S1x256x32_18_0_0, shapeCast S1x256x32 (transpose S256x32 [1, 0] (extractStridedSlice S32x256 ![0, 4608] (res l0 xA xD l3 l4 l5 l6 l7 l8 l9) slices_S32x8192_o0_4608_S32x256) transposes_S32x256_p1_0_S256x32) shapeCasts_S256x32_S1x256x32⟩,
    ⟨Rect.unit (s := S32x256x32) ![17, 0, 0] S1x256x32.size inb_S32x256x32_S1x256x32_17_0_0, shapeCast S1x256x32 (transpose S256x32 [1, 0] (extractStridedSlice S32x256 ![0, 4352] (res l0 xA xD l3 l4 l5 l6 l7 l8 l9) slices_S32x8192_o0_4352_S32x256) transposes_S32x256_p1_0_S256x32) shapeCasts_S256x32_S1x256x32⟩,
    ⟨Rect.unit (s := S32x256x32) ![16, 0, 0] S1x256x32.size inb_S32x256x32_S1x256x32_16_0_0, shapeCast S1x256x32 (transpose S256x32 [1, 0] (extractStridedSlice S32x256 ![0, 4096] (res l0 xA xD l3 l4 l5 l6 l7 l8 l9) slices_S32x8192_o0_4096_S32x256) transposes_S32x256_p1_0_S256x32) shapeCasts_S256x32_S1x256x32⟩,
    ⟨Rect.unit (s := S32x256x32) ![15, 0, 0] S1x256x32.size inb_S32x256x32_S1x256x32_15_0_0, shapeCast S1x256x32 (transpose S256x32 [1, 0] (extractStridedSlice S32x256 ![0, 3840] (res l0 xA xD l3 l4 l5 l6 l7 l8 l9) slices_S32x8192_o0_3840_S32x256) transposes_S32x256_p1_0_S256x32) shapeCasts_S256x32_S1x256x32⟩,
    ⟨Rect.unit (s := S32x256x32) ![14, 0, 0] S1x256x32.size inb_S32x256x32_S1x256x32_14_0_0, shapeCast S1x256x32 (transpose S256x32 [1, 0] (extractStridedSlice S32x256 ![0, 3584] (res l0 xA xD l3 l4 l5 l6 l7 l8 l9) slices_S32x8192_o0_3584_S32x256) transposes_S32x256_p1_0_S256x32) shapeCasts_S256x32_S1x256x32⟩,
    ⟨Rect.unit (s := S32x256x32) ![13, 0, 0] S1x256x32.size inb_S32x256x32_S1x256x32_13_0_0, shapeCast S1x256x32 (transpose S256x32 [1, 0] (extractStridedSlice S32x256 ![0, 3328] (res l0 xA xD l3 l4 l5 l6 l7 l8 l9) slices_S32x8192_o0_3328_S32x256) transposes_S32x256_p1_0_S256x32) shapeCasts_S256x32_S1x256x32⟩,
    ⟨Rect.unit (s := S32x256x32) ![12, 0, 0] S1x256x32.size inb_S32x256x32_S1x256x32_12_0_0, shapeCast S1x256x32 (transpose S256x32 [1, 0] (extractStridedSlice S32x256 ![0, 3072] (res l0 xA xD l3 l4 l5 l6 l7 l8 l9) slices_S32x8192_o0_3072_S32x256) transposes_S32x256_p1_0_S256x32) shapeCasts_S256x32_S1x256x32⟩,
    ⟨Rect.unit (s := S32x256x32) ![11, 0, 0] S1x256x32.size inb_S32x256x32_S1x256x32_11_0_0, shapeCast S1x256x32 (transpose S256x32 [1, 0] (extractStridedSlice S32x256 ![0, 2816] (res l0 xA xD l3 l4 l5 l6 l7 l8 l9) slices_S32x8192_o0_2816_S32x256) transposes_S32x256_p1_0_S256x32) shapeCasts_S256x32_S1x256x32⟩,
    ⟨Rect.unit (s := S32x256x32) ![10, 0, 0] S1x256x32.size inb_S32x256x32_S1x256x32_10_0_0, shapeCast S1x256x32 (transpose S256x32 [1, 0] (extractStridedSlice S32x256 ![0, 2560] (res l0 xA xD l3 l4 l5 l6 l7 l8 l9) slices_S32x8192_o0_2560_S32x256) transposes_S32x256_p1_0_S256x32) shapeCasts_S256x32_S1x256x32⟩,
    ⟨Rect.unit (s := S32x256x32) ![9, 0, 0] S1x256x32.size inb_S32x256x32_S1x256x32_9_0_0, shapeCast S1x256x32 (transpose S256x32 [1, 0] (extractStridedSlice S32x256 ![0, 2304] (res l0 xA xD l3 l4 l5 l6 l7 l8 l9) slices_S32x8192_o0_2304_S32x256) transposes_S32x256_p1_0_S256x32) shapeCasts_S256x32_S1x256x32⟩,
    ⟨Rect.unit (s := S32x256x32) ![8, 0, 0] S1x256x32.size inb_S32x256x32_S1x256x32_8_0_0, shapeCast S1x256x32 (transpose S256x32 [1, 0] (extractStridedSlice S32x256 ![0, 2048] (res l0 xA xD l3 l4 l5 l6 l7 l8 l9) slices_S32x8192_o0_2048_S32x256) transposes_S32x256_p1_0_S256x32) shapeCasts_S256x32_S1x256x32⟩,
    ⟨Rect.unit (s := S32x256x32) ![7, 0, 0] S1x256x32.size inb_S32x256x32_S1x256x32_7_0_0, shapeCast S1x256x32 (transpose S256x32 [1, 0] (extractStridedSlice S32x256 ![0, 1792] (res l0 xA xD l3 l4 l5 l6 l7 l8 l9) slices_S32x8192_o0_1792_S32x256) transposes_S32x256_p1_0_S256x32) shapeCasts_S256x32_S1x256x32⟩,
    ⟨Rect.unit (s := S32x256x32) ![6, 0, 0] S1x256x32.size inb_S32x256x32_S1x256x32_6_0_0, shapeCast S1x256x32 (transpose S256x32 [1, 0] (extractStridedSlice S32x256 ![0, 1536] (res l0 xA xD l3 l4 l5 l6 l7 l8 l9) slices_S32x8192_o0_1536_S32x256) transposes_S32x256_p1_0_S256x32) shapeCasts_S256x32_S1x256x32⟩,
    ⟨Rect.unit (s := S32x256x32) ![5, 0, 0] S1x256x32.size inb_S32x256x32_S1x256x32_5_0_0, shapeCast S1x256x32 (transpose S256x32 [1, 0] (extractStridedSlice S32x256 ![0, 1280] (res l0 xA xD l3 l4 l5 l6 l7 l8 l9) slices_S32x8192_o0_1280_S32x256) transposes_S32x256_p1_0_S256x32) shapeCasts_S256x32_S1x256x32⟩,
    ⟨Rect.unit (s := S32x256x32) ![4, 0, 0] S1x256x32.size inb_S32x256x32_S1x256x32_4_0_0, shapeCast S1x256x32 (transpose S256x32 [1, 0] (extractStridedSlice S32x256 ![0, 1024] (res l0 xA xD l3 l4 l5 l6 l7 l8 l9) slices_S32x8192_o0_1024_S32x256) transposes_S32x256_p1_0_S256x32) shapeCasts_S256x32_S1x256x32⟩,
    ⟨Rect.unit (s := S32x256x32) ![3, 0, 0] S1x256x32.size inb_S32x256x32_S1x256x32_3_0_0, shapeCast S1x256x32 (transpose S256x32 [1, 0] (extractStridedSlice S32x256 ![0, 768] (res l0 xA xD l3 l4 l5 l6 l7 l8 l9) slices_S32x8192_o0_768_S32x256) transposes_S32x256_p1_0_S256x32) shapeCasts_S256x32_S1x256x32⟩,
    ⟨Rect.unit (s := S32x256x32) ![2, 0, 0] S1x256x32.size inb_S32x256x32_S1x256x32_2_0_0, shapeCast S1x256x32 (transpose S256x32 [1, 0] (extractStridedSlice S32x256 ![0, 512] (res l0 xA xD l3 l4 l5 l6 l7 l8 l9) slices_S32x8192_o0_512_S32x256) transposes_S32x256_p1_0_S256x32) shapeCasts_S256x32_S1x256x32⟩,
    ⟨Rect.unit (s := S32x256x32) ![1, 0, 0] S1x256x32.size inb_S32x256x32_S1x256x32_1_0_0, shapeCast S1x256x32 (transpose S256x32 [1, 0] (extractStridedSlice S32x256 ![0, 256] (res l0 xA xD l3 l4 l5 l6 l7 l8 l9) slices_S32x8192_o0_256_S32x256) transposes_S32x256_p1_0_S256x32) shapeCasts_S256x32_S1x256x32⟩,
    ⟨Rect.unit (s := S32x256x32) ![0, 0, 0] S1x256x32.size inb_S32x256x32_S1x256x32_0_0_0, shapeCast S1x256x32 (transpose S256x32 [1, 0] (extractStridedSlice S32x256 ![0, 0] (res l0 xA xD l3 l4 l5 l6 l7 l8 l9) slices_S32x8192_o0_0_S32x256) transposes_S32x256_p1_0_S256x32) shapeCasts_S256x32_S1x256x32⟩ ]

theorem hz2 : (![0, 0] : Fin 2 → Nat) = fun _ => 0 := by
  funext a; match a with | ⟨0, _⟩ => rfl | ⟨1, _⟩ => rfl
theorem hz3 : (![0, 0, 0] : Fin 3 → Nat) = fun _ => 0 := by
  funext a; match a with | ⟨0, _⟩ => rfl | ⟨1, _⟩ => rfl | ⟨2, _⟩ => rfl

set_option maxHeartbeats 4000000 in
/-- What the body's run found is this list, over the blocks its buffers hold. -/
theorem pieces_eq (c : Dev nD) (i : grid0.Coords) (arg1 : Memref sig .tc .vmem S32x256x16 .f32) (harg1 : arg1.IsWhole) (arg2 : Memref sig .tc .vmem S32x256x256 .f32) (harg2 : arg2.IsWhole) (arg3 : Memref sig .tc .vmem S32x256x32 .f32) (harg3 : arg3.IsWhole) (arg4 : Memref sig .tc .vmem S16x128 .f32) (harg4 : arg4.IsWhole) (arg5 : Memref sig .tc .vmem S32x128 .f32) (harg5 : arg5.IsWhole) (arg6 : Memref sig .tc .vmem S64x32 .f32) (harg6 : arg6.IsWhole) (arg7 : Memref sig .tc .vmem S64x32 .f32) (harg7 : arg7.IsWhole) (arg8 : Memref sig .tc .vmem S32x32 .f32) (harg8 : arg8.IsWhole) (arg9 : Memref sig .tc .vmem S32x32 .f32) (harg9 : arg9.IsWhole) (arg10 : Memref sig .tc .vmem S64x16 .f32) (harg10 : arg10.IsWhole) (arg11 : Memref sig .tc .vmem S32x256x32 .f32) (harg11 : arg11.IsWhole)
    (x0 : Vec F S32x256x16 .f32) (x1 : Vec F S32x256x256 .f32) (x2 : Vec F S32x256x32 .f32) (x3 : Vec F S16x128 .f32) (x4 : Vec F S32x128 .f32) (x5 : Vec F S64x32 .f32) (x6 : Vec F S64x32 .f32) (x7 : Vec F S32x32 .f32) (x8 : Vec F S32x32 .f32) (x9 : Vec F S64x16 .f32) :
    (Cert.KernelIdeal.Body.kernelRun c i arg1 harg1 arg2 harg2 arg3 harg3 arg4 harg4 arg5 harg5 arg6 harg6 arg7 harg7 arg8 harg8 arg9 harg9 arg10 harg10 arg11 harg11 x0 x1 x2 x3 x4 x5 x6 x7 x8 x9).1
      = pieces x0 x1 x2 x3 x4 x5 x6 x7 x8 x9 := by
  unfold Cert.KernelIdeal.Body.kernelRun
  dsimp only
  simp only [View.readAt_eq_ld, Memref.IsWhole.read_unread]
  simp only [View.ld_unit_zero (S := S32x256x16) hz3, View.ld_unit_zero (S := S16x128) hz2, View.ld_unit_zero (S := S32x128) hz2,
    View.ld_unit_zero (S := S64x32) hz2, View.ld_unit_zero (S := S32x32) hz2, View.ld_unit_zero (S := S64x16) hz2]
  simp only [e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43, e44, e45, e46, e47, e48, e49, e50, e51, e52, e53, e54, e55, e56, e57, e58, e59, e60, e61, e62, e63, e64, e65, e66, e67, e68, e69, e70, e71, e72, e73, e74, e75, e76, e77, e78, e79, e80, e81, e82, e83, e84, e85, e86, e87, e88, e89, e90, e91, e92, e93, e94, e95, e96, e97, e98, e99, e100, e101, e102, e103, e104, e105, e106, e107, e108, e109, e110, e111, e112, e113, e114, e115, e116, e117, e118, e119, e120, e121, e122, e123, e124, e125, e126, e127, e128, e129, e130, e131, e132, e133, e134, e135, e136, e137, e138, e139, e140, e141, e142, e143, e144, e145, e146, e147, e148, e149, e150, e151, e152, e153, e154, e155, e156, e157, e158, e159, e160, e161, e162, e163, e164, e165, e166, e167, e168, e169, e170, e171, e172, e173, e174, e175, e176, e177, e178, e179, e180, e181, e182, e183, e184, e185, e186, e187, e188, e189, e190, e191, e192, e193, e194, e195, e196, e197, e198, e199, e200, e201, e202, e203, e204, e205, e206, e207, e208, e209, e210, e211, e212, e213, e214]
  rfl

end Cert.KernelIdeal.Mirror

end
-- ==== Proof.Spec.lean ====
/-
  The function both programs compute, for ONE graph.

  A graph has 256 nodes. `X v k` are its 16 input features per node, `A v u` the weight of the edge from node u into
  node v, `D v c` the dropout scale. The parameters are six weight matrices and ten bias vectors (`Params`); the
  reference reads them out of one [368, 64] slab at fixed rows (`Params.ofSlab`), the kernel out of arrays repacked
  from the same slab.

  One round, on node features `Xin` with K columns:
    hl   = Xin · [l1 | l2] + b                          64 columns
    cat  = relu [ A · hl (first 32 columns) | hl (last 32 columns) ]
    w    = relu (cat · m1 + m1b)                        32 columns
    mask = logistic (Σ_c w[·, c] · m2w[c] + m2b)        one value per node, always a real in [0, 1]
  and the masked convolution of features `Xs` with K columns by a mask:
    pr   = Xs · [w | lin]                               64 columns
    conv = (A · (mask ⊙ pr[first 32]) + pr[last 32]) ⊙ mask
  Round 0 takes Xin = Xs = X. Round 1 takes Xs = x1 = relu conv0 and Xin = x1 ⊙ mask0. Then
    y = relu (x2 · p1 + p1b) ⊙ D,  out = y · p2 + p2b,  with x2 = relu conv1.
  Sums and products are those of the extended reals.
-/
import Idealize.ShloMosaic.PureOps.Ideal
import Idealize.ShloMosaic.Lib.ValueIdx

noncomputable section

namespace Cert.Spec

open Idealize.ShloMosaic Idealize.ShloMosaic.ValueIdx

/-- Column c of the first 32 of 64, and of the last 32. -/
abbrev lo (c : Fin 32) : Fin 64 := ⟨c.val, Nat.lt_of_lt_of_le c.isLt (by decide)⟩
abbrev hi (c : Fin 32) : Fin 64 := ⟨32 + c.val, by have := c.isLt; omega⟩
/-- Column c of the first 64 of 128, and of the last 64. -/
abbrev lo128 (c : Fin 64) : Fin 128 := ⟨c.val, Nat.lt_of_lt_of_le c.isLt (by decide)⟩
abbrev hi128 (c : Fin 64) : Fin 128 := ⟨64 + c.val, by have := c.isLt; omega⟩

/-- The parameters: per round r ∈ {0, 1} the stacked input projection `w r` = [l1 | l2 | w | lin] (128 columns: the
    weight-conv's two linear maps, then the convolution's weight and its linear map), the weight-conv's hidden matrix
    `m1 r` and its vectors; then the two dense layers. -/
structure Params where
  w0 : Fin 16 → Fin 128 → EReal
  w1 : Fin 32 → Fin 128 → EReal
  m10 : Fin 64 → Fin 32 → EReal
  m11 : Fin 64 → Fin 32 → EReal
  p1 : Fin 32 → Fin 32 → EReal
  p2 : Fin 32 → Fin 32 → EReal
  l12b0 : Fin 64 → EReal
  m1b0 : Fin 32 → EReal
  m2w0 : Fin 32 → EReal
  m2b0 : EReal
  l12b1 : Fin 64 → EReal
  m1b1 : Fin 32 → EReal
  m2w1 : Fin 32 → EReal
  m2b1 : EReal
  p1b : Fin 32 → EReal
  p2b : Fin 32 → EReal

/-- Row `off + k` of the slab. -/
abbrev prow (off : ℕ) {n : ℕ} (k : Fin n) (h : off + n ≤ 368) : Fin 368 :=
  ⟨off + k.val, Nat.lt_of_lt_of_le (Nat.add_lt_add_left k.isLt off) h⟩

/-- The parameters as the slab holds them. -/
def Params.ofSlab (P : Fin 368 → Fin 64 → EReal) : Params where
  w0 k c := if h : c.val < 64 then P (prow 0 k (by decide)) ⟨c.val, h⟩ else P (prow 80 k (by decide)) ⟨c.val - 64, by have := c.isLt; omega⟩
  w1 k c := if h : c.val < 64 then P (prow 96 k (by decide)) ⟨c.val, h⟩ else P (prow 192 k (by decide)) ⟨c.val - 64, by have := c.isLt; omega⟩
  m10 k c := P (prow 16 k (by decide)) (lo c)
  m11 k c := P (prow 128 k (by decide)) (lo c)
  p1 k c := P (prow 224 k (by decide)) (lo c)
  p2 k c := P (prow 256 k (by decide)) (lo c)
  l12b0 c := P ⟨288, by decide⟩ c
  m1b0 c := P ⟨296, by decide⟩ (lo c)
  m2w0 c := P ⟨304, by decide⟩ (lo c)
  m2b0 := P ⟨312, by decide⟩ ⟨0, by decide⟩
  l12b1 c := P ⟨320, by decide⟩ c
  m1b1 c := P ⟨328, by decide⟩ (lo c)
  m2w1 c := P ⟨336, by decide⟩ (lo c)
  m2b1 := P ⟨344, by decide⟩ ⟨0, by decide⟩
  p1b c := P ⟨352, by decide⟩ (lo c)
  p2b c := P ⟨360, by decide⟩ (lo c)

/-- The parameters as the kernel's staged arrays hold them: the two stacked projections [16, 128] and [32, 128], the two
    hidden matrices [64, 32], the two dense matrices [32, 32], and the [64, 16] array whose columns 0 … 9 are the ten
    bias vectors (each from row 0 down). -/
def Params.ofWindows (a3 : (⟨2, ![16, 128]⟩ : Shape).Idx → EReal) (a4 : (⟨2, ![32, 128]⟩ : Shape).Idx → EReal)
    (a5 a6 : (⟨2, ![64, 32]⟩ : Shape).Idx → EReal) (a7 a8 : (⟨2, ![32, 32]⟩ : Shape).Idx → EReal)
    (a9 : (⟨2, ![64, 16]⟩ : Shape).Idx → EReal) : Params where
  w0 k c := a3 (ix2 k c)
  w1 k c := a4 (ix2 k c)
  m10 k c := a5 (ix2 k c)
  m11 k c := a6 (ix2 k c)
  p1 k c := a7 (ix2 k c)
  p2 k c := a8 (ix2 k c)
  l12b0 c := a9 (ix2 c (0 : Fin 16))
  m1b0 c := a9 (ix2 (lo c) (1 : Fin 16))
  m2w0 c := a9 (ix2 (lo c) (2 : Fin 16))
  m2b0 := a9 (ix2 (0 : Fin 64) (3 : Fin 16))
  l12b1 c := a9 (ix2 c (4 : Fin 16))
  m1b1 c := a9 (ix2 (lo c) (5 : Fin 16))
  m2w1 c := a9 (ix2 (lo c) (6 : Fin 16))
  m2b1 := a9 (ix2 (0 : Fin 64) (7 : Fin 16))
  p1b c := a9 (ix2 (lo c) (8 : Fin 16))
  p2b c := a9 (ix2 (lo c) (9 : Fin 16))

variable (A : Fin 256 → Fin 256 → EReal)

/-! ## One round, over abstract weights -/

section Round
variable {K : ℕ} (W : Fin K → Fin 128 → EReal) (m1 : Fin 64 → Fin 32 → EReal)
  (l12b : Fin 64 → EReal) (m1b m2w : Fin 32 → EReal) (m2b : EReal)

/-- `Xin · [l1 | l2] + b`. -/
def hl (Xin : Fin 256 → Fin K → EReal) (v : Fin 256) (c : Fin 64) : EReal :=
  (∑ k : Fin K, Xin v k * W k (lo128 c)) + l12b c
/-- `A · hl`. -/
def agg (Xin : Fin 256 → Fin K → EReal) (v : Fin 256) (c : Fin 64) : EReal :=
  ∑ u : Fin 256, A v u * hl W l12b Xin u c
/-- relu of [aggregated first half | own second half]. -/
def cat (Xin : Fin 256 → Fin K → EReal) (v : Fin 256) (c : Fin 64) : EReal :=
  max (if c.val < 32 then agg A W l12b Xin v c else hl W l12b Xin v c) 0
/-- The hidden layer of the mask. -/
def hid (Xin : Fin 256 → Fin K → EReal) (v : Fin 256) (c : Fin 32) : EReal :=
  max ((∑ k : Fin 64, cat A W l12b Xin v k * m1 k c) + m1b c) 0
/-- The node mask: a logistic value. -/
def mask (Xin : Fin 256 → Fin K → EReal) (v : Fin 256) : EReal :=
  Ideal.logistic ((∑ c : Fin 32, hid A W m1 l12b m1b Xin v c * m2w c) + m2b)
/-- `Xs · [w | lin]`, 64 columns. -/
def pr (Xs : Fin 256 → Fin K → EReal) (v : Fin 256) (c : Fin 64) : EReal :=
  ∑ k : Fin K, Xs v k * W k (hi128 c)
/-- The masked convolution. -/
def conv (Xs : Fin 256 → Fin K → EReal) (mk : Fin 256 → EReal) (v : Fin 256) (c : Fin 32) : EReal :=
  ((∑ u : Fin 256, A v u * (mk u * pr W Xs u (lo c))) + pr W Xs v (hi c)) * mk v

end Round

/-! ## The two rounds and the dense layers -/

variable (p : Params) (X : Fin 256 → Fin 16 → EReal) (D : Fin 256 → Fin 32 → EReal)

def mask0 (v : Fin 256) : EReal := mask A p.w0 p.m10 p.l12b0 p.m1b0 p.m2w0 p.m2b0 X v
def x1 (v : Fin 256) (c : Fin 32) : EReal := max (conv A p.w0 X (mask0 A p X) v c) 0
/-- Round 1's weight-conv input: the features scaled by the first mask. -/
def x1m (v : Fin 256) (c : Fin 32) : EReal := x1 A p X v c * mask0 A p X v
def mask1 (v : Fin 256) : EReal := mask A p.w1 p.m11 p.l12b1 p.m1b1 p.m2w1 p.m2b1 (x1m A p X) v
def x2 (v : Fin 256) (c : Fin 32) : EReal := max (conv A p.w1 (x1 A p X) (mask1 A p X) v c) 0
def y (v : Fin 256) (c : Fin 32) : EReal := max ((∑ k : Fin 32, x2 A p X v k * p.p1 k c) + p.p1b c) 0 * D v c
/-- The result: 32 features per node. -/
def out (v : Fin 256) (c : Fin 32) : EReal := (∑ k : Fin 32, y A p X D v k * p.p2 k c) + p.p2b c

/-! ## All 256 graphs -/

/-- Graph b's result with parameters `p`, from the whole argument arrays. -/
def outOf (p : Params) (x : (⟨3, ![256, 256, 16]⟩ : Shape).Idx → EReal) (adj : (⟨3, ![256, 256, 256]⟩ : Shape).Idx → EReal)
    (drop : (⟨3, ![256, 256, 32]⟩ : Shape).Idx → EReal) (b v : Fin 256) (c : Fin 32) : EReal :=
  out (fun v u => adj (ix3 b v u)) p (fun v k => x (ix3 b v k)) (fun v k => drop (ix3 b v k)) v c

/-- The whole result array [256, 256, 32] from the four argument arrays: graph b's rows are `out` of graph b's features,
    adjacency and dropout scale under the slab's parameters. -/
def G (x : (⟨3, ![256, 256, 16]⟩ : Shape).Idx → EReal) (adj : (⟨3, ![256, 256, 256]⟩ : Shape).Idx → EReal)
    (slab : (⟨2, ![368, 64]⟩ : Shape).Idx → EReal) (drop : (⟨3, ![256, 256, 32]⟩ : Shape).Idx → EReal) :
    (⟨3, ![256, 256, 32]⟩ : Shape).Idx → EReal :=
  fun i => outOf (Params.ofSlab fun r q => slab (ix2 r q)) x adj drop (i 0) (i 1) (i 2)

theorem G_apply (x : (⟨3, ![256, 256, 16]⟩ : Shape).Idx → EReal) (adj : (⟨3, ![256, 256, 256]⟩ : Shape).Idx → EReal)
    (slab : (⟨2, ![368, 64]⟩ : Shape).Idx → EReal) (drop : (⟨3, ![256, 256, 32]⟩ : Shape).Idx → EReal) (b v : Fin 256) (c : Fin 32) :
    G x adj slab drop (ix3 b v c) = outOf (Params.ofSlab fun r q => slab (ix2 r q)) x adj drop b v c := rfl

end Cert.Spec

end
-- ==== Proof.KCols.lean ====
/-
  The two steps of the kernel body that are not column by column, read at a column: the adjacency pass and the
  transposed dropout scale. Column 256 g + v is node v of graph g.
-/
import proofs.«122836_g2000103277586728_pallasbulk_447_7_alg».proof.Proof.Mirror
import proofs.«122836_g2000103277586728_pallasbulk_447_7_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KCols

open Cert.KernelIdeal Cert.KernelIdeal.Gen Cert.KernelIdeal.Mirror
open Idealize.ShloMosaic Idealize.ShloMosaic.ValueIdx Idealize.SL.Sem

/-- The column of node v of graph g. -/
abbrev col (g : Fin 32) (v : Fin 256) : Fin 8192 := ⟨256 * g.val + v.val, by have := g.isLt; have := v.isLt; omega⟩

/-! ### A concatenation of 32 blocks of 256 columns, read at a column -/

/-- Thirty-two [32, 256] blocks set side by side, read at column 256 g + v: block g at column v. -/
theorem cat32_apply {α : Type} (p : Fin 32 → (S32x256.Idx → α))
    (h : Shape.Concatenates (([⟨S32x256, p 0⟩, ⟨S32x256, p 1⟩, ⟨S32x256, p 2⟩, ⟨S32x256, p 3⟩, ⟨S32x256, p 4⟩, ⟨S32x256, p 5⟩, ⟨S32x256, p 6⟩, ⟨S32x256, p 7⟩, ⟨S32x256, p 8⟩, ⟨S32x256, p 9⟩, ⟨S32x256, p 10⟩, ⟨S32x256, p 11⟩, ⟨S32x256, p 12⟩, ⟨S32x256, p 13⟩, ⟨S32x256, p 14⟩, ⟨S32x256, p 15⟩, ⟨S32x256, p 16⟩, ⟨S32x256, p 17⟩, ⟨S32x256, p 18⟩, ⟨S32x256, p 19⟩, ⟨S32x256, p 20⟩, ⟨S32x256, p 21⟩, ⟨S32x256, p 22⟩, ⟨S32x256, p 23⟩, ⟨S32x256, p 24⟩, ⟨S32x256, p 25⟩, ⟨S32x256, p 26⟩, ⟨S32x256, p 27⟩, ⟨S32x256, p 28⟩, ⟨S32x256, p 29⟩, ⟨S32x256, p 30⟩, ⟨S32x256, p 31⟩] : List ((s : Shape) × (s.Idx → α))).map (·.1)) S32x8192 1)
    (c : Fin 32) (g : Fin 32) (v : Fin 256) :
    concatenate S32x8192 1 [⟨S32x256, p 0⟩, ⟨S32x256, p 1⟩, ⟨S32x256, p 2⟩, ⟨S32x256, p 3⟩, ⟨S32x256, p 4⟩, ⟨S32x256, p 5⟩, ⟨S32x256, p 6⟩, ⟨S32x256, p 7⟩, ⟨S32x256, p 8⟩, ⟨S32x256, p 9⟩, ⟨S32x256, p 10⟩, ⟨S32x256, p 11⟩, ⟨S32x256, p 12⟩, ⟨S32x256, p 13⟩, ⟨S32x256, p 14⟩, ⟨S32x256, p 15⟩, ⟨S32x256, p 16⟩, ⟨S32x256, p 17⟩, ⟨S32x256, p 18⟩, ⟨S32x256, p 19⟩, ⟨S32x256, p 20⟩, ⟨S32x256, p 21⟩, ⟨S32x256, p 22⟩, ⟨S32x256, p 23⟩, ⟨S32x256, p 24⟩, ⟨S32x256, p 25⟩, ⟨S32x256, p 26⟩, ⟨S32x256, p 27⟩, ⟨S32x256, p 28⟩, ⟨S32x256, p 29⟩, ⟨S32x256, p 30⟩, ⟨S32x256, p 31⟩] h (ix2 c (col g v)) = p g (ix2 c v) := by
  refine concatenate_ofFn_apply (t := S32x8192) (s₁ := S32x256) 1 p h rfl 256 rfl (ix2 c (col g v)) g ?_ (ix2 c v) ?_ ?_
  · show (256 * g.val + v.val) / 256 = g.val
    have := v.isLt; omega
  · show v.val = (256 * g.val + v.val) % 256
    have := v.isLt; omega
  · intro b hb
    match b with
    | ⟨0, _⟩ => rfl
    | ⟨1, _⟩ => exact absurd rfl hb

/-! ### A product contracting the second axis of both operands -/

/-- out[i, j] = Σ_k lhs[i, k] · rhs[j, k], into the zero accumulator. -/
theorem matmul_nt {M K N : ℕ} {φ₁ φ₂ : FTy} (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (lhs : FVec Ideal ⟨2, ![M, K]⟩ φ₁) (rhs : FVec Ideal ⟨2, ![N, K]⟩ φ₂) (i : Fin M) (j : Fin N) :
    matmul d none lhs rhs (constant (F := Ideal) ⟨2, ![M, N]⟩ .f32 0x00000000#32) (ix2 i j)
      = ∑ k : Fin K, lhs (ix2 i k) * rhs (ix2 j k) := by
  show FloatOps.matmul d none lhs rhs (constant (F := Ideal) ⟨2, ![M, N]⟩ .f32 0x00000000#32) (ix2 i j) = _
  rw [Ideal.matmul_constant_zero_apply]
  have hr : d.contr.rank = 1 := by rw [d.rank_contr, hlc]; rfl
  have hs : d.contr.size ⟨0, by omega⟩ = K := by
    rw [d.size_contr 0 (by rw [hlc]; exact Nat.one_pos)]
    simp [hlc]
  rw [← Equiv.sum_comp (contrEquiv1 d K hr hs).symm]
  refine Finset.sum_congr rfl fun k _ => ?_
  have e1 : d.lhsIdx (ix2 i j) ((contrEquiv1 d K hr hs).symm k) = ix2 i k := by
    funext a; apply Fin.ext
    match a with
    | ⟨0, _⟩ =>
      have key : ∀ (p : Nat) (hp : p < 2), p = 0 → ((ix2 i j : (⟨2, ![M, N]⟩ : Shape).Idx) ⟨p, hp⟩).val = i.val :=
        fun p hp h => by subst h; rfl
      simp only [DotDims.lhsIdx, hlb, hln, List.not_mem_nil, dite_false, List.mem_singleton, dite_true, Fin.val_cast]
      exact key _ _ (by simp [hlb, hln])
    | ⟨1, _⟩ =>
      have := d.lhsIdx_val_of_single hlc (ix2 i j) ((contrEquiv1 d K hr hs).symm k)
      rw [contrEquiv1_symm_val] at this
      exact this
  have e2 : d.rhsIdx (ix2 i j) ((contrEquiv1 d K hr hs).symm k) = ix2 j k := by
    funext a; apply Fin.ext
    match a with
    | ⟨0, _⟩ =>
      have key : ∀ (p : Nat) (hp : p < 2), p = 1 → ((ix2 i j : (⟨2, ![M, N]⟩ : Shape).Idx) ⟨p, hp⟩).val = j.val :=
        fun p hp h => by subst h; rfl
      simp only [DotDims.rhsIdx, hrb, hrn, List.not_mem_nil, dite_false, List.mem_singleton, dite_true, Fin.val_cast]
      exact key _ _ (by simp [hlb, hln, hrn])
    | ⟨1, _⟩ =>
      have := d.rhsIdx_val_of_single hrc (ix2 i j) ((contrEquiv1 d K hr hs).symm k)
      rw [contrEquiv1_symm_val] at this
      exact this
  rw [e1, e2]

/-! ### Graph g's pieces -/

/-- Column block g of a [32, 8192] array is inside it. -/
theorem sliceFact (g : Fin 32) : S32x8192.Slices ![0, 256 * g.val] S32x256 :=
  ⟨rfl, fun a => by
    match a with
    | ⟨0, _⟩ => show 0 + 32 ≤ 32; omega
    | ⟨1, _⟩ => show 256 * g.val + 256 ≤ 8192; have := g.isLt; omega⟩

/-- Graph g's [1, 256, 256] block is inside the 32 graphs' adjacency. -/
theorem inbA (g : Fin 32) : ∀ a, (![g.val, 0, 0] : Fin 3 → Nat) a + S1x256x256.size a ≤ S32x256x256.size a := fun a => by
  match a with
  | ⟨0, _⟩ => show g.val + 1 ≤ 32; have := g.isLt; omega
  | ⟨1, _⟩ => show 0 + 256 ≤ 256; omega
  | ⟨2, _⟩ => show 0 + 256 ≤ 256; omega

/-- Graph g's [1, 256, 32] block is inside the 32 graphs' dropout scale. -/
theorem inbD (g : Fin 32) : ∀ a, (![g.val, 0, 0] : Fin 3 → Nat) a + S1x256x32.size a ≤ S32x256x32.size a := fun a => by
  match a with
  | ⟨0, _⟩ => show g.val + 1 ≤ 32; have := g.isLt; omega
  | ⟨1, _⟩ => show 0 + 256 ≤ 256; omega
  | ⟨2, _⟩ => show 0 + 32 ≤ 32; omega

variable (l0 : Vec Ideal S32x256x16 .f32) (xA : Vec Ideal S32x256x256 .f32) (xD : Vec Ideal S32x256x32 .f32)
  (l3 : Vec Ideal S16x128 .f32) (l4 : Vec Ideal S32x128 .f32) (l5 l6 : Vec Ideal S64x32 .f32) (l7 l8 : Vec Ideal S32x32 .f32) (l9 : Vec Ideal S64x16 .f32)

/-- Graph g's node features, adjacency and dropout scale, out of the blocks of 32 graphs. -/
abbrev Xg (g : Fin 32) : Fin 256 → Fin 16 → EReal := fun v k => l0 (ix3 g v k)
abbrev Ag (g : Fin 32) : Fin 256 → Fin 256 → EReal := fun v u => xA (ix3 g v u)
abbrev Dg (g : Fin 32) : Fin 256 → Fin 32 → EReal := fun v k => xD (ix3 g v k)
/-- The parameters as the staged arrays hold them. -/
abbrev prm : Cert.Spec.Params := Cert.Spec.Params.ofWindows l3 l4 l5 l6 l7 l8 l9

/-- Graph g's adjacency as the pass reads it: the loaded block with its unit axis dropped, narrowed. -/
def adjG (g : Fin 32) : FVec Ideal S256x256 .bf16 :=
  truncf .bf16 (shapeCast S256x256 (View.ld xA (Rect.unit (s := S32x256x256) ![g.val, 0, 0] S1x256x256.size (inbA g))) shapeCasts_S1x256x256_S256x256) bitsLt_bf16_f32

/-- Piece g of the adjacency pass: column block g of the operand against graph g's adjacency. -/
def pieceA (lhs : FVec Ideal S32x8192 .bf16) (g : Fin 32) : FVec Ideal S32x256 .f32 :=
  matmul dot_S32x256_S256x256_S32x256_1_1_0_0_n_n none (extractStridedSlice S32x256 ![0, 256 * g.val] lhs (sliceFact g)) (adjG xA g) (constant S32x256 .f32 0x00000000#32)

/-- Piece g of the transposed dropout scale: graph g's block, its unit axis dropped, transposed. -/
def pieceD (g : Fin 32) : FVec Ideal S32x256 .f32 :=
  transpose S32x256 [1, 0] (shapeCast S256x32 (View.ld xD (Rect.unit (s := S32x256x32) ![g.val, 0, 0] S1x256x32.size (inbD g))) shapeCasts_S1x256x32_S256x32) transposes_S256x32_p1_0_S32x256

/-- The adjacency pass is its 32 pieces side by side. -/
theorem adots_eq (lhs : FVec Ideal S32x8192 .bf16) :
    adots lhs xA = concatenate S32x8192 1 [⟨S32x256, pieceA xA lhs 0⟩, ⟨S32x256, pieceA xA lhs 1⟩, ⟨S32x256, pieceA xA lhs 2⟩, ⟨S32x256, pieceA xA lhs 3⟩, ⟨S32x256, pieceA xA lhs 4⟩, ⟨S32x256, pieceA xA lhs 5⟩, ⟨S32x256, pieceA xA lhs 6⟩, ⟨S32x256, pieceA xA lhs 7⟩, ⟨S32x256, pieceA xA lhs 8⟩, ⟨S32x256, pieceA xA lhs 9⟩, ⟨S32x256, pieceA xA lhs 10⟩, ⟨S32x256, pieceA xA lhs 11⟩, ⟨S32x256, pieceA xA lhs 12⟩, ⟨S32x256, pieceA xA lhs 13⟩, ⟨S32x256, pieceA xA lhs 14⟩, ⟨S32x256, pieceA xA lhs 15⟩, ⟨S32x256, pieceA xA lhs 16⟩, ⟨S32x256, pieceA xA lhs 17⟩, ⟨S32x256, pieceA xA lhs 18⟩, ⟨S32x256, pieceA xA lhs 19⟩, ⟨S32x256, pieceA xA lhs 20⟩, ⟨S32x256, pieceA xA lhs 21⟩, ⟨S32x256, pieceA xA lhs 22⟩, ⟨S32x256, pieceA xA lhs 23⟩, ⟨S32x256, pieceA xA lhs 24⟩, ⟨S32x256, pieceA xA lhs 25⟩, ⟨S32x256, pieceA xA lhs 26⟩, ⟨S32x256, pieceA xA lhs 27⟩, ⟨S32x256, pieceA xA lhs 28⟩, ⟨S32x256, pieceA xA lhs 29⟩, ⟨S32x256, pieceA xA lhs 30⟩, ⟨S32x256, pieceA xA lhs 31⟩] concatenates_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x8192_d1 := rfl

/-- The transposed dropout scale is its 32 pieces side by side. -/
theorem dT_eq : dT xD = concatenate S32x8192 1 [⟨S32x256, pieceD xD 0⟩, ⟨S32x256, pieceD xD 1⟩, ⟨S32x256, pieceD xD 2⟩, ⟨S32x256, pieceD xD 3⟩, ⟨S32x256, pieceD xD 4⟩, ⟨S32x256, pieceD xD 5⟩, ⟨S32x256, pieceD xD 6⟩, ⟨S32x256, pieceD xD 7⟩, ⟨S32x256, pieceD xD 8⟩, ⟨S32x256, pieceD xD 9⟩, ⟨S32x256, pieceD xD 10⟩, ⟨S32x256, pieceD xD 11⟩, ⟨S32x256, pieceD xD 12⟩, ⟨S32x256, pieceD xD 13⟩, ⟨S32x256, pieceD xD 14⟩, ⟨S32x256, pieceD xD 15⟩, ⟨S32x256, pieceD xD 16⟩, ⟨S32x256, pieceD xD 17⟩, ⟨S32x256, pieceD xD 18⟩, ⟨S32x256, pieceD xD 19⟩, ⟨S32x256, pieceD xD 20⟩, ⟨S32x256, pieceD xD 21⟩, ⟨S32x256, pieceD xD 22⟩, ⟨S32x256, pieceD xD 23⟩, ⟨S32x256, pieceD xD 24⟩, ⟨S32x256, pieceD xD 25⟩, ⟨S32x256, pieceD xD 26⟩, ⟨S32x256, pieceD xD 27⟩, ⟨S32x256, pieceD xD 28⟩, ⟨S32x256, pieceD xD 29⟩, ⟨S32x256, pieceD xD 30⟩, ⟨S32x256, pieceD xD 31⟩] concatenates_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x8192_d1 := rfl

/-- Graph g's adjacency, as the pass reads it, at (v, u). -/
theorem adjG_apply (g : Fin 32) (v u : Fin 256) : adjG xA g (ix2 v u) = xA (ix3 g v u) := by
  unfold adjG
  rw [truncf_apply]
  refine (shapeCast_dropUnit_apply (n := 2) ![256, 256] _ shapeCasts_S1x256x256_S256x256 (ix2 v u)).trans ?_
  show xA _ = xA _
  congr 1
  funext a; apply Fin.ext
  match a with
  | ⟨0, _⟩ => show g.val + 1 * 0 = g.val; omega
  | ⟨1, _⟩ => show 0 + 1 * v.val = v.val; omega
  | ⟨2, _⟩ => show 0 + 1 * u.val = u.val; omega

/-- Piece g of the adjacency pass at (c, v). -/
theorem pieceA_apply (lhs : FVec Ideal S32x8192 .bf16) (g : Fin 32) (c : Fin 32) (v : Fin 256) :
    pieceA xA lhs g (ix2 c v) = ∑ u : Fin 256, lhs (ix2 c (col g u)) * xA (ix3 g v u) := by
  unfold pieceA
  rw [matmul_nt dot_S32x256_S256x256_S32x256_1_1_0_0_n_n rfl rfl rfl rfl rfl rfl]
  refine Finset.sum_congr rfl fun u _ => ?_
  rw [adjG_apply]
  congr 1
  refine extractStridedSlice_apply _ lhs (sliceFact g) (ix2 c u) (ix2 c (col g u)) fun a => ?_
  match a with
  | ⟨0, _⟩ => show c.val = 0 + c.val; omega
  | ⟨1, _⟩ => rfl

/-- Piece g of the transposed dropout scale at (c, v). -/
theorem pieceD_apply (g : Fin 32) (c : Fin 32) (v : Fin 256) : pieceD xD g (ix2 c v) = xD (ix3 g v c) := by
  unfold pieceD
  refine (transpose_apply [1, 0] _ transposes_S256x32_p1_0_S32x256 (ix2 c v) (ix2 v c) fun b => ?_).trans ?_
  · match b with
    | ⟨0, _⟩ => rfl
    | ⟨1, _⟩ => rfl
  refine (shapeCast_dropUnit_apply (n := 2) ![256, 32] _ shapeCasts_S1x256x32_S256x32 (ix2 v c)).trans ?_
  show xD _ = xD _
  congr 1
  funext a; apply Fin.ext
  match a with
  | ⟨0, _⟩ => show g.val + 1 * 0 = g.val; omega
  | ⟨1, _⟩ => show 0 + 1 * v.val = v.val; omega
  | ⟨2, _⟩ => show 0 + 1 * c.val = c.val; omega

/-- The adjacency pass at row c, node v of graph g: graph g's column block of the operand against row v of graph g's
    adjacency, summed over the source node. -/
theorem adots_apply (lhs : FVec Ideal S32x8192 .bf16) (c : Fin 32) (g : Fin 32) (v : Fin 256) :
    adots lhs xA (ix2 c (col g v)) = ∑ u : Fin 256, lhs (ix2 c (col g u)) * xA (ix3 g v u) := by
  rw [adots_eq, cat32_apply (pieceA xA lhs), pieceA_apply]

/-- The transposed dropout scale at row c, node v of graph g. -/
theorem dT_apply (c : Fin 32) (g : Fin 32) (v : Fin 256) :
    dT xD (ix2 c (col g v)) = xD (ix3 g v c) := by
  rw [dT_eq, cat32_apply (pieceD xD), pieceD_apply]

end Cert.KernelIdeal.KCols

end
-- ==== Proof.KRound0.lean ====
/-
  Round 0 of the kernel body, read at the column of node v of graph g: the one-graph function's round 0 on graph g.
-/
import proofs.«122836_g2000103277586728_pallasbulk_447_7_alg».proof.Proof.KCols
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KRound0

open Cert.KernelIdeal Cert.KernelIdeal.Gen Cert.KernelIdeal.Mirror
open Idealize.ShloMosaic Idealize.ShloMosaic.ValueIdx Idealize.SL.Sem
open Cert.KernelIdeal.KCols

variable (l0 : Vec Ideal S32x256x16 .f32) (xA : Vec Ideal S32x256x256 .f32) (xD : Vec Ideal S32x256x32 .f32)
  (l3 : Vec Ideal S16x128 .f32) (l4 : Vec Ideal S32x128 .f32) (l5 l6 : Vec Ideal S64x32 .f32) (l7 l8 : Vec Ideal S32x32 .f32) (l9 : Vec Ideal S64x16 .f32)

/-! ## Operations read at an index -/

/-- A product contracting the rows of both operands, [K, C] against [K, N], into the zero splat: at (c, j), the sum over
    k of lhs (k, c) · rhs (k, j). -/
theorem matmul_tn {K C N : ℕ} (d : DotDims ⟨2, ![K, C]⟩ ⟨2, ![K, N]⟩ ⟨2, ![C, N]⟩)
    (hlc : d.lhsContracting = [0]) (hrc : d.rhsContracting = [0]) (hln : d.lhsNonContracting = [1])
    (hrn : d.rhsNonContracting = [1]) (hlb : d.lhsBatch = []) (hrb : d.rhsBatch = [])
    (lhs : FVec Ideal ⟨2, ![K, C]⟩ .f32) (rhs : FVec Ideal ⟨2, ![K, N]⟩ .f32) (c : Fin C) (j : Fin N) :
    matmul d none lhs rhs (constant (F := Ideal) ⟨2, ![C, N]⟩ .f32 0x00000000#32) (ix2 c j)
      = ∑ k : Fin K, lhs (ix2 k c) * rhs (ix2 k j) := by
  show FloatOps.matmul d none lhs rhs (constant (F := Ideal) ⟨2, ![C, N]⟩ .f32 0x00000000#32) (ix2 c j) = _
  rw [Ideal.matmul_constant_zero_apply]
  have hr : d.contr.rank = 1 := by rw [d.rank_contr, hlc]; rfl
  have hs : d.contr.size ⟨0, by omega⟩ = K := by
    rw [d.size_contr 0 (by rw [hlc]; exact Nat.one_pos)]
    simp [hlc]
  rw [← Equiv.sum_comp (contrEquiv1 d K hr hs).symm]
  refine Finset.sum_congr rfl fun k _ => ?_
  have e1 : d.lhsIdx (ix2 c j) ((contrEquiv1 d K hr hs).symm k) = ix2 k c := by
    funext a; apply Fin.ext
    match a with
    | ⟨0, _⟩ =>
      have := d.lhsIdx_val_of_single hlc (ix2 c j) ((contrEquiv1 d K hr hs).symm k)
      rw [contrEquiv1_symm_val] at this
      exact this
    | ⟨1, _⟩ =>
      have key : ∀ (p : Nat) (hp : p < 2), p = 0 → ((ix2 c j : (⟨2, ![C, N]⟩ : Shape).Idx) ⟨p, hp⟩).val = c.val :=
        fun p hp h => by subst h; rfl
      simp only [DotDims.lhsIdx, hlb, hln, List.not_mem_nil, dite_false, List.mem_singleton, dite_true, Fin.val_cast]
      exact key _ _ (by simp [hlb, hln])
  have e2 : d.rhsIdx (ix2 c j) ((contrEquiv1 d K hr hs).symm k) = ix2 k j := by
    funext a; apply Fin.ext
    match a with
    | ⟨0, _⟩ =>
      have := d.rhsIdx_val_of_single hrc (ix2 c j) ((contrEquiv1 d K hr hs).symm k)
      rw [contrEquiv1_symm_val] at this
      exact this
    | ⟨1, _⟩ =>
      have key : ∀ (p : Nat) (hp : p < 2), p = 1 → ((ix2 c j : (⟨2, ![C, N]⟩ : Shape).Idx) ⟨p, hp⟩).val = j.val :=
        fun p hp h => by subst h; rfl
      simp only [DotDims.rhsIdx, hrb, hrn, List.not_mem_nil, dite_false, List.mem_singleton, dite_true, Fin.val_cast]
      exact key _ _ (by simp [hlb, hln, hrn])
  rw [e1, e2]

/-- A product contracting the rows of the left operand with the columns of the right, [K, C] against [N, K], into the zero
    splat: at (c, j), the sum over k of lhs (k, c) · rhs (j, k). -/
theorem matmul_tt {K C N : ℕ} (d : DotDims ⟨2, ![K, C]⟩ ⟨2, ![N, K]⟩ ⟨2, ![C, N]⟩)
    (hlc : d.lhsContracting = [0]) (hrc : d.rhsContracting = [1]) (hln : d.lhsNonContracting = [1])
    (hrn : d.rhsNonContracting = [0]) (hlb : d.lhsBatch = []) (hrb : d.rhsBatch = [])
    (lhs : FVec Ideal ⟨2, ![K, C]⟩ .f32) (rhs : FVec Ideal ⟨2, ![N, K]⟩ .f32) (c : Fin C) (j : Fin N) :
    matmul d none lhs rhs (constant (F := Ideal) ⟨2, ![C, N]⟩ .f32 0x00000000#32) (ix2 c j)
      = ∑ k : Fin K, lhs (ix2 k c) * rhs (ix2 j k) := by
  show FloatOps.matmul d none lhs rhs (constant (F := Ideal) ⟨2, ![C, N]⟩ .f32 0x00000000#32) (ix2 c j) = _
  rw [Ideal.matmul_constant_zero_apply]
  have hr : d.contr.rank = 1 := by rw [d.rank_contr, hlc]; rfl
  have hs : d.contr.size ⟨0, by omega⟩ = K := by
    rw [d.size_contr 0 (by rw [hlc]; exact Nat.one_pos)]
    simp [hlc]
  rw [← Equiv.sum_comp (contrEquiv1 d K hr hs).symm]
  refine Finset.sum_congr rfl fun k _ => ?_
  have e1 : d.lhsIdx (ix2 c j) ((contrEquiv1 d K hr hs).symm k) = ix2 k c := by
    funext a; apply Fin.ext
    match a with
    | ⟨0, _⟩ =>
      have := d.lhsIdx_val_of_single hlc (ix2 c j) ((contrEquiv1 d K hr hs).symm k)
      rw [contrEquiv1_symm_val] at this
      exact this
    | ⟨1, _⟩ =>
      have key : ∀ (p : Nat) (hp : p < 2), p = 0 → ((ix2 c j : (⟨2, ![C, N]⟩ : Shape).Idx) ⟨p, hp⟩).val = c.val :=
        fun p hp h => by subst h; rfl
      simp only [DotDims.lhsIdx, hlb, hln, List.not_mem_nil, dite_false, List.mem_singleton, dite_true, Fin.val_cast]
      exact key _ _ (by simp [hlb, hln])
  have e2 : d.rhsIdx (ix2 c j) ((contrEquiv1 d K hr hs).symm k) = ix2 j k := by
    funext a; apply Fin.ext
    match a with
    | ⟨0, _⟩ =>
      have key : ∀ (p : Nat) (hp : p < 2), p = 1 → ((ix2 c j : (⟨2, ![C, N]⟩ : Shape).Idx) ⟨p, hp⟩).val = j.val :=
        fun p hp h => by subst h; rfl
      simp only [DotDims.rhsIdx, hrb, hrn, List.not_mem_nil, dite_false, List.mem_singleton, dite_true, Fin.val_cast]
      exact key _ _ (by simp [hlb, hln, hrn])
    | ⟨1, _⟩ =>
      have := d.rhsIdx_val_of_single hrc (ix2 c j) ((contrEquiv1 d K hr hs).symm k)
      rw [contrEquiv1_symm_val] at this
      exact this
  rw [e1, e2]

/-- The zero literal is the extended real 0. -/
theorem zero_lit : (Scalar.ofBits (F := Ideal) .f32 0x00000000#32 : EReal) = 0 := Ideal.ofBits_zero_f32

/-- relu: the maximum with the zero splat. -/
theorem relu_apply {s : Shape} (x : FVec Ideal s .f32) (i : s.Idx) :
    maximumf x (broadcast s (Scalar.ofBits (F := Ideal) .f32 0x00000000#32)) i = max (x i) 0 := by
  show max (x i) (Scalar.ofBits (F := Ideal) .f32 0x00000000#32) = _
  rw [zero_lit]

/-- The logistic of a vector at an index. -/
theorem logistic_apply {s : Shape} (x : FVec Ideal s .f32) (i : s.Idx) : logistic x i = Ideal.logistic (x i) := rfl

/-- A column sum kept as a row: [a, b] summed over its first axis and cast to [1, b]. -/
theorem colsum_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ)
    (hc : (⟨1, ![b]⟩ : Shape).ShapeCasts ⟨2, ![1, b]⟩) (u : Fin 1) (j : Fin b) :
    shapeCast ⟨2, ![1, b]⟩ (multiReduction .add [0] ⟨1, ![b]⟩ src 0x00000000#32 h hφ hacc) hc (ix2 u j)
      = ∑ c : Fin a, src (ix2 c j) := by
  refine (shapeCast_a_1a_apply _ hc u j).trans ?_
  refine (Ideal.multiReduction_add_single src 0x00000000#32 h hφ hacc (ix1 j)).trans ?_
  refine Finset.sum_congr rfl fun c _ => congrArg src ?_
  funext ax; apply Fin.ext
  match ax with
  | ⟨0, _⟩ => rfl
  | ⟨1, _⟩ => rfl

/-- A column [a, 1] broadcast along the rows to [a, b]. -/
theorem broadcastTo_a1_ab_apply {a b : ℕ} (x : FVec Ideal ⟨2, ![a, 1]⟩ .f32) (h : (⟨2, ![a, 1]⟩ : Shape).Broadcasts ⟨2, ![a, b]⟩)
    (v : Fin a) (c : Fin b) : broadcastTo ⟨2, ![a, b]⟩ x h (ix2 v c) = x (ix2 v (0 : Fin 1)) := by
  refine broadcastTo_apply x h (ix2 v c) (ix2 v (0 : Fin 1)) fun ax => ?_
  match ax with
  | ⟨0, _⟩ =>
    show v.val = if a = 1 then 0 else v.val
    split
    · have := v.isLt; omega
    · rfl
  | ⟨1, _⟩ => rfl

/-- A slice along both axes of a matrix. -/
theorem slice2_apply {α : Type} {n0 n1 m0 m1 : ℕ} (o0 o1 : ℕ) (X : (⟨2, ![n0, n1]⟩ : Shape).Idx → α)
    (h : (⟨2, ![n0, n1]⟩ : Shape).Slices ![o0, o1] ⟨2, ![m0, m1]⟩) (i : Fin m0) (j : Fin m1) (r : Fin n0) (q : Fin n1)
    (hr : r.val = o0 + i.val) (hq : q.val = o1 + j.val) :
    extractStridedSlice ⟨2, ![m0, m1]⟩ ![o0, o1] X h (ix2 i j) = X (ix2 r q) :=
  extractStridedSlice_apply _ _ _ _ _ (fun ax => by
    match ax with
    | ⟨0, _⟩ => exact hr
    | ⟨1, _⟩ => exact hq)

/-- The 32 graphs' feature blocks as 8192 rows: row 256 g + v is node v of graph g. -/
theorem rows_apply (g : Fin 32) (v : Fin 256) (k : Fin 16) :
    shapeCast S8192x16 l0 shapeCasts_S32x256x16_S8192x16 (ix2 (col g v) k) = l0 (ix3 g v k) := by
  refine shapeCast_apply l0 _ (ix2 (col g v) k) (ix3 g v k) ?_
  rw [Shape.rowMajor_val_three, Shape.rowMajor_val_two]
  show (g.val * 256 + v.val) * 16 + k.val = (256 * g.val + v.val) * 16 + k.val
  omega

/-- The stacked input projection at row r, node v of graph g. -/
theorem full0_apply (r : Fin 128) (g : Fin 32) (v : Fin 256) :
    full0 l0 l3 (ix2 r (col g v)) = ∑ k : Fin 16, l3 (ix2 k r) * l0 (ix3 g v k) := by
  unfold full0
  rw [matmul_tt dot_S16x128_S8192x16_S128x8192_0_1_1_0_n_n rfl rfl rfl rfl rfl rfl]
  refine Finset.sum_congr rfl fun k _ => ?_
  rw [shapeCast_self, rows_apply]

/-- Column n of the bias array, rows 0 … m − 1. -/
theorem bias_apply {m : ℕ} (n : ℕ) (h : S64x16.Slices ![0, n] ⟨2, ![m, 1]⟩) (c : Fin m) (r : Fin 64) (q : Fin 16)
    (hr : r.val = c.val) (hq : q.val = n) :
    extractStridedSlice ⟨2, ![m, 1]⟩ ![0, n] (aux l9) h (ix2 c (0 : Fin 1)) = l9 (ix2 r q) := by
  refine (slice2_apply 0 n (aux l9) h c (0 : Fin 1) r q (by omega) (by show q.val = n + 0; omega)).trans ?_
  unfold aux
  rw [shapeCast_self]

/-- The weight-conv's two linear maps of the input features, plus bias. -/
theorem hl0_apply (c : Fin 64) (g : Fin 32) (v : Fin 256) :
    hl0 l0 l3 l9 (ix2 c (col g v)) = Cert.Spec.hl (prm l3 l4 l5 l6 l7 l8 l9).w0 (prm l3 l4 l5 l6 l7 l8 l9).l12b0 (Xg l0 g) v c := by
  unfold hl0 b0
  rw [addf_apply, slice2_apply 0 0 (full0 l0 l3) _ c (col g v) (Cert.Spec.lo128 c) (col g v) (by show c.val = 0 + c.val; omega) (by omega),
    full0_apply, broadcastTo_a1_ab_apply, bias_apply l9 0 _ c c (0 : Fin 16) rfl rfl]
  unfold Cert.Spec.hl
  refine congrArg (· + l9 (ix2 c (0 : Fin 16))) (Finset.sum_congr rfl fun k _ => ?_)
  exact mul_comm _ _

/-- The convolution's two maps of the input features: rows 64 … 127 of the stacked projection. -/
theorem pr0_apply (c : Fin 64) (g : Fin 32) (v : Fin 256) :
    full0 l0 l3 (ix2 (Cert.Spec.hi128 c) (col g v)) = Cert.Spec.pr (prm l3 l4 l5 l6 l7 l8 l9).w0 (Xg l0 g) v c := by
  rw [full0_apply]
  unfold Cert.Spec.pr
  exact Finset.sum_congr rfl fun k _ => mul_comm _ _

/-- The relu of [aggregated first half | own second half], round 0. -/
theorem cat0_apply (k : Fin 64) (g : Fin 32) (v : Fin 256) :
    cat0 l0 xA l3 l9 (ix2 k (col g v))
      = Cert.Spec.cat (Ag xA g) (prm l3 l4 l5 l6 l7 l8 l9).w0 (prm l3 l4 l5 l6 l7 l8 l9).l12b0 (Xg l0 g) v k := by
  unfold cat0 Cert.Spec.cat
  rw [relu_apply]
  refine congrArg (max · 0) ?_
  by_cases hk : k.val < 32
  · rw [if_pos hk]
    refine (concatenate_pair_apply_left (t := S64x8192) (s₁ := S32x8192) (s₂ := S32x8192) (0 : Fin 2) _ _ _ (ix2 k (col g v)) rfl (ix2 (⟨k.val, hk⟩ : Fin 32) (col g v)) (fun b => by
      match b with
      | ⟨0, _⟩ => rfl
      | ⟨1, _⟩ => rfl)).trans ?_
    rw [adots_apply]
    unfold Cert.Spec.agg
    refine Finset.sum_congr rfl fun u _ => ?_
    rw [mul_comm]
    refine congrArg (xA (ix3 g v u) * ·) ?_
    unfold lhs0
    rw [truncf_apply, slice2_apply 0 0 (hl0 l0 l3 l9) _ (⟨k.val, hk⟩ : Fin 32) (col g u) k (col g u) (by show k.val = 0 + k.val; omega) (by omega)]
    exact hl0_apply l0 l3 l4 l5 l6 l7 l8 l9 k g u
  · rw [if_neg hk]
    refine (concatenate_pair_apply_right (t := S64x8192) (s₁ := S32x8192) (s₂ := S32x8192) (0 : Fin 2) _ _ _ (ix2 k (col g v)) rfl rfl
      (ix2 (⟨k.val - 32, by have := k.isLt; omega⟩ : Fin 32) (col g v)) (fun b hb => by
      match b with
      | ⟨0, _⟩ => exact absurd rfl hb
      | ⟨1, _⟩ => rfl) (by show k.val - 32 + 32 = k.val; omega)).trans ?_
    rw [slice2_apply 32 0 (hl0 l0 l3 l9) _ (⟨k.val - 32, by have := k.isLt; omega⟩ : Fin 32) (col g v) k (col g v)
      (by show k.val = 32 + (k.val - 32); omega) (by omega)]
    exact hl0_apply l0 l3 l4 l5 l6 l7 l8 l9 k g v

/-- The hidden layer of the mask, round 0. -/
theorem hid0_apply (c : Fin 32) (g : Fin 32) (v : Fin 256) :
    hid0 l0 xA l3 l5 l9 (ix2 c (col g v))
      = Cert.Spec.hid (Ag xA g) (prm l3 l4 l5 l6 l7 l8 l9).w0 (prm l3 l4 l5 l6 l7 l8 l9).m10 (prm l3 l4 l5 l6 l7 l8 l9).l12b0
          (prm l3 l4 l5 l6 l7 l8 l9).m1b0 (Xg l0 g) v c := by
  unfold hid0 m1b0 Cert.Spec.hid
  rw [relu_apply, addf_apply, matmul_tn dot_S64x32_S64x8192_S32x8192_0_0_1_1_n_n rfl rfl rfl rfl rfl rfl,
    broadcastTo_a1_ab_apply, bias_apply l9 1 _ c (Cert.Spec.lo c) (1 : Fin 16) rfl rfl]
  refine congrArg (fun t => max (t + l9 (ix2 (Cert.Spec.lo c) (1 : Fin 16))) 0) (Finset.sum_congr rfl fun k _ => ?_)
  rw [shapeCast_self, cat0_apply l0 xA l3 l4 l5 l6 l7 l8 l9 k g v]
  exact mul_comm _ _

/-- The first node mask. -/
theorem mask0_apply (g : Fin 32) (v : Fin 256) :
    mask0 l0 xA l3 l5 l9 (ix2 (0 : Fin 1) (col g v)) = Cert.Spec.mask0 (Ag xA g) (prm l3 l4 l5 l6 l7 l8 l9) (Xg l0 g) v := by
  unfold mask0 m2w0 m2b0 Cert.Spec.mask0 Cert.Spec.mask
  rw [logistic_apply, addf_apply, broadcastTo_a1_ab_apply, bias_apply l9 3 _ (0 : Fin 1) (0 : Fin 64) (3 : Fin 16) rfl rfl]
  refine congrArg (fun t => Ideal.logistic (t + l9 (ix2 (0 : Fin 64) (3 : Fin 16)))) ?_
  refine (colsum_apply _ _ _ _ _ (0 : Fin 1) (col g v)).trans (Finset.sum_congr rfl fun c _ => ?_)
  rw [mulf_apply, hid0_apply l0 xA l3 l4 l5 l6 l7 l8 l9 c g v, broadcastTo_a1_ab_apply, bias_apply l9 2 _ c (Cert.Spec.lo c) (2 : Fin 16) rfl rfl]
  rfl

/-- The features after round 0. -/
theorem x1_apply (c : Fin 32) (g : Fin 32) (v : Fin 256) :
    x1 l0 xA l3 l5 l9 (ix2 c (col g v)) = Cert.Spec.x1 (Ag xA g) (prm l3 l4 l5 l6 l7 l8 l9) (Xg l0 g) v c := by
  unfold x1 Cert.Spec.x1 Cert.Spec.conv
  rw [relu_apply, mulf_apply, addf_apply, broadcastTo_1b_ab_apply, mask0_apply l0 xA l3 l4 l5 l6 l7 l8 l9 g v, adots_apply,
    slice2_apply 96 0 (full0 l0 l3) _ c (col g v) (Cert.Spec.hi128 (Cert.Spec.hi c)) (col g v)
      (by show 64 + (32 + c.val) = 96 + c.val; omega) (by omega),
    pr0_apply l0 l3 l4 l5 l6 l7 l8 l9 (Cert.Spec.hi c) g v]
  refine congrArg (fun t => max ((t + Cert.Spec.pr (prm l3 l4 l5 l6 l7 l8 l9).w0 (Xg l0 g) v (Cert.Spec.hi c))
    * Cert.Spec.mask0 (Ag xA g) (prm l3 l4 l5 l6 l7 l8 l9) (Xg l0 g) v) 0) (Finset.sum_congr rfl fun u _ => ?_)
  rw [mul_comm]
  refine congrArg (xA (ix3 g v u) * ·) ?_
  unfold h0
  rw [truncf_apply, mulf_apply, broadcastTo_1b_ab_apply, mask0_apply l0 xA l3 l4 l5 l6 l7 l8 l9 g u,
    slice2_apply 64 0 (full0 l0 l3) _ c (col g u) (Cert.Spec.hi128 (Cert.Spec.lo c)) (col g u)
      (by show 64 + c.val = 64 + c.val; rfl) (by omega),
    pr0_apply l0 l3 l4 l5 l6 l7 l8 l9 (Cert.Spec.lo c) g u]

end Cert.KernelIdeal.KRound0

end
-- ==== Proof.LibLayerLaw.lean ====
/-
  The one algebraic law that joins the two arrangements of a graph-convolution layer, on the extended reals.
  The reference normalises every edge's message by both end points' normalisers and adds the node's own row
  scaled by the square of its normaliser; the kernel pre-scales every row by its own normaliser once, sums the
  gathered pre-scaled rows, adds the node's own pre-scaled row and multiplies the whole by the receiving node's
  normaliser. The two agree because a factor `D` with `0 ≤ D < ⊤` distributes over sums of extended reals
  (multiplication by such a `D` never meets `⊤ + ⊥` differently on the two sides), and multiplication is
  commutative and associative. Nothing is asked of the summands: they may be infinite.
-/
import Mathlib.Data.EReal.Operations
import Mathlib.Data.EReal.Inv
import Mathlib.Algebra.BigOperators.Group.Finset.Basic

namespace Cert.Gcn

open scoped BigOperators

/-- A nonnegative finite factor distributes over a finite sum of extended reals. -/
theorem mul_sum_of_nonneg_of_ne_top {ι : Type*} (s : Finset ι) (f : ι → EReal) {D : EReal} (h0 : 0 ≤ D) (ht : D ≠ ⊤) :
    D * ∑ j ∈ s, f j = ∑ j ∈ s, D * f j := by
  classical
  induction s using Finset.induction_on with
  | empty => simp
  | insert a s ha ih =>
    rw [Finset.sum_insert ha, Finset.sum_insert ha, EReal.left_distrib_of_nonneg_of_ne_top h0 ht, ih]

/-- THE LAYER LAW. `t j` is the gathered row entry of edge `j`, `a j` the sending node's normaliser, `D` the
    receiving node's, `H` the node's own row entry, `B` the bias. Left: the kernel's arrangement. Right: the
    reference's. (Each side's sum starts from the zero the scatter accumulates into.) -/
theorem layer_law {ι : Type*} (s : Finset ι) (t a : ι → EReal) {D : EReal} (h0 : 0 ≤ D) (ht : D ≠ ⊤) (H B : EReal) :
    D * ((0 + ∑ j ∈ s, t j * a j) + H * D) + B = ((0 + ∑ j ∈ s, t j * (a j * D)) + H * (D * D)) + B := by
  rw [EReal.left_distrib_of_nonneg_of_ne_top h0 ht, zero_add, zero_add, mul_sum_of_nonneg_of_ne_top s _ h0 ht]
  congr 2
  · exact Finset.sum_congr rfl fun j _ => by rw [mul_comm D, mul_assoc]
  · rw [mul_comm D, mul_assoc]

/-- A real number's image is a nonnegative finite extended real when the number is nonnegative. -/
theorem coe_nonneg_ne_top {d : ℝ} (hd : 0 ≤ d) : (0 : EReal) ≤ (d : EReal) ∧ (d : EReal) ≠ ⊤ :=
  ⟨EReal.coe_nonneg.mpr hd, EReal.coe_ne_top d⟩

end Cert.Gcn
-- ==== Proof.KRound1.lean ====
/-
  Round 1 of the kernel body, read at the column of node v of graph g. The kernel scales the projection of the features
  by the first mask where the one-graph function projects the scaled features: equal, the mask being a real in [0, 1].
-/
import proofs.«122836_g2000103277586728_pallasbulk_447_7_alg».proof.Proof.KRound0
import proofs.«122836_g2000103277586728_pallasbulk_447_7_alg».proof.Proof.LibLayerLaw
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KRound1

open Cert.KernelIdeal Cert.KernelIdeal.Gen Cert.KernelIdeal.Mirror
open Idealize.ShloMosaic Idealize.ShloMosaic.ValueIdx Idealize.SL.Sem
open Cert.KernelIdeal.KCols
open Cert.KernelIdeal.KRound0
variable (l0 : Vec Ideal S32x256x16 .f32) (xA : Vec Ideal S32x256x256 .f32) (xD : Vec Ideal S32x256x32 .f32)
  (l3 : Vec Ideal S16x128 .f32) (l4 : Vec Ideal S32x128 .f32) (l5 l6 : Vec Ideal S64x32 .f32) (l7 l8 : Vec Ideal S32x32 .f32) (l9 : Vec Ideal S64x16 .f32)

/-- The logistic is a real in [0, 1]: nonnegative and finite. -/
theorem logistic_nonneg_ne_top (x : EReal) : 0 ≤ Ideal.logistic x ∧ Ideal.logistic x ≠ ⊤ := by
  induction x using EReal.rec with
  | bot => rw [Ideal.logistic_bot]; exact ⟨le_refl _, EReal.zero_ne_top⟩
  | coe r =>
    rw [Ideal.logistic_coe]
    exact ⟨EReal.coe_nonneg.mpr (inv_nonneg.mpr (by positivity)), EReal.coe_ne_top _⟩
  | top => rw [Ideal.logistic_top]; exact ⟨zero_le_one, by simpa using EReal.coe_ne_top 1⟩

/-- The stacked projection of round 1 at row r, node v of graph g. -/
theorem full1_apply (r : Fin 128) (g : Fin 32) (v : Fin 256) :
    full1 l0 xA l3 l4 l5 l9 (ix2 r (col g v))
      = ∑ k : Fin 32, l4 (ix2 k r) * Cert.Spec.x1 (Ag xA g) (prm l3 l4 l5 l6 l7 l8 l9) (Xg l0 g) v k := by
  unfold full1
  rw [matmul_tn dot_S32x128_S32x8192_S128x8192_0_0_1_1_n_n rfl rfl rfl rfl rfl rfl]
  refine Finset.sum_congr rfl fun k _ => ?_
  rw [shapeCast_self, x1_apply l0 xA l3 l4 l5 l6 l7 l8 l9 k g v]

/-- The weight-conv's two linear maps in round 1: of the features scaled by the first mask, plus bias. -/
theorem hl1_apply (c : Fin 64) (g : Fin 32) (v : Fin 256) :
    hl1 l0 xA l3 l4 l5 l9 (ix2 c (col g v))
      = Cert.Spec.hl (prm l3 l4 l5 l6 l7 l8 l9).w1 (prm l3 l4 l5 l6 l7 l8 l9).l12b1 (Cert.Spec.x1m (Ag xA g) (prm l3 l4 l5 l6 l7 l8 l9) (Xg l0 g)) v c := by
  unfold hl1 b1
  rw [addf_apply, mulf_apply, slice2_apply 0 0 (full1 l0 xA l3 l4 l5 l9) _ c (col g v) (Cert.Spec.lo128 c) (col g v) (by show c.val = 0 + c.val; omega) (by omega),
    full1_apply, broadcastTo_1b_ab_apply, mask0_apply l0 xA l3 l4 l5 l6 l7 l8 l9 g v, broadcastTo_a1_ab_apply,
    bias_apply l9 4 _ c c (4 : Fin 16) rfl rfl]
  unfold Cert.Spec.hl Cert.Spec.x1m
  refine congrArg (· + l9 (ix2 c (4 : Fin 16))) ?_
  obtain ⟨h0, ht⟩ : 0 ≤ Cert.Spec.mask0 (Ag xA g) (prm l3 l4 l5 l6 l7 l8 l9) (Xg l0 g) v
      ∧ Cert.Spec.mask0 (Ag xA g) (prm l3 l4 l5 l6 l7 l8 l9) (Xg l0 g) v ≠ ⊤ := logistic_nonneg_ne_top _
  rw [mul_comm, Cert.Gcn.mul_sum_of_nonneg_of_ne_top _ _ h0 ht]
  refine Finset.sum_congr rfl fun k _ => ?_
  show _ * (l4 (ix2 k (Cert.Spec.lo128 c)) * _) = _ * _ * l4 (ix2 k (Cert.Spec.lo128 c))
  rw [mul_comm (l4 (ix2 k (Cert.Spec.lo128 c))), ← mul_assoc, mul_comm (Cert.Spec.mask0 _ _ _ _)]

/-- The convolution's two maps of the (unscaled) features after round 0. -/
theorem pr1_apply (c : Fin 64) (g : Fin 32) (v : Fin 256) :
    full1 l0 xA l3 l4 l5 l9 (ix2 (Cert.Spec.hi128 c) (col g v))
      = Cert.Spec.pr (prm l3 l4 l5 l6 l7 l8 l9).w1 (Cert.Spec.x1 (Ag xA g) (prm l3 l4 l5 l6 l7 l8 l9) (Xg l0 g)) v c := by
  rw [full1_apply]
  unfold Cert.Spec.pr
  exact Finset.sum_congr rfl fun k _ => mul_comm _ _

/-- The relu of [aggregated first half | own second half], round 1. -/
theorem cat1_apply (k : Fin 64) (g : Fin 32) (v : Fin 256) :
    cat1 l0 xA l3 l4 l5 l9 (ix2 k (col g v))
      = Cert.Spec.cat (Ag xA g) (prm l3 l4 l5 l6 l7 l8 l9).w1 (prm l3 l4 l5 l6 l7 l8 l9).l12b1
          (Cert.Spec.x1m (Ag xA g) (prm l3 l4 l5 l6 l7 l8 l9) (Xg l0 g)) v k := by
  unfold cat1 Cert.Spec.cat
  rw [relu_apply]
  refine congrArg (max · 0) ?_
  by_cases hk : k.val < 32
  · rw [if_pos hk]
    refine (concatenate_pair_apply_left (t := S64x8192) (s₁ := S32x8192) (s₂ := S32x8192) (0 : Fin 2) _ _ _ (ix2 k (col g v)) rfl (ix2 (⟨k.val, hk⟩ : Fin 32) (col g v)) (fun b => by
      match b with
      | ⟨0, _⟩ => rfl
      | ⟨1, _⟩ => rfl)).trans ?_
    rw [adots_apply]
    unfold Cert.Spec.agg
    refine Finset.sum_congr rfl fun u _ => ?_
    rw [mul_comm]
    refine congrArg (xA (ix3 g v u) * ·) ?_
    unfold lhs1
    rw [truncf_apply, slice2_apply 0 0 (hl1 l0 xA l3 l4 l5 l9) _ (⟨k.val, hk⟩ : Fin 32) (col g u) k (col g u) (by show k.val = 0 + k.val; omega) (by omega)]
    exact hl1_apply l0 xA l3 l4 l5 l6 l7 l8 l9 k g u
  · rw [if_neg hk]
    refine (concatenate_pair_apply_right (t := S64x8192) (s₁ := S32x8192) (s₂ := S32x8192) (0 : Fin 2) _ _ _ (ix2 k (col g v)) rfl rfl
      (ix2 (⟨k.val - 32, by have := k.isLt; omega⟩ : Fin 32) (col g v)) (fun b hb => by
      match b with
      | ⟨0, _⟩ => exact absurd rfl hb
      | ⟨1, _⟩ => rfl) (by show k.val - 32 + 32 = k.val; omega)).trans ?_
    rw [slice2_apply 32 0 (hl1 l0 xA l3 l4 l5 l9) _ (⟨k.val - 32, by have := k.isLt; omega⟩ : Fin 32) (col g v) k (col g v)
      (by show k.val = 32 + (k.val - 32); omega) (by omega)]
    exact hl1_apply l0 xA l3 l4 l5 l6 l7 l8 l9 k g v

/-- The hidden layer of the mask, round 1. -/
theorem hid1_apply (c : Fin 32) (g : Fin 32) (v : Fin 256) :
    hid1 l0 xA l3 l4 l5 l6 l9 (ix2 c (col g v))
      = Cert.Spec.hid (Ag xA g) (prm l3 l4 l5 l6 l7 l8 l9).w1 (prm l3 l4 l5 l6 l7 l8 l9).m11 (prm l3 l4 l5 l6 l7 l8 l9).l12b1
          (prm l3 l4 l5 l6 l7 l8 l9).m1b1 (Cert.Spec.x1m (Ag xA g) (prm l3 l4 l5 l6 l7 l8 l9) (Xg l0 g)) v c := by
  unfold hid1 m1b1 Cert.Spec.hid
  rw [relu_apply, addf_apply, matmul_tn dot_S64x32_S64x8192_S32x8192_0_0_1_1_n_n rfl rfl rfl rfl rfl rfl,
    broadcastTo_a1_ab_apply, bias_apply l9 5 _ c (Cert.Spec.lo c) (5 : Fin 16) rfl rfl]
  refine congrArg (fun t => max (t + l9 (ix2 (Cert.Spec.lo c) (5 : Fin 16))) 0) (Finset.sum_congr rfl fun k _ => ?_)
  rw [shapeCast_self, cat1_apply l0 xA l3 l4 l5 l6 l7 l8 l9 k g v]
  exact mul_comm _ _

/-- The second node mask. -/
theorem mask1_apply (g : Fin 32) (v : Fin 256) :
    mask1 l0 xA l3 l4 l5 l6 l9 (ix2 (0 : Fin 1) (col g v)) = Cert.Spec.mask1 (Ag xA g) (prm l3 l4 l5 l6 l7 l8 l9) (Xg l0 g) v := by
  unfold mask1 m2w1 m2b1 Cert.Spec.mask1 Cert.Spec.mask
  rw [logistic_apply, addf_apply, broadcastTo_a1_ab_apply, bias_apply l9 7 _ (0 : Fin 1) (0 : Fin 64) (7 : Fin 16) rfl rfl]
  refine congrArg (fun t => Ideal.logistic (t + l9 (ix2 (0 : Fin 64) (7 : Fin 16)))) ?_
  refine (colsum_apply _ _ _ _ _ (0 : Fin 1) (col g v)).trans (Finset.sum_congr rfl fun c _ => ?_)
  rw [mulf_apply, hid1_apply l0 xA l3 l4 l5 l6 l7 l8 l9 c g v, broadcastTo_a1_ab_apply, bias_apply l9 6 _ c (Cert.Spec.lo c) (6 : Fin 16) rfl rfl]
  rfl

/-- The features after round 1. -/
theorem x2_apply (c : Fin 32) (g : Fin 32) (v : Fin 256) :
    x2 l0 xA l3 l4 l5 l6 l9 (ix2 c (col g v)) = Cert.Spec.x2 (Ag xA g) (prm l3 l4 l5 l6 l7 l8 l9) (Xg l0 g) v c := by
  unfold x2 Cert.Spec.x2 Cert.Spec.conv
  rw [relu_apply, mulf_apply, addf_apply, broadcastTo_1b_ab_apply, mask1_apply l0 xA l3 l4 l5 l6 l7 l8 l9 g v, adots_apply,
    slice2_apply 96 0 (full1 l0 xA l3 l4 l5 l9) _ c (col g v) (Cert.Spec.hi128 (Cert.Spec.hi c)) (col g v)
      (by show 64 + (32 + c.val) = 96 + c.val; omega) (by omega),
    pr1_apply l0 xA l3 l4 l5 l6 l7 l8 l9 (Cert.Spec.hi c) g v]
  refine congrArg (fun t => max ((t + Cert.Spec.pr (prm l3 l4 l5 l6 l7 l8 l9).w1 (Cert.Spec.x1 (Ag xA g) (prm l3 l4 l5 l6 l7 l8 l9) (Xg l0 g)) v (Cert.Spec.hi c))
    * Cert.Spec.mask1 (Ag xA g) (prm l3 l4 l5 l6 l7 l8 l9) (Xg l0 g) v) 0) (Finset.sum_congr rfl fun u _ => ?_)
  rw [mul_comm]
  refine congrArg (xA (ix3 g v u) * ·) ?_
  unfold h1
  rw [truncf_apply, mulf_apply, broadcastTo_1b_ab_apply, mask1_apply l0 xA l3 l4 l5 l6 l7 l8 l9 g u,
    slice2_apply 64 0 (full1 l0 xA l3 l4 l5 l9) _ c (col g u) (Cert.Spec.hi128 (Cert.Spec.lo c)) (col g u)
      (by show 64 + c.val = 64 + c.val; rfl) (by omega),
    pr1_apply l0 xA l3 l4 l5 l6 l7 l8 l9 (Cert.Spec.lo c) g u]

end Cert.KernelIdeal.KRound1

end
-- ==== Proof.KDense.lean ====
/-
  The dense layers of the kernel body, read at the column of node v of graph g: the one-graph function's result.
-/
import proofs.«122836_g2000103277586728_pallasbulk_447_7_alg».proof.Proof.KRound1
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KDense

open Cert.KernelIdeal Cert.KernelIdeal.Gen Cert.KernelIdeal.Mirror
open Idealize.ShloMosaic Idealize.ShloMosaic.ValueIdx Idealize.SL.Sem
open Cert.KernelIdeal.KCols
open Cert.KernelIdeal.KRound0 Cert.KernelIdeal.KRound1
variable (l0 : Vec Ideal S32x256x16 .f32) (xA : Vec Ideal S32x256x256 .f32) (xD : Vec Ideal S32x256x32 .f32)
  (l3 : Vec Ideal S16x128 .f32) (l4 : Vec Ideal S32x128 .f32) (l5 l6 : Vec Ideal S64x32 .f32) (l7 l8 : Vec Ideal S32x32 .f32) (l9 : Vec Ideal S64x16 .f32)

/-- The first dense layer and its relu. -/
theorem y0_apply (k : Fin 32) (g : Fin 32) (v : Fin 256) :
    y0 l0 xA l3 l4 l5 l6 l7 l9 (ix2 k (col g v))
      = max ((∑ j : Fin 32, Cert.Spec.x2 (Ag xA g) (prm l3 l4 l5 l6 l7 l8 l9) (Xg l0 g) v j * l7 (ix2 j k))
          + l9 (ix2 (Cert.Spec.lo k) (8 : Fin 16))) 0 := by
  unfold y0 p1b
  rw [relu_apply, addf_apply, matmul_tn dot_S32x32_S32x8192_S32x8192_0_0_1_1_n_n rfl rfl rfl rfl rfl rfl,
    broadcastTo_a1_ab_apply, bias_apply l9 8 _ k (Cert.Spec.lo k) (8 : Fin 16) rfl rfl]
  refine congrArg (fun t => max (t + l9 (ix2 (Cert.Spec.lo k) (8 : Fin 16))) 0) (Finset.sum_congr rfl fun j _ => ?_)
  rw [shapeCast_self, x2_apply l0 xA l3 l4 l5 l6 l7 l8 l9 j g v]
  exact mul_comm _ _

/-- The kernel's transposed result at row c, node v of graph g is the one-graph function of graph g at node v, feature c. -/
theorem res_apply (c : Fin 32) (g : Fin 32) (v : Fin 256) :
    res l0 xA xD l3 l4 l5 l6 l7 l8 l9 (ix2 c (col g v))
      = Cert.Spec.out (Ag xA g) (prm l3 l4 l5 l6 l7 l8 l9) (Xg l0 g) (Dg xD g) v c := by
  unfold res p2b Cert.Spec.out Cert.Spec.y
  rw [addf_apply, matmul_tn dot_S32x32_S32x8192_S32x8192_0_0_1_1_n_n rfl rfl rfl rfl rfl rfl,
    broadcastTo_a1_ab_apply, bias_apply l9 9 _ c (Cert.Spec.lo c) (9 : Fin 16) rfl rfl]
  refine congrArg (· + l9 (ix2 (Cert.Spec.lo c) (9 : Fin 16))) (Finset.sum_congr rfl fun k _ => ?_)
  rw [shapeCast_self]
  unfold y
  rw [mulf_apply, y0_apply l0 xA l3 l4 l5 l6 l7 l8 l9 k g v, dT_apply, mul_comm (l8 (ix2 k c))]
  rfl

end Cert.KernelIdeal.KDense

end
-- ==== Proof.HostParams.lean ====
/-
  The host repacking, read back: the arrays the kernel stages as its parameters hold the slab's parameters.

  Six of the seven arrays are cuts of the slab (two of them two cuts set side by side). The seventh gathers ten rows of
  the slab as the columns of one [64, 16] array: each row is cut out, reshaped to a vector, padded with zeros to 64
  entries and made a column; the ten columns are set side by side and six zero columns appended. The parameters are read
  inside the un-padded part of each column, so every entry read is an entry of the slab.
-/
import proofs.«122836_g2000103277586728_pallasbulk_447_7_alg».proof.Proof.KernelIdealFrame
import proofs.«122836_g2000103277586728_pallasbulk_447_7_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.KernelVsHost

set_option maxRecDepth 16384

noncomputable section

namespace Cert.KernelIdeal.HostParams

open Idealize.ShloMosaic Idealize.ShloMosaic.TcCoe Idealize.ShloMosaic.ValueIdx Idealize.SL.Sem
open Cert.KernelIdeal Cert.KernelIdeal.Gen Cert.KernelIdeal.Body

/-! ## Layout operations of the repacking, read at an index -/

section Layout
variable {α : Type}

/-- A cut of the slab from row `o` and column 0, read at `(k, q)`: the slab at row `o + k`, column `q`. -/
theorem slab_slice_apply {r w : ℕ} (o : ℕ) (X : S368x64.Idx → α) (h : S368x64.Slices ![o, 0] ⟨2, ![r, w]⟩)
    (k : Fin r) (q : Fin w) (k' : Fin 368) (q' : Fin 64) (hk : k'.val = o + k.val) (hq : q'.val = q.val) :
    extractStridedSlice ⟨2, ![r, w]⟩ ![o, 0] X h (ix2 k q) = X (ix2 k' q') :=
  extractStridedSlice_apply _ _ _ _ _ (fun a => match a with
    | ⟨0, _⟩ => hk
    | ⟨1, _⟩ => by show q'.val = 0 + q.val; omega)

/-- Two 64-column matrices set side by side, read at `(k, q)`: the first at column `q` when `q < 64`, else the second
    at column `q - 64`. -/
theorem concat_cols_apply {r : ℕ} (x₁ x₂ : (⟨2, ![r, 64]⟩ : Shape).Idx → α)
    (h : Shape.Concatenates [(⟨2, ![r, 64]⟩ : Shape), ⟨2, ![r, 64]⟩] ⟨2, ![r, 128]⟩ 1) (k : Fin r) (q : Fin 128) :
    concatenate ⟨2, ![r, 128]⟩ 1 [⟨⟨2, ![r, 64]⟩, x₁⟩, ⟨⟨2, ![r, 64]⟩, x₂⟩] h (ix2 k q)
      = if hq : q.val < 64 then x₁ (ix2 k ⟨q.val, hq⟩) else x₂ (ix2 k ⟨q.val - 64, by have := q.isLt; omega⟩) := by
  by_cases hq : q.val < 64
  · rw [dif_pos hq]
    exact concatenate_pair_apply_left 1 x₁ x₂ h (ix2 k q) rfl (ix2 k ⟨q.val, hq⟩) (fun b => match b with
      | ⟨0, _⟩ => rfl
      | ⟨1, _⟩ => rfl)
  · rw [dif_neg hq]
    exact concatenate_pair_apply_right 1 x₁ x₂ h (ix2 k q) rfl rfl (ix2 k ⟨q.val - 64, by have := q.isLt; omega⟩)
      (fun b hb => match b, hb with
        | ⟨0, _⟩, _ => rfl
        | ⟨1, _⟩, hb => absurd rfl hb)
      (by show (q.val - 64) + 64 = q.val; omega)

end Layout

/-! ## The bias array read at an index -/

/-- One bias column read at row `r`: a row of the slab cut from column 0, `w` long, reshaped to a vector, padded to 64
    entries and made a column, read inside the un-padded part, is the slab's entry. -/
theorem col_apply {w : ℕ} (o hiP : ℕ) (X : S368x64.Idx → EReal) (hs : S368x64.Slices ![o, 0] ⟨2, ![1, w]⟩)
    (hc : (⟨2, ![1, w]⟩ : Shape).ShapeCasts ⟨1, ![w]⟩) (hp : (⟨1, ![w]⟩ : Shape).Pads (![0] : Fin 1 → ℕ) ![hiP] ![0] S64)
    (z : S_.Idx → EReal) (r : Fin 64) (u : Fin 1) (i : Fin w) (hri : r.val = i.val)
    (r' : Fin 368) (hr' : r'.val = o) (q' : Fin 64) (hq' : q'.val = i.val) :
    broadcastInDim S64x1 ![0] bcast_S64_S64x1_0
        (pad S64 ![0] ![hiP] ![0] (shapeCast ⟨1, ![w]⟩ (extractStridedSlice ⟨2, ![1, w]⟩ ![o, 0] X hs) hc) z hp h_S_) (ix2 r u)
      = X (ix2 r' q') := by
  refine (broadcastInDim_apply _ _ _ (ix2 r u) (ix1 r) (fun a => match a with
    | ⟨0, _⟩ => rfl)).trans ?_
  refine (pad_apply_of_inside _ _ _ _ _ hp h_S_ (ix1 r) (ix1 i) (fun a => match a with
    | ⟨0, _⟩ => by show r.val = 0 + i.val * (0 + 1); omega)).trans ?_
  rw [shapeCast_1a_a_apply]
  exact slab_slice_apply o X hs 0 i r' q' (by rw [hr']; rfl) hq'

/-- Column 0 of the ten columns set side by side and padded to sixteen. -/
theorem bias_col0 (x0 x1 x2 x3 x4 x5 x6 x7 x8 x9 : S64x1.Idx → EReal) (z : S_.Idx → EReal) (r : Fin 64) :
    pad S64x16 ![0, 0] ![0, 6] ![0, 0] (concatenate S64x10 1 [⟨S64x1, x0⟩, ⟨S64x1, x1⟩, ⟨S64x1, x2⟩, ⟨S64x1, x3⟩, ⟨S64x1, x4⟩, ⟨S64x1, x5⟩, ⟨S64x1, x6⟩, ⟨S64x1, x7⟩, ⟨S64x1, x8⟩, ⟨S64x1, x9⟩] concatenates_S64x1_S64x1_S64x1_S64x1_S64x1_S64x1_S64x1_S64x1_S64x1_S64x1_S64x10_d1) z pads_S64x10_S64x16_000_060 h_S_ (ix2 r (0 : Fin 16))
      = x0 (ix2 r (0 : Fin 1)) := by
  refine (pad_apply_of_inside _ _ _ _ _ pads_S64x10_S64x16_000_060 h_S_ (ix2 r (0 : Fin 16)) (ix2 r (0 : Fin 10)) (fun a => match a with
    | ⟨0, _⟩ => by show r.val = 0 + r.val * (0 + 1); omega
    | ⟨1, _⟩ => rfl)).trans ?_
  exact concatenate_apply_piece 1 [⟨S64x1, x0⟩, ⟨S64x1, x1⟩, ⟨S64x1, x2⟩, ⟨S64x1, x3⟩, ⟨S64x1, x4⟩, ⟨S64x1, x5⟩, ⟨S64x1, x6⟩, ⟨S64x1, x7⟩, ⟨S64x1, x8⟩, ⟨S64x1, x9⟩] concatenates_S64x1_S64x1_S64x1_S64x1_S64x1_S64x1_S64x1_S64x1_S64x1_S64x1_S64x10_d1 (ix2 r (0 : Fin 10)) 0 (by simp) S64x1 x0 rfl rfl 0 rfl (ix2 r (0 : Fin 1))
    (fun b hb => match b, hb with
      | ⟨0, _⟩, _ => rfl
      | ⟨1, _⟩, hb => absurd rfl hb)
    rfl

/-- Column 1 of the ten columns set side by side and padded to sixteen. -/
theorem bias_col1 (x0 x1 x2 x3 x4 x5 x6 x7 x8 x9 : S64x1.Idx → EReal) (z : S_.Idx → EReal) (r : Fin 64) :
    pad S64x16 ![0, 0] ![0, 6] ![0, 0] (concatenate S64x10 1 [⟨S64x1, x0⟩, ⟨S64x1, x1⟩, ⟨S64x1, x2⟩, ⟨S64x1, x3⟩, ⟨S64x1, x4⟩, ⟨S64x1, x5⟩, ⟨S64x1, x6⟩, ⟨S64x1, x7⟩, ⟨S64x1, x8⟩, ⟨S64x1, x9⟩] concatenates_S64x1_S64x1_S64x1_S64x1_S64x1_S64x1_S64x1_S64x1_S64x1_S64x1_S64x10_d1) z pads_S64x10_S64x16_000_060 h_S_ (ix2 r (1 : Fin 16))
      = x1 (ix2 r (0 : Fin 1)) := by
  refine (pad_apply_of_inside _ _ _ _ _ pads_S64x10_S64x16_000_060 h_S_ (ix2 r (1 : Fin 16)) (ix2 r (1 : Fin 10)) (fun a => match a with
    | ⟨0, _⟩ => by show r.val = 0 + r.val * (0 + 1); omega
    | ⟨1, _⟩ => rfl)).trans ?_
  exact concatenate_apply_piece 1 [⟨S64x1, x0⟩, ⟨S64x1, x1⟩, ⟨S64x1, x2⟩, ⟨S64x1, x3⟩, ⟨S64x1, x4⟩, ⟨S64x1, x5⟩, ⟨S64x1, x6⟩, ⟨S64x1, x7⟩, ⟨S64x1, x8⟩, ⟨S64x1, x9⟩] concatenates_S64x1_S64x1_S64x1_S64x1_S64x1_S64x1_S64x1_S64x1_S64x1_S64x1_S64x10_d1 (ix2 r (1 : Fin 10)) 1 (by simp) S64x1 x1 rfl rfl 1 rfl (ix2 r (0 : Fin 1))
    (fun b hb => match b, hb with
      | ⟨0, _⟩, _ => rfl
      | ⟨1, _⟩, hb => absurd rfl hb)
    rfl

/-- Column 2 of the ten columns set side by side and padded to sixteen. -/
theorem bias_col2 (x0 x1 x2 x3 x4 x5 x6 x7 x8 x9 : S64x1.Idx → EReal) (z : S_.Idx → EReal) (r : Fin 64) :
    pad S64x16 ![0, 0] ![0, 6] ![0, 0] (concatenate S64x10 1 [⟨S64x1, x0⟩, ⟨S64x1, x1⟩, ⟨S64x1, x2⟩, ⟨S64x1, x3⟩, ⟨S64x1, x4⟩, ⟨S64x1, x5⟩, ⟨S64x1, x6⟩, ⟨S64x1, x7⟩, ⟨S64x1, x8⟩, ⟨S64x1, x9⟩] concatenates_S64x1_S64x1_S64x1_S64x1_S64x1_S64x1_S64x1_S64x1_S64x1_S64x1_S64x10_d1) z pads_S64x10_S64x16_000_060 h_S_ (ix2 r (2 : Fin 16))
      = x2 (ix2 r (0 : Fin 1)) := by
  refine (pad_apply_of_inside _ _ _ _ _ pads_S64x10_S64x16_000_060 h_S_ (ix2 r (2 : Fin 16)) (ix2 r (2 : Fin 10)) (fun a => match a with
    | ⟨0, _⟩ => by show r.val = 0 + r.val * (0 + 1); omega
    | ⟨1, _⟩ => rfl)).trans ?_
  exact concatenate_apply_piece 1 [⟨S64x1, x0⟩, ⟨S64x1, x1⟩, ⟨S64x1, x2⟩, ⟨S64x1, x3⟩, ⟨S64x1, x4⟩, ⟨S64x1, x5⟩, ⟨S64x1, x6⟩, ⟨S64x1, x7⟩, ⟨S64x1, x8⟩, ⟨S64x1, x9⟩] concatenates_S64x1_S64x1_S64x1_S64x1_S64x1_S64x1_S64x1_S64x1_S64x1_S64x1_S64x10_d1 (ix2 r (2 : Fin 10)) 2 (by simp) S64x1 x2 rfl rfl 2 rfl (ix2 r (0 : Fin 1))
    (fun b hb => match b, hb with
      | ⟨0, _⟩, _ => rfl
      | ⟨1, _⟩, hb => absurd rfl hb)
    rfl

/-- Column 3 of the ten columns set side by side and padded to sixteen. -/
theorem bias_col3 (x0 x1 x2 x3 x4 x5 x6 x7 x8 x9 : S64x1.Idx → EReal) (z : S_.Idx → EReal) (r : Fin 64) :
    pad S64x16 ![0, 0] ![0, 6] ![0, 0] (concatenate S64x10 1 [⟨S64x1, x0⟩, ⟨S64x1, x1⟩, ⟨S64x1, x2⟩, ⟨S64x1, x3⟩, ⟨S64x1, x4⟩, ⟨S64x1, x5⟩, ⟨S64x1, x6⟩, ⟨S64x1, x7⟩, ⟨S64x1, x8⟩, ⟨S64x1, x9⟩] concatenates_S64x1_S64x1_S64x1_S64x1_S64x1_S64x1_S64x1_S64x1_S64x1_S64x1_S64x10_d1) z pads_S64x10_S64x16_000_060 h_S_ (ix2 r (3 : Fin 16))
      = x3 (ix2 r (0 : Fin 1)) := by
  refine (pad_apply_of_inside _ _ _ _ _ pads_S64x10_S64x16_000_060 h_S_ (ix2 r (3 : Fin 16)) (ix2 r (3 : Fin 10)) (fun a => match a with
    | ⟨0, _⟩ => by show r.val = 0 + r.val * (0 + 1); omega
    | ⟨1, _⟩ => rfl)).trans ?_
  exact concatenate_apply_piece 1 [⟨S64x1, x0⟩, ⟨S64x1, x1⟩, ⟨S64x1, x2⟩, ⟨S64x1, x3⟩, ⟨S64x1, x4⟩, ⟨S64x1, x5⟩, ⟨S64x1, x6⟩, ⟨S64x1, x7⟩, ⟨S64x1, x8⟩, ⟨S64x1, x9⟩] concatenates_S64x1_S64x1_S64x1_S64x1_S64x1_S64x1_S64x1_S64x1_S64x1_S64x1_S64x10_d1 (ix2 r (3 : Fin 10)) 3 (by simp) S64x1 x3 rfl rfl 3 rfl (ix2 r (0 : Fin 1))
    (fun b hb => match b, hb with
      | ⟨0, _⟩, _ => rfl
      | ⟨1, _⟩, hb => absurd rfl hb)
    rfl

/-- Column 4 of the ten columns set side by side and padded to sixteen. -/
theorem bias_col4 (x0 x1 x2 x3 x4 x5 x6 x7 x8 x9 : S64x1.Idx → EReal) (z : S_.Idx → EReal) (r : Fin 64) :
    pad S64x16 ![0, 0] ![0, 6] ![0, 0] (concatenate S64x10 1 [⟨S64x1, x0⟩, ⟨S64x1, x1⟩, ⟨S64x1, x2⟩, ⟨S64x1, x3⟩, ⟨S64x1, x4⟩, ⟨S64x1, x5⟩, ⟨S64x1, x6⟩, ⟨S64x1, x7⟩, ⟨S64x1, x8⟩, ⟨S64x1, x9⟩] concatenates_S64x1_S64x1_S64x1_S64x1_S64x1_S64x1_S64x1_S64x1_S64x1_S64x1_S64x10_d1) z pads_S64x10_S64x16_000_060 h_S_ (ix2 r (4 : Fin 16))
      = x4 (ix2 r (0 : Fin 1)) := by
  refine (pad_apply_of_inside _ _ _ _ _ pads_S64x10_S64x16_000_060 h_S_ (ix2 r (4 : Fin 16)) (ix2 r (4 : Fin 10)) (fun a => match a with
    | ⟨0, _⟩ => by show r.val = 0 + r.val * (0 + 1); omega
    | ⟨1, _⟩ => rfl)).trans ?_
  exact concatenate_apply_piece 1 [⟨S64x1, x0⟩, ⟨S64x1, x1⟩, ⟨S64x1, x2⟩, ⟨S64x1, x3⟩, ⟨S64x1, x4⟩, ⟨S64x1, x5⟩, ⟨S64x1, x6⟩, ⟨S64x1, x7⟩, ⟨S64x1, x8⟩, ⟨S64x1, x9⟩] concatenates_S64x1_S64x1_S64x1_S64x1_S64x1_S64x1_S64x1_S64x1_S64x1_S64x1_S64x10_d1 (ix2 r (4 : Fin 10)) 4 (by simp) S64x1 x4 rfl rfl 4 rfl (ix2 r (0 : Fin 1))
    (fun b hb => match b, hb with
      | ⟨0, _⟩, _ => rfl
      | ⟨1, _⟩, hb => absurd rfl hb)
    rfl

/-- Column 5 of the ten columns set side by side and padded to sixteen. -/
theorem bias_col5 (x0 x1 x2 x3 x4 x5 x6 x7 x8 x9 : S64x1.Idx → EReal) (z : S_.Idx → EReal) (r : Fin 64) :
    pad S64x16 ![0, 0] ![0, 6] ![0, 0] (concatenate S64x10 1 [⟨S64x1, x0⟩, ⟨S64x1, x1⟩, ⟨S64x1, x2⟩, ⟨S64x1, x3⟩, ⟨S64x1, x4⟩, ⟨S64x1, x5⟩, ⟨S64x1, x6⟩, ⟨S64x1, x7⟩, ⟨S64x1, x8⟩, ⟨S64x1, x9⟩] concatenates_S64x1_S64x1_S64x1_S64x1_S64x1_S64x1_S64x1_S64x1_S64x1_S64x1_S64x10_d1) z pads_S64x10_S64x16_000_060 h_S_ (ix2 r (5 : Fin 16))
      = x5 (ix2 r (0 : Fin 1)) := by
  refine (pad_apply_of_inside _ _ _ _ _ pads_S64x10_S64x16_000_060 h_S_ (ix2 r (5 : Fin 16)) (ix2 r (5 : Fin 10)) (fun a => match a with
    | ⟨0, _⟩ => by show r.val = 0 + r.val * (0 + 1); omega
    | ⟨1, _⟩ => rfl)).trans ?_
  exact concatenate_apply_piece 1 [⟨S64x1, x0⟩, ⟨S64x1, x1⟩, ⟨S64x1, x2⟩, ⟨S64x1, x3⟩, ⟨S64x1, x4⟩, ⟨S64x1, x5⟩, ⟨S64x1, x6⟩, ⟨S64x1, x7⟩, ⟨S64x1, x8⟩, ⟨S64x1, x9⟩] concatenates_S64x1_S64x1_S64x1_S64x1_S64x1_S64x1_S64x1_S64x1_S64x1_S64x1_S64x10_d1 (ix2 r (5 : Fin 10)) 5 (by simp) S64x1 x5 rfl rfl 5 rfl (ix2 r (0 : Fin 1))
    (fun b hb => match b, hb with
      | ⟨0, _⟩, _ => rfl
      | ⟨1, _⟩, hb => absurd rfl hb)
    rfl

/-- Column 6 of the ten columns set side by side and padded to sixteen. -/
theorem bias_col6 (x0 x1 x2 x3 x4 x5 x6 x7 x8 x9 : S64x1.Idx → EReal) (z : S_.Idx → EReal) (r : Fin 64) :
    pad S64x16 ![0, 0] ![0, 6] ![0, 0] (concatenate S64x10 1 [⟨S64x1, x0⟩, ⟨S64x1, x1⟩, ⟨S64x1, x2⟩, ⟨S64x1, x3⟩, ⟨S64x1, x4⟩, ⟨S64x1, x5⟩, ⟨S64x1, x6⟩, ⟨S64x1, x7⟩, ⟨S64x1, x8⟩, ⟨S64x1, x9⟩] concatenates_S64x1_S64x1_S64x1_S64x1_S64x1_S64x1_S64x1_S64x1_S64x1_S64x1_S64x10_d1) z pads_S64x10_S64x16_000_060 h_S_ (ix2 r (6 : Fin 16))
      = x6 (ix2 r (0 : Fin 1)) := by
  refine (pad_apply_of_inside _ _ _ _ _ pads_S64x10_S64x16_000_060 h_S_ (ix2 r (6 : Fin 16)) (ix2 r (6 : Fin 10)) (fun a => match a with
    | ⟨0, _⟩ => by show r.val = 0 + r.val * (0 + 1); omega
    | ⟨1, _⟩ => rfl)).trans ?_
  exact concatenate_apply_piece 1 [⟨S64x1, x0⟩, ⟨S64x1, x1⟩, ⟨S64x1, x2⟩, ⟨S64x1, x3⟩, ⟨S64x1, x4⟩, ⟨S64x1, x5⟩, ⟨S64x1, x6⟩, ⟨S64x1, x7⟩, ⟨S64x1, x8⟩, ⟨S64x1, x9⟩] concatenates_S64x1_S64x1_S64x1_S64x1_S64x1_S64x1_S64x1_S64x1_S64x1_S64x1_S64x10_d1 (ix2 r (6 : Fin 10)) 6 (by simp) S64x1 x6 rfl rfl 6 rfl (ix2 r (0 : Fin 1))
    (fun b hb => match b, hb with
      | ⟨0, _⟩, _ => rfl
      | ⟨1, _⟩, hb => absurd rfl hb)
    rfl

/-- Column 7 of the ten columns set side by side and padded to sixteen. -/
theorem bias_col7 (x0 x1 x2 x3 x4 x5 x6 x7 x8 x9 : S64x1.Idx → EReal) (z : S_.Idx → EReal) (r : Fin 64) :
    pad S64x16 ![0, 0] ![0, 6] ![0, 0] (concatenate S64x10 1 [⟨S64x1, x0⟩, ⟨S64x1, x1⟩, ⟨S64x1, x2⟩, ⟨S64x1, x3⟩, ⟨S64x1, x4⟩, ⟨S64x1, x5⟩, ⟨S64x1, x6⟩, ⟨S64x1, x7⟩, ⟨S64x1, x8⟩, ⟨S64x1, x9⟩] concatenates_S64x1_S64x1_S64x1_S64x1_S64x1_S64x1_S64x1_S64x1_S64x1_S64x1_S64x10_d1) z pads_S64x10_S64x16_000_060 h_S_ (ix2 r (7 : Fin 16))
      = x7 (ix2 r (0 : Fin 1)) := by
  refine (pad_apply_of_inside _ _ _ _ _ pads_S64x10_S64x16_000_060 h_S_ (ix2 r (7 : Fin 16)) (ix2 r (7 : Fin 10)) (fun a => match a with
    | ⟨0, _⟩ => by show r.val = 0 + r.val * (0 + 1); omega
    | ⟨1, _⟩ => rfl)).trans ?_
  exact concatenate_apply_piece 1 [⟨S64x1, x0⟩, ⟨S64x1, x1⟩, ⟨S64x1, x2⟩, ⟨S64x1, x3⟩, ⟨S64x1, x4⟩, ⟨S64x1, x5⟩, ⟨S64x1, x6⟩, ⟨S64x1, x7⟩, ⟨S64x1, x8⟩, ⟨S64x1, x9⟩] concatenates_S64x1_S64x1_S64x1_S64x1_S64x1_S64x1_S64x1_S64x1_S64x1_S64x1_S64x10_d1 (ix2 r (7 : Fin 10)) 7 (by simp) S64x1 x7 rfl rfl 7 rfl (ix2 r (0 : Fin 1))
    (fun b hb => match b, hb with
      | ⟨0, _⟩, _ => rfl
      | ⟨1, _⟩, hb => absurd rfl hb)
    rfl

/-- Column 8 of the ten columns set side by side and padded to sixteen. -/
theorem bias_col8 (x0 x1 x2 x3 x4 x5 x6 x7 x8 x9 : S64x1.Idx → EReal) (z : S_.Idx → EReal) (r : Fin 64) :
    pad S64x16 ![0, 0] ![0, 6] ![0, 0] (concatenate S64x10 1 [⟨S64x1, x0⟩, ⟨S64x1, x1⟩, ⟨S64x1, x2⟩, ⟨S64x1, x3⟩, ⟨S64x1, x4⟩, ⟨S64x1, x5⟩, ⟨S64x1, x6⟩, ⟨S64x1, x7⟩, ⟨S64x1, x8⟩, ⟨S64x1, x9⟩] concatenates_S64x1_S64x1_S64x1_S64x1_S64x1_S64x1_S64x1_S64x1_S64x1_S64x1_S64x10_d1) z pads_S64x10_S64x16_000_060 h_S_ (ix2 r (8 : Fin 16))
      = x8 (ix2 r (0 : Fin 1)) := by
  refine (pad_apply_of_inside _ _ _ _ _ pads_S64x10_S64x16_000_060 h_S_ (ix2 r (8 : Fin 16)) (ix2 r (8 : Fin 10)) (fun a => match a with
    | ⟨0, _⟩ => by show r.val = 0 + r.val * (0 + 1); omega
    | ⟨1, _⟩ => rfl)).trans ?_
  exact concatenate_apply_piece 1 [⟨S64x1, x0⟩, ⟨S64x1, x1⟩, ⟨S64x1, x2⟩, ⟨S64x1, x3⟩, ⟨S64x1, x4⟩, ⟨S64x1, x5⟩, ⟨S64x1, x6⟩, ⟨S64x1, x7⟩, ⟨S64x1, x8⟩, ⟨S64x1, x9⟩] concatenates_S64x1_S64x1_S64x1_S64x1_S64x1_S64x1_S64x1_S64x1_S64x1_S64x1_S64x10_d1 (ix2 r (8 : Fin 10)) 8 (by simp) S64x1 x8 rfl rfl 8 rfl (ix2 r (0 : Fin 1))
    (fun b hb => match b, hb with
      | ⟨0, _⟩, _ => rfl
      | ⟨1, _⟩, hb => absurd rfl hb)
    rfl

/-- Column 9 of the ten columns set side by side and padded to sixteen. -/
theorem bias_col9 (x0 x1 x2 x3 x4 x5 x6 x7 x8 x9 : S64x1.Idx → EReal) (z : S_.Idx → EReal) (r : Fin 64) :
    pad S64x16 ![0, 0] ![0, 6] ![0, 0] (concatenate S64x10 1 [⟨S64x1, x0⟩, ⟨S64x1, x1⟩, ⟨S64x1, x2⟩, ⟨S64x1, x3⟩, ⟨S64x1, x4⟩, ⟨S64x1, x5⟩, ⟨S64x1, x6⟩, ⟨S64x1, x7⟩, ⟨S64x1, x8⟩, ⟨S64x1, x9⟩] concatenates_S64x1_S64x1_S64x1_S64x1_S64x1_S64x1_S64x1_S64x1_S64x1_S64x1_S64x10_d1) z pads_S64x10_S64x16_000_060 h_S_ (ix2 r (9 : Fin 16))
      = x9 (ix2 r (0 : Fin 1)) := by
  refine (pad_apply_of_inside _ _ _ _ _ pads_S64x10_S64x16_000_060 h_S_ (ix2 r (9 : Fin 16)) (ix2 r (9 : Fin 10)) (fun a => match a with
    | ⟨0, _⟩ => by show r.val = 0 + r.val * (0 + 1); omega
    | ⟨1, _⟩ => rfl)).trans ?_
  exact concatenate_apply_piece 1 [⟨S64x1, x0⟩, ⟨S64x1, x1⟩, ⟨S64x1, x2⟩, ⟨S64x1, x3⟩, ⟨S64x1, x4⟩, ⟨S64x1, x5⟩, ⟨S64x1, x6⟩, ⟨S64x1, x7⟩, ⟨S64x1, x8⟩, ⟨S64x1, x9⟩] concatenates_S64x1_S64x1_S64x1_S64x1_S64x1_S64x1_S64x1_S64x1_S64x1_S64x1_S64x10_d1 (ix2 r (9 : Fin 10)) 9 (by simp) S64x1 x9 rfl rfl 9 rfl (ix2 r (0 : Fin 1))
    (fun b hb => match b, hb with
      | ⟨0, _⟩, _ => rfl
      | ⟨1, _⟩, hb => absurd rfl hb)
    rfl

/-! ## The host operations' results -/

/-- A ten-operand operation's result with each operand's contents at its own reference. -/
theorem nary10_result {x0 x1 x2 x3 x4 x5 x6 x7 x8 x9 y : Ref sig .tc}
    (f : ((k : Fin 10) → ((![x0, x1, x2, x3, x4, x5, x6, x7, x8, x9] : Fin 10 → Ref sig .tc) k).ty.Contents (Elt Ideal)) → y.ty.Contents (Elt Ideal)) (hxs hy)
    (F : Valuation τ sig (Elt Ideal)) :
    (StableHlo.nary (τ := τ) ![x0, x1, x2, x3, x4, x5, x6, x7, x8, x9] y f hxs hy).result F (Proc.devRef .tc y)
      = f (Fin.cons (F (Proc.devRef .tc x0)) (Fin.cons (F (Proc.devRef .tc x1)) (Fin.cons (F (Proc.devRef .tc x2)) (Fin.cons (F (Proc.devRef .tc x3)) (Fin.cons (F (Proc.devRef .tc x4)) (Fin.cons (F (Proc.devRef .tc x5)) (Fin.cons (F (Proc.devRef .tc x6)) (Fin.cons (F (Proc.devRef .tc x7)) (Fin.cons (F (Proc.devRef .tc x8)) (Fin.cons (F (Proc.devRef .tc x9)) (fun i => i.elim0))))))))))) := by
  rw [StableHlo.nary_result]; congr 1; funext k; fin_cases k <;> rfl

open Idealize.ShloMosaic.StableHlo in
macro "after_results10" : tactic =>
  `(tactic| (simp only [after_cons, after_nil]
             repeat (first
               | rw [nullary_result] | rw [unary_result] | rw [binary_result]
               | rw [reshape_result] | rw [nary10_result]
               | (rw [nullary_result_ne]; rotate_left; decide)
               | (rw [unary_result_ne]; rotate_left; decide)
               | (rw [binary_result_ne]; rotate_left; decide)
               | (rw [reshape_result_ne]; rotate_left; decide)
               | (rw [nary_result_ne]; rotate_left; decide))))

section Arrays
variable (m : (ℓ : Loc nD τ sig) → Buf (Elt Ideal) ℓ) (c : Dev nD)

/-- The arrays after the host operations that come before the ten broadcasts. -/
abbrev W : Valuation τ sig (Elt Ideal) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19]) (fun b => m (c, b))

/-- A line of operations whose last two stretches are `a` and `b` is the line before them, then `a` and `b`. -/
theorem after_flatten_append_pair {τ : Topo} {sig : RefSig} {Val : EltTy → Type} (L : List (List (HloOp τ sig Val)))
    (a b : List (HloOp τ sig Val)) (V0 : Valuation τ sig Val) :
    StableHlo.after (L ++ [a, b]).flatten V0 = StableHlo.after (a ++ b) (StableHlo.after L.flatten V0) := by
  rw [List.flatten_append, StableHlo.after_append]
  simp only [List.flatten_cons, List.flatten_nil, List.append_nil]

set_option maxHeartbeats 2000000 in
/-- The arrays the grid finds are the last fourteen host operations run from `W`. -/
theorem V_eq_W (b : Ref sig .tc) : V m c b = StableHlo.after (hostOps0_20 ++ hostOps0_21) (W m c) b :=
  congrFun (after_flatten_append_pair [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19] hostOps0_20 hostOps0_21 (fun b => m (c, b))) (Proc.devRef .tc b)

/-! ## The six matrices -/

theorem v6_term : (V m c main_v6 : S64x32.Idx → EReal) = extractStridedSlice S64x32 ![16, 0] (m ((c.tc : Thread nD τ).loc main_arg2)) slices_S368x64_S64x32_16_0 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append, List.nil_append]
  after_results

theorem m10_eq : (fun (k : Fin 64) (q : Fin 32) => V m c main_v6 (ix2 k q))
    = fun k q => (m ((c.tc : Thread nD τ).loc main_arg2)) (ix2 (Cert.Spec.prow 16 k (by decide)) (Cert.Spec.lo q)) := by
  funext k q
  rw [v6_term]
  exact slab_slice_apply 16 _ _ k q _ _ rfl rfl

theorem v7_term : (V m c main_v7 : S64x32.Idx → EReal) = extractStridedSlice S64x32 ![128, 0] (m ((c.tc : Thread nD τ).loc main_arg2)) slices_S368x64_S64x32_128_0 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append, List.nil_append]
  after_results

theorem m11_eq : (fun (k : Fin 64) (q : Fin 32) => V m c main_v7 (ix2 k q))
    = fun k q => (m ((c.tc : Thread nD τ).loc main_arg2)) (ix2 (Cert.Spec.prow 128 k (by decide)) (Cert.Spec.lo q)) := by
  funext k q
  rw [v7_term]
  exact slab_slice_apply 128 _ _ k q _ _ rfl rfl

theorem v8_term : (V m c main_v8 : S32x32.Idx → EReal) = extractStridedSlice S32x32 ![224, 0] (m ((c.tc : Thread nD τ).loc main_arg2)) slices_S368x64_S32x32_224_0 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append, List.nil_append]
  after_results

theorem p1_eq : (fun (k : Fin 32) (q : Fin 32) => V m c main_v8 (ix2 k q))
    = fun k q => (m ((c.tc : Thread nD τ).loc main_arg2)) (ix2 (Cert.Spec.prow 224 k (by decide)) (Cert.Spec.lo q)) := by
  funext k q
  rw [v8_term]
  exact slab_slice_apply 224 _ _ k q _ _ rfl rfl

theorem v9_term : (V m c main_v9 : S32x32.Idx → EReal) = extractStridedSlice S32x32 ![256, 0] (m ((c.tc : Thread nD τ).loc main_arg2)) slices_S368x64_S32x32_256_0 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append, List.nil_append]
  after_results

theorem p2_eq : (fun (k : Fin 32) (q : Fin 32) => V m c main_v9 (ix2 k q))
    = fun k q => (m ((c.tc : Thread nD τ).loc main_arg2)) (ix2 (Cert.Spec.prow 256 k (by decide)) (Cert.Spec.lo q)) := by
  funext k q
  rw [v9_term]
  exact slab_slice_apply 256 _ _ k q _ _ rfl rfl

theorem v2_term : (V m c main_v2 : S16x128.Idx → EReal) = concatenate S16x128 1 [⟨S16x64, extractStridedSlice S16x64 ![0, 0] (m ((c.tc : Thread nD τ).loc main_arg2)) slices_S368x64_S16x64_0_0⟩, ⟨S16x64, extractStridedSlice S16x64 ![80, 0] (m ((c.tc : Thread nD τ).loc main_arg2)) slices_S368x64_S16x64_80_0⟩] concatenates_S16x64_S16x64_S16x128_d1 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append, List.nil_append]
  after_results

theorem w0_eq : (fun (k : Fin 16) (q : Fin 128) => V m c main_v2 (ix2 k q))
    = fun k q => if h : q.val < 64 then (m ((c.tc : Thread nD τ).loc main_arg2)) (ix2 (Cert.Spec.prow 0 k (by decide)) ⟨q.val, h⟩)
        else (m ((c.tc : Thread nD τ).loc main_arg2)) (ix2 (Cert.Spec.prow 80 k (by decide)) ⟨q.val - 64, by have := q.isLt; omega⟩) := by
  funext k q
  rw [v2_term, concat_cols_apply]
  by_cases hq : q.val < 64
  · rw [dif_pos hq, dif_pos hq]
    exact slab_slice_apply 0 _ _ k _ _ _ rfl rfl
  · rw [dif_neg hq, dif_neg hq]
    exact slab_slice_apply 80 _ _ k _ _ _ rfl rfl

theorem v5_term : (V m c main_v5 : S32x128.Idx → EReal) = concatenate S32x128 1 [⟨S32x64, extractStridedSlice S32x64 ![96, 0] (m ((c.tc : Thread nD τ).loc main_arg2)) slices_S368x64_S32x64_96_0⟩, ⟨S32x64, extractStridedSlice S32x64 ![192, 0] (m ((c.tc : Thread nD τ).loc main_arg2)) slices_S368x64_S32x64_192_0⟩] concatenates_S32x64_S32x64_S32x128_d1 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append, List.nil_append]
  after_results

theorem w1_eq : (fun (k : Fin 32) (q : Fin 128) => V m c main_v5 (ix2 k q))
    = fun k q => if h : q.val < 64 then (m ((c.tc : Thread nD τ).loc main_arg2)) (ix2 (Cert.Spec.prow 96 k (by decide)) ⟨q.val, h⟩)
        else (m ((c.tc : Thread nD τ).loc main_arg2)) (ix2 (Cert.Spec.prow 192 k (by decide)) ⟨q.val - 64, by have := q.isLt; omega⟩) := by
  funext k q
  rw [v5_term, concat_cols_apply]
  by_cases hq : q.val < 64
  · rw [dif_pos hq, dif_pos hq]
    exact slab_slice_apply 96 _ _ k _ _ _ rfl rfl
  · rw [dif_neg hq, dif_neg hq]
    exact slab_slice_apply 192 _ _ k _ _ _ rfl rfl

/-! ## The bias array -/

/-- The ten broadcasts, and the four operations after them: the last fourteen host operations. -/
abbrev hostBcasts : List (HloOp τ sig (Elt Ideal)) :=
  [ StableHlo.unary main_v12 main_v40 (broadcastInDim S64x1 ![0] bcast_S64_S64x1_0 : (⟨S64, .f32⟩ : BufTy).Contents (Elt Ideal) → (⟨S64x1, .f32⟩ : BufTy).Contents (Elt Ideal)),
    StableHlo.unary main_v15 main_v41 (broadcastInDim S64x1 ![0] bcast_S64_S64x1_0 : (⟨S64, .f32⟩ : BufTy).Contents (Elt Ideal) → (⟨S64x1, .f32⟩ : BufTy).Contents (Elt Ideal)),
    StableHlo.unary main_v18 main_v42 (broadcastInDim S64x1 ![0] bcast_S64_S64x1_0 : (⟨S64, .f32⟩ : BufTy).Contents (Elt Ideal) → (⟨S64x1, .f32⟩ : BufTy).Contents (Elt Ideal)),
    StableHlo.unary main_v21 main_v43 (broadcastInDim S64x1 ![0] bcast_S64_S64x1_0 : (⟨S64, .f32⟩ : BufTy).Contents (Elt Ideal) → (⟨S64x1, .f32⟩ : BufTy).Contents (Elt Ideal)),
    StableHlo.unary main_v24 main_v44 (broadcastInDim S64x1 ![0] bcast_S64_S64x1_0 : (⟨S64, .f32⟩ : BufTy).Contents (Elt Ideal) → (⟨S64x1, .f32⟩ : BufTy).Contents (Elt Ideal)),
    StableHlo.unary main_v27 main_v45 (broadcastInDim S64x1 ![0] bcast_S64_S64x1_0 : (⟨S64, .f32⟩ : BufTy).Contents (Elt Ideal) → (⟨S64x1, .f32⟩ : BufTy).Contents (Elt Ideal)),
    StableHlo.unary main_v30 main_v46 (broadcastInDim S64x1 ![0] bcast_S64_S64x1_0 : (⟨S64, .f32⟩ : BufTy).Contents (Elt Ideal) → (⟨S64x1, .f32⟩ : BufTy).Contents (Elt Ideal)),
    StableHlo.unary main_v33 main_v47 (broadcastInDim S64x1 ![0] bcast_S64_S64x1_0 : (⟨S64, .f32⟩ : BufTy).Contents (Elt Ideal) → (⟨S64x1, .f32⟩ : BufTy).Contents (Elt Ideal)),
    StableHlo.unary main_v36 main_v48 (broadcastInDim S64x1 ![0] bcast_S64_S64x1_0 : (⟨S64, .f32⟩ : BufTy).Contents (Elt Ideal) → (⟨S64x1, .f32⟩ : BufTy).Contents (Elt Ideal)),
    StableHlo.unary main_v39 main_v49 (broadcastInDim S64x1 ![0] bcast_S64_S64x1_0 : (⟨S64, .f32⟩ : BufTy).Contents (Elt Ideal) → (⟨S64x1, .f32⟩ : BufTy).Contents (Elt Ideal)) ]
@[inherit_doc hostBcasts]
abbrev hostTail : List (HloOp τ sig (Elt Ideal)) :=
  [ StableHlo.nary ![main_v40, main_v41, main_v42, main_v43, main_v44, main_v45, main_v46, main_v47, main_v48, main_v49] main_v50 (fun u => concatenate S64x10 1 [⟨S64x1, u 0⟩, ⟨S64x1, u 1⟩, ⟨S64x1, u 2⟩, ⟨S64x1, u 3⟩, ⟨S64x1, u 4⟩, ⟨S64x1, u 5⟩, ⟨S64x1, u 6⟩, ⟨S64x1, u 7⟩, ⟨S64x1, u 8⟩, ⟨S64x1, u 9⟩] concatenates_S64x1_S64x1_S64x1_S64x1_S64x1_S64x1_S64x1_S64x1_S64x1_S64x1_S64x10_d1),
    StableHlo.nullary main_c_9 (constantI S_ 32 0#32),
    StableHlo.TRef.unary (.of main_c_9 : StableHlo.TRef sig ⟨S_, .i32⟩) (.of main_call10_v0 : StableHlo.TRef sig ⟨S_, .f32⟩) (sitofp (F := Ideal) .f32),
    StableHlo.TRef.binary (.of main_v50 : StableHlo.TRef sig ⟨S64x10, .f32⟩) (.of main_call10_v0 : StableHlo.TRef sig ⟨S_, .f32⟩) (.of main_v51 : StableHlo.TRef sig ⟨S64x16, .f32⟩) (fun x v => pad S64x16 ![0, 0] ![0, 6] ![0, 0] x v pads_S64x10_S64x16_000_060 h_S_) ]

theorem tail_split : (hostOps0_20 ++ hostOps0_21 : List (HloOp τ sig (Elt Ideal))) = hostBcasts ++ hostTail := rfl

set_option maxHeartbeats 2000000 in
/-- The last four operations: the ten columns set side by side, six zero columns appended. -/
theorem tail_result (w : Valuation τ sig (Elt Ideal)) : (StableHlo.after hostTail w main_v51 : S64x16.Idx → EReal) =
    pad S64x16 ![0, 0] ![0, 6] ![0, 0] (concatenate S64x10 1 [⟨S64x1, (w main_v40 : S64x1.Idx → EReal)⟩, ⟨S64x1, (w main_v41 : S64x1.Idx → EReal)⟩, ⟨S64x1, (w main_v42 : S64x1.Idx → EReal)⟩, ⟨S64x1, (w main_v43 : S64x1.Idx → EReal)⟩, ⟨S64x1, (w main_v44 : S64x1.Idx → EReal)⟩, ⟨S64x1, (w main_v45 : S64x1.Idx → EReal)⟩, ⟨S64x1, (w main_v46 : S64x1.Idx → EReal)⟩, ⟨S64x1, (w main_v47 : S64x1.Idx → EReal)⟩, ⟨S64x1, (w main_v48 : S64x1.Idx → EReal)⟩, ⟨S64x1, (w main_v49 : S64x1.Idx → EReal)⟩] concatenates_S64x1_S64x1_S64x1_S64x1_S64x1_S64x1_S64x1_S64x1_S64x1_S64x1_S64x10_d1) (sitofp (F := Ideal) .f32 (constantI S_ 32 0#32)) pads_S64x10_S64x16_000_060 h_S_ := by
  dsimp only [hostTail]
  after_results10
  rfl

theorem bcast_result0 (w : Valuation τ sig (Elt Ideal)) : (StableHlo.after hostBcasts w main_v40 : S64x1.Idx → EReal) =
    broadcastInDim S64x1 ![0] bcast_S64_S64x1_0 (w main_v12 : S64.Idx → EReal) := by
  dsimp only [hostBcasts]
  after_results

theorem bcast_result1 (w : Valuation τ sig (Elt Ideal)) : (StableHlo.after hostBcasts w main_v41 : S64x1.Idx → EReal) =
    broadcastInDim S64x1 ![0] bcast_S64_S64x1_0 (w main_v15 : S64.Idx → EReal) := by
  dsimp only [hostBcasts]
  after_results

theorem bcast_result2 (w : Valuation τ sig (Elt Ideal)) : (StableHlo.after hostBcasts w main_v42 : S64x1.Idx → EReal) =
    broadcastInDim S64x1 ![0] bcast_S64_S64x1_0 (w main_v18 : S64.Idx → EReal) := by
  dsimp only [hostBcasts]
  after_results

theorem bcast_result3 (w : Valuation τ sig (Elt Ideal)) : (StableHlo.after hostBcasts w main_v43 : S64x1.Idx → EReal) =
    broadcastInDim S64x1 ![0] bcast_S64_S64x1_0 (w main_v21 : S64.Idx → EReal) := by
  dsimp only [hostBcasts]
  after_results

theorem bcast_result4 (w : Valuation τ sig (Elt Ideal)) : (StableHlo.after hostBcasts w main_v44 : S64x1.Idx → EReal) =
    broadcastInDim S64x1 ![0] bcast_S64_S64x1_0 (w main_v24 : S64.Idx → EReal) := by
  dsimp only [hostBcasts]
  after_results

theorem bcast_result5 (w : Valuation τ sig (Elt Ideal)) : (StableHlo.after hostBcasts w main_v45 : S64x1.Idx → EReal) =
    broadcastInDim S64x1 ![0] bcast_S64_S64x1_0 (w main_v27 : S64.Idx → EReal) := by
  dsimp only [hostBcasts]
  after_results

theorem bcast_result6 (w : Valuation τ sig (Elt Ideal)) : (StableHlo.after hostBcasts w main_v46 : S64x1.Idx → EReal) =
    broadcastInDim S64x1 ![0] bcast_S64_S64x1_0 (w main_v30 : S64.Idx → EReal) := by
  dsimp only [hostBcasts]
  after_results

theorem bcast_result7 (w : Valuation τ sig (Elt Ideal)) : (StableHlo.after hostBcasts w main_v47 : S64x1.Idx → EReal) =
    broadcastInDim S64x1 ![0] bcast_S64_S64x1_0 (w main_v33 : S64.Idx → EReal) := by
  dsimp only [hostBcasts]
  after_results

theorem bcast_result8 (w : Valuation τ sig (Elt Ideal)) : (StableHlo.after hostBcasts w main_v48 : S64x1.Idx → EReal) =
    broadcastInDim S64x1 ![0] bcast_S64_S64x1_0 (w main_v36 : S64.Idx → EReal) := by
  dsimp only [hostBcasts]
  after_results

theorem bcast_result9 (w : Valuation τ sig (Elt Ideal)) : (StableHlo.after hostBcasts w main_v49 : S64x1.Idx → EReal) =
    broadcastInDim S64x1 ![0] bcast_S64_S64x1_0 (w main_v39 : S64.Idx → EReal) := by
  dsimp only [hostBcasts]
  after_results

/-- The bias array in terms of the ten padded rows: each broadcast to a column, the columns set side by side, six zero
    columns appended. -/
theorem v51_W : (V m c main_v51 : S64x16.Idx → EReal) =
    pad S64x16 ![0, 0] ![0, 6] ![0, 0] (concatenate S64x10 1 [⟨S64x1, broadcastInDim S64x1 ![0] bcast_S64_S64x1_0 (W m c main_v12 : S64.Idx → EReal)⟩,
      ⟨S64x1, broadcastInDim S64x1 ![0] bcast_S64_S64x1_0 (W m c main_v15 : S64.Idx → EReal)⟩,
      ⟨S64x1, broadcastInDim S64x1 ![0] bcast_S64_S64x1_0 (W m c main_v18 : S64.Idx → EReal)⟩,
      ⟨S64x1, broadcastInDim S64x1 ![0] bcast_S64_S64x1_0 (W m c main_v21 : S64.Idx → EReal)⟩,
      ⟨S64x1, broadcastInDim S64x1 ![0] bcast_S64_S64x1_0 (W m c main_v24 : S64.Idx → EReal)⟩,
      ⟨S64x1, broadcastInDim S64x1 ![0] bcast_S64_S64x1_0 (W m c main_v27 : S64.Idx → EReal)⟩,
      ⟨S64x1, broadcastInDim S64x1 ![0] bcast_S64_S64x1_0 (W m c main_v30 : S64.Idx → EReal)⟩,
      ⟨S64x1, broadcastInDim S64x1 ![0] bcast_S64_S64x1_0 (W m c main_v33 : S64.Idx → EReal)⟩,
      ⟨S64x1, broadcastInDim S64x1 ![0] bcast_S64_S64x1_0 (W m c main_v36 : S64.Idx → EReal)⟩,
      ⟨S64x1, broadcastInDim S64x1 ![0] bcast_S64_S64x1_0 (W m c main_v39 : S64.Idx → EReal)⟩] concatenates_S64x1_S64x1_S64x1_S64x1_S64x1_S64x1_S64x1_S64x1_S64x1_S64x1_S64x10_d1) (sitofp (F := Ideal) .f32 (constantI S_ 32 0#32)) pads_S64x10_S64x16_000_060 h_S_ := by
  rw [V_eq_W, tail_split, StableHlo.after_append, tail_result, bcast_result0, bcast_result1, bcast_result2, bcast_result3, bcast_result4, bcast_result5, bcast_result6, bcast_result7, bcast_result8, bcast_result9]

theorem w12 : (W m c main_v12 : S64.Idx → EReal) = (pad S64 ![0] ![0] ![0] (shapeCast S64 (extractStridedSlice S1x64 ![288, 0] (m ((c.tc : Thread nD τ).loc main_arg2)) slices_S368x64_S1x64_288_0) shapeCasts_S1x64_S64) (sitofp (F := Ideal) .f32 (constantI S_ 32 0#32)) pads_S64_S64_000 h_S_) := by
  dsimp only [W]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  after_results
  rfl

theorem w15 : (W m c main_v15 : S64.Idx → EReal) = (pad S64 ![0] ![32] ![0] (shapeCast S32 (extractStridedSlice S1x32 ![296, 0] (m ((c.tc : Thread nD τ).loc main_arg2)) slices_S368x64_S1x32_296_0) shapeCasts_S1x32_S32) (sitofp (F := Ideal) .f32 (constantI S_ 32 0#32)) pads_S32_S64_0320 h_S_) := by
  dsimp only [W]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  after_results
  rfl

theorem w18 : (W m c main_v18 : S64.Idx → EReal) = (pad S64 ![0] ![32] ![0] (shapeCast S32 (extractStridedSlice S1x32 ![304, 0] (m ((c.tc : Thread nD τ).loc main_arg2)) slices_S368x64_S1x32_304_0) shapeCasts_S1x32_S32) (sitofp (F := Ideal) .f32 (constantI S_ 32 0#32)) pads_S32_S64_0320 h_S_) := by
  dsimp only [W]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  after_results
  rfl

theorem w21 : (W m c main_v21 : S64.Idx → EReal) = (pad S64 ![0] ![63] ![0] (shapeCast S1 (extractStridedSlice S1x1 ![312, 0] (m ((c.tc : Thread nD τ).loc main_arg2)) slices_S368x64_S1x1_312_0) shapeCasts_S1x1_S1) (sitofp (F := Ideal) .f32 (constantI S_ 32 0#32)) pads_S1_S64_0630 h_S_) := by
  dsimp only [W]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  after_results
  rfl

theorem w24 : (W m c main_v24 : S64.Idx → EReal) = (pad S64 ![0] ![0] ![0] (shapeCast S64 (extractStridedSlice S1x64 ![320, 0] (m ((c.tc : Thread nD τ).loc main_arg2)) slices_S368x64_S1x64_320_0) shapeCasts_S1x64_S64) (sitofp (F := Ideal) .f32 (constantI S_ 32 0#32)) pads_S64_S64_000 h_S_) := by
  dsimp only [W]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  after_results
  rfl

theorem w27 : (W m c main_v27 : S64.Idx → EReal) = (pad S64 ![0] ![32] ![0] (shapeCast S32 (extractStridedSlice S1x32 ![328, 0] (m ((c.tc : Thread nD τ).loc main_arg2)) slices_S368x64_S1x32_328_0) shapeCasts_S1x32_S32) (sitofp (F := Ideal) .f32 (constantI S_ 32 0#32)) pads_S32_S64_0320 h_S_) := by
  dsimp only [W]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  after_results
  rfl

theorem w30 : (W m c main_v30 : S64.Idx → EReal) = (pad S64 ![0] ![32] ![0] (shapeCast S32 (extractStridedSlice S1x32 ![336, 0] (m ((c.tc : Thread nD τ).loc main_arg2)) slices_S368x64_S1x32_336_0) shapeCasts_S1x32_S32) (sitofp (F := Ideal) .f32 (constantI S_ 32 0#32)) pads_S32_S64_0320 h_S_) := by
  dsimp only [W]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  after_results
  rfl

theorem w33 : (W m c main_v33 : S64.Idx → EReal) = (pad S64 ![0] ![63] ![0] (shapeCast S1 (extractStridedSlice S1x1 ![344, 0] (m ((c.tc : Thread nD τ).loc main_arg2)) slices_S368x64_S1x1_344_0) shapeCasts_S1x1_S1) (sitofp (F := Ideal) .f32 (constantI S_ 32 0#32)) pads_S1_S64_0630 h_S_) := by
  dsimp only [W]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  after_results
  rfl

theorem w36 : (W m c main_v36 : S64.Idx → EReal) = (pad S64 ![0] ![32] ![0] (shapeCast S32 (extractStridedSlice S1x32 ![352, 0] (m ((c.tc : Thread nD τ).loc main_arg2)) slices_S368x64_S1x32_352_0) shapeCasts_S1x32_S32) (sitofp (F := Ideal) .f32 (constantI S_ 32 0#32)) pads_S32_S64_0320 h_S_) := by
  dsimp only [W]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  after_results
  rfl

theorem w39 : (W m c main_v39 : S64.Idx → EReal) = (pad S64 ![0] ![32] ![0] (shapeCast S32 (extractStridedSlice S1x32 ![360, 0] (m ((c.tc : Thread nD τ).loc main_arg2)) slices_S368x64_S1x32_360_0) shapeCasts_S1x32_S32) (sitofp (F := Ideal) .f32 (constantI S_ 32 0#32)) pads_S32_S64_0320 h_S_) := by
  dsimp only [W]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  after_results
  rfl

/-! ## The ten bias vectors -/

theorem l12b0_eq : (fun q : Fin 64 => V m c main_v51 (ix2 q (0 : Fin 16)))
    = fun q => (m ((c.tc : Thread nD τ).loc main_arg2)) (ix2 (⟨288, by decide⟩ : Fin 368) q) := by
  funext q
  rw [v51_W]
  refine (bias_col0 _ _ _ _ _ _ _ _ _ _ _ q).trans ?_
  rw [w12]
  exact col_apply 288 0 _ _ _ _ _ q 0 q rfl _ rfl _ rfl

theorem m1b0_eq : (fun q : Fin 32 => V m c main_v51 (ix2 (Cert.Spec.lo q) (1 : Fin 16)))
    = fun q => (m ((c.tc : Thread nD τ).loc main_arg2)) (ix2 (⟨296, by decide⟩ : Fin 368) (Cert.Spec.lo q)) := by
  funext q
  rw [v51_W]
  refine (bias_col1 _ _ _ _ _ _ _ _ _ _ _ (Cert.Spec.lo q)).trans ?_
  rw [w15]
  exact col_apply 296 32 _ _ _ _ _ (Cert.Spec.lo q) 0 q rfl _ rfl _ rfl

theorem m2w0_eq : (fun q : Fin 32 => V m c main_v51 (ix2 (Cert.Spec.lo q) (2 : Fin 16)))
    = fun q => (m ((c.tc : Thread nD τ).loc main_arg2)) (ix2 (⟨304, by decide⟩ : Fin 368) (Cert.Spec.lo q)) := by
  funext q
  rw [v51_W]
  refine (bias_col2 _ _ _ _ _ _ _ _ _ _ _ (Cert.Spec.lo q)).trans ?_
  rw [w18]
  exact col_apply 304 32 _ _ _ _ _ (Cert.Spec.lo q) 0 q rfl _ rfl _ rfl

theorem m2b0_eq : V m c main_v51 (ix2 (0 : Fin 64) (3 : Fin 16))
    = (m ((c.tc : Thread nD τ).loc main_arg2)) (ix2 (⟨312, by decide⟩ : Fin 368) (⟨0, by decide⟩ : Fin 64)) := by
  rw [v51_W]
  refine (bias_col3 _ _ _ _ _ _ _ _ _ _ _ (0 : Fin 64)).trans ?_
  rw [w21]
  exact col_apply 312 63 _ _ _ _ _ (0 : Fin 64) 0 (0 : Fin 1) rfl _ rfl _ rfl

theorem l12b1_eq : (fun q : Fin 64 => V m c main_v51 (ix2 q (4 : Fin 16)))
    = fun q => (m ((c.tc : Thread nD τ).loc main_arg2)) (ix2 (⟨320, by decide⟩ : Fin 368) q) := by
  funext q
  rw [v51_W]
  refine (bias_col4 _ _ _ _ _ _ _ _ _ _ _ q).trans ?_
  rw [w24]
  exact col_apply 320 0 _ _ _ _ _ q 0 q rfl _ rfl _ rfl

theorem m1b1_eq : (fun q : Fin 32 => V m c main_v51 (ix2 (Cert.Spec.lo q) (5 : Fin 16)))
    = fun q => (m ((c.tc : Thread nD τ).loc main_arg2)) (ix2 (⟨328, by decide⟩ : Fin 368) (Cert.Spec.lo q)) := by
  funext q
  rw [v51_W]
  refine (bias_col5 _ _ _ _ _ _ _ _ _ _ _ (Cert.Spec.lo q)).trans ?_
  rw [w27]
  exact col_apply 328 32 _ _ _ _ _ (Cert.Spec.lo q) 0 q rfl _ rfl _ rfl

theorem m2w1_eq : (fun q : Fin 32 => V m c main_v51 (ix2 (Cert.Spec.lo q) (6 : Fin 16)))
    = fun q => (m ((c.tc : Thread nD τ).loc main_arg2)) (ix2 (⟨336, by decide⟩ : Fin 368) (Cert.Spec.lo q)) := by
  funext q
  rw [v51_W]
  refine (bias_col6 _ _ _ _ _ _ _ _ _ _ _ (Cert.Spec.lo q)).trans ?_
  rw [w30]
  exact col_apply 336 32 _ _ _ _ _ (Cert.Spec.lo q) 0 q rfl _ rfl _ rfl

theorem m2b1_eq : V m c main_v51 (ix2 (0 : Fin 64) (7 : Fin 16))
    = (m ((c.tc : Thread nD τ).loc main_arg2)) (ix2 (⟨344, by decide⟩ : Fin 368) (⟨0, by decide⟩ : Fin 64)) := by
  rw [v51_W]
  refine (bias_col7 _ _ _ _ _ _ _ _ _ _ _ (0 : Fin 64)).trans ?_
  rw [w33]
  exact col_apply 344 63 _ _ _ _ _ (0 : Fin 64) 0 (0 : Fin 1) rfl _ rfl _ rfl

theorem p1b_eq : (fun q : Fin 32 => V m c main_v51 (ix2 (Cert.Spec.lo q) (8 : Fin 16)))
    = fun q => (m ((c.tc : Thread nD τ).loc main_arg2)) (ix2 (⟨352, by decide⟩ : Fin 368) (Cert.Spec.lo q)) := by
  funext q
  rw [v51_W]
  refine (bias_col8 _ _ _ _ _ _ _ _ _ _ _ (Cert.Spec.lo q)).trans ?_
  rw [w36]
  exact col_apply 352 32 _ _ _ _ _ (Cert.Spec.lo q) 0 q rfl _ rfl _ rfl

theorem p2b_eq : (fun q : Fin 32 => V m c main_v51 (ix2 (Cert.Spec.lo q) (9 : Fin 16)))
    = fun q => (m ((c.tc : Thread nD τ).loc main_arg2)) (ix2 (⟨360, by decide⟩ : Fin 368) (Cert.Spec.lo q)) := by
  funext q
  rw [v51_W]
  refine (bias_col9 _ _ _ _ _ _ _ _ _ _ _ (Cert.Spec.lo q)).trans ?_
  rw [w39]
  exact col_apply 360 32 _ _ _ _ _ (Cert.Spec.lo q) 0 q rfl _ rfl _ rfl

end Arrays

/-- When the grid starts, the seven repacked arrays — the two stacked projections, the two hidden matrices, the two dense
    matrices and the bias columns — are the parameters the slab holds. -/
theorem params_eq (m : (ℓ : Loc nD τ sig) → Buf (Elt Ideal) ℓ) (c : Dev nD) :
    Cert.Spec.Params.ofWindows (V m c main_v2) (V m c main_v5) (V m c main_v6) (V m c main_v7) (V m c main_v8) (V m c main_v9) (V m c main_v51)
      = Cert.Spec.Params.ofSlab (fun r q => m ((c.tc : Thread nD τ).loc main_arg2) (ix2 r q)) := by
  rw [Cert.Spec.Params.ofWindows, Cert.Spec.Params.ofSlab, Cert.Spec.Params.mk.injEq]
  exact ⟨w0_eq m c, w1_eq m c, m10_eq m c, m11_eq m c, p1_eq m c, p2_eq m c, l12b0_eq m c, m1b0_eq m c, m2w0_eq m c, m2b0_eq m c,
    l12b1_eq m c, m1b1_eq m c, m2w1_eq m c, m2b1_eq m c, p1b_eq m c, p2b_eq m c⟩

end Cert.KernelIdeal.HostParams

end
-- ==== Proof.KValue.lean ====
/-
  What the kernel leaves in its result array: graph b's rows are the one-graph function of graph b's inputs.

  At grid point t the body holds graphs 32 t … 32 t + 31. Its 32 stored slabs are column blocks of one transposed
  array `res` (rows: the 32 output features; column 256 g + v: node v of the point's graph g), each transposed back,
  so the output block at (g, v, c) is `res` at (c, 256 g + v); that entry is the one-graph function of the point's
  graph g at node v, feature c (the stage lemmas), under the parameters the repacked arrays hold, which are the slab's
  (the host repacking read back). Point t's block is rows 32 t … 32 t + 31 of the result array, and the 8 blocks
  cover it.
-/
import proofs.«122836_g2000103277586728_pallasbulk_447_7_alg».proof.Proof.KernelIdealFrame
import proofs.«122836_g2000103277586728_pallasbulk_447_7_alg».proof.Proof.Link
import proofs.«122836_g2000103277586728_pallasbulk_447_7_alg».proof.Proof.KDense
import proofs.«122836_g2000103277586728_pallasbulk_447_7_alg».proof.Proof.HostParams
import proofs.«122836_g2000103277586728_pallasbulk_447_7_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen Cert.KernelIdeal.Body Cert.KernelIdeal.Mirror Cert.KernelIdeal.KCols

/-! ## The output block as one function of its index -/

/-- Entry (g, v, c) of the output block, read off the transposed result `R`: row c, column 256 g + v. -/
def blockFn (R : FVec Ideal S32x8192 .f32) (y : S32x256x32.Idx) : EReal := R (ix2 (y 2) (col (y 0) (y 1)))

/-- Slab g — column block g of `R`, transposed back and given its unit leading axis — agrees with `blockFn R` on rows g
    of the block. -/
theorem slab_agree (R : FVec Ideal S32x8192 .f32) (g : ℕ) (off : ℕ) (hoff : off = 256 * g) (hg : g < 32)
    (hs : S32x8192.Slices ![0, off] S32x256)
    (inb : ∀ a, (![g, 0, 0] : Fin 3 → Nat) a + S1x256x32.size a ≤ S32x256x32.size a) (x : S1x256x32.Idx) :
    shapeCast S1x256x32 (transpose S256x32 [1, 0] (extractStridedSlice S32x256 ![0, off] R hs) transposes_S32x256_p1_0_S256x32) shapeCasts_S256x32_S1x256x32 x
      = blockFn R ((Rect.unit (s := S32x256x32) ![g, 0, 0] S1x256x32.size inb).emb x) := by
  obtain ⟨u, v, q, rfl⟩ : ∃ (u : Fin 1) (v : Fin 256) (q : Fin 32), x = ix3 u v q := ⟨x 0, x 1, x 2, eq_ix3 x⟩
  obtain rfl : u = 0 := Subsingleton.elim _ _
  have he : (Rect.unit (s := S32x256x32) ![g, 0, 0] S1x256x32.size inb).emb (ix3 (0 : Fin 1) v q) = ix3 (⟨g, hg⟩ : Fin 32) v q := by
    funext a; apply Fin.ext
    match a with
    | ⟨0, _⟩ => show g + 1 * ((0 : Fin 1) : ℕ) = g; simp
    | ⟨1, _⟩ => show 0 + 1 * v.val = v.val; omega
    | ⟨2, _⟩ => show 0 + 1 * q.val = q.val; omega
  rw [he, shapeCast_ab_1ab_apply, transpose_ix2_apply]
  exact slice2_axis1_apply off R hs q v (col ⟨g, hg⟩ v) (by subst hoff; rfl)

section Body
variable (c : Dev nD) (i : grid0.Coords) (arg1 : Memref sig .tc .vmem S32x256x16 .f32) (harg1 : arg1.IsWhole) (arg2 : Memref sig .tc .vmem S32x256x256 .f32) (harg2 : arg2.IsWhole) (arg3 : Memref sig .tc .vmem S32x256x32 .f32) (harg3 : arg3.IsWhole) (arg4 : Memref sig .tc .vmem S16x128 .f32) (harg4 : arg4.IsWhole) (arg5 : Memref sig .tc .vmem S32x128 .f32) (harg5 : arg5.IsWhole) (arg6 : Memref sig .tc .vmem S64x32 .f32) (harg6 : arg6.IsWhole) (arg7 : Memref sig .tc .vmem S64x32 .f32) (harg7 : arg7.IsWhole) (arg8 : Memref sig .tc .vmem S32x32 .f32) (harg8 : arg8.IsWhole) (arg9 : Memref sig .tc .vmem S32x32 .f32) (harg9 : arg9.IsWhole) (arg10 : Memref sig .tc .vmem S64x16 .f32) (harg10 : arg10.IsWhole) (arg11 : Memref sig .tc .vmem S32x256x32 .f32) (harg11 : arg11.IsWhole)
  (x0 : Vec Ideal S32x256x16 .f32) (x1 : Vec Ideal S32x256x256 .f32) (x2 : Vec Ideal S32x256x32 .f32) (x3 : Vec Ideal S16x128 .f32) (x4 : Vec Ideal S32x128 .f32) (x5 : Vec Ideal S64x32 .f32) (x6 : Vec Ideal S64x32 .f32) (x7 : Vec Ideal S32x32 .f32) (x8 : Vec Ideal S32x32 .f32) (x9 : Vec Ideal S64x16 .f32)

/-- What the body leaves in the output buffer, index by index: `res` of the ten input blocks at (feature, column). -/
theorem out_apply (y : S32x256x32.Idx) :
    Cert.KernelIdeal.Body.out (F := Ideal) c i arg1 harg1 arg2 harg2 arg3 harg3 arg4 harg4 arg5 harg5 arg6 harg6 arg7 harg7 arg8 harg8 arg9 harg9 arg10 harg10 arg11 harg11 x0 x1 x2 x3 x4 x5 x6 x7 x8 x9 y
      = res x0 x1 x2 x3 x4 x5 x6 x7 x8 x9 (ix2 (y 2) (col (y 0) (y 1))) := by
  have hcov : ∀ y : S32x256x32.Idx, ∃ p ∈ pieces x0 x1 x2 x3 x4 x5 x6 x7 x8 x9, y ∈ p.1.set := by
    rw [← pieces_eq c i arg1 harg1 arg2 harg2 arg3 harg3 arg4 harg4 arg5 harg5 arg6 harg6 arg7 harg7 arg8 harg8 arg9 harg9 arg10 harg10 arg11 harg11 x0 x1 x2 x3 x4 x5 x6 x7 x8 x9]
    exact Cert.KernelIdeal.Body.cover c i arg1 harg1 arg2 harg2 arg3 harg3 arg4 harg4 arg5 harg5 arg6 harg6 arg7 harg7 arg8 harg8 arg9 harg9 arg10 harg10 arg11 harg11 x0 x1 x2 x3 x4 x5 x6 x7 x8 x9
  unfold Cert.KernelIdeal.Body.out
  rw [pieces_eq, View.read_writes_eq_canon _ _ _ hcov]
  refine View.canon_apply_of_pieces (blockFn (res x0 x1 x2 x3 x4 x5 x6 x7 x8 x9)) _ ?_ y (hcov y)
  intro p hp
  unfold pieces at hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · intro x
    exact slab_agree (res x0 x1 x2 x3 x4 x5 x6 x7 x8 x9) 31 7936 rfl (by decide) slices_S32x8192_o0_7936_S32x256 inb_S32x256x32_S1x256x32_31_0_0 x
  · intro x
    exact slab_agree (res x0 x1 x2 x3 x4 x5 x6 x7 x8 x9) 30 7680 rfl (by decide) slices_S32x8192_o0_7680_S32x256 inb_S32x256x32_S1x256x32_30_0_0 x
  · intro x
    exact slab_agree (res x0 x1 x2 x3 x4 x5 x6 x7 x8 x9) 29 7424 rfl (by decide) slices_S32x8192_o0_7424_S32x256 inb_S32x256x32_S1x256x32_29_0_0 x
  · intro x
    exact slab_agree (res x0 x1 x2 x3 x4 x5 x6 x7 x8 x9) 28 7168 rfl (by decide) slices_S32x8192_o0_7168_S32x256 inb_S32x256x32_S1x256x32_28_0_0 x
  · intro x
    exact slab_agree (res x0 x1 x2 x3 x4 x5 x6 x7 x8 x9) 27 6912 rfl (by decide) slices_S32x8192_o0_6912_S32x256 inb_S32x256x32_S1x256x32_27_0_0 x
  · intro x
    exact slab_agree (res x0 x1 x2 x3 x4 x5 x6 x7 x8 x9) 26 6656 rfl (by decide) slices_S32x8192_o0_6656_S32x256 inb_S32x256x32_S1x256x32_26_0_0 x
  · intro x
    exact slab_agree (res x0 x1 x2 x3 x4 x5 x6 x7 x8 x9) 25 6400 rfl (by decide) slices_S32x8192_o0_6400_S32x256 inb_S32x256x32_S1x256x32_25_0_0 x
  · intro x
    exact slab_agree (res x0 x1 x2 x3 x4 x5 x6 x7 x8 x9) 24 6144 rfl (by decide) slices_S32x8192_o0_6144_S32x256 inb_S32x256x32_S1x256x32_24_0_0 x
  · intro x
    exact slab_agree (res x0 x1 x2 x3 x4 x5 x6 x7 x8 x9) 23 5888 rfl (by decide) slices_S32x8192_o0_5888_S32x256 inb_S32x256x32_S1x256x32_23_0_0 x
  · intro x
    exact slab_agree (res x0 x1 x2 x3 x4 x5 x6 x7 x8 x9) 22 5632 rfl (by decide) slices_S32x8192_o0_5632_S32x256 inb_S32x256x32_S1x256x32_22_0_0 x
  · intro x
    exact slab_agree (res x0 x1 x2 x3 x4 x5 x6 x7 x8 x9) 21 5376 rfl (by decide) slices_S32x8192_o0_5376_S32x256 inb_S32x256x32_S1x256x32_21_0_0 x
  · intro x
    exact slab_agree (res x0 x1 x2 x3 x4 x5 x6 x7 x8 x9) 20 5120 rfl (by decide) slices_S32x8192_o0_5120_S32x256 inb_S32x256x32_S1x256x32_20_0_0 x
  · intro x
    exact slab_agree (res x0 x1 x2 x3 x4 x5 x6 x7 x8 x9) 19 4864 rfl (by decide) slices_S32x8192_o0_4864_S32x256 inb_S32x256x32_S1x256x32_19_0_0 x
  · intro x
    exact slab_agree (res x0 x1 x2 x3 x4 x5 x6 x7 x8 x9) 18 4608 rfl (by decide) slices_S32x8192_o0_4608_S32x256 inb_S32x256x32_S1x256x32_18_0_0 x
  · intro x
    exact slab_agree (res x0 x1 x2 x3 x4 x5 x6 x7 x8 x9) 17 4352 rfl (by decide) slices_S32x8192_o0_4352_S32x256 inb_S32x256x32_S1x256x32_17_0_0 x
  · intro x
    exact slab_agree (res x0 x1 x2 x3 x4 x5 x6 x7 x8 x9) 16 4096 rfl (by decide) slices_S32x8192_o0_4096_S32x256 inb_S32x256x32_S1x256x32_16_0_0 x
  · intro x
    exact slab_agree (res x0 x1 x2 x3 x4 x5 x6 x7 x8 x9) 15 3840 rfl (by decide) slices_S32x8192_o0_3840_S32x256 inb_S32x256x32_S1x256x32_15_0_0 x
  · intro x
    exact slab_agree (res x0 x1 x2 x3 x4 x5 x6 x7 x8 x9) 14 3584 rfl (by decide) slices_S32x8192_o0_3584_S32x256 inb_S32x256x32_S1x256x32_14_0_0 x
  · intro x
    exact slab_agree (res x0 x1 x2 x3 x4 x5 x6 x7 x8 x9) 13 3328 rfl (by decide) slices_S32x8192_o0_3328_S32x256 inb_S32x256x32_S1x256x32_13_0_0 x
  · intro x
    exact slab_agree (res x0 x1 x2 x3 x4 x5 x6 x7 x8 x9) 12 3072 rfl (by decide) slices_S32x8192_o0_3072_S32x256 inb_S32x256x32_S1x256x32_12_0_0 x
  · intro x
    exact slab_agree (res x0 x1 x2 x3 x4 x5 x6 x7 x8 x9) 11 2816 rfl (by decide) slices_S32x8192_o0_2816_S32x256 inb_S32x256x32_S1x256x32_11_0_0 x
  · intro x
    exact slab_agree (res x0 x1 x2 x3 x4 x5 x6 x7 x8 x9) 10 2560 rfl (by decide) slices_S32x8192_o0_2560_S32x256 inb_S32x256x32_S1x256x32_10_0_0 x
  · intro x
    exact slab_agree (res x0 x1 x2 x3 x4 x5 x6 x7 x8 x9) 9 2304 rfl (by decide) slices_S32x8192_o0_2304_S32x256 inb_S32x256x32_S1x256x32_9_0_0 x
  · intro x
    exact slab_agree (res x0 x1 x2 x3 x4 x5 x6 x7 x8 x9) 8 2048 rfl (by decide) slices_S32x8192_o0_2048_S32x256 inb_S32x256x32_S1x256x32_8_0_0 x
  · intro x
    exact slab_agree (res x0 x1 x2 x3 x4 x5 x6 x7 x8 x9) 7 1792 rfl (by decide) slices_S32x8192_o0_1792_S32x256 inb_S32x256x32_S1x256x32_7_0_0 x
  · intro x
    exact slab_agree (res x0 x1 x2 x3 x4 x5 x6 x7 x8 x9) 6 1536 rfl (by decide) slices_S32x8192_o0_1536_S32x256 inb_S32x256x32_S1x256x32_6_0_0 x
  · intro x
    exact slab_agree (res x0 x1 x2 x3 x4 x5 x6 x7 x8 x9) 5 1280 rfl (by decide) slices_S32x8192_o0_1280_S32x256 inb_S32x256x32_S1x256x32_5_0_0 x
  · intro x
    exact slab_agree (res x0 x1 x2 x3 x4 x5 x6 x7 x8 x9) 4 1024 rfl (by decide) slices_S32x8192_o0_1024_S32x256 inb_S32x256x32_S1x256x32_4_0_0 x
  · intro x
    exact slab_agree (res x0 x1 x2 x3 x4 x5 x6 x7 x8 x9) 3 768 rfl (by decide) slices_S32x8192_o0_768_S32x256 inb_S32x256x32_S1x256x32_3_0_0 x
  · intro x
    exact slab_agree (res x0 x1 x2 x3 x4 x5 x6 x7 x8 x9) 2 512 rfl (by decide) slices_S32x8192_o0_512_S32x256 inb_S32x256x32_S1x256x32_2_0_0 x
  · intro x
    exact slab_agree (res x0 x1 x2 x3 x4 x5 x6 x7 x8 x9) 1 256 rfl (by decide) slices_S32x8192_o0_256_S32x256 inb_S32x256x32_S1x256x32_1_0_0 x
  · intro x
    exact slab_agree (res x0 x1 x2 x3 x4 x5 x6 x7 x8 x9) 0 0 rfl (by decide) slices_S32x8192_o0_0_S32x256 inb_S32x256x32_S1x256x32_0_0_0 x

end Body

/-! ## From blocks to the array -/

section Run
variable (m : (ℓ : Loc nD τ sig) → Buf (Elt Ideal) ℓ) (ρ : Dev nD → PrngReg)

/-- The index maps over the grid: point t stages graphs 32 t … of the three per-graph arrays and of the result; each
    repacked parameter array is one block. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 3) = t.val ∧ win0_10.index t (1 : Fin 3) = 0 ∧ win0_10.index t (2 : Fin 3) = 0) :=
  (by decide +kernel : ∀ t : Fin grid0.N, _)

/-- Graph g of grid point t, as a graph number. -/
abbrev gr (t : Fin cfg0.N) (g : Fin 32) : Fin 256 :=
  ⟨32 * t.val + g.val, by have := Nat.lt_of_lt_of_eq t.isLt (show cfg0.N = 8 from N_0); have := g.isLt; omega⟩

/-- The node features's block at point t holds graphs 32 t … 32 t + 31. -/
theorem iblk0_apply (c : Dev nD) (t : Fin cfg0.N) (g : Fin 32) (v : Fin 256) (k : Fin 16) :
    (iblk m c 0 t : Vec Ideal S32x256x16 .f32) (ix3 g v k)
      = (m ((c.tc : Thread nD τ).loc main_arg0) : S256x256x16.Idx → EReal) (ix3 (gr t g) v k) := by
  obtain ⟨⟨e0, e1, e2⟩, -, -, -, -, -, -, -, -, -, -⟩ := idx_facts t
  unfold iblk
  rw [View.read_apply]
  show V m c main_arg0 _ = m (c.tc.loc main_arg0) _
  rw [V_main_arg0 m c]
  refine congrArg (m (c.tc.loc main_arg0)) ?_
  funext a; apply Fin.ext
  match a with
  | ⟨0, _⟩ => show win0_0.index t (0 : Fin 3) * 32 + 1 * g.val = 32 * t.val + g.val; rw [e0]; omega
  | ⟨1, _⟩ => show win0_0.index t (1 : Fin 3) * 256 + 1 * v.val = v.val; rw [e1]; omega
  | ⟨2, _⟩ => show win0_0.index t (2 : Fin 3) * 16 + 1 * k.val = k.val; rw [e2]; omega

/-- The adjacency's block at point t holds graphs 32 t … 32 t + 31. -/
theorem iblk1_apply (c : Dev nD) (t : Fin cfg0.N) (g : Fin 32) (v : Fin 256) (k : Fin 256) :
    (iblk m c 1 t : Vec Ideal S32x256x256 .f32) (ix3 g v k)
      = (m ((c.tc : Thread nD τ).loc main_arg1) : S256x256x256.Idx → EReal) (ix3 (gr t g) v k) := by
  obtain ⟨-, ⟨e0, e1, e2⟩, -, -, -, -, -, -, -, -, -⟩ := idx_facts t
  unfold iblk
  rw [View.read_apply]
  show V m c main_arg1 _ = m (c.tc.loc main_arg1) _
  rw [V_main_arg1 m c]
  refine congrArg (m (c.tc.loc main_arg1)) ?_
  funext a; apply Fin.ext
  match a with
  | ⟨0, _⟩ => show win0_1.index t (0 : Fin 3) * 32 + 1 * g.val = 32 * t.val + g.val; rw [e0]; omega
  | ⟨1, _⟩ => show win0_1.index t (1 : Fin 3) * 256 + 1 * v.val = v.val; rw [e1]; omega
  | ⟨2, _⟩ => show win0_1.index t (2 : Fin 3) * 256 + 1 * k.val = k.val; rw [e2]; omega

/-- The dropout scale's block at point t holds graphs 32 t … 32 t + 31. -/
theorem iblk2_apply (c : Dev nD) (t : Fin cfg0.N) (g : Fin 32) (v : Fin 256) (k : Fin 32) :
    (iblk m c 2 t : Vec Ideal S32x256x32 .f32) (ix3 g v k)
      = (m ((c.tc : Thread nD τ).loc main_arg3) : S256x256x32.Idx → EReal) (ix3 (gr t g) v k) := by
  obtain ⟨-, -, ⟨e0, e1, e2⟩, -, -, -, -, -, -, -, -⟩ := idx_facts t
  unfold iblk
  rw [View.read_apply]
  show V m c main_arg3 _ = m (c.tc.loc main_arg3) _
  rw [V_main_arg3 m c]
  refine congrArg (m (c.tc.loc main_arg3)) ?_
  funext a; apply Fin.ext
  match a with
  | ⟨0, _⟩ => show win0_2.index t (0 : Fin 3) * 32 + 1 * g.val = 32 * t.val + g.val; rw [e0]; omega
  | ⟨1, _⟩ => show win0_2.index t (1 : Fin 3) * 256 + 1 * v.val = v.val; rw [e1]; omega
  | ⟨2, _⟩ => show win0_2.index t (2 : Fin 3) * 32 + 1 * k.val = k.val; rw [e2]; omega

/-! Each repacked parameter array is staged whole. -/
theorem iblk3_eq (c : Dev nD) (t : Fin cfg0.N) :
    (iblk m c 3 t : Vec Ideal S16x128 .f32) = (V m c main_v2 : S16x128.Idx → EReal) := by
  funext j
  obtain ⟨r, q, rfl⟩ : ∃ (r : Fin 16) (q : Fin 128), j = ix2 r q := ⟨j 0, j 1, eq_ix2 j⟩
  obtain ⟨-, -, -, ⟨e0, e1⟩, -, -, -, -, -, -, -⟩ := idx_facts t
  unfold iblk
  rw [View.read_apply]
  show V m c main_v2 _ = V m c main_v2 _
  refine congrArg (V m c main_v2) ?_
  funext x; apply Fin.ext
  match x with
  | ⟨0, _⟩ => show win0_3.index t (0 : Fin 2) * 16 + 1 * r.val = r.val; rw [e0]; omega
  | ⟨1, _⟩ => show win0_3.index t (1 : Fin 2) * 128 + 1 * q.val = q.val; rw [e1]; omega
theorem iblk4_eq (c : Dev nD) (t : Fin cfg0.N) :
    (iblk m c 4 t : Vec Ideal S32x128 .f32) = (V m c main_v5 : S32x128.Idx → EReal) := by
  funext j
  obtain ⟨r, q, rfl⟩ : ∃ (r : Fin 32) (q : Fin 128), j = ix2 r q := ⟨j 0, j 1, eq_ix2 j⟩
  obtain ⟨-, -, -, -, ⟨e0, e1⟩, -, -, -, -, -, -⟩ := idx_facts t
  unfold iblk
  rw [View.read_apply]
  show V m c main_v5 _ = V m c main_v5 _
  refine congrArg (V m c main_v5) ?_
  funext x; apply Fin.ext
  match x with
  | ⟨0, _⟩ => show win0_4.index t (0 : Fin 2) * 32 + 1 * r.val = r.val; rw [e0]; omega
  | ⟨1, _⟩ => show win0_4.index t (1 : Fin 2) * 128 + 1 * q.val = q.val; rw [e1]; omega
theorem iblk5_eq (c : Dev nD) (t : Fin cfg0.N) :
    (iblk m c 5 t : Vec Ideal S64x32 .f32) = (V m c main_v6 : S64x32.Idx → EReal) := by
  funext j
  obtain ⟨r, q, rfl⟩ : ∃ (r : Fin 64) (q : Fin 32), j = ix2 r q := ⟨j 0, j 1, eq_ix2 j⟩
  obtain ⟨-, -, -, -, -, ⟨e0, e1⟩, -, -, -, -, -⟩ := idx_facts t
  unfold iblk
  rw [View.read_apply]
  show V m c main_v6 _ = V m c main_v6 _
  refine congrArg (V m c main_v6) ?_
  funext x; apply Fin.ext
  match x with
  | ⟨0, _⟩ => show win0_5.index t (0 : Fin 2) * 64 + 1 * r.val = r.val; rw [e0]; omega
  | ⟨1, _⟩ => show win0_5.index t (1 : Fin 2) * 32 + 1 * q.val = q.val; rw [e1]; omega
theorem iblk6_eq (c : Dev nD) (t : Fin cfg0.N) :
    (iblk m c 6 t : Vec Ideal S64x32 .f32) = (V m c main_v7 : S64x32.Idx → EReal) := by
  funext j
  obtain ⟨r, q, rfl⟩ : ∃ (r : Fin 64) (q : Fin 32), j = ix2 r q := ⟨j 0, j 1, eq_ix2 j⟩
  obtain ⟨-, -, -, -, -, -, ⟨e0, e1⟩, -, -, -, -⟩ := idx_facts t
  unfold iblk
  rw [View.read_apply]
  show V m c main_v7 _ = V m c main_v7 _
  refine congrArg (V m c main_v7) ?_
  funext x; apply Fin.ext
  match x with
  | ⟨0, _⟩ => show win0_6.index t (0 : Fin 2) * 64 + 1 * r.val = r.val; rw [e0]; omega
  | ⟨1, _⟩ => show win0_6.index t (1 : Fin 2) * 32 + 1 * q.val = q.val; rw [e1]; omega
theorem iblk7_eq (c : Dev nD) (t : Fin cfg0.N) :
    (iblk m c 7 t : Vec Ideal S32x32 .f32) = (V m c main_v8 : S32x32.Idx → EReal) := by
  funext j
  obtain ⟨r, q, rfl⟩ : ∃ (r : Fin 32) (q : Fin 32), j = ix2 r q := ⟨j 0, j 1, eq_ix2 j⟩
  obtain ⟨-, -, -, -, -, -, -, ⟨e0, e1⟩, -, -, -⟩ := idx_facts t
  unfold iblk
  rw [View.read_apply]
  show V m c main_v8 _ = V m c main_v8 _
  refine congrArg (V m c main_v8) ?_
  funext x; apply Fin.ext
  match x with
  | ⟨0, _⟩ => show win0_7.index t (0 : Fin 2) * 32 + 1 * r.val = r.val; rw [e0]; omega
  | ⟨1, _⟩ => show win0_7.index t (1 : Fin 2) * 32 + 1 * q.val = q.val; rw [e1]; omega
theorem iblk8_eq (c : Dev nD) (t : Fin cfg0.N) :
    (iblk m c 8 t : Vec Ideal S32x32 .f32) = (V m c main_v9 : S32x32.Idx → EReal) := by
  funext j
  obtain ⟨r, q, rfl⟩ : ∃ (r : Fin 32) (q : Fin 32), j = ix2 r q := ⟨j 0, j 1, eq_ix2 j⟩
  obtain ⟨-, -, -, -, -, -, -, -, ⟨e0, e1⟩, -, -⟩ := idx_facts t
  unfold iblk
  rw [View.read_apply]
  show V m c main_v9 _ = V m c main_v9 _
  refine congrArg (V m c main_v9) ?_
  funext x; apply Fin.ext
  match x with
  | ⟨0, _⟩ => show win0_8.index t (0 : Fin 2) * 32 + 1 * r.val = r.val; rw [e0]; omega
  | ⟨1, _⟩ => show win0_8.index t (1 : Fin 2) * 32 + 1 * q.val = q.val; rw [e1]; omega
theorem iblk9_eq (c : Dev nD) (t : Fin cfg0.N) :
    (iblk m c 9 t : Vec Ideal S64x16 .f32) = (V m c main_v51 : S64x16.Idx → EReal) := by
  funext j
  obtain ⟨r, q, rfl⟩ : ∃ (r : Fin 64) (q : Fin 16), j = ix2 r q := ⟨j 0, j 1, eq_ix2 j⟩
  obtain ⟨-, -, -, -, -, -, -, -, -, ⟨e0, e1⟩, -⟩ := idx_facts t
  unfold iblk
  rw [View.read_apply]
  show V m c main_v51 _ = V m c main_v51 _
  refine congrArg (V m c main_v51) ?_
  funext x; apply Fin.ext
  match x with
  | ⟨0, _⟩ => show win0_9.index t (0 : Fin 2) * 64 + 1 * r.val = r.val; rw [e0]; omega
  | ⟨1, _⟩ => show win0_9.index t (1 : Fin 2) * 16 + 1 * q.val = q.val; rw [e1]; omega

/-- The result array the specification gives from the argument arrays as launched. -/
abbrev Gm (c : Dev nD) : S256x256x32.Idx → EReal :=
  Cert.Spec.G (m ((c.tc : Thread nD τ).loc main_arg0)) (m ((c.tc : Thread nD τ).loc main_arg1))
    (m ((c.tc : Thread nD τ).loc main_arg2)) (m ((c.tc : Thread nD τ).loc main_arg3))

/-- What point t leaves in the result's block, index by index: rows 32 t … 32 t + 31 of the specification. -/
theorem block_eq (c : Dev nD) (t : Fin cfg0.N) (j : S32x256x32.Idx) :
    outAt m c t j = Gm m c (((cfg0.win 10).blk t).view.emb j) := by
  obtain ⟨g, v, q, rfl⟩ : ∃ (g : Fin 32) (v : Fin 256) (q : Fin 32), j = ix3 g v q := ⟨j 0, j 1, j 2, eq_ix3 j⟩
  obtain ⟨-, -, -, -, -, -, -, -, -, -, ⟨e0, e1, e2⟩⟩ := idx_facts t
  have he : ((cfg0.win 10).blk t).view.emb (ix3 g v q) = ix3 (gr t g) v q := by
    funext a; apply Fin.ext
    match a with
    | ⟨0, _⟩ => show win0_10.index t (0 : Fin 3) * 32 + 1 * g.val = 32 * t.val + g.val; rw [e0]; omega
    | ⟨1, _⟩ => show win0_10.index t (1 : Fin 3) * 256 + 1 * v.val = v.val; rw [e1]; omega
    | ⟨2, _⟩ => show win0_10.index t (2 : Fin 3) * 32 + 1 * q.val = q.val; rw [e2]; omega
  have hX : Xg (iblk m c 0 t) g = fun v k => (m ((c.tc : Thread nD τ).loc main_arg0) : S256x256x16.Idx → EReal) (ix3 (gr t g) v k) :=
    funext fun v => funext fun k => iblk0_apply m c t g v k
  have hA : Ag (iblk m c 1 t) g = fun v u => (m ((c.tc : Thread nD τ).loc main_arg1) : S256x256x256.Idx → EReal) (ix3 (gr t g) v u) :=
    funext fun v => funext fun u => iblk1_apply m c t g v u
  have hD : Dg (iblk m c 2 t) g = fun v k => (m ((c.tc : Thread nD τ).loc main_arg3) : S256x256x32.Idx → EReal) (ix3 (gr t g) v k) :=
    funext fun v => funext fun k => iblk2_apply m c t g v k
  have hP : prm (iblk m c 3 t) (iblk m c 4 t) (iblk m c 5 t) (iblk m c 6 t) (iblk m c 7 t) (iblk m c 8 t) (iblk m c 9 t)
      = Cert.Spec.Params.ofSlab (fun r q => m ((c.tc : Thread nD τ).loc main_arg2) (ix2 r q)) := by
    rw [iblk3_eq, iblk4_eq, iblk5_eq, iblk6_eq, iblk7_eq, iblk8_eq, iblk9_eq]
    exact Cert.KernelIdeal.HostParams.params_eq m c
  unfold outAt
  rw [he, out_apply]
  show res (iblk m c 0 t) (iblk m c 1 t) (iblk m c 2 t) (iblk m c 3 t) (iblk m c 4 t) (iblk m c 5 t) (iblk m c 6 t) (iblk m c 7 t) (iblk m c 8 t) (iblk m c 9 t) (ix2 q (col g v)) = _
  rw [Cert.KernelIdeal.KDense.res_apply, hX, hA, hD, hP]
  rfl

/-- What point t writes back is block t of the specification's array. -/
theorem flushed_eq (c : Dev nD) (t : Fin cfg0.N) :
    (dats m 0 c).flushed 10 t = ((cfg0.win 10).blk t).view.read (Elt Ideal) (Gm m c) := by
  show (cfg0.win 10).cut (grid0.coords t) ((dats m 0 c).after 10 t) = _
  rw [after_10]
  funext j
  exact block_eq m c t j

/-- Every index of the result array is in the block of the point its graph number names: graph b is in block b / 32. -/
theorem cover (i : S256x256x32.Idx) : ∃ t : Fin cfg0.N, (cfg0.win 10).flush t = true ∧ i ∈ ((cfg0.win 10).blk t).view.set := by
  have hN : cfg0.N = 8 := N_0
  have hi0 : (i 0).val < 256 := (i 0).isLt
  have hi1 : (i 1).val < 256 := (i 1).isLt
  have hi2 : (i 2).val < 32 := (i 2).isLt
  have ht : (i 0).val / 32 < cfg0.N := by rw [hN]; omega
  refine ⟨⟨(i 0).val / 32, ht⟩, flush0_10 _, ?_⟩
  obtain ⟨-, -, -, -, -, -, -, -, -, -, ⟨e0, e1, e2⟩⟩ := idx_facts ⟨(i 0).val / 32, ht⟩
  have e0' : win0_10.index ⟨(i 0).val / 32, ht⟩ (0 : Fin 3) = (i 0).val / 32 := e0
  show i ∈ ((View.whole main_v52).slice (win0_10.rect ⟨(i 0).val / 32, ht⟩)).set
  rw [View.set_slice_whole, Rect.mem_set_unit]
  intro a
  match a with
  | ⟨0, _⟩ =>
    show win0_10.index ⟨(i 0).val / 32, ht⟩ (0 : Fin 3) * 32 ≤ (i 0).val ∧ (i 0).val < win0_10.index ⟨(i 0).val / 32, ht⟩ (0 : Fin 3) * 32 + 32
    rw [e0']; omega
  | ⟨1, _⟩ =>
    show win0_10.index ⟨(i 0).val / 32, ht⟩ (1 : Fin 3) * 256 ≤ (i 1).val ∧ (i 1).val < win0_10.index ⟨(i 0).val / 32, ht⟩ (1 : Fin 3) * 256 + 256
    rw [e1]; omega
  | ⟨2, _⟩ =>
    show win0_10.index ⟨(i 0).val / 32, ht⟩ (2 : Fin 3) * 32 ≤ (i 2).val ∧ (i 2).val < win0_10.index ⟨(i 0).val / 32, ht⟩ (2 : Fin 3) * 32 + 32
    rw [e2]; omega

/-- So the result array ends holding the specification's. -/
theorem final (c : Dev nD) : (dats m 0 c).arrAt 10 cfg0.N = Gm m c :=
  (dats m 0 c).arrAt_eq_of_cover 10 (Gm m c) (fun t _ => flushed_eq m c t) cover

end Run

/-- The kernel's run with its result array named: every weakly fair execution terminates without fault, the result
    array is `Spec.G` of the four argument arrays, and those end unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v52) = Cert.Spec.G (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono (fun r h c => ⟨((h c).1 10).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).1 2).trans (((dats m 0 c).arrAt_in 2 rfl _).trans ((A_eq m c 2).trans (V_main_arg3 m c)))⟩)
    (run_main m ρ)

end Cert.KernelIdeal.KValue

end
-- ==== Proof.RefValue.lean ====
/-
  What the reference leaves in its result array: graph b's rows are the one-graph function of graph b's inputs.
-/
import proofs.«122836_g2000103277586728_pallasbulk_447_7_alg».proof.Proof.Gen.ReferenceIdeal.Frame
import proofs.«122836_g2000103277586728_pallasbulk_447_7_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Idealize.ShloMosaic Idealize.ShloMosaic.TcCoe Idealize.ShloMosaic.ValueIdx Idealize.SL.Sem
open Cert.ReferenceIdeal Cert.ReferenceIdeal.Gen

/-! ## Operations read at an index -/

/-- A plain [M, K] × [K, N] product into the zero splat, at (i, j): the sum over k of lhs (i, k) · rhs (k, j). -/
theorem matmul_tile {M K N : ℕ} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (lhs : FVec Ideal ⟨2, ![M, K]⟩ .f32) (rhs : FVec Ideal ⟨2, ![K, N]⟩ .f32) (i : Fin M) (j : Fin N) :
    matmul d none lhs rhs (constant (F := Ideal) ⟨2, ![M, N]⟩ .f32 0x00000000#32) (ix2 i j)
      = ∑ k : Fin K, lhs (ix2 i k) * rhs (ix2 k j) := by
  show FloatOps.matmul d none lhs rhs (constant (F := Ideal) ⟨2, ![M, N]⟩ .f32 0x00000000#32) (ix2 i j) = _
  rw [Ideal.matmul_constant_zero_apply]
  have hr : d.contr.rank = 1 := by rw [d.rank_contr, hlc]; rfl
  have hs : d.contr.size ⟨0, by omega⟩ = K := by
    rw [d.size_contr 0 (by rw [hlc]; exact Nat.one_pos)]
    simp [hlc]
  rw [← Equiv.sum_comp (contrEquiv1 d K hr hs).symm]
  refine Finset.sum_congr rfl fun k _ => ?_
  have e1 : d.lhsIdx (ix2 i j) ((contrEquiv1 d K hr hs).symm k) = ix2 i k := by
    funext a; apply Fin.ext
    match a with
    | ⟨0, _⟩ =>
      have key : ∀ (p : Nat) (hp : p < 2), p = 0 → ((ix2 i j : (⟨2, ![M, N]⟩ : Shape).Idx) ⟨p, hp⟩).val = i.val :=
        fun p hp h => by subst h; rfl
      simp only [DotDims.lhsIdx, hlb, hln, List.not_mem_nil, dite_false, List.mem_singleton, dite_true, Fin.val_cast]
      exact key _ _ (by simp [hlb, hln])
    | ⟨1, _⟩ =>
      have := d.lhsIdx_val_of_single hlc (ix2 i j) ((contrEquiv1 d K hr hs).symm k)
      rw [contrEquiv1_symm_val] at this
      exact this
  have e2 : d.rhsIdx (ix2 i j) ((contrEquiv1 d K hr hs).symm k) = ix2 k j := by
    funext a; apply Fin.ext
    match a with
    | ⟨0, _⟩ =>
      have := d.rhsIdx_val_of_single hrc (ix2 i j) ((contrEquiv1 d K hr hs).symm k)
      rw [contrEquiv1_symm_val] at this
      exact this
    | ⟨1, _⟩ =>
      have key : ∀ (p : Nat) (hp : p < 2), p = 1 → ((ix2 i j : (⟨2, ![M, N]⟩ : Shape).Idx) ⟨p, hp⟩).val = j.val :=
        fun p hp h => by subst h; rfl
      simp only [DotDims.rhsIdx, hrb, hrn, List.not_mem_nil, dite_false, List.mem_singleton, dite_true, Fin.val_cast]
      exact key _ _ (by simp [hlb, hln, hrn])
  rw [e1, e2]

/-- The zero literal is the extended real 0. -/
theorem zero_lit : (Scalar.ofBits (F := Ideal) .f32 0x00000000#32 : EReal) = 0 := Ideal.ofBits_zero_f32

/-- relu: the maximum with the zero splat. -/
theorem relu_apply {s : Shape} (x : FVec Ideal s .f32) (i : s.Idx) :
    maximumf x (broadcast s (Scalar.ofBits (F := Ideal) .f32 0x00000000#32)) i = max (x i) 0 := by
  show max (x i) (Scalar.ofBits (F := Ideal) .f32 0x00000000#32) = _
  rw [zero_lit]

/-- The logistic of a vector at an index. -/
theorem logistic_apply {s : Shape} (x : FVec Ideal s .f32) (i : s.Idx) : logistic x i = Ideal.logistic (x i) := rfl

/-- A row sum kept as a column: [a, b] summed over its second axis and cast to [a, 1]. -/
theorem rowsum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ)
    (hc : (⟨1, ![a]⟩ : Shape).ShapeCasts ⟨2, ![a, 1]⟩) (v : Fin a) (u : Fin 1) :
    shapeCast ⟨2, ![a, 1]⟩ (multiReduction .add [1] ⟨1, ![a]⟩ src 0x00000000#32 h hφ hacc) hc (ix2 v u)
      = ∑ c : Fin b, src (ix2 v c) := by
  refine (shapeCast_apply _ hc (ix2 v u) (ix1 v) ?_).trans ?_
  · have hu : u.val = 0 := by omega
    rw [Shape.rowMajor_val_two, Shape.rowMajor_val_one]
    show v.val = v.val * 1 + u.val
    omega
  · refine (Ideal.multiReduction_add_single src 0x00000000#32 h hφ hacc (ix1 v)).trans ?_
    refine Finset.sum_congr rfl fun c _ => congrArg src ?_
    funext ax; apply Fin.ext
    match ax with
    | ⟨0, _⟩ => rfl
    | ⟨1, _⟩ => rfl

/-- A column [a, 1] broadcast along the rows to [a, b]. -/
theorem broadcastTo_a1_ab_apply {a b : ℕ} (x : FVec Ideal ⟨2, ![a, 1]⟩ .f32) (h : (⟨2, ![a, 1]⟩ : Shape).Broadcasts ⟨2, ![a, b]⟩)
    (v : Fin a) (c : Fin b) : broadcastTo ⟨2, ![a, b]⟩ x h (ix2 v c) = x (ix2 v (0 : Fin 1)) := by
  refine broadcastTo_apply x h (ix2 v c) (ix2 v (0 : Fin 1)) fun ax => ?_
  match ax with
  | ⟨0, _⟩ =>
    show v.val = if a = 1 then 0 else v.val
    split
    · have := v.isLt; omega
    · rfl
  | ⟨1, _⟩ => rfl

/-- The slab read through a unit rectangle at offset (o, 0): local (k, c) is slab (o + k, c). -/
theorem ld_slab {n w : ℕ} (o : ℕ) (x2 : Vec Ideal S368x64 .f32)
    (inb : ∀ a, (![o, 0] : Fin 2 → Nat) a + (⟨2, ![n, w]⟩ : Shape).size a ≤ S368x64.size a)
    (k : Fin n) (c : Fin w) (r : Fin 368) (q : Fin 64) (hr : r.val = o + k.val) (hq : q.val = c.val) :
    View.ld x2 (Rect.unit (s := S368x64) ![o, 0] (⟨2, ![n, w]⟩ : Shape).size inb) (ix2 k c) = x2 (ix2 r q) := by
  show x2 _ = x2 _
  refine congrArg x2 ?_
  funext ax; apply Fin.ext
  match ax with
  | ⟨0, _⟩ => show o + 1 * k.val = r.val; omega
  | ⟨1, _⟩ => show 0 + 1 * c.val = q.val; omega

/-- A slice of the first 32 of 64 columns. -/
theorem slice_lo_apply (x : FVec Ideal S256x64 .f32) (h : S256x64.Slices ![0, 0] S256x32) (v : Fin 256) (c : Fin 32) :
    extractStridedSlice S256x32 ![0, 0] x h (ix2 v c) = x (ix2 v (Cert.Spec.lo c)) := by
  refine extractStridedSlice_apply _ x h (ix2 v c) (ix2 v (Cert.Spec.lo c)) fun ax => ?_
  match ax with
  | ⟨0, _⟩ => show v.val = 0 + v.val; omega
  | ⟨1, _⟩ => show c.val = 0 + c.val; omega

/-- A slice of the last 32 of 64 columns. -/
theorem slice_hi_apply (x : FVec Ideal S256x64 .f32) (h : S256x64.Slices ![0, 32] S256x32) (v : Fin 256) (c : Fin 32) :
    extractStridedSlice S256x32 ![0, 32] x h (ix2 v c) = x (ix2 v (Cert.Spec.hi c)) := by
  refine extractStridedSlice_apply _ x h (ix2 v c) (ix2 v (Cert.Spec.hi c)) fun ax => ?_
  match ax with
  | ⟨0, _⟩ => show v.val = 0 + v.val; omega
  | ⟨1, _⟩ => show 32 + c.val = 32 + c.val; rfl

/-- The column test `column < 32` of the [256, 64] tile. -/
theorem pay4_apply (v : Fin 256) (c : Fin 64) : k0_pay4 (ix2 v c) = if c.val < 32 then 1#1 else 0#1 := by
  show IntOp.cmpi .slt (iota .tc S256x64 32 [1] iota_S256x64_d1_w32 (ix2 v c)) 32#32 = _
  rw [iota_single_apply]
  exact (by decide : ∀ c : Fin 64, IntOp.cmpi .slt (BitVec.ofNat 32 c.val) 32#32 = if c.val < 32 then 1#1 else 0#1) c

/-- A select on a decided bit. -/
theorem select_ite {α : Type} (p : Prop) [Decidable p] (a b : α) :
    Scalar.select (if p then 1#1 else 0#1) a b = if p then a else b := by
  by_cases h : p
  · rw [if_pos h, if_pos h]; exact select_one a b
  · rw [if_neg h, if_neg h]; exact select_zero a b

/-! ## The six products of the body -/

theorem mm_16_64 (lhs : FVec Ideal S256x16 .f32) (rhs : FVec Ideal S16x64 .f32) (v : Fin 256) (c : Fin 64) :
    matmul dot_S256x16_S16x64_S256x64_1_0_0_1_n_n none lhs rhs (constant (F := Ideal) S256x64 .f32 0x00000000#32) (ix2 v c)
      = ∑ k : Fin 16, lhs (ix2 v k) * rhs (ix2 k c) := matmul_tile _ rfl rfl rfl rfl rfl rfl lhs rhs v c
theorem mm_256_64 (lhs : FVec Ideal S256x256 .f32) (rhs : FVec Ideal S256x64 .f32) (v : Fin 256) (c : Fin 64) :
    matmul dot_S256x256_S256x64_S256x64_1_0_0_1_n_n none lhs rhs (constant (F := Ideal) S256x64 .f32 0x00000000#32) (ix2 v c)
      = ∑ k : Fin 256, lhs (ix2 v k) * rhs (ix2 k c) := matmul_tile _ rfl rfl rfl rfl rfl rfl lhs rhs v c
theorem mm_64_32 (lhs : FVec Ideal S256x64 .f32) (rhs : FVec Ideal S64x32 .f32) (v : Fin 256) (c : Fin 32) :
    matmul dot_S256x64_S64x32_S256x32_1_0_0_1_n_n none lhs rhs (constant (F := Ideal) S256x32 .f32 0x00000000#32) (ix2 v c)
      = ∑ k : Fin 64, lhs (ix2 v k) * rhs (ix2 k c) := matmul_tile _ rfl rfl rfl rfl rfl rfl lhs rhs v c
theorem mm_256_32 (lhs : FVec Ideal S256x256 .f32) (rhs : FVec Ideal S256x32 .f32) (v : Fin 256) (c : Fin 32) :
    matmul dot_S256x256_S256x32_S256x32_1_0_0_1_n_n none lhs rhs (constant (F := Ideal) S256x32 .f32 0x00000000#32) (ix2 v c)
      = ∑ k : Fin 256, lhs (ix2 v k) * rhs (ix2 k c) := matmul_tile _ rfl rfl rfl rfl rfl rfl lhs rhs v c
theorem mm_32_64 (lhs : FVec Ideal S256x32 .f32) (rhs : FVec Ideal S32x64 .f32) (v : Fin 256) (c : Fin 64) :
    matmul dot_S256x32_S32x64_S256x64_1_0_0_1_n_n none lhs rhs (constant (F := Ideal) S256x64 .f32 0x00000000#32) (ix2 v c)
      = ∑ k : Fin 32, lhs (ix2 v k) * rhs (ix2 k c) := matmul_tile _ rfl rfl rfl rfl rfl rfl lhs rhs v c
theorem mm_32_32 (lhs : FVec Ideal S256x32 .f32) (rhs : FVec Ideal S32x32 .f32) (v : Fin 256) (c : Fin 32) :
    matmul dot_S256x32_S32x32_S256x32_1_0_0_1_n_n none lhs rhs (constant (F := Ideal) S256x32 .f32 0x00000000#32) (ix2 v c)
      = ∑ k : Fin 32, lhs (ix2 v k) * rhs (ix2 k c) := matmul_tile _ rfl rfl rfl rfl rfl rfl lhs rhs v c

/-! ## One round, on vectors -/

/-- The mask from the first layer's output `H`: aggregate the first half, relu, hidden layer, row sum, logistic. -/
def maskV (sel : IVec S256x64 1) (Av : FVec Ideal S256x256 .f32) (H : FVec Ideal S256x64 .f32)
    (m1v : FVec Ideal S64x32 .f32) (m1bv m2wv : FVec Ideal S1x32 .f32) (m2bv : FVec Ideal S1x1 .f32) : FVec Ideal S256x1 .f32 :=
  logistic (addf (shapeCast S256x1 (multiReduction .add [1] S256
      (mulf (maximumf (addf (matmul dot_S256x64_S64x32_S256x32_1_0_0_1_n_n none
          (maximumf (select sel (matmul dot_S256x256_S256x64_S256x64_1_0_0_1_n_n none Av H (constant S256x64 .f32 0x00000000#32)) H)
            (broadcast S256x64 (Scalar.ofBits .f32 0x00000000#32)))
          m1v (constant S256x32 .f32 0x00000000#32)) (broadcastTo S256x32 m1bv broadcasts_S1x32_S256x32))
        (broadcast S256x32 (Scalar.ofBits .f32 0x00000000#32))) (broadcastTo S256x32 m2wv broadcasts_S1x32_S256x32))
      0x00000000#32 reduces_S256x32_S256 (.inl rfl) rfl) shapeCasts_S256_S256x1) (broadcastTo S256x1 m2bv broadcasts_S1x1_S256x1))

/-- The masked convolution and its relu, from the projection `P` = Xs · [w | lin]. -/
def convV (Av : FVec Ideal S256x256 .f32) (P : FVec Ideal S256x64 .f32) (mk : FVec Ideal S256x1 .f32) : FVec Ideal S256x32 .f32 :=
  maximumf (mulf (addf (matmul dot_S256x256_S256x32_S256x32_1_0_0_1_n_n none Av
        (mulf (broadcastTo S256x32 mk broadcasts_S256x1_S256x32) (extractStridedSlice S256x32 ![0, 0] P slices_S256x64_o0_0_S256x32))
        (constant S256x32 .f32 0x00000000#32))
      (extractStridedSlice S256x32 ![0, 32] P slices_S256x64_o0_32_S256x32))
    (broadcastTo S256x32 mk broadcasts_S256x1_S256x32)) (broadcast S256x32 (Scalar.ofBits .f32 0x00000000#32))

/-- The two dense layers, stored as a [1, 256, 32] block. -/
def outV (x2v : FVec Ideal S256x32 .f32) (p1v : FVec Ideal S32x32 .f32) (p1bv : FVec Ideal S1x32 .f32)
    (Dv : FVec Ideal S1x256x32 .f32) (p2v : FVec Ideal S32x32 .f32) (p2bv : FVec Ideal S1x32 .f32) : FVec Ideal S1x256x32 .f32 :=
  shapeCast S1x256x32 (addf (matmul dot_S256x32_S32x32_S256x32_1_0_0_1_n_n none
      (mulf (maximumf (addf (matmul dot_S256x32_S32x32_S256x32_1_0_0_1_n_n none x2v p1v (constant S256x32 .f32 0x00000000#32))
          (broadcastTo S256x32 p1bv broadcasts_S1x32_S256x32)) (broadcast S256x32 (Scalar.ofBits .f32 0x00000000#32)))
        (shapeCast S256x32 Dv shapeCasts_S1x256x32_S256x32))
      p2v (constant S256x32 .f32 0x00000000#32)) (broadcastTo S256x32 p2bv broadcasts_S1x32_S256x32)) shapeCasts_S256x32_S1x256x32

section Round
variable (A : Fin 256 → Fin 256 → EReal) {K : ℕ} (W : Fin K → Fin 128 → EReal) (m1 : Fin 64 → Fin 32 → EReal)
  (l12b : Fin 64 → EReal) (m1b m2w : Fin 32 → EReal) (m2b : EReal) (Xin : Fin 256 → Fin K → EReal)

/-- The mask on vectors is `Spec.mask`, once its operands are read. -/
theorem maskV_apply (sel : IVec S256x64 1) (Av : FVec Ideal S256x256 .f32) (H : FVec Ideal S256x64 .f32)
    (m1v : FVec Ideal S64x32 .f32) (m1bv m2wv : FVec Ideal S1x32 .f32) (m2bv : FVec Ideal S1x1 .f32)
    (hsel : ∀ v c, sel (ix2 v c) = if c.val < 32 then 1#1 else 0#1)
    (hA : ∀ v u, Av (ix2 v u) = A v u)
    (hH : ∀ v c, H (ix2 v c) = Cert.Spec.hl W l12b Xin v c)
    (hm1 : ∀ k c, m1v (ix2 k c) = m1 k c)
    (hm1b : ∀ c, m1bv (ix2 (0 : Fin 1) c) = m1b c)
    (hm2w : ∀ c, m2wv (ix2 (0 : Fin 1) c) = m2w c)
    (hm2b : m2bv (ix2 (0 : Fin 1) (0 : Fin 1)) = m2b) (v : Fin 256) :
    maskV sel Av H m1v m1bv m2wv m2bv (ix2 v (0 : Fin 1)) = Cert.Spec.mask A W m1 l12b m1b m2w m2b Xin v := by
  unfold maskV Cert.Spec.mask Cert.Spec.hid Cert.Spec.cat Cert.Spec.agg
  rw [logistic_apply, addf_apply, broadcastTo_1b_ab_apply, hm2b]
  refine congrArg (fun t => Ideal.logistic (t + m2b)) ?_
  refine (rowsum_apply _ _ _ _ _ v 0).trans (Finset.sum_congr rfl fun c _ => ?_)
  simp only [addf_apply, mulf_apply, relu_apply, broadcastTo_1b_ab_apply, mm_64_32, mm_256_64,
    select_apply, hsel, select_ite, hA, hH, hm1, hm1b, hm2w]

/-- The first layer `Xin · [l1 | l2] + b` on vectors is `Spec.hl`. -/
theorem hl_apply (d : DotDims ⟨2, ![256, K]⟩ ⟨2, ![K, 64]⟩ S256x64)
    (hlc : d.lhsContracting = [1]) (hrc : d.rhsContracting = [0]) (hln : d.lhsNonContracting = [0])
    (hrn : d.rhsNonContracting = [1]) (hlb : d.lhsBatch = []) (hrb : d.rhsBatch = [])
    (Xv : FVec Ideal ⟨2, ![256, K]⟩ .f32) (Wv : FVec Ideal ⟨2, ![K, 64]⟩ .f32) (bv : FVec Ideal S1x64 .f32)
    (hX : ∀ v k, Xv (ix2 v k) = Xin v k) (hW : ∀ k c, Wv (ix2 k c) = W k (Cert.Spec.lo128 c))
    (hb : ∀ c, bv (ix2 (0 : Fin 1) c) = l12b c) (v : Fin 256) (c : Fin 64) :
    addf (matmul d none Xv Wv (constant (F := Ideal) S256x64 .f32 0x00000000#32)) (broadcastTo S256x64 bv broadcasts_S1x64_S256x64) (ix2 v c)
      = Cert.Spec.hl W l12b Xin v c := by
  rw [addf_apply, matmul_tile d hlc hrc hln hrn hlb hrb, broadcastTo_1b_ab_apply, hb]
  unfold Cert.Spec.hl
  simp only [hX, hW]

/-- The projection `Xs · [w | lin]` on vectors is `Spec.pr`. -/
theorem pr_apply (d : DotDims ⟨2, ![256, K]⟩ ⟨2, ![K, 64]⟩ S256x64)
    (hlc : d.lhsContracting = [1]) (hrc : d.rhsContracting = [0]) (hln : d.lhsNonContracting = [0])
    (hrn : d.rhsNonContracting = [1]) (hlb : d.lhsBatch = []) (hrb : d.rhsBatch = [])
    (Xv : FVec Ideal ⟨2, ![256, K]⟩ .f32) (Wv : FVec Ideal ⟨2, ![K, 64]⟩ .f32)
    (hX : ∀ v k, Xv (ix2 v k) = Xin v k) (hW : ∀ k c, Wv (ix2 k c) = W k (Cert.Spec.hi128 c)) (v : Fin 256) (c : Fin 64) :
    matmul d none Xv Wv (constant (F := Ideal) S256x64 .f32 0x00000000#32) (ix2 v c) = Cert.Spec.pr W Xin v c := by
  rw [matmul_tile d hlc hrc hln hrn hlb hrb]
  unfold Cert.Spec.pr
  simp only [hX, hW]

/-- The masked convolution on vectors is the relu of `Spec.conv`. -/
theorem convV_apply (mkf : Fin 256 → EReal) (Av : FVec Ideal S256x256 .f32) (P : FVec Ideal S256x64 .f32) (mk : FVec Ideal S256x1 .f32)
    (hA : ∀ v u, Av (ix2 v u) = A v u) (hP : ∀ v c, P (ix2 v c) = Cert.Spec.pr W Xin v c)
    (hmk : ∀ v, mk (ix2 v (0 : Fin 1)) = mkf v) (v : Fin 256) (c : Fin 32) :
    convV Av P mk (ix2 v c) = max (Cert.Spec.conv A W Xin mkf v c) 0 := by
  unfold convV Cert.Spec.conv
  simp only [relu_apply, mulf_apply, addf_apply, mm_256_32, broadcastTo_a1_ab_apply, slice_lo_apply, slice_hi_apply, hA, hP, hmk]

end Round

/-- The dense layers on vectors. -/
theorem outV_apply (x2f : Fin 256 → Fin 32 → EReal) (p1 p2 : Fin 32 → Fin 32 → EReal) (p1b p2b : Fin 32 → EReal) (D : Fin 256 → Fin 32 → EReal)
    (x2v : FVec Ideal S256x32 .f32) (p1v : FVec Ideal S32x32 .f32) (p1bv : FVec Ideal S1x32 .f32)
    (Dv : FVec Ideal S1x256x32 .f32) (p2v : FVec Ideal S32x32 .f32) (p2bv : FVec Ideal S1x32 .f32)
    (hx2 : ∀ v k, x2v (ix2 v k) = x2f v k) (hp1 : ∀ k c, p1v (ix2 k c) = p1 k c) (hp1b : ∀ c, p1bv (ix2 (0 : Fin 1) c) = p1b c)
    (hD : ∀ v c, Dv (ix3 (0 : Fin 1) v c) = D v c) (hp2 : ∀ k c, p2v (ix2 k c) = p2 k c) (hp2b : ∀ c, p2bv (ix2 (0 : Fin 1) c) = p2b c)
    (v : Fin 256) (c : Fin 32) :
    outV x2v p1v p1bv Dv p2v p2bv (ix3 (0 : Fin 1) v c)
      = (∑ k : Fin 32, (max ((∑ j : Fin 32, x2f v j * p1 j k) + p1b k) 0 * D v k) * p2 k c) + p2b c := by
  unfold outV
  simp only [shapeCast_ab_1ab_apply, shapeCast_1ab_ab_apply, addf_apply, mulf_apply, relu_apply, mm_32_32, broadcastTo_1b_ab_apply,
    hx2, hp1, hp1b, hD, hp2, hp2b]

/-! ## The parameters' rows in the slab -/

theorem ofSlab_w0_lo (P : Fin 368 → Fin 64 → EReal) (k : Fin 16) (c : Fin 64) :
    (Cert.Spec.Params.ofSlab P).w0 k (Cert.Spec.lo128 c) = P (Cert.Spec.prow 0 k (by decide)) c := by
  show (if h : (Cert.Spec.lo128 c).val < 64 then _ else _) = _
  rw [dif_pos (show (Cert.Spec.lo128 c).val < 64 from c.isLt)]
theorem ofSlab_w0_hi (P : Fin 368 → Fin 64 → EReal) (k : Fin 16) (c : Fin 64) :
    (Cert.Spec.Params.ofSlab P).w0 k (Cert.Spec.hi128 c) = P (Cert.Spec.prow 80 k (by decide)) c := by
  show (if h : (Cert.Spec.hi128 c).val < 64 then _ else _) = _
  rw [dif_neg (show ¬ (Cert.Spec.hi128 c).val < 64 from by show ¬ 64 + c.val < 64; omega)]
  exact congrArg (P _) (Fin.ext (by show 64 + c.val - 64 = c.val; omega))
theorem ofSlab_w1_lo (P : Fin 368 → Fin 64 → EReal) (k : Fin 32) (c : Fin 64) :
    (Cert.Spec.Params.ofSlab P).w1 k (Cert.Spec.lo128 c) = P (Cert.Spec.prow 96 k (by decide)) c := by
  show (if h : (Cert.Spec.lo128 c).val < 64 then _ else _) = _
  rw [dif_pos (show (Cert.Spec.lo128 c).val < 64 from c.isLt)]
theorem ofSlab_w1_hi (P : Fin 368 → Fin 64 → EReal) (k : Fin 32) (c : Fin 64) :
    (Cert.Spec.Params.ofSlab P).w1 k (Cert.Spec.hi128 c) = P (Cert.Spec.prow 192 k (by decide)) c := by
  show (if h : (Cert.Spec.hi128 c).val < 64 then _ else _) = _
  rw [dif_neg (show ¬ (Cert.Spec.hi128 c).val < 64 from by show ¬ 64 + c.val < 64; omega)]
  exact congrArg (P _) (Fin.ext (by show 64 + c.val - 64 = c.val; omega))

/-! ## The payloads are the rounds on vectors -/

theorem pay5_def (v0 : FVec Ideal S1x256x16 .f32) (v2 : FVec Ideal S1x256x256 .f32) (v7 : FVec Ideal S16x64 .f32) (v8 : FVec Ideal S1x64 .f32)
    (v9 : FVec Ideal S64x32 .f32) (v10 v11 : FVec Ideal S1x32 .f32) (v12 : FVec Ideal S1x1 .f32) :
    k0_pay5 v0 v2 v7 v8 v9 v10 v11 v12 = maskV k0_pay4 (k0_pay3 v2)
      (addf (matmul dot_S256x16_S16x64_S256x64_1_0_0_1_n_n none (k0_pay2 v0) v7 (constant (F := Ideal) S256x64 .f32 0x00000000#32))
        (broadcastTo S256x64 v8 broadcasts_S1x64_S256x64)) v9 v10 v11 v12 := rfl

theorem pay6_def (v1 : FVec Ideal S256x16 .f32) (v3 : FVec Ideal S256x256 .f32) (v31 : FVec Ideal S256x1 .f32) (v32 : FVec Ideal S16x64 .f32) :
    k0_pay6 v1 v3 v31 v32
      = convV v3 (matmul dot_S256x16_S16x64_S256x64_1_0_0_1_n_n none v1 v32 (constant (F := Ideal) S256x64 .f32 0x00000000#32)) v31 := rfl

theorem pay7_def (v1 : FVec Ideal S256x16 .f32) (v3 : FVec Ideal S256x256 .f32) (v6 : IVec S256x64 1) (v31 : FVec Ideal S256x1 .f32)
    (v32 : FVec Ideal S16x64 .f32) (v46 : FVec Ideal S32x64 .f32) (v47 : FVec Ideal S1x64 .f32) (v48 : FVec Ideal S64x32 .f32)
    (v49 v50 : FVec Ideal S1x32 .f32) (v51 : FVec Ideal S1x1 .f32) :
    k0_pay7 v1 v3 v6 v31 v32 v46 v47 v48 v49 v50 v51 = maskV v6 v3
      (addf (matmul dot_S256x32_S32x64_S256x64_1_0_0_1_n_n none
          (mulf (k0_pay6 v1 v3 v31 v32) (broadcastTo S256x32 v31 broadcasts_S256x1_S256x32)) v46
          (constant (F := Ideal) S256x64 .f32 0x00000000#32))
        (broadcastTo S256x64 v47 broadcasts_S1x64_S256x64)) v48 v49 v50 v51 := rfl

theorem pay1_def (v3 : FVec Ideal S256x256 .f32) (v43 : FVec Ideal S256x32 .f32) (v70 : FVec Ideal S256x1 .f32) (v71 : FVec Ideal S32x64 .f32)
    (v83 : FVec Ideal S32x32 .f32) (v85 : FVec Ideal S1x32 .f32) (v90 : FVec Ideal S1x256x32 .f32) (v93 : FVec Ideal S32x32 .f32)
    (v95 : FVec Ideal S1x32 .f32) :
    k0_pay1 v3 v43 v70 v71 v83 v85 v90 v93 v95
      = outV (convV v3 (matmul dot_S256x32_S32x64_S256x64_1_0_0_1_n_n none v43 v71 (constant (F := Ideal) S256x64 .f32 0x00000000#32)) v70)
          v83 v85 v90 v93 v95 := rfl

/-! ## The body's result at an index, from the blocks -/

section Body
variable (x0 : Vec Ideal S1x256x16 .f32) (x1 : Vec Ideal S1x256x256 .f32) (x2 : Vec Ideal S368x64 .f32) (x3 : Vec Ideal S1x256x32 .f32)

/-- The graph's features, adjacency, slab, parameters and dropout scale as the blocks hold them. -/
abbrev Xb : Fin 256 → Fin 16 → EReal := fun v k => x0 (ix3 (0 : Fin 1) v k)
abbrev Ab : Fin 256 → Fin 256 → EReal := fun v u => x1 (ix3 (0 : Fin 1) v u)
abbrev Sb : Fin 368 → Fin 64 → EReal := fun r q => x2 (ix2 r q)
abbrev Pb : Cert.Spec.Params := Cert.Spec.Params.ofSlab (Sb x2)
abbrev Db : Fin 256 → Fin 32 → EReal := fun v k => x3 (ix3 (0 : Fin 1) v k)

theorem hz3 : (![0, 0, 0] : Fin 3 → Nat) = fun _ => 0 := funext fun a => by fin_cases a <;> rfl

theorem feat_apply (v : Fin 256) (k : Fin 16) : k0_pay2 (F := Ideal) (View.ld x0 r0_0) (ix2 v k) = Xb x0 v k := by
  rw [View.ld_unit_zero (S := S1x256x16) hz3]
  exact shapeCast_1ab_ab_apply x0 _ v k

theorem adj_apply (v u : Fin 256) : k0_pay3 (F := Ideal) (View.ld x1 r0_1) (ix2 v u) = Ab x1 v u := by
  rw [View.ld_unit_zero (S := S1x256x256) hz3]
  exact shapeCast_1ab_ab_apply x1 _ v u

theorem drop_apply (v : Fin 256) (c : Fin 32) : (View.ld x3 r0_18 : FVec Ideal S1x256x32 .f32) (ix3 (0 : Fin 1) v c) = Db x3 v c := by
  rw [View.ld_unit_zero (S := S1x256x32) hz3]

/-- Rows o … o + n − 1 of the slab, the first w columns. -/
theorem slab_rows {n w : ℕ} (o : ℕ) (inb : ∀ a, (![o, 0] : Fin 2 → Nat) a + (⟨2, ![n, w]⟩ : Shape).size a ≤ S368x64.size a)
    (h : o + n ≤ 368) (hw : w ≤ 64) (k : Fin n) (c : Fin w) :
    View.ld x2 (Rect.unit (s := S368x64) ![o, 0] (⟨2, ![n, w]⟩ : Shape).size inb) (ix2 k c)
      = Sb x2 (Cert.Spec.prow o k h) ⟨c.val, Nat.lt_of_lt_of_le c.isLt hw⟩ :=
  ld_slab o x2 inb k c _ _ rfl rfl

/-- Row o of the slab, the first w columns. -/
theorem slab_row {w : ℕ} (o : ℕ) (inb : ∀ a, (![o, 0] : Fin 2 → Nat) a + (⟨2, ![1, w]⟩ : Shape).size a ≤ S368x64.size a)
    (h : o < 368) (hw : w ≤ 64) (c : Fin w) :
    View.ld x2 (Rect.unit (s := S368x64) ![o, 0] (⟨2, ![1, w]⟩ : Shape).size inb) (ix2 (0 : Fin 1) c)
      = Sb x2 ⟨o, h⟩ ⟨c.val, Nat.lt_of_lt_of_le c.isLt hw⟩ :=
  ld_slab o x2 inb (0 : Fin 1) c _ _ rfl rfl

/-- The first mask, the features after round 0, and the second mask, on vectors. -/
abbrev M0v : FVec Ideal S256x1 .f32 :=
  k0_pay5 (F := Ideal) (View.ld x0 r0_0) (View.ld x1 r0_1) (View.ld x2 r0_2) (View.ld x2 r0_3) (View.ld x2 r0_4) (View.ld x2 r0_5) (View.ld x2 r0_6) (View.ld x2 r0_7)
abbrev X1v : FVec Ideal S256x32 .f32 :=
  k0_pay6 (F := Ideal) (k0_pay2 (View.ld x0 r0_0)) (k0_pay3 (View.ld x1 r0_1)) (M0v x0 x1 x2) (View.ld x2 r0_8)
abbrev M1v : FVec Ideal S256x1 .f32 :=
  k0_pay7 (F := Ideal) (k0_pay2 (View.ld x0 r0_0)) (k0_pay3 (View.ld x1 r0_1)) k0_pay4 (M0v x0 x1 x2) (View.ld x2 r0_8) (View.ld x2 r0_9) (View.ld x2 r0_10)
    (View.ld x2 r0_11) (View.ld x2 r0_12) (View.ld x2 r0_13) (View.ld x2 r0_14)

theorem mask0_apply (v : Fin 256) : M0v x0 x1 x2 (ix2 v (0 : Fin 1)) = Cert.Spec.mask0 (Ab x1) (Pb x2) (Xb x0) v := by
  show k0_pay5 _ _ _ _ _ _ _ _ _ = _
  rw [pay5_def]
  exact maskV_apply (Ab x1) (Pb x2).w0 (Pb x2).m10 (Pb x2).l12b0 (Pb x2).m1b0 (Pb x2).m2w0 (Pb x2).m2b0 (Xb x0) _ _ _ _ _ _ _
    pay4_apply (adj_apply x1)
    (hl_apply (Pb x2).w0 (Pb x2).l12b0 (Xb x0) _ rfl rfl rfl rfl rfl rfl _ _ _ (feat_apply x0)
      (fun k c => (slab_rows x2 0 _ (by decide) (by decide) k c).trans (ofSlab_w0_lo _ k c).symm)
      (fun c => slab_row x2 288 _ (by decide) (by decide) c))
    (fun k c => slab_rows x2 16 _ (by decide) (by decide) k c)
    (fun c => slab_row x2 296 _ (by decide) (by decide) c)
    (fun c => slab_row x2 304 _ (by decide) (by decide) c)
    (slab_row x2 312 _ (by decide) (by decide) (0 : Fin 1)) v

theorem x1_apply (v : Fin 256) (c : Fin 32) : X1v x0 x1 x2 (ix2 v c) = Cert.Spec.x1 (Ab x1) (Pb x2) (Xb x0) v c := by
  show k0_pay6 _ _ _ _ _ = _
  rw [pay6_def]
  exact convV_apply (Ab x1) (Pb x2).w0 (Xb x0) (Cert.Spec.mask0 (Ab x1) (Pb x2) (Xb x0)) _ _ _ (adj_apply x1)
    (pr_apply (Pb x2).w0 (Xb x0) _ rfl rfl rfl rfl rfl rfl _ _ (feat_apply x0)
      (fun k c => (slab_rows x2 80 _ (by decide) (by decide) k c).trans (ofSlab_w0_hi _ k c).symm))
    (mask0_apply x0 x1 x2) v c

theorem x1m_apply (v : Fin 256) (k : Fin 32) :
    mulf (X1v x0 x1 x2) (broadcastTo S256x32 (M0v x0 x1 x2) broadcasts_S256x1_S256x32) (ix2 v k)
      = Cert.Spec.x1m (Ab x1) (Pb x2) (Xb x0) v k := by
  rw [mulf_apply, broadcastTo_a1_ab_apply, x1_apply, mask0_apply]
  rfl

theorem mask1_apply (v : Fin 256) : M1v x0 x1 x2 (ix2 v (0 : Fin 1)) = Cert.Spec.mask1 (Ab x1) (Pb x2) (Xb x0) v := by
  show k0_pay7 _ _ _ _ _ _ _ _ _ _ _ _ = _
  rw [pay7_def]
  exact maskV_apply (Ab x1) (Pb x2).w1 (Pb x2).m11 (Pb x2).l12b1 (Pb x2).m1b1 (Pb x2).m2w1 (Pb x2).m2b1
    (Cert.Spec.x1m (Ab x1) (Pb x2) (Xb x0)) _ _ _ _ _ _ _
    pay4_apply (adj_apply x1)
    (hl_apply (Pb x2).w1 (Pb x2).l12b1 (Cert.Spec.x1m (Ab x1) (Pb x2) (Xb x0)) _ rfl rfl rfl rfl rfl rfl _ _ _ (x1m_apply x0 x1 x2)
      (fun k c => (slab_rows x2 96 _ (by decide) (by decide) k c).trans (ofSlab_w1_lo _ k c).symm)
      (fun c => slab_row x2 320 _ (by decide) (by decide) c))
    (fun k c => slab_rows x2 128 _ (by decide) (by decide) k c)
    (fun c => slab_row x2 328 _ (by decide) (by decide) c)
    (fun c => slab_row x2 336 _ (by decide) (by decide) c)
    (slab_row x2 344 _ (by decide) (by decide) (0 : Fin 1)) v

theorem x2_apply (v : Fin 256) (c : Fin 32) :
    convV (k0_pay3 (F := Ideal) (View.ld x1 r0_1))
      (matmul (φ₁ := .f32) (φ₂ := .f32) dot_S256x32_S32x64_S256x64_1_0_0_1_n_n none (X1v x0 x1 x2) (View.ld x2 r0_15)
        (constant (F := Ideal) S256x64 .f32 0x00000000#32))
      (M1v x0 x1 x2) (ix2 v c) = Cert.Spec.x2 (Ab x1) (Pb x2) (Xb x0) v c :=
  convV_apply (Ab x1) (Pb x2).w1 (Cert.Spec.x1 (Ab x1) (Pb x2) (Xb x0)) (Cert.Spec.mask1 (Ab x1) (Pb x2) (Xb x0)) _ _ _ (adj_apply x1)
    (pr_apply (Pb x2).w1 (Cert.Spec.x1 (Ab x1) (Pb x2) (Xb x0)) _ rfl rfl rfl rfl rfl rfl _ _ (x1_apply x0 x1 x2)
      (fun k c => (slab_rows x2 192 _ (by decide) (by decide) k c).trans (ofSlab_w1_hi _ k c).symm))
    (mask1_apply x0 x1 x2) v c

theorem out_apply (v : Fin 256) (c : Fin 32) :
    k0_pay1 (F := Ideal) (k0_pay3 (View.ld x1 r0_1)) (X1v x0 x1 x2) (M1v x0 x1 x2) (View.ld x2 r0_15) (View.ld x2 r0_16) (View.ld x2 r0_17)
      (View.ld x3 r0_18) (View.ld x2 r0_19) (View.ld x2 r0_20) (ix3 (0 : Fin 1) v c)
      = Cert.Spec.out (Ab x1) (Pb x2) (Xb x0) (Db x3) v c := by
  rw [pay1_def]
  exact outV_apply (Cert.Spec.x2 (Ab x1) (Pb x2) (Xb x0)) (Pb x2).p1 (Pb x2).p2 (Pb x2).p1b (Pb x2).p2b (Db x3) _ _ _ _ _ _
    (x2_apply x0 x1 x2)
    (fun k c => slab_rows x2 224 _ (by decide) (by decide) k c)
    (fun c => slab_row x2 352 _ (by decide) (by decide) c)
    (drop_apply x3)
    (fun k c => slab_rows x2 256 _ (by decide) (by decide) k c)
    (fun c => slab_row x2 360 _ (by decide) (by decide) c) v c

/-- What the body leaves in the result block, at an index: the one-graph function of the four blocks. -/
theorem out0_4_apply (v : Fin 256) (c : Fin 32) :
    out0_4 (F := Ideal) x0 x1 x2 x3 (ix3 (0 : Fin 1) v c) = Cert.Spec.out (Ab x1) (Pb x2) (Xb x0) (Db x3) v c := by
  unfold out0_4
  rw [View.canon_unit_zero hz3]
  exact out_apply x0 x1 x2 x3 v c

end Body

/-! ## From blocks to the array -/

section Run
variable (m : (ℓ : Loc nD τ sig) → Buf (Elt Ideal) ℓ) (ρ : Dev nD → PrngReg)

/-- The printed index maps over the grid: point t reads and writes graph t; the slab is one block. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

/-- Grid point t as a graph number. -/
abbrev gr (t : Fin cfg0.N) : Fin 256 := ⟨t.val, Nat.lt_of_lt_of_eq t.isLt (show cfg0.N = 256 from N_0)⟩

/-- The features' block at point t is graph t's. -/
theorem iblk0_apply (c : Dev nD) (t : Fin cfg0.N) (v : Fin 256) (k : Fin 16) :
    (iblk m c 0 t : Vec Ideal S1x256x16 .f32) (ix3 (0 : Fin 1) v k)
      = (m ((c.tc : Thread nD τ).loc main_arg0) : S256x256x16.Idx → EReal) (ix3 (gr t) v k) := by
  obtain ⟨⟨e0, e1, e2⟩, -⟩ := idx_facts t
  unfold iblk
  rw [View.read_apply]
  show V m c main_arg0 _ = m (c.tc.loc main_arg0) _
  unfold V
  refine congrArg (m (c.tc.loc main_arg0)) ?_
  funext a; apply Fin.ext
  match a with
  | ⟨0, _⟩ => show win0_0.index t (0 : Fin 3) * 1 + 1 * ((0 : Fin 1) : ℕ) = t.val; rw [e0]; simp
  | ⟨1, _⟩ => show win0_0.index t (1 : Fin 3) * 256 + 1 * v.val = v.val; rw [e1]; omega
  | ⟨2, _⟩ => show win0_0.index t (2 : Fin 3) * 16 + 1 * k.val = k.val; rw [e2]; omega

/-- The adjacency's block at point t is graph t's. -/
theorem iblk1_apply (c : Dev nD) (t : Fin cfg0.N) (v u : Fin 256) :
    (iblk m c 1 t : Vec Ideal S1x256x256 .f32) (ix3 (0 : Fin 1) v u)
      = (m ((c.tc : Thread nD τ).loc main_arg1) : S256x256x256.Idx → EReal) (ix3 (gr t) v u) := by
  obtain ⟨-, ⟨e0, e1, e2⟩, -⟩ := idx_facts t
  unfold iblk
  rw [View.read_apply]
  show V m c main_arg1 _ = m (c.tc.loc main_arg1) _
  unfold V
  refine congrArg (m (c.tc.loc main_arg1)) ?_
  funext a; apply Fin.ext
  match a with
  | ⟨0, _⟩ => show win0_1.index t (0 : Fin 3) * 1 + 1 * ((0 : Fin 1) : ℕ) = t.val; rw [e0]; simp
  | ⟨1, _⟩ => show win0_1.index t (1 : Fin 3) * 256 + 1 * v.val = v.val; rw [e1]; omega
  | ⟨2, _⟩ => show win0_1.index t (2 : Fin 3) * 256 + 1 * u.val = u.val; rw [e2]; omega

/-- The slab's block at every point is the slab. -/
theorem iblk2_apply (c : Dev nD) (t : Fin cfg0.N) (r : Fin 368) (q : Fin 64) :
    (iblk m c 2 t : Vec Ideal S368x64 .f32) (ix2 r q)
      = (m ((c.tc : Thread nD τ).loc main_arg2) : S368x64.Idx → EReal) (ix2 r q) := by
  obtain ⟨-, -, ⟨e0, e1⟩, -⟩ := idx_facts t
  unfold iblk
  rw [View.read_apply]
  show V m c main_arg2 _ = m (c.tc.loc main_arg2) _
  unfold V
  refine congrArg (m (c.tc.loc main_arg2)) ?_
  funext a; apply Fin.ext
  match a with
  | ⟨0, _⟩ => show win0_2.index t (0 : Fin 2) * 368 + 1 * r.val = r.val; rw [e0]; omega
  | ⟨1, _⟩ => show win0_2.index t (1 : Fin 2) * 64 + 1 * q.val = q.val; rw [e1]; omega

/-- The dropout scale's block at point t is graph t's. -/
theorem iblk3_apply (c : Dev nD) (t : Fin cfg0.N) (v : Fin 256) (k : Fin 32) :
    (iblk m c 3 t : Vec Ideal S1x256x32 .f32) (ix3 (0 : Fin 1) v k)
      = (m ((c.tc : Thread nD τ).loc main_arg3) : S256x256x32.Idx → EReal) (ix3 (gr t) v k) := by
  obtain ⟨-, -, -, ⟨e0, e1, e2⟩, -⟩ := idx_facts t
  unfold iblk
  rw [View.read_apply]
  show V m c main_arg3 _ = m (c.tc.loc main_arg3) _
  unfold V
  refine congrArg (m (c.tc.loc main_arg3)) ?_
  funext a; apply Fin.ext
  match a with
  | ⟨0, _⟩ => show win0_3.index t (0 : Fin 3) * 1 + 1 * ((0 : Fin 1) : ℕ) = t.val; rw [e0]; simp
  | ⟨1, _⟩ => show win0_3.index t (1 : Fin 3) * 256 + 1 * v.val = v.val; rw [e1]; omega
  | ⟨2, _⟩ => show win0_3.index t (2 : Fin 3) * 32 + 1 * k.val = k.val; rw [e2]; omega

/-- The result array the specification gives from the argument arrays as launched. -/
abbrev Gm (c : Dev nD) : S256x256x32.Idx → EReal :=
  Cert.Spec.G (m ((c.tc : Thread nD τ).loc main_arg0)) (m ((c.tc : Thread nD τ).loc main_arg1))
    (m ((c.tc : Thread nD τ).loc main_arg2)) (m ((c.tc : Thread nD τ).loc main_arg3))

/-- What point t leaves in the result's block, index by index: graph t's rows of the specification. -/
theorem block_eq (c : Dev nD) (t : Fin cfg0.N) (j : S1x256x32.Idx) :
    out0_4 (F := Ideal) (iblk m c 0 t) (iblk m c 1 t) (iblk m c 2 t) (iblk m c 3 t) j
      = Gm m c (((cfg0.win 4).blk t).view.emb j) := by
  obtain ⟨u, v, q, rfl⟩ : ∃ (u : Fin 1) (v : Fin 256) (q : Fin 32), j = ix3 u v q := ⟨j 0, j 1, j 2, eq_ix3 j⟩
  obtain rfl : u = 0 := Subsingleton.elim _ _
  obtain ⟨-, -, -, -, e0, e1, e2⟩ := idx_facts t
  have he : ((cfg0.win 4).blk t).view.emb (ix3 (0 : Fin 1) v q) = ix3 (gr t) v q := by
    funext a; apply Fin.ext
    match a with
    | ⟨0, _⟩ => show win0_4.index t (0 : Fin 3) * 1 + 1 * ((0 : Fin 1) : ℕ) = t.val; rw [e0]; simp
    | ⟨1, _⟩ => show win0_4.index t (1 : Fin 3) * 256 + 1 * v.val = v.val; rw [e1]; omega
    | ⟨2, _⟩ => show win0_4.index t (2 : Fin 3) * 32 + 1 * q.val = q.val; rw [e2]; omega
  have hX : Xb (iblk m c 0 t) = fun v k => (m ((c.tc : Thread nD τ).loc main_arg0) : S256x256x16.Idx → EReal) (ix3 (gr t) v k) :=
    funext fun v => funext fun k => iblk0_apply m c t v k
  have hA : Ab (iblk m c 1 t) = fun v u => (m ((c.tc : Thread nD τ).loc main_arg1) : S256x256x256.Idx → EReal) (ix3 (gr t) v u) :=
    funext fun v => funext fun u => iblk1_apply m c t v u
  have hS : Sb (iblk m c 2 t) = fun r q => (m ((c.tc : Thread nD τ).loc main_arg2) : S368x64.Idx → EReal) (ix2 r q) :=
    funext fun r => funext fun q => iblk2_apply m c t r q
  have hD : Db (iblk m c 3 t) = fun v k => (m ((c.tc : Thread nD τ).loc main_arg3) : S256x256x32.Idx → EReal) (ix3 (gr t) v k) :=
    funext fun v => funext fun k => iblk3_apply m c t v k
  rw [he, out0_4_apply (iblk m c 0 t) (iblk m c 1 t) (iblk m c 2 t) (iblk m c 3 t) v q]
  show Cert.Spec.out (Ab (iblk m c 1 t)) (Cert.Spec.Params.ofSlab (Sb (iblk m c 2 t))) (Xb (iblk m c 0 t)) (Db (iblk m c 3 t)) v q = _
  rw [hX, hA, hS, hD]
  rfl

/-- What point t writes back is block t of the specification's array. -/
theorem flushed_eq (c : Dev nD) (t : Fin cfg0.N) :
    (dats m 0 c).flushed 4 t = ((cfg0.win 4).blk t).view.read (Elt Ideal) (Gm m c) := by
  show (cfg0.win 4).cut (grid0.coords t) ((dats m 0 c).after 4 t) = _
  rw [after0_4]
  funext j
  exact block_eq m c t j

/-- Every index of the result array is in the block of the point its graph number names. -/
theorem cover (i : S256x256x32.Idx) : ∃ t : Fin cfg0.N, (cfg0.win 4).flush t = true ∧ i ∈ ((cfg0.win 4).blk t).view.set := by
  have hN : cfg0.N = 256 := N_0
  have hi0 : (i 0).val < 256 := (i 0).isLt
  have hi1 : (i 1).val < 256 := (i 1).isLt
  have hi2 : (i 2).val < 32 := (i 2).isLt
  have ht : (i 0).val < cfg0.N := Nat.lt_of_lt_of_eq hi0 hN.symm
  refine ⟨⟨(i 0).val, ht⟩, flush0_4 _, ?_⟩
  obtain ⟨-, -, -, -, e0, e1, e2⟩ := idx_facts ⟨(i 0).val, ht⟩
  have e0' : win0_4.index ⟨(i 0).val, ht⟩ (0 : Fin 3) = (i 0).val := e0
  show i ∈ ((View.whole main_v0).slice (win0_4.rect ⟨(i 0).val, ht⟩)).set
  rw [View.set_slice_whole, Rect.mem_set_unit]
  intro a
  match a with
  | ⟨0, _⟩ =>
    show win0_4.index ⟨(i 0).val, ht⟩ (0 : Fin 3) * 1 ≤ (i 0).val ∧ (i 0).val < win0_4.index ⟨(i 0).val, ht⟩ (0 : Fin 3) * 1 + 1
    rw [e0']; omega
  | ⟨1, _⟩ =>
    show win0_4.index ⟨(i 0).val, ht⟩ (1 : Fin 3) * 256 ≤ (i 1).val ∧ (i 1).val < win0_4.index ⟨(i 0).val, ht⟩ (1 : Fin 3) * 256 + 256
    rw [e1]; omega
  | ⟨2, _⟩ =>
    show win0_4.index ⟨(i 0).val, ht⟩ (2 : Fin 3) * 32 ≤ (i 2).val ∧ (i 2).val < win0_4.index ⟨(i 0).val, ht⟩ (2 : Fin 3) * 32 + 32
    rw [e2]; omega

/-- So the result array ends holding the specification's. -/
theorem final (c : Dev nD) : (dats m 0 c).arrAt 4 cfg0.N = Gm m c :=
  (dats m 0 c).arrAt_eq_of_cover 4 (Gm m c) (fun t _ => flushed_eq m c t) cover

end Run

/-- The reference's run with its result array named: every weakly fair execution terminates without fault, the result
    array is `Spec.G` of the four argument arrays, and those end unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = Cert.Spec.G (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono (fun r h c => ⟨((h c).1 4).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.ReferenceIdeal.RefValue

end
-- ==== Proof.lean ====
/-
  Equivalence of a batched, transposed two-layer graph network kernel with its one-graph-per-step reference.

  Both programs compute, for each of 256 graphs with 256 nodes, two rounds of a learned node mask followed by a
  masked graph convolution, then two dense layers with a dropout scale between them. The reference handles one
  graph per grid point with nodes on the rows. The kernel handles 32 graphs per grid point with nodes on the
  columns (every matrix product transposed), takes its parameters repacked from the same slab, and in the second
  round multiplies by the first mask AFTER the input projection instead of before it — the same number because the
  mask is a logistic value, a real in [0, 1], and such a factor distributes over a sum of extended reals.

  The three frames: the reference's is its generated frame; the kernel's, at the word level and idealized, is the
  run of its body at every grid point behind the host repacking (KernelFrame, KernelIdealFrame). The idealization
  rewrote nothing, so there is nothing to preserve.

  The values: each program's result array is one whole-array function `Spec.G` of its four argument arrays — graph b's
  rows are the one-graph function `Spec.out` of graph b's features, adjacency and dropout scale under the slab's
  parameters (RefValue for the reference, KValue for the kernel) — and the argument arrays agree.
-/
import proofs.«122836_g2000103277586728_pallasbulk_447_7_alg».proof.Defs
import proofs.«122836_g2000103277586728_pallasbulk_447_7_alg».proof.Proof.Gen.Kernel
import proofs.«122836_g2000103277586728_pallasbulk_447_7_alg».proof.Proof.Gen.KernelIdeal
import proofs.«122836_g2000103277586728_pallasbulk_447_7_alg».proof.Proof.Gen.ReferenceIdeal
import proofs.«122836_g2000103277586728_pallasbulk_447_7_alg».proof.Proof.Gen.ReferenceIdeal.Frame
import proofs.«122836_g2000103277586728_pallasbulk_447_7_alg».proof.Proof.Gen.Pre_finite_inputs
import proofs.«122836_g2000103277586728_pallasbulk_447_7_alg».proof.Proof.KernelFrame
import proofs.«122836_g2000103277586728_pallasbulk_447_7_alg».proof.Proof.KernelIdealFrame
import proofs.«122836_g2000103277586728_pallasbulk_447_7_alg».proof.Proof.KValue
import proofs.«122836_g2000103277586728_pallasbulk_447_7_alg».proof.Proof.RefValue
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Body.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Body.frame m ρ

theorem frame_referenceIdeal : Cert.frame_ReferenceIdeal (hReferenceIdeal := Cert.ReferenceIdeal.Gen.facts) (hPre_finite_inputs := Cert.Pre_finite_inputs.Gen.facts) :=
  fun m ρ _ => Cert.ReferenceIdeal.Gen.frame m ρ

theorem preserves : Cert.preserves_Kernel_KernelIdeal := trivial

/-- Both runs end with the result array at `Spec.G` of the argument arrays, which agree. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KValue.run m ρ, ?_⟩
  refine (θ_run Cert.ReferenceIdeal.defs _ _).mono (fun r h c => ?_) (Cert.ReferenceIdeal.RefValue.run m' ρ')
  obtain ⟨h0, h1, h2, h3, h4⟩ := h c
  obtain ⟨a0, a1, a2, a3⟩ := hagree c
  refine ⟨?_, h1, h2, h3, h4⟩
  rw [h0, a0, a1, a2, a3]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
